-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S3x128x128 : Shape := ⟨3, ![3, 128, 128]⟩
abbrev S128 : Shape := ⟨1, ![128]⟩
abbrev S3x128x256 : Shape := ⟨3, ![3, 128, 256]⟩
abbrev S256 : Shape := ⟨1, ![256]⟩
abbrev S3x256x512 : Shape := ⟨3, ![3, 256, 512]⟩
abbrev S512 : Shape := ⟨1, ![512]⟩
abbrev S512x256 : Shape := ⟨2, ![512, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x256 : S_.BroadcastsInDim S3x128x256 (![] : Fin 0 → Fin S3x128x256.rank)
  reducesTo_S3x128x256_S_d0_1_2 : S3x128x256.ReducesTo [0, 1, 2] S_
  bcast_S_S256 : S_.BroadcastsInDim S256 (![] : Fin 0 → Fin S256.rank)
  reducesTo_S256_S_d0 : S256.ReducesTo [0] S_
  bcast_S_S3x256x512 : S_.BroadcastsInDim S3x256x512 (![] : Fin 0 → Fin S3x256x512.rank)
  reducesTo_S3x256x512_S_d0_1_2 : S3x256x512.ReducesTo [0, 1, 2] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part3 {F : FTy → Type} [FloatOps F] (main_arg1 : IVec S2x160000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_c_20 : IVec S_ 32 := constantI S_ 32 0#32
  let main_v54 : IVec S2x160000 32 := broadcastInDim S2x160000 ![] bcast_S_S2x160000 main_c_20
  let main_v55 : IVec S2x160000 1 := cmpi .sge main_arg1 main_v54
  let main_c_21 : IVec S_ 32 := constantI S_ 32 10000#32
  let main_v56 : IVec S2x160000 32 := broadcastInDim S2x160000 ![] bcast_S_S2x160000 main_c_21
  let main_v57 : IVec S2x160000 1 := cmpi .slt main_arg1 main_v56
  let main_v58 : IVec S2x160000 1 := andi main_v55 main_v57
  let main_c_22 : IVec S_ 1 := constantI S_ 1 1#1
  let main_v59 : IVec S_ 1 := (fun x v => Host.reduce IntOp.andi x v reducesTo_S2x160000_S_d0_1 h_S_) main_v58 main_c_22
  let main_v60 : IVec S_ 1 := andi main_v53 main_v59
  main_v60

def fn_part2 {F : FTy → Type} [FloatOps F] (main_arg1 : IVec S2x160000 32) (main_arg8 : FVec F S512x256 .f32) (main_arg9 : FVec F S256 .f32) (main_arg10 : FVec F S512x256 .f32) (main_arg11 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x256 .f32 := Host.absf main_arg10
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_v48 main_v49 main_v50

def fn_part1 {F : FTy → Type} [FloatOps F] (main_arg1 : IVec S2x160000 32) (main_arg5 : FVec F S256 .f32) (main_arg6 : FVec F S3x256x512 .f32) (main_arg7 : FVec F S512 .f32) (main_arg8 : FVec F S512x256 .f32) (main_arg9 : FVec F S256 .f32) (main_arg10 : FVec F S512x256 .f32) (main_arg11 : FVec F S256 .f32) (main_v13 : IVec S_ 1) (main_v16 : IVec S3x128x256 1) : IVec S_ 1 :=
  let main_c_5 : IVec S_ 1 := constantI S_ 1 1#1
  let main_v17 : IVec S_ 1 := (fun x v => Host.reduce IntOp.andi x v reducesTo_S3x128x256_S_d0_1_2 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x512 .f32 := Host.absf main_arg6
  let main_cst_8 : FVec F S_ .f32 := constant S_ .f32 0x7F800000#32
  let main_v25 : FVec F S3x256x512 .f32 := broadcastInDim S3x256x512 ![] bcast_S_S3x256x512 main_cst_8
  let main_v26 : IVec S3x256x512 1 := cmpf .olt main_v24 main_v25
  let main_c_9 : IVec S_ 1 := constantI S_ 1 1#1
  let main_v27 : IVec S_ 1 := (fun x v => Host.reduce IntOp.andi x v reducesTo_S3x256x512_S_d0_1_2 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S10000x128 .f32) (main_arg1 : IVec S2x160000 32) (main_arg2 : FVec F S3x128x128 .f32) (main_arg3 : FVec F S128 .f32) (main_arg4 : FVec F S3x128x256 .f32) (main_arg5 : FVec F S256 .f32) (main_arg6 : FVec F S3x256x512 .f32) (main_arg7 : FVec F S512 .f32) (main_arg8 : FVec F S512x256 .f32) (main_arg9 : FVec F S256 .f32) (main_arg10 : FVec F S512x256 .f32) (main_arg11 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x256 .f32 := Host.absf main_arg4
  let main_cst_4 : FVec F S_ .f32 := constant S_ .f32 0x7F800000#32
  let main_v15 : FVec F S3x128x256 .f32 := broadcastInDim S3x128x256 ![] bcast_S_S3x128x256 main_cst_4
  let main_v16 : IVec S3x128x256 1 := cmpf .olt main_v14 main_v15
  fn_part1 (F := F) main_arg1 main_arg5 main_arg6 main_arg7 main_arg8 main_arg9 main_arg10 main_arg11 main_v13 main_v16
-- ==== Kernel.lean ====
abbrev S10000x128 : Shape := ⟨2, ![10000, 128]⟩
abbrev S2x160000 : Shape := ⟨2, ![2, 160000]⟩
abbrev S3x128x128 : Shape := ⟨3, ![3, 128, 128]⟩
abbrev S128 : Shape := ⟨1, ![128]⟩
abbrev S3x128x256 : Shape := ⟨3, ![3, 128, 256]⟩
abbrev S256 : Shape := ⟨1, ![256]⟩
abbrev S3x256x512 : Shape := ⟨3, ![3, 256, 512]⟩
abbrev S512 : Shape := ⟨1, ![512]⟩
abbrev S512x256 : Shape := ⟨2, ![512, 256]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10240x10240 : Shape := ⟨2, ![10240, 10240]⟩
abbrev S160000x2 : Shape := ⟨2, ![160000, 2]⟩
abbrev S10240x128 : Shape := ⟨2, ![10240, 128]⟩
abbrev S1 : Shape := ⟨1, ![1]⟩
abbrev S1024x1024 : Shape := ⟨2, ![1024, 1024]⟩
abbrev S1024x128 : Shape := ⟨2, ![1024, 128]⟩
abbrev S10240x384 : Shape := ⟨2, ![10240, 384]⟩
abbrev S384x128 : Shape := ⟨2, ![384, 128]⟩
abbrev S1x128 : Shape := ⟨2, ![1, 128]⟩
abbrev S1024x384 : Shape := ⟨2, ![1024, 384]⟩
abbrev S384x256 : Shape := ⟨2, ![384, 256]⟩
abbrev S1x256 : Shape := ⟨2, ![1, 256]⟩
abbrev S10240x256 : Shape := ⟨2, ![10240, 256]⟩
abbrev S1024x256 : Shape := ⟨2, ![1024, 256]⟩
abbrev S10240x768 : Shape := ⟨2, ![10240, 768]⟩
abbrev S768x512 : Shape := ⟨2, ![768, 512]⟩
abbrev S1x512 : Shape := ⟨2, ![1, 512]⟩
abbrev S10240x512 : Shape := ⟨2, ![10240, 512]⟩
abbrev S1024x768 : Shape := ⟨2, ![1024, 768]⟩
abbrev S1024x512 : Shape := ⟨2, ![1024, 512]⟩
abbrev S512x512 : Shape := ⟨2, ![512, 512]⟩
abbrev S10000x256 : Shape := ⟨2, ![10000, 256]⟩

abbrev nBuf : Space → Nat
  | .hbm => 103
  | .vmem => 72
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S3x128x128, .f32⟩
  | .hbm, ⟨3, _⟩ => ⟨S128, .f32⟩
  | .hbm, ⟨4, _⟩ => ⟨S3x128x256, .f32⟩
  | .hbm, ⟨5, _⟩ => ⟨S256, .f32⟩
  | .hbm, ⟨6, _⟩ => ⟨S3x256x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S1x160000, .i32⟩
  | .hbm, ⟨13, _⟩ => ⟨S160000, .i32⟩
  | .hbm, ⟨14, _⟩ => ⟨S1x160000, .i32⟩
  | .hbm, ⟨15, _⟩ => ⟨S160000, .i32⟩
  | .hbm, ⟨16, _⟩ => ⟨S_, .f32⟩
  | .hbm, ⟨17, _⟩ => ⟨S160000, .f32⟩
  | .hbm, ⟨18, _⟩ => ⟨S_, .f32⟩
  | .hbm, ⟨19, _⟩ => ⟨S10000, .f32⟩
  | .hbm, ⟨20, _⟩ => ⟨S160000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S_, .i32⟩
  | .hbm, ⟨34, _⟩ => ⟨S160000, .i32⟩
  | .hbm, ⟨35, _⟩ => ⟨S160000, .i1⟩
  | .hbm, ⟨36, _⟩ => ⟨S_, .i32⟩
  | .hbm, ⟨37, _⟩ => ⟨S160000, .i32⟩
  | .hbm, ⟨38, _⟩ => ⟨S160000, .i32⟩
  | .hbm, ⟨39, _⟩ => ⟨S160000, .i32⟩
  | .hbm, ⟨40, _⟩ => ⟨S160000x1, .i32⟩
  | .hbm, ⟨41, _⟩ => ⟨S160000, .f32⟩
  | .hbm, ⟨42, _⟩ => ⟨S160000, .f32⟩
  | .hbm, ⟨43, _⟩ => ⟨S_, .i32⟩
  | .hbm, ⟨44, _⟩ => ⟨S160000, .i32⟩
  | .hbm, ⟨45, _⟩ => ⟨S160000, .i1⟩
  | .hbm, ⟨46, _⟩ => ⟨S_, .i32⟩
  | .hbm, ⟨47, _⟩ => ⟨S160000, .i32⟩
  | .hbm, ⟨48, _⟩ => ⟨S160000, .i32⟩
  | .hbm, ⟨49, _⟩ => ⟨S160000, .i32⟩
  | .hbm, ⟨50, _⟩ => ⟨S160000x1, .i32⟩
  | .hbm, ⟨51, _⟩ => ⟨S160000, .f32⟩
  | .hbm, ⟨52, _⟩ => ⟨S160000, .f32⟩
  | .hbm, ⟨53, _⟩ => ⟨S_, .f32⟩
  | .hbm, ⟨54, _⟩ => ⟨S10240x10240, .f32⟩
  | .hbm, ⟨55, _⟩ => ⟨S_, .i32⟩
  | .hbm, ⟨56, _⟩ => ⟨S160000, .i32⟩
  | .hbm, ⟨57, _⟩ => ⟨S160000, .i1⟩
  | .hbm, ⟨58, _⟩ => ⟨S_, .i32⟩
  | .hbm, ⟨59, _⟩ => ⟨S160000, .i32⟩
  | .hbm, ⟨60, _⟩ => ⟨S160000, .i32⟩
  | .hbm, ⟨61, _⟩ => ⟨S160000, .i32⟩
  | .hbm, ⟨62, _⟩ => ⟨S_, .i32⟩
  | .hbm, ⟨63, _⟩ => ⟨S160000, .i32⟩
  | .hbm, ⟨64, _⟩ => ⟨S160000, .i1⟩
  | .hbm, ⟨65, _⟩ => ⟨S_, .i32⟩
  | .hbm, ⟨66, _⟩ => ⟨S160000, .i32⟩
  | .hbm, ⟨67, _⟩ => ⟨S160000, .i32⟩
  | .hbm, ⟨68, _⟩ => ⟨S160000, .i32⟩
  | .hbm, ⟨69, _⟩ => ⟨S160000x1, .i32⟩
  | .hbm, ⟨70, _⟩ => ⟨S160000x1, .i32⟩
  | .hbm, ⟨71, _⟩ => ⟨S160000x2, .i32⟩
  | .hbm, ⟨72, _⟩ => ⟨S10240x10240, .f32⟩
  | .hbm, ⟨73, _⟩ => ⟨S10240x10240, .bf16⟩
  | .hbm, ⟨74, _⟩ => ⟨S_, .f32⟩
  | .hbm, ⟨75, _⟩ => ⟨S10240x128, .f32⟩
  | .hbm, ⟨76, _⟩ => ⟨S_, .i32⟩
  | .hbm, ⟨77, _⟩ => ⟨S1, .i32⟩
  | .hbm, ⟨78, _⟩ => ⟨S10240x128, .f32⟩
  | .hbm, ⟨79, _⟩ => ⟨S10240x128, .f32⟩
  | .hbm, ⟨80, _⟩ => ⟨S10240x128, .f32⟩
  | .hbm, ⟨81, _⟩ => ⟨S10240x384, .f32⟩
  | .hbm, ⟨82, _⟩ => ⟨S384x128, .f32⟩
  | .hbm, ⟨83, _⟩ => ⟨S1x128, .f32⟩
  | .hbm, ⟨84, _⟩ => ⟨S10240x128, .f32⟩
  | .hbm, ⟨85, _⟩ => ⟨S10240x128, .f32⟩
  | .hbm, ⟨86, _⟩ => ⟨S10240x128, .f32⟩
  | .hbm, ⟨87, _⟩ => ⟨S10240x384, .f32⟩
  | .hbm, ⟨88, _⟩ => ⟨S384x256, .f32⟩
  | .hbm, ⟨89, _⟩ => ⟨S1x256, .f32⟩
  | .hbm, ⟨90, _⟩ => ⟨S10240x256, .f32⟩
  | .hbm, ⟨91, _⟩ => ⟨S10240x256, .f32⟩
  | .hbm, ⟨92, _⟩ => ⟨S10240x256, .f32⟩
  | .hbm, ⟨93, _⟩ => ⟨S10240x768, .f32⟩
  | .hbm, ⟨94, _⟩ => ⟨S768x512, .f32⟩
  | .hbm, ⟨95, _⟩ => ⟨S1x512, .f32⟩
  | .hbm, ⟨96, _⟩ => ⟨S10240x512, .f32⟩
  | .hbm, ⟨97, _⟩ => ⟨S512x512, .f32⟩
  | .hbm, ⟨98, _⟩ => ⟨S512, .f32⟩
  | .hbm, ⟨99, _⟩ => ⟨S1x512, .f32⟩
  | .hbm, ⟨100, _⟩ => ⟨S10240x512, .f32⟩
  | .hbm, ⟨101, _⟩ => ⟨S10000x256, .f32⟩
  | .hbm, ⟨102, _⟩ => ⟨S10000x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x384, .f32⟩
  | .local _ .vmem, ⟨17, _⟩ => ⟨S1024x384, .f32⟩
  | .local _ .vmem, ⟨18, _⟩ => ⟨S384x128, .f32⟩
  | .local _ .vmem, ⟨19, _⟩ => ⟨S1x128, .f32⟩
  | .local _ .vmem, ⟨20, _⟩ => ⟨S1024x128, .f32⟩
  | .local _ .vmem, ⟨21, _⟩ => ⟨S1024x128, .f32⟩
  | .local _ .vmem, ⟨22, _⟩ => ⟨S1024x1024, .bf16⟩
  | .local _ .vmem, ⟨23, _⟩ => ⟨S1024x1024, .bf16⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x1024, .bf16⟩
  | .local _ .vmem, ⟨30, _⟩ => ⟨S1024x1024, .bf16⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x384, .f32⟩
  | .local _ .vmem, ⟨39, _⟩ => ⟨S1024x384, .f32⟩
  | .local _ .vmem, ⟨40, _⟩ => ⟨S384x256, .f32⟩
  | .local _ .vmem, ⟨41, _⟩ => ⟨S1x256, .f32⟩
  | .local _ .vmem, ⟨42, _⟩ => ⟨S1024x256, .f32⟩
  | .local _ .vmem, ⟨43, _⟩ => ⟨S1024x256, .f32⟩
  | .local _ .vmem, ⟨44, _⟩ => ⟨S1024x1024, .bf16⟩
  | .local _ .vmem, ⟨45, _⟩ => ⟨S1024x1024, .bf16⟩
  | .local _ .vmem, ⟨46, _⟩ => ⟨S1024x256, .f32⟩
  | .local _ .vmem, ⟨47, _⟩ => ⟨S1024x256, .f32⟩
  | .local _ .vmem, ⟨48, _⟩ => ⟨S1024x256, .f32⟩
  | .local _ .vmem, ⟨49, _⟩ => ⟨S1024x256, .f32⟩
  | .local _ .vmem, ⟨50, _⟩ => ⟨S1024x256, .f32⟩
  | .local _ .vmem, ⟨51, _⟩ => ⟨S1024x1024, .bf16⟩
  | .local _ .vmem, ⟨52, _⟩ => ⟨S1024x1024, .bf16⟩
  | .local _ .vmem, ⟨53, _⟩ => ⟨S1024x256, .f32⟩
  | .local _ .vmem, ⟨54, _⟩ => ⟨S1024x256, .f32⟩
  | .local _ .vmem, ⟨55, _⟩ => ⟨S1024x256, .f32⟩
  | .local _ .vmem, ⟨56, _⟩ => ⟨S1024x256, .f32⟩
  | .local _ .vmem, ⟨57, _⟩ => ⟨S1024x256, .f32⟩
  | .local _ .vmem, ⟨58, _⟩ => ⟨S1024x256, .f32⟩
  | .local _ .vmem, ⟨59, _⟩ => ⟨S1024x256, .f32⟩
  | .local _ .vmem, ⟨60, _⟩ => ⟨S1024x768, .f32⟩
  | .local _ .vmem, ⟨61, _⟩ => ⟨S1024x768, .f32⟩
  | .local _ .vmem, ⟨62, _⟩ => ⟨S768x512, .f32⟩
  | .local _ .vmem, ⟨63, _⟩ => ⟨S1x512, .f32⟩
  | .local _ .vmem, ⟨64, _⟩ => ⟨S1024x512, .f32⟩
  | .local _ .vmem, ⟨65, _⟩ => ⟨S1024x512, .f32⟩
  | .local _ .vmem, ⟨66, _⟩ => ⟨S1024x512, .f32⟩
  | .local _ .vmem, ⟨67, _⟩ => ⟨S1024x512, .f32⟩
  | .local _ .vmem, ⟨68, _⟩ => ⟨S512x512, .f32⟩
  | .local _ .vmem, ⟨69, _⟩ => ⟨S1x512, .f32⟩
  | .local _ .vmem, ⟨70, _⟩ => ⟨S1024x512, .f32⟩
  | .local _ .vmem, ⟨71, _⟩ => ⟨S1024x512, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_10 : Ref sig .tc := ⟨.hbm, 62, rfl⟩
abbrev main_v36 : Ref sig .tc := ⟨.hbm, 63, rfl⟩
abbrev main_v37 : Ref sig .tc := ⟨.hbm, 64, rfl⟩
abbrev main_c_11 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_c_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_scratch0 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg3_1 : Ref sig .tc := ⟨.vmem, 58, rfl⟩
abbrev cc7_scratch0 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![10, 10], ![false, false]⟩

def k3_cond2 (i : grid3.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![10, 10], ![false, false]⟩

def k4_cond2 (i : grid4.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x384 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S384x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![10, 10], ![false, false]⟩

def k6_cond2 (i : grid6.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![10, 10], ![false, false]⟩

def k7_cond2 (i : grid7.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1024x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x768 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S768x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S1024x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1024x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S_S10240x10240 : S_.BroadcastsInDim S10240x10240 (![] : Fin 0 → Fin S10240x10240.rank)
  concatenates_S160000x1_S160000x1_S160000x2_d1 : Shape.Concatenates [S160000x1, S160000x1] S160000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  concatenates_S10240x128_S10240x128_S10240x128_S10240x384_d1 : Shape.Concatenates [S10240x128, S10240x128, S10240x128] S10240x384 1
  shapeCasts_S3x128x128_S384x128 : S3x128x128.ShapeCasts S384x128
  shapeCasts_S128_S1x128 : S128.ShapeCasts S1x128
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S3x128x256_S384x256 : S3x128x256.ShapeCasts S384x256
  shapeCasts_S256_S1x256 : S256.ShapeCasts S1x256
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S10240x256_S10240x256_S10240x256_S10240x768_d1 : Shape.Concatenates [S10240x256, S10240x256, S10240x256] S10240x768 1
  shapeCasts_S3x256x512_S768x512 : S3x256x512.ShapeCasts S768x512
  shapeCasts_S512_S1x512 : S512.ShapeCasts S1x512
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  concatenates_S512x256_S512x256_S512x512_d1 : Shape.Concatenates [S512x256, S512x256] S512x512 1
  concatenates_S256_S256_S512_d0 : Shape.Concatenates [S256, S256] S512 0
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S10240x512_S10000x256_0_0 : S10240x512.Slices ![0, 0] S10000x256
  slices_S10240x512_S10000x256_0_256 : S10240x512.Slices ![0, 256] S10000x256
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S10240x10240_S160000x2_S160000_n_01_01_1_wf : ScatterDims.WF S10240x10240 S160000x2 S160000 [] [0, 1] [0, 1] 1
  scatter_S10240x128_S1_S10000x128_01_n_0_0_wf : ScatterDims.WF S10240x128 S1 S10000x128 [0, 1] [] [0] 0
  dot_S1024x1024_S1024x128_S1024x128_1_0_0_1_n_n_wf : DotDims.WF S1024x1024 S1024x128 S1024x128 [1] [0] [0] [1] [] []
  dot_S1024x384_S384x128_S1024x128_1_0_0_1_n_n_wf : DotDims.WF S1024x384 S384x128 S1024x128 [1] [0] [0] [1] [] []
  dot_S1024x384_S384x256_S1024x256_1_0_0_1_n_n_wf : DotDims.WF S1024x384 S384x256 S1024x256 [1] [0] [0] [1] [] []
  dot_S1024x1024_S1024x256_S1024x256_1_0_0_1_n_n_wf : DotDims.WF S1024x1024 S1024x256 S1024x256 [1] [0] [0] [1] [] []
  dot_S1024x768_S768x512_S1024x512_1_0_0_1_n_n_wf : DotDims.WF S1024x768 S768x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .bf16 = 32 ∨ (Rect.block (s := S10240x10240) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S10240x128.size a
  hwx0_1 : ∀ i : grid0.Coords, EltTy.bits .f32 = 32 ∨ (Rect.block (s := S10240x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S10240x128.size a
  hwx0_2 : ∀ i : grid0.Coords, EltTy.bits .f32 = 32 ∨ (Rect.block (s := S10240x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .bf16 = 32 ∨ (Rect.block (s := S10240x10240) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S10240x128.size a
  hwx1_1 : ∀ i : grid1.Coords, EltTy.bits .f32 = 32 ∨ (Rect.block (s := S10240x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S10240x128.size a
  hwx1_2 : ∀ i : grid1.Coords, EltTy.bits .f32 = 32 ∨ (Rect.block (s := S10240x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S10240x128.size a
  hwx1_3 : ∀ i : grid1.Coords, EltTy.bits .f32 = 32 ∨ (Rect.block (s := S10240x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x384.size a ≤ S10240x384.size a
  hwx2_0 : ∀ i : grid2.Coords, EltTy.bits .f32 = 32 ∨ (Rect.block (s := S10240x384) S1024x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .f32 = 32 ∨ (Rect.block (s := S384x128) S384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S10240x128.size a
  hwx2_3 : ∀ i : grid2.Coords, EltTy.bits .f32 = 32 ∨ (Rect.block (s := S10240x128) S1024x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S10240x10240.size a
  hwx3_0 : ∀ i : grid3.Coords, EltTy.bits .bf16 = 32 ∨ (Rect.block (s := S10240x10240) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S10240x128.size a
  hwx3_1 : ∀ i : grid3.Coords, EltTy.bits .f32 = 32 ∨ (Rect.block (s := S10240x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S10240x128.size a
  hwx3_2 : ∀ i : grid3.Coords, EltTy.bits .f32 = 32 ∨ (Rect.block (s := S10240x128) S1024x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S10240x10240.size a
  hwx4_0 : ∀ i : grid4.Coords, EltTy.bits .bf16 = 32 ∨ (Rect.block (s := S10240x10240) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S10240x128.size a
  hwx4_1 : ∀ i : grid4.Coords, EltTy.bits .f32 = 32 ∨ (Rect.block (s := S10240x128) S1024x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S10240x128.size a
  hwx4_2 : ∀ i : grid4.Coords, EltTy.bits .f32 = 32 ∨ (Rect.block (s := S10240x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S10240x128.size a
  hwx4_3 : ∀ i : grid4.Coords, EltTy.bits .f32 = 32 ∨ (Rect.block (s := S10240x128) S1024x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x384.size a ≤ S10240x384.size a
  hwx5_0 : ∀ i : grid5.Coords, EltTy.bits .f32 = 32 ∨ (Rect.block (s := S10240x384) S1024x384.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S384x256.size a ≤ S384x256.size a
  hwx5_1 : ∀ i : grid5.Coords, EltTy.bits .f32 = 32 ∨ (Rect.block (s := S384x256) S384x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S10240x256.size a
  hwx5_3 : ∀ i : grid5.Coords, EltTy.bits .f32 = 32 ∨ (Rect.block (s := S10240x256) S1024x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S10240x10240.size a
  hwx6_0 : ∀ i : grid6.Coords, EltTy.bits .bf16 = 32 ∨ (Rect.block (s := S10240x10240) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S10240x256.size a
  hwx6_1 : ∀ i : grid6.Coords, EltTy.bits .f32 = 32 ∨ (Rect.block (s := S10240x256) S1024x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x256.size a ≤ S10240x256.size a
  hwx6_2 : ∀ i : grid6.Coords, EltTy.bits .f32 = 32 ∨ (Rect.block (s := S10240x256) S1024x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S10240x10240.size a
  hwx7_0 : ∀ i : grid7.Coords, EltTy.bits .bf16 = 32 ∨ (Rect.block (s := S10240x10240) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x256.size a ≤ S10240x256.size a
  hwx7_1 : ∀ i : grid7.Coords, EltTy.bits .f32 = 32 ∨ (Rect.block (s := S10240x256) S1024x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x256.size a ≤ S10240x256.size a
  hwx7_2 : ∀ i : grid7.Coords, EltTy.bits .f32 = 32 ∨ (Rect.block (s := S10240x256) S1024x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x256.size a ≤ S10240x256.size a
  hwx7_3 : ∀ i : grid7.Coords, EltTy.bits .f32 = 32 ∨ (Rect.block (s := S10240x256) S1024x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x768.size a ≤ S10240x768.size a
  hwx8_0 : ∀ i : grid8.Coords, EltTy.bits .f32 = 32 ∨ (Rect.block (s := S10240x768) S1024x768.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S768x512.size a ≤ S768x512.size a
  hwx8_1 : ∀ i : grid8.Coords, EltTy.bits .f32 = 32 ∨ (Rect.block (s := S768x512) S768x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x512.size a ≤ S10240x512.size a
  hwx8_3 : ∀ i : grid8.Coords, EltTy.bits .f32 = 32 ∨ (Rect.block (s := S10240x512) S1024x512.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x512.size a ≤ S10240x512.size a
  hwx9_0 : ∀ i : grid9.Coords, EltTy.bits .f32 = 32 ∨ (Rect.block (s := S10240x512) S1024x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x512.size a ≤ S512x512.size a
  hwx9_1 : ∀ i : grid9.Coords, EltTy.bits .f32 = 32 ∨ (Rect.block (s := S512x512) S512x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x512.size a ≤ S10240x512.size a
  hwx9_3 : ∀ i : grid9.Coords, EltTy.bits .f32 = 32 ∨ (Rect.block (s := S10240x512) S1024x512.size (cc9_transform_3 i) (hinb9_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v45) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v45) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v51) S1024x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v45) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v57) S1024x384.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S384x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S1024x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v45) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v60) S1024x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1024x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v45) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v61) S1024x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v60) S1024x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v62) S1024x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v63) S1024x768.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v64) S768x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v65) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v66) S1024x512.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v66) S1024x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v67) S512x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v69) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v70) S1024x512.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S3x128x128 : Shape := ⟨3, ![3, 128, 128]⟩
abbrev S128 : Shape := ⟨1, ![128]⟩
abbrev S3x128x256 : Shape := ⟨3, ![3, 128, 256]⟩
abbrev S256 : Shape := ⟨1, ![256]⟩
abbrev S3x256x512 : Shape := ⟨3, ![3, 256, 512]⟩
abbrev S512 : Shape := ⟨1, ![512]⟩
abbrev S512x256 : Shape := ⟨2, ![512, 256]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S160000x128 : Shape := ⟨2, ![160000, 128]⟩
abbrev S1x128x128 : Shape := ⟨3, ![1, 128, 128]⟩
abbrev S128x128 : Shape := ⟨2, ![128, 128]⟩
abbrev S1x128 : Shape := ⟨2, ![1, 128]⟩
abbrev S1x128x256 : Shape := ⟨3, ![1, 128, 256]⟩
abbrev S128x256 : Shape := ⟨2, ![128, 256]⟩
abbrev S10000x256 : Shape := ⟨2, ![10000, 256]⟩
abbrev S1x256 : Shape := ⟨2, ![1, 256]⟩
abbrev S160000x256 : Shape := ⟨2, ![160000, 256]⟩
abbrev S1x256x512 : Shape := ⟨3, ![1, 256, 512]⟩
abbrev S256x512 : Shape := ⟨2, ![256, 512]⟩
abbrev S10000x512 : Shape := ⟨2, ![10000, 512]⟩
abbrev S1x512 : Shape := ⟨2, ![1, 512]⟩

abbrev nBuf : Space → Nat
  | .hbm => 220
  | .vmem => 0
  | .smem => 0
  | _ => 0

abbrev hbmTy0_0 (i : Nat) : BufTy := match i % 128 with
  | 0 => ⟨S10000x128, .f32⟩
  | 1 => ⟨S2x160000, .i32⟩
  | 2 => ⟨S3x128x128, .f32⟩
  | 3 => ⟨S128, .f32⟩
  | 4 => ⟨S3x128x256, .f32⟩
  | 5 => ⟨S256, .f32⟩
  | 6 => ⟨S3x256x512, .f32⟩
  | 7 => ⟨S512, .f32⟩
  | 8 => ⟨S512x256, .f32⟩
  | 9 => ⟨S256, .f32⟩
  | 10 => ⟨S512x256, .f32⟩
  | 11 => ⟨S256, .f32⟩
  | 12 => ⟨S1x160000, .i32⟩
  | 13 => ⟨S160000, .i32⟩
  | 14 => ⟨S1x160000, .i32⟩
  | 15 => ⟨S160000, .i32⟩
  | 16 => ⟨S_, .f32⟩
  | 17 => ⟨S160000, .f32⟩
  | 18 => ⟨S_, .f32⟩
  | 19 => ⟨S10000, .f32⟩
  | 20 => ⟨S160000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S10000, .f32⟩
  | 28 => ⟨S10000, .f32⟩
  | 29 => ⟨S_, .f32⟩
  | 30 => ⟨S_, .f32⟩
  | 31 => ⟨S10000, .f32⟩
  | 32 => ⟨S10000, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000, .f32⟩
  | 42 => ⟨S160000, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000, .f32⟩
  | 52 => ⟨S160000, .f32⟩
  | 53 => ⟨S160000x1, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x128, .f32⟩
  | 63 => ⟨S160000x128, .f32⟩
  | 64 => ⟨S160000x128, .f32⟩
  | 65 => ⟨S_, .f32⟩
  | 66 => ⟨S10000x128, .f32⟩
  | 67 => ⟨S160000x1, .i32⟩
  | 68 => ⟨S10000x128, .f32⟩
  | 69 => ⟨S160000x1, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x128, .f32⟩
  | 79 => ⟨S160000x128, .f32⟩
  | 80 => ⟨S160000x128, .f32⟩
  | 81 => ⟨S_, .f32⟩
  | 82 => ⟨S10000x128, .f32⟩
  | 83 => ⟨S160000x1, .i32⟩
  | 84 => ⟨S10000x128, .f32⟩
  | 85 => ⟨S_, .f32⟩
  | 86 => ⟨S10000x128, .f32⟩
  | 87 => ⟨S10000x128, .f32⟩
  | 88 => ⟨S10000x128, .f32⟩
  | 89 => ⟨S1x128x128, .f32⟩
  | 90 => ⟨S128x128, .f32⟩
  | 91 => ⟨S10000x128, .f32⟩
  | 92 => ⟨S1x128x128, .f32⟩
  | 93 => ⟨S128x128, .f32⟩
  | 94 => ⟨S10000x128, .f32⟩
  | 95 => ⟨S10000x128, .f32⟩
  | 96 => ⟨S1x128x128, .f32⟩
  | 97 => ⟨S128x128, .f32⟩
  | 98 => ⟨S10000x128, .f32⟩
  | 99 => ⟨S10000x128, .f32⟩
  | 100 => ⟨S1x128, .f32⟩
  | 101 => ⟨S10000x128, .f32⟩
  | 102 => ⟨S10000x128, .f32⟩
  | 103 => ⟨S_, .f32⟩
  | 104 => ⟨S10000x128, .f32⟩
  | 105 => ⟨S10000x128, .f32⟩
  | 106 => ⟨S160000x1, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000x128, .f32⟩
  | 116 => ⟨S160000x128, .f32⟩
  | 117 => ⟨S160000x128, .f32⟩
  | 118 => ⟨S_, .f32⟩
  | 119 => ⟨S10000x128, .f32⟩
  | 120 => ⟨S160000x1, .i32⟩
  | 121 => ⟨S10000x128, .f32⟩
  | 122 => ⟨S160000x1, .f32⟩
  | 123 => ⟨S_, .i32⟩
  | 124 => ⟨S160000, .i32⟩
  | 125 => ⟨S160000, .i1⟩
  | 126 => ⟨S_, .i32⟩
  | 127 => ⟨S160000, .i32⟩
  | _ => ⟨S10000x128, .f32⟩

abbrev hbmTy0_1 (i : Nat) : BufTy := match i % 128 with
  | 0 => ⟨S160000, .i32⟩
  | 1 => ⟨S160000, .i32⟩
  | 2 => ⟨S160000x1, .i32⟩
  | 3 => ⟨S160000x128, .f32⟩
  | 4 => ⟨S160000x128, .f32⟩
  | 5 => ⟨S160000x128, .f32⟩
  | 6 => ⟨S_, .f32⟩
  | 7 => ⟨S10000x128, .f32⟩
  | 8 => ⟨S160000x1, .i32⟩
  | 9 => ⟨S10000x128, .f32⟩
  | 10 => ⟨S_, .f32⟩
  | 11 => ⟨S10000x128, .f32⟩
  | 12 => ⟨S10000x128, .f32⟩
  | 13 => ⟨S10000x128, .f32⟩
  | 14 => ⟨S1x128x256, .f32⟩
  | 15 => ⟨S128x256, .f32⟩
  | 16 => ⟨S10000x256, .f32⟩
  | 17 => ⟨S1x128x256, .f32⟩
  | 18 => ⟨S128x256, .f32⟩
  | 19 => ⟨S10000x256, .f32⟩
  | 20 => ⟨S10000x256, .f32⟩
  | 21 => ⟨S1x128x256, .f32⟩
  | 22 => ⟨S128x256, .f32⟩
  | 23 => ⟨S10000x256, .f32⟩
  | 24 => ⟨S10000x256, .f32⟩
  | 25 => ⟨S1x256, .f32⟩
  | 26 => ⟨S10000x256, .f32⟩
  | 27 => ⟨S10000x256, .f32⟩
  | 28 => ⟨S_, .f32⟩
  | 29 => ⟨S10000x256, .f32⟩
  | 30 => ⟨S10000x256, .f32⟩
  | 31 => ⟨S160000x1, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x256, .f32⟩
  | 41 => ⟨S160000x256, .f32⟩
  | 42 => ⟨S160000x256, .f32⟩
  | 43 => ⟨S_, .f32⟩
  | 44 => ⟨S10000x256, .f32⟩
  | 45 => ⟨S160000x1, .i32⟩
  | 46 => ⟨S10000x256, .f32⟩
  | 47 => ⟨S160000x1, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S160000x256, .f32⟩
  | 57 => ⟨S160000x256, .f32⟩
  | 58 => ⟨S160000x256, .f32⟩
  | 59 => ⟨S_, .f32⟩
  | 60 => ⟨S10000x256, .f32⟩
  | 61 => ⟨S160000x1, .i32⟩
  | 62 => ⟨S10000x256, .f32⟩
  | 63 => ⟨S_, .f32⟩
  | 64 => ⟨S10000x256, .f32⟩
  | 65 => ⟨S10000x256, .f32⟩
  | 66 => ⟨S10000x256, .f32⟩
  | 67 => ⟨S1x256x512, .f32⟩
  | 68 => ⟨S256x512, .f32⟩
  | 69 => ⟨S10000x512, .f32⟩
  | 70 => ⟨S1x256x512, .f32⟩
  | 71 => ⟨S256x512, .f32⟩
  | 72 => ⟨S10000x512, .f32⟩
  | 73 => ⟨S10000x512, .f32⟩
  | 74 => ⟨S1x256x512, .f32⟩
  | 75 => ⟨S256x512, .f32⟩
  | 76 => ⟨S10000x512, .f32⟩
  | 77 => ⟨S10000x512, .f32⟩
  | 78 => ⟨S1x512, .f32⟩
  | 79 => ⟨S10000x512, .f32⟩
  | 80 => ⟨S10000x512, .f32⟩
  | 81 => ⟨S_, .f32⟩
  | 82 => ⟨S10000x512, .f32⟩
  | 83 => ⟨S10000x512, .f32⟩
  | 84 => ⟨S10000x256, .f32⟩
  | 85 => ⟨S1x256, .f32⟩
  | 86 => ⟨S10000x256, .f32⟩
  | 87 => ⟨S10000x256, .f32⟩
  | 88 => ⟨S10000x256, .f32⟩
  | 89 => ⟨S1x256, .f32⟩
  | 90 => ⟨S10000x256, .f32⟩
  | 91 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call1_cst : Ref sig .tc := ⟨.hbm, 103, rfl⟩
abbrev main_call1_v0 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_c_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_19 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_20 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_call2_cst : Ref sig .tc := ⟨.hbm, 156, rfl⟩
abbrev main_call2_v0 : Ref sig .tc := ⟨.hbm, 157, rfl⟩
abbrev main_v117 : Ref sig .tc := ⟨.hbm, 158, rfl⟩
abbrev main_v118 : Ref sig .tc := ⟨.hbm, 159, rfl⟩
abbrev main_c_21 : Ref sig .tc := ⟨.hbm, 160, rfl⟩
abbrev main_v119 : Ref sig .tc := ⟨.hbm, 161, rfl⟩
abbrev main_v120 : Ref sig .tc := ⟨.hbm, 162, rfl⟩
abbrev main_c_22 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_23 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_24 : Ref sig .tc := ⟨.hbm, 176, rfl⟩
abbrev main_v132 : Ref sig .tc := ⟨.hbm, 177, rfl⟩
abbrev main_v133 : Ref sig .tc := ⟨.hbm, 178, rfl⟩
abbrev main_c_25 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_26 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_27 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_call3_cst : Ref sig .tc := ⟨.hbm, 209, rfl⟩
abbrev main_call3_v0 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S160000x1_S160000x128_0_1 : S160000x1.BroadcastsInDim S160000x128 (![0, 1] : Fin 2 → Fin S160000x128.rank)
  bcast_S_S10000x128 : S_.BroadcastsInDim S10000x128 (![] : Fin 0 → Fin S10000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S3x128x256_S1x128x256_0_0_0 : S3x128x256.Slices ![0, 0, 0] S1x128x256
  shapeCasts_S1x128x256_S128x256 : S1x128x256.ShapeCasts S128x256
  slices_S3x128x256_S1x128x256_1_0_0 : S3x128x256.Slices ![1, 0, 0] S1x128x256
  slices_S3x128x256_S1x128x256_2_0_0 : S3x128x256.Slices ![2, 0, 0] S1x128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S160000x1_S160000x256_0_1 : S160000x1.BroadcastsInDim S160000x256 (![0, 1] : Fin 2 → Fin S160000x256.rank)
  slices_S3x256x512_S1x256x512_0_0_0 : S3x256x512.Slices ![0, 0, 0] S1x256x512
  shapeCasts_S1x256x512_S256x512 : S1x256x512.ShapeCasts S256x512
  slices_S3x256x512_S1x256x512_1_0_0 : S3x256x512.Slices ![1, 0, 0] S1x256x512
  slices_S3x256x512_S1x256x512_2_0_0 : S3x256x512.Slices ![2, 0, 0] S1x256x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x512_S10000x512_1_0_0_1_n_n_wf : DotDims.WF S10000x256 S256x512 S10000x512 [1] [0] [0] [1] [] []
  dot_S10000x512_S512x256_S10000x256_1_0_0_1_n_n_wf : DotDims.WF S10000x512 S512x256 S10000x256 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.RefFrame.lean ====
/-
  The reference program is a straight line of host operations: it has no kernel launch, every weakly fair
  execution runs the operations in order and stops, and no operation writes an argument buffer. Its frame
  claim is therefore its run with the statement about the results dropped.
-/
import proofs.«130334_j70351564308694_1_alg».proof.Defs
import proofs.«130334_j70351564308694_1_alg».proof.Proof.RefRun

noncomputable section

open Idealize.ShloMosaic Idealize.ShloMosaic.TcCoe Idealize.SL.Sem

namespace Cert.Proof.RefFrame

/-- Every weakly fair execution of the reference ends, faults nowhere, and leaves the arguments as launched. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.ValueP.run (F := Ideal) m ρ)

end Cert.Proof.RefFrame

end
-- ==== Proof.K.Reg0.lean ====
/- One propagation product of the Chebyshev stack, blocked: the [10240, 10240] matrix times a [10240, Fw] right factor,
   over a 10 × 10 grid of points (i, k), k fastest. At the point (i, k) the body adds to an f32 accumulator the product of
   block (i, k) of the matrix with block k of the right factor rounded to bf16; the accumulator is zeroed at k = 0 and
   copied into row block i of the result at k = 9. The accumulator after (i, k) is therefore the in-order sum
   (((0 + d 0) + d 1) + … + d k) of the block products d j of row block i, and row block i of the result is that sum at
   k = 9. Stated here: the proof data of the region (what each window's buffer holds after each point, the invariant
   carrying the accumulator at that sum), the body's obligation at every point by the three cases k = 0, 0 < k < 9,
   k = 9, and how the invariant meets what the region is entered with and gives it back. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid -/

/-- The first conditional (the reduction index is 0: the accumulator is reset). -/
abbrev cReset_0 (i : grid0.Coords) : Prop := (Scalar.cmpi .ne (Scalar.extui (Scalar.cmpi .eq (BitVec.ofNat 32 (i 1).val) 0#32)) 0#32) = 1#1
theorem hReset_0 : ∀ t : Fin cfg0.N, cReset_0 (grid0.coords t) ↔ t.val % 10 = 0 :=
  (by decide +kernel : ∀ t : Fin grid0.N, cReset_0 (grid0.coords t) ↔ t.val % 10 = 0)
/-- The second conditional (the reduction index is 9: the accumulator is copied to the output block). -/
abbrev cLast_0 (i : grid0.Coords) : Prop := k0_cond2 i = 1#1
theorem hLast_0 : ∀ t : Fin cfg0.N, cLast_0 (grid0.coords t) ↔ t.val % 10 = 9 :=
  (by decide +kernel : ∀ t : Fin grid0.N, cLast_0 (grid0.coords t) ↔ t.val % 10 = 9)

/-- The inputs are never idle; the output block is idle, and not written back, exactly off the last reduction index. -/
theorem liveAt_0_0 : ∀ t : Fin cfg0.N, cfg0.idle 0 (grid0.coords t) = false := by decide +kernel
theorem liveAt_0_1 : ∀ t : Fin cfg0.N, cfg0.idle 1 (grid0.coords t) = false := by decide +kernel
theorem idleAt_0_2 : ∀ t : Fin cfg0.N, ¬cLast_0 (grid0.coords t) → cfg0.idle 2 (grid0.coords t) = true := by decide +kernel
theorem noFlush_0_2 : ∀ t : Fin cfg0.N, ¬cLast_0 (grid0.coords t) → (cfg0.win 2).flush t = false := by decide +kernel
theorem liveAt_0_2 : ∀ t : Fin cfg0.N, cLast_0 (grid0.coords t) → cfg0.idle 2 (grid0.coords t) = false := by decide +kernel

/-- The staging memrefs at a point, as the pipeline passes them, and the scratch accumulator. -/
abbrev ms_0_0 (t : Fin cfg0.N) : Memref sig .tc .vmem S1024x1024 .bf16 := win0_0.stage (cfg0.slots t 0)
abbrev hs_0_0 (t : Fin cfg0.N) : (ms_0_0 t).IsWhole := hstage0_0 ((cfg0.slots t 0).cast nbuf0_0)
abbrev ms_0_1 (t : Fin cfg0.N) : Memref sig .tc .vmem S1024x128 .f32 := win0_1.stage (cfg0.slots t 1)
abbrev hs_0_1 (t : Fin cfg0.N) : (ms_0_1 t).IsWhole := hstage0_1 ((cfg0.slots t 1).cast nbuf0_1)
abbrev ms_0_2 (t : Fin cfg0.N) : Memref sig .tc .vmem S1024x128 .f32 := win0_2.stage (cfg0.slots t 2)
abbrev hs_0_2 (t : Fin cfg0.N) : (ms_0_2 t).IsWhole := hstage0_2 ((cfg0.slots t 2).cast nbuf0_2)
abbrev scM_0 : Memref sig .tc .vmem S1024x128 .f32 := Memref.whole cc0_scratch0
abbrev VS_0 : View sig .tc .vmem S1024x128 .f32 := (scM_0).view
abbrev VO_0 : View sig .tc .vmem S1024x128 .f32 := (Memref.whole cc0_stg2_0 : Memref sig .tc .vmem S1024x128 .f32).view

set_option maxHeartbeats 1000000 in
/-- The body at the first reduction index, not the last: the accumulator, at anything, is overwritten whole with zeros and
    then with zero plus the block product; the inputs and the (idle) output buffer are handed back as found. -/
noncomputable def kRunA_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i)
    (x0 : Vec F S1024x1024 .bf16) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__prop_plain_kernel i arg2 harg2 arg3 harg3 arg4 harg4 arg5 harg5) K } := by
  refine ⟨?_, fun xi2 E K => ?run⟩
  case run =>
    simp only [cc0__prop_plain_kernel_eq_skeleton]; unfold cc0__prop_plain_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at a middle reduction index: the accumulator, at what the point before left, gains the block product. -/
noncomputable def kRunB_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i)
    (x0 : Vec F S1024x1024 .bf16) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__prop_plain_kernel i arg2 harg2 arg3 harg3 arg4 harg4 arg5 harg5) K } := by
  refine ⟨?_, fun xi2 E K => ?run⟩
  case run =>
    simp only [cc0__prop_plain_kernel_eq_skeleton]; unfold cc0__prop_plain_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at the last reduction index: the accumulator gains the block product and is then copied whole into the
    output block's buffer (which held anything). -/
noncomputable def kRunC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i)
    (x0 : Vec F S1024x1024 .bf16) (x1 : Vec F S1024x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__prop_plain_kernel i arg2 harg2 arg3 harg3 arg4 harg4 arg5 harg5) K } := by
  refine ⟨?_, ?_, fun E K => ?run⟩
  case run =>
    simp only [cc0__prop_plain_kernel_eq_skeleton]; unfold cc0__prop_plain_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the accumulator and in the output block's buffer -/

theorem scoverA_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i) (x0 : Vec F S1024x1024 .bf16) (x1 : Vec F S1024x128 .f32) (y : S1024x128.Idx) :
    ∃ pc ∈ (kRunA_0 c i arg2 harg2 arg3 harg3 arg4 harg4 arg5 harg5 hc0 hc1 x0 x1).1, y ∈ pc.1.set :=
  View.cover_of_tiledL (kRunA_0 c i arg2 harg2 arg3 harg3 arg4 harg4 arg5 harg5 hc0 hc1 x0 x1).1 S1024x128.size (by sl_kernel_rfl) y
def soutA_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i) (x0 : Vec F S1024x1024 .bf16) (x1 : Vec F S1024x128 .f32) : Vec F S1024x128 .f32 :=
  VS_0.read (Elt F) (VS_0.writes (Elt F) VS_0.junk (kRunA_0 c i arg2 harg2 arg3 harg3 arg4 harg4 arg5 harg5 hc0 hc1 x0 x1).1)

theorem scoverB_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i) (x0 : Vec F S1024x1024 .bf16) (x1 xs : Vec F S1024x128 .f32) (y : S1024x128.Idx) :
    ∃ pc ∈ (kRunB_0 c i arg2 harg2 arg3 harg3 arg4 harg4 arg5 harg5 hc0 hc1 x0 x1 xs).1, y ∈ pc.1.set :=
  View.cover_of_tiledL (kRunB_0 c i arg2 harg2 arg3 harg3 arg4 harg4 arg5 harg5 hc0 hc1 x0 x1 xs).1 S1024x128.size (by sl_kernel_rfl) y
def soutB_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i) (x0 : Vec F S1024x1024 .bf16) (x1 xs : Vec F S1024x128 .f32) : Vec F S1024x128 .f32 :=
  VS_0.read (Elt F) (VS_0.writes (Elt F) VS_0.junk (kRunB_0 c i arg2 harg2 arg3 harg3 arg4 harg4 arg5 harg5 hc0 hc1 x0 x1 xs).1)

theorem scoverC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) (y : S1024x128.Idx) :
    ∃ pc ∈ (kRunC_0 c i arg2 harg2 arg3 harg3 arg4 harg4 arg5 harg5 hc0 hc1 x0 x1 xs).2.1, y ∈ pc.1.set :=
  View.cover_of_tiledL (kRunC_0 c i arg2 harg2 arg3 harg3 arg4 harg4 arg5 harg5 hc0 hc1 x0 x1 xs).2.1 S1024x128.size (by sl_kernel_rfl) y
def soutC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) : Vec F S1024x128 .f32 :=
  VS_0.read (Elt F) (VS_0.writes (Elt F) VS_0.junk (kRunC_0 c i arg2 harg2 arg3 harg3 arg4 harg4 arg5 harg5 hc0 hc1 x0 x1 xs).2.1)
theorem coverC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) (y : S1024x128.Idx) :
    ∃ pc ∈ (kRunC_0 c i arg2 harg2 arg3 harg3 arg4 harg4 arg5 harg5 hc0 hc1 x0 x1 xs).1, y ∈ pc.1.set :=
  View.cover_of_tiledL (kRunC_0 c i arg2 harg2 arg3 harg3 arg4 harg4 arg5 harg5 hc0 hc1 x0 x1 xs).1 S1024x128.size (by sl_kernel_rfl) y
def outC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) : Vec F S1024x128 .f32 :=
  VO_0.read (Elt F) (VO_0.writes (Elt F) VO_0.junk (kRunC_0 c i arg2 harg2 arg3 harg3 arg4 harg4 arg5 harg5 hc0 hc1 x0 x1 xs).1)

theorem notLast_of_reset_0 (t : Fin cfg0.N) (h0 : t.val % 10 = 0) : ¬cLast_0 (grid0.coords t) :=
  fun h => by have h9 := (hLast_0 t).mp h; omega
theorem notReset_0 (t : Fin cfg0.N) (h0 : ¬t.val % 10 = 0) : ¬cReset_0 (grid0.coords t) := fun h => h0 ((hReset_0 t).mp h)
theorem notLast_0 (t : Fin cfg0.N) (h1 : ¬t.val % 10 = 9) : ¬cLast_0 (grid0.coords t) := fun h => h1 ((hLast_0 t).mp h)
theorem notReset_of_last_0 (t : Fin cfg0.N) (h1 : t.val % 10 = 9) : ¬cReset_0 (grid0.coords t) :=
  fun h => by have h0 := (hReset_0 t).mp h; omega

/-! ## The windows' blocks and the accumulator point by point -/

/-- Window `w`'s block at point `t`, read off its array as the region finds it. -/
def iblk_0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's step of the accumulator: from what the point before left (`prev`, not read at a first reduction index). -/
def stepAcc_0 (c : Dev nD) (t : Fin cfg0.N) (prev : Vec F S1024x128 .f32) : Vec F S1024x128 .f32 :=
  if h0 : t.val % 10 = 0 then
    soutA_0 c (grid0.coords t) (ms_0_0 t) (hs_0_0 t) (ms_0_1 t) (hs_0_1 t) (ms_0_2 t) (hs_0_2 t) scM_0 (Memref.isWhole_whole _) ((hReset_0 t).mpr h0) (notLast_of_reset_0 t h0) (iblk_0 V c 0 t) (iblk_0 V c 1 t)
  else if h1 : t.val % 10 = 9 then
    soutC_0 c (grid0.coords t) (ms_0_0 t) (hs_0_0 t) (ms_0_1 t) (hs_0_1 t) (ms_0_2 t) (hs_0_2 t) scM_0 (Memref.isWhole_whole _) (notReset_0 t h0) ((hLast_0 t).mpr h1) (iblk_0 V c 0 t) (iblk_0 V c 1 t) prev
  else
    soutB_0 c (grid0.coords t) (ms_0_0 t) (hs_0_0 t) (ms_0_1 t) (hs_0_1 t) (ms_0_2 t) (hs_0_2 t) scM_0 (Memref.isWhole_whole _) (notReset_0 t h0) (notLast_0 t h1) (iblk_0 V c 0 t) (iblk_0 V c 1 t) prev

/-- THE ACCUMULATION: what the accumulator holds after the body at position `n` — for the point (i, k), zero plus the
    first k + 1 block products of row block i, summed in order. -/
def accAt_0 (c : Dev nD) : (n : ℕ) → n < cfg0.N → Vec F S1024x128 .f32
  | 0, hn => stepAcc_0 V c ⟨0, hn⟩ (VS_0.read (Elt F) VS_0.junk)
  | n + 1, hn => stepAcc_0 V c ⟨n + 1, hn⟩ (accAt_0 c n (Nat.lt_of_succ_lt hn))

/-- What the point before `t` left in the accumulator (anything readable before the first point). -/
def accPrev_0 (c : Dev nD) (t : Fin cfg0.N) : Vec F S1024x128 .f32 :=
  if hz : t.val = 0 then VS_0.read (Elt F) VS_0.junk
  else accAt_0 V c (t.val - 1) (Nat.lt_of_le_of_lt (Nat.sub_le _ _) t.isLt)

theorem accAt_step_0 (c : Dev nD) (t : Fin cfg0.N) : accAt_0 V c t.val t.isLt = stepAcc_0 V c t (accPrev_0 V c t) := by
  obtain ⟨n, hn⟩ := t
  cases n with
  | zero => unfold accPrev_0; rw [dif_pos rfl]; rfl
  | succ n => unfold accPrev_0; rw [dif_neg (Nat.succ_ne_zero n)]; rfl

theorem accPrev_pos_0 (c : Dev nD) (t : Fin cfg0.N) (hz : t.val ≠ 0) :
    accPrev_0 V c t = accAt_0 V c (t.val - 1) (Nat.lt_of_le_of_lt (Nat.sub_le _ _) t.isLt) := by
  unfold accPrev_0; rw [dif_neg hz]

/-- What the output block's buffer holds after the body at `t`: at a last reduction index the accumulator's final
    contents, copied; elsewhere the buffer is idle and this value is consulted by nothing. -/
def outAt_0 (c : Dev nD) (t : Fin cfg0.N) : Vec F S1024x128 .f32 :=
  if h1 : t.val % 10 = 9 then
    outC_0 c (grid0.coords t) (ms_0_0 t) (hs_0_0 t) (ms_0_1 t) (hs_0_1 t) (ms_0_2 t) (hs_0_2 t) scM_0 (Memref.isWhole_whole _) (notReset_of_last_0 t h1) ((hLast_0 t).mpr h1) (iblk_0 V c 0 t) (iblk_0 V c 1 t) (accPrev_0 V c t)
  else accAt_0 V c t.val t.isLt

/-! ## The invariant and the proof data -/

/-- Before the first point: the generator register and the scoped buffers no window stages, as the region is entered.
    Afterwards: the accumulator at what the point before left, the other such buffers unopened, the register. -/
def PhiS_0 (c : Dev nD) : (n : ℕ) → n ≤ cfg0.N → sProp 𝕄
  | 0, _ => iprop((∃ r, prngReg c r) ∗ Pipeline.scopedRest spec0 c)
  | n + 1, hn => iprop(owns (c : Thread nD τ) scM_0 fullShare (accAt_0 V c n hn) ∗ Pipeline.scopedRestBut spec0 c [cc0_scratch0] ∗ (∃ r, prngReg c r))

theorem PhiS_zero_0 (c : Dev nD) (n : ℕ) (h : n ≤ cfg0.N) (hz : n = 0) :
    PhiS_0 V c n h = iprop((∃ r, prngReg c r) ∗ Pipeline.scopedRest spec0 c) := by subst hz; rfl
theorem PhiS_succ_0 (c : Dev nD) (n : ℕ) (hn : n < cfg0.N) :
    PhiS_0 V c (n + 1) hn = iprop(owns (c : Thread nD τ) scM_0 fullShare (accAt_0 V c n hn) ∗ Pipeline.scopedRestBut spec0 c [cc0_scratch0] ∗ (∃ r, prngReg c r)) := rfl
theorem PhiS_pos_0 (c : Dev nD) (n : ℕ) (h : n ≤ cfg0.N) (hz : n ≠ 0) :
    PhiS_0 V c n h = iprop(owns (c : Thread nD τ) scM_0 fullShare (accAt_0 V c (n - 1) (by omega)) ∗ Pipeline.scopedRestBut spec0 c [cc0_scratch0] ∗ (∃ r, prngReg c r)) := by
  cases n with
  | zero => exact absurd rfl hz
  | succ n => rfl

/-- The entry invariant with the accumulator split out of the scoped rest, owned as a whole memref at some contents. -/
theorem PhiS0_eq_0 (c : Dev nD) :
    (iprop((∃ r, prngReg c r) ∗ Pipeline.scopedRest spec0 c) : sProp 𝕄)
      = iprop((∃ r, prngReg c r) ∗ iprop((∃ d, owns (c : Thread nD τ) scM_0 fullShare d)) ∗ Pipeline.scopedRestBut spec0 c [cc0_scratch0]) := by
  rw [scopedRest0_split]; simp only [scM_0, owns_whole]; try rfl

def dat0 (c : Dev nD) : Dat τ (Elt F) Unit ℕ (UR sig nD τ) ℕ cfg0 c where
  A w := V c (Pipeline.arrRef spec0 w)
  after w t := match w with
    | ⟨0, _⟩ => iblk_0 V c 0 t
    | ⟨1, _⟩ => iblk_0 V c 1 t
    | ⟨2, _⟩ => outAt_0 V c t
  Φ t := PhiS_0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc_0 (c : Dev nD) (t : Fin cfg0.N) :
    (dat0 V c).Φ t.castSucc = PhiS_0 V c t.val (Nat.le_of_lt t.isLt) := by
  dsimp only [dat0]; simp only [Fin.coe_castSucc]

theorem after_0_0 (c : Dev nD) (t : Fin cfg0.N) : (dat0 V c).after 0 t = iblk_0 V c 0 t := by dsimp only [dat0]
theorem after_0_1 (c : Dev nD) (t : Fin cfg0.N) : (dat0 V c).after 1 t = iblk_0 V c 1 t := by dsimp only [dat0]
theorem after_0_2 (c : Dev nD) (t : Fin cfg0.N) : (dat0 V c).after 2 t = outAt_0 V c t := by dsimp only [dat0]

/-- Each input is fetched at every point: its current staging buffer holds its block. -/
theorem before_0_0 (c : Dev nD) (t : Fin cfg0.N) (d) : (dat0 V c).before 0 t d = iblk_0 V c 0 t :=
  ((dat0 V c).before_fetched 0 t (fetch0_0 t) d).trans (by unfold Dat.fetched Dat.blockOf iblk_0; rw [A_eq0]; try rfl)
theorem before_0_1 (c : Dev nD) (t : Fin cfg0.N) (d) : (dat0 V c).before 1 t d = iblk_0 V c 1 t :=
  ((dat0 V c).before_fetched 1 t (fetch0_1 t) d).trans (by unfold Dat.fetched Dat.blockOf iblk_0; rw [A_eq0]; try rfl)

/-! ## The body obligation -/

def bodyPre_0 (c : Dev nD) (t : Fin cfg0.N) : sProp 𝕄 :=
  iprop((dat0 V c).Φ t.castSucc ∗ (dat0 V c).owesAt () t.castSucc
    ∗ (∃ d, owns (c : Thread nD τ) (ms_0_0 t) fullShare ((dat0 V c).before 0 t d))
    ∗ (∃ d, owns (c : Thread nD τ) (ms_0_1 t) fullShare ((dat0 V c).before 1 t d))
    ∗ (∃ d, owns (c : Thread nD τ) (ms_0_2 t) fullShare ((dat0 V c).before 2 t d)))

def bodyPost_0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which of the three cases the
    point is in; the invariant hands the body the accumulator at what the point before left (at anything at the
    first point, where it is reset before it is read) and takes it back at this point's contents; where the output
    block is idle its buffer is handed back as found, and at a last reduction index it ends with the accumulator's copy. -/
theorem sound_body_0 (c : Dev nD) (t : Fin cfg0.N) :
    bodyPre_0 V c t ⊢ wp frame (wpE (defs₀ (F := F)) Variants.none c none) Set.univ (bodyAt0 t) (fun _ => bodyPost_0 V c t) := by
  unfold bodyPre_0 bodyPost_0 bodyAt0
  simp only [before_0_0, before_0_1]
  rw [show (dat0 V c).owesAt () t.succ = (dat0 V c).owesAt () t.castSucc from rfl]
  rw [show (dat0 V c).Φ t.succ = PhiS_0 V c (t.val + 1) t.isLt from rfl, PhiS_succ_0]
  have hN : t.val < 100 := lt_of_lt_of_eq t.isLt (show cfg0.N = 100 from N_0)
  rw [show (dat0 V c).leavesExact 0 t = owns (c : Thread nD τ) (ms_0_0 t) fullShare ((dat0 V c).after 0 t) from by
    unfold Dat.leavesExact; rw [liveAt_0_0 t], after_0_0]
  rw [show (dat0 V c).leavesExact 1 t = owns (c : Thread nD τ) (ms_0_1 t) fullShare ((dat0 V c).after 1 t) from by
    unfold Dat.leavesExact; rw [liveAt_0_1 t], after_0_1]
  rw [accAt_step_0 V c t]
  by_cases h0 : t.val % 10 = 0
  · have hc1 := notLast_of_reset_0 t h0
    rw [Dat.leavesExact_idle (dat0 V c) 2 t (idleAt_0_2 t hc1) (noFlush_0_2 t hc1)]
    unfold stepAcc_0; rw [dif_pos h0]
    unfold soutA_0; (try dsimp only)
    by_cases hz : t.val = 0
    · rw [PhiS_castSucc_0 V c t, PhiS_zero_0 V c _ _ hz, PhiS0_eq_0]
      iintro ⟨⟨Hg, HS0, Hrest⟩, Ho, ⟨%d0, H0⟩, ⟨%d1, H1⟩, ⟨%d2, H2⟩⟩
      iapply ((kRunA_0 c (grid0.coords t) (ms_0_0 t) (hs_0_0 t) (ms_0_1 t) (hs_0_1 t) (ms_0_2 t) (hs_0_2 t) scM_0 (Memref.isWhole_whole _) ((hReset_0 t).mpr h0) hc1 (iblk_0 V c 0 t) (iblk_0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_0 c _ _ _ _ _ _ _ _ _ _ _ _ _)
        isplitl [Hrest]; · iexact Hrest
        iexact Hg
      isplitl [Ho]; · iexact Ho
      isplitl [H0]; · iexact H0
      isplitl [H1]; · iexact H1
      iexists _; iexact H2
    · rw [PhiS_castSucc_0 V c t, PhiS_pos_0 V c _ _ hz]
      iintro ⟨⟨HS0, Hrest, Hg⟩, Ho, ⟨%d0, H0⟩, ⟨%d1, H1⟩, ⟨%d2, H2⟩⟩
      iapply ((kRunA_0 c (grid0.coords t) (ms_0_0 t) (hs_0_0 t) (ms_0_1 t) (hs_0_1 t) (ms_0_2 t) (hs_0_2 t) scM_0 (Memref.isWhole_whole _) ((hReset_0 t).mpr h0) hc1 (iblk_0 V c 0 t) (iblk_0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_0 c _ _ _ _ _ _ _ _ _ _ _ _ _)
        isplitl [Hrest]; · iexact Hrest
        iexact Hg
      isplitl [Ho]; · iexact Ho
      isplitl [H0]; · iexact H0
      isplitl [H1]; · iexact H1
      iexists _; iexact H2
  · have hz : t.val ≠ 0 := fun e => h0 (by rw [e])
    have hc0 := notReset_0 t h0
    unfold stepAcc_0; rw [dif_neg h0]
    rw [accPrev_pos_0 V c t hz]
    by_cases h1 : t.val % 10 = 9
    · rw [show (dat0 V c).leavesExact 2 t = owns (c : Thread nD τ) (ms_0_2 t) fullShare ((dat0 V c).after 2 t) from by
        unfold Dat.leavesExact; rw [liveAt_0_2 t ((hLast_0 t).mpr h1)], after_0_2]
      unfold outAt_0; rw [dif_pos h1, dif_pos h1, accPrev_pos_0 V c t hz]
      unfold soutC_0 outC_0; (try dsimp only)
      rw [PhiS_castSucc_0 V c t, PhiS_pos_0 V c _ _ hz]
      iintro ⟨⟨HS0, Hrest, Hg⟩, Ho, ⟨%d0, H0⟩, ⟨%d1, H1⟩, ⟨%d2, H2⟩⟩
      iapply ((kRunC_0 c (grid0.coords t) (ms_0_0 t) (hs_0_0 t) (ms_0_1 t) (hs_0_1 t) (ms_0_2 t) (hs_0_2 t) scM_0 (Memref.isWhole_whole _) hc0 ((hLast_0 t).mpr h1) (iblk_0 V c 0 t) (iblk_0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0]
        · unfold owns; iexists _; isplitr
          swap; · iexact HS0
          ipureintro; exact View.read_writes_of_cover _ _ _ _ _ (scoverC_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_0 c _ _ _ _ _ _ _ _ _ _ _ _ _ _)
    · have hc1 := notLast_0 t h1
      rw [Dat.leavesExact_idle (dat0 V c) 2 t (idleAt_0_2 t hc1) (noFlush_0_2 t hc1)]
      rw [dif_neg h1]
      unfold soutB_0; (try dsimp only)
      rw [PhiS_castSucc_0 V c t, PhiS_pos_0 V c _ _ hz]
      iintro ⟨⟨HS0, Hrest, Hg⟩, Ho, ⟨%d0, H0⟩, ⟨%d1, H1⟩, ⟨%d2, H2⟩⟩
      iapply ((kRunB_0 c (grid0.coords t) (ms_0_0 t) (hs_0_0 t) (ms_0_1 t) (hs_0_1 t) (ms_0_2 t) (hs_0_2 t) scM_0 (Memref.isWhole_whole _) hc0 hc1 (iblk_0 V c 0 t) (iblk_0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverB_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body_0 V c t

theorem phi_in0 (c : Dev nD) : (iprop((∃ r, prngReg c r) ∗ Pipeline.scopedRest spec0 c) : sProp 𝕄) ⊢ (dat0 V c).Φ 0 := by
  rw [show (dat0 V c).Φ 0 = PhiS_0 V c 0 (Nat.zero_le _) from rfl, PhiS_zero_0 V c 0 _ rfl]
  try exact Idealize.SL.BI.Entails.refl _

theorem phi_out0 (c : Dev nD) : (dat0 V c).Φ (Fin.last _) ⊢ (iprop((∃ r, prngReg c r) ∗ Pipeline.scopedRest spec0 c) : sProp 𝕄) := by
  rw [show (dat0 V c).Φ (Fin.last _) = PhiS_0 V c (Fin.last cfg0.N).val (Nat.le_of_lt_succ (Fin.last cfg0.N).isLt) from rfl,
    PhiS_pos_0 V c _ _ (by rw [Fin.val_last]; have : cfg0.N = 100 := N_0; omega), PhiS0_eq_0]
  iintro ⟨HS0, Hrest, Hg⟩
  isplitl [Hg]; · iexact Hg
  isplitl [HS0]; · iexists _; iexact HS0
  iexact Hrest

end Cert.Kernel.Hand
end
-- ==== Proof.K.Reg1.lean ====
/- One Chebyshev propagation step with an affine tail, as a blocked matrix product over a 10 × 10 grid.
   At grid point (i, k), k the fast axis, the body adds to a 1024-row accumulator the product of block (i, k) of
   the 10240 × 10240 matrix with block k of the right factor (rounded to the matrix's format first); the accumulator
   is zeroed when k = 0, so after step k it holds (((0 + d 0) + d 1) + … ) + d k, d k the k-th partial product; when
   k = 9 the output's row block i receives 2 · accumulator + (−1) · (row block i of the addend). Off k = 9 the output's
   buffer is not touched. This file states, for every grid point, what the accumulator and the windows' buffers hold
   before and after the body (by recursion on the point), proves the body meets that description in each of the
   three cases (k = 0; 0 < k < 9; k = 9), and relates the invariant at the two ends of the grid to the scoped buffers
   the region is entered and left with. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The zero offsets of a whole-block rectangle of rank 2. -/
theorem hz_1 : (![0, 0] : Fin 2 → Nat) = fun _ => 0 := funext fun a => by fin_cases a <;> rfl

/-! ## The two conditions of the body, in closed form over the grid -/

/-- The body's first condition: the reduction coordinate is 0. -/
abbrev condZ_1 (i : grid1.Coords) : Prop := (Scalar.cmpi .ne (Scalar.extui (Scalar.cmpi .eq (BitVec.ofNat 32 (i 1).val) 0#32)) 0#32) = 1#1
theorem hcondZ_1 : ∀ t : Fin cfg1.N, condZ_1 (grid1.coords t) ↔ t.val % 10 = 0 :=
  (by decide +kernel : ∀ t : Fin grid1.N, condZ_1 (grid1.coords t) ↔ t.val % 10 = 0)
/-- The body's second condition: the reduction coordinate is 9, the last. -/
abbrev condL_1 (i : grid1.Coords) : Prop := k1_cond2 i = 1#1
theorem hcondL_1 : ∀ t : Fin cfg1.N, condL_1 (grid1.coords t) ↔ t.val % 10 = 9 :=
  (by decide +kernel : ∀ t : Fin grid1.N, condL_1 (grid1.coords t) ↔ t.val % 10 = 9)

/-- The inputs are never idle; the output is idle, and not written back, exactly off the last reduction step. -/
theorem live_1_0 : ∀ t : Fin cfg1.N, cfg1.idle 0 (grid1.coords t) = false := fun _ => rfl
theorem live_1_1 : ∀ t : Fin cfg1.N, cfg1.idle 1 (grid1.coords t) = false := fun _ => rfl
theorem live_1_2 : ∀ t : Fin cfg1.N, cfg1.idle 2 (grid1.coords t) = false := fun _ => rfl
theorem idle_1_3 : ∀ t : Fin cfg1.N, ¬condL_1 (grid1.coords t) → cfg1.idle 3 (grid1.coords t) = true := by decide +kernel
theorem noFlush_1_3 : ∀ t : Fin cfg1.N, ¬condL_1 (grid1.coords t) → (cfg1.win 3).flush t = false := by decide +kernel
theorem live_1_3 : ∀ t : Fin cfg1.N, condL_1 (grid1.coords t) → cfg1.idle 3 (grid1.coords t) = false := by decide +kernel

/-! ## The body on any whole staging memrefs, case by case -/

/-- One whole-block store leaves its payload: the read-back of a buffer after a list of writes whose last covers it. -/
theorem read_last_1 {sg : RefSig} {κ : Kind} {sp : Space} (v : View sg κ sp S1024x128 .f32) (f : v.ty.Contents (Elt F))
    (w : S1024x128.Idx → Elt F .f32) (L : List (View.Piece (Elt F) S1024x128 .f32)) :
    v.read (Elt F) (v.writes (Elt F) f ((⟨Rect.unit ![0, 0] S1024x128.size inb_S1024x128_S1024x128_0_0, w⟩ : View.Piece (Elt F) S1024x128 .f32) :: L)) = w := by
  rw [View.read_writes_eq_canon _ _ _ (fun y => ⟨_, List.mem_cons_self, View.mem_set_unit_zero hz_1 inb_S1024x128_S1024x128_0_0 y⟩),
    View.canon_cons_unit_zero hz_1]

set_option maxHeartbeats 1000000 in
/-- Reduction step 0 (not the last): the accumulator, whatever it held, is zeroed, then receives
    zero + block 0 · block 1; the addend's and the output's buffers are handed back untouched. -/
theorem run_1_A (c : Dev nD) (i : grid1.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : condZ_1 i) (hc1 : ¬condL_1 i)
    (x0 : Vec F S1024x1024 .bf16) (x1 : Vec F S1024x128 .f32) (x2 : Vec F S1024x128 .f32)
    (xi3 : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E (cc1__prop_affine_kernel i arg2 harg2 arg3 harg3 arg4 harg4 arg5 harg5 arg6 harg6) K := by
  simp only [cc1__prop_affine_kernel_eq_skeleton]; unfold cc1__prop_affine_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [read_last_1, View.readCov_unit_zero (S := S1024x128) _ hz_1]
  simp only [View.readAt_eq_ld, harg2.read_unread, harg3.read_unread,
    View.ld_unit_zero (S := S1024x1024) hz_1, View.ld_unit_zero (S := S1024x128) hz_1]

set_option maxHeartbeats 1000000 in
/-- A middle reduction step: the accumulator at `xs` receives `xs` + block 0 · block 1; the addend's and the
    output's buffers are handed back untouched. -/
theorem run_1_B (c : Dev nD) (i : grid1.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_1 i) (hc1 : ¬condL_1 i)
    (x0 : Vec F S1024x1024 .bf16) (x1 : Vec F S1024x128 .f32) (x2 : Vec F S1024x128 .f32)
    (xi3 : Vec F S1024x128 .f32) (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 xs)) -∗ K ⟨⟩))
      ⊢ wp frame (wpE (defs₀ (F := F)) Variants.none c none) E (cc1__prop_affine_kernel i arg2 harg2 arg3 harg3 arg4 harg4 arg5 harg5 arg6 harg6) K := by
  simp only [cc1__prop_affine_kernel_eq_skeleton]; unfold cc1__prop_affine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [read_last_1]
  simp only [View.readAt_eq_ld, harg2.read_unread, harg3.read_unread, harg6.read_unread,
    View.ld_unit_zero (S := S1024x1024) hz_1, View.ld_unit_zero (S := S1024x128) hz_1]

set_option maxHeartbeats 1000000 in
/-- The last reduction step: the accumulator at `xs` receives `xs` + block 0 · block 1, and the output block,
    whatever it held, receives 2 · (that sum) + (−1) · (the addend's block). -/
theorem run_1_C (c : Dev nD) (i : grid1.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_1 i) (hc1 : condL_1 i)
    (x0 : Vec F S1024x1024 .bf16) (x1 : Vec F S1024x128 .f32) (x2 : Vec F S1024x128 .f32)
    (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E (cc1__prop_affine_kernel i arg2 harg2 arg3 harg3 arg4 harg4 arg5 harg5 arg6 harg6) K := by
  simp only [cc1__prop_affine_kernel_eq_skeleton]; unfold cc1__prop_affine_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_last_1, View.readCov_unit_zero (S := S1024x128) _ hz_1]
    simp only [View.readAt_eq_ld, harg2.read_unread, harg3.read_unread, harg4.read_unread, harg6.read_unread,
      View.ld_unit_zero (S := S1024x1024) hz_1, View.ld_unit_zero (S := S1024x128) hz_1]
  iexists _; isplitr
  swap; · iexact HS
  ipureintro
  sl_unfold_words
  rw [read_last_1]
  simp only [View.readAt_eq_ld, harg2.read_unread, harg3.read_unread, harg6.read_unread,
    View.ld_unit_zero (S := S1024x1024) hz_1, View.ld_unit_zero (S := S1024x128) hz_1]

/-! ## The windows' blocks and the accumulator, point by point -/

/-- Window `w`'s block at point `t`, read off its array as the region finds it. -/
def iblk_1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging memrefs the pipeline passes at point `t`, and the scratch accumulator. -/
abbrev ms_1_0 (t : Fin cfg1.N) : Memref sig .tc .vmem S1024x1024 .bf16 := win1_0.stage (cfg1.slots t 0)
abbrev hs_1_0 (t : Fin cfg1.N) : (ms_1_0 t).IsWhole := hstage1_0 ((cfg1.slots t 0).cast nbuf1_0)
abbrev ms_1_1 (t : Fin cfg1.N) : Memref sig .tc .vmem S1024x128 .f32 := win1_1.stage (cfg1.slots t 1)
abbrev hs_1_1 (t : Fin cfg1.N) : (ms_1_1 t).IsWhole := hstage1_1 ((cfg1.slots t 1).cast nbuf1_1)
abbrev ms_1_2 (t : Fin cfg1.N) : Memref sig .tc .vmem S1024x128 .f32 := win1_2.stage (cfg1.slots t 2)
abbrev hs_1_2 (t : Fin cfg1.N) : (ms_1_2 t).IsWhole := hstage1_2 ((cfg1.slots t 2).cast nbuf1_2)
abbrev ms_1_3 (t : Fin cfg1.N) : Memref sig .tc .vmem S1024x128 .f32 := win1_3.stage (cfg1.slots t 3)
abbrev hs_1_3 (t : Fin cfg1.N) : (ms_1_3 t).IsWhole := hstage1_3 ((cfg1.slots t 3).cast nbuf1_3)
abbrev scM_1 : Memref sig .tc .vmem S1024x128 .f32 := Memref.whole cc1_scratch0

/-- THE ACCUMULATOR after the body at position `n`: at a first reduction step zero + (block 0 · block 1), at a later
    one what the step before left + (block 0 · block 1). -/
def accAt_1 (c : Dev nD) : (n : ℕ) → n < cfg1.N → Vec F S1024x128 .f32
  | 0, hn => k1_pay2 (iblk_1 V c 0 ⟨0, hn⟩) (iblk_1 V c 1 ⟨0, hn⟩) (k1_pay1 (F := F))
  | n + 1, hn =>
    if (n + 1) % 10 = 0 then k1_pay2 (iblk_1 V c 0 ⟨n + 1, hn⟩) (iblk_1 V c 1 ⟨n + 1, hn⟩) (k1_pay1 (F := F))
    else k1_pay2 (iblk_1 V c 0 ⟨n + 1, hn⟩) (iblk_1 V c 1 ⟨n + 1, hn⟩) (accAt_1 c n (Nat.lt_of_succ_lt hn))

theorem accAt_1_first (c : Dev nD) (t : Fin cfg1.N) (h0 : t.val % 10 = 0) :
    accAt_1 V c t.val t.isLt = k1_pay2 (iblk_1 V c 0 t) (iblk_1 V c 1 t) (k1_pay1 (F := F)) := by
  obtain ⟨n, hn⟩ := t
  cases n with
  | zero => rfl
  | succ n => exact if_pos h0

theorem accAt_1_next (c : Dev nD) (t : Fin cfg1.N) (h0 : ¬t.val % 10 = 0) :
    accAt_1 V c t.val t.isLt = k1_pay2 (iblk_1 V c 0 t) (iblk_1 V c 1 t)
      (accAt_1 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the scratch among
    the scoped buffers, at anything); afterwards the scratch at the accumulator the point before left, the other scoped
    buffers unopened, the generator register at some state. -/
def Phi_1 (c : Dev nD) : (n : ℕ) → n ≤ cfg1.N → sProp 𝕄
  | 0, _ => iprop((∃ r, prngReg c r) ∗ Pipeline.scopedRest spec1 c)
  | n + 1, hn => iprop(owns (c : Thread nD τ) scM_1 fullShare (accAt_1 V c n hn)
      ∗ Pipeline.scopedRestBut spec1 c [cc1_scratch0] ∗ (∃ r, prngReg c r))

theorem Phi_1_zero (c : Dev nD) (n : ℕ) (h : n ≤ cfg1.N) (hz : n = 0) :
    Phi_1 V c n h = iprop((∃ r, prngReg c r) ∗ Pipeline.scopedRest spec1 c) := by
  subst hz; rfl

theorem Phi_1_succ (c : Dev nD) (n : ℕ) (hn : n < cfg1.N) :
    Phi_1 V c (n + 1) hn = iprop(owns (c : Thread nD τ) scM_1 fullShare (accAt_1 V c n hn)
      ∗ Pipeline.scopedRestBut spec1 c [cc1_scratch0] ∗ (∃ r, prngReg c r)) := rfl

theorem Phi_1_pos (c : Dev nD) (n : ℕ) (h : n ≤ cfg1.N) (hz : n ≠ 0) :
    Phi_1 V c n h = iprop(owns (c : Thread nD τ) scM_1 fullShare (accAt_1 V c (n - 1) (by omega))
      ∗ Pipeline.scopedRestBut spec1 c [cc1_scratch0] ∗ (∃ r, prngReg c r)) := by
  cases n with
  | zero => exact absurd rfl hz
  | succ n => rfl

/-- What the launch hands over, with the scratch split out of the scoped buffers and owned at some contents. -/
theorem Phi0_1_eq (c : Dev nD) :
    (iprop((∃ r, prngReg c r) ∗ Pipeline.scopedRest spec1 c) : sProp 𝕄)
      = iprop((∃ r, prngReg c r) ∗ iprop((∃ d, owns (c : Thread nD τ) scM_1 fullShare d))
          ∗ Pipeline.scopedRestBut spec1 c [cc1_scratch0]) := by
  rw [scopedRest1_split]; simp only [scM_1, owns_whole]; rfl

/-! ## The proof data -/

def dat1 (c : Dev nD) : Dat τ (Elt F) Unit ℕ (UR sig nD τ) ℕ cfg1 c where
  A w := V c (Pipeline.arrRef spec1 w)
  after w t := match w with
    | ⟨0, _⟩ => iblk_1 V c 0 t
    | ⟨1, _⟩ => iblk_1 V c 1 t
    | ⟨2, _⟩ => iblk_1 V c 2 t
    | ⟨3, _⟩ => k1_pay3 (accAt_1 V c t.val t.isLt) (iblk_1 V c 2 t)
  Φ t := Phi_1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_1_castSucc (c : Dev nD) (t : Fin cfg1.N) :
    (dat1 V c).Φ t.castSucc = Phi_1 V c t.val (Nat.le_of_lt t.isLt) := by
  dsimp only [dat1]; simp only [Fin.coe_castSucc]

theorem after_1_0 (c : Dev nD) (t : Fin cfg1.N) : (dat1 V c).after 0 t = iblk_1 V c 0 t := by dsimp only [dat1]
theorem after_1_1 (c : Dev nD) (t : Fin cfg1.N) : (dat1 V c).after 1 t = iblk_1 V c 1 t := by dsimp only [dat1]
theorem after_1_2 (c : Dev nD) (t : Fin cfg1.N) : (dat1 V c).after 2 t = iblk_1 V c 2 t := by dsimp only [dat1]
theorem after_1_3 (c : Dev nD) (t : Fin cfg1.N) :
    (dat1 V c).after 3 t = k1_pay3 (accAt_1 V c t.val t.isLt) (iblk_1 V c 2 t) := by dsimp only [dat1]

/-- Each input's current staging buffer holds its block at every point, fetched there or not (unfetched, the block
    index has not moved). -/
theorem before_1_0 (c : Dev nD) (t : Fin cfg1.N) (d) : (dat1 V c).before 0 t d = iblk_1 V c 0 t :=
  ((dat1 V c).before_in_eq_fetched 0 rfl (fun _ => rfl) (fun _ _ _ => rfl)
    (fun t => by rw [after_1_0]; unfold Dat.blockOf iblk_1; rw [A_eq1]; try rfl) t d).trans
    (by unfold Dat.fetched Dat.blockOf iblk_1; rw [A_eq1]; try rfl)
theorem before_1_1 (c : Dev nD) (t : Fin cfg1.N) (d) : (dat1 V c).before 1 t d = iblk_1 V c 1 t :=
  ((dat1 V c).before_in_eq_fetched 1 rfl (fun _ => rfl) (fun _ _ _ => rfl)
    (fun t => by rw [after_1_1]; unfold Dat.blockOf iblk_1; rw [A_eq1]; try rfl) t d).trans
    (by unfold Dat.fetched Dat.blockOf iblk_1; rw [A_eq1]; try rfl)
theorem before_1_2 (c : Dev nD) (t : Fin cfg1.N) (d) : (dat1 V c).before 2 t d = iblk_1 V c 2 t :=
  ((dat1 V c).before_in_eq_fetched 2 rfl (fun _ => rfl) (fun _ _ _ => rfl)
    (fun t => by rw [after_1_2]; unfold Dat.blockOf iblk_1; rw [A_eq1]; try rfl) t d).trans
    (by unfold Dat.fetched Dat.blockOf iblk_1; rw [A_eq1]; try rfl)

/-! ## The body obligation -/

def bodyPre_1 (c : Dev nD) (t : Fin cfg1.N) : sProp 𝕄 :=
  iprop((dat1 V c).Φ t.castSucc ∗ (dat1 V c).owesAt () t.castSucc
    ∗ (∃ d, owns (c : Thread nD τ) (ms_1_0 t) fullShare ((dat1 V c).before 0 t d))
    ∗ (∃ d, owns (c : Thread nD τ) (ms_1_1 t) fullShare ((dat1 V c).before 1 t d))
    ∗ (∃ d, owns (c : Thread nD τ) (ms_1_2 t) fullShare ((dat1 V c).before 2 t d))
    ∗ (∃ d, owns (c : Thread nD τ) (ms_1_3 t) fullShare ((dat1 V c).before 3 t d)))

def bodyPost_1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which of the three cases the
    point is in; the invariant hands the body the accumulator at what the step before left (at anything where the
    reduction restarts) and takes it back at this point's; off the last reduction step the output's buffer is handed
    back untouched. -/
theorem sound_body_1 (c : Dev nD) (t : Fin cfg1.N) :
    bodyPre_1 V c t ⊢ wp frame (wpE (defs₀ (F := F)) Variants.none c none) Set.univ (bodyAt1 t) (fun _ => bodyPost_1 V c t) := by
  unfold bodyPre_1 bodyPost_1 bodyAt1
  simp only [before_1_0, before_1_1, before_1_2]
  rw [show (dat1 V c).owesAt () t.succ = (dat1 V c).owesAt () t.castSucc from rfl]
  rw [show (dat1 V c).Φ t.succ = Phi_1 V c (t.val + 1) t.isLt from rfl, Phi_1_succ]
  have hN : t.val < 100 := lt_of_lt_of_eq t.isLt (show cfg1.N = 100 from N_1)
  rw [show (dat1 V c).leavesExact 0 t = owns (c : Thread nD τ) (ms_1_0 t) fullShare ((dat1 V c).after 0 t) from by
    unfold Dat.leavesExact; rw [live_1_0 t], after_1_0]
  rw [show (dat1 V c).leavesExact 1 t = owns (c : Thread nD τ) (ms_1_1 t) fullShare ((dat1 V c).after 1 t) from by
    unfold Dat.leavesExact; rw [live_1_1 t], after_1_1]
  rw [show (dat1 V c).leavesExact 2 t = owns (c : Thread nD τ) (ms_1_2 t) fullShare ((dat1 V c).after 2 t) from by
    unfold Dat.leavesExact; rw [live_1_2 t], after_1_2]
  by_cases h1 : t.val % 10 = 9
  · have h0 : ¬t.val % 10 = 0 := by omega
    have hz : t.val ≠ 0 := by omega
    rw [show (dat1 V c).leavesExact 3 t = owns (c : Thread nD τ) (ms_1_3 t) fullShare ((dat1 V c).after 3 t) from by
      unfold Dat.leavesExact; rw [live_1_3 t ((hcondL_1 t).mpr h1)], after_1_3]
    rw [accAt_1_next V c t h0]
    rw [Phi_1_castSucc V c t, Phi_1_pos V c _ _ hz]
    iintro ⟨⟨HS, HR, Hg⟩, Ho, ⟨%d0, H0⟩, ⟨%d1, H1⟩, ⟨%d2, H2⟩, ⟨%d3, H3⟩⟩
    iapply (run_1_C c (grid1.coords t) _ (hs_1_0 t) _ (hs_1_1 t) _ (hs_1_2 t) _ (hs_1_3 t) scM_1 (Memref.isWhole_whole _)
      (fun h => h0 ((hcondZ_1 t).mp h)) ((hcondL_1 t).mpr h1) (iblk_1 V c 0 t) (iblk_1 V c 1 t) (iblk_1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat1 V c) 3 t (idle_1_3 t (fun h => h1 ((hcondL_1 t).mp h))) (noFlush_1_3 t (fun h => h1 ((hcondL_1 t).mp h)))]
    by_cases h0 : t.val % 10 = 0
    · rw [accAt_1_first V c t h0]
      by_cases hz : t.val = 0
      · rw [Phi_1_castSucc V c t, Phi_1_zero V c _ _ hz, Phi0_1_eq]
        iintro ⟨⟨Hg, HS, HR⟩, Ho, ⟨%d0, H0⟩, ⟨%d1, H1⟩, ⟨%d2, H2⟩, ⟨%d3, H3⟩⟩
        iapply (run_1_A c (grid1.coords t) _ (hs_1_0 t) _ (hs_1_1 t) _ (hs_1_2 t) _ (hs_1_3 t) scM_1 (Memref.isWhole_whole _)
          ((hcondZ_1 t).mpr h0) (fun h => h1 ((hcondL_1 t).mp h)) (iblk_1 V c 0 t) (iblk_1 V c 1 t) (iblk_1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi_1_castSucc V c t, Phi_1_pos V c _ _ hz]
        iintro ⟨⟨HS, HR, Hg⟩, Ho, ⟨%d0, H0⟩, ⟨%d1, H1⟩, ⟨%d2, H2⟩, ⟨%d3, H3⟩⟩
        iapply (run_1_A c (grid1.coords t) _ (hs_1_0 t) _ (hs_1_1 t) _ (hs_1_2 t) _ (hs_1_3 t) scM_1 (Memref.isWhole_whole _)
          ((hcondZ_1 t).mpr h0) (fun h => h1 ((hcondL_1 t).mp h)) (iblk_1 V c 0 t) (iblk_1 V c 1 t) (iblk_1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_1_next V c t h0]
      rw [Phi_1_castSucc V c t, Phi_1_pos V c _ _ hz]
      iintro ⟨⟨HS, HR, Hg⟩, Ho, ⟨%d0, H0⟩, ⟨%d1, H1⟩, ⟨%d2, H2⟩, ⟨%d3, H3⟩⟩
      iapply (run_1_B c (grid1.coords t) _ (hs_1_0 t) _ (hs_1_1 t) _ (hs_1_2 t) _ (hs_1_3 t) scM_1 (Memref.isWhole_whole _)
        (fun h => h0 ((hcondZ_1 t).mp h)) (fun h => h1 ((hcondL_1 t).mp h)) (iblk_1 V c 0 t) (iblk_1 V c 1 t) (iblk_1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body_1 V c t

theorem phi_in1 (c : Dev nD) : (iprop((∃ r, prngReg c r) ∗ Pipeline.scopedRest spec1 c) : sProp 𝕄) ⊢ (dat1 V c).Φ 0 := by
  rw [show (dat1 V c).Φ 0 = Phi_1 V c 0 (Nat.zero_le _) from rfl, Phi_1_zero V c 0 _ rfl]
  try exact Idealize.SL.BI.Entails.refl _

theorem phi_out1 (c : Dev nD) : (dat1 V c).Φ (Fin.last _) ⊢ (iprop((∃ r, prngReg c r) ∗ Pipeline.scopedRest spec1 c) : sProp 𝕄) := by
  rw [show (dat1 V c).Φ (Fin.last _) = Phi_1 V c (Fin.last cfg1.N).val (Nat.le_of_lt_succ (Fin.last cfg1.N).isLt) from rfl,
    Phi_1_pos V c _ _ (by rw [Fin.val_last]; have : cfg1.N = 100 := N_1; omega), Phi0_1_eq]
  iintro ⟨HS, HR, Hg⟩
  isplitl [Hg]; · iexact Hg
  isplitl [HS]; · iexists _; iexact HS
  iexact HR

end Cert.Kernel.Hand
end
-- ==== Proof.K.Reg2.lean ====
/- Region 2: one row block of the left factor times the whole right factor, accumulated from zero, plus the
   bias row broadcast down the rows, then the maximum with zero; the result is stored whole into the output row block.
   Nothing is carried from one grid point to the next. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2 -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S1024x384 := Rect.unit (s := S1024x384) ![0, 0] S1024x384.size inb_S1024x384_S1024x384_0_0
abbrev r2_1 : Rect S384x128 := Rect.unit (s := S384x128) ![0, 0] S384x128.size inb_S384x128_S384x128_0_0
abbrev r2_2 : Rect S1x128 := Rect.unit (s := S1x128) ![0, 0] S1x128.size inb_S1x128_S1x128_0_0
abbrev r2_3 : Rect S1024x128 := Rect.unit (s := S1024x128) ![0, 0] S1024x128.size inb_S1024x128_S1024x128_0_0

/-- The output block after the body, from the three input blocks: its one store as a piece. -/
def out2_3 (x0 : Vec F S1024x384 .f32) (x1 : Vec F S384x128 .f32) (x2 : Vec F S1x128 .f32) : Vec F S1024x128 .f32 :=
  View.canon [⟨r2_3, k2_pay1 (View.ld x0 r2_0) (View.ld x1 r2_1) (View.ld x2 r2_2)⟩]

/-- The one store covers the output block. -/
theorem cover2_3 (p0 : Vec F S1024x128 .f32) (y : S1024x128.Idx) :
    ∃ pc ∈ ([⟨r2_3, p0⟩] : List (View.Piece (Elt F) S1024x128 .f32)), y ∈ pc.1.set :=
  View.cover_of_tiled [⟨r2_3, p0⟩] S1024x128.size (by rfl) y

set_option maxHeartbeats 1000000 in
/-- The body on whole staging memrefs, the inputs at contents `x0 x1 x2` and the output at anything, runs to the
    continuation holding the inputs as they were and the output at `out2_3` of the inputs. -/
theorem sound_kernel2 (c : Dev nD) (E : Set ℕ) (i : grid2.Coords) (arg1 : Memref sig .tc .vmem S1024x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S1024x128 .f32) (harg4 : arg4.IsWhole)
    (x0 : Vec F S1024x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__mm_bias_kernel i arg1 harg1 arg2 harg2 arg3 harg3 arg4 harg4) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The arrays as the region finds them; after the body each input's buffer at its block and the output's at
    `out2_3` of the input blocks; the invariant is the untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

/-! ## The invariant at the region's ends -/

theorem phi_in2 (c : Dev nD) : (iprop((∃ r, prngReg c r) ∗ Pipeline.scopedRest spec2 c) : sProp 𝕄) ⊢ (dat2 V c).Φ 0 := by
  show _ ⊢ Pipeline.ΦA spec2 c
  unfold Pipeline.ΦA
  iintro ⟨H1, H2⟩
  isplitl [H2]; · iexact H2
  iexact H1

theorem phi_out2 (c : Dev nD) : (dat2 V c).Φ (Fin.last _) ⊢ (iprop((∃ r, prngReg c r) ∗ Pipeline.scopedRest spec2 c) : sProp 𝕄) := by
  show Pipeline.ΦA spec2 c ⊢ _
  unfold Pipeline.ΦA
  iintro ⟨H1, H2⟩
  isplitl [H2]; · iexact H2
  iexact H1

end Cert.Kernel.Hand
end
-- ==== Proof.K.Reg3.lean ====
/- One propagation product of the Chebyshev stack, blocked: the [10240, 10240] matrix times a [10240, Fw] right factor,
   over a 10 × 10 grid of points (i, k), k fastest. At the point (i, k) the body adds to an f32 accumulator the product of
   block (i, k) of the matrix with block k of the right factor rounded to bf16; the accumulator is zeroed at k = 0 and
   copied into row block i of the result at k = 9. The accumulator after (i, k) is therefore the in-order sum
   (((0 + d 0) + d 1) + … + d k) of the block products d j of row block i, and row block i of the result is that sum at
   k = 9. Stated here: the proof data of the region (what each window's buffer holds after each point, the invariant
   carrying the accumulator at that sum), the body's obligation at every point by the three cases k = 0, 0 < k < 9,
   k = 9, and how the invariant meets what the region is entered with and gives it back. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid -/

/-- The first conditional (the reduction index is 0: the accumulator is reset). -/
abbrev cReset_3 (i : grid3.Coords) : Prop := (Scalar.cmpi .ne (Scalar.extui (Scalar.cmpi .eq (BitVec.ofNat 32 (i 1).val) 0#32)) 0#32) = 1#1
theorem hReset_3 : ∀ t : Fin cfg3.N, cReset_3 (grid3.coords t) ↔ t.val % 10 = 0 :=
  (by decide +kernel : ∀ t : Fin grid3.N, cReset_3 (grid3.coords t) ↔ t.val % 10 = 0)
/-- The second conditional (the reduction index is 9: the accumulator is copied to the output block). -/
abbrev cLast_3 (i : grid3.Coords) : Prop := k3_cond2 i = 1#1
theorem hLast_3 : ∀ t : Fin cfg3.N, cLast_3 (grid3.coords t) ↔ t.val % 10 = 9 :=
  (by decide +kernel : ∀ t : Fin grid3.N, cLast_3 (grid3.coords t) ↔ t.val % 10 = 9)

/-- The inputs are never idle; the output block is idle, and not written back, exactly off the last reduction index. -/
theorem liveAt_3_0 : ∀ t : Fin cfg3.N, cfg3.idle 0 (grid3.coords t) = false := by decide +kernel
theorem liveAt_3_1 : ∀ t : Fin cfg3.N, cfg3.idle 1 (grid3.coords t) = false := by decide +kernel
theorem idleAt_3_2 : ∀ t : Fin cfg3.N, ¬cLast_3 (grid3.coords t) → cfg3.idle 2 (grid3.coords t) = true := by decide +kernel
theorem noFlush_3_2 : ∀ t : Fin cfg3.N, ¬cLast_3 (grid3.coords t) → (cfg3.win 2).flush t = false := by decide +kernel
theorem liveAt_3_2 : ∀ t : Fin cfg3.N, cLast_3 (grid3.coords t) → cfg3.idle 2 (grid3.coords t) = false := by decide +kernel

/-- The staging memrefs at a point, as the pipeline passes them, and the scratch accumulator. -/
abbrev ms_3_0 (t : Fin cfg3.N) : Memref sig .tc .vmem S1024x1024 .bf16 := win3_0.stage (cfg3.slots t 0)
abbrev hs_3_0 (t : Fin cfg3.N) : (ms_3_0 t).IsWhole := hstage3_0 ((cfg3.slots t 0).cast nbuf3_0)
abbrev ms_3_1 (t : Fin cfg3.N) : Memref sig .tc .vmem S1024x128 .f32 := win3_1.stage (cfg3.slots t 1)
abbrev hs_3_1 (t : Fin cfg3.N) : (ms_3_1 t).IsWhole := hstage3_1 ((cfg3.slots t 1).cast nbuf3_1)
abbrev ms_3_2 (t : Fin cfg3.N) : Memref sig .tc .vmem S1024x128 .f32 := win3_2.stage (cfg3.slots t 2)
abbrev hs_3_2 (t : Fin cfg3.N) : (ms_3_2 t).IsWhole := hstage3_2 ((cfg3.slots t 2).cast nbuf3_2)
abbrev scM_3 : Memref sig .tc .vmem S1024x128 .f32 := Memref.whole cc3_scratch0
abbrev VS_3 : View sig .tc .vmem S1024x128 .f32 := (scM_3).view
abbrev VO_3 : View sig .tc .vmem S1024x128 .f32 := (Memref.whole cc3_stg2_0 : Memref sig .tc .vmem S1024x128 .f32).view

set_option maxHeartbeats 1000000 in
/-- The body at the first reduction index, not the last: the accumulator, at anything, is overwritten whole with zeros and
    then with zero plus the block product; the inputs and the (idle) output buffer are handed back as found. -/
noncomputable def kRunA_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i)
    (x0 : Vec F S1024x1024 .bf16) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__prop_plain_kernel i arg2 harg2 arg3 harg3 arg4 harg4 arg5 harg5) K } := by
  refine ⟨?_, fun xi2 E K => ?run⟩
  case run =>
    simp only [cc3__prop_plain_kernel_eq_skeleton]; unfold cc3__prop_plain_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at a middle reduction index: the accumulator, at what the point before left, gains the block product. -/
noncomputable def kRunB_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i)
    (x0 : Vec F S1024x1024 .bf16) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__prop_plain_kernel i arg2 harg2 arg3 harg3 arg4 harg4 arg5 harg5) K } := by
  refine ⟨?_, fun xi2 E K => ?run⟩
  case run =>
    simp only [cc3__prop_plain_kernel_eq_skeleton]; unfold cc3__prop_plain_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at the last reduction index: the accumulator gains the block product and is then copied whole into the
    output block's buffer (which held anything). -/
noncomputable def kRunC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i)
    (x0 : Vec F S1024x1024 .bf16) (x1 : Vec F S1024x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc3__prop_plain_kernel i arg2 harg2 arg3 harg3 arg4 harg4 arg5 harg5) K } := by
  refine ⟨?_, ?_, fun E K => ?run⟩
  case run =>
    simp only [cc3__prop_plain_kernel_eq_skeleton]; unfold cc3__prop_plain_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the accumulator and in the output block's buffer -/

theorem scoverA_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i) (x0 : Vec F S1024x1024 .bf16) (x1 : Vec F S1024x128 .f32) (y : S1024x128.Idx) :
    ∃ pc ∈ (kRunA_3 c i arg2 harg2 arg3 harg3 arg4 harg4 arg5 harg5 hc0 hc1 x0 x1).1, y ∈ pc.1.set :=
  View.cover_of_tiledL (kRunA_3 c i arg2 harg2 arg3 harg3 arg4 harg4 arg5 harg5 hc0 hc1 x0 x1).1 S1024x128.size (by sl_kernel_rfl) y
def soutA_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i) (x0 : Vec F S1024x1024 .bf16) (x1 : Vec F S1024x128 .f32) : Vec F S1024x128 .f32 :=
  VS_3.read (Elt F) (VS_3.writes (Elt F) VS_3.junk (kRunA_3 c i arg2 harg2 arg3 harg3 arg4 harg4 arg5 harg5 hc0 hc1 x0 x1).1)

theorem scoverB_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i) (x0 : Vec F S1024x1024 .bf16) (x1 xs : Vec F S1024x128 .f32) (y : S1024x128.Idx) :
    ∃ pc ∈ (kRunB_3 c i arg2 harg2 arg3 harg3 arg4 harg4 arg5 harg5 hc0 hc1 x0 x1 xs).1, y ∈ pc.1.set :=
  View.cover_of_tiledL (kRunB_3 c i arg2 harg2 arg3 harg3 arg4 harg4 arg5 harg5 hc0 hc1 x0 x1 xs).1 S1024x128.size (by sl_kernel_rfl) y
def soutB_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i) (x0 : Vec F S1024x1024 .bf16) (x1 xs : Vec F S1024x128 .f32) : Vec F S1024x128 .f32 :=
  VS_3.read (Elt F) (VS_3.writes (Elt F) VS_3.junk (kRunB_3 c i arg2 harg2 arg3 harg3 arg4 harg4 arg5 harg5 hc0 hc1 x0 x1 xs).1)

theorem scoverC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) (y : S1024x128.Idx) :
    ∃ pc ∈ (kRunC_3 c i arg2 harg2 arg3 harg3 arg4 harg4 arg5 harg5 hc0 hc1 x0 x1 xs).2.1, y ∈ pc.1.set :=
  View.cover_of_tiledL (kRunC_3 c i arg2 harg2 arg3 harg3 arg4 harg4 arg5 harg5 hc0 hc1 x0 x1 xs).2.1 S1024x128.size (by sl_kernel_rfl) y
def soutC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) : Vec F S1024x128 .f32 :=
  VS_3.read (Elt F) (VS_3.writes (Elt F) VS_3.junk (kRunC_3 c i arg2 harg2 arg3 harg3 arg4 harg4 arg5 harg5 hc0 hc1 x0 x1 xs).2.1)
theorem coverC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) (y : S1024x128.Idx) :
    ∃ pc ∈ (kRunC_3 c i arg2 harg2 arg3 harg3 arg4 harg4 arg5 harg5 hc0 hc1 x0 x1 xs).1, y ∈ pc.1.set :=
  View.cover_of_tiledL (kRunC_3 c i arg2 harg2 arg3 harg3 arg4 harg4 arg5 harg5 hc0 hc1 x0 x1 xs).1 S1024x128.size (by sl_kernel_rfl) y
def outC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) : Vec F S1024x128 .f32 :=
  VO_3.read (Elt F) (VO_3.writes (Elt F) VO_3.junk (kRunC_3 c i arg2 harg2 arg3 harg3 arg4 harg4 arg5 harg5 hc0 hc1 x0 x1 xs).1)

theorem notLast_of_reset_3 (t : Fin cfg3.N) (h0 : t.val % 10 = 0) : ¬cLast_3 (grid3.coords t) :=
  fun h => by have h9 := (hLast_3 t).mp h; omega
theorem notReset_3 (t : Fin cfg3.N) (h0 : ¬t.val % 10 = 0) : ¬cReset_3 (grid3.coords t) := fun h => h0 ((hReset_3 t).mp h)
theorem notLast_3 (t : Fin cfg3.N) (h1 : ¬t.val % 10 = 9) : ¬cLast_3 (grid3.coords t) := fun h => h1 ((hLast_3 t).mp h)
theorem notReset_of_last_3 (t : Fin cfg3.N) (h1 : t.val % 10 = 9) : ¬cReset_3 (grid3.coords t) :=
  fun h => by have h0 := (hReset_3 t).mp h; omega

/-! ## The windows' blocks and the accumulator point by point -/

/-- Window `w`'s block at point `t`, read off its array as the region finds it. -/
def iblk_3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One point's step of the accumulator: from what the point before left (`prev`, not read at a first reduction index). -/
def stepAcc_3 (c : Dev nD) (t : Fin cfg3.N) (prev : Vec F S1024x128 .f32) : Vec F S1024x128 .f32 :=
  if h0 : t.val % 10 = 0 then
    soutA_3 c (grid3.coords t) (ms_3_0 t) (hs_3_0 t) (ms_3_1 t) (hs_3_1 t) (ms_3_2 t) (hs_3_2 t) scM_3 (Memref.isWhole_whole _) ((hReset_3 t).mpr h0) (notLast_of_reset_3 t h0) (iblk_3 V c 0 t) (iblk_3 V c 1 t)
  else if h1 : t.val % 10 = 9 then
    soutC_3 c (grid3.coords t) (ms_3_0 t) (hs_3_0 t) (ms_3_1 t) (hs_3_1 t) (ms_3_2 t) (hs_3_2 t) scM_3 (Memref.isWhole_whole _) (notReset_3 t h0) ((hLast_3 t).mpr h1) (iblk_3 V c 0 t) (iblk_3 V c 1 t) prev
  else
    soutB_3 c (grid3.coords t) (ms_3_0 t) (hs_3_0 t) (ms_3_1 t) (hs_3_1 t) (ms_3_2 t) (hs_3_2 t) scM_3 (Memref.isWhole_whole _) (notReset_3 t h0) (notLast_3 t h1) (iblk_3 V c 0 t) (iblk_3 V c 1 t) prev

/-- THE ACCUMULATION: what the accumulator holds after the body at position `n` — for the point (i, k), zero plus the
    first k + 1 block products of row block i, summed in order. -/
def accAt_3 (c : Dev nD) : (n : ℕ) → n < cfg3.N → Vec F S1024x128 .f32
  | 0, hn => stepAcc_3 V c ⟨0, hn⟩ (VS_3.read (Elt F) VS_3.junk)
  | n + 1, hn => stepAcc_3 V c ⟨n + 1, hn⟩ (accAt_3 c n (Nat.lt_of_succ_lt hn))

/-- What the point before `t` left in the accumulator (anything readable before the first point). -/
def accPrev_3 (c : Dev nD) (t : Fin cfg3.N) : Vec F S1024x128 .f32 :=
  if hz : t.val = 0 then VS_3.read (Elt F) VS_3.junk
  else accAt_3 V c (t.val - 1) (Nat.lt_of_le_of_lt (Nat.sub_le _ _) t.isLt)

theorem accAt_step_3 (c : Dev nD) (t : Fin cfg3.N) : accAt_3 V c t.val t.isLt = stepAcc_3 V c t (accPrev_3 V c t) := by
  obtain ⟨n, hn⟩ := t
  cases n with
  | zero => unfold accPrev_3; rw [dif_pos rfl]; rfl
  | succ n => unfold accPrev_3; rw [dif_neg (Nat.succ_ne_zero n)]; rfl

theorem accPrev_pos_3 (c : Dev nD) (t : Fin cfg3.N) (hz : t.val ≠ 0) :
    accPrev_3 V c t = accAt_3 V c (t.val - 1) (Nat.lt_of_le_of_lt (Nat.sub_le _ _) t.isLt) := by
  unfold accPrev_3; rw [dif_neg hz]

/-- What the output block's buffer holds after the body at `t`: at a last reduction index the accumulator's final
    contents, copied; elsewhere the buffer is idle and this value is consulted by nothing. -/
def outAt_3 (c : Dev nD) (t : Fin cfg3.N) : Vec F S1024x128 .f32 :=
  if h1 : t.val % 10 = 9 then
    outC_3 c (grid3.coords t) (ms_3_0 t) (hs_3_0 t) (ms_3_1 t) (hs_3_1 t) (ms_3_2 t) (hs_3_2 t) scM_3 (Memref.isWhole_whole _) (notReset_of_last_3 t h1) ((hLast_3 t).mpr h1) (iblk_3 V c 0 t) (iblk_3 V c 1 t) (accPrev_3 V c t)
  else accAt_3 V c t.val t.isLt

/-! ## The invariant and the proof data -/

/-- Before the first point: the generator register and the scoped buffers no window stages, as the region is entered.
    Afterwards: the accumulator at what the point before left, the other such buffers unopened, the register. -/
def PhiS_3 (c : Dev nD) : (n : ℕ) → n ≤ cfg3.N → sProp 𝕄
  | 0, _ => iprop((∃ r, prngReg c r) ∗ Pipeline.scopedRest spec3 c)
  | n + 1, hn => iprop(owns (c : Thread nD τ) scM_3 fullShare (accAt_3 V c n hn) ∗ Pipeline.scopedRestBut spec3 c [cc3_scratch0] ∗ (∃ r, prngReg c r))

theorem PhiS_zero_3 (c : Dev nD) (n : ℕ) (h : n ≤ cfg3.N) (hz : n = 0) :
    PhiS_3 V c n h = iprop((∃ r, prngReg c r) ∗ Pipeline.scopedRest spec3 c) := by subst hz; rfl
theorem PhiS_succ_3 (c : Dev nD) (n : ℕ) (hn : n < cfg3.N) :
    PhiS_3 V c (n + 1) hn = iprop(owns (c : Thread nD τ) scM_3 fullShare (accAt_3 V c n hn) ∗ Pipeline.scopedRestBut spec3 c [cc3_scratch0] ∗ (∃ r, prngReg c r)) := rfl
theorem PhiS_pos_3 (c : Dev nD) (n : ℕ) (h : n ≤ cfg3.N) (hz : n ≠ 0) :
    PhiS_3 V c n h = iprop(owns (c : Thread nD τ) scM_3 fullShare (accAt_3 V c (n - 1) (by omega)) ∗ Pipeline.scopedRestBut spec3 c [cc3_scratch0] ∗ (∃ r, prngReg c r)) := by
  cases n with
  | zero => exact absurd rfl hz
  | succ n => rfl

/-- The entry invariant with the accumulator split out of the scoped rest, owned as a whole memref at some contents. -/
theorem PhiS0_eq_3 (c : Dev nD) :
    (iprop((∃ r, prngReg c r) ∗ Pipeline.scopedRest spec3 c) : sProp 𝕄)
      = iprop((∃ r, prngReg c r) ∗ iprop((∃ d, owns (c : Thread nD τ) scM_3 fullShare d)) ∗ Pipeline.scopedRestBut spec3 c [cc3_scratch0]) := by
  rw [scopedRest3_split]; simp only [scM_3, owns_whole]; try rfl

def dat3 (c : Dev nD) : Dat τ (Elt F) Unit ℕ (UR sig nD τ) ℕ cfg3 c where
  A w := V c (Pipeline.arrRef spec3 w)
  after w t := match w with
    | ⟨0, _⟩ => iblk_3 V c 0 t
    | ⟨1, _⟩ => iblk_3 V c 1 t
    | ⟨2, _⟩ => outAt_3 V c t
  Φ t := PhiS_3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc_3 (c : Dev nD) (t : Fin cfg3.N) :
    (dat3 V c).Φ t.castSucc = PhiS_3 V c t.val (Nat.le_of_lt t.isLt) := by
  dsimp only [dat3]; simp only [Fin.coe_castSucc]

theorem after_3_0 (c : Dev nD) (t : Fin cfg3.N) : (dat3 V c).after 0 t = iblk_3 V c 0 t := by dsimp only [dat3]
theorem after_3_1 (c : Dev nD) (t : Fin cfg3.N) : (dat3 V c).after 1 t = iblk_3 V c 1 t := by dsimp only [dat3]
theorem after_3_2 (c : Dev nD) (t : Fin cfg3.N) : (dat3 V c).after 2 t = outAt_3 V c t := by dsimp only [dat3]

/-- Each input is fetched at every point: its current staging buffer holds its block. -/
theorem before_3_0 (c : Dev nD) (t : Fin cfg3.N) (d) : (dat3 V c).before 0 t d = iblk_3 V c 0 t :=
  ((dat3 V c).before_fetched 0 t (fetch3_0 t) d).trans (by unfold Dat.fetched Dat.blockOf iblk_3; rw [A_eq3]; try rfl)
theorem before_3_1 (c : Dev nD) (t : Fin cfg3.N) (d) : (dat3 V c).before 1 t d = iblk_3 V c 1 t :=
  ((dat3 V c).before_fetched 1 t (fetch3_1 t) d).trans (by unfold Dat.fetched Dat.blockOf iblk_3; rw [A_eq3]; try rfl)

/-! ## The body obligation -/

def bodyPre_3 (c : Dev nD) (t : Fin cfg3.N) : sProp 𝕄 :=
  iprop((dat3 V c).Φ t.castSucc ∗ (dat3 V c).owesAt () t.castSucc
    ∗ (∃ d, owns (c : Thread nD τ) (ms_3_0 t) fullShare ((dat3 V c).before 0 t d))
    ∗ (∃ d, owns (c : Thread nD τ) (ms_3_1 t) fullShare ((dat3 V c).before 1 t d))
    ∗ (∃ d, owns (c : Thread nD τ) (ms_3_2 t) fullShare ((dat3 V c).before 2 t d)))

def bodyPost_3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' buffers hold their blocks; the closed forms say which of the three cases the
    point is in; the invariant hands the body the accumulator at what the point before left (at anything at the
    first point, where it is reset before it is read) and takes it back at this point's contents; where the output
    block is idle its buffer is handed back as found, and at a last reduction index it ends with the accumulator's copy. -/
theorem sound_body_3 (c : Dev nD) (t : Fin cfg3.N) :
    bodyPre_3 V c t ⊢ wp frame (wpE (defs₀ (F := F)) Variants.none c none) Set.univ (bodyAt3 t) (fun _ => bodyPost_3 V c t) := by
  unfold bodyPre_3 bodyPost_3 bodyAt3
  simp only [before_3_0, before_3_1]
  rw [show (dat3 V c).owesAt () t.succ = (dat3 V c).owesAt () t.castSucc from rfl]
  rw [show (dat3 V c).Φ t.succ = PhiS_3 V c (t.val + 1) t.isLt from rfl, PhiS_succ_3]
  have hN : t.val < 100 := lt_of_lt_of_eq t.isLt (show cfg3.N = 100 from N_3)
  rw [show (dat3 V c).leavesExact 0 t = owns (c : Thread nD τ) (ms_3_0 t) fullShare ((dat3 V c).after 0 t) from by
    unfold Dat.leavesExact; rw [liveAt_3_0 t], after_3_0]
  rw [show (dat3 V c).leavesExact 1 t = owns (c : Thread nD τ) (ms_3_1 t) fullShare ((dat3 V c).after 1 t) from by
    unfold Dat.leavesExact; rw [liveAt_3_1 t], after_3_1]
  rw [accAt_step_3 V c t]
  by_cases h0 : t.val % 10 = 0
  · have hc1 := notLast_of_reset_3 t h0
    rw [Dat.leavesExact_idle (dat3 V c) 2 t (idleAt_3_2 t hc1) (noFlush_3_2 t hc1)]
    unfold stepAcc_3; rw [dif_pos h0]
    unfold soutA_3; (try dsimp only)
    by_cases hz : t.val = 0
    · rw [PhiS_castSucc_3 V c t, PhiS_zero_3 V c _ _ hz, PhiS0_eq_3]
      iintro ⟨⟨Hg, HS0, Hrest⟩, Ho, ⟨%d0, H0⟩, ⟨%d1, H1⟩, ⟨%d2, H2⟩⟩
      iapply ((kRunA_3 c (grid3.coords t) (ms_3_0 t) (hs_3_0 t) (ms_3_1 t) (hs_3_1 t) (ms_3_2 t) (hs_3_2 t) scM_3 (Memref.isWhole_whole _) ((hReset_3 t).mpr h0) hc1 (iblk_3 V c 0 t) (iblk_3 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_3 c _ _ _ _ _ _ _ _ _ _ _ _ _)
        isplitl [Hrest]; · iexact Hrest
        iexact Hg
      isplitl [Ho]; · iexact Ho
      isplitl [H0]; · iexact H0
      isplitl [H1]; · iexact H1
      iexists _; iexact H2
    · rw [PhiS_castSucc_3 V c t, PhiS_pos_3 V c _ _ hz]
      iintro ⟨⟨HS0, Hrest, Hg⟩, Ho, ⟨%d0, H0⟩, ⟨%d1, H1⟩, ⟨%d2, H2⟩⟩
      iapply ((kRunA_3 c (grid3.coords t) (ms_3_0 t) (hs_3_0 t) (ms_3_1 t) (hs_3_1 t) (ms_3_2 t) (hs_3_2 t) scM_3 (Memref.isWhole_whole _) ((hReset_3 t).mpr h0) hc1 (iblk_3 V c 0 t) (iblk_3 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_3 c _ _ _ _ _ _ _ _ _ _ _ _ _)
        isplitl [Hrest]; · iexact Hrest
        iexact Hg
      isplitl [Ho]; · iexact Ho
      isplitl [H0]; · iexact H0
      isplitl [H1]; · iexact H1
      iexists _; iexact H2
  · have hz : t.val ≠ 0 := fun e => h0 (by rw [e])
    have hc0 := notReset_3 t h0
    unfold stepAcc_3; rw [dif_neg h0]
    rw [accPrev_pos_3 V c t hz]
    by_cases h1 : t.val % 10 = 9
    · rw [show (dat3 V c).leavesExact 2 t = owns (c : Thread nD τ) (ms_3_2 t) fullShare ((dat3 V c).after 2 t) from by
        unfold Dat.leavesExact; rw [liveAt_3_2 t ((hLast_3 t).mpr h1)], after_3_2]
      unfold outAt_3; rw [dif_pos h1, dif_pos h1, accPrev_pos_3 V c t hz]
      unfold soutC_3 outC_3; (try dsimp only)
      rw [PhiS_castSucc_3 V c t, PhiS_pos_3 V c _ _ hz]
      iintro ⟨⟨HS0, Hrest, Hg⟩, Ho, ⟨%d0, H0⟩, ⟨%d1, H1⟩, ⟨%d2, H2⟩⟩
      iapply ((kRunC_3 c (grid3.coords t) (ms_3_0 t) (hs_3_0 t) (ms_3_1 t) (hs_3_1 t) (ms_3_2 t) (hs_3_2 t) scM_3 (Memref.isWhole_whole _) hc0 ((hLast_3 t).mpr h1) (iblk_3 V c 0 t) (iblk_3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0]
        · unfold owns; iexists _; isplitr
          swap; · iexact HS0
          ipureintro; exact View.read_writes_of_cover _ _ _ _ _ (scoverC_3 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_3 c _ _ _ _ _ _ _ _ _ _ _ _ _ _)
    · have hc1 := notLast_3 t h1
      rw [Dat.leavesExact_idle (dat3 V c) 2 t (idleAt_3_2 t hc1) (noFlush_3_2 t hc1)]
      rw [dif_neg h1]
      unfold soutB_3; (try dsimp only)
      rw [PhiS_castSucc_3 V c t, PhiS_pos_3 V c _ _ hz]
      iintro ⟨⟨HS0, Hrest, Hg⟩, Ho, ⟨%d0, H0⟩, ⟨%d1, H1⟩, ⟨%d2, H2⟩⟩
      iapply ((kRunB_3 c (grid3.coords t) (ms_3_0 t) (hs_3_0 t) (ms_3_1 t) (hs_3_1 t) (ms_3_2 t) (hs_3_2 t) scM_3 (Memref.isWhole_whole _) hc0 hc1 (iblk_3 V c 0 t) (iblk_3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverB_3 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body_3 V c t

theorem phi_in3 (c : Dev nD) : (iprop((∃ r, prngReg c r) ∗ Pipeline.scopedRest spec3 c) : sProp 𝕄) ⊢ (dat3 V c).Φ 0 := by
  rw [show (dat3 V c).Φ 0 = PhiS_3 V c 0 (Nat.zero_le _) from rfl, PhiS_zero_3 V c 0 _ rfl]
  try exact Idealize.SL.BI.Entails.refl _

theorem phi_out3 (c : Dev nD) : (dat3 V c).Φ (Fin.last _) ⊢ (iprop((∃ r, prngReg c r) ∗ Pipeline.scopedRest spec3 c) : sProp 𝕄) := by
  rw [show (dat3 V c).Φ (Fin.last _) = PhiS_3 V c (Fin.last cfg3.N).val (Nat.le_of_lt_succ (Fin.last cfg3.N).isLt) from rfl,
    PhiS_pos_3 V c _ _ (by rw [Fin.val_last]; have : cfg3.N = 100 := N_3; omega), PhiS0_eq_3]
  iintro ⟨HS0, Hrest, Hg⟩
  isplitl [Hg]; · iexact Hg
  isplitl [HS0]; · iexists _; iexact HS0
  iexact Hrest

end Cert.Kernel.Hand
end
-- ==== Proof.K.Reg4.lean ====
/- One Chebyshev propagation step with an affine tail, as a blocked matrix product over a 10 × 10 grid.
   At grid point (i, k), k the fast axis, the body adds to a 1024-row accumulator the product of block (i, k) of
   the 10240 × 10240 matrix with block k of the right factor (rounded to the matrix's format first); the accumulator
   is zeroed when k = 0, so after step k it holds (((0 + d 0) + d 1) + … ) + d k, d k the k-th partial product; when
   k = 9 the output's row block i receives 2 · accumulator + (−1) · (row block i of the addend). Off k = 9 the output's
   buffer is not touched. This file states, for every grid point, what the accumulator and the windows' buffers hold
   before and after the body (by recursion on the point), proves the body meets that description in each of the
   three cases (k = 0; 0 < k < 9; k = 9), and relates the invariant at the two ends of the grid to the scoped buffers
   the region is entered and left with. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The zero offsets of a whole-block rectangle of rank 2. -/
theorem hz_4 : (![0, 0] : Fin 2 → Nat) = fun _ => 0 := funext fun a => by fin_cases a <;> rfl

/-! ## The two conditions of the body, in closed form over the grid -/

/-- The body's first condition: the reduction coordinate is 0. -/
abbrev condZ_4 (i : grid4.Coords) : Prop := (Scalar.cmpi .ne (Scalar.extui (Scalar.cmpi .eq (BitVec.ofNat 32 (i 1).val) 0#32)) 0#32) = 1#1
theorem hcondZ_4 : ∀ t : Fin cfg4.N, condZ_4 (grid4.coords t) ↔ t.val % 10 = 0 :=
  (by decide +kernel : ∀ t : Fin grid4.N, condZ_4 (grid4.coords t) ↔ t.val % 10 = 0)
/-- The body's second condition: the reduction coordinate is 9, the last. -/
abbrev condL_4 (i : grid4.Coords) : Prop := k4_cond2 i = 1#1
theorem hcondL_4 : ∀ t : Fin cfg4.N, condL_4 (grid4.coords t) ↔ t.val % 10 = 9 :=
  (by decide +kernel : ∀ t : Fin grid4.N, condL_4 (grid4.coords t) ↔ t.val % 10 = 9)

/-- The inputs are never idle; the output is idle, and not written back, exactly off the last reduction step. -/
theorem live_4_0 : ∀ t : Fin cfg4.N, cfg4.idle 0 (grid4.coords t) = false := fun _ => rfl
theorem live_4_1 : ∀ t : Fin cfg4.N, cfg4.idle 1 (grid4.coords t) = false := fun _ => rfl
theorem live_4_2 : ∀ t : Fin cfg4.N, cfg4.idle 2 (grid4.coords t) = false := fun _ => rfl
theorem idle_4_3 : ∀ t : Fin cfg4.N, ¬condL_4 (grid4.coords t) → cfg4.idle 3 (grid4.coords t) = true := by decide +kernel
theorem noFlush_4_3 : ∀ t : Fin cfg4.N, ¬condL_4 (grid4.coords t) → (cfg4.win 3).flush t = false := by decide +kernel
theorem live_4_3 : ∀ t : Fin cfg4.N, condL_4 (grid4.coords t) → cfg4.idle 3 (grid4.coords t) = false := by decide +kernel

/-! ## The body on any whole staging memrefs, case by case -/

/-- One whole-block store leaves its payload: the read-back of a buffer after a list of writes whose last covers it. -/
theorem read_last_4 {sg : RefSig} {κ : Kind} {sp : Space} (v : View sg κ sp S1024x128 .f32) (f : v.ty.Contents (Elt F))
    (w : S1024x128.Idx → Elt F .f32) (L : List (View.Piece (Elt F) S1024x128 .f32)) :
    v.read (Elt F) (v.writes (Elt F) f ((⟨Rect.unit ![0, 0] S1024x128.size inb_S1024x128_S1024x128_0_0, w⟩ : View.Piece (Elt F) S1024x128 .f32) :: L)) = w := by
  rw [View.read_writes_eq_canon _ _ _ (fun y => ⟨_, List.mem_cons_self, View.mem_set_unit_zero hz_4 inb_S1024x128_S1024x128_0_0 y⟩),
    View.canon_cons_unit_zero hz_4]

set_option maxHeartbeats 1000000 in
/-- Reduction step 0 (not the last): the accumulator, whatever it held, is zeroed, then receives
    zero + block 0 · block 1; the addend's and the output's buffers are handed back untouched. -/
theorem run_4_A (c : Dev nD) (i : grid4.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : condZ_4 i) (hc1 : ¬condL_4 i)
    (x0 : Vec F S1024x1024 .bf16) (x1 : Vec F S1024x128 .f32) (x2 : Vec F S1024x128 .f32)
    (xi3 : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k4_pay2 x0 x1 (k4_pay1 (F := F)))) -∗ K ⟨⟩))
      ⊢ wp frame (wpE (defs₀ (F := F)) Variants.none c none) E (cc4__prop_affine_kernel i arg2 harg2 arg3 harg3 arg4 harg4 arg5 harg5 arg6 harg6) K := by
  simp only [cc4__prop_affine_kernel_eq_skeleton]; unfold cc4__prop_affine_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [read_last_4, View.readCov_unit_zero (S := S1024x128) _ hz_4]
  simp only [View.readAt_eq_ld, harg2.read_unread, harg3.read_unread,
    View.ld_unit_zero (S := S1024x1024) hz_4, View.ld_unit_zero (S := S1024x128) hz_4]

set_option maxHeartbeats 1000000 in
/-- A middle reduction step: the accumulator at `xs` receives `xs` + block 0 · block 1; the addend's and the
    output's buffers are handed back untouched. -/
theorem run_4_B (c : Dev nD) (i : grid4.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_4 i) (hc1 : ¬condL_4 i)
    (x0 : Vec F S1024x1024 .bf16) (x1 : Vec F S1024x128 .f32) (x2 : Vec F S1024x128 .f32)
    (xi3 : Vec F S1024x128 .f32) (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k4_pay2 x0 x1 xs)) -∗ K ⟨⟩))
      ⊢ wp frame (wpE (defs₀ (F := F)) Variants.none c none) E (cc4__prop_affine_kernel i arg2 harg2 arg3 harg3 arg4 harg4 arg5 harg5 arg6 harg6) K := by
  simp only [cc4__prop_affine_kernel_eq_skeleton]; unfold cc4__prop_affine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [read_last_4]
  simp only [View.readAt_eq_ld, harg2.read_unread, harg3.read_unread, harg6.read_unread,
    View.ld_unit_zero (S := S1024x1024) hz_4, View.ld_unit_zero (S := S1024x128) hz_4]

set_option maxHeartbeats 1000000 in
/-- The last reduction step: the accumulator at `xs` receives `xs` + block 0 · block 1, and the output block,
    whatever it held, receives 2 · (that sum) + (−1) · (the addend's block). -/
theorem run_4_C (c : Dev nD) (i : grid4.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_4 i) (hc1 : condL_4 i)
    (x0 : Vec F S1024x1024 .bf16) (x1 : Vec F S1024x128 .f32) (x2 : Vec F S1024x128 .f32)
    (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k4_pay3 (k4_pay2 x0 x1 xs) x2)
            ∗ owns (c : Thread nD τ) arg6 fullShare (k4_pay2 x0 x1 xs)) -∗ K ⟨⟩))
      ⊢ wp frame (wpE (defs₀ (F := F)) Variants.none c none) E (cc4__prop_affine_kernel i arg2 harg2 arg3 harg3 arg4 harg4 arg5 harg5 arg6 harg6) K := by
  simp only [cc4__prop_affine_kernel_eq_skeleton]; unfold cc4__prop_affine_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_last_4, View.readCov_unit_zero (S := S1024x128) _ hz_4]
    simp only [View.readAt_eq_ld, harg2.read_unread, harg3.read_unread, harg4.read_unread, harg6.read_unread,
      View.ld_unit_zero (S := S1024x1024) hz_4, View.ld_unit_zero (S := S1024x128) hz_4]
  iexists _; isplitr
  swap; · iexact HS
  ipureintro
  sl_unfold_words
  rw [read_last_4]
  simp only [View.readAt_eq_ld, harg2.read_unread, harg3.read_unread, harg6.read_unread,
    View.ld_unit_zero (S := S1024x1024) hz_4, View.ld_unit_zero (S := S1024x128) hz_4]

/-! ## The windows' blocks and the accumulator, point by point -/

/-- Window `w`'s block at point `t`, read off its array as the region finds it. -/
def iblk_4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging memrefs the pipeline passes at point `t`, and the scratch accumulator. -/
abbrev ms_4_0 (t : Fin cfg4.N) : Memref sig .tc .vmem S1024x1024 .bf16 := win4_0.stage (cfg4.slots t 0)
abbrev hs_4_0 (t : Fin cfg4.N) : (ms_4_0 t).IsWhole := hstage4_0 ((cfg4.slots t 0).cast nbuf4_0)
abbrev ms_4_1 (t : Fin cfg4.N) : Memref sig .tc .vmem S1024x128 .f32 := win4_1.stage (cfg4.slots t 1)
abbrev hs_4_1 (t : Fin cfg4.N) : (ms_4_1 t).IsWhole := hstage4_1 ((cfg4.slots t 1).cast nbuf4_1)
abbrev ms_4_2 (t : Fin cfg4.N) : Memref sig .tc .vmem S1024x128 .f32 := win4_2.stage (cfg4.slots t 2)
abbrev hs_4_2 (t : Fin cfg4.N) : (ms_4_2 t).IsWhole := hstage4_2 ((cfg4.slots t 2).cast nbuf4_2)
abbrev ms_4_3 (t : Fin cfg4.N) : Memref sig .tc .vmem S1024x128 .f32 := win4_3.stage (cfg4.slots t 3)
abbrev hs_4_3 (t : Fin cfg4.N) : (ms_4_3 t).IsWhole := hstage4_3 ((cfg4.slots t 3).cast nbuf4_3)
abbrev scM_4 : Memref sig .tc .vmem S1024x128 .f32 := Memref.whole cc4_scratch0

/-- THE ACCUMULATOR after the body at position `n`: at a first reduction step zero + (block 0 · block 1), at a later
    one what the step before left + (block 0 · block 1). -/
def accAt_4 (c : Dev nD) : (n : ℕ) → n < cfg4.N → Vec F S1024x128 .f32
  | 0, hn => k4_pay2 (iblk_4 V c 0 ⟨0, hn⟩) (iblk_4 V c 1 ⟨0, hn⟩) (k4_pay1 (F := F))
  | n + 1, hn =>
    if (n + 1) % 10 = 0 then k4_pay2 (iblk_4 V c 0 ⟨n + 1, hn⟩) (iblk_4 V c 1 ⟨n + 1, hn⟩) (k4_pay1 (F := F))
    else k4_pay2 (iblk_4 V c 0 ⟨n + 1, hn⟩) (iblk_4 V c 1 ⟨n + 1, hn⟩) (accAt_4 c n (Nat.lt_of_succ_lt hn))

theorem accAt_4_first (c : Dev nD) (t : Fin cfg4.N) (h0 : t.val % 10 = 0) :
    accAt_4 V c t.val t.isLt = k4_pay2 (iblk_4 V c 0 t) (iblk_4 V c 1 t) (k4_pay1 (F := F)) := by
  obtain ⟨n, hn⟩ := t
  cases n with
  | zero => rfl
  | succ n => exact if_pos h0

theorem accAt_4_next (c : Dev nD) (t : Fin cfg4.N) (h0 : ¬t.val % 10 = 0) :
    accAt_4 V c t.val t.isLt = k4_pay2 (iblk_4 V c 0 t) (iblk_4 V c 1 t)
      (accAt_4 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the scratch among
    the scoped buffers, at anything); afterwards the scratch at the accumulator the point before left, the other scoped
    buffers unopened, the generator register at some state. -/
def Phi_4 (c : Dev nD) : (n : ℕ) → n ≤ cfg4.N → sProp 𝕄
  | 0, _ => iprop((∃ r, prngReg c r) ∗ Pipeline.scopedRest spec4 c)
  | n + 1, hn => iprop(owns (c : Thread nD τ) scM_4 fullShare (accAt_4 V c n hn)
      ∗ Pipeline.scopedRestBut spec4 c [cc4_scratch0] ∗ (∃ r, prngReg c r))

theorem Phi_4_zero (c : Dev nD) (n : ℕ) (h : n ≤ cfg4.N) (hz : n = 0) :
    Phi_4 V c n h = iprop((∃ r, prngReg c r) ∗ Pipeline.scopedRest spec4 c) := by
  subst hz; rfl

theorem Phi_4_succ (c : Dev nD) (n : ℕ) (hn : n < cfg4.N) :
    Phi_4 V c (n + 1) hn = iprop(owns (c : Thread nD τ) scM_4 fullShare (accAt_4 V c n hn)
      ∗ Pipeline.scopedRestBut spec4 c [cc4_scratch0] ∗ (∃ r, prngReg c r)) := rfl

theorem Phi_4_pos (c : Dev nD) (n : ℕ) (h : n ≤ cfg4.N) (hz : n ≠ 0) :
    Phi_4 V c n h = iprop(owns (c : Thread nD τ) scM_4 fullShare (accAt_4 V c (n - 1) (by omega))
      ∗ Pipeline.scopedRestBut spec4 c [cc4_scratch0] ∗ (∃ r, prngReg c r)) := by
  cases n with
  | zero => exact absurd rfl hz
  | succ n => rfl

/-- What the launch hands over, with the scratch split out of the scoped buffers and owned at some contents. -/
theorem Phi0_4_eq (c : Dev nD) :
    (iprop((∃ r, prngReg c r) ∗ Pipeline.scopedRest spec4 c) : sProp 𝕄)
      = iprop((∃ r, prngReg c r) ∗ iprop((∃ d, owns (c : Thread nD τ) scM_4 fullShare d))
          ∗ Pipeline.scopedRestBut spec4 c [cc4_scratch0]) := by
  rw [scopedRest4_split]; simp only [scM_4, owns_whole]; rfl

/-! ## The proof data -/

def dat4 (c : Dev nD) : Dat τ (Elt F) Unit ℕ (UR sig nD τ) ℕ cfg4 c where
  A w := V c (Pipeline.arrRef spec4 w)
  after w t := match w with
    | ⟨0, _⟩ => iblk_4 V c 0 t
    | ⟨1, _⟩ => iblk_4 V c 1 t
    | ⟨2, _⟩ => iblk_4 V c 2 t
    | ⟨3, _⟩ => k4_pay3 (accAt_4 V c t.val t.isLt) (iblk_4 V c 2 t)
  Φ t := Phi_4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi_4_castSucc (c : Dev nD) (t : Fin cfg4.N) :
    (dat4 V c).Φ t.castSucc = Phi_4 V c t.val (Nat.le_of_lt t.isLt) := by
  dsimp only [dat4]; simp only [Fin.coe_castSucc]

theorem after_4_0 (c : Dev nD) (t : Fin cfg4.N) : (dat4 V c).after 0 t = iblk_4 V c 0 t := by dsimp only [dat4]
theorem after_4_1 (c : Dev nD) (t : Fin cfg4.N) : (dat4 V c).after 1 t = iblk_4 V c 1 t := by dsimp only [dat4]
theorem after_4_2 (c : Dev nD) (t : Fin cfg4.N) : (dat4 V c).after 2 t = iblk_4 V c 2 t := by dsimp only [dat4]
theorem after_4_3 (c : Dev nD) (t : Fin cfg4.N) :
    (dat4 V c).after 3 t = k4_pay3 (accAt_4 V c t.val t.isLt) (iblk_4 V c 2 t) := by dsimp only [dat4]

/-- Each input's current staging buffer holds its block at every point, fetched there or not (unfetched, the block
    index has not moved). -/
theorem before_4_0 (c : Dev nD) (t : Fin cfg4.N) (d) : (dat4 V c).before 0 t d = iblk_4 V c 0 t :=
  ((dat4 V c).before_in_eq_fetched 0 rfl (fun _ => rfl) (fun _ _ _ => rfl)
    (fun t => by rw [after_4_0]; unfold Dat.blockOf iblk_4; rw [A_eq4]; try rfl) t d).trans
    (by unfold Dat.fetched Dat.blockOf iblk_4; rw [A_eq4]; try rfl)
theorem before_4_1 (c : Dev nD) (t : Fin cfg4.N) (d) : (dat4 V c).before 1 t d = iblk_4 V c 1 t :=
  ((dat4 V c).before_in_eq_fetched 1 rfl (fun _ => rfl) (fun _ _ _ => rfl)
    (fun t => by rw [after_4_1]; unfold Dat.blockOf iblk_4; rw [A_eq4]; try rfl) t d).trans
    (by unfold Dat.fetched Dat.blockOf iblk_4; rw [A_eq4]; try rfl)
theorem before_4_2 (c : Dev nD) (t : Fin cfg4.N) (d) : (dat4 V c).before 2 t d = iblk_4 V c 2 t :=
  ((dat4 V c).before_in_eq_fetched 2 rfl (fun _ => rfl) (fun _ _ _ => rfl)
    (fun t => by rw [after_4_2]; unfold Dat.blockOf iblk_4; rw [A_eq4]; try rfl) t d).trans
    (by unfold Dat.fetched Dat.blockOf iblk_4; rw [A_eq4]; try rfl)

/-! ## The body obligation -/

def bodyPre_4 (c : Dev nD) (t : Fin cfg4.N) : sProp 𝕄 :=
  iprop((dat4 V c).Φ t.castSucc ∗ (dat4 V c).owesAt () t.castSucc
    ∗ (∃ d, owns (c : Thread nD τ) (ms_4_0 t) fullShare ((dat4 V c).before 0 t d))
    ∗ (∃ d, owns (c : Thread nD τ) (ms_4_1 t) fullShare ((dat4 V c).before 1 t d))
    ∗ (∃ d, owns (c : Thread nD τ) (ms_4_2 t) fullShare ((dat4 V c).before 2 t d))
    ∗ (∃ d, owns (c : Thread nD τ) (ms_4_3 t) fullShare ((dat4 V c).before 3 t d)))

def bodyPost_4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the closed forms say which of the three cases the
    point is in; the invariant hands the body the accumulator at what the step before left (at anything where the
    reduction restarts) and takes it back at this point's; off the last reduction step the output's buffer is handed
    back untouched. -/
theorem sound_body_4 (c : Dev nD) (t : Fin cfg4.N) :
    bodyPre_4 V c t ⊢ wp frame (wpE (defs₀ (F := F)) Variants.none c none) Set.univ (bodyAt4 t) (fun _ => bodyPost_4 V c t) := by
  unfold bodyPre_4 bodyPost_4 bodyAt4
  simp only [before_4_0, before_4_1, before_4_2]
  rw [show (dat4 V c).owesAt () t.succ = (dat4 V c).owesAt () t.castSucc from rfl]
  rw [show (dat4 V c).Φ t.succ = Phi_4 V c (t.val + 1) t.isLt from rfl, Phi_4_succ]
  have hN : t.val < 100 := lt_of_lt_of_eq t.isLt (show cfg4.N = 100 from N_4)
  rw [show (dat4 V c).leavesExact 0 t = owns (c : Thread nD τ) (ms_4_0 t) fullShare ((dat4 V c).after 0 t) from by
    unfold Dat.leavesExact; rw [live_4_0 t], after_4_0]
  rw [show (dat4 V c).leavesExact 1 t = owns (c : Thread nD τ) (ms_4_1 t) fullShare ((dat4 V c).after 1 t) from by
    unfold Dat.leavesExact; rw [live_4_1 t], after_4_1]
  rw [show (dat4 V c).leavesExact 2 t = owns (c : Thread nD τ) (ms_4_2 t) fullShare ((dat4 V c).after 2 t) from by
    unfold Dat.leavesExact; rw [live_4_2 t], after_4_2]
  by_cases h1 : t.val % 10 = 9
  · have h0 : ¬t.val % 10 = 0 := by omega
    have hz : t.val ≠ 0 := by omega
    rw [show (dat4 V c).leavesExact 3 t = owns (c : Thread nD τ) (ms_4_3 t) fullShare ((dat4 V c).after 3 t) from by
      unfold Dat.leavesExact; rw [live_4_3 t ((hcondL_4 t).mpr h1)], after_4_3]
    rw [accAt_4_next V c t h0]
    rw [Phi_4_castSucc V c t, Phi_4_pos V c _ _ hz]
    iintro ⟨⟨HS, HR, Hg⟩, Ho, ⟨%d0, H0⟩, ⟨%d1, H1⟩, ⟨%d2, H2⟩, ⟨%d3, H3⟩⟩
    iapply (run_4_C c (grid4.coords t) _ (hs_4_0 t) _ (hs_4_1 t) _ (hs_4_2 t) _ (hs_4_3 t) scM_4 (Memref.isWhole_whole _)
      (fun h => h0 ((hcondZ_4 t).mp h)) ((hcondL_4 t).mpr h1) (iblk_4 V c 0 t) (iblk_4 V c 1 t) (iblk_4 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat4 V c) 3 t (idle_4_3 t (fun h => h1 ((hcondL_4 t).mp h))) (noFlush_4_3 t (fun h => h1 ((hcondL_4 t).mp h)))]
    by_cases h0 : t.val % 10 = 0
    · rw [accAt_4_first V c t h0]
      by_cases hz : t.val = 0
      · rw [Phi_4_castSucc V c t, Phi_4_zero V c _ _ hz, Phi0_4_eq]
        iintro ⟨⟨Hg, HS, HR⟩, Ho, ⟨%d0, H0⟩, ⟨%d1, H1⟩, ⟨%d2, H2⟩, ⟨%d3, H3⟩⟩
        iapply (run_4_A c (grid4.coords t) _ (hs_4_0 t) _ (hs_4_1 t) _ (hs_4_2 t) _ (hs_4_3 t) scM_4 (Memref.isWhole_whole _)
          ((hcondZ_4 t).mpr h0) (fun h => h1 ((hcondL_4 t).mp h)) (iblk_4 V c 0 t) (iblk_4 V c 1 t) (iblk_4 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi_4_castSucc V c t, Phi_4_pos V c _ _ hz]
        iintro ⟨⟨HS, HR, Hg⟩, Ho, ⟨%d0, H0⟩, ⟨%d1, H1⟩, ⟨%d2, H2⟩, ⟨%d3, H3⟩⟩
        iapply (run_4_A c (grid4.coords t) _ (hs_4_0 t) _ (hs_4_1 t) _ (hs_4_2 t) _ (hs_4_3 t) scM_4 (Memref.isWhole_whole _)
          ((hcondZ_4 t).mpr h0) (fun h => h1 ((hcondL_4 t).mp h)) (iblk_4 V c 0 t) (iblk_4 V c 1 t) (iblk_4 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_4_next V c t h0]
      rw [Phi_4_castSucc V c t, Phi_4_pos V c _ _ hz]
      iintro ⟨⟨HS, HR, Hg⟩, Ho, ⟨%d0, H0⟩, ⟨%d1, H1⟩, ⟨%d2, H2⟩, ⟨%d3, H3⟩⟩
      iapply (run_4_B c (grid4.coords t) _ (hs_4_0 t) _ (hs_4_1 t) _ (hs_4_2 t) _ (hs_4_3 t) scM_4 (Memref.isWhole_whole _)
        (fun h => h0 ((hcondZ_4 t).mp h)) (fun h => h1 ((hcondL_4 t).mp h)) (iblk_4 V c 0 t) (iblk_4 V c 1 t) (iblk_4 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body_4 V c t

theorem phi_in4 (c : Dev nD) : (iprop((∃ r, prngReg c r) ∗ Pipeline.scopedRest spec4 c) : sProp 𝕄) ⊢ (dat4 V c).Φ 0 := by
  rw [show (dat4 V c).Φ 0 = Phi_4 V c 0 (Nat.zero_le _) from rfl, Phi_4_zero V c 0 _ rfl]
  try exact Idealize.SL.BI.Entails.refl _

theorem phi_out4 (c : Dev nD) : (dat4 V c).Φ (Fin.last _) ⊢ (iprop((∃ r, prngReg c r) ∗ Pipeline.scopedRest spec4 c) : sProp 𝕄) := by
  rw [show (dat4 V c).Φ (Fin.last _) = Phi_4 V c (Fin.last cfg4.N).val (Nat.le_of_lt_succ (Fin.last cfg4.N).isLt) from rfl,
    Phi_4_pos V c _ _ (by rw [Fin.val_last]; have : cfg4.N = 100 := N_4; omega), Phi0_4_eq]
  iintro ⟨HS, HR, Hg⟩
  isplitl [Hg]; · iexact Hg
  isplitl [HS]; · iexists _; iexact HS
  iexact HR

end Cert.Kernel.Hand
end
-- ==== Proof.K.Reg5.lean ====
/- Region 5: one row block of the left factor times the whole right factor, accumulated from zero, plus the
   bias row broadcast down the rows, then the maximum with zero; the result is stored whole into the output row block.
   Nothing is carried from one grid point to the next. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5 -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each block whole -/

abbrev r5_0 : Rect S1024x384 := Rect.unit (s := S1024x384) ![0, 0] S1024x384.size inb_S1024x384_S1024x384_0_0
abbrev r5_1 : Rect S384x256 := Rect.unit (s := S384x256) ![0, 0] S384x256.size inb_S384x256_S384x256_0_0
abbrev r5_2 : Rect S1x256 := Rect.unit (s := S1x256) ![0, 0] S1x256.size inb_S1x256_S1x256_0_0
abbrev r5_3 : Rect S1024x256 := Rect.unit (s := S1024x256) ![0, 0] S1024x256.size inb_S1024x256_S1024x256_0_0

/-- The output block after the body, from the three input blocks: its one store as a piece. -/
def out5_3 (x0 : Vec F S1024x384 .f32) (x1 : Vec F S384x256 .f32) (x2 : Vec F S1x256 .f32) : Vec F S1024x256 .f32 :=
  View.canon [⟨r5_3, k5_pay1 (View.ld x0 r5_0) (View.ld x1 r5_1) (View.ld x2 r5_2)⟩]

/-- The one store covers the output block. -/
theorem cover5_3 (p0 : Vec F S1024x256 .f32) (y : S1024x256.Idx) :
    ∃ pc ∈ ([⟨r5_3, p0⟩] : List (View.Piece (Elt F) S1024x256 .f32)), y ∈ pc.1.set :=
  View.cover_of_tiled [⟨r5_3, p0⟩] S1024x256.size (by rfl) y

set_option maxHeartbeats 1000000 in
/-- The body on whole staging memrefs, the inputs at contents `x0 x1 x2` and the output at anything, runs to the
    continuation holding the inputs as they were and the output at `out5_3` of the inputs. -/
theorem sound_kernel5 (c : Dev nD) (E : Set ℕ) (i : grid5.Coords) (arg1 : Memref sig .tc .vmem S1024x384 .f32) (harg1 : arg1.IsWhole) (arg2 : Memref sig .tc .vmem S384x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x384 .f32) (x1 : Vec F S384x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__mm_bias_kernel i arg1 harg1 arg2 harg2 arg3 harg3 arg4 harg4) K := by
  simp only [cc5__mm_bias_kernel_eq_skeleton]; unfold cc5__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The proof data -/

/-- The arrays as the region finds them; after the body each input's buffer at its block and the output's at
    `out5_3` of the input blocks; the invariant is the untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

/-! ## The invariant at the region's ends -/

theorem phi_in5 (c : Dev nD) : (iprop((∃ r, prngReg c r) ∗ Pipeline.scopedRest spec5 c) : sProp 𝕄) ⊢ (dat5 V c).Φ 0 := by
  show _ ⊢ Pipeline.ΦA spec5 c
  unfold Pipeline.ΦA
  iintro ⟨H1, H2⟩
  isplitl [H2]; · iexact H2
  iexact H1

theorem phi_out5 (c : Dev nD) : (dat5 V c).Φ (Fin.last _) ⊢ (iprop((∃ r, prngReg c r) ∗ Pipeline.scopedRest spec5 c) : sProp 𝕄) := by
  show Pipeline.ΦA spec5 c ⊢ _
  unfold Pipeline.ΦA
  iintro ⟨H1, H2⟩
  isplitl [H2]; · iexact H2
  iexact H1

end Cert.Kernel.Hand
end
-- ==== Proof.K.Reg6.lean ====
/- One propagation product of the Chebyshev stack, blocked: the [10240, 10240] matrix times a [10240, Fw] right factor,
   over a 10 × 10 grid of points (i, k), k fastest. At the point (i, k) the body adds to an f32 accumulator the product of
   block (i, k) of the matrix with block k of the right factor rounded to bf16; the accumulator is zeroed at k = 0 and
   copied into row block i of the result at k = 9. The accumulator after (i, k) is therefore the in-order sum
   (((0 + d 0) + d 1) + … + d k) of the block products d j of row block i, and row block i of the result is that sum at
   k = 9. Stated here: the proof data of the region (what each window's buffer holds after each point, the invariant
   carrying the accumulator at that sum), the body's obligation at every point by the three cases k = 0, 0 < k < 9,
   k = 9, and how the invariant meets what the region is entered with and gives it back. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid -/

/-- The first conditional (the reduction index is 0: the accumulator is reset). -/
abbrev cReset_6 (i : grid6.Coords) : Prop := (Scalar.cmpi .ne (Scalar.extui (Scalar.cmpi .eq (BitVec.ofNat 32 (i 1).val) 0#32)) 0#32) = 1#1
theorem hReset_6 : ∀ t : Fin cfg6.N, cReset_6 (grid6.coords t) ↔ t.val % 10 = 0 :=
  (by decide +kernel : ∀ t : Fin grid6.N, cReset_6 (grid6.coords t) ↔ t.val % 10 = 0)
/-- The second conditional (the reduction index is 9: the accumulator is copied to the output block). -/
abbrev cLast_6 (i : grid6.Coords) : Prop := k6_cond2 i = 1#1
theorem hLast_6 : ∀ t : Fin cfg6.N, cLast_6 (grid6.coords t) ↔ t.val % 10 = 9 :=
  (by decide +kernel : ∀ t : Fin grid6.N, cLast_6 (grid6.coords t) ↔ t.val % 10 = 9)

/-- The inputs are never idle; the output block is idle, and not written back, exactly off the last reduction index. -/
theorem liveAt_6_0 : ∀ t : Fin cfg6.N, cfg6.idle 0 (grid6.coords t) = false := by decide +kernel
theorem liveAt_6_1 : ∀ t : Fin cfg6.N, cfg6.idle 1 (grid6.coords t) = false := by decide +kernel
theorem idleAt_6_2 : ∀ t : Fin cfg6.N, ¬cLast_6 (grid6.coords t) → cfg6.idle 2 (grid6.coords t) = true := by decide +kernel
theorem noFlush_6_2 : ∀ t : Fin cfg6.N, ¬cLast_6 (grid6.coords t) → (cfg6.win 2).flush t = false := by decide +kernel
theorem liveAt_6_2 : ∀ t : Fin cfg6.N, cLast_6 (grid6.coords t) → cfg6.idle 2 (grid6.coords t) = false := by decide +kernel

/-- The staging memrefs at a point, as the pipeline passes them, and the scratch accumulator. -/
abbrev ms_6_0 (t : Fin cfg6.N) : Memref sig .tc .vmem S1024x1024 .bf16 := win6_0.stage (cfg6.slots t 0)
abbrev hs_6_0 (t : Fin cfg6.N) : (ms_6_0 t).IsWhole := hstage6_0 ((cfg6.slots t 0).cast nbuf6_0)
abbrev ms_6_1 (t : Fin cfg6.N) : Memref sig .tc .vmem S1024x256 .f32 := win6_1.stage (cfg6.slots t 1)
abbrev hs_6_1 (t : Fin cfg6.N) : (ms_6_1 t).IsWhole := hstage6_1 ((cfg6.slots t 1).cast nbuf6_1)
abbrev ms_6_2 (t : Fin cfg6.N) : Memref sig .tc .vmem S1024x256 .f32 := win6_2.stage (cfg6.slots t 2)
abbrev hs_6_2 (t : Fin cfg6.N) : (ms_6_2 t).IsWhole := hstage6_2 ((cfg6.slots t 2).cast nbuf6_2)
abbrev scM_6 : Memref sig .tc .vmem S1024x256 .f32 := Memref.whole cc6_scratch0
abbrev VS_6 : View sig .tc .vmem S1024x256 .f32 := (scM_6).view
abbrev VO_6 : View sig .tc .vmem S1024x256 .f32 := (Memref.whole cc6_stg2_0 : Memref sig .tc .vmem S1024x256 .f32).view

set_option maxHeartbeats 1000000 in
/-- The body at the first reduction index, not the last: the accumulator, at anything, is overwritten whole with zeros and
    then with zero plus the block product; the inputs and the (idle) output buffer are handed back as found. -/
noncomputable def kRunA_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i)
    (x0 : Vec F S1024x1024 .bf16) (x1 : Vec F S1024x256 .f32) :
    { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc6__prop_plain_kernel i arg2 harg2 arg3 harg3 arg4 harg4 arg5 harg5) K } := by
  refine ⟨?_, fun xi2 E K => ?run⟩
  case run =>
    simp only [cc6__prop_plain_kernel_eq_skeleton]; unfold cc6__prop_plain_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at a middle reduction index: the accumulator, at what the point before left, gains the block product. -/
noncomputable def kRunB_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i)
    (x0 : Vec F S1024x1024 .bf16) (x1 : Vec F S1024x256 .f32) (xs : Vec F S1024x256 .f32) :
    { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc6__prop_plain_kernel i arg2 harg2 arg3 harg3 arg4 harg4 arg5 harg5) K } := by
  refine ⟨?_, fun xi2 E K => ?run⟩
  case run =>
    simp only [cc6__prop_plain_kernel_eq_skeleton]; unfold cc6__prop_plain_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at the last reduction index: the accumulator gains the block product and is then copied whole into the
    output block's buffer (which held anything). -/
noncomputable def kRunC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i)
    (x0 : Vec F S1024x1024 .bf16) (x1 : Vec F S1024x256 .f32) (xs : Vec F S1024x256 .f32) :
    Σ' (L2 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc6__prop_plain_kernel i arg2 harg2 arg3 harg3 arg4 harg4 arg5 harg5) K } := by
  refine ⟨?_, ?_, fun E K => ?run⟩
  case run =>
    simp only [cc6__prop_plain_kernel_eq_skeleton]; unfold cc6__prop_plain_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the accumulator and in the output block's buffer -/

theorem scoverA_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i) (x0 : Vec F S1024x1024 .bf16) (x1 : Vec F S1024x256 .f32) (y : S1024x256.Idx) :
    ∃ pc ∈ (kRunA_6 c i arg2 harg2 arg3 harg3 arg4 harg4 arg5 harg5 hc0 hc1 x0 x1).1, y ∈ pc.1.set :=
  View.cover_of_tiledL (kRunA_6 c i arg2 harg2 arg3 harg3 arg4 harg4 arg5 harg5 hc0 hc1 x0 x1).1 S1024x256.size (by sl_kernel_rfl) y
def soutA_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i) (x0 : Vec F S1024x1024 .bf16) (x1 : Vec F S1024x256 .f32) : Vec F S1024x256 .f32 :=
  VS_6.read (Elt F) (VS_6.writes (Elt F) VS_6.junk (kRunA_6 c i arg2 harg2 arg3 harg3 arg4 harg4 arg5 harg5 hc0 hc1 x0 x1).1)

theorem scoverB_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i) (x0 : Vec F S1024x1024 .bf16) (x1 xs : Vec F S1024x256 .f32) (y : S1024x256.Idx) :
    ∃ pc ∈ (kRunB_6 c i arg2 harg2 arg3 harg3 arg4 harg4 arg5 harg5 hc0 hc1 x0 x1 xs).1, y ∈ pc.1.set :=
  View.cover_of_tiledL (kRunB_6 c i arg2 harg2 arg3 harg3 arg4 harg4 arg5 harg5 hc0 hc1 x0 x1 xs).1 S1024x256.size (by sl_kernel_rfl) y
def soutB_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i) (x0 : Vec F S1024x1024 .bf16) (x1 xs : Vec F S1024x256 .f32) : Vec F S1024x256 .f32 :=
  VS_6.read (Elt F) (VS_6.writes (Elt F) VS_6.junk (kRunB_6 c i arg2 harg2 arg3 harg3 arg4 harg4 arg5 harg5 hc0 hc1 x0 x1 xs).1)

theorem scoverC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) (y : S1024x256.Idx) :
    ∃ pc ∈ (kRunC_6 c i arg2 harg2 arg3 harg3 arg4 harg4 arg5 harg5 hc0 hc1 x0 x1 xs).2.1, y ∈ pc.1.set :=
  View.cover_of_tiledL (kRunC_6 c i arg2 harg2 arg3 harg3 arg4 harg4 arg5 harg5 hc0 hc1 x0 x1 xs).2.1 S1024x256.size (by sl_kernel_rfl) y
def soutC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) : Vec F S1024x256 .f32 :=
  VS_6.read (Elt F) (VS_6.writes (Elt F) VS_6.junk (kRunC_6 c i arg2 harg2 arg3 harg3 arg4 harg4 arg5 harg5 hc0 hc1 x0 x1 xs).2.1)
theorem coverC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) (y : S1024x256.Idx) :
    ∃ pc ∈ (kRunC_6 c i arg2 harg2 arg3 harg3 arg4 harg4 arg5 harg5 hc0 hc1 x0 x1 xs).1, y ∈ pc.1.set :=
  View.cover_of_tiledL (kRunC_6 c i arg2 harg2 arg3 harg3 arg4 harg4 arg5 harg5 hc0 hc1 x0 x1 xs).1 S1024x256.size (by sl_kernel_rfl) y
def outC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) : Vec F S1024x256 .f32 :=
  VO_6.read (Elt F) (VO_6.writes (Elt F) VO_6.junk (kRunC_6 c i arg2 harg2 arg3 harg3 arg4 harg4 arg5 harg5 hc0 hc1 x0 x1 xs).1)

theorem notLast_of_reset_6 (t : Fin cfg6.N) (h0 : t.val % 10 = 0) : ¬cLast_6 (grid6.coords t) :=
  fun h => by have h9 := (hLast_6 t).mp h; omega
theorem notReset_6 (t : Fin cfg6.N) (h0 : ¬t.val % 10 = 0) : ¬cReset_6 (grid6.coords t) := fun h => h0 ((hReset_6 t).mp h)
theorem notLast_6 (t : Fin cfg6.N) (h1 : ¬t.val % 10 = 9) : ¬cLast_6 (grid6.coords t) := fun h => h1 ((hLast_6 t).mp h)
theorem notReset_of_last_6 (t : Fin cfg6.N) (h1 : t.val % 10 = 9) : ¬cReset_6 (grid6.coords t) :=
  fun h => by have h0 := (hReset_6 t).mp h; omega

/-! ## The windows' blocks and the accumulator point by point -/

/-- Window `w`'s block at point `t`, read off its array as the region finds it. -/
def iblk_6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- One point's step of the accumulator: from what the point before left (`prev`, not read at a first reduction index). -/
def stepAcc_6 (c : Dev nD) (t : Fin cfg6.N) (prev : Vec F S1024x256 .f32) : Vec F S1024x256 .f32 :=
  if h0 : t.val % 10 = 0 then
    soutA_6 c (grid6.coords t) (ms_6_0 t) (hs_6_0 t) (ms_6_1 t) (hs_6_1 t) (ms_6_2 t) (hs_6_2 t) scM_6 (Memref.isWhole_whole _) ((hReset_6 t).mpr h0) (notLast_of_reset_6 t h0) (iblk_6 V c 0 t) (iblk_6 V c 1 t)
  else if h1 : t.val % 10 = 9 then
    soutC_6 c (grid6.coords t) (ms_6_0 t) (hs_6_0 t) (ms_6_1 t) (hs_6_1 t) (ms_6_2 t) (hs_6_2 t) scM_6 (Memref.isWhole_whole _) (notReset_6 t h0) ((hLast_6 t).mpr h1) (iblk_6 V c 0 t) (iblk_6 V c 1 t) prev
  else
    soutB_6 c (grid6.coords t) (ms_6_0 t) (hs_6_0 t) (ms_6_1 t) (hs_6_1 t) (ms_6_2 t) (hs_6_2 t) scM_6 (Memref.isWhole_whole _) (notReset_6 t h0) (notLast_6 t h1) (iblk_6 V c 0 t) (iblk_6 V c 1 t) prev

/-- THE ACCUMULATION: what the accumulator holds after the body at position `n` — for the point (i, k), zero plus the
    first k + 1 block products of row block i, summed in order. -/
def accAt_6 (c : Dev nD) : (n : ℕ) → n < cfg6.N → Vec F S1024x256 .f32
  | 0, hn => stepAcc_6 V c ⟨0, hn⟩ (VS_6.read (Elt F) VS_6.junk)
  | n + 1, hn => stepAcc_6 V c ⟨n + 1, hn⟩ (accAt_6 c n (Nat.lt_of_succ_lt hn))

/-- What the point before `t` left in the accumulator (anything readable before the first point). -/
def accPrev_6 (c : Dev nD) (t : Fin cfg6.N) : Vec F S1024x256 .f32 :=
  if hz : t.val = 0 then VS_6.read (Elt F) VS_6.junk
  else accAt_6 V c (t.val - 1) (Nat.lt_of_le_of_lt (Nat.sub_le _ _) t.isLt)

theorem accAt_step_6 (c : Dev nD) (t : Fin cfg6.N) : accAt_6 V c t.val t.isLt = stepAcc_6 V c t (accPrev_6 V c t) := by
  obtain ⟨n, hn⟩ := t
  cases n with
  | zero => unfold accPrev_6; rw [dif_pos rfl]; rfl
  | succ n => unfold accPrev_6; rw [dif_neg (Nat.succ_ne_zero n)]; rfl

theorem accPrev_pos_6 (c : Dev nD) (t : Fin cfg6.N) (hz : t.val ≠ 0) :
    accPrev_6 V c t = accAt_6 V c (t.val - 1) (Nat.lt_of_le_of_lt (Nat.sub_le _ _) t.isLt) := by
  unfold accPrev_6; rw [dif_neg hz]

/-- What the output block's buffer holds after the body at `t`: at a last reduction index the accumulator's final
    contents, copied; elsewhere the buffer is idle and this value is consulted by nothing. -/
def outAt_6 (c : Dev nD) (t : Fin cfg6.N) : Vec F S1024x256 .f32 :=
  if h1 : t.val % 10 = 9 then
    outC_6 c (grid6.coords t) (ms_6_0 t) (hs_6_0 t) (ms_6_1 t) (hs_6_1 t) (ms_6_2 t) (hs_6_2 t) scM_6 (Memref.isWhole_whole _) (notReset_of_last_6 t h1) ((hLast_6 t).mpr h1) (iblk_6 V c 0 t) (iblk_6 V c 1 t) (accPrev_6 V c t)
  else accAt_6 V c t.val t.isLt

/-! ## The invariant and the proof data -/

/-- Before the first point: the generator register and the scoped buffers no window stages, as the region is entered.
    Afterwards: the accumulator at what the point before left, the other such buffers unopened, the register. -/
def PhiS_6 (c : Dev nD) : (n : ℕ) → n ≤ cfg6.N → sProp 𝕄
  | 0, _ => iprop((∃ r, prngReg c r) ∗ Pipeline.scopedRest spec6 c)
  | n + 1, hn => iprop(owns (c : Thread nD τ) scM_6 fullShare (accAt_6 V c n hn) ∗ Pipeline.scopedRestBut spec6 c [cc6_scratch0] ∗ (∃ r, prngReg c r))

theorem PhiS_zero_6 (c : Dev nD) (n : ℕ) (h : n ≤ cfg6.N) (hz : n = 0) :
    PhiS_6 V c n h = iprop((∃ r, prngReg c r) ∗ Pipeline.scopedRest spec6 c) := by subst hz; rfl
theorem PhiS_succ_6 (c : Dev nD) (n : ℕ) (hn : n < cfg6.N) :
    PhiS_6 V c (n + 1) hn = iprop(owns (c : Thread nD τ) scM_6 fullShare (accAt_6 V c n hn) ∗ Pipeline.scopedRestBut spec6 c [cc6_scratch0] ∗ (∃ r, prngReg c r)) := rfl
theorem PhiS_pos_6 (c : Dev nD) (n : ℕ) (h : n ≤ cfg6.N) (hz : n ≠ 0) :
    PhiS_6 V c n h = iprop(owns (c : Thread nD τ) scM_6 fullShare (accAt_6 V c (n - 1) (by omega)) ∗ Pipeline.scopedRestBut spec6 c [cc6_scratch0] ∗ (∃ r, prngReg c r)) := by
  cases n with
  | zero => exact absurd rfl hz
  | succ n => rfl

/-- The entry invariant with the accumulator split out of the scoped rest, owned as a whole memref at some contents. -/
theorem PhiS0_eq_6 (c : Dev nD) :
    (iprop((∃ r, prngReg c r) ∗ Pipeline.scopedRest spec6 c) : sProp 𝕄)
      = iprop((∃ r, prngReg c r) ∗ iprop((∃ d, owns (c : Thread nD τ) scM_6 fullShare d)) ∗ Pipeline.scopedRestBut spec6 c [cc6_scratch0]) := by
  rw [scopedRest6_split]; simp only [scM_6, owns_whole]; try rfl

def dat6 (c : Dev nD) : Dat τ (Elt F) Unit ℕ (UR sig nD τ) ℕ cfg6 c where
  A w := V c (Pipeline.arrRef spec6 w)
  after w t := match w with
    | ⟨0, _⟩ => iblk_6 V c 0 t
    | ⟨1, _⟩ => iblk_6 V c 1 t
    | ⟨2, _⟩ => outAt_6 V c t
  Φ t := PhiS_6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS_castSucc_6 (c : Dev nD) (t : Fin cfg6.N) :
    (dat6 V c).Φ t.castSucc = PhiS_6 V c t.val (Nat.le_of_lt t.isLt) := by
  dsimp only [dat6]; simp only [Fin.coe_castSucc]

theorem after_6_0 (c : Dev nD) (t : Fin cfg6.N) : (dat6 V c).after 0 t = iblk_6 V c 0 t := by dsimp only [dat6]
theorem after_6_1 (c : Dev nD) (t : Fin cfg6.N) : (dat6 V c).after 1 t = iblk_6 V c 1 t := by dsimp only [dat6]
theorem after_6_2 (c : Dev nD) (t : Fin cfg6.N) : (dat6 V c).after 2 t = outAt_6 V c t := by dsimp only [dat6]

/-- Each input is fetched at every point: its current staging buffer holds its block. -/
theorem before_6_0 (c : Dev nD) (t : Fin cfg6.N) (d) : (dat6 V c).before 0 t d = iblk_6 V c 0 t :=
  ((dat6 V c).before_fetched 0 t (fetch6_0 t) d).trans (by unfold Dat.fetched Dat.blockOf iblk_6; rw [A_eq6]; try rfl)
theorem before_6_1 (c : Dev nD) (t : Fin cfg6.N) (d) : (dat6 V c).before 1 t d = iblk_6 V c 1 t :=
  ((dat6 V c).before_fetched 1 t (fetch6_1 t) d).trans (by unfold Dat.fetched Dat.blockOf iblk_6; rw [A_eq6]; try rfl)

/-! ## The body obligation -/

def bodyPre_6 (c : Dev nD) (t : Fin cfg6.N) : sProp 𝕄 :=
  iprop((dat6 V c).Φ t.castSucc ∗ (dat6 V c).owesAt () t.castSucc
    ∗ (∃ d, owns (c : Thread nD τ) (ms_6_0 t) fullShare ((dat6 V c).before 0 t d))
    ∗ (∃ d, owns (c : Thread nD τ) (ms_6_1 t) fullShare ((dat6 V c).before 1 t d))
    ∗ (∃ d, owns (c : Thread nD τ) (ms_6_2 t) fullShare ((dat6 V c).before 2 t d)))

def bodyPost_6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the inputs' buffers hold their blocks; the closed forms say which of the three cases the
    point is in; the invariant hands the body the accumulator at what the point before left (at anything at the
    first point, where it is reset before it is read) and takes it back at this point's contents; where the output
    block is idle its buffer is handed back as found, and at a last reduction index it ends with the accumulator's copy. -/
theorem sound_body_6 (c : Dev nD) (t : Fin cfg6.N) :
    bodyPre_6 V c t ⊢ wp frame (wpE (defs₀ (F := F)) Variants.none c none) Set.univ (bodyAt6 t) (fun _ => bodyPost_6 V c t) := by
  unfold bodyPre_6 bodyPost_6 bodyAt6
  simp only [before_6_0, before_6_1]
  rw [show (dat6 V c).owesAt () t.succ = (dat6 V c).owesAt () t.castSucc from rfl]
  rw [show (dat6 V c).Φ t.succ = PhiS_6 V c (t.val + 1) t.isLt from rfl, PhiS_succ_6]
  have hN : t.val < 100 := lt_of_lt_of_eq t.isLt (show cfg6.N = 100 from N_6)
  rw [show (dat6 V c).leavesExact 0 t = owns (c : Thread nD τ) (ms_6_0 t) fullShare ((dat6 V c).after 0 t) from by
    unfold Dat.leavesExact; rw [liveAt_6_0 t], after_6_0]
  rw [show (dat6 V c).leavesExact 1 t = owns (c : Thread nD τ) (ms_6_1 t) fullShare ((dat6 V c).after 1 t) from by
    unfold Dat.leavesExact; rw [liveAt_6_1 t], after_6_1]
  rw [accAt_step_6 V c t]
  by_cases h0 : t.val % 10 = 0
  · have hc1 := notLast_of_reset_6 t h0
    rw [Dat.leavesExact_idle (dat6 V c) 2 t (idleAt_6_2 t hc1) (noFlush_6_2 t hc1)]
    unfold stepAcc_6; rw [dif_pos h0]
    unfold soutA_6; (try dsimp only)
    by_cases hz : t.val = 0
    · rw [PhiS_castSucc_6 V c t, PhiS_zero_6 V c _ _ hz, PhiS0_eq_6]
      iintro ⟨⟨Hg, HS0, Hrest⟩, Ho, ⟨%d0, H0⟩, ⟨%d1, H1⟩, ⟨%d2, H2⟩⟩
      iapply ((kRunA_6 c (grid6.coords t) (ms_6_0 t) (hs_6_0 t) (ms_6_1 t) (hs_6_1 t) (ms_6_2 t) (hs_6_2 t) scM_6 (Memref.isWhole_whole _) ((hReset_6 t).mpr h0) hc1 (iblk_6 V c 0 t) (iblk_6 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_6 c _ _ _ _ _ _ _ _ _ _ _ _ _)
        isplitl [Hrest]; · iexact Hrest
        iexact Hg
      isplitl [Ho]; · iexact Ho
      isplitl [H0]; · iexact H0
      isplitl [H1]; · iexact H1
      iexists _; iexact H2
    · rw [PhiS_castSucc_6 V c t, PhiS_pos_6 V c _ _ hz]
      iintro ⟨⟨HS0, Hrest, Hg⟩, Ho, ⟨%d0, H0⟩, ⟨%d1, H1⟩, ⟨%d2, H2⟩⟩
      iapply ((kRunA_6 c (grid6.coords t) (ms_6_0 t) (hs_6_0 t) (ms_6_1 t) (hs_6_1 t) (ms_6_2 t) (hs_6_2 t) scM_6 (Memref.isWhole_whole _) ((hReset_6 t).mpr h0) hc1 (iblk_6 V c 0 t) (iblk_6 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_6 c _ _ _ _ _ _ _ _ _ _ _ _ _)
        isplitl [Hrest]; · iexact Hrest
        iexact Hg
      isplitl [Ho]; · iexact Ho
      isplitl [H0]; · iexact H0
      isplitl [H1]; · iexact H1
      iexists _; iexact H2
  · have hz : t.val ≠ 0 := fun e => h0 (by rw [e])
    have hc0 := notReset_6 t h0
    unfold stepAcc_6; rw [dif_neg h0]
    rw [accPrev_pos_6 V c t hz]
    by_cases h1 : t.val % 10 = 9
    · rw [show (dat6 V c).leavesExact 2 t = owns (c : Thread nD τ) (ms_6_2 t) fullShare ((dat6 V c).after 2 t) from by
        unfold Dat.leavesExact; rw [liveAt_6_2 t ((hLast_6 t).mpr h1)], after_6_2]
      unfold outAt_6; rw [dif_pos h1, dif_pos h1, accPrev_pos_6 V c t hz]
      unfold soutC_6 outC_6; (try dsimp only)
      rw [PhiS_castSucc_6 V c t, PhiS_pos_6 V c _ _ hz]
      iintro ⟨⟨HS0, Hrest, Hg⟩, Ho, ⟨%d0, H0⟩, ⟨%d1, H1⟩, ⟨%d2, H2⟩⟩
      iapply ((kRunC_6 c (grid6.coords t) (ms_6_0 t) (hs_6_0 t) (ms_6_1 t) (hs_6_1 t) (ms_6_2 t) (hs_6_2 t) scM_6 (Memref.isWhole_whole _) hc0 ((hLast_6 t).mpr h1) (iblk_6 V c 0 t) (iblk_6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0]
        · unfold owns; iexists _; isplitr
          swap; · iexact HS0
          ipureintro; exact View.read_writes_of_cover _ _ _ _ _ (scoverC_6 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_6 c _ _ _ _ _ _ _ _ _ _ _ _ _ _)
    · have hc1 := notLast_6 t h1
      rw [Dat.leavesExact_idle (dat6 V c) 2 t (idleAt_6_2 t hc1) (noFlush_6_2 t hc1)]
      rw [dif_neg h1]
      unfold soutB_6; (try dsimp only)
      rw [PhiS_castSucc_6 V c t, PhiS_pos_6 V c _ _ hz]
      iintro ⟨⟨HS0, Hrest, Hg⟩, Ho, ⟨%d0, H0⟩, ⟨%d1, H1⟩, ⟨%d2, H2⟩⟩
      iapply ((kRunB_6 c (grid6.coords t) (ms_6_0 t) (hs_6_0 t) (ms_6_1 t) (hs_6_1 t) (ms_6_2 t) (hs_6_2 t) scM_6 (Memref.isWhole_whole _) hc0 hc1 (iblk_6 V c 0 t) (iblk_6 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverB_6 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body_6 V c t

theorem phi_in6 (c : Dev nD) : (iprop((∃ r, prngReg c r) ∗ Pipeline.scopedRest spec6 c) : sProp 𝕄) ⊢ (dat6 V c).Φ 0 := by
  rw [show (dat6 V c).Φ 0 = PhiS_6 V c 0 (Nat.zero_le _) from rfl, PhiS_zero_6 V c 0 _ rfl]
  try exact Idealize.SL.BI.Entails.refl _

theorem phi_out6 (c : Dev nD) : (dat6 V c).Φ (Fin.last _) ⊢ (iprop((∃ r, prngReg c r) ∗ Pipeline.scopedRest spec6 c) : sProp 𝕄) := by
  rw [show (dat6 V c).Φ (Fin.last _) = PhiS_6 V c (Fin.last cfg6.N).val (Nat.le_of_lt_succ (Fin.last cfg6.N).isLt) from rfl,
    PhiS_pos_6 V c _ _ (by rw [Fin.val_last]; have : cfg6.N = 100 := N_6; omega), PhiS0_eq_6]
  iintro ⟨HS0, Hrest, Hg⟩
  isplitl [Hg]; · iexact Hg
  isplitl [HS0]; · iexists _; iexact HS0
  iexact Hrest

end Cert.Kernel.Hand
end
-- ==== Proof.K.Reg7.lean ====
/- One Chebyshev propagation step with an affine tail, as a blocked matrix product over a 10 × 10 grid.
   At grid point (i, k), k the fast axis, the body adds to a 1024-row accumulator the product of block (i, k) of
   the 10240 × 10240 matrix with block k of the right factor (rounded to the matrix's format first); the accumulator
   is zeroed when k = 0, so after step k it holds (((0 + d 0) + d 1) + … ) + d k, d k the k-th partial product; when
   k = 9 the output's row block i receives 2 · accumulator + (−1) · (row block i of the addend). Off k = 9 the output's
   buffer is not touched. This file states, for every grid point, what the accumulator and the windows' buffers hold
   before and after the body (by recursion on the point), proves the body meets that description in each of the
   three cases (k = 0; 0 < k < 9; k = 9), and relates the invariant at the two ends of the grid to the scoped buffers
   the region is entered and left with. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The zero offsets of a whole-block rectangle of rank 2. -/
theorem hz_7 : (![0, 0] : Fin 2 → Nat) = fun _ => 0 := funext fun a => by fin_cases a <;> rfl

/-! ## The two conditions of the body, in closed form over the grid -/

/-- The body's first condition: the reduction coordinate is 0. -/
abbrev condZ_7 (i : grid7.Coords) : Prop := (Scalar.cmpi .ne (Scalar.extui (Scalar.cmpi .eq (BitVec.ofNat 32 (i 1).val) 0#32)) 0#32) = 1#1
theorem hcondZ_7 : ∀ t : Fin cfg7.N, condZ_7 (grid7.coords t) ↔ t.val % 10 = 0 :=
  (by decide +kernel : ∀ t : Fin grid7.N, condZ_7 (grid7.coords t) ↔ t.val % 10 = 0)
/-- The body's second condition: the reduction coordinate is 9, the last. -/
abbrev condL_7 (i : grid7.Coords) : Prop := k7_cond2 i = 1#1
theorem hcondL_7 : ∀ t : Fin cfg7.N, condL_7 (grid7.coords t) ↔ t.val % 10 = 9 :=
  (by decide +kernel : ∀ t : Fin grid7.N, condL_7 (grid7.coords t) ↔ t.val % 10 = 9)

/-- The inputs are never idle; the output is idle, and not written back, exactly off the last reduction step. -/
theorem live_7_0 : ∀ t : Fin cfg7.N, cfg7.idle 0 (grid7.coords t) = false := fun _ => rfl
theorem live_7_1 : ∀ t : Fin cfg7.N, cfg7.idle 1 (grid7.coords t) = false := fun _ => rfl
theorem live_7_2 : ∀ t : Fin cfg7.N, cfg7.idle 2 (grid7.coords t) = false := fun _ => rfl
theorem idle_7_3 : ∀ t : Fin cfg7.N, ¬condL_7 (grid7.coords t) → cfg7.idle 3 (grid7.coords t) = true := by decide +kernel
theorem noFlush_7_3 : ∀ t : Fin cfg7.N, ¬condL_7 (grid7.coords t) → (cfg7.win 3).flush t = false := by decide +kernel
theorem live_7_3 : ∀ t : Fin cfg7.N, condL_7 (grid7.coords t) → cfg7.idle 3 (grid7.coords t) = false := by decide +kernel

/-! ## The body on any whole staging memrefs, case by case -/

/-- One whole-block store leaves its payload: the read-back of a buffer after a list of writes whose last covers it. -/
theorem read_last_7 {sg : RefSig} {κ : Kind} {sp : Space} (v : View sg κ sp S1024x256 .f32) (f : v.ty.Contents (Elt F))
    (w : S1024x256.Idx → Elt F .f32) (L : List (View.Piece (Elt F) S1024x256 .f32)) :
    v.read (Elt F) (v.writes (Elt F) f ((⟨Rect.unit ![0, 0] S1024x256.size inb_S1024x256_S1024x256_0_0, w⟩ : View.Piece (Elt F) S1024x256 .f32) :: L)) = w := by
  rw [View.read_writes_eq_canon _ _ _ (fun y => ⟨_, List.mem_cons_self, View.mem_set_unit_zero hz_7 inb_S1024x256_S1024x256_0_0 y⟩),
    View.canon_cons_unit_zero hz_7]

set_option maxHeartbeats 1000000 in
/-- Reduction step 0 (not the last): the accumulator, whatever it held, is zeroed, then receives
    zero + block 0 · block 1; the addend's and the output's buffers are handed back untouched. -/
theorem run_7_A (c : Dev nD) (i : grid7.Coords)
    (arg2 : Memref sig .tc .vmem S1024x1024 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (arg6 : Memref sig .tc .vmem S1024x256 .f32) (harg6 : arg6.IsWhole)
    (hc0 : condZ_7 i) (hc1 : ¬condL_7 i)
    (x0 : Vec F S1024x1024 .bf16) (x1 : Vec F S1024x256 .f32) (x2 : Vec F S1024x256 .f32)
    (xi3 : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k7_pay2 x0 x1 (k7_pay1 (F := F)))) -∗ K ⟨⟩))
      ⊢ wp frame (wpE (defs₀ (F := F)) Variants.none c none) E (cc7__prop_affine_kernel i arg2 harg2 arg3 harg3 arg4 harg4 arg5 harg5 arg6 harg6) K := by
  simp only [cc7__prop_affine_kernel_eq_skeleton]; unfold cc7__prop_affine_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [read_last_7, View.readCov_unit_zero (S := S1024x256) _ hz_7]
  simp only [View.readAt_eq_ld, harg2.read_unread, harg3.read_unread,
    View.ld_unit_zero (S := S1024x1024) hz_7, View.ld_unit_zero (S := S1024x256) hz_7]

set_option maxHeartbeats 1000000 in
/-- A middle reduction step: the accumulator at `xs` receives `xs` + block 0 · block 1; the addend's and the
    output's buffers are handed back untouched. -/
theorem run_7_B (c : Dev nD) (i : grid7.Coords)
    (arg2 : Memref sig .tc .vmem S1024x1024 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬condZ_7 i) (hc1 : ¬condL_7 i)
    (x0 : Vec F S1024x1024 .bf16) (x1 : Vec F S1024x256 .f32) (x2 : Vec F S1024x256 .f32)
    (xi3 : Vec F S1024x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k7_pay2 x0 x1 xs)) -∗ K ⟨⟩))
      ⊢ wp frame (wpE (defs₀ (F := F)) Variants.none c none) E (cc7__prop_affine_kernel i arg2 harg2 arg3 harg3 arg4 harg4 arg5 harg5 arg6 harg6) K := by
  simp only [cc7__prop_affine_kernel_eq_skeleton]; unfold cc7__prop_affine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [read_last_7]
  simp only [View.readAt_eq_ld, harg2.read_unread, harg3.read_unread, harg6.read_unread,
    View.ld_unit_zero (S := S1024x1024) hz_7, View.ld_unit_zero (S := S1024x256) hz_7]

set_option maxHeartbeats 1000000 in
/-- The last reduction step: the accumulator at `xs` receives `xs` + block 0 · block 1, and the output block,
    whatever it held, receives 2 · (that sum) + (−1) · (the addend's block). -/
theorem run_7_C (c : Dev nD) (i : grid7.Coords)
    (arg2 : Memref sig .tc .vmem S1024x1024 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬condZ_7 i) (hc1 : condL_7 i)
    (x0 : Vec F S1024x1024 .bf16) (x1 : Vec F S1024x256 .f32) (x2 : Vec F S1024x256 .f32)
    (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k7_pay3 (k7_pay2 x0 x1 xs) x2)
            ∗ owns (c : Thread nD τ) arg6 fullShare (k7_pay2 x0 x1 xs)) -∗ K ⟨⟩))
      ⊢ wp frame (wpE (defs₀ (F := F)) Variants.none c none) E (cc7__prop_affine_kernel i arg2 harg2 arg3 harg3 arg4 harg4 arg5 harg5 arg6 harg6) K := by
  simp only [cc7__prop_affine_kernel_eq_skeleton]; unfold cc7__prop_affine_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_last_7, View.readCov_unit_zero (S := S1024x256) _ hz_7]
    simp only [View.readAt_eq_ld, harg2.read_unread, harg3.read_unread, harg4.read_unread, harg6.read_unread,
      View.ld_unit_zero (S := S1024x1024) hz_7, View.ld_unit_zero (S := S1024x256) hz_7]
  iexists _; isplitr
  swap; · iexact HS
  ipureintro
  sl_unfold_words
  rw [read_last_7]
  simp only [View.readAt_eq_ld, harg2.read_unread, harg3.read_unread, harg6.read_unread,
    View.ld_unit_zero (S := S1024x1024) hz_7, View.ld_unit_zero (S := S1024x256) hz_7]

/-! ## The windows' blocks and the accumulator, point by point -/

/-- Window `w`'s block at point `t`, read off its array as the region finds it. -/
def iblk_7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The staging memrefs the pipeline passes at point `t`, and the scratch accumulator. -/
abbrev ms_7_0 (t : Fin cfg7.N) : Memref sig .tc .vmem S1024x1024 .bf16 := win7_0.stage (cfg7.slots t 0)
abbrev hs_7_0 (t : Fin cfg7.N) : (ms_7_0 t).IsWhole := hstage7_0 ((cfg7.slots t 0).cast nbuf7_0)
abbrev ms_7_1 (t : Fin cfg7.N) : Memref sig .tc .vmem S1024x256 .f32 := win7_1.stage (cfg7.slots t 1)
abbrev hs_7_1 (t : Fin cfg7.N) : (ms_7_1 t).IsWhole := hstage7_1 ((cfg7.slots t 1).cast nbuf7_1)
abbrev ms_7_2 (t : Fin cfg7.N) : Memref sig .tc .vmem S1024x256 .f32 := win7_2.stage (cfg7.slots t 2)
abbrev hs_7_2 (t : Fin cfg7.N) : (ms_7_2 t).IsWhole := hstage7_2 ((cfg7.slots t 2).cast nbuf7_2)
abbrev ms_7_3 (t : Fin cfg7.N) : Memref sig .tc .vmem S1024x256 .f32 := win7_3.stage (cfg7.slots t 3)
abbrev hs_7_3 (t : Fin cfg7.N) : (ms_7_3 t).IsWhole := hstage7_3 ((cfg7.slots t 3).cast nbuf7_3)
abbrev scM_7 : Memref sig .tc .vmem S1024x256 .f32 := Memref.whole cc7_scratch0

/-- THE ACCUMULATOR after the body at position `n`: at a first reduction step zero + (block 0 · block 1), at a later
    one what the step before left + (block 0 · block 1). -/
def accAt_7 (c : Dev nD) : (n : ℕ) → n < cfg7.N → Vec F S1024x256 .f32
  | 0, hn => k7_pay2 (iblk_7 V c 0 ⟨0, hn⟩) (iblk_7 V c 1 ⟨0, hn⟩) (k7_pay1 (F := F))
  | n + 1, hn =>
    if (n + 1) % 10 = 0 then k7_pay2 (iblk_7 V c 0 ⟨n + 1, hn⟩) (iblk_7 V c 1 ⟨n + 1, hn⟩) (k7_pay1 (F := F))
    else k7_pay2 (iblk_7 V c 0 ⟨n + 1, hn⟩) (iblk_7 V c 1 ⟨n + 1, hn⟩) (accAt_7 c n (Nat.lt_of_succ_lt hn))

theorem accAt_7_first (c : Dev nD) (t : Fin cfg7.N) (h0 : t.val % 10 = 0) :
    accAt_7 V c t.val t.isLt = k7_pay2 (iblk_7 V c 0 t) (iblk_7 V c 1 t) (k7_pay1 (F := F)) := by
  obtain ⟨n, hn⟩ := t
  cases n with
  | zero => rfl
  | succ n => exact if_pos h0

theorem accAt_7_next (c : Dev nD) (t : Fin cfg7.N) (h0 : ¬t.val % 10 = 0) :
    accAt_7 V c t.val t.isLt = k7_pay2 (iblk_7 V c 0 t) (iblk_7 V c 1 t)
      (accAt_7 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the scratch among
    the scoped buffers, at anything); afterwards the scratch at the accumulator the point before left, the other scoped
    buffers unopened, the generator register at some state. -/
def Phi_7 (c : Dev nD) : (n : ℕ) → n ≤ cfg7.N → sProp 𝕄
  | 0, _ => iprop((∃ r, prngReg c r) ∗ Pipeline.scopedRest spec7 c)
  | n + 1, hn => iprop(owns (c : Thread nD τ) scM_7 fullShare (accAt_7 V c n hn)
      ∗ Pipeline.scopedRestBut spec7 c [cc7_scratch0] ∗ (∃ r, prngReg c r))

theorem Phi_7_zero (c : Dev nD) (n : ℕ) (h : n ≤ cfg7.N) (hz : n = 0) :
    Phi_7 V c n h = iprop((∃ r, prngReg c r) ∗ Pipeline.scopedRest spec7 c) := by
  subst hz; rfl

theorem Phi_7_succ (c : Dev nD) (n : ℕ) (hn : n < cfg7.N) :
    Phi_7 V c (n + 1) hn = iprop(owns (c : Thread nD τ) scM_7 fullShare (accAt_7 V c n hn)
      ∗ Pipeline.scopedRestBut spec7 c [cc7_scratch0] ∗ (∃ r, prngReg c r)) := rfl

theorem Phi_7_pos (c : Dev nD) (n : ℕ) (h : n ≤ cfg7.N) (hz : n ≠ 0) :
    Phi_7 V c n h = iprop(owns (c : Thread nD τ) scM_7 fullShare (accAt_7 V c (n - 1) (by omega))
      ∗ Pipeline.scopedRestBut spec7 c [cc7_scratch0] ∗ (∃ r, prngReg c r)) := by
  cases n with
  | zero => exact absurd rfl hz
  | succ n => rfl

/-- What the launch hands over, with the scratch split out of the scoped buffers and owned at some contents. -/
theorem Phi0_7_eq (c : Dev nD) :
    (iprop((∃ r, prngReg c r) ∗ Pipeline.scopedRest spec7 c) : sProp 𝕄)
      = iprop((∃ r, prngReg c r) ∗ iprop((∃ d, owns (c : Thread nD τ) scM_7 fullShare d))
          ∗ Pipeline.scopedRestBut spec7 c [cc7_scratch0]) := by
  rw [scopedRest7_split]; simp only [scM_7, owns_whole]; rfl

/-! ## The proof data -/

def dat7 (c : Dev nD) : Dat τ (Elt F) Unit ℕ (UR sig nD τ) ℕ cfg7 c where
  A w := V c (Pipeline.arrRef spec7 w)
  after w t := match w with
    | ⟨0, _⟩ => iblk_7 V c 0 t
    | ⟨1, _⟩ => iblk_7 V c 1 t
    | ⟨2, _⟩ => iblk_7 V c 2 t
    | ⟨3, _⟩ => k7_pay3 (accAt_7 V c t.val t.isLt) (iblk_7 V c 2 t)
  Φ t := Phi_7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem Phi_7_castSucc (c : Dev nD) (t : Fin cfg7.N) :
    (dat7 V c).Φ t.castSucc = Phi_7 V c t.val (Nat.le_of_lt t.isLt) := by
  dsimp only [dat7]; simp only [Fin.coe_castSucc]

theorem after_7_0 (c : Dev nD) (t : Fin cfg7.N) : (dat7 V c).after 0 t = iblk_7 V c 0 t := by dsimp only [dat7]
theorem after_7_1 (c : Dev nD) (t : Fin cfg7.N) : (dat7 V c).after 1 t = iblk_7 V c 1 t := by dsimp only [dat7]
theorem after_7_2 (c : Dev nD) (t : Fin cfg7.N) : (dat7 V c).after 2 t = iblk_7 V c 2 t := by dsimp only [dat7]
theorem after_7_3 (c : Dev nD) (t : Fin cfg7.N) :
    (dat7 V c).after 3 t = k7_pay3 (accAt_7 V c t.val t.isLt) (iblk_7 V c 2 t) := by dsimp only [dat7]

/-- Each input's current staging buffer holds its block at every point, fetched there or not (unfetched, the block
    index has not moved). -/
theorem before_7_0 (c : Dev nD) (t : Fin cfg7.N) (d) : (dat7 V c).before 0 t d = iblk_7 V c 0 t :=
  ((dat7 V c).before_in_eq_fetched 0 rfl (fun _ => rfl) (fun _ _ _ => rfl)
    (fun t => by rw [after_7_0]; unfold Dat.blockOf iblk_7; rw [A_eq7]; try rfl) t d).trans
    (by unfold Dat.fetched Dat.blockOf iblk_7; rw [A_eq7]; try rfl)
theorem before_7_1 (c : Dev nD) (t : Fin cfg7.N) (d) : (dat7 V c).before 1 t d = iblk_7 V c 1 t :=
  ((dat7 V c).before_in_eq_fetched 1 rfl (fun _ => rfl) (fun _ _ _ => rfl)
    (fun t => by rw [after_7_1]; unfold Dat.blockOf iblk_7; rw [A_eq7]; try rfl) t d).trans
    (by unfold Dat.fetched Dat.blockOf iblk_7; rw [A_eq7]; try rfl)
theorem before_7_2 (c : Dev nD) (t : Fin cfg7.N) (d) : (dat7 V c).before 2 t d = iblk_7 V c 2 t :=
  ((dat7 V c).before_in_eq_fetched 2 rfl (fun _ => rfl) (fun _ _ _ => rfl)
    (fun t => by rw [after_7_2]; unfold Dat.blockOf iblk_7; rw [A_eq7]; try rfl) t d).trans
    (by unfold Dat.fetched Dat.blockOf iblk_7; rw [A_eq7]; try rfl)

/-! ## The body obligation -/

def bodyPre_7 (c : Dev nD) (t : Fin cfg7.N) : sProp 𝕄 :=
  iprop((dat7 V c).Φ t.castSucc ∗ (dat7 V c).owesAt () t.castSucc
    ∗ (∃ d, owns (c : Thread nD τ) (ms_7_0 t) fullShare ((dat7 V c).before 0 t d))
    ∗ (∃ d, owns (c : Thread nD τ) (ms_7_1 t) fullShare ((dat7 V c).before 1 t d))
    ∗ (∃ d, owns (c : Thread nD τ) (ms_7_2 t) fullShare ((dat7 V c).before 2 t d))
    ∗ (∃ d, owns (c : Thread nD τ) (ms_7_3 t) fullShare ((dat7 V c).before 3 t d)))

def bodyPost_7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' buffers hold their blocks; the closed forms say which of the three cases the
    point is in; the invariant hands the body the accumulator at what the step before left (at anything where the
    reduction restarts) and takes it back at this point's; off the last reduction step the output's buffer is handed
    back untouched. -/
theorem sound_body_7 (c : Dev nD) (t : Fin cfg7.N) :
    bodyPre_7 V c t ⊢ wp frame (wpE (defs₀ (F := F)) Variants.none c none) Set.univ (bodyAt7 t) (fun _ => bodyPost_7 V c t) := by
  unfold bodyPre_7 bodyPost_7 bodyAt7
  simp only [before_7_0, before_7_1, before_7_2]
  rw [show (dat7 V c).owesAt () t.succ = (dat7 V c).owesAt () t.castSucc from rfl]
  rw [show (dat7 V c).Φ t.succ = Phi_7 V c (t.val + 1) t.isLt from rfl, Phi_7_succ]
  have hN : t.val < 100 := lt_of_lt_of_eq t.isLt (show cfg7.N = 100 from N_7)
  rw [show (dat7 V c).leavesExact 0 t = owns (c : Thread nD τ) (ms_7_0 t) fullShare ((dat7 V c).after 0 t) from by
    unfold Dat.leavesExact; rw [live_7_0 t], after_7_0]
  rw [show (dat7 V c).leavesExact 1 t = owns (c : Thread nD τ) (ms_7_1 t) fullShare ((dat7 V c).after 1 t) from by
    unfold Dat.leavesExact; rw [live_7_1 t], after_7_1]
  rw [show (dat7 V c).leavesExact 2 t = owns (c : Thread nD τ) (ms_7_2 t) fullShare ((dat7 V c).after 2 t) from by
    unfold Dat.leavesExact; rw [live_7_2 t], after_7_2]
  by_cases h1 : t.val % 10 = 9
  · have h0 : ¬t.val % 10 = 0 := by omega
    have hz : t.val ≠ 0 := by omega
    rw [show (dat7 V c).leavesExact 3 t = owns (c : Thread nD τ) (ms_7_3 t) fullShare ((dat7 V c).after 3 t) from by
      unfold Dat.leavesExact; rw [live_7_3 t ((hcondL_7 t).mpr h1)], after_7_3]
    rw [accAt_7_next V c t h0]
    rw [Phi_7_castSucc V c t, Phi_7_pos V c _ _ hz]
    iintro ⟨⟨HS, HR, Hg⟩, Ho, ⟨%d0, H0⟩, ⟨%d1, H1⟩, ⟨%d2, H2⟩, ⟨%d3, H3⟩⟩
    iapply (run_7_C c (grid7.coords t) _ (hs_7_0 t) _ (hs_7_1 t) _ (hs_7_2 t) _ (hs_7_3 t) scM_7 (Memref.isWhole_whole _)
      (fun h => h0 ((hcondZ_7 t).mp h)) ((hcondL_7 t).mpr h1) (iblk_7 V c 0 t) (iblk_7 V c 1 t) (iblk_7 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat7 V c) 3 t (idle_7_3 t (fun h => h1 ((hcondL_7 t).mp h))) (noFlush_7_3 t (fun h => h1 ((hcondL_7 t).mp h)))]
    by_cases h0 : t.val % 10 = 0
    · rw [accAt_7_first V c t h0]
      by_cases hz : t.val = 0
      · rw [Phi_7_castSucc V c t, Phi_7_zero V c _ _ hz, Phi0_7_eq]
        iintro ⟨⟨Hg, HS, HR⟩, Ho, ⟨%d0, H0⟩, ⟨%d1, H1⟩, ⟨%d2, H2⟩, ⟨%d3, H3⟩⟩
        iapply (run_7_A c (grid7.coords t) _ (hs_7_0 t) _ (hs_7_1 t) _ (hs_7_2 t) _ (hs_7_3 t) scM_7 (Memref.isWhole_whole _)
          ((hcondZ_7 t).mpr h0) (fun h => h1 ((hcondL_7 t).mp h)) (iblk_7 V c 0 t) (iblk_7 V c 1 t) (iblk_7 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi_7_castSucc V c t, Phi_7_pos V c _ _ hz]
        iintro ⟨⟨HS, HR, Hg⟩, Ho, ⟨%d0, H0⟩, ⟨%d1, H1⟩, ⟨%d2, H2⟩, ⟨%d3, H3⟩⟩
        iapply (run_7_A c (grid7.coords t) _ (hs_7_0 t) _ (hs_7_1 t) _ (hs_7_2 t) _ (hs_7_3 t) scM_7 (Memref.isWhole_whole _)
          ((hcondZ_7 t).mpr h0) (fun h => h1 ((hcondL_7 t).mp h)) (iblk_7 V c 0 t) (iblk_7 V c 1 t) (iblk_7 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_7_next V c t h0]
      rw [Phi_7_castSucc V c t, Phi_7_pos V c _ _ hz]
      iintro ⟨⟨HS, HR, Hg⟩, Ho, ⟨%d0, H0⟩, ⟨%d1, H1⟩, ⟨%d2, H2⟩, ⟨%d3, H3⟩⟩
      iapply (run_7_B c (grid7.coords t) _ (hs_7_0 t) _ (hs_7_1 t) _ (hs_7_2 t) _ (hs_7_3 t) scM_7 (Memref.isWhole_whole _)
        (fun h => h0 ((hcondZ_7 t).mp h)) (fun h => h1 ((hcondL_7 t).mp h)) (iblk_7 V c 0 t) (iblk_7 V c 1 t) (iblk_7 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body_obligation7 (c : Dev nD) : BodyObligation (dat7 (F := F) V c) (defs₀ (F := F)) Variants.none () Set.univ := fun t => by
  rw [bigSep_W7, bigSep_W7]
  exact sound_body_7 V c t

theorem phi_in7 (c : Dev nD) : (iprop((∃ r, prngReg c r) ∗ Pipeline.scopedRest spec7 c) : sProp 𝕄) ⊢ (dat7 V c).Φ 0 := by
  rw [show (dat7 V c).Φ 0 = Phi_7 V c 0 (Nat.zero_le _) from rfl, Phi_7_zero V c 0 _ rfl]
  try exact Idealize.SL.BI.Entails.refl _

theorem phi_out7 (c : Dev nD) : (dat7 V c).Φ (Fin.last _) ⊢ (iprop((∃ r, prngReg c r) ∗ Pipeline.scopedRest spec7 c) : sProp 𝕄) := by
  rw [show (dat7 V c).Φ (Fin.last _) = Phi_7 V c (Fin.last cfg7.N).val (Nat.le_of_lt_succ (Fin.last cfg7.N).isLt) from rfl,
    Phi_7_pos V c _ _ (by rw [Fin.val_last]; have : cfg7.N = 100 := N_7; omega), Phi0_7_eq]
  iintro ⟨HS, HR, Hg⟩
  isplitl [Hg]; · iexact Hg
  isplitl [HS]; · iexists _; iexact HS
  iexact HR

end Cert.Kernel.Hand
end
-- ==== Proof.K.Reg8.lean ====
/- Region 8: one row block of the left factor times the whole right factor, accumulated from zero, plus the
   bias row broadcast down the rows, then the maximum with zero; the result is stored whole into the output row block.
   Nothing is carried from one grid point to the next. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 8 -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each block whole -/

abbrev r8_0 : Rect S1024x768 := Rect.unit (s := S1024x768) ![0, 0] S1024x768.size inb_S1024x768_S1024x768_0_0
abbrev r8_1 : Rect S768x512 := Rect.unit (s := S768x512) ![0, 0] S768x512.size inb_S768x512_S768x512_0_0
abbrev r8_2 : Rect S1x512 := Rect.unit (s := S1x512) ![0, 0] S1x512.size inb_S1x512_S1x512_0_0
abbrev r8_3 : Rect S1024x512 := Rect.unit (s := S1024x512) ![0, 0] S1024x512.size inb_S1024x512_S1024x512_0_0

/-- The output block after the body, from the three input blocks: its one store as a piece. -/
def out8_3 (x0 : Vec F S1024x768 .f32) (x1 : Vec F S768x512 .f32) (x2 : Vec F S1x512 .f32) : Vec F S1024x512 .f32 :=
  View.canon [⟨r8_3, k8_pay1 (View.ld x0 r8_0) (View.ld x1 r8_1) (View.ld x2 r8_2)⟩]

/-- The one store covers the output block. -/
theorem cover8_3 (p0 : Vec F S1024x512 .f32) (y : S1024x512.Idx) :
    ∃ pc ∈ ([⟨r8_3, p0⟩] : List (View.Piece (Elt F) S1024x512 .f32)), y ∈ pc.1.set :=
  View.cover_of_tiled [⟨r8_3, p0⟩] S1024x512.size (by rfl) y

set_option maxHeartbeats 1000000 in
/-- The body on whole staging memrefs, the inputs at contents `x0 x1 x2` and the output at anything, runs to the
    continuation holding the inputs as they were and the output at `out8_3` of the inputs. -/
theorem sound_kernel8 (c : Dev nD) (E : Set ℕ) (i : grid8.Coords) (arg1 : Memref sig .tc .vmem S1024x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x768 .f32) (x1 : Vec F S768x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__mm_bias_kernel i arg1 harg1 arg2 harg2 arg3 harg3 arg4 harg4) K := by
  simp only [cc8__mm_bias_kernel_eq_skeleton]; unfold cc8__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The proof data -/

/-- The arrays as the region finds them; after the body each input's buffer at its block and the output's at
    `out8_3` of the input blocks; the invariant is the untouched rest; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

/-! ## The invariant at the region's ends -/

theorem phi_in8 (c : Dev nD) : (iprop((∃ r, prngReg c r) ∗ Pipeline.scopedRest spec8 c) : sProp 𝕄) ⊢ (dat8 V c).Φ 0 := by
  show _ ⊢ Pipeline.ΦA spec8 c
  unfold Pipeline.ΦA
  iintro ⟨H1, H2⟩
  isplitl [H2]; · iexact H2
  iexact H1

theorem phi_out8 (c : Dev nD) : (dat8 V c).Φ (Fin.last _) ⊢ (iprop((∃ r, prngReg c r) ∗ Pipeline.scopedRest spec8 c) : sProp 𝕄) := by
  show Pipeline.ΦA spec8 c ⊢ _
  unfold Pipeline.ΦA
  iintro ⟨H1, H2⟩
  isplitl [H2]; · iexact H2
  iexact H1

end Cert.Kernel.Hand
end
-- ==== Proof.K.Reg9.lean ====
/- Region 9: one row block of the left factor times the whole right factor, accumulated from zero, plus the
   bias row broadcast down the rows; the result is stored whole into the output row block.
   Nothing is carried from one grid point to the next. -/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 9 -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: unfetched, the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof
    data whose array is `V`'s and whose body leaves the block in place: unfetched, the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof
    data whose array is `V`'s and whose body leaves the block in place: unfetched, the block index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each block whole -/

abbrev r9_0 : Rect S1024x512 := Rect.unit (s := S1024x512) ![0, 0] S1024x512.size inb_S1024x512_S1024x512_0_0
abbrev r9_1 : Rect S512x512 := Rect.unit (s := S512x512) ![0, 0] S512x512.size inb_S512x512_S512x512_0_0
abbrev r9_2 : Rect S1x512 := Rect.unit (s := S1x512) ![0, 0] S1x512.size inb_S1x512_S1x512_0_0
abbrev r9_3 : Rect S1024x512 := Rect.unit (s := S1024x512) ![0, 0] S1024x512.size inb_S1024x512_S1024x512_0_0

/-- The output block after the body, from the three input blocks: its one store as a piece. -/
def out9_3 (x0 : Vec F S1024x512 .f32) (x1 : Vec F S512x512 .f32) (x2 : Vec F S1x512 .f32) : Vec F S1024x512 .f32 :=
  View.canon [⟨r9_3, k9_pay1 (View.ld x0 r9_0) (View.ld x1 r9_1) (View.ld x2 r9_2)⟩]

/-- The one store covers the output block. -/
theorem cover9_3 (p0 : Vec F S1024x512 .f32) (y : S1024x512.Idx) :
    ∃ pc ∈ ([⟨r9_3, p0⟩] : List (View.Piece (Elt F) S1024x512 .f32)), y ∈ pc.1.set :=
  View.cover_of_tiled [⟨r9_3, p0⟩] S1024x512.size (by rfl) y

set_option maxHeartbeats 1000000 in
/-- The body on whole staging memrefs, the inputs at contents `x0 x1 x2` and the output at anything, runs to the
    continuation holding the inputs as they were and the output at `out9_3` of the inputs. -/
theorem sound_kernel9 (c : Dev nD) (E : Set ℕ) (i : grid9.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__mm_bias_kernel i arg1 harg1 arg2 harg2 arg3 harg3 arg4 harg4) K := by
  simp only [cc9__mm_bias_kernel_eq_skeleton]; unfold cc9__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The proof data -/

/-- The arrays as the region finds them; after the body each input's buffer at its block and the output's at
    `out9_3` of the input blocks; the invariant is the untouched rest; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

/-! ## The invariant at the region's ends -/

theorem phi_in9 (c : Dev nD) : (iprop((∃ r, prngReg c r) ∗ Pipeline.scopedRest spec9 c) : sProp 𝕄) ⊢ (dat9 V c).Φ 0 := by
  show _ ⊢ Pipeline.ΦA spec9 c
  unfold Pipeline.ΦA
  iintro ⟨H1, H2⟩
  isplitl [H2]; · iexact H2
  iexact H1

theorem phi_out9 (c : Dev nD) : (dat9 V c).Φ (Fin.last _) ⊢ (iprop((∃ r, prngReg c r) ∗ Pipeline.scopedRest spec9 c) : sProp 𝕄) := by
  show Pipeline.ΦA spec9 c ⊢ _
  unfold Pipeline.ΦA
  iintro ⟨H1, H2⟩
  isplitl [H2]; · iexact H2
  iexact H1

end Cert.Kernel.Hand
end
-- ==== Proof.K.Regs.lean ====
/-
  The ten kernel regions' proof data, gathered: each module has one region's data (what every window's staging buffer
  holds after the body at each grid point, the invariant carried from point to point) and its body obligation.
-/
import proofs.«130334_j70351564308694_1_alg».proof.Proof.K.Reg0
import proofs.«130334_j70351564308694_1_alg».proof.Proof.K.Reg1
import proofs.«130334_j70351564308694_1_alg».proof.Proof.K.Reg2
import proofs.«130334_j70351564308694_1_alg».proof.Proof.K.Reg3
import proofs.«130334_j70351564308694_1_alg».proof.Proof.K.Reg4
import proofs.«130334_j70351564308694_1_alg».proof.Proof.K.Reg5
import proofs.«130334_j70351564308694_1_alg».proof.Proof.K.Reg6
import proofs.«130334_j70351564308694_1_alg».proof.Proof.K.Reg7
import proofs.«130334_j70351564308694_1_alg».proof.Proof.K.Reg8
import proofs.«130334_j70351564308694_1_alg».proof.Proof.K.Reg9
-- ==== Proof.K.Run.lean ====
/-
  The kernel program's run, assembled: @main is eighteen items in order — host stretches and ten kernel regions. Between
  two items every unscoped buffer is held whole at a named valuation: the launch memory, then each host stretch's
  operations applied, then after each region the region's output array replaced by what its pipeline leaves (every
  block's write-back folded over the grid) and every other buffer as it was. Each region is entered from the valuation
  before it: its windows' arrays are split out of the unscoped buffers, the pipeline runs the body at every grid point
  under the region's proof data, and the arrays are put back at the exit valuation; the generator register and the core's
  empty debts ride along. The run ends with every unscoped buffer at the last valuation, from which both the arguments
  (no item writes one) and the results are read.
-/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import proofs.«130334_j70351564308694_1_alg».proof.Proof.K.Regs
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: the form the regions' proof data take. -/
abbrev Vin (W : Dev nD → Valuation τ sig (Elt F)) : (c : Dev nD) → (b : Ref sig .tc) → Buf (Elt F) ((c : Thread nD τ).loc b) :=
  fun c b => W c b

/-! ## The valuations between items -/

abbrev T0 : Dev nD → Valuation τ sig (Elt F) := fun c b => m (c, b)
abbrev T1 : Dev nD → Valuation τ sig (Elt F) := fun c => StableHlo.after hostOps0 (T0 m c)
abbrev T2 : Dev nD → Valuation τ sig (Elt F) := fun c => StableHlo.after hostOps0_1 (T1 m c)
abbrev T3 : Dev nD → Valuation τ sig (Elt F) := fun c => StableHlo.after hostOps0_2 (T2 m c)
/-- Every buffer after region 0: its arrays at what the pipeline leaves. -/
def X0 (c : Dev nD) : Valuation τ sig (Elt F) :=
  Pipeline.withArrays spec0 c (T3 m c) fun w => (dat0 (Vin (T3 m)) c).arrAt w cfg0.N
abbrev T4 : Dev nD → Valuation τ sig (Elt F) := fun c => Function.update (T3 m c) main_v49 (X0 m c main_v49)
/-- Every buffer after region 1: its arrays at what the pipeline leaves. -/
def X1 (c : Dev nD) : Valuation τ sig (Elt F) :=
  Pipeline.withArrays spec1 c (T4 m c) fun w => (dat1 (Vin (T4 m)) c).arrAt w cfg1.N
abbrev T5 : Dev nD → Valuation τ sig (Elt F) := fun c => Function.update (T4 m c) main_v50 (X1 m c main_v50)
abbrev T6 : Dev nD → Valuation τ sig (Elt F) := fun c => StableHlo.after hostOps2 (T5 m c)
/-- Every buffer after region 2: its arrays at what the pipeline leaves. -/
def X2 (c : Dev nD) : Valuation τ sig (Elt F) :=
  Pipeline.withArrays spec2 c (T6 m c) fun w => (dat2 (Vin (T6 m)) c).arrAt w cfg2.N
abbrev T7 : Dev nD → Valuation τ sig (Elt F) := fun c => Function.update (T6 m c) main_v54 (X2 m c main_v54)
/-- Every buffer after region 3: its arrays at what the pipeline leaves. -/
def X3 (c : Dev nD) : Valuation τ sig (Elt F) :=
  Pipeline.withArrays spec3 c (T7 m c) fun w => (dat3 (Vin (T7 m)) c).arrAt w cfg3.N
abbrev T8 : Dev nD → Valuation τ sig (Elt F) := fun c => Function.update (T7 m c) main_v55 (X3 m c main_v55)
/-- Every buffer after region 4: its arrays at what the pipeline leaves. -/
def X4 (c : Dev nD) : Valuation τ sig (Elt F) :=
  Pipeline.withArrays spec4 c (T8 m c) fun w => (dat4 (Vin (T8 m)) c).arrAt w cfg4.N
abbrev T9 : Dev nD → Valuation τ sig (Elt F) := fun c => Function.update (T8 m c) main_v56 (X4 m c main_v56)
abbrev T10 : Dev nD → Valuation τ sig (Elt F) := fun c => StableHlo.after hostOps5 (T9 m c)
/-- Every buffer after region 5: its arrays at what the pipeline leaves. -/
def X5 (c : Dev nD) : Valuation τ sig (Elt F) :=
  Pipeline.withArrays spec5 c (T10 m c) fun w => (dat5 (Vin (T10 m)) c).arrAt w cfg5.N
abbrev T11 : Dev nD → Valuation τ sig (Elt F) := fun c => Function.update (T10 m c) main_v60 (X5 m c main_v60)
/-- Every buffer after region 6: its arrays at what the pipeline leaves. -/
def X6 (c : Dev nD) : Valuation τ sig (Elt F) :=
  Pipeline.withArrays spec6 c (T11 m c) fun w => (dat6 (Vin (T11 m)) c).arrAt w cfg6.N
abbrev T12 : Dev nD → Valuation τ sig (Elt F) := fun c => Function.update (T11 m c) main_v61 (X6 m c main_v61)
/-- Every buffer after region 7: its arrays at what the pipeline leaves. -/
def X7 (c : Dev nD) : Valuation τ sig (Elt F) :=
  Pipeline.withArrays spec7 c (T12 m c) fun w => (dat7 (Vin (T12 m)) c).arrAt w cfg7.N
abbrev T13 : Dev nD → Valuation τ sig (Elt F) := fun c => Function.update (T12 m c) main_v62 (X7 m c main_v62)
abbrev T14 : Dev nD → Valuation τ sig (Elt F) := fun c => StableHlo.after hostOps8 (T13 m c)
/-- Every buffer after region 8: its arrays at what the pipeline leaves. -/
def X8 (c : Dev nD) : Valuation τ sig (Elt F) :=
  Pipeline.withArrays spec8 c (T14 m c) fun w => (dat8 (Vin (T14 m)) c).arrAt w cfg8.N
abbrev T15 : Dev nD → Valuation τ sig (Elt F) := fun c => Function.update (T14 m c) main_v66 (X8 m c main_v66)
abbrev T16 : Dev nD → Valuation τ sig (Elt F) := fun c => StableHlo.after hostOps9 (T15 m c)
/-- Every buffer after region 9: its arrays at what the pipeline leaves. -/
def X9 (c : Dev nD) : Valuation τ sig (Elt F) :=
  Pipeline.withArrays spec9 c (T16 m c) fun w => (dat9 (Vin (T16 m)) c).arrAt w cfg9.N
abbrev T17 : Dev nD → Valuation τ sig (Elt F) := fun c => Function.update (T16 m c) main_v70 (X9 m c main_v70)
abbrev T18 : Dev nD → Valuation τ sig (Elt F) := fun c => StableHlo.after hostOps10 (T17 m c)

/-! ## The regions' proof data and what rides along -/

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (Vin (T3 m)) c
  | ⟨1, _⟩ => fun c => dat1 (Vin (T4 m)) c
  | ⟨2, _⟩ => fun c => dat2 (Vin (T6 m)) c
  | ⟨3, _⟩ => fun c => dat3 (Vin (T7 m)) c
  | ⟨4, _⟩ => fun c => dat4 (Vin (T8 m)) c
  | ⟨5, _⟩ => fun c => dat5 (Vin (T10 m)) c
  | ⟨6, _⟩ => fun c => dat6 (Vin (T11 m)) c
  | ⟨7, _⟩ => fun c => dat7 (Vin (T12 m)) c
  | ⟨8, _⟩ => fun c => dat8 (Vin (T14 m)) c
  | ⟨9, _⟩ => fun c => dat9 (Vin (T16 m)) c

abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- At region 0's exit each of its arrays holds what the pipeline leaves, and every other buffer what it held at entry. -/
theorem hF0 (c : Dev nD) (w : Fin cfg0.W) : (dat0 (Vin (T3 m)) c).arrAt w cfg0.N = Vin (T4 m) c (Pipeline.arrRef spec0 w) := by
  have hX : ∀ w : Fin cfg0.W, X0 m c (Proc.devRef .tc (Pipeline.arrRef spec0 w)) = (dat0 (Vin (T3 m)) c).arrAt w cfg0.N := by
    intro w; unfold X0; exact Pipeline.withArrays_arr spec0 launch0.win.arr_inj c _ _ w
  match w with
  | ⟨0, _⟩ =>
    show _ = Function.update (T3 m c) main_v49 (X0 m c main_v49) (Proc.devRef .tc (Pipeline.arrRef spec0 ⟨0, by decide⟩))
    rw [Function.update_of_ne (StableHlo.devRef_ne_of_ne (by decide))]
    exact ((dat0 (Vin (T3 m)) c).arrAt_in ⟨0, by decide⟩ rfl _).trans (A_eq0 (Vin (T3 m)) c _)
  | ⟨1, _⟩ =>
    show _ = Function.update (T3 m c) main_v49 (X0 m c main_v49) (Proc.devRef .tc (Pipeline.arrRef spec0 ⟨1, by decide⟩))
    rw [Function.update_of_ne (StableHlo.devRef_ne_of_ne (by decide))]
    exact ((dat0 (Vin (T3 m)) c).arrAt_in ⟨1, by decide⟩ rfl _).trans (A_eq0 (Vin (T3 m)) c _)
  | ⟨2, _⟩ =>
    show _ = Function.update (T3 m c) main_v49 (X0 m c main_v49) (Proc.devRef .tc main_v49)
    rw [Function.update_self]
    exact (hX ⟨2, by decide⟩).symm
theorem hrest0 (c : Dev nD) : ∀ b, b ∉ Finset.univ.image (Pipeline.arrRef spec0) → Vin (T4 m) c b = Vin (T3 m) c b := by
  intro b hb
  show Function.update (T3 m c) main_v49 (X0 m c main_v49) (Proc.devRef .tc b) = _
  refine Function.update_of_ne (StableHlo.devRef_ne_of_ne fun e => hb (Finset.mem_image.mpr ⟨⟨2, by decide⟩, Finset.mem_univ _, ?_⟩)) _ _
  rw [e]

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin (T3 m)) c).loose
  hwaits := Pipeline.hwaits_of_owed_zero _ _ _ _ L lv 0 fun _ _ => rfl
  pre c := iprop(StableHlo.held (c : Thread nD τ) (Pipeline.ucRefs τ sig) (T3 m c) ∗ R c)
  post c := iprop(StableHlo.held (c : Thread nD τ) (Pipeline.ucRefs τ sig) (T4 m c) ∗ R c)
  X c := iprop(∃ r, prngReg c r)
  Y c := iprop(∃ r, prngReg c r)
  Z c := Pipeline.unscopedRest (Ix := Unit) (Name := ℕ) (U := UR sig nD τ) (Lvl := ℕ) spec0 c (Vin (T3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin (T3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vin (T3 m)) c).Φ 0 from rfl]
    iintro ⟨Hp, -, Hr⟩
    iapply (phi_in0 (Vin (T3 m)) c)
    isplitl [Hp]; · iexact Hp
    iexact Hr
  hout c := by
    rw [Pipeline.ownSems0_none, show (pdats m 0 c).Φ (Fin.last _) = (dat0 (Vin (T3 m)) c).Φ (Fin.last _) from rfl]
    have hout := phi_out0 (Vin (T3 m)) c
    iintro HP
    ihave H := hout $$ HP
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin (T3 m) c) (Vin (T4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves, and every other buffer what it held at entry. -/
theorem hF1 (c : Dev nD) (w : Fin cfg1.W) : (dat1 (Vin (T4 m)) c).arrAt w cfg1.N = Vin (T5 m) c (Pipeline.arrRef spec1 w) := by
  have hX : ∀ w : Fin cfg1.W, X1 m c (Proc.devRef .tc (Pipeline.arrRef spec1 w)) = (dat1 (Vin (T4 m)) c).arrAt w cfg1.N := by
    intro w; unfold X1; exact Pipeline.withArrays_arr spec1 launch1.win.arr_inj c _ _ w
  match w with
  | ⟨0, _⟩ =>
    show _ = Function.update (T4 m c) main_v50 (X1 m c main_v50) (Proc.devRef .tc (Pipeline.arrRef spec1 ⟨0, by decide⟩))
    rw [Function.update_of_ne (StableHlo.devRef_ne_of_ne (by decide))]
    exact ((dat1 (Vin (T4 m)) c).arrAt_in ⟨0, by decide⟩ rfl _).trans (A_eq1 (Vin (T4 m)) c _)
  | ⟨1, _⟩ =>
    show _ = Function.update (T4 m c) main_v50 (X1 m c main_v50) (Proc.devRef .tc (Pipeline.arrRef spec1 ⟨1, by decide⟩))
    rw [Function.update_of_ne (StableHlo.devRef_ne_of_ne (by decide))]
    exact ((dat1 (Vin (T4 m)) c).arrAt_in ⟨1, by decide⟩ rfl _).trans (A_eq1 (Vin (T4 m)) c _)
  | ⟨2, _⟩ =>
    show _ = Function.update (T4 m c) main_v50 (X1 m c main_v50) (Proc.devRef .tc (Pipeline.arrRef spec1 ⟨2, by decide⟩))
    rw [Function.update_of_ne (StableHlo.devRef_ne_of_ne (by decide))]
    exact ((dat1 (Vin (T4 m)) c).arrAt_in ⟨2, by decide⟩ rfl _).trans (A_eq1 (Vin (T4 m)) c _)
  | ⟨3, _⟩ =>
    show _ = Function.update (T4 m c) main_v50 (X1 m c main_v50) (Proc.devRef .tc main_v50)
    rw [Function.update_self]
    exact (hX ⟨3, by decide⟩).symm
theorem hrest1 (c : Dev nD) : ∀ b, b ∉ Finset.univ.image (Pipeline.arrRef spec1) → Vin (T5 m) c b = Vin (T4 m) c b := by
  intro b hb
  show Function.update (T4 m c) main_v50 (X1 m c main_v50) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin (T4 m)) c).loose
  hwaits := Pipeline.hwaits_of_owed_zero _ _ _ _ L lv 1 fun _ _ => rfl
  pre c := iprop(StableHlo.held (c : Thread nD τ) (Pipeline.ucRefs τ sig) (T4 m c) ∗ R c)
  post c := iprop(StableHlo.held (c : Thread nD τ) (Pipeline.ucRefs τ sig) (T5 m c) ∗ R c)
  X c := iprop(∃ r, prngReg c r)
  Y c := iprop(∃ r, prngReg c r)
  Z c := Pipeline.unscopedRest (Ix := Unit) (Name := ℕ) (U := UR sig nD τ) (Lvl := ℕ) spec1 c (Vin (T4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin (T4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin (T4 m)) c).Φ 0 from rfl]
    iintro ⟨Hp, -, Hr⟩
    iapply (phi_in1 (Vin (T4 m)) c)
    isplitl [Hp]; · iexact Hp
    iexact Hr
  hout c := by
    rw [Pipeline.ownSems0_none, show (pdats m 1 c).Φ (Fin.last _) = (dat1 (Vin (T4 m)) c).Φ (Fin.last _) from rfl]
    have hout := phi_out1 (Vin (T4 m)) c
    iintro HP
    ihave H := hout $$ HP
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin (T4 m) c) (Vin (T5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves, and every other buffer what it held at entry. -/
theorem hF2 (c : Dev nD) (w : Fin cfg2.W) : (dat2 (Vin (T6 m)) c).arrAt w cfg2.N = Vin (T7 m) c (Pipeline.arrRef spec2 w) := by
  have hX : ∀ w : Fin cfg2.W, X2 m c (Proc.devRef .tc (Pipeline.arrRef spec2 w)) = (dat2 (Vin (T6 m)) c).arrAt w cfg2.N := by
    intro w; unfold X2; exact Pipeline.withArrays_arr spec2 launch2.win.arr_inj c _ _ w
  match w with
  | ⟨0, _⟩ =>
    show _ = Function.update (T6 m c) main_v54 (X2 m c main_v54) (Proc.devRef .tc (Pipeline.arrRef spec2 ⟨0, by decide⟩))
    rw [Function.update_of_ne (StableHlo.devRef_ne_of_ne (by decide))]
    exact ((dat2 (Vin (T6 m)) c).arrAt_in ⟨0, by decide⟩ rfl _).trans (A_eq2 (Vin (T6 m)) c _)
  | ⟨1, _⟩ =>
    show _ = Function.update (T6 m c) main_v54 (X2 m c main_v54) (Proc.devRef .tc (Pipeline.arrRef spec2 ⟨1, by decide⟩))
    rw [Function.update_of_ne (StableHlo.devRef_ne_of_ne (by decide))]
    exact ((dat2 (Vin (T6 m)) c).arrAt_in ⟨1, by decide⟩ rfl _).trans (A_eq2 (Vin (T6 m)) c _)
  | ⟨2, _⟩ =>
    show _ = Function.update (T6 m c) main_v54 (X2 m c main_v54) (Proc.devRef .tc (Pipeline.arrRef spec2 ⟨2, by decide⟩))
    rw [Function.update_of_ne (StableHlo.devRef_ne_of_ne (by decide))]
    exact ((dat2 (Vin (T6 m)) c).arrAt_in ⟨2, by decide⟩ rfl _).trans (A_eq2 (Vin (T6 m)) c _)
  | ⟨3, _⟩ =>
    show _ = Function.update (T6 m c) main_v54 (X2 m c main_v54) (Proc.devRef .tc main_v54)
    rw [Function.update_self]
    exact (hX ⟨3, by decide⟩).symm
theorem hrest2 (c : Dev nD) : ∀ b, b ∉ Finset.univ.image (Pipeline.arrRef spec2) → Vin (T7 m) c b = Vin (T6 m) c b := by
  intro b hb
  show Function.update (T6 m c) main_v54 (X2 m c main_v54) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin (T6 m)) c).loose
  hwaits := Pipeline.hwaits_of_owed_zero _ _ _ _ L lv 2 fun _ _ => rfl
  pre c := iprop(StableHlo.held (c : Thread nD τ) (Pipeline.ucRefs τ sig) (T6 m c) ∗ R c)
  post c := iprop(StableHlo.held (c : Thread nD τ) (Pipeline.ucRefs τ sig) (T7 m c) ∗ R c)
  X c := iprop(∃ r, prngReg c r)
  Y c := iprop(∃ r, prngReg c r)
  Z c := Pipeline.unscopedRest (Ix := Unit) (Name := ℕ) (U := UR sig nD τ) (Lvl := ℕ) spec2 c (Vin (T6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin (T6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vin (T6 m)) c).Φ 0 from rfl]
    iintro ⟨Hp, -, Hr⟩
    iapply (phi_in2 (Vin (T6 m)) c)
    isplitl [Hp]; · iexact Hp
    iexact Hr
  hout c := by
    rw [Pipeline.ownSems0_none, show (pdats m 2 c).Φ (Fin.last _) = (dat2 (Vin (T6 m)) c).Φ (Fin.last _) from rfl]
    have hout := phi_out2 (Vin (T6 m)) c
    iintro HP
    ihave H := hout $$ HP
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin (T6 m) c) (Vin (T7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves, and every other buffer what it held at entry. -/
theorem hF3 (c : Dev nD) (w : Fin cfg3.W) : (dat3 (Vin (T7 m)) c).arrAt w cfg3.N = Vin (T8 m) c (Pipeline.arrRef spec3 w) := by
  have hX : ∀ w : Fin cfg3.W, X3 m c (Proc.devRef .tc (Pipeline.arrRef spec3 w)) = (dat3 (Vin (T7 m)) c).arrAt w cfg3.N := by
    intro w; unfold X3; exact Pipeline.withArrays_arr spec3 launch3.win.arr_inj c _ _ w
  match w with
  | ⟨0, _⟩ =>
    show _ = Function.update (T7 m c) main_v55 (X3 m c main_v55) (Proc.devRef .tc (Pipeline.arrRef spec3 ⟨0, by decide⟩))
    rw [Function.update_of_ne (StableHlo.devRef_ne_of_ne (by decide))]
    exact ((dat3 (Vin (T7 m)) c).arrAt_in ⟨0, by decide⟩ rfl _).trans (A_eq3 (Vin (T7 m)) c _)
  | ⟨1, _⟩ =>
    show _ = Function.update (T7 m c) main_v55 (X3 m c main_v55) (Proc.devRef .tc (Pipeline.arrRef spec3 ⟨1, by decide⟩))
    rw [Function.update_of_ne (StableHlo.devRef_ne_of_ne (by decide))]
    exact ((dat3 (Vin (T7 m)) c).arrAt_in ⟨1, by decide⟩ rfl _).trans (A_eq3 (Vin (T7 m)) c _)
  | ⟨2, _⟩ =>
    show _ = Function.update (T7 m c) main_v55 (X3 m c main_v55) (Proc.devRef .tc main_v55)
    rw [Function.update_self]
    exact (hX ⟨2, by decide⟩).symm
theorem hrest3 (c : Dev nD) : ∀ b, b ∉ Finset.univ.image (Pipeline.arrRef spec3) → Vin (T8 m) c b = Vin (T7 m) c b := by
  intro b hb
  show Function.update (T7 m c) main_v55 (X3 m c main_v55) (Proc.devRef .tc b) = _
  refine Function.update_of_ne (StableHlo.devRef_ne_of_ne fun e => hb (Finset.mem_image.mpr ⟨⟨2, by decide⟩, Finset.mem_univ _, ?_⟩)) _ _
  rw [e]

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin (T7 m)) c).loose
  hwaits := Pipeline.hwaits_of_owed_zero _ _ _ _ L lv 3 fun _ _ => rfl
  pre c := iprop(StableHlo.held (c : Thread nD τ) (Pipeline.ucRefs τ sig) (T7 m c) ∗ R c)
  post c := iprop(StableHlo.held (c : Thread nD τ) (Pipeline.ucRefs τ sig) (T8 m c) ∗ R c)
  X c := iprop(∃ r, prngReg c r)
  Y c := iprop(∃ r, prngReg c r)
  Z c := Pipeline.unscopedRest (Ix := Unit) (Name := ℕ) (U := UR sig nD τ) (Lvl := ℕ) spec3 c (Vin (T7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin (T7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Vin (T7 m)) c).Φ 0 from rfl]
    iintro ⟨Hp, -, Hr⟩
    iapply (phi_in3 (Vin (T7 m)) c)
    isplitl [Hp]; · iexact Hp
    iexact Hr
  hout c := by
    rw [Pipeline.ownSems0_none, show (pdats m 3 c).Φ (Fin.last _) = (dat3 (Vin (T7 m)) c).Φ (Fin.last _) from rfl]
    have hout := phi_out3 (Vin (T7 m)) c
    iintro HP
    ihave H := hout $$ HP
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin (T7 m) c) (Vin (T8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves, and every other buffer what it held at entry. -/
theorem hF4 (c : Dev nD) (w : Fin cfg4.W) : (dat4 (Vin (T8 m)) c).arrAt w cfg4.N = Vin (T9 m) c (Pipeline.arrRef spec4 w) := by
  have hX : ∀ w : Fin cfg4.W, X4 m c (Proc.devRef .tc (Pipeline.arrRef spec4 w)) = (dat4 (Vin (T8 m)) c).arrAt w cfg4.N := by
    intro w; unfold X4; exact Pipeline.withArrays_arr spec4 launch4.win.arr_inj c _ _ w
  match w with
  | ⟨0, _⟩ =>
    show _ = Function.update (T8 m c) main_v56 (X4 m c main_v56) (Proc.devRef .tc (Pipeline.arrRef spec4 ⟨0, by decide⟩))
    rw [Function.update_of_ne (StableHlo.devRef_ne_of_ne (by decide))]
    exact ((dat4 (Vin (T8 m)) c).arrAt_in ⟨0, by decide⟩ rfl _).trans (A_eq4 (Vin (T8 m)) c _)
  | ⟨1, _⟩ =>
    show _ = Function.update (T8 m c) main_v56 (X4 m c main_v56) (Proc.devRef .tc (Pipeline.arrRef spec4 ⟨1, by decide⟩))
    rw [Function.update_of_ne (StableHlo.devRef_ne_of_ne (by decide))]
    exact ((dat4 (Vin (T8 m)) c).arrAt_in ⟨1, by decide⟩ rfl _).trans (A_eq4 (Vin (T8 m)) c _)
  | ⟨2, _⟩ =>
    show _ = Function.update (T8 m c) main_v56 (X4 m c main_v56) (Proc.devRef .tc (Pipeline.arrRef spec4 ⟨2, by decide⟩))
    rw [Function.update_of_ne (StableHlo.devRef_ne_of_ne (by decide))]
    exact ((dat4 (Vin (T8 m)) c).arrAt_in ⟨2, by decide⟩ rfl _).trans (A_eq4 (Vin (T8 m)) c _)
  | ⟨3, _⟩ =>
    show _ = Function.update (T8 m c) main_v56 (X4 m c main_v56) (Proc.devRef .tc main_v56)
    rw [Function.update_self]
    exact (hX ⟨3, by decide⟩).symm
theorem hrest4 (c : Dev nD) : ∀ b, b ∉ Finset.univ.image (Pipeline.arrRef spec4) → Vin (T9 m) c b = Vin (T8 m) c b := by
  intro b hb
  show Function.update (T8 m c) main_v56 (X4 m c main_v56) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin (T8 m)) c).loose
  hwaits := Pipeline.hwaits_of_owed_zero _ _ _ _ L lv 4 fun _ _ => rfl
  pre c := iprop(StableHlo.held (c : Thread nD τ) (Pipeline.ucRefs τ sig) (T8 m c) ∗ R c)
  post c := iprop(StableHlo.held (c : Thread nD τ) (Pipeline.ucRefs τ sig) (T9 m c) ∗ R c)
  X c := iprop(∃ r, prngReg c r)
  Y c := iprop(∃ r, prngReg c r)
  Z c := Pipeline.unscopedRest (Ix := Unit) (Name := ℕ) (U := UR sig nD τ) (Lvl := ℕ) spec4 c (Vin (T8 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin (T8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vin (T8 m)) c).Φ 0 from rfl]
    iintro ⟨Hp, -, Hr⟩
    iapply (phi_in4 (Vin (T8 m)) c)
    isplitl [Hp]; · iexact Hp
    iexact Hr
  hout c := by
    rw [Pipeline.ownSems0_none, show (pdats m 4 c).Φ (Fin.last _) = (dat4 (Vin (T8 m)) c).Φ (Fin.last _) from rfl]
    have hout := phi_out4 (Vin (T8 m)) c
    iintro HP
    ihave H := hout $$ HP
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin (T8 m) c) (Vin (T9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 5's exit each of its arrays holds what the pipeline leaves, and every other buffer what it held at entry. -/
theorem hF5 (c : Dev nD) (w : Fin cfg5.W) : (dat5 (Vin (T10 m)) c).arrAt w cfg5.N = Vin (T11 m) c (Pipeline.arrRef spec5 w) := by
  have hX : ∀ w : Fin cfg5.W, X5 m c (Proc.devRef .tc (Pipeline.arrRef spec5 w)) = (dat5 (Vin (T10 m)) c).arrAt w cfg5.N := by
    intro w; unfold X5; exact Pipeline.withArrays_arr spec5 launch5.win.arr_inj c _ _ w
  match w with
  | ⟨0, _⟩ =>
    show _ = Function.update (T10 m c) main_v60 (X5 m c main_v60) (Proc.devRef .tc (Pipeline.arrRef spec5 ⟨0, by decide⟩))
    rw [Function.update_of_ne (StableHlo.devRef_ne_of_ne (by decide))]
    exact ((dat5 (Vin (T10 m)) c).arrAt_in ⟨0, by decide⟩ rfl _).trans (A_eq5 (Vin (T10 m)) c _)
  | ⟨1, _⟩ =>
    show _ = Function.update (T10 m c) main_v60 (X5 m c main_v60) (Proc.devRef .tc (Pipeline.arrRef spec5 ⟨1, by decide⟩))
    rw [Function.update_of_ne (StableHlo.devRef_ne_of_ne (by decide))]
    exact ((dat5 (Vin (T10 m)) c).arrAt_in ⟨1, by decide⟩ rfl _).trans (A_eq5 (Vin (T10 m)) c _)
  | ⟨2, _⟩ =>
    show _ = Function.update (T10 m c) main_v60 (X5 m c main_v60) (Proc.devRef .tc (Pipeline.arrRef spec5 ⟨2, by decide⟩))
    rw [Function.update_of_ne (StableHlo.devRef_ne_of_ne (by decide))]
    exact ((dat5 (Vin (T10 m)) c).arrAt_in ⟨2, by decide⟩ rfl _).trans (A_eq5 (Vin (T10 m)) c _)
  | ⟨3, _⟩ =>
    show _ = Function.update (T10 m c) main_v60 (X5 m c main_v60) (Proc.devRef .tc main_v60)
    rw [Function.update_self]
    exact (hX ⟨3, by decide⟩).symm
theorem hrest5 (c : Dev nD) : ∀ b, b ∉ Finset.univ.image (Pipeline.arrRef spec5) → Vin (T11 m) c b = Vin (T10 m) c b := by
  intro b hb
  show Function.update (T10 m c) main_v60 (X5 m c main_v60) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin (T10 m)) c).loose
  hwaits := Pipeline.hwaits_of_owed_zero _ _ _ _ L lv 5 fun _ _ => rfl
  pre c := iprop(StableHlo.held (c : Thread nD τ) (Pipeline.ucRefs τ sig) (T10 m c) ∗ R c)
  post c := iprop(StableHlo.held (c : Thread nD τ) (Pipeline.ucRefs τ sig) (T11 m c) ∗ R c)
  X c := iprop(∃ r, prngReg c r)
  Y c := iprop(∃ r, prngReg c r)
  Z c := Pipeline.unscopedRest (Ix := Unit) (Name := ℕ) (U := UR sig nD τ) (Lvl := ℕ) spec5 c (Vin (T10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin (T10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Vin (T10 m)) c).Φ 0 from rfl]
    iintro ⟨Hp, -, Hr⟩
    iapply (phi_in5 (Vin (T10 m)) c)
    isplitl [Hp]; · iexact Hp
    iexact Hr
  hout c := by
    rw [Pipeline.ownSems0_none, show (pdats m 5 c).Φ (Fin.last _) = (dat5 (Vin (T10 m)) c).Φ (Fin.last _) from rfl]
    have hout := phi_out5 (Vin (T10 m)) c
    iintro HP
    ihave H := hout $$ HP
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin (T10 m) c) (Vin (T11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 6's exit each of its arrays holds what the pipeline leaves, and every other buffer what it held at entry. -/
theorem hF6 (c : Dev nD) (w : Fin cfg6.W) : (dat6 (Vin (T11 m)) c).arrAt w cfg6.N = Vin (T12 m) c (Pipeline.arrRef spec6 w) := by
  have hX : ∀ w : Fin cfg6.W, X6 m c (Proc.devRef .tc (Pipeline.arrRef spec6 w)) = (dat6 (Vin (T11 m)) c).arrAt w cfg6.N := by
    intro w; unfold X6; exact Pipeline.withArrays_arr spec6 launch6.win.arr_inj c _ _ w
  match w with
  | ⟨0, _⟩ =>
    show _ = Function.update (T11 m c) main_v61 (X6 m c main_v61) (Proc.devRef .tc (Pipeline.arrRef spec6 ⟨0, by decide⟩))
    rw [Function.update_of_ne (StableHlo.devRef_ne_of_ne (by decide))]
    exact ((dat6 (Vin (T11 m)) c).arrAt_in ⟨0, by decide⟩ rfl _).trans (A_eq6 (Vin (T11 m)) c _)
  | ⟨1, _⟩ =>
    show _ = Function.update (T11 m c) main_v61 (X6 m c main_v61) (Proc.devRef .tc (Pipeline.arrRef spec6 ⟨1, by decide⟩))
    rw [Function.update_of_ne (StableHlo.devRef_ne_of_ne (by decide))]
    exact ((dat6 (Vin (T11 m)) c).arrAt_in ⟨1, by decide⟩ rfl _).trans (A_eq6 (Vin (T11 m)) c _)
  | ⟨2, _⟩ =>
    show _ = Function.update (T11 m c) main_v61 (X6 m c main_v61) (Proc.devRef .tc main_v61)
    rw [Function.update_self]
    exact (hX ⟨2, by decide⟩).symm
theorem hrest6 (c : Dev nD) : ∀ b, b ∉ Finset.univ.image (Pipeline.arrRef spec6) → Vin (T12 m) c b = Vin (T11 m) c b := by
  intro b hb
  show Function.update (T11 m c) main_v61 (X6 m c main_v61) (Proc.devRef .tc b) = _
  refine Function.update_of_ne (StableHlo.devRef_ne_of_ne fun e => hb (Finset.mem_image.mpr ⟨⟨2, by decide⟩, Finset.mem_univ _, ?_⟩)) _ _
  rw [e]

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin (T11 m)) c).loose
  hwaits := Pipeline.hwaits_of_owed_zero _ _ _ _ L lv 6 fun _ _ => rfl
  pre c := iprop(StableHlo.held (c : Thread nD τ) (Pipeline.ucRefs τ sig) (T11 m c) ∗ R c)
  post c := iprop(StableHlo.held (c : Thread nD τ) (Pipeline.ucRefs τ sig) (T12 m c) ∗ R c)
  X c := iprop(∃ r, prngReg c r)
  Y c := iprop(∃ r, prngReg c r)
  Z c := Pipeline.unscopedRest (Ix := Unit) (Name := ℕ) (U := UR sig nD τ) (Lvl := ℕ) spec6 c (Vin (T11 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vin (T11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Vin (T11 m)) c).Φ 0 from rfl]
    iintro ⟨Hp, -, Hr⟩
    iapply (phi_in6 (Vin (T11 m)) c)
    isplitl [Hp]; · iexact Hp
    iexact Hr
  hout c := by
    rw [Pipeline.ownSems0_none, show (pdats m 6 c).Φ (Fin.last _) = (dat6 (Vin (T11 m)) c).Φ (Fin.last _) from rfl]
    have hout := phi_out6 (Vin (T11 m)) c
    iintro HP
    ihave H := hout $$ HP
    icases H with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin (T11 m) c) (Vin (T12 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 7's exit each of its arrays holds what the pipeline leaves, and every other buffer what it held at entry. -/
theorem hF7 (c : Dev nD) (w : Fin cfg7.W) : (dat7 (Vin (T12 m)) c).arrAt w cfg7.N = Vin (T13 m) c (Pipeline.arrRef spec7 w) := by
  have hX : ∀ w : Fin cfg7.W, X7 m c (Proc.devRef .tc (Pipeline.arrRef spec7 w)) = (dat7 (Vin (T12 m)) c).arrAt w cfg7.N := by
    intro w; unfold X7; exact Pipeline.withArrays_arr spec7 launch7.win.arr_inj c _ _ w
  match w with
  | ⟨0, _⟩ =>
    show _ = Function.update (T12 m c) main_v62 (X7 m c main_v62) (Proc.devRef .tc (Pipeline.arrRef spec7 ⟨0, by decide⟩))
    rw [Function.update_of_ne (StableHlo.devRef_ne_of_ne (by decide))]
    exact ((dat7 (Vin (T12 m)) c).arrAt_in ⟨0, by decide⟩ rfl _).trans (A_eq7 (Vin (T12 m)) c _)
  | ⟨1, _⟩ =>
    show _ = Function.update (T12 m c) main_v62 (X7 m c main_v62) (Proc.devRef .tc (Pipeline.arrRef spec7 ⟨1, by decide⟩))
    rw [Function.update_of_ne (StableHlo.devRef_ne_of_ne (by decide))]
    exact ((dat7 (Vin (T12 m)) c).arrAt_in ⟨1, by decide⟩ rfl _).trans (A_eq7 (Vin (T12 m)) c _)
  | ⟨2, _⟩ =>
    show _ = Function.update (T12 m c) main_v62 (X7 m c main_v62) (Proc.devRef .tc (Pipeline.arrRef spec7 ⟨2, by decide⟩))
    rw [Function.update_of_ne (StableHlo.devRef_ne_of_ne (by decide))]
    exact ((dat7 (Vin (T12 m)) c).arrAt_in ⟨2, by decide⟩ rfl _).trans (A_eq7 (Vin (T12 m)) c _)
  | ⟨3, _⟩ =>
    show _ = Function.update (T12 m c) main_v62 (X7 m c main_v62) (Proc.devRef .tc main_v62)
    rw [Function.update_self]
    exact (hX ⟨3, by decide⟩).symm
theorem hrest7 (c : Dev nD) : ∀ b, b ∉ Finset.univ.image (Pipeline.arrRef spec7) → Vin (T13 m) c b = Vin (T12 m) c b := by
  intro b hb
  show Function.update (T12 m c) main_v62 (X7 m c main_v62) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin (T12 m)) c).loose
  hwaits := Pipeline.hwaits_of_owed_zero _ _ _ _ L lv 7 fun _ _ => rfl
  pre c := iprop(StableHlo.held (c : Thread nD τ) (Pipeline.ucRefs τ sig) (T12 m c) ∗ R c)
  post c := iprop(StableHlo.held (c : Thread nD τ) (Pipeline.ucRefs τ sig) (T13 m c) ∗ R c)
  X c := iprop(∃ r, prngReg c r)
  Y c := iprop(∃ r, prngReg c r)
  Z c := Pipeline.unscopedRest (Ix := Unit) (Name := ℕ) (U := UR sig nD τ) (Lvl := ℕ) spec7 c (Vin (T12 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vin (T12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Vin (T12 m)) c).Φ 0 from rfl]
    iintro ⟨Hp, -, Hr⟩
    iapply (phi_in7 (Vin (T12 m)) c)
    isplitl [Hp]; · iexact Hp
    iexact Hr
  hout c := by
    rw [Pipeline.ownSems0_none, show (pdats m 7 c).Φ (Fin.last _) = (dat7 (Vin (T12 m)) c).Φ (Fin.last _) from rfl]
    have hout := phi_out7 (Vin (T12 m)) c
    iintro HP
    ihave H := hout $$ HP
    icases H with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin (T12 m) c) (Vin (T13 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 8's exit each of its arrays holds what the pipeline leaves, and every other buffer what it held at entry. -/
theorem hF8 (c : Dev nD) (w : Fin cfg8.W) : (dat8 (Vin (T14 m)) c).arrAt w cfg8.N = Vin (T15 m) c (Pipeline.arrRef spec8 w) := by
  have hX : ∀ w : Fin cfg8.W, X8 m c (Proc.devRef .tc (Pipeline.arrRef spec8 w)) = (dat8 (Vin (T14 m)) c).arrAt w cfg8.N := by
    intro w; unfold X8; exact Pipeline.withArrays_arr spec8 launch8.win.arr_inj c _ _ w
  match w with
  | ⟨0, _⟩ =>
    show _ = Function.update (T14 m c) main_v66 (X8 m c main_v66) (Proc.devRef .tc (Pipeline.arrRef spec8 ⟨0, by decide⟩))
    rw [Function.update_of_ne (StableHlo.devRef_ne_of_ne (by decide))]
    exact ((dat8 (Vin (T14 m)) c).arrAt_in ⟨0, by decide⟩ rfl _).trans (A_eq8 (Vin (T14 m)) c _)
  | ⟨1, _⟩ =>
    show _ = Function.update (T14 m c) main_v66 (X8 m c main_v66) (Proc.devRef .tc (Pipeline.arrRef spec8 ⟨1, by decide⟩))
    rw [Function.update_of_ne (StableHlo.devRef_ne_of_ne (by decide))]
    exact ((dat8 (Vin (T14 m)) c).arrAt_in ⟨1, by decide⟩ rfl _).trans (A_eq8 (Vin (T14 m)) c _)
  | ⟨2, _⟩ =>
    show _ = Function.update (T14 m c) main_v66 (X8 m c main_v66) (Proc.devRef .tc (Pipeline.arrRef spec8 ⟨2, by decide⟩))
    rw [Function.update_of_ne (StableHlo.devRef_ne_of_ne (by decide))]
    exact ((dat8 (Vin (T14 m)) c).arrAt_in ⟨2, by decide⟩ rfl _).trans (A_eq8 (Vin (T14 m)) c _)
  | ⟨3, _⟩ =>
    show _ = Function.update (T14 m c) main_v66 (X8 m c main_v66) (Proc.devRef .tc main_v66)
    rw [Function.update_self]
    exact (hX ⟨3, by decide⟩).symm
theorem hrest8 (c : Dev nD) : ∀ b, b ∉ Finset.univ.image (Pipeline.arrRef spec8) → Vin (T15 m) c b = Vin (T14 m) c b := by
  intro b hb
  show Function.update (T14 m c) main_v66 (X8 m c main_v66) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin (T14 m)) c).loose
  hwaits := Pipeline.hwaits_of_owed_zero _ _ _ _ L lv 8 fun _ _ => rfl
  pre c := iprop(StableHlo.held (c : Thread nD τ) (Pipeline.ucRefs τ sig) (T14 m c) ∗ R c)
  post c := iprop(StableHlo.held (c : Thread nD τ) (Pipeline.ucRefs τ sig) (T15 m c) ∗ R c)
  X c := iprop(∃ r, prngReg c r)
  Y c := iprop(∃ r, prngReg c r)
  Z c := Pipeline.unscopedRest (Ix := Unit) (Name := ℕ) (U := UR sig nD τ) (Lvl := ℕ) spec8 c (Vin (T14 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vin (T14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Vin (T14 m)) c).Φ 0 from rfl]
    iintro ⟨Hp, -, Hr⟩
    iapply (phi_in8 (Vin (T14 m)) c)
    isplitl [Hp]; · iexact Hp
    iexact Hr
  hout c := by
    rw [Pipeline.ownSems0_none, show (pdats m 8 c).Φ (Fin.last _) = (dat8 (Vin (T14 m)) c).Φ (Fin.last _) from rfl]
    have hout := phi_out8 (Vin (T14 m)) c
    iintro HP
    ihave H := hout $$ HP
    icases H with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin (T14 m) c) (Vin (T15 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 9's exit each of its arrays holds what the pipeline leaves, and every other buffer what it held at entry. -/
theorem hF9 (c : Dev nD) (w : Fin cfg9.W) : (dat9 (Vin (T16 m)) c).arrAt w cfg9.N = Vin (T17 m) c (Pipeline.arrRef spec9 w) := by
  have hX : ∀ w : Fin cfg9.W, X9 m c (Proc.devRef .tc (Pipeline.arrRef spec9 w)) = (dat9 (Vin (T16 m)) c).arrAt w cfg9.N := by
    intro w; unfold X9; exact Pipeline.withArrays_arr spec9 launch9.win.arr_inj c _ _ w
  match w with
  | ⟨0, _⟩ =>
    show _ = Function.update (T16 m c) main_v70 (X9 m c main_v70) (Proc.devRef .tc (Pipeline.arrRef spec9 ⟨0, by decide⟩))
    rw [Function.update_of_ne (StableHlo.devRef_ne_of_ne (by decide))]
    exact ((dat9 (Vin (T16 m)) c).arrAt_in ⟨0, by decide⟩ rfl _).trans (A_eq9 (Vin (T16 m)) c _)
  | ⟨1, _⟩ =>
    show _ = Function.update (T16 m c) main_v70 (X9 m c main_v70) (Proc.devRef .tc (Pipeline.arrRef spec9 ⟨1, by decide⟩))
    rw [Function.update_of_ne (StableHlo.devRef_ne_of_ne (by decide))]
    exact ((dat9 (Vin (T16 m)) c).arrAt_in ⟨1, by decide⟩ rfl _).trans (A_eq9 (Vin (T16 m)) c _)
  | ⟨2, _⟩ =>
    show _ = Function.update (T16 m c) main_v70 (X9 m c main_v70) (Proc.devRef .tc (Pipeline.arrRef spec9 ⟨2, by decide⟩))
    rw [Function.update_of_ne (StableHlo.devRef_ne_of_ne (by decide))]
    exact ((dat9 (Vin (T16 m)) c).arrAt_in ⟨2, by decide⟩ rfl _).trans (A_eq9 (Vin (T16 m)) c _)
  | ⟨3, _⟩ =>
    show _ = Function.update (T16 m c) main_v70 (X9 m c main_v70) (Proc.devRef .tc main_v70)
    rw [Function.update_self]
    exact (hX ⟨3, by decide⟩).symm
theorem hrest9 (c : Dev nD) : ∀ b, b ∉ Finset.univ.image (Pipeline.arrRef spec9) → Vin (T17 m) c b = Vin (T16 m) c b := by
  intro b hb
  show Function.update (T16 m c) main_v70 (X9 m c main_v70) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin (T16 m)) c).loose
  hwaits := Pipeline.hwaits_of_owed_zero _ _ _ _ L lv 9 fun _ _ => rfl
  pre c := iprop(StableHlo.held (c : Thread nD τ) (Pipeline.ucRefs τ sig) (T16 m c) ∗ R c)
  post c := iprop(StableHlo.held (c : Thread nD τ) (Pipeline.ucRefs τ sig) (T17 m c) ∗ R c)
  X c := iprop(∃ r, prngReg c r)
  Y c := iprop(∃ r, prngReg c r)
  Z c := Pipeline.unscopedRest (Ix := Unit) (Name := ℕ) (U := UR sig nD τ) (Lvl := ℕ) spec9 c (Vin (T16 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vin (T16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (Vin (T16 m)) c).Φ 0 from rfl]
    iintro ⟨Hp, -, Hr⟩
    iapply (phi_in9 (Vin (T16 m)) c)
    isplitl [Hp]; · iexact Hp
    iexact Hr
  hout c := by
    rw [Pipeline.ownSems0_none, show (pdats m 9 c).Φ (Fin.last _) = (dat9 (Vin (T16 m)) c).Φ (Fin.last _) from rfl]
    have hout := phi_out9 (Vin (T16 m)) c
    iintro HP
    ihave H := hout $$ HP
    icases H with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin (T16 m) c) (Vin (T17 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (T0 m)),
    .host (hseg hostOps0_1 hostOps0_1_sub hostOps0_1_fresh (T1 m)),
    .host (hseg hostOps0_2 hostOps0_2_sub hostOps0_2_fresh (T2 m)),
    .region (reg0 m),
    .region (reg1 m),
    .host (hseg hostOps2 hostOps2_sub hostOps2_fresh (T5 m)),
    .region (reg2 m),
    .region (reg3 m),
    .region (reg4 m),
    .host (hseg hostOps5 hostOps5_sub hostOps5_fresh (T9 m)),
    .region (reg5 m),
    .region (reg6 m),
    .region (reg7 m),
    .host (hseg hostOps8 hostOps8_sub hostOps8_fresh (T13 m)),
    .region (reg8 m),
    .host (hseg hostOps9 hostOps9_sub hostOps9_fresh (T15 m)),
    .region (reg9 m),
    .host (hseg hostOps10 hostOps10_sub hostOps10_fresh (T17 m)) ]

theorem main_run (c : Dev nD) : main (F := F) c = Pipeline.Seg.run (segs m) := (main_chain c).trans (by chain_rfl)

/-- The last thread state without the debts: every unscoped buffer at the last valuation, the generator register at some state. -/
abbrev Tₙ (c : Dev nD) : sProp 𝕄 := iprop(StableHlo.held (c : Thread nD τ) (Pipeline.ucRefs τ sig) (T18 m c) ∗ ∃ r, prngReg c r)

set_option backward.isDefEq.respectTransparency.types false in
/-- THE RUN: from any memory with zero counters every weakly fair execution of @main terminates, nothing faulting, and
    every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = T18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (T0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (T18 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (T0 m c)
        from Pipeline.unscopedBufs_held c (T0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = T18 m c b)
    (hfin := fun c s' => by
      iintro ⟨⟨Hh, -⟩, HSI⟩
      unfold StableHlo.held
      imodintro
      iapply (pointsTo_read_all (Pipeline.ucRefs τ sig) (fun b => (((c : Thread nD τ)).1, b)) (T18 m c) s')
      isplitl [Hh] <;> iassumption)
    (hQ := fun s h c => h c)

end Cert.Kernel.Hand

end
-- ==== Proof.K.Args.lean ====
/-
  No item of @main writes an argument buffer: a host stretch writes only the buffers its operations name, a region
  changes only its output array; so at the last valuation every argument holds its launch contents.
-/
import proofs.«130334_j70351564308694_1_alg».proof.Proof.Gen.Kernel.Regions
import proofs.«130334_j70351564308694_1_alg».proof.Proof.Gen.Kernel.Points
import proofs.«130334_j70351564308694_1_alg».proof.Proof.Gen.Kernel.Skeleton
import proofs.«130334_j70351564308694_1_alg».proof.Proof.K.Run
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem T1_of (c : Dev nD) (r : Ref sig .tc) (h : r ∉ hostOps0_W) : T1 m c r = T0 m c r :=
  StableHlo.after_of_writes_sub hostOps0 _ hostOps0_writes h
theorem T2_of (c : Dev nD) (r : Ref sig .tc) (h : r ∉ hostOps0_1_W) : T2 m c r = T1 m c r :=
  StableHlo.after_of_writes_sub hostOps0_1 _ hostOps0_1_writes h
theorem T3_of (c : Dev nD) (r : Ref sig .tc) (h : r ∉ hostOps0_2_W) : T3 m c r = T2 m c r :=
  StableHlo.after_of_writes_sub hostOps0_2 _ hostOps0_2_writes h
theorem T4_of (c : Dev nD) (r : Ref sig .tc) (h : r ∉ ([main_v49] : List (Ref sig .tc))) : T4 m c r = T3 m c r := by
  show Function.update (T3 m c) main_v49 (X0 m c main_v49) (Proc.devRef .tc r) = _
  exact Function.update_of_ne (StableHlo.devRef_ne_of_ne (List.ne_of_not_mem_cons h)) _ _
theorem T5_of (c : Dev nD) (r : Ref sig .tc) (h : r ∉ ([main_v50] : List (Ref sig .tc))) : T5 m c r = T4 m c r := by
  show Function.update (T4 m c) main_v50 (X1 m c main_v50) (Proc.devRef .tc r) = _
  exact Function.update_of_ne (StableHlo.devRef_ne_of_ne (List.ne_of_not_mem_cons h)) _ _
theorem T6_of (c : Dev nD) (r : Ref sig .tc) (h : r ∉ hostOps2_W) : T6 m c r = T5 m c r :=
  StableHlo.after_of_writes_sub hostOps2 _ hostOps2_writes h
theorem T7_of (c : Dev nD) (r : Ref sig .tc) (h : r ∉ ([main_v54] : List (Ref sig .tc))) : T7 m c r = T6 m c r := by
  show Function.update (T6 m c) main_v54 (X2 m c main_v54) (Proc.devRef .tc r) = _
  exact Function.update_of_ne (StableHlo.devRef_ne_of_ne (List.ne_of_not_mem_cons h)) _ _
theorem T8_of (c : Dev nD) (r : Ref sig .tc) (h : r ∉ ([main_v55] : List (Ref sig .tc))) : T8 m c r = T7 m c r := by
  show Function.update (T7 m c) main_v55 (X3 m c main_v55) (Proc.devRef .tc r) = _
  exact Function.update_of_ne (StableHlo.devRef_ne_of_ne (List.ne_of_not_mem_cons h)) _ _
theorem T9_of (c : Dev nD) (r : Ref sig .tc) (h : r ∉ ([main_v56] : List (Ref sig .tc))) : T9 m c r = T8 m c r := by
  show Function.update (T8 m c) main_v56 (X4 m c main_v56) (Proc.devRef .tc r) = _
  exact Function.update_of_ne (StableHlo.devRef_ne_of_ne (List.ne_of_not_mem_cons h)) _ _
theorem T10_of (c : Dev nD) (r : Ref sig .tc) (h : r ∉ hostOps5_W) : T10 m c r = T9 m c r :=
  StableHlo.after_of_writes_sub hostOps5 _ hostOps5_writes h
theorem T11_of (c : Dev nD) (r : Ref sig .tc) (h : r ∉ ([main_v60] : List (Ref sig .tc))) : T11 m c r = T10 m c r := by
  show Function.update (T10 m c) main_v60 (X5 m c main_v60) (Proc.devRef .tc r) = _
  exact Function.update_of_ne (StableHlo.devRef_ne_of_ne (List.ne_of_not_mem_cons h)) _ _
theorem T12_of (c : Dev nD) (r : Ref sig .tc) (h : r ∉ ([main_v61] : List (Ref sig .tc))) : T12 m c r = T11 m c r := by
  show Function.update (T11 m c) main_v61 (X6 m c main_v61) (Proc.devRef .tc r) = _
  exact Function.update_of_ne (StableHlo.devRef_ne_of_ne (List.ne_of_not_mem_cons h)) _ _
theorem T13_of (c : Dev nD) (r : Ref sig .tc) (h : r ∉ ([main_v62] : List (Ref sig .tc))) : T13 m c r = T12 m c r := by
  show Function.update (T12 m c) main_v62 (X7 m c main_v62) (Proc.devRef .tc r) = _
  exact Function.update_of_ne (StableHlo.devRef_ne_of_ne (List.ne_of_not_mem_cons h)) _ _
theorem T14_of (c : Dev nD) (r : Ref sig .tc) (h : r ∉ hostOps8_W) : T14 m c r = T13 m c r :=
  StableHlo.after_of_writes_sub hostOps8 _ hostOps8_writes h
theorem T15_of (c : Dev nD) (r : Ref sig .tc) (h : r ∉ ([main_v66] : List (Ref sig .tc))) : T15 m c r = T14 m c r := by
  show Function.update (T14 m c) main_v66 (X8 m c main_v66) (Proc.devRef .tc r) = _
  exact Function.update_of_ne (StableHlo.devRef_ne_of_ne (List.ne_of_not_mem_cons h)) _ _
theorem T16_of (c : Dev nD) (r : Ref sig .tc) (h : r ∉ hostOps9_W) : T16 m c r = T15 m c r :=
  StableHlo.after_of_writes_sub hostOps9 _ hostOps9_writes h
theorem T17_of (c : Dev nD) (r : Ref sig .tc) (h : r ∉ ([main_v70] : List (Ref sig .tc))) : T17 m c r = T16 m c r := by
  show Function.update (T16 m c) main_v70 (X9 m c main_v70) (Proc.devRef .tc r) = _
  exact Function.update_of_ne (StableHlo.devRef_ne_of_ne (List.ne_of_not_mem_cons h)) _ _
theorem T18_of (c : Dev nD) (r : Ref sig .tc) (h : r ∉ hostOps10_W) : T18 m c r = T17 m c r :=
  StableHlo.after_of_writes_sub hostOps10 _ hostOps10_writes h

/-- A buffer no item writes holds its launch contents at the end. -/
theorem T18_kept (c : Dev nD) (r : Ref sig .tc)
    (h0 : r ∉ hostOps0_W)
    (h1 : r ∉ hostOps0_1_W)
    (h2 : r ∉ hostOps0_2_W)
    (h3 : r ∉ ([main_v49] : List (Ref sig .tc)))
    (h4 : r ∉ ([main_v50] : List (Ref sig .tc)))
    (h5 : r ∉ hostOps2_W)
    (h6 : r ∉ ([main_v54] : List (Ref sig .tc)))
    (h7 : r ∉ ([main_v55] : List (Ref sig .tc)))
    (h8 : r ∉ ([main_v56] : List (Ref sig .tc)))
    (h9 : r ∉ hostOps5_W)
    (h10 : r ∉ ([main_v60] : List (Ref sig .tc)))
    (h11 : r ∉ ([main_v61] : List (Ref sig .tc)))
    (h12 : r ∉ ([main_v62] : List (Ref sig .tc)))
    (h13 : r ∉ hostOps8_W)
    (h14 : r ∉ ([main_v66] : List (Ref sig .tc)))
    (h15 : r ∉ hostOps9_W)
    (h16 : r ∉ ([main_v70] : List (Ref sig .tc)))
    (h17 : r ∉ hostOps10_W) :
    T18 m c r = m ((c : Thread nD τ).loc r) :=
  (T18_of m c r h17).trans <| (T17_of m c r h16).trans <| (T16_of m c r h15).trans <| (T15_of m c r h14).trans <| (T14_of m c r h13).trans <| (T13_of m c r h12).trans <| (T12_of m c r h11).trans <| (T11_of m c r h10).trans <| (T10_of m c r h9).trans <| (T9_of m c r h8).trans <| (T8_of m c r h7).trans <| (T7_of m c r h6).trans <| (T6_of m c r h5).trans <| (T5_of m c r h4).trans <| (T4_of m c r h3).trans <| (T3_of m c r h2).trans <| (T2_of m c r h1).trans <| (T1_of m c r h0)

theorem T18_main_arg0 (c : Dev nD) : T18 m c main_arg0 = m ((c : Thread nD τ).loc main_arg0) :=
  T18_kept m c main_arg0 (by decide) (by decide) (by decide) (by decide) (by decide) (by decide) (by decide) (by decide) (by decide) (by decide) (by decide) (by decide) (by decide) (by decide) (by decide) (by decide) (by decide) (by decide)
theorem T18_main_arg1 (c : Dev nD) : T18 m c main_arg1 = m ((c : Thread nD τ).loc main_arg1) :=
  T18_kept m c main_arg1 (by decide) (by decide) (by decide) (by decide) (by decide) (by decide) (by decide) (by decide) (by decide) (by decide) (by decide) (by decide) (by decide) (by decide) (by decide) (by decide) (by decide) (by decide)
theorem T18_main_arg2 (c : Dev nD) : T18 m c main_arg2 = m ((c : Thread nD τ).loc main_arg2) :=
  T18_kept m c main_arg2 (by decide) (by decide) (by decide) (by decide) (by decide) (by decide) (by decide) (by decide) (by decide) (by decide) (by decide) (by decide) (by decide) (by decide) (by decide) (by decide) (by decide) (by decide)
theorem T18_main_arg3 (c : Dev nD) : T18 m c main_arg3 = m ((c : Thread nD τ).loc main_arg3) :=
  T18_kept m c main_arg3 (by decide) (by decide) (by decide) (by decide) (by decide) (by decide) (by decide) (by decide) (by decide) (by decide) (by decide) (by decide) (by decide) (by decide) (by decide) (by decide) (by decide) (by decide)
theorem T18_main_arg4 (c : Dev nD) : T18 m c main_arg4 = m ((c : Thread nD τ).loc main_arg4) :=
  T18_kept m c main_arg4 (by decide) (by decide) (by decide) (by decide) (by decide) (by decide) (by decide) (by decide) (by decide) (by decide) (by decide) (by decide) (by decide) (by decide) (by decide) (by decide) (by decide) (by decide)
theorem T18_main_arg5 (c : Dev nD) : T18 m c main_arg5 = m ((c : Thread nD τ).loc main_arg5) :=
  T18_kept m c main_arg5 (by decide) (by decide) (by decide) (by decide) (by decide) (by decide) (by decide) (by decide) (by decide) (by decide) (by decide) (by decide) (by decide) (by decide) (by decide) (by decide) (by decide) (by decide)
theorem T18_main_arg6 (c : Dev nD) : T18 m c main_arg6 = m ((c : Thread nD τ).loc main_arg6) :=
  T18_kept m c main_arg6 (by decide) (by decide) (by decide) (by decide) (by decide) (by decide) (by decide) (by decide) (by decide) (by decide) (by decide) (by decide) (by decide) (by decide) (by decide) (by decide) (by decide) (by decide)
theorem T18_main_arg7 (c : Dev nD) : T18 m c main_arg7 = m ((c : Thread nD τ).loc main_arg7) :=
  T18_kept m c main_arg7 (by decide) (by decide) (by decide) (by decide) (by decide) (by decide) (by decide) (by decide) (by decide) (by decide) (by decide) (by decide) (by decide) (by decide) (by decide) (by decide) (by decide) (by decide)
theorem T18_main_arg8 (c : Dev nD) : T18 m c main_arg8 = m ((c : Thread nD τ).loc main_arg8) :=
  T18_kept m c main_arg8 (by decide) (by decide) (by decide) (by decide) (by decide) (by decide) (by decide) (by decide) (by decide) (by decide) (by decide) (by decide) (by decide) (by decide) (by decide) (by decide) (by decide) (by decide)
theorem T18_main_arg9 (c : Dev nD) : T18 m c main_arg9 = m ((c : Thread nD τ).loc main_arg9) :=
  T18_kept m c main_arg9 (by decide) (by decide) (by decide) (by decide) (by decide) (by decide) (by decide) (by decide) (by decide) (by decide) (by decide) (by decide) (by decide) (by decide) (by decide) (by decide) (by decide) (by decide)
theorem T18_main_arg10 (c : Dev nD) : T18 m c main_arg10 = m ((c : Thread nD τ).loc main_arg10) :=
  T18_kept m c main_arg10 (by decide) (by decide) (by decide) (by decide) (by decide) (by decide) (by decide) (by decide) (by decide) (by decide) (by decide) (by decide) (by decide) (by decide) (by decide) (by decide) (by decide) (by decide)
theorem T18_main_arg11 (c : Dev nD) : T18 m c main_arg11 = m ((c : Thread nD τ).loc main_arg11) :=
  T18_kept m c main_arg11 (by decide) (by decide) (by decide) (by decide) (by decide) (by decide) (by decide) (by decide) (by decide) (by decide) (by decide) (by decide) (by decide) (by decide) (by decide) (by decide) (by decide) (by decide)

end Cert.Kernel.Hand

end
-- ==== Proof.FramesK.lean ====
/-
  The word-level kernel program's frame, read off its run: the run ends with every unscoped buffer at the last valuation,
  and at the last valuation every argument holds its launch contents (no item of @main writes an argument).
-/
import proofs.«130334_j70351564308694_1_alg».proof.Defs
import proofs.«130334_j70351564308694_1_alg».proof.Proof.K.Args

noncomputable section

namespace Cert.Proof.FramesK

open Idealize.ShloMosaic Idealize.ShloMosaic.TcCoe Idealize.SL.Sem
open Cert.Kernel Cert.Kernel.Hand

theorem frame [Cert.Kernel.Facts] [Cert.Pre_finite_inputs.Facts] : Cert.frame_Kernel := fun m ρ _ =>
  (θ_run Cert.Kernel.defs _ _).mono (fun r h c =>
    ⟨(h c _ (mem_uc main_arg0 (by decide))).trans (T18_main_arg0 m c),
     (h c _ (mem_uc main_arg1 (by decide))).trans (T18_main_arg1 m c),
     (h c _ (mem_uc main_arg2 (by decide))).trans (T18_main_arg2 m c),
     (h c _ (mem_uc main_arg3 (by decide))).trans (T18_main_arg3 m c),
     (h c _ (mem_uc main_arg4 (by decide))).trans (T18_main_arg4 m c),
     (h c _ (mem_uc main_arg5 (by decide))).trans (T18_main_arg5 m c),
     (h c _ (mem_uc main_arg6 (by decide))).trans (T18_main_arg6 m c),
     (h c _ (mem_uc main_arg7 (by decide))).trans (T18_main_arg7 m c),
     (h c _ (mem_uc main_arg8 (by decide))).trans (T18_main_arg8 m c),
     (h c _ (mem_uc main_arg9 (by decide))).trans (T18_main_arg9 m c),
     (h c _ (mem_uc main_arg10 (by decide))).trans (T18_main_arg10 m c),
     (h c _ (mem_uc main_arg11 (by decide))).trans (T18_main_arg11 m c)⟩)
    (run_all (F := Bits) m ρ)

end Cert.Proof.FramesK

end
-- ==== Proof.KI.Reg0.lean ====
/- One propagation product of the Chebyshev stack, blocked: the [10240, 10240] matrix times a [10240, Fw] right factor,
   over a 10 × 10 grid of points (i, k), k fastest. At the point (i, k) the body adds to an f32 accumulator the product of
   block (i, k) of the matrix with block k of the right factor rounded to bf16; the accumulator is zeroed at k = 0 and
   copied into row block i of the result at k = 9. The accumulator after (i, k) is therefore the in-order sum
   (((0 + d 0) + d 1) + … + d k) of the block products d j of row block i, and row block i of the result is that sum at
   k = 9. Stated here: the proof data of the region (what each window's buffer holds after each point, the invariant
   carrying the accumulator at that sum), the body's obligation at every point by the three cases k = 0, 0 < k < 9,
   k = 9, and how the invariant meets what the region is entered with and gives it back. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid -/

/-- The first conditional (the reduction index is 0: the accumulator is reset). -/
abbrev cReset_0 (i : grid0.Coords) : Prop := (Scalar.cmpi .ne (Scalar.extui (Scalar.cmpi .eq (BitVec.ofNat 32 (i 1).val) 0#32)) 0#32) = 1#1
theorem hReset_0 : ∀ t : Fin cfg0.N, cReset_0 (grid0.coords t) ↔ t.val % 10 = 0 :=
  (by decide +kernel : ∀ t : Fin grid0.N, cReset_0 (grid0.coords t) ↔ t.val % 10 = 0)
/-- The second conditional (the reduction index is 9: the accumulator is copied to the output block). -/
abbrev cLast_0 (i : grid0.Coords) : Prop := k0_cond2 i = 1#1
theorem hLast_0 : ∀ t : Fin cfg0.N, cLast_0 (grid0.coords t) ↔ t.val % 10 = 9 :=
  (by decide +kernel : ∀ t : Fin grid0.N, cLast_0 (grid0.coords t) ↔ t.val % 10 = 9)

/-- The inputs are never idle; the output block is idle, and not written back, exactly off the last reduction index. -/
theorem liveAt_0_0 : ∀ t : Fin cfg0.N, cfg0.idle 0 (grid0.coords t) = false := by decide +kernel
theorem liveAt_0_1 : ∀ t : Fin cfg0.N, cfg0.idle 1 (grid0.coords t) = false := by decide +kernel
theorem idleAt_0_2 : ∀ t : Fin cfg0.N, ¬cLast_0 (grid0.coords t) → cfg0.idle 2 (grid0.coords t) = true := by decide +kernel
theorem noFlush_0_2 : ∀ t : Fin cfg0.N, ¬cLast_0 (grid0.coords t) → (cfg0.win 2).flush t = false := by decide +kernel
theorem liveAt_0_2 : ∀ t : Fin cfg0.N, cLast_0 (grid0.coords t) → cfg0.idle 2 (grid0.coords t) = false := by decide +kernel

/-- The staging memrefs at a point, as the pipeline passes them, and the scratch accumulator. -/
abbrev ms_0_0 (t : Fin cfg0.N) : Memref sig .tc .vmem S1024x1024 .bf16 := win0_0.stage (cfg0.slots t 0)
abbrev hs_0_0 (t : Fin cfg0.N) : (ms_0_0 t).IsWhole := hstage0_0 ((cfg0.slots t 0).cast nbuf0_0)
abbrev ms_0_1 (t : Fin cfg0.N) : Memref sig .tc .vmem S1024x128 .f32 := win0_1.stage (cfg0.slots t 1)
abbrev hs_0_1 (t : Fin cfg0.N) : (ms_0_1 t).IsWhole := hstage0_1 ((cfg0.slots t 1).cast nbuf0_1)
abbrev ms_0_2 (t : Fin cfg0.N) : Memref sig .tc .vmem S1024x128 .f32 := win0_2.stage (cfg0.slots t 2)
abbrev hs_0_2 (t : Fin cfg0.N) : (ms_0_2 t).IsWhole := hstage0_2 ((cfg0.slots t 2).cast nbuf0_2)
abbrev scM_0 : Memref sig .tc .vmem S1024x128 .f32 := Memref.whole cc0_scratch0
abbrev VS_0 : View sig .tc .vmem S1024x128 .f32 := (scM_0).view
abbrev VO_0 : View sig .tc .vmem S1024x128 .f32 := (Memref.whole cc0_stg2_0 : Memref sig .tc .vmem S1024x128 .f32).view

set_option maxHeartbeats 1000000 in
/-- The body at the first reduction index, not the last: the accumulator, at anything, is overwritten whole with zeros and
    then with zero plus the block product; the inputs and the (idle) output buffer are handed back as found. -/
noncomputable def kRunA_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i)
    (x0 : Vec F S1024x1024 .bf16) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__prop_plain_kernel i arg2 harg2 arg3 harg3 arg4 harg4 arg5 harg5) K } := by
  refine ⟨?_, fun xi2 E K => ?run⟩
  case run =>
    simp only [cc0__prop_plain_kernel_eq_skeleton]; unfold cc0__prop_plain_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at a middle reduction index: the accumulator, at what the point before left, gains the block product. -/
noncomputable def kRunB_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i)
    (x0 : Vec F S1024x1024 .bf16) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__prop_plain_kernel i arg2 harg2 arg3 harg3 arg4 harg4 arg5 harg5) K } := by
  refine ⟨?_, fun xi2 E K => ?run⟩
  case run =>
    simp only [cc0__prop_plain_kernel_eq_skeleton]; unfold cc0__prop_plain_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at the last reduction index: the accumulator gains the block product and is then copied whole into the
    output block's buffer (which held anything). -/
noncomputable def kRunC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i)
    (x0 : Vec F S1024x1024 .bf16) (x1 : Vec F S1024x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__prop_plain_kernel i arg2 harg2 arg3 harg3 arg4 harg4 arg5 harg5) K } := by
  refine ⟨?_, ?_, fun E K => ?run⟩
  case run =>
    simp only [cc0__prop_plain_kernel_eq_skeleton]; unfold cc0__prop_plain_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the accumulator and in the output block's buffer -/

theorem scoverA_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i) (x0 : Vec F S1024x1024 .bf16) (x1 : Vec F S1024x128 .f32) (y : S1024x128.Idx) :
    ∃ pc ∈ (kRunA_0 c i arg2 harg2 arg3 harg3 arg4 harg4 arg5 harg5 hc0 hc1 x0 x1).1, y ∈ pc.1.set :=
  View.cover_of_tiledL (kRunA_0 c i arg2 harg2 arg3 harg3 arg4 harg4 arg5 harg5 hc0 hc1 x0 x1).1 S1024x128.size (by sl_kernel_rfl) y
def soutA_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i) (x0 : Vec F S1024x1024 .bf16) (x1 : Vec F S1024x128 .f32) : Vec F S1024x128 .f32 :=
  VS_0.read (Elt F) (VS_0.writes (Elt F) VS_0.junk (kRunA_0 c i arg2 harg2 arg3 harg3 arg4 harg4 arg5 harg5 hc0 hc1 x0 x1).1)

theorem scoverB_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i) (x0 : Vec F S1024x1024 .bf16) (x1 xs : Vec F S1024x128 .f32) (y : S1024x128.Idx) :
    ∃ pc ∈ (kRunB_0 c i arg2 harg2 arg3 harg3 arg4 harg4 arg5 harg5 hc0 hc1 x0 x1 xs).1, y ∈ pc.1.set :=
  View.cover_of_tiledL (kRunB_0 c i arg2 harg2 arg3 harg3 arg4 harg4 arg5 harg5 hc0 hc1 x0 x1 xs).1 S1024x128.size (by sl_kernel_rfl) y
def soutB_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i) (x0 : Vec F S1024x1024 .bf16) (x1 xs : Vec F S1024x128 .f32) : Vec F S1024x128 .f32 :=
  VS_0.read (Elt F) (VS_0.writes (Elt F) VS_0.junk (kRunB_0 c i arg2 harg2 arg3 harg3 arg4 harg4 arg5 harg5 hc0 hc1 x0 x1 xs).1)

theorem scoverC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) (y : S1024x128.Idx) :
    ∃ pc ∈ (kRunC_0 c i arg2 harg2 arg3 harg3 arg4 harg4 arg5 harg5 hc0 hc1 x0 x1 xs).2.1, y ∈ pc.1.set :=
  View.cover_of_tiledL (kRunC_0 c i arg2 harg2 arg3 harg3 arg4 harg4 arg5 harg5 hc0 hc1 x0 x1 xs).2.1 S1024x128.size (by sl_kernel_rfl) y
def soutC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) : Vec F S1024x128 .f32 :=
  VS_0.read (Elt F) (VS_0.writes (Elt F) VS_0.junk (kRunC_0 c i arg2 harg2 arg3 harg3 arg4 harg4 arg5 harg5 hc0 hc1 x0 x1 xs).2.1)
theorem coverC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) (y : S1024x128.Idx) :
    ∃ pc ∈ (kRunC_0 c i arg2 harg2 arg3 harg3 arg4 harg4 arg5 harg5 hc0 hc1 x0 x1 xs).1, y ∈ pc.1.set :=
  View.cover_of_tiledL (kRunC_0 c i arg2 harg2 arg3 harg3 arg4 harg4 arg5 harg5 hc0 hc1 x0 x1 xs).1 S1024x128.size (by sl_kernel_rfl) y
def outC_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) : Vec F S1024x128 .f32 :=
  VO_0.read (Elt F) (VO_0.writes (Elt F) VO_0.junk (kRunC_0 c i arg2 harg2 arg3 harg3 arg4 harg4 arg5 harg5 hc0 hc1 x0 x1 xs).1)

theorem notLast_of_reset_0 (t : Fin cfg0.N) (h0 : t.val % 10 = 0) : ¬cLast_0 (grid0.coords t) :=
  fun h => by have h9 := (hLast_0 t).mp h; omega
theorem notReset_0 (t : Fin cfg0.N) (h0 : ¬t.val % 10 = 0) : ¬cReset_0 (grid0.coords t) := fun h => h0 ((hReset_0 t).mp h)
theorem notLast_0 (t : Fin cfg0.N) (h1 : ¬t.val % 10 = 9) : ¬cLast_0 (grid0.coords t) := fun h => h1 ((hLast_0 t).mp h)
theorem notReset_of_last_0 (t : Fin cfg0.N) (h1 : t.val % 10 = 9) : ¬cReset_0 (grid0.coords t) :=
  fun h => by have h0 := (hReset_0 t).mp h; omega

/-! ## The windows' blocks and the accumulator point by point -/

/-- Window `w`'s block at point `t`, read off its array as the region finds it. -/
def iblk_0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's step of the accumulator: from what the point before left (`prev`, not read at a first reduction index). -/
def stepAcc_0 (c : Dev nD) (t : Fin cfg0.N) (prev : Vec F S1024x128 .f32) : Vec F S1024x128 .f32 :=
  if h0 : t.val % 10 = 0 then
    soutA_0 c (grid0.coords t) (ms_0_0 t) (hs_0_0 t) (ms_0_1 t) (hs_0_1 t) (ms_0_2 t) (hs_0_2 t) scM_0 (Memref.isWhole_whole _) ((hReset_0 t).mpr h0) (notLast_of_reset_0 t h0) (iblk_0 V c 0 t) (iblk_0 V c 1 t)
  else if h1 : t.val % 10 = 9 then
    soutC_0 c (grid0.coords t) (ms_0_0 t) (hs_0_0 t) (ms_0_1 t) (hs_0_1 t) (ms_0_2 t) (hs_0_2 t) scM_0 (Memref.isWhole_whole _) (notReset_0 t h0) ((hLast_0 t).mpr h1) (iblk_0 V c 0 t) (iblk_0 V c 1 t) prev
  else
    soutB_0 c (grid0.coords t) (ms_0_0 t) (hs_0_0 t) (ms_0_1 t) (hs_0_1 t) (ms_0_2 t) (hs_0_2 t) scM_0 (Memref.isWhole_whole _) (notReset_0 t h0) (notLast_0 t h1) (iblk_0 V c 0 t) (iblk_0 V c 1 t) prev

/-- THE ACCUMULATION: what the accumulator holds after the body at position `n` — for the point (i, k), zero plus the
    first k + 1 block products of row block i, summed in order. -/
def accAt_0 (c : Dev nD) : (n : ℕ) → n < cfg0.N → Vec F S1024x128 .f32
  | 0, hn => stepAcc_0 V c ⟨0, hn⟩ (VS_0.read (Elt F) VS_0.junk)
  | n + 1, hn => stepAcc_0 V c ⟨n + 1, hn⟩ (accAt_0 c n (Nat.lt_of_succ_lt hn))

/-- What the point before `t` left in the accumulator (anything readable before the first point). -/
def accPrev_0 (c : Dev nD) (t : Fin cfg0.N) : Vec F S1024x128 .f32 :=
  if hz : t.val = 0 then VS_0.read (Elt F) VS_0.junk
  else accAt_0 V c (t.val - 1) (Nat.lt_of_le_of_lt (Nat.sub_le _ _) t.isLt)

theorem accAt_step_0 (c : Dev nD) (t : Fin cfg0.N) : accAt_0 V c t.val t.isLt = stepAcc_0 V c t (accPrev_0 V c t) := by
  obtain ⟨n, hn⟩ := t
  cases n with
  | zero => unfold accPrev_0; rw [dif_pos rfl]; rfl
  | succ n => unfold accPrev_0; rw [dif_neg (Nat.succ_ne_zero n)]; rfl

theorem accPrev_pos_0 (c : Dev nD) (t : Fin cfg0.N) (hz : t.val ≠ 0) :
    accPrev_0 V c t = accAt_0 V c (t.val - 1) (Nat.lt_of_le_of_lt (Nat.sub_le _ _) t.isLt) := by
  unfold accPrev_0; rw [dif_neg hz]

/-- What the output block's buffer holds after the body at `t`: at a last reduction index the accumulator's final
    contents, copied; elsewhere the buffer is idle and this value is consulted by nothing. -/
def outAt_0 (c : Dev nD) (t : Fin cfg0.N) : Vec F S1024x128 .f32 :=
  if h1 : t.val % 10 = 9 then
    outC_0 c (grid0.coords t) (ms_0_0 t) (hs_0_0 t) (ms_0_1 t) (hs_0_1 t) (ms_0_2 t) (hs_0_2 t) scM_0 (Memref.isWhole_whole _) (notReset_of_last_0 t h1) ((hLast_0 t).mpr h1) (iblk_0 V c 0 t) (iblk_0 V c 1 t) (accPrev_0 V c t)
  else accAt_0 V c t.val t.isLt

/-! ## The invariant and the proof data -/

/-- Before the first point: the generator register and the scoped buffers no window stages, as the region is entered.
    Afterwards: the accumulator at what the point before left, the other such buffers unopened, the register. -/
def PhiS_0 (c : Dev nD) : (n : ℕ) → n ≤ cfg0.N → sProp 𝕄
  | 0, _ => iprop((∃ r, prngReg c r) ∗ Pipeline.scopedRest spec0 c)
  | n + 1, hn => iprop(owns (c : Thread nD τ) scM_0 fullShare (accAt_0 V c n hn) ∗ Pipeline.scopedRestBut spec0 c [cc0_scratch0] ∗ (∃ r, prngReg c r))

theorem PhiS_zero_0 (c : Dev nD) (n : ℕ) (h : n ≤ cfg0.N) (hz : n = 0) :
    PhiS_0 V c n h = iprop((∃ r, prngReg c r) ∗ Pipeline.scopedRest spec0 c) := by subst hz; rfl
theorem PhiS_succ_0 (c : Dev nD) (n : ℕ) (hn : n < cfg0.N) :
    PhiS_0 V c (n + 1) hn = iprop(owns (c : Thread nD τ) scM_0 fullShare (accAt_0 V c n hn) ∗ Pipeline.scopedRestBut spec0 c [cc0_scratch0] ∗ (∃ r, prngReg c r)) := rfl
theorem PhiS_pos_0 (c : Dev nD) (n : ℕ) (h : n ≤ cfg0.N) (hz : n ≠ 0) :
    PhiS_0 V c n h = iprop(owns (c : Thread nD τ) scM_0 fullShare (accAt_0 V c (n - 1) (by omega)) ∗ Pipeline.scopedRestBut spec0 c [cc0_scratch0] ∗ (∃ r, prngReg c r)) := by
  cases n with
  | zero => exact absurd rfl hz
  | succ n => rfl

/-- The entry invariant with the accumulator split out of the scoped rest, owned as a whole memref at some contents. -/
theorem PhiS0_eq_0 (c : Dev nD) :
    (iprop((∃ r, prngReg c r) ∗ Pipeline.scopedRest spec0 c) : sProp 𝕄)
      = iprop((∃ r, prngReg c r) ∗ iprop((∃ d, owns (c : Thread nD τ) scM_0 fullShare d)) ∗ Pipeline.scopedRestBut spec0 c [cc0_scratch0]) := by
  rw [scopedRest0_split]; simp only [scM_0, owns_whole]; try rfl

def dat0 (c : Dev nD) : Dat τ (Elt F) Unit ℕ (UR sig nD τ) ℕ cfg0 c where
  A w := V c (Pipeline.arrRef spec0 w)
  after w t := match w with
    | ⟨0, _⟩ => iblk_0 V c 0 t
    | ⟨1, _⟩ => iblk_0 V c 1 t
    | ⟨2, _⟩ => outAt_0 V c t
  Φ t := PhiS_0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc_0 (c : Dev nD) (t : Fin cfg0.N) :
    (dat0 V c).Φ t.castSucc = PhiS_0 V c t.val (Nat.le_of_lt t.isLt) := by
  dsimp only [dat0]; simp only [Fin.coe_castSucc]

theorem after_0_0 (c : Dev nD) (t : Fin cfg0.N) : (dat0 V c).after 0 t = iblk_0 V c 0 t := by dsimp only [dat0]
theorem after_0_1 (c : Dev nD) (t : Fin cfg0.N) : (dat0 V c).after 1 t = iblk_0 V c 1 t := by dsimp only [dat0]
theorem after_0_2 (c : Dev nD) (t : Fin cfg0.N) : (dat0 V c).after 2 t = outAt_0 V c t := by dsimp only [dat0]

/-- Each input is fetched at every point: its current staging buffer holds its block. -/
theorem before_0_0 (c : Dev nD) (t : Fin cfg0.N) (d) : (dat0 V c).before 0 t d = iblk_0 V c 0 t :=
  ((dat0 V c).before_fetched 0 t (fetch0_0 t) d).trans (by unfold Dat.fetched Dat.blockOf iblk_0; rw [A_eq0]; try rfl)
theorem before_0_1 (c : Dev nD) (t : Fin cfg0.N) (d) : (dat0 V c).before 1 t d = iblk_0 V c 1 t :=
  ((dat0 V c).before_fetched 1 t (fetch0_1 t) d).trans (by unfold Dat.fetched Dat.blockOf iblk_0; rw [A_eq0]; try rfl)

/-! ## The body obligation -/

def bodyPre_0 (c : Dev nD) (t : Fin cfg0.N) : sProp 𝕄 :=
  iprop((dat0 V c).Φ t.castSucc ∗ (dat0 V c).owesAt () t.castSucc
    ∗ (∃ d, owns (c : Thread nD τ) (ms_0_0 t) fullShare ((dat0 V c).before 0 t d))
    ∗ (∃ d, owns (c : Thread nD τ) (ms_0_1 t) fullShare ((dat0 V c).before 1 t d))
    ∗ (∃ d, owns (c : Thread nD τ) (ms_0_2 t) fullShare ((dat0 V c).before 2 t d)))

def bodyPost_0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which of the three cases the
    point is in; the invariant hands the body the accumulator at what the point before left (at anything at the
    first point, where it is reset before it is read) and takes it back at this point's contents; where the output
    block is idle its buffer is handed back as found, and at a last reduction index it ends with the accumulator's copy. -/
theorem sound_body_0 (c : Dev nD) (t : Fin cfg0.N) :
    bodyPre_0 V c t ⊢ wp frame (wpE (defs₀ (F := F)) Variants.none c none) Set.univ (bodyAt0 t) (fun _ => bodyPost_0 V c t) := by
  unfold bodyPre_0 bodyPost_0 bodyAt0
  simp only [before_0_0, before_0_1]
  rw [show (dat0 V c).owesAt () t.succ = (dat0 V c).owesAt () t.castSucc from rfl]
  rw [show (dat0 V c).Φ t.succ = PhiS_0 V c (t.val + 1) t.isLt from rfl, PhiS_succ_0]
  have hN : t.val < 100 := lt_of_lt_of_eq t.isLt (show cfg0.N = 100 from N_0)
  rw [show (dat0 V c).leavesExact 0 t = owns (c : Thread nD τ) (ms_0_0 t) fullShare ((dat0 V c).after 0 t) from by
    unfold Dat.leavesExact; rw [liveAt_0_0 t], after_0_0]
  rw [show (dat0 V c).leavesExact 1 t = owns (c : Thread nD τ) (ms_0_1 t) fullShare ((dat0 V c).after 1 t) from by
    unfold Dat.leavesExact; rw [liveAt_0_1 t], after_0_1]
  rw [accAt_step_0 V c t]
  by_cases h0 : t.val % 10 = 0
  · have hc1 := notLast_of_reset_0 t h0
    rw [Dat.leavesExact_idle (dat0 V c) 2 t (idleAt_0_2 t hc1) (noFlush_0_2 t hc1)]
    unfold stepAcc_0; rw [dif_pos h0]
    unfold soutA_0; (try dsimp only)
    by_cases hz : t.val = 0
    · rw [PhiS_castSucc_0 V c t, PhiS_zero_0 V c _ _ hz, PhiS0_eq_0]
      iintro ⟨⟨Hg, HS0, Hrest⟩, Ho, ⟨%d0, H0⟩, ⟨%d1, H1⟩, ⟨%d2, H2⟩⟩
      iapply ((kRunA_0 c (grid0.coords t) (ms_0_0 t) (hs_0_0 t) (ms_0_1 t) (hs_0_1 t) (ms_0_2 t) (hs_0_2 t) scM_0 (Memref.isWhole_whole _) ((hReset_0 t).mpr h0) hc1 (iblk_0 V c 0 t) (iblk_0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_0 c _ _ _ _ _ _ _ _ _ _ _ _ _)
        isplitl [Hrest]; · iexact Hrest
        iexact Hg
      isplitl [Ho]; · iexact Ho
      isplitl [H0]; · iexact H0
      isplitl [H1]; · iexact H1
      iexists _; iexact H2
    · rw [PhiS_castSucc_0 V c t, PhiS_pos_0 V c _ _ hz]
      iintro ⟨⟨HS0, Hrest, Hg⟩, Ho, ⟨%d0, H0⟩, ⟨%d1, H1⟩, ⟨%d2, H2⟩⟩
      iapply ((kRunA_0 c (grid0.coords t) (ms_0_0 t) (hs_0_0 t) (ms_0_1 t) (hs_0_1 t) (ms_0_2 t) (hs_0_2 t) scM_0 (Memref.isWhole_whole _) ((hReset_0 t).mpr h0) hc1 (iblk_0 V c 0 t) (iblk_0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_0 c _ _ _ _ _ _ _ _ _ _ _ _ _)
        isplitl [Hrest]; · iexact Hrest
        iexact Hg
      isplitl [Ho]; · iexact Ho
      isplitl [H0]; · iexact H0
      isplitl [H1]; · iexact H1
      iexists _; iexact H2
  · have hz : t.val ≠ 0 := fun e => h0 (by rw [e])
    have hc0 := notReset_0 t h0
    unfold stepAcc_0; rw [dif_neg h0]
    rw [accPrev_pos_0 V c t hz]
    by_cases h1 : t.val % 10 = 9
    · rw [show (dat0 V c).leavesExact 2 t = owns (c : Thread nD τ) (ms_0_2 t) fullShare ((dat0 V c).after 2 t) from by
        unfold Dat.leavesExact; rw [liveAt_0_2 t ((hLast_0 t).mpr h1)], after_0_2]
      unfold outAt_0; rw [dif_pos h1, dif_pos h1, accPrev_pos_0 V c t hz]
      unfold soutC_0 outC_0; (try dsimp only)
      rw [PhiS_castSucc_0 V c t, PhiS_pos_0 V c _ _ hz]
      iintro ⟨⟨HS0, Hrest, Hg⟩, Ho, ⟨%d0, H0⟩, ⟨%d1, H1⟩, ⟨%d2, H2⟩⟩
      iapply ((kRunC_0 c (grid0.coords t) (ms_0_0 t) (hs_0_0 t) (ms_0_1 t) (hs_0_1 t) (ms_0_2 t) (hs_0_2 t) scM_0 (Memref.isWhole_whole _) hc0 ((hLast_0 t).mpr h1) (iblk_0 V c 0 t) (iblk_0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0]
        · unfold owns; iexists _; isplitr
          swap; · iexact HS0
          ipureintro; exact View.read_writes_of_cover _ _ _ _ _ (scoverC_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_0 c _ _ _ _ _ _ _ _ _ _ _ _ _ _)
    · have hc1 := notLast_0 t h1
      rw [Dat.leavesExact_idle (dat0 V c) 2 t (idleAt_0_2 t hc1) (noFlush_0_2 t hc1)]
      rw [dif_neg h1]
      unfold soutB_0; (try dsimp only)
      rw [PhiS_castSucc_0 V c t, PhiS_pos_0 V c _ _ hz]
      iintro ⟨⟨HS0, Hrest, Hg⟩, Ho, ⟨%d0, H0⟩, ⟨%d1, H1⟩, ⟨%d2, H2⟩⟩
      iapply ((kRunB_0 c (grid0.coords t) (ms_0_0 t) (hs_0_0 t) (ms_0_1 t) (hs_0_1 t) (ms_0_2 t) (hs_0_2 t) scM_0 (Memref.isWhole_whole _) hc0 hc1 (iblk_0 V c 0 t) (iblk_0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverB_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body_0 V c t

theorem phi_in0 (c : Dev nD) : (iprop((∃ r, prngReg c r) ∗ Pipeline.scopedRest spec0 c) : sProp 𝕄) ⊢ (dat0 V c).Φ 0 := by
  rw [show (dat0 V c).Φ 0 = PhiS_0 V c 0 (Nat.zero_le _) from rfl, PhiS_zero_0 V c 0 _ rfl]
  try exact Idealize.SL.BI.Entails.refl _

theorem phi_out0 (c : Dev nD) : (dat0 V c).Φ (Fin.last _) ⊢ (iprop((∃ r, prngReg c r) ∗ Pipeline.scopedRest spec0 c) : sProp 𝕄) := by
  rw [show (dat0 V c).Φ (Fin.last _) = PhiS_0 V c (Fin.last cfg0.N).val (Nat.le_of_lt_succ (Fin.last cfg0.N).isLt) from rfl,
    PhiS_pos_0 V c _ _ (by rw [Fin.val_last]; have : cfg0.N = 100 := N_0; omega), PhiS0_eq_0]
  iintro ⟨HS0, Hrest, Hg⟩
  isplitl [Hg]; · iexact Hg
  isplitl [HS0]; · iexists _; iexact HS0
  iexact Hrest

end Cert.KernelIdeal.Hand
end
-- ==== Proof.KI.Reg1.lean ====
/- One Chebyshev propagation step with an affine tail, as a blocked matrix product over a 10 × 10 grid.
   At grid point (i, k), k the fast axis, the body adds to a 1024-row accumulator the product of block (i, k) of
   the 10240 × 10240 matrix with block k of the right factor (rounded to the matrix's format first); the accumulator
   is zeroed when k = 0, so after step k it holds (((0 + d 0) + d 1) + … ) + d k, d k the k-th partial product; when
   k = 9 the output's row block i receives 2 · accumulator + (−1) · (row block i of the addend). Off k = 9 the output's
   buffer is not touched. This file states, for every grid point, what the accumulator and the windows' buffers hold
   before and after the body (by recursion on the point), proves the body meets that description in each of the
   three cases (k = 0; 0 < k < 9; k = 9), and relates the invariant at the two ends of the grid to the scoped buffers
   the region is entered and left with. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The zero offsets of a whole-block rectangle of rank 2. -/
theorem hz_1 : (![0, 0] : Fin 2 → Nat) = fun _ => 0 := funext fun a => by fin_cases a <;> rfl

/-! ## The two conditions of the body, in closed form over the grid -/

/-- The body's first condition: the reduction coordinate is 0. -/
abbrev condZ_1 (i : grid1.Coords) : Prop := (Scalar.cmpi .ne (Scalar.extui (Scalar.cmpi .eq (BitVec.ofNat 32 (i 1).val) 0#32)) 0#32) = 1#1
theorem hcondZ_1 : ∀ t : Fin cfg1.N, condZ_1 (grid1.coords t) ↔ t.val % 10 = 0 :=
  (by decide +kernel : ∀ t : Fin grid1.N, condZ_1 (grid1.coords t) ↔ t.val % 10 = 0)
/-- The body's second condition: the reduction coordinate is 9, the last. -/
abbrev condL_1 (i : grid1.Coords) : Prop := k1_cond2 i = 1#1
theorem hcondL_1 : ∀ t : Fin cfg1.N, condL_1 (grid1.coords t) ↔ t.val % 10 = 9 :=
  (by decide +kernel : ∀ t : Fin grid1.N, condL_1 (grid1.coords t) ↔ t.val % 10 = 9)

/-- The inputs are never idle; the output is idle, and not written back, exactly off the last reduction step. -/
theorem live_1_0 : ∀ t : Fin cfg1.N, cfg1.idle 0 (grid1.coords t) = false := fun _ => rfl
theorem live_1_1 : ∀ t : Fin cfg1.N, cfg1.idle 1 (grid1.coords t) = false := fun _ => rfl
theorem live_1_2 : ∀ t : Fin cfg1.N, cfg1.idle 2 (grid1.coords t) = false := fun _ => rfl
theorem idle_1_3 : ∀ t : Fin cfg1.N, ¬condL_1 (grid1.coords t) → cfg1.idle 3 (grid1.coords t) = true := by decide +kernel
theorem noFlush_1_3 : ∀ t : Fin cfg1.N, ¬condL_1 (grid1.coords t) → (cfg1.win 3).flush t = false := by decide +kernel
theorem live_1_3 : ∀ t : Fin cfg1.N, condL_1 (grid1.coords t) → cfg1.idle 3 (grid1.coords t) = false := by decide +kernel

/-! ## The body on any whole staging memrefs, case by case -/

/-- One whole-block store leaves its payload: the read-back of a buffer after a list of writes whose last covers it. -/
theorem read_last_1 {sg : RefSig} {κ : Kind} {sp : Space} (v : View sg κ sp S1024x128 .f32) (f : v.ty.Contents (Elt F))
    (w : S1024x128.Idx → Elt F .f32) (L : List (View.Piece (Elt F) S1024x128 .f32)) :
    v.read (Elt F) (v.writes (Elt F) f ((⟨Rect.unit ![0, 0] S1024x128.size inb_S1024x128_S1024x128_0_0, w⟩ : View.Piece (Elt F) S1024x128 .f32) :: L)) = w := by
  rw [View.read_writes_eq_canon _ _ _ (fun y => ⟨_, List.mem_cons_self, View.mem_set_unit_zero hz_1 inb_S1024x128_S1024x128_0_0 y⟩),
    View.canon_cons_unit_zero hz_1]

set_option maxHeartbeats 1000000 in
/-- Reduction step 0 (not the last): the accumulator, whatever it held, is zeroed, then receives
    zero + block 0 · block 1; the addend's and the output's buffers are handed back untouched. -/
theorem run_1_A (c : Dev nD) (i : grid1.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : condZ_1 i) (hc1 : ¬condL_1 i)
    (x0 : Vec F S1024x1024 .bf16) (x1 : Vec F S1024x128 .f32) (x2 : Vec F S1024x128 .f32)
    (xi3 : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E (cc1__prop_affine_kernel i arg2 harg2 arg3 harg3 arg4 harg4 arg5 harg5 arg6 harg6) K := by
  simp only [cc1__prop_affine_kernel_eq_skeleton]; unfold cc1__prop_affine_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [read_last_1, View.readCov_unit_zero (S := S1024x128) _ hz_1]
  simp only [View.readAt_eq_ld, harg2.read_unread, harg3.read_unread,
    View.ld_unit_zero (S := S1024x1024) hz_1, View.ld_unit_zero (S := S1024x128) hz_1]

set_option maxHeartbeats 1000000 in
/-- A middle reduction step: the accumulator at `xs` receives `xs` + block 0 · block 1; the addend's and the
    output's buffers are handed back untouched. -/
theorem run_1_B (c : Dev nD) (i : grid1.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_1 i) (hc1 : ¬condL_1 i)
    (x0 : Vec F S1024x1024 .bf16) (x1 : Vec F S1024x128 .f32) (x2 : Vec F S1024x128 .f32)
    (xi3 : Vec F S1024x128 .f32) (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 xs)) -∗ K ⟨⟩))
      ⊢ wp frame (wpE (defs₀ (F := F)) Variants.none c none) E (cc1__prop_affine_kernel i arg2 harg2 arg3 harg3 arg4 harg4 arg5 harg5 arg6 harg6) K := by
  simp only [cc1__prop_affine_kernel_eq_skeleton]; unfold cc1__prop_affine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [read_last_1]
  simp only [View.readAt_eq_ld, harg2.read_unread, harg3.read_unread, harg6.read_unread,
    View.ld_unit_zero (S := S1024x1024) hz_1, View.ld_unit_zero (S := S1024x128) hz_1]

set_option maxHeartbeats 1000000 in
/-- The last reduction step: the accumulator at `xs` receives `xs` + block 0 · block 1, and the output block,
    whatever it held, receives 2 · (that sum) + (−1) · (the addend's block). -/
theorem run_1_C (c : Dev nD) (i : grid1.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_1 i) (hc1 : condL_1 i)
    (x0 : Vec F S1024x1024 .bf16) (x1 : Vec F S1024x128 .f32) (x2 : Vec F S1024x128 .f32)
    (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E (cc1__prop_affine_kernel i arg2 harg2 arg3 harg3 arg4 harg4 arg5 harg5 arg6 harg6) K := by
  simp only [cc1__prop_affine_kernel_eq_skeleton]; unfold cc1__prop_affine_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_last_1, View.readCov_unit_zero (S := S1024x128) _ hz_1]
    simp only [View.readAt_eq_ld, harg2.read_unread, harg3.read_unread, harg4.read_unread, harg6.read_unread,
      View.ld_unit_zero (S := S1024x1024) hz_1, View.ld_unit_zero (S := S1024x128) hz_1]
  iexists _; isplitr
  swap; · iexact HS
  ipureintro
  sl_unfold_words
  rw [read_last_1]
  simp only [View.readAt_eq_ld, harg2.read_unread, harg3.read_unread, harg6.read_unread,
    View.ld_unit_zero (S := S1024x1024) hz_1, View.ld_unit_zero (S := S1024x128) hz_1]

/-! ## The windows' blocks and the accumulator, point by point -/

/-- Window `w`'s block at point `t`, read off its array as the region finds it. -/
def iblk_1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging memrefs the pipeline passes at point `t`, and the scratch accumulator. -/
abbrev ms_1_0 (t : Fin cfg1.N) : Memref sig .tc .vmem S1024x1024 .bf16 := win1_0.stage (cfg1.slots t 0)
abbrev hs_1_0 (t : Fin cfg1.N) : (ms_1_0 t).IsWhole := hstage1_0 ((cfg1.slots t 0).cast nbuf1_0)
abbrev ms_1_1 (t : Fin cfg1.N) : Memref sig .tc .vmem S1024x128 .f32 := win1_1.stage (cfg1.slots t 1)
abbrev hs_1_1 (t : Fin cfg1.N) : (ms_1_1 t).IsWhole := hstage1_1 ((cfg1.slots t 1).cast nbuf1_1)
abbrev ms_1_2 (t : Fin cfg1.N) : Memref sig .tc .vmem S1024x128 .f32 := win1_2.stage (cfg1.slots t 2)
abbrev hs_1_2 (t : Fin cfg1.N) : (ms_1_2 t).IsWhole := hstage1_2 ((cfg1.slots t 2).cast nbuf1_2)
abbrev ms_1_3 (t : Fin cfg1.N) : Memref sig .tc .vmem S1024x128 .f32 := win1_3.stage (cfg1.slots t 3)
abbrev hs_1_3 (t : Fin cfg1.N) : (ms_1_3 t).IsWhole := hstage1_3 ((cfg1.slots t 3).cast nbuf1_3)
abbrev scM_1 : Memref sig .tc .vmem S1024x128 .f32 := Memref.whole cc1_scratch0

/-- THE ACCUMULATOR after the body at position `n`: at a first reduction step zero + (block 0 · block 1), at a later
    one what the step before left + (block 0 · block 1). -/
def accAt_1 (c : Dev nD) : (n : ℕ) → n < cfg1.N → Vec F S1024x128 .f32
  | 0, hn => k1_pay2 (iblk_1 V c 0 ⟨0, hn⟩) (iblk_1 V c 1 ⟨0, hn⟩) (k1_pay1 (F := F))
  | n + 1, hn =>
    if (n + 1) % 10 = 0 then k1_pay2 (iblk_1 V c 0 ⟨n + 1, hn⟩) (iblk_1 V c 1 ⟨n + 1, hn⟩) (k1_pay1 (F := F))
    else k1_pay2 (iblk_1 V c 0 ⟨n + 1, hn⟩) (iblk_1 V c 1 ⟨n + 1, hn⟩) (accAt_1 c n (Nat.lt_of_succ_lt hn))

theorem accAt_1_first (c : Dev nD) (t : Fin cfg1.N) (h0 : t.val % 10 = 0) :
    accAt_1 V c t.val t.isLt = k1_pay2 (iblk_1 V c 0 t) (iblk_1 V c 1 t) (k1_pay1 (F := F)) := by
  obtain ⟨n, hn⟩ := t
  cases n with
  | zero => rfl
  | succ n => exact if_pos h0

theorem accAt_1_next (c : Dev nD) (t : Fin cfg1.N) (h0 : ¬t.val % 10 = 0) :
    accAt_1 V c t.val t.isLt = k1_pay2 (iblk_1 V c 0 t) (iblk_1 V c 1 t)
      (accAt_1 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the scratch among
    the scoped buffers, at anything); afterwards the scratch at the accumulator the point before left, the other scoped
    buffers unopened, the generator register at some state. -/
def Phi_1 (c : Dev nD) : (n : ℕ) → n ≤ cfg1.N → sProp 𝕄
  | 0, _ => iprop((∃ r, prngReg c r) ∗ Pipeline.scopedRest spec1 c)
  | n + 1, hn => iprop(owns (c : Thread nD τ) scM_1 fullShare (accAt_1 V c n hn)
      ∗ Pipeline.scopedRestBut spec1 c [cc1_scratch0] ∗ (∃ r, prngReg c r))

theorem Phi_1_zero (c : Dev nD) (n : ℕ) (h : n ≤ cfg1.N) (hz : n = 0) :
    Phi_1 V c n h = iprop((∃ r, prngReg c r) ∗ Pipeline.scopedRest spec1 c) := by
  subst hz; rfl

theorem Phi_1_succ (c : Dev nD) (n : ℕ) (hn : n < cfg1.N) :
    Phi_1 V c (n + 1) hn = iprop(owns (c : Thread nD τ) scM_1 fullShare (accAt_1 V c n hn)
      ∗ Pipeline.scopedRestBut spec1 c [cc1_scratch0] ∗ (∃ r, prngReg c r)) := rfl

theorem Phi_1_pos (c : Dev nD) (n : ℕ) (h : n ≤ cfg1.N) (hz : n ≠ 0) :
    Phi_1 V c n h = iprop(owns (c : Thread nD τ) scM_1 fullShare (accAt_1 V c (n - 1) (by omega))
      ∗ Pipeline.scopedRestBut spec1 c [cc1_scratch0] ∗ (∃ r, prngReg c r)) := by
  cases n with
  | zero => exact absurd rfl hz
  | succ n => rfl

/-- What the launch hands over, with the scratch split out of the scoped buffers and owned at some contents. -/
theorem Phi0_1_eq (c : Dev nD) :
    (iprop((∃ r, prngReg c r) ∗ Pipeline.scopedRest spec1 c) : sProp 𝕄)
      = iprop((∃ r, prngReg c r) ∗ iprop((∃ d, owns (c : Thread nD τ) scM_1 fullShare d))
          ∗ Pipeline.scopedRestBut spec1 c [cc1_scratch0]) := by
  rw [scopedRest1_split]; simp only [scM_1, owns_whole]; rfl

/-! ## The proof data -/

def dat1 (c : Dev nD) : Dat τ (Elt F) Unit ℕ (UR sig nD τ) ℕ cfg1 c where
  A w := V c (Pipeline.arrRef spec1 w)
  after w t := match w with
    | ⟨0, _⟩ => iblk_1 V c 0 t
    | ⟨1, _⟩ => iblk_1 V c 1 t
    | ⟨2, _⟩ => iblk_1 V c 2 t
    | ⟨3, _⟩ => k1_pay3 (accAt_1 V c t.val t.isLt) (iblk_1 V c 2 t)
  Φ t := Phi_1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_1_castSucc (c : Dev nD) (t : Fin cfg1.N) :
    (dat1 V c).Φ t.castSucc = Phi_1 V c t.val (Nat.le_of_lt t.isLt) := by
  dsimp only [dat1]; simp only [Fin.coe_castSucc]

theorem after_1_0 (c : Dev nD) (t : Fin cfg1.N) : (dat1 V c).after 0 t = iblk_1 V c 0 t := by dsimp only [dat1]
theorem after_1_1 (c : Dev nD) (t : Fin cfg1.N) : (dat1 V c).after 1 t = iblk_1 V c 1 t := by dsimp only [dat1]
theorem after_1_2 (c : Dev nD) (t : Fin cfg1.N) : (dat1 V c).after 2 t = iblk_1 V c 2 t := by dsimp only [dat1]
theorem after_1_3 (c : Dev nD) (t : Fin cfg1.N) :
    (dat1 V c).after 3 t = k1_pay3 (accAt_1 V c t.val t.isLt) (iblk_1 V c 2 t) := by dsimp only [dat1]

/-- Each input's current staging buffer holds its block at every point, fetched there or not (unfetched, the block
    index has not moved). -/
theorem before_1_0 (c : Dev nD) (t : Fin cfg1.N) (d) : (dat1 V c).before 0 t d = iblk_1 V c 0 t :=
  ((dat1 V c).before_in_eq_fetched 0 rfl (fun _ => rfl) (fun _ _ _ => rfl)
    (fun t => by rw [after_1_0]; unfold Dat.blockOf iblk_1; rw [A_eq1]; try rfl) t d).trans
    (by unfold Dat.fetched Dat.blockOf iblk_1; rw [A_eq1]; try rfl)
theorem before_1_1 (c : Dev nD) (t : Fin cfg1.N) (d) : (dat1 V c).before 1 t d = iblk_1 V c 1 t :=
  ((dat1 V c).before_in_eq_fetched 1 rfl (fun _ => rfl) (fun _ _ _ => rfl)
    (fun t => by rw [after_1_1]; unfold Dat.blockOf iblk_1; rw [A_eq1]; try rfl) t d).trans
    (by unfold Dat.fetched Dat.blockOf iblk_1; rw [A_eq1]; try rfl)
theorem before_1_2 (c : Dev nD) (t : Fin cfg1.N) (d) : (dat1 V c).before 2 t d = iblk_1 V c 2 t :=
  ((dat1 V c).before_in_eq_fetched 2 rfl (fun _ => rfl) (fun _ _ _ => rfl)
    (fun t => by rw [after_1_2]; unfold Dat.blockOf iblk_1; rw [A_eq1]; try rfl) t d).trans
    (by unfold Dat.fetched Dat.blockOf iblk_1; rw [A_eq1]; try rfl)

/-! ## The body obligation -/

def bodyPre_1 (c : Dev nD) (t : Fin cfg1.N) : sProp 𝕄 :=
  iprop((dat1 V c).Φ t.castSucc ∗ (dat1 V c).owesAt () t.castSucc
    ∗ (∃ d, owns (c : Thread nD τ) (ms_1_0 t) fullShare ((dat1 V c).before 0 t d))
    ∗ (∃ d, owns (c : Thread nD τ) (ms_1_1 t) fullShare ((dat1 V c).before 1 t d))
    ∗ (∃ d, owns (c : Thread nD τ) (ms_1_2 t) fullShare ((dat1 V c).before 2 t d))
    ∗ (∃ d, owns (c : Thread nD τ) (ms_1_3 t) fullShare ((dat1 V c).before 3 t d)))

def bodyPost_1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which of the three cases the
    point is in; the invariant hands the body the accumulator at what the step before left (at anything where the
    reduction restarts) and takes it back at this point's; off the last reduction step the output's buffer is handed
    back untouched. -/
theorem sound_body_1 (c : Dev nD) (t : Fin cfg1.N) :
    bodyPre_1 V c t ⊢ wp frame (wpE (defs₀ (F := F)) Variants.none c none) Set.univ (bodyAt1 t) (fun _ => bodyPost_1 V c t) := by
  unfold bodyPre_1 bodyPost_1 bodyAt1
  simp only [before_1_0, before_1_1, before_1_2]
  rw [show (dat1 V c).owesAt () t.succ = (dat1 V c).owesAt () t.castSucc from rfl]
  rw [show (dat1 V c).Φ t.succ = Phi_1 V c (t.val + 1) t.isLt from rfl, Phi_1_succ]
  have hN : t.val < 100 := lt_of_lt_of_eq t.isLt (show cfg1.N = 100 from N_1)
  rw [show (dat1 V c).leavesExact 0 t = owns (c : Thread nD τ) (ms_1_0 t) fullShare ((dat1 V c).after 0 t) from by
    unfold Dat.leavesExact; rw [live_1_0 t], after_1_0]
  rw [show (dat1 V c).leavesExact 1 t = owns (c : Thread nD τ) (ms_1_1 t) fullShare ((dat1 V c).after 1 t) from by
    unfold Dat.leavesExact; rw [live_1_1 t], after_1_1]
  rw [show (dat1 V c).leavesExact 2 t = owns (c : Thread nD τ) (ms_1_2 t) fullShare ((dat1 V c).after 2 t) from by
    unfold Dat.leavesExact; rw [live_1_2 t], after_1_2]
  by_cases h1 : t.val % 10 = 9
  · have h0 : ¬t.val % 10 = 0 := by omega
    have hz : t.val ≠ 0 := by omega
    rw [show (dat1 V c).leavesExact 3 t = owns (c : Thread nD τ) (ms_1_3 t) fullShare ((dat1 V c).after 3 t) from by
      unfold Dat.leavesExact; rw [live_1_3 t ((hcondL_1 t).mpr h1)], after_1_3]
    rw [accAt_1_next V c t h0]
    rw [Phi_1_castSucc V c t, Phi_1_pos V c _ _ hz]
    iintro ⟨⟨HS, HR, Hg⟩, Ho, ⟨%d0, H0⟩, ⟨%d1, H1⟩, ⟨%d2, H2⟩, ⟨%d3, H3⟩⟩
    iapply (run_1_C c (grid1.coords t) _ (hs_1_0 t) _ (hs_1_1 t) _ (hs_1_2 t) _ (hs_1_3 t) scM_1 (Memref.isWhole_whole _)
      (fun h => h0 ((hcondZ_1 t).mp h)) ((hcondL_1 t).mpr h1) (iblk_1 V c 0 t) (iblk_1 V c 1 t) (iblk_1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat1 V c) 3 t (idle_1_3 t (fun h => h1 ((hcondL_1 t).mp h))) (noFlush_1_3 t (fun h => h1 ((hcondL_1 t).mp h)))]
    by_cases h0 : t.val % 10 = 0
    · rw [accAt_1_first V c t h0]
      by_cases hz : t.val = 0
      · rw [Phi_1_castSucc V c t, Phi_1_zero V c _ _ hz, Phi0_1_eq]
        iintro ⟨⟨Hg, HS, HR⟩, Ho, ⟨%d0, H0⟩, ⟨%d1, H1⟩, ⟨%d2, H2⟩, ⟨%d3, H3⟩⟩
        iapply (run_1_A c (grid1.coords t) _ (hs_1_0 t) _ (hs_1_1 t) _ (hs_1_2 t) _ (hs_1_3 t) scM_1 (Memref.isWhole_whole _)
          ((hcondZ_1 t).mpr h0) (fun h => h1 ((hcondL_1 t).mp h)) (iblk_1 V c 0 t) (iblk_1 V c 1 t) (iblk_1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi_1_castSucc V c t, Phi_1_pos V c _ _ hz]
        iintro ⟨⟨HS, HR, Hg⟩, Ho, ⟨%d0, H0⟩, ⟨%d1, H1⟩, ⟨%d2, H2⟩, ⟨%d3, H3⟩⟩
        iapply (run_1_A c (grid1.coords t) _ (hs_1_0 t) _ (hs_1_1 t) _ (hs_1_2 t) _ (hs_1_3 t) scM_1 (Memref.isWhole_whole _)
          ((hcondZ_1 t).mpr h0) (fun h => h1 ((hcondL_1 t).mp h)) (iblk_1 V c 0 t) (iblk_1 V c 1 t) (iblk_1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_1_next V c t h0]
      rw [Phi_1_castSucc V c t, Phi_1_pos V c _ _ hz]
      iintro ⟨⟨HS, HR, Hg⟩, Ho, ⟨%d0, H0⟩, ⟨%d1, H1⟩, ⟨%d2, H2⟩, ⟨%d3, H3⟩⟩
      iapply (run_1_B c (grid1.coords t) _ (hs_1_0 t) _ (hs_1_1 t) _ (hs_1_2 t) _ (hs_1_3 t) scM_1 (Memref.isWhole_whole _)
        (fun h => h0 ((hcondZ_1 t).mp h)) (fun h => h1 ((hcondL_1 t).mp h)) (iblk_1 V c 0 t) (iblk_1 V c 1 t) (iblk_1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body_1 V c t

theorem phi_in1 (c : Dev nD) : (iprop((∃ r, prngReg c r) ∗ Pipeline.scopedRest spec1 c) : sProp 𝕄) ⊢ (dat1 V c).Φ 0 := by
  rw [show (dat1 V c).Φ 0 = Phi_1 V c 0 (Nat.zero_le _) from rfl, Phi_1_zero V c 0 _ rfl]
  try exact Idealize.SL.BI.Entails.refl _

theorem phi_out1 (c : Dev nD) : (dat1 V c).Φ (Fin.last _) ⊢ (iprop((∃ r, prngReg c r) ∗ Pipeline.scopedRest spec1 c) : sProp 𝕄) := by
  rw [show (dat1 V c).Φ (Fin.last _) = Phi_1 V c (Fin.last cfg1.N).val (Nat.le_of_lt_succ (Fin.last cfg1.N).isLt) from rfl,
    Phi_1_pos V c _ _ (by rw [Fin.val_last]; have : cfg1.N = 100 := N_1; omega), Phi0_1_eq]
  iintro ⟨HS, HR, Hg⟩
  isplitl [Hg]; · iexact Hg
  isplitl [HS]; · iexists _; iexact HS
  iexact HR

end Cert.KernelIdeal.Hand
end
-- ==== Proof.KI.Reg2.lean ====
/- Region 2: one row block of the left factor times the whole right factor, accumulated from zero, plus the
   bias row broadcast down the rows, then the maximum with zero; the result is stored whole into the output row block.
   Nothing is carried from one grid point to the next. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2 -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S1024x384 := Rect.unit (s := S1024x384) ![0, 0] S1024x384.size inb_S1024x384_S1024x384_0_0
abbrev r2_1 : Rect S384x128 := Rect.unit (s := S384x128) ![0, 0] S384x128.size inb_S384x128_S384x128_0_0
abbrev r2_2 : Rect S1x128 := Rect.unit (s := S1x128) ![0, 0] S1x128.size inb_S1x128_S1x128_0_0
abbrev r2_3 : Rect S1024x128 := Rect.unit (s := S1024x128) ![0, 0] S1024x128.size inb_S1024x128_S1024x128_0_0

/-- The output block after the body, from the three input blocks: its one store as a piece. -/
def out2_3 (x0 : Vec F S1024x384 .f32) (x1 : Vec F S384x128 .f32) (x2 : Vec F S1x128 .f32) : Vec F S1024x128 .f32 :=
  View.canon [⟨r2_3, k2_pay1 (View.ld x0 r2_0) (View.ld x1 r2_1) (View.ld x2 r2_2)⟩]

/-- The one store covers the output block. -/
theorem cover2_3 (p0 : Vec F S1024x128 .f32) (y : S1024x128.Idx) :
    ∃ pc ∈ ([⟨r2_3, p0⟩] : List (View.Piece (Elt F) S1024x128 .f32)), y ∈ pc.1.set :=
  View.cover_of_tiled [⟨r2_3, p0⟩] S1024x128.size (by rfl) y

set_option maxHeartbeats 1000000 in
/-- The body on whole staging memrefs, the inputs at contents `x0 x1 x2` and the output at anything, runs to the
    continuation holding the inputs as they were and the output at `out2_3` of the inputs. -/
theorem sound_kernel2 (c : Dev nD) (E : Set ℕ) (i : grid2.Coords) (arg1 : Memref sig .tc .vmem S1024x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S1024x128 .f32) (harg4 : arg4.IsWhole)
    (x0 : Vec F S1024x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__mm_bias_kernel i arg1 harg1 arg2 harg2 arg3 harg3 arg4 harg4) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The arrays as the region finds them; after the body each input's buffer at its block and the output's at
    `out2_3` of the input blocks; the invariant is the untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

/-! ## The invariant at the region's ends -/

theorem phi_in2 (c : Dev nD) : (iprop((∃ r, prngReg c r) ∗ Pipeline.scopedRest spec2 c) : sProp 𝕄) ⊢ (dat2 V c).Φ 0 := by
  show _ ⊢ Pipeline.ΦA spec2 c
  unfold Pipeline.ΦA
  iintro ⟨H1, H2⟩
  isplitl [H2]; · iexact H2
  iexact H1

theorem phi_out2 (c : Dev nD) : (dat2 V c).Φ (Fin.last _) ⊢ (iprop((∃ r, prngReg c r) ∗ Pipeline.scopedRest spec2 c) : sProp 𝕄) := by
  show Pipeline.ΦA spec2 c ⊢ _
  unfold Pipeline.ΦA
  iintro ⟨H1, H2⟩
  isplitl [H2]; · iexact H2
  iexact H1

end Cert.KernelIdeal.Hand
end
-- ==== Proof.KI.Reg3.lean ====
/- One propagation product of the Chebyshev stack, blocked: the [10240, 10240] matrix times a [10240, Fw] right factor,
   over a 10 × 10 grid of points (i, k), k fastest. At the point (i, k) the body adds to an f32 accumulator the product of
   block (i, k) of the matrix with block k of the right factor rounded to bf16; the accumulator is zeroed at k = 0 and
   copied into row block i of the result at k = 9. The accumulator after (i, k) is therefore the in-order sum
   (((0 + d 0) + d 1) + … + d k) of the block products d j of row block i, and row block i of the result is that sum at
   k = 9. Stated here: the proof data of the region (what each window's buffer holds after each point, the invariant
   carrying the accumulator at that sum), the body's obligation at every point by the three cases k = 0, 0 < k < 9,
   k = 9, and how the invariant meets what the region is entered with and gives it back. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid -/

/-- The first conditional (the reduction index is 0: the accumulator is reset). -/
abbrev cReset_3 (i : grid3.Coords) : Prop := (Scalar.cmpi .ne (Scalar.extui (Scalar.cmpi .eq (BitVec.ofNat 32 (i 1).val) 0#32)) 0#32) = 1#1
theorem hReset_3 : ∀ t : Fin cfg3.N, cReset_3 (grid3.coords t) ↔ t.val % 10 = 0 :=
  (by decide +kernel : ∀ t : Fin grid3.N, cReset_3 (grid3.coords t) ↔ t.val % 10 = 0)
/-- The second conditional (the reduction index is 9: the accumulator is copied to the output block). -/
abbrev cLast_3 (i : grid3.Coords) : Prop := k3_cond2 i = 1#1
theorem hLast_3 : ∀ t : Fin cfg3.N, cLast_3 (grid3.coords t) ↔ t.val % 10 = 9 :=
  (by decide +kernel : ∀ t : Fin grid3.N, cLast_3 (grid3.coords t) ↔ t.val % 10 = 9)

/-- The inputs are never idle; the output block is idle, and not written back, exactly off the last reduction index. -/
theorem liveAt_3_0 : ∀ t : Fin cfg3.N, cfg3.idle 0 (grid3.coords t) = false := by decide +kernel
theorem liveAt_3_1 : ∀ t : Fin cfg3.N, cfg3.idle 1 (grid3.coords t) = false := by decide +kernel
theorem idleAt_3_2 : ∀ t : Fin cfg3.N, ¬cLast_3 (grid3.coords t) → cfg3.idle 2 (grid3.coords t) = true := by decide +kernel
theorem noFlush_3_2 : ∀ t : Fin cfg3.N, ¬cLast_3 (grid3.coords t) → (cfg3.win 2).flush t = false := by decide +kernel
theorem liveAt_3_2 : ∀ t : Fin cfg3.N, cLast_3 (grid3.coords t) → cfg3.idle 2 (grid3.coords t) = false := by decide +kernel

/-- The staging memrefs at a point, as the pipeline passes them, and the scratch accumulator. -/
abbrev ms_3_0 (t : Fin cfg3.N) : Memref sig .tc .vmem S1024x1024 .bf16 := win3_0.stage (cfg3.slots t 0)
abbrev hs_3_0 (t : Fin cfg3.N) : (ms_3_0 t).IsWhole := hstage3_0 ((cfg3.slots t 0).cast nbuf3_0)
abbrev ms_3_1 (t : Fin cfg3.N) : Memref sig .tc .vmem S1024x128 .f32 := win3_1.stage (cfg3.slots t 1)
abbrev hs_3_1 (t : Fin cfg3.N) : (ms_3_1 t).IsWhole := hstage3_1 ((cfg3.slots t 1).cast nbuf3_1)
abbrev ms_3_2 (t : Fin cfg3.N) : Memref sig .tc .vmem S1024x128 .f32 := win3_2.stage (cfg3.slots t 2)
abbrev hs_3_2 (t : Fin cfg3.N) : (ms_3_2 t).IsWhole := hstage3_2 ((cfg3.slots t 2).cast nbuf3_2)
abbrev scM_3 : Memref sig .tc .vmem S1024x128 .f32 := Memref.whole cc3_scratch0
abbrev VS_3 : View sig .tc .vmem S1024x128 .f32 := (scM_3).view
abbrev VO_3 : View sig .tc .vmem S1024x128 .f32 := (Memref.whole cc3_stg2_0 : Memref sig .tc .vmem S1024x128 .f32).view

set_option maxHeartbeats 1000000 in
/-- The body at the first reduction index, not the last: the accumulator, at anything, is overwritten whole with zeros and
    then with zero plus the block product; the inputs and the (idle) output buffer are handed back as found. -/
noncomputable def kRunA_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i)
    (x0 : Vec F S1024x1024 .bf16) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__prop_plain_kernel i arg2 harg2 arg3 harg3 arg4 harg4 arg5 harg5) K } := by
  refine ⟨?_, fun xi2 E K => ?run⟩
  case run =>
    simp only [cc3__prop_plain_kernel_eq_skeleton]; unfold cc3__prop_plain_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at a middle reduction index: the accumulator, at what the point before left, gains the block product. -/
noncomputable def kRunB_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i)
    (x0 : Vec F S1024x1024 .bf16) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc3__prop_plain_kernel i arg2 harg2 arg3 harg3 arg4 harg4 arg5 harg5) K } := by
  refine ⟨?_, fun xi2 E K => ?run⟩
  case run =>
    simp only [cc3__prop_plain_kernel_eq_skeleton]; unfold cc3__prop_plain_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at the last reduction index: the accumulator gains the block product and is then copied whole into the
    output block's buffer (which held anything). -/
noncomputable def kRunC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i)
    (x0 : Vec F S1024x1024 .bf16) (x1 : Vec F S1024x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc3__prop_plain_kernel i arg2 harg2 arg3 harg3 arg4 harg4 arg5 harg5) K } := by
  refine ⟨?_, ?_, fun E K => ?run⟩
  case run =>
    simp only [cc3__prop_plain_kernel_eq_skeleton]; unfold cc3__prop_plain_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the accumulator and in the output block's buffer -/

theorem scoverA_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i) (x0 : Vec F S1024x1024 .bf16) (x1 : Vec F S1024x128 .f32) (y : S1024x128.Idx) :
    ∃ pc ∈ (kRunA_3 c i arg2 harg2 arg3 harg3 arg4 harg4 arg5 harg5 hc0 hc1 x0 x1).1, y ∈ pc.1.set :=
  View.cover_of_tiledL (kRunA_3 c i arg2 harg2 arg3 harg3 arg4 harg4 arg5 harg5 hc0 hc1 x0 x1).1 S1024x128.size (by sl_kernel_rfl) y
def soutA_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i) (x0 : Vec F S1024x1024 .bf16) (x1 : Vec F S1024x128 .f32) : Vec F S1024x128 .f32 :=
  VS_3.read (Elt F) (VS_3.writes (Elt F) VS_3.junk (kRunA_3 c i arg2 harg2 arg3 harg3 arg4 harg4 arg5 harg5 hc0 hc1 x0 x1).1)

theorem scoverB_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i) (x0 : Vec F S1024x1024 .bf16) (x1 xs : Vec F S1024x128 .f32) (y : S1024x128.Idx) :
    ∃ pc ∈ (kRunB_3 c i arg2 harg2 arg3 harg3 arg4 harg4 arg5 harg5 hc0 hc1 x0 x1 xs).1, y ∈ pc.1.set :=
  View.cover_of_tiledL (kRunB_3 c i arg2 harg2 arg3 harg3 arg4 harg4 arg5 harg5 hc0 hc1 x0 x1 xs).1 S1024x128.size (by sl_kernel_rfl) y
def soutB_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i) (x0 : Vec F S1024x1024 .bf16) (x1 xs : Vec F S1024x128 .f32) : Vec F S1024x128 .f32 :=
  VS_3.read (Elt F) (VS_3.writes (Elt F) VS_3.junk (kRunB_3 c i arg2 harg2 arg3 harg3 arg4 harg4 arg5 harg5 hc0 hc1 x0 x1 xs).1)

theorem scoverC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) (y : S1024x128.Idx) :
    ∃ pc ∈ (kRunC_3 c i arg2 harg2 arg3 harg3 arg4 harg4 arg5 harg5 hc0 hc1 x0 x1 xs).2.1, y ∈ pc.1.set :=
  View.cover_of_tiledL (kRunC_3 c i arg2 harg2 arg3 harg3 arg4 harg4 arg5 harg5 hc0 hc1 x0 x1 xs).2.1 S1024x128.size (by sl_kernel_rfl) y
def soutC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) : Vec F S1024x128 .f32 :=
  VS_3.read (Elt F) (VS_3.writes (Elt F) VS_3.junk (kRunC_3 c i arg2 harg2 arg3 harg3 arg4 harg4 arg5 harg5 hc0 hc1 x0 x1 xs).2.1)
theorem coverC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) (y : S1024x128.Idx) :
    ∃ pc ∈ (kRunC_3 c i arg2 harg2 arg3 harg3 arg4 harg4 arg5 harg5 hc0 hc1 x0 x1 xs).1, y ∈ pc.1.set :=
  View.cover_of_tiledL (kRunC_3 c i arg2 harg2 arg3 harg3 arg4 harg4 arg5 harg5 hc0 hc1 x0 x1 xs).1 S1024x128.size (by sl_kernel_rfl) y
def outC_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) : Vec F S1024x128 .f32 :=
  VO_3.read (Elt F) (VO_3.writes (Elt F) VO_3.junk (kRunC_3 c i arg2 harg2 arg3 harg3 arg4 harg4 arg5 harg5 hc0 hc1 x0 x1 xs).1)

theorem notLast_of_reset_3 (t : Fin cfg3.N) (h0 : t.val % 10 = 0) : ¬cLast_3 (grid3.coords t) :=
  fun h => by have h9 := (hLast_3 t).mp h; omega
theorem notReset_3 (t : Fin cfg3.N) (h0 : ¬t.val % 10 = 0) : ¬cReset_3 (grid3.coords t) := fun h => h0 ((hReset_3 t).mp h)
theorem notLast_3 (t : Fin cfg3.N) (h1 : ¬t.val % 10 = 9) : ¬cLast_3 (grid3.coords t) := fun h => h1 ((hLast_3 t).mp h)
theorem notReset_of_last_3 (t : Fin cfg3.N) (h1 : t.val % 10 = 9) : ¬cReset_3 (grid3.coords t) :=
  fun h => by have h0 := (hReset_3 t).mp h; omega

/-! ## The windows' blocks and the accumulator point by point -/

/-- Window `w`'s block at point `t`, read off its array as the region finds it. -/
def iblk_3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One point's step of the accumulator: from what the point before left (`prev`, not read at a first reduction index). -/
def stepAcc_3 (c : Dev nD) (t : Fin cfg3.N) (prev : Vec F S1024x128 .f32) : Vec F S1024x128 .f32 :=
  if h0 : t.val % 10 = 0 then
    soutA_3 c (grid3.coords t) (ms_3_0 t) (hs_3_0 t) (ms_3_1 t) (hs_3_1 t) (ms_3_2 t) (hs_3_2 t) scM_3 (Memref.isWhole_whole _) ((hReset_3 t).mpr h0) (notLast_of_reset_3 t h0) (iblk_3 V c 0 t) (iblk_3 V c 1 t)
  else if h1 : t.val % 10 = 9 then
    soutC_3 c (grid3.coords t) (ms_3_0 t) (hs_3_0 t) (ms_3_1 t) (hs_3_1 t) (ms_3_2 t) (hs_3_2 t) scM_3 (Memref.isWhole_whole _) (notReset_3 t h0) ((hLast_3 t).mpr h1) (iblk_3 V c 0 t) (iblk_3 V c 1 t) prev
  else
    soutB_3 c (grid3.coords t) (ms_3_0 t) (hs_3_0 t) (ms_3_1 t) (hs_3_1 t) (ms_3_2 t) (hs_3_2 t) scM_3 (Memref.isWhole_whole _) (notReset_3 t h0) (notLast_3 t h1) (iblk_3 V c 0 t) (iblk_3 V c 1 t) prev

/-- THE ACCUMULATION: what the accumulator holds after the body at position `n` — for the point (i, k), zero plus the
    first k + 1 block products of row block i, summed in order. -/
def accAt_3 (c : Dev nD) : (n : ℕ) → n < cfg3.N → Vec F S1024x128 .f32
  | 0, hn => stepAcc_3 V c ⟨0, hn⟩ (VS_3.read (Elt F) VS_3.junk)
  | n + 1, hn => stepAcc_3 V c ⟨n + 1, hn⟩ (accAt_3 c n (Nat.lt_of_succ_lt hn))

/-- What the point before `t` left in the accumulator (anything readable before the first point). -/
def accPrev_3 (c : Dev nD) (t : Fin cfg3.N) : Vec F S1024x128 .f32 :=
  if hz : t.val = 0 then VS_3.read (Elt F) VS_3.junk
  else accAt_3 V c (t.val - 1) (Nat.lt_of_le_of_lt (Nat.sub_le _ _) t.isLt)

theorem accAt_step_3 (c : Dev nD) (t : Fin cfg3.N) : accAt_3 V c t.val t.isLt = stepAcc_3 V c t (accPrev_3 V c t) := by
  obtain ⟨n, hn⟩ := t
  cases n with
  | zero => unfold accPrev_3; rw [dif_pos rfl]; rfl
  | succ n => unfold accPrev_3; rw [dif_neg (Nat.succ_ne_zero n)]; rfl

theorem accPrev_pos_3 (c : Dev nD) (t : Fin cfg3.N) (hz : t.val ≠ 0) :
    accPrev_3 V c t = accAt_3 V c (t.val - 1) (Nat.lt_of_le_of_lt (Nat.sub_le _ _) t.isLt) := by
  unfold accPrev_3; rw [dif_neg hz]

/-- What the output block's buffer holds after the body at `t`: at a last reduction index the accumulator's final
    contents, copied; elsewhere the buffer is idle and this value is consulted by nothing. -/
def outAt_3 (c : Dev nD) (t : Fin cfg3.N) : Vec F S1024x128 .f32 :=
  if h1 : t.val % 10 = 9 then
    outC_3 c (grid3.coords t) (ms_3_0 t) (hs_3_0 t) (ms_3_1 t) (hs_3_1 t) (ms_3_2 t) (hs_3_2 t) scM_3 (Memref.isWhole_whole _) (notReset_of_last_3 t h1) ((hLast_3 t).mpr h1) (iblk_3 V c 0 t) (iblk_3 V c 1 t) (accPrev_3 V c t)
  else accAt_3 V c t.val t.isLt

/-! ## The invariant and the proof data -/

/-- Before the first point: the generator register and the scoped buffers no window stages, as the region is entered.
    Afterwards: the accumulator at what the point before left, the other such buffers unopened, the register. -/
def PhiS_3 (c : Dev nD) : (n : ℕ) → n ≤ cfg3.N → sProp 𝕄
  | 0, _ => iprop((∃ r, prngReg c r) ∗ Pipeline.scopedRest spec3 c)
  | n + 1, hn => iprop(owns (c : Thread nD τ) scM_3 fullShare (accAt_3 V c n hn) ∗ Pipeline.scopedRestBut spec3 c [cc3_scratch0] ∗ (∃ r, prngReg c r))

theorem PhiS_zero_3 (c : Dev nD) (n : ℕ) (h : n ≤ cfg3.N) (hz : n = 0) :
    PhiS_3 V c n h = iprop((∃ r, prngReg c r) ∗ Pipeline.scopedRest spec3 c) := by subst hz; rfl
theorem PhiS_succ_3 (c : Dev nD) (n : ℕ) (hn : n < cfg3.N) :
    PhiS_3 V c (n + 1) hn = iprop(owns (c : Thread nD τ) scM_3 fullShare (accAt_3 V c n hn) ∗ Pipeline.scopedRestBut spec3 c [cc3_scratch0] ∗ (∃ r, prngReg c r)) := rfl
theorem PhiS_pos_3 (c : Dev nD) (n : ℕ) (h : n ≤ cfg3.N) (hz : n ≠ 0) :
    PhiS_3 V c n h = iprop(owns (c : Thread nD τ) scM_3 fullShare (accAt_3 V c (n - 1) (by omega)) ∗ Pipeline.scopedRestBut spec3 c [cc3_scratch0] ∗ (∃ r, prngReg c r)) := by
  cases n with
  | zero => exact absurd rfl hz
  | succ n => rfl

/-- The entry invariant with the accumulator split out of the scoped rest, owned as a whole memref at some contents. -/
theorem PhiS0_eq_3 (c : Dev nD) :
    (iprop((∃ r, prngReg c r) ∗ Pipeline.scopedRest spec3 c) : sProp 𝕄)
      = iprop((∃ r, prngReg c r) ∗ iprop((∃ d, owns (c : Thread nD τ) scM_3 fullShare d)) ∗ Pipeline.scopedRestBut spec3 c [cc3_scratch0]) := by
  rw [scopedRest3_split]; simp only [scM_3, owns_whole]; try rfl

def dat3 (c : Dev nD) : Dat τ (Elt F) Unit ℕ (UR sig nD τ) ℕ cfg3 c where
  A w := V c (Pipeline.arrRef spec3 w)
  after w t := match w with
    | ⟨0, _⟩ => iblk_3 V c 0 t
    | ⟨1, _⟩ => iblk_3 V c 1 t
    | ⟨2, _⟩ => outAt_3 V c t
  Φ t := PhiS_3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc_3 (c : Dev nD) (t : Fin cfg3.N) :
    (dat3 V c).Φ t.castSucc = PhiS_3 V c t.val (Nat.le_of_lt t.isLt) := by
  dsimp only [dat3]; simp only [Fin.coe_castSucc]

theorem after_3_0 (c : Dev nD) (t : Fin cfg3.N) : (dat3 V c).after 0 t = iblk_3 V c 0 t := by dsimp only [dat3]
theorem after_3_1 (c : Dev nD) (t : Fin cfg3.N) : (dat3 V c).after 1 t = iblk_3 V c 1 t := by dsimp only [dat3]
theorem after_3_2 (c : Dev nD) (t : Fin cfg3.N) : (dat3 V c).after 2 t = outAt_3 V c t := by dsimp only [dat3]

/-- Each input is fetched at every point: its current staging buffer holds its block. -/
theorem before_3_0 (c : Dev nD) (t : Fin cfg3.N) (d) : (dat3 V c).before 0 t d = iblk_3 V c 0 t :=
  ((dat3 V c).before_fetched 0 t (fetch3_0 t) d).trans (by unfold Dat.fetched Dat.blockOf iblk_3; rw [A_eq3]; try rfl)
theorem before_3_1 (c : Dev nD) (t : Fin cfg3.N) (d) : (dat3 V c).before 1 t d = iblk_3 V c 1 t :=
  ((dat3 V c).before_fetched 1 t (fetch3_1 t) d).trans (by unfold Dat.fetched Dat.blockOf iblk_3; rw [A_eq3]; try rfl)

/-! ## The body obligation -/

def bodyPre_3 (c : Dev nD) (t : Fin cfg3.N) : sProp 𝕄 :=
  iprop((dat3 V c).Φ t.castSucc ∗ (dat3 V c).owesAt () t.castSucc
    ∗ (∃ d, owns (c : Thread nD τ) (ms_3_0 t) fullShare ((dat3 V c).before 0 t d))
    ∗ (∃ d, owns (c : Thread nD τ) (ms_3_1 t) fullShare ((dat3 V c).before 1 t d))
    ∗ (∃ d, owns (c : Thread nD τ) (ms_3_2 t) fullShare ((dat3 V c).before 2 t d)))

def bodyPost_3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' buffers hold their blocks; the closed forms say which of the three cases the
    point is in; the invariant hands the body the accumulator at what the point before left (at anything at the
    first point, where it is reset before it is read) and takes it back at this point's contents; where the output
    block is idle its buffer is handed back as found, and at a last reduction index it ends with the accumulator's copy. -/
theorem sound_body_3 (c : Dev nD) (t : Fin cfg3.N) :
    bodyPre_3 V c t ⊢ wp frame (wpE (defs₀ (F := F)) Variants.none c none) Set.univ (bodyAt3 t) (fun _ => bodyPost_3 V c t) := by
  unfold bodyPre_3 bodyPost_3 bodyAt3
  simp only [before_3_0, before_3_1]
  rw [show (dat3 V c).owesAt () t.succ = (dat3 V c).owesAt () t.castSucc from rfl]
  rw [show (dat3 V c).Φ t.succ = PhiS_3 V c (t.val + 1) t.isLt from rfl, PhiS_succ_3]
  have hN : t.val < 100 := lt_of_lt_of_eq t.isLt (show cfg3.N = 100 from N_3)
  rw [show (dat3 V c).leavesExact 0 t = owns (c : Thread nD τ) (ms_3_0 t) fullShare ((dat3 V c).after 0 t) from by
    unfold Dat.leavesExact; rw [liveAt_3_0 t], after_3_0]
  rw [show (dat3 V c).leavesExact 1 t = owns (c : Thread nD τ) (ms_3_1 t) fullShare ((dat3 V c).after 1 t) from by
    unfold Dat.leavesExact; rw [liveAt_3_1 t], after_3_1]
  rw [accAt_step_3 V c t]
  by_cases h0 : t.val % 10 = 0
  · have hc1 := notLast_of_reset_3 t h0
    rw [Dat.leavesExact_idle (dat3 V c) 2 t (idleAt_3_2 t hc1) (noFlush_3_2 t hc1)]
    unfold stepAcc_3; rw [dif_pos h0]
    unfold soutA_3; (try dsimp only)
    by_cases hz : t.val = 0
    · rw [PhiS_castSucc_3 V c t, PhiS_zero_3 V c _ _ hz, PhiS0_eq_3]
      iintro ⟨⟨Hg, HS0, Hrest⟩, Ho, ⟨%d0, H0⟩, ⟨%d1, H1⟩, ⟨%d2, H2⟩⟩
      iapply ((kRunA_3 c (grid3.coords t) (ms_3_0 t) (hs_3_0 t) (ms_3_1 t) (hs_3_1 t) (ms_3_2 t) (hs_3_2 t) scM_3 (Memref.isWhole_whole _) ((hReset_3 t).mpr h0) hc1 (iblk_3 V c 0 t) (iblk_3 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_3 c _ _ _ _ _ _ _ _ _ _ _ _ _)
        isplitl [Hrest]; · iexact Hrest
        iexact Hg
      isplitl [Ho]; · iexact Ho
      isplitl [H0]; · iexact H0
      isplitl [H1]; · iexact H1
      iexists _; iexact H2
    · rw [PhiS_castSucc_3 V c t, PhiS_pos_3 V c _ _ hz]
      iintro ⟨⟨HS0, Hrest, Hg⟩, Ho, ⟨%d0, H0⟩, ⟨%d1, H1⟩, ⟨%d2, H2⟩⟩
      iapply ((kRunA_3 c (grid3.coords t) (ms_3_0 t) (hs_3_0 t) (ms_3_1 t) (hs_3_1 t) (ms_3_2 t) (hs_3_2 t) scM_3 (Memref.isWhole_whole _) ((hReset_3 t).mpr h0) hc1 (iblk_3 V c 0 t) (iblk_3 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_3 c _ _ _ _ _ _ _ _ _ _ _ _ _)
        isplitl [Hrest]; · iexact Hrest
        iexact Hg
      isplitl [Ho]; · iexact Ho
      isplitl [H0]; · iexact H0
      isplitl [H1]; · iexact H1
      iexists _; iexact H2
  · have hz : t.val ≠ 0 := fun e => h0 (by rw [e])
    have hc0 := notReset_3 t h0
    unfold stepAcc_3; rw [dif_neg h0]
    rw [accPrev_pos_3 V c t hz]
    by_cases h1 : t.val % 10 = 9
    · rw [show (dat3 V c).leavesExact 2 t = owns (c : Thread nD τ) (ms_3_2 t) fullShare ((dat3 V c).after 2 t) from by
        unfold Dat.leavesExact; rw [liveAt_3_2 t ((hLast_3 t).mpr h1)], after_3_2]
      unfold outAt_3; rw [dif_pos h1, dif_pos h1, accPrev_pos_3 V c t hz]
      unfold soutC_3 outC_3; (try dsimp only)
      rw [PhiS_castSucc_3 V c t, PhiS_pos_3 V c _ _ hz]
      iintro ⟨⟨HS0, Hrest, Hg⟩, Ho, ⟨%d0, H0⟩, ⟨%d1, H1⟩, ⟨%d2, H2⟩⟩
      iapply ((kRunC_3 c (grid3.coords t) (ms_3_0 t) (hs_3_0 t) (ms_3_1 t) (hs_3_1 t) (ms_3_2 t) (hs_3_2 t) scM_3 (Memref.isWhole_whole _) hc0 ((hLast_3 t).mpr h1) (iblk_3 V c 0 t) (iblk_3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0]
        · unfold owns; iexists _; isplitr
          swap; · iexact HS0
          ipureintro; exact View.read_writes_of_cover _ _ _ _ _ (scoverC_3 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_3 c _ _ _ _ _ _ _ _ _ _ _ _ _ _)
    · have hc1 := notLast_3 t h1
      rw [Dat.leavesExact_idle (dat3 V c) 2 t (idleAt_3_2 t hc1) (noFlush_3_2 t hc1)]
      rw [dif_neg h1]
      unfold soutB_3; (try dsimp only)
      rw [PhiS_castSucc_3 V c t, PhiS_pos_3 V c _ _ hz]
      iintro ⟨⟨HS0, Hrest, Hg⟩, Ho, ⟨%d0, H0⟩, ⟨%d1, H1⟩, ⟨%d2, H2⟩⟩
      iapply ((kRunB_3 c (grid3.coords t) (ms_3_0 t) (hs_3_0 t) (ms_3_1 t) (hs_3_1 t) (ms_3_2 t) (hs_3_2 t) scM_3 (Memref.isWhole_whole _) hc0 hc1 (iblk_3 V c 0 t) (iblk_3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverB_3 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body_3 V c t

theorem phi_in3 (c : Dev nD) : (iprop((∃ r, prngReg c r) ∗ Pipeline.scopedRest spec3 c) : sProp 𝕄) ⊢ (dat3 V c).Φ 0 := by
  rw [show (dat3 V c).Φ 0 = PhiS_3 V c 0 (Nat.zero_le _) from rfl, PhiS_zero_3 V c 0 _ rfl]
  try exact Idealize.SL.BI.Entails.refl _

theorem phi_out3 (c : Dev nD) : (dat3 V c).Φ (Fin.last _) ⊢ (iprop((∃ r, prngReg c r) ∗ Pipeline.scopedRest spec3 c) : sProp 𝕄) := by
  rw [show (dat3 V c).Φ (Fin.last _) = PhiS_3 V c (Fin.last cfg3.N).val (Nat.le_of_lt_succ (Fin.last cfg3.N).isLt) from rfl,
    PhiS_pos_3 V c _ _ (by rw [Fin.val_last]; have : cfg3.N = 100 := N_3; omega), PhiS0_eq_3]
  iintro ⟨HS0, Hrest, Hg⟩
  isplitl [Hg]; · iexact Hg
  isplitl [HS0]; · iexists _; iexact HS0
  iexact Hrest

end Cert.KernelIdeal.Hand
end
-- ==== Proof.KI.Reg4.lean ====
/- One Chebyshev propagation step with an affine tail, as a blocked matrix product over a 10 × 10 grid.
   At grid point (i, k), k the fast axis, the body adds to a 1024-row accumulator the product of block (i, k) of
   the 10240 × 10240 matrix with block k of the right factor (rounded to the matrix's format first); the accumulator
   is zeroed when k = 0, so after step k it holds (((0 + d 0) + d 1) + … ) + d k, d k the k-th partial product; when
   k = 9 the output's row block i receives 2 · accumulator + (−1) · (row block i of the addend). Off k = 9 the output's
   buffer is not touched. This file states, for every grid point, what the accumulator and the windows' buffers hold
   before and after the body (by recursion on the point), proves the body meets that description in each of the
   three cases (k = 0; 0 < k < 9; k = 9), and relates the invariant at the two ends of the grid to the scoped buffers
   the region is entered and left with. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The zero offsets of a whole-block rectangle of rank 2. -/
theorem hz_4 : (![0, 0] : Fin 2 → Nat) = fun _ => 0 := funext fun a => by fin_cases a <;> rfl

/-! ## The two conditions of the body, in closed form over the grid -/

/-- The body's first condition: the reduction coordinate is 0. -/
abbrev condZ_4 (i : grid4.Coords) : Prop := (Scalar.cmpi .ne (Scalar.extui (Scalar.cmpi .eq (BitVec.ofNat 32 (i 1).val) 0#32)) 0#32) = 1#1
theorem hcondZ_4 : ∀ t : Fin cfg4.N, condZ_4 (grid4.coords t) ↔ t.val % 10 = 0 :=
  (by decide +kernel : ∀ t : Fin grid4.N, condZ_4 (grid4.coords t) ↔ t.val % 10 = 0)
/-- The body's second condition: the reduction coordinate is 9, the last. -/
abbrev condL_4 (i : grid4.Coords) : Prop := k4_cond2 i = 1#1
theorem hcondL_4 : ∀ t : Fin cfg4.N, condL_4 (grid4.coords t) ↔ t.val % 10 = 9 :=
  (by decide +kernel : ∀ t : Fin grid4.N, condL_4 (grid4.coords t) ↔ t.val % 10 = 9)

/-- The inputs are never idle; the output is idle, and not written back, exactly off the last reduction step. -/
theorem live_4_0 : ∀ t : Fin cfg4.N, cfg4.idle 0 (grid4.coords t) = false := fun _ => rfl
theorem live_4_1 : ∀ t : Fin cfg4.N, cfg4.idle 1 (grid4.coords t) = false := fun _ => rfl
theorem live_4_2 : ∀ t : Fin cfg4.N, cfg4.idle 2 (grid4.coords t) = false := fun _ => rfl
theorem idle_4_3 : ∀ t : Fin cfg4.N, ¬condL_4 (grid4.coords t) → cfg4.idle 3 (grid4.coords t) = true := by decide +kernel
theorem noFlush_4_3 : ∀ t : Fin cfg4.N, ¬condL_4 (grid4.coords t) → (cfg4.win 3).flush t = false := by decide +kernel
theorem live_4_3 : ∀ t : Fin cfg4.N, condL_4 (grid4.coords t) → cfg4.idle 3 (grid4.coords t) = false := by decide +kernel

/-! ## The body on any whole staging memrefs, case by case -/

/-- One whole-block store leaves its payload: the read-back of a buffer after a list of writes whose last covers it. -/
theorem read_last_4 {sg : RefSig} {κ : Kind} {sp : Space} (v : View sg κ sp S1024x128 .f32) (f : v.ty.Contents (Elt F))
    (w : S1024x128.Idx → Elt F .f32) (L : List (View.Piece (Elt F) S1024x128 .f32)) :
    v.read (Elt F) (v.writes (Elt F) f ((⟨Rect.unit ![0, 0] S1024x128.size inb_S1024x128_S1024x128_0_0, w⟩ : View.Piece (Elt F) S1024x128 .f32) :: L)) = w := by
  rw [View.read_writes_eq_canon _ _ _ (fun y => ⟨_, List.mem_cons_self, View.mem_set_unit_zero hz_4 inb_S1024x128_S1024x128_0_0 y⟩),
    View.canon_cons_unit_zero hz_4]

set_option maxHeartbeats 1000000 in
/-- Reduction step 0 (not the last): the accumulator, whatever it held, is zeroed, then receives
    zero + block 0 · block 1; the addend's and the output's buffers are handed back untouched. -/
theorem run_4_A (c : Dev nD) (i : grid4.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : condZ_4 i) (hc1 : ¬condL_4 i)
    (x0 : Vec F S1024x1024 .bf16) (x1 : Vec F S1024x128 .f32) (x2 : Vec F S1024x128 .f32)
    (xi3 : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k4_pay2 x0 x1 (k4_pay1 (F := F)))) -∗ K ⟨⟩))
      ⊢ wp frame (wpE (defs₀ (F := F)) Variants.none c none) E (cc4__prop_affine_kernel i arg2 harg2 arg3 harg3 arg4 harg4 arg5 harg5 arg6 harg6) K := by
  simp only [cc4__prop_affine_kernel_eq_skeleton]; unfold cc4__prop_affine_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [read_last_4, View.readCov_unit_zero (S := S1024x128) _ hz_4]
  simp only [View.readAt_eq_ld, harg2.read_unread, harg3.read_unread,
    View.ld_unit_zero (S := S1024x1024) hz_4, View.ld_unit_zero (S := S1024x128) hz_4]

set_option maxHeartbeats 1000000 in
/-- A middle reduction step: the accumulator at `xs` receives `xs` + block 0 · block 1; the addend's and the
    output's buffers are handed back untouched. -/
theorem run_4_B (c : Dev nD) (i : grid4.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_4 i) (hc1 : ¬condL_4 i)
    (x0 : Vec F S1024x1024 .bf16) (x1 : Vec F S1024x128 .f32) (x2 : Vec F S1024x128 .f32)
    (xi3 : Vec F S1024x128 .f32) (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k4_pay2 x0 x1 xs)) -∗ K ⟨⟩))
      ⊢ wp frame (wpE (defs₀ (F := F)) Variants.none c none) E (cc4__prop_affine_kernel i arg2 harg2 arg3 harg3 arg4 harg4 arg5 harg5 arg6 harg6) K := by
  simp only [cc4__prop_affine_kernel_eq_skeleton]; unfold cc4__prop_affine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [read_last_4]
  simp only [View.readAt_eq_ld, harg2.read_unread, harg3.read_unread, harg6.read_unread,
    View.ld_unit_zero (S := S1024x1024) hz_4, View.ld_unit_zero (S := S1024x128) hz_4]

set_option maxHeartbeats 1000000 in
/-- The last reduction step: the accumulator at `xs` receives `xs` + block 0 · block 1, and the output block,
    whatever it held, receives 2 · (that sum) + (−1) · (the addend's block). -/
theorem run_4_C (c : Dev nD) (i : grid4.Coords)
    (arg2 : Memref sig .tc .vmem S1024x1024 .bf16) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x128 .f32) (harg6 : arg6.IsWhole)
    (hc0 : ¬condZ_4 i) (hc1 : condL_4 i)
    (x0 : Vec F S1024x1024 .bf16) (x1 : Vec F S1024x128 .f32) (x2 : Vec F S1024x128 .f32)
    (xs : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k4_pay3 (k4_pay2 x0 x1 xs) x2)
            ∗ owns (c : Thread nD τ) arg6 fullShare (k4_pay2 x0 x1 xs)) -∗ K ⟨⟩))
      ⊢ wp frame (wpE (defs₀ (F := F)) Variants.none c none) E (cc4__prop_affine_kernel i arg2 harg2 arg3 harg3 arg4 harg4 arg5 harg5 arg6 harg6) K := by
  simp only [cc4__prop_affine_kernel_eq_skeleton]; unfold cc4__prop_affine_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_last_4, View.readCov_unit_zero (S := S1024x128) _ hz_4]
    simp only [View.readAt_eq_ld, harg2.read_unread, harg3.read_unread, harg4.read_unread, harg6.read_unread,
      View.ld_unit_zero (S := S1024x1024) hz_4, View.ld_unit_zero (S := S1024x128) hz_4]
  iexists _; isplitr
  swap; · iexact HS
  ipureintro
  sl_unfold_words
  rw [read_last_4]
  simp only [View.readAt_eq_ld, harg2.read_unread, harg3.read_unread, harg6.read_unread,
    View.ld_unit_zero (S := S1024x1024) hz_4, View.ld_unit_zero (S := S1024x128) hz_4]

/-! ## The windows' blocks and the accumulator, point by point -/

/-- Window `w`'s block at point `t`, read off its array as the region finds it. -/
def iblk_4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging memrefs the pipeline passes at point `t`, and the scratch accumulator. -/
abbrev ms_4_0 (t : Fin cfg4.N) : Memref sig .tc .vmem S1024x1024 .bf16 := win4_0.stage (cfg4.slots t 0)
abbrev hs_4_0 (t : Fin cfg4.N) : (ms_4_0 t).IsWhole := hstage4_0 ((cfg4.slots t 0).cast nbuf4_0)
abbrev ms_4_1 (t : Fin cfg4.N) : Memref sig .tc .vmem S1024x128 .f32 := win4_1.stage (cfg4.slots t 1)
abbrev hs_4_1 (t : Fin cfg4.N) : (ms_4_1 t).IsWhole := hstage4_1 ((cfg4.slots t 1).cast nbuf4_1)
abbrev ms_4_2 (t : Fin cfg4.N) : Memref sig .tc .vmem S1024x128 .f32 := win4_2.stage (cfg4.slots t 2)
abbrev hs_4_2 (t : Fin cfg4.N) : (ms_4_2 t).IsWhole := hstage4_2 ((cfg4.slots t 2).cast nbuf4_2)
abbrev ms_4_3 (t : Fin cfg4.N) : Memref sig .tc .vmem S1024x128 .f32 := win4_3.stage (cfg4.slots t 3)
abbrev hs_4_3 (t : Fin cfg4.N) : (ms_4_3 t).IsWhole := hstage4_3 ((cfg4.slots t 3).cast nbuf4_3)
abbrev scM_4 : Memref sig .tc .vmem S1024x128 .f32 := Memref.whole cc4_scratch0

/-- THE ACCUMULATOR after the body at position `n`: at a first reduction step zero + (block 0 · block 1), at a later
    one what the step before left + (block 0 · block 1). -/
def accAt_4 (c : Dev nD) : (n : ℕ) → n < cfg4.N → Vec F S1024x128 .f32
  | 0, hn => k4_pay2 (iblk_4 V c 0 ⟨0, hn⟩) (iblk_4 V c 1 ⟨0, hn⟩) (k4_pay1 (F := F))
  | n + 1, hn =>
    if (n + 1) % 10 = 0 then k4_pay2 (iblk_4 V c 0 ⟨n + 1, hn⟩) (iblk_4 V c 1 ⟨n + 1, hn⟩) (k4_pay1 (F := F))
    else k4_pay2 (iblk_4 V c 0 ⟨n + 1, hn⟩) (iblk_4 V c 1 ⟨n + 1, hn⟩) (accAt_4 c n (Nat.lt_of_succ_lt hn))

theorem accAt_4_first (c : Dev nD) (t : Fin cfg4.N) (h0 : t.val % 10 = 0) :
    accAt_4 V c t.val t.isLt = k4_pay2 (iblk_4 V c 0 t) (iblk_4 V c 1 t) (k4_pay1 (F := F)) := by
  obtain ⟨n, hn⟩ := t
  cases n with
  | zero => rfl
  | succ n => exact if_pos h0

theorem accAt_4_next (c : Dev nD) (t : Fin cfg4.N) (h0 : ¬t.val % 10 = 0) :
    accAt_4 V c t.val t.isLt = k4_pay2 (iblk_4 V c 0 t) (iblk_4 V c 1 t)
      (accAt_4 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the scratch among
    the scoped buffers, at anything); afterwards the scratch at the accumulator the point before left, the other scoped
    buffers unopened, the generator register at some state. -/
def Phi_4 (c : Dev nD) : (n : ℕ) → n ≤ cfg4.N → sProp 𝕄
  | 0, _ => iprop((∃ r, prngReg c r) ∗ Pipeline.scopedRest spec4 c)
  | n + 1, hn => iprop(owns (c : Thread nD τ) scM_4 fullShare (accAt_4 V c n hn)
      ∗ Pipeline.scopedRestBut spec4 c [cc4_scratch0] ∗ (∃ r, prngReg c r))

theorem Phi_4_zero (c : Dev nD) (n : ℕ) (h : n ≤ cfg4.N) (hz : n = 0) :
    Phi_4 V c n h = iprop((∃ r, prngReg c r) ∗ Pipeline.scopedRest spec4 c) := by
  subst hz; rfl

theorem Phi_4_succ (c : Dev nD) (n : ℕ) (hn : n < cfg4.N) :
    Phi_4 V c (n + 1) hn = iprop(owns (c : Thread nD τ) scM_4 fullShare (accAt_4 V c n hn)
      ∗ Pipeline.scopedRestBut spec4 c [cc4_scratch0] ∗ (∃ r, prngReg c r)) := rfl

theorem Phi_4_pos (c : Dev nD) (n : ℕ) (h : n ≤ cfg4.N) (hz : n ≠ 0) :
    Phi_4 V c n h = iprop(owns (c : Thread nD τ) scM_4 fullShare (accAt_4 V c (n - 1) (by omega))
      ∗ Pipeline.scopedRestBut spec4 c [cc4_scratch0] ∗ (∃ r, prngReg c r)) := by
  cases n with
  | zero => exact absurd rfl hz
  | succ n => rfl

/-- What the launch hands over, with the scratch split out of the scoped buffers and owned at some contents. -/
theorem Phi0_4_eq (c : Dev nD) :
    (iprop((∃ r, prngReg c r) ∗ Pipeline.scopedRest spec4 c) : sProp 𝕄)
      = iprop((∃ r, prngReg c r) ∗ iprop((∃ d, owns (c : Thread nD τ) scM_4 fullShare d))
          ∗ Pipeline.scopedRestBut spec4 c [cc4_scratch0]) := by
  rw [scopedRest4_split]; simp only [scM_4, owns_whole]; rfl

/-! ## The proof data -/

def dat4 (c : Dev nD) : Dat τ (Elt F) Unit ℕ (UR sig nD τ) ℕ cfg4 c where
  A w := V c (Pipeline.arrRef spec4 w)
  after w t := match w with
    | ⟨0, _⟩ => iblk_4 V c 0 t
    | ⟨1, _⟩ => iblk_4 V c 1 t
    | ⟨2, _⟩ => iblk_4 V c 2 t
    | ⟨3, _⟩ => k4_pay3 (accAt_4 V c t.val t.isLt) (iblk_4 V c 2 t)
  Φ t := Phi_4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi_4_castSucc (c : Dev nD) (t : Fin cfg4.N) :
    (dat4 V c).Φ t.castSucc = Phi_4 V c t.val (Nat.le_of_lt t.isLt) := by
  dsimp only [dat4]; simp only [Fin.coe_castSucc]

theorem after_4_0 (c : Dev nD) (t : Fin cfg4.N) : (dat4 V c).after 0 t = iblk_4 V c 0 t := by dsimp only [dat4]
theorem after_4_1 (c : Dev nD) (t : Fin cfg4.N) : (dat4 V c).after 1 t = iblk_4 V c 1 t := by dsimp only [dat4]
theorem after_4_2 (c : Dev nD) (t : Fin cfg4.N) : (dat4 V c).after 2 t = iblk_4 V c 2 t := by dsimp only [dat4]
theorem after_4_3 (c : Dev nD) (t : Fin cfg4.N) :
    (dat4 V c).after 3 t = k4_pay3 (accAt_4 V c t.val t.isLt) (iblk_4 V c 2 t) := by dsimp only [dat4]

/-- Each input's current staging buffer holds its block at every point, fetched there or not (unfetched, the block
    index has not moved). -/
theorem before_4_0 (c : Dev nD) (t : Fin cfg4.N) (d) : (dat4 V c).before 0 t d = iblk_4 V c 0 t :=
  ((dat4 V c).before_in_eq_fetched 0 rfl (fun _ => rfl) (fun _ _ _ => rfl)
    (fun t => by rw [after_4_0]; unfold Dat.blockOf iblk_4; rw [A_eq4]; try rfl) t d).trans
    (by unfold Dat.fetched Dat.blockOf iblk_4; rw [A_eq4]; try rfl)
theorem before_4_1 (c : Dev nD) (t : Fin cfg4.N) (d) : (dat4 V c).before 1 t d = iblk_4 V c 1 t :=
  ((dat4 V c).before_in_eq_fetched 1 rfl (fun _ => rfl) (fun _ _ _ => rfl)
    (fun t => by rw [after_4_1]; unfold Dat.blockOf iblk_4; rw [A_eq4]; try rfl) t d).trans
    (by unfold Dat.fetched Dat.blockOf iblk_4; rw [A_eq4]; try rfl)
theorem before_4_2 (c : Dev nD) (t : Fin cfg4.N) (d) : (dat4 V c).before 2 t d = iblk_4 V c 2 t :=
  ((dat4 V c).before_in_eq_fetched 2 rfl (fun _ => rfl) (fun _ _ _ => rfl)
    (fun t => by rw [after_4_2]; unfold Dat.blockOf iblk_4; rw [A_eq4]; try rfl) t d).trans
    (by unfold Dat.fetched Dat.blockOf iblk_4; rw [A_eq4]; try rfl)

/-! ## The body obligation -/

def bodyPre_4 (c : Dev nD) (t : Fin cfg4.N) : sProp 𝕄 :=
  iprop((dat4 V c).Φ t.castSucc ∗ (dat4 V c).owesAt () t.castSucc
    ∗ (∃ d, owns (c : Thread nD τ) (ms_4_0 t) fullShare ((dat4 V c).before 0 t d))
    ∗ (∃ d, owns (c : Thread nD τ) (ms_4_1 t) fullShare ((dat4 V c).before 1 t d))
    ∗ (∃ d, owns (c : Thread nD τ) (ms_4_2 t) fullShare ((dat4 V c).before 2 t d))
    ∗ (∃ d, owns (c : Thread nD τ) (ms_4_3 t) fullShare ((dat4 V c).before 3 t d)))

def bodyPost_4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the closed forms say which of the three cases the
    point is in; the invariant hands the body the accumulator at what the step before left (at anything where the
    reduction restarts) and takes it back at this point's; off the last reduction step the output's buffer is handed
    back untouched. -/
theorem sound_body_4 (c : Dev nD) (t : Fin cfg4.N) :
    bodyPre_4 V c t ⊢ wp frame (wpE (defs₀ (F := F)) Variants.none c none) Set.univ (bodyAt4 t) (fun _ => bodyPost_4 V c t) := by
  unfold bodyPre_4 bodyPost_4 bodyAt4
  simp only [before_4_0, before_4_1, before_4_2]
  rw [show (dat4 V c).owesAt () t.succ = (dat4 V c).owesAt () t.castSucc from rfl]
  rw [show (dat4 V c).Φ t.succ = Phi_4 V c (t.val + 1) t.isLt from rfl, Phi_4_succ]
  have hN : t.val < 100 := lt_of_lt_of_eq t.isLt (show cfg4.N = 100 from N_4)
  rw [show (dat4 V c).leavesExact 0 t = owns (c : Thread nD τ) (ms_4_0 t) fullShare ((dat4 V c).after 0 t) from by
    unfold Dat.leavesExact; rw [live_4_0 t], after_4_0]
  rw [show (dat4 V c).leavesExact 1 t = owns (c : Thread nD τ) (ms_4_1 t) fullShare ((dat4 V c).after 1 t) from by
    unfold Dat.leavesExact; rw [live_4_1 t], after_4_1]
  rw [show (dat4 V c).leavesExact 2 t = owns (c : Thread nD τ) (ms_4_2 t) fullShare ((dat4 V c).after 2 t) from by
    unfold Dat.leavesExact; rw [live_4_2 t], after_4_2]
  by_cases h1 : t.val % 10 = 9
  · have h0 : ¬t.val % 10 = 0 := by omega
    have hz : t.val ≠ 0 := by omega
    rw [show (dat4 V c).leavesExact 3 t = owns (c : Thread nD τ) (ms_4_3 t) fullShare ((dat4 V c).after 3 t) from by
      unfold Dat.leavesExact; rw [live_4_3 t ((hcondL_4 t).mpr h1)], after_4_3]
    rw [accAt_4_next V c t h0]
    rw [Phi_4_castSucc V c t, Phi_4_pos V c _ _ hz]
    iintro ⟨⟨HS, HR, Hg⟩, Ho, ⟨%d0, H0⟩, ⟨%d1, H1⟩, ⟨%d2, H2⟩, ⟨%d3, H3⟩⟩
    iapply (run_4_C c (grid4.coords t) _ (hs_4_0 t) _ (hs_4_1 t) _ (hs_4_2 t) _ (hs_4_3 t) scM_4 (Memref.isWhole_whole _)
      (fun h => h0 ((hcondZ_4 t).mp h)) ((hcondL_4 t).mpr h1) (iblk_4 V c 0 t) (iblk_4 V c 1 t) (iblk_4 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat4 V c) 3 t (idle_4_3 t (fun h => h1 ((hcondL_4 t).mp h))) (noFlush_4_3 t (fun h => h1 ((hcondL_4 t).mp h)))]
    by_cases h0 : t.val % 10 = 0
    · rw [accAt_4_first V c t h0]
      by_cases hz : t.val = 0
      · rw [Phi_4_castSucc V c t, Phi_4_zero V c _ _ hz, Phi0_4_eq]
        iintro ⟨⟨Hg, HS, HR⟩, Ho, ⟨%d0, H0⟩, ⟨%d1, H1⟩, ⟨%d2, H2⟩, ⟨%d3, H3⟩⟩
        iapply (run_4_A c (grid4.coords t) _ (hs_4_0 t) _ (hs_4_1 t) _ (hs_4_2 t) _ (hs_4_3 t) scM_4 (Memref.isWhole_whole _)
          ((hcondZ_4 t).mpr h0) (fun h => h1 ((hcondL_4 t).mp h)) (iblk_4 V c 0 t) (iblk_4 V c 1 t) (iblk_4 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi_4_castSucc V c t, Phi_4_pos V c _ _ hz]
        iintro ⟨⟨HS, HR, Hg⟩, Ho, ⟨%d0, H0⟩, ⟨%d1, H1⟩, ⟨%d2, H2⟩, ⟨%d3, H3⟩⟩
        iapply (run_4_A c (grid4.coords t) _ (hs_4_0 t) _ (hs_4_1 t) _ (hs_4_2 t) _ (hs_4_3 t) scM_4 (Memref.isWhole_whole _)
          ((hcondZ_4 t).mpr h0) (fun h => h1 ((hcondL_4 t).mp h)) (iblk_4 V c 0 t) (iblk_4 V c 1 t) (iblk_4 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_4_next V c t h0]
      rw [Phi_4_castSucc V c t, Phi_4_pos V c _ _ hz]
      iintro ⟨⟨HS, HR, Hg⟩, Ho, ⟨%d0, H0⟩, ⟨%d1, H1⟩, ⟨%d2, H2⟩, ⟨%d3, H3⟩⟩
      iapply (run_4_B c (grid4.coords t) _ (hs_4_0 t) _ (hs_4_1 t) _ (hs_4_2 t) _ (hs_4_3 t) scM_4 (Memref.isWhole_whole _)
        (fun h => h0 ((hcondZ_4 t).mp h)) (fun h => h1 ((hcondL_4 t).mp h)) (iblk_4 V c 0 t) (iblk_4 V c 1 t) (iblk_4 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body_4 V c t

theorem phi_in4 (c : Dev nD) : (iprop((∃ r, prngReg c r) ∗ Pipeline.scopedRest spec4 c) : sProp 𝕄) ⊢ (dat4 V c).Φ 0 := by
  rw [show (dat4 V c).Φ 0 = Phi_4 V c 0 (Nat.zero_le _) from rfl, Phi_4_zero V c 0 _ rfl]
  try exact Idealize.SL.BI.Entails.refl _

theorem phi_out4 (c : Dev nD) : (dat4 V c).Φ (Fin.last _) ⊢ (iprop((∃ r, prngReg c r) ∗ Pipeline.scopedRest spec4 c) : sProp 𝕄) := by
  rw [show (dat4 V c).Φ (Fin.last _) = Phi_4 V c (Fin.last cfg4.N).val (Nat.le_of_lt_succ (Fin.last cfg4.N).isLt) from rfl,
    Phi_4_pos V c _ _ (by rw [Fin.val_last]; have : cfg4.N = 100 := N_4; omega), Phi0_4_eq]
  iintro ⟨HS, HR, Hg⟩
  isplitl [Hg]; · iexact Hg
  isplitl [HS]; · iexists _; iexact HS
  iexact HR

end Cert.KernelIdeal.Hand
end
-- ==== Proof.KI.Reg5.lean ====
/- Region 5: one row block of the left factor times the whole right factor, accumulated from zero, plus the
   bias row broadcast down the rows, then the maximum with zero; the result is stored whole into the output row block.
   Nothing is carried from one grid point to the next. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5 -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each block whole -/

abbrev r5_0 : Rect S1024x384 := Rect.unit (s := S1024x384) ![0, 0] S1024x384.size inb_S1024x384_S1024x384_0_0
abbrev r5_1 : Rect S384x256 := Rect.unit (s := S384x256) ![0, 0] S384x256.size inb_S384x256_S384x256_0_0
abbrev r5_2 : Rect S1x256 := Rect.unit (s := S1x256) ![0, 0] S1x256.size inb_S1x256_S1x256_0_0
abbrev r5_3 : Rect S1024x256 := Rect.unit (s := S1024x256) ![0, 0] S1024x256.size inb_S1024x256_S1024x256_0_0

/-- The output block after the body, from the three input blocks: its one store as a piece. -/
def out5_3 (x0 : Vec F S1024x384 .f32) (x1 : Vec F S384x256 .f32) (x2 : Vec F S1x256 .f32) : Vec F S1024x256 .f32 :=
  View.canon [⟨r5_3, k5_pay1 (View.ld x0 r5_0) (View.ld x1 r5_1) (View.ld x2 r5_2)⟩]

/-- The one store covers the output block. -/
theorem cover5_3 (p0 : Vec F S1024x256 .f32) (y : S1024x256.Idx) :
    ∃ pc ∈ ([⟨r5_3, p0⟩] : List (View.Piece (Elt F) S1024x256 .f32)), y ∈ pc.1.set :=
  View.cover_of_tiled [⟨r5_3, p0⟩] S1024x256.size (by rfl) y

set_option maxHeartbeats 1000000 in
/-- The body on whole staging memrefs, the inputs at contents `x0 x1 x2` and the output at anything, runs to the
    continuation holding the inputs as they were and the output at `out5_3` of the inputs. -/
theorem sound_kernel5 (c : Dev nD) (E : Set ℕ) (i : grid5.Coords) (arg1 : Memref sig .tc .vmem S1024x384 .f32) (harg1 : arg1.IsWhole) (arg2 : Memref sig .tc .vmem S384x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x384 .f32) (x1 : Vec F S384x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__mm_bias_kernel i arg1 harg1 arg2 harg2 arg3 harg3 arg4 harg4) K := by
  simp only [cc5__mm_bias_kernel_eq_skeleton]; unfold cc5__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The proof data -/

/-- The arrays as the region finds them; after the body each input's buffer at its block and the output's at
    `out5_3` of the input blocks; the invariant is the untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

/-! ## The invariant at the region's ends -/

theorem phi_in5 (c : Dev nD) : (iprop((∃ r, prngReg c r) ∗ Pipeline.scopedRest spec5 c) : sProp 𝕄) ⊢ (dat5 V c).Φ 0 := by
  show _ ⊢ Pipeline.ΦA spec5 c
  unfold Pipeline.ΦA
  iintro ⟨H1, H2⟩
  isplitl [H2]; · iexact H2
  iexact H1

theorem phi_out5 (c : Dev nD) : (dat5 V c).Φ (Fin.last _) ⊢ (iprop((∃ r, prngReg c r) ∗ Pipeline.scopedRest spec5 c) : sProp 𝕄) := by
  show Pipeline.ΦA spec5 c ⊢ _
  unfold Pipeline.ΦA
  iintro ⟨H1, H2⟩
  isplitl [H2]; · iexact H2
  iexact H1

end Cert.KernelIdeal.Hand
end
-- ==== Proof.KI.Reg6.lean ====
/- One propagation product of the Chebyshev stack, blocked: the [10240, 10240] matrix times a [10240, Fw] right factor,
   over a 10 × 10 grid of points (i, k), k fastest. At the point (i, k) the body adds to an f32 accumulator the product of
   block (i, k) of the matrix with block k of the right factor rounded to bf16; the accumulator is zeroed at k = 0 and
   copied into row block i of the result at k = 9. The accumulator after (i, k) is therefore the in-order sum
   (((0 + d 0) + d 1) + … + d k) of the block products d j of row block i, and row block i of the result is that sum at
   k = 9. Stated here: the proof data of the region (what each window's buffer holds after each point, the invariant
   carrying the accumulator at that sum), the body's obligation at every point by the three cases k = 0, 0 < k < 9,
   k = 9, and how the invariant meets what the region is entered with and gives it back. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The two conditions of the body, in closed form over the grid -/

/-- The first conditional (the reduction index is 0: the accumulator is reset). -/
abbrev cReset_6 (i : grid6.Coords) : Prop := (Scalar.cmpi .ne (Scalar.extui (Scalar.cmpi .eq (BitVec.ofNat 32 (i 1).val) 0#32)) 0#32) = 1#1
theorem hReset_6 : ∀ t : Fin cfg6.N, cReset_6 (grid6.coords t) ↔ t.val % 10 = 0 :=
  (by decide +kernel : ∀ t : Fin grid6.N, cReset_6 (grid6.coords t) ↔ t.val % 10 = 0)
/-- The second conditional (the reduction index is 9: the accumulator is copied to the output block). -/
abbrev cLast_6 (i : grid6.Coords) : Prop := k6_cond2 i = 1#1
theorem hLast_6 : ∀ t : Fin cfg6.N, cLast_6 (grid6.coords t) ↔ t.val % 10 = 9 :=
  (by decide +kernel : ∀ t : Fin grid6.N, cLast_6 (grid6.coords t) ↔ t.val % 10 = 9)

/-- The inputs are never idle; the output block is idle, and not written back, exactly off the last reduction index. -/
theorem liveAt_6_0 : ∀ t : Fin cfg6.N, cfg6.idle 0 (grid6.coords t) = false := by decide +kernel
theorem liveAt_6_1 : ∀ t : Fin cfg6.N, cfg6.idle 1 (grid6.coords t) = false := by decide +kernel
theorem idleAt_6_2 : ∀ t : Fin cfg6.N, ¬cLast_6 (grid6.coords t) → cfg6.idle 2 (grid6.coords t) = true := by decide +kernel
theorem noFlush_6_2 : ∀ t : Fin cfg6.N, ¬cLast_6 (grid6.coords t) → (cfg6.win 2).flush t = false := by decide +kernel
theorem liveAt_6_2 : ∀ t : Fin cfg6.N, cLast_6 (grid6.coords t) → cfg6.idle 2 (grid6.coords t) = false := by decide +kernel

/-- The staging memrefs at a point, as the pipeline passes them, and the scratch accumulator. -/
abbrev ms_6_0 (t : Fin cfg6.N) : Memref sig .tc .vmem S1024x1024 .bf16 := win6_0.stage (cfg6.slots t 0)
abbrev hs_6_0 (t : Fin cfg6.N) : (ms_6_0 t).IsWhole := hstage6_0 ((cfg6.slots t 0).cast nbuf6_0)
abbrev ms_6_1 (t : Fin cfg6.N) : Memref sig .tc .vmem S1024x256 .f32 := win6_1.stage (cfg6.slots t 1)
abbrev hs_6_1 (t : Fin cfg6.N) : (ms_6_1 t).IsWhole := hstage6_1 ((cfg6.slots t 1).cast nbuf6_1)
abbrev ms_6_2 (t : Fin cfg6.N) : Memref sig .tc .vmem S1024x256 .f32 := win6_2.stage (cfg6.slots t 2)
abbrev hs_6_2 (t : Fin cfg6.N) : (ms_6_2 t).IsWhole := hstage6_2 ((cfg6.slots t 2).cast nbuf6_2)
abbrev scM_6 : Memref sig .tc .vmem S1024x256 .f32 := Memref.whole cc6_scratch0
abbrev VS_6 : View sig .tc .vmem S1024x256 .f32 := (scM_6).view
abbrev VO_6 : View sig .tc .vmem S1024x256 .f32 := (Memref.whole cc6_stg2_0 : Memref sig .tc .vmem S1024x256 .f32).view

set_option maxHeartbeats 1000000 in
/-- The body at the first reduction index, not the last: the accumulator, at anything, is overwritten whole with zeros and
    then with zero plus the block product; the inputs and the (idle) output buffer are handed back as found. -/
noncomputable def kRunA_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i)
    (x0 : Vec F S1024x1024 .bf16) (x1 : Vec F S1024x256 .f32) :
    { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc6__prop_plain_kernel i arg2 harg2 arg3 harg3 arg4 harg4 arg5 harg5) K } := by
  refine ⟨?_, fun xi2 E K => ?run⟩
  case run =>
    simp only [cc6__prop_plain_kernel_eq_skeleton]; unfold cc6__prop_plain_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at a middle reduction index: the accumulator, at what the point before left, gains the block product. -/
noncomputable def kRunB_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i)
    (x0 : Vec F S1024x1024 .bf16) (x1 : Vec F S1024x256 .f32) (xs : Vec F S1024x256 .f32) :
    { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc6__prop_plain_kernel i arg2 harg2 arg3 harg3 arg4 harg4 arg5 harg5) K } := by
  refine ⟨?_, fun xi2 E K => ?run⟩
  case run =>
    simp only [cc6__prop_plain_kernel_eq_skeleton]; unfold cc6__prop_plain_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The body at the last reduction index: the accumulator gains the block product and is then copied whole into the
    output block's buffer (which held anything). -/
noncomputable def kRunC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i)
    (x0 : Vec F S1024x1024 .bf16) (x1 : Vec F S1024x256 .f32) (xs : Vec F S1024x256 .f32) :
    Σ' (L2 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc6__prop_plain_kernel i arg2 harg2 arg3 harg3 arg4 harg4 arg5 harg5) K } := by
  refine ⟨?_, ?_, fun E K => ?run⟩
  case run =>
    simp only [cc6__prop_plain_kernel_eq_skeleton]; unfold cc6__prop_plain_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the accumulator and in the output block's buffer -/

theorem scoverA_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i) (x0 : Vec F S1024x1024 .bf16) (x1 : Vec F S1024x256 .f32) (y : S1024x256.Idx) :
    ∃ pc ∈ (kRunA_6 c i arg2 harg2 arg3 harg3 arg4 harg4 arg5 harg5 hc0 hc1 x0 x1).1, y ∈ pc.1.set :=
  View.cover_of_tiledL (kRunA_6 c i arg2 harg2 arg3 harg3 arg4 harg4 arg5 harg5 hc0 hc1 x0 x1).1 S1024x256.size (by sl_kernel_rfl) y
def soutA_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i) (x0 : Vec F S1024x1024 .bf16) (x1 : Vec F S1024x256 .f32) : Vec F S1024x256 .f32 :=
  VS_6.read (Elt F) (VS_6.writes (Elt F) VS_6.junk (kRunA_6 c i arg2 harg2 arg3 harg3 arg4 harg4 arg5 harg5 hc0 hc1 x0 x1).1)

theorem scoverB_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i) (x0 : Vec F S1024x1024 .bf16) (x1 xs : Vec F S1024x256 .f32) (y : S1024x256.Idx) :
    ∃ pc ∈ (kRunB_6 c i arg2 harg2 arg3 harg3 arg4 harg4 arg5 harg5 hc0 hc1 x0 x1 xs).1, y ∈ pc.1.set :=
  View.cover_of_tiledL (kRunB_6 c i arg2 harg2 arg3 harg3 arg4 harg4 arg5 harg5 hc0 hc1 x0 x1 xs).1 S1024x256.size (by sl_kernel_rfl) y
def soutB_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i) (x0 : Vec F S1024x1024 .bf16) (x1 xs : Vec F S1024x256 .f32) : Vec F S1024x256 .f32 :=
  VS_6.read (Elt F) (VS_6.writes (Elt F) VS_6.junk (kRunB_6 c i arg2 harg2 arg3 harg3 arg4 harg4 arg5 harg5 hc0 hc1 x0 x1 xs).1)

theorem scoverC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) (y : S1024x256.Idx) :
    ∃ pc ∈ (kRunC_6 c i arg2 harg2 arg3 harg3 arg4 harg4 arg5 harg5 hc0 hc1 x0 x1 xs).2.1, y ∈ pc.1.set :=
  View.cover_of_tiledL (kRunC_6 c i arg2 harg2 arg3 harg3 arg4 harg4 arg5 harg5 hc0 hc1 x0 x1 xs).2.1 S1024x256.size (by sl_kernel_rfl) y
def soutC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) : Vec F S1024x256 .f32 :=
  VS_6.read (Elt F) (VS_6.writes (Elt F) VS_6.junk (kRunC_6 c i arg2 harg2 arg3 harg3 arg4 harg4 arg5 harg5 hc0 hc1 x0 x1 xs).2.1)
theorem coverC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) (y : S1024x256.Idx) :
    ∃ pc ∈ (kRunC_6 c i arg2 harg2 arg3 harg3 arg4 harg4 arg5 harg5 hc0 hc1 x0 x1 xs).1, y ∈ pc.1.set :=
  View.cover_of_tiledL (kRunC_6 c i arg2 harg2 arg3 harg3 arg4 harg4 arg5 harg5 hc0 hc1 x0 x1 xs).1 S1024x256.size (by sl_kernel_rfl) y
def outC_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) : Vec F S1024x256 .f32 :=
  VO_6.read (Elt F) (VO_6.writes (Elt F) VO_6.junk (kRunC_6 c i arg2 harg2 arg3 harg3 arg4 harg4 arg5 harg5 hc0 hc1 x0 x1 xs).1)

theorem notLast_of_reset_6 (t : Fin cfg6.N) (h0 : t.val % 10 = 0) : ¬cLast_6 (grid6.coords t) :=
  fun h => by have h9 := (hLast_6 t).mp h; omega
theorem notReset_6 (t : Fin cfg6.N) (h0 : ¬t.val % 10 = 0) : ¬cReset_6 (grid6.coords t) := fun h => h0 ((hReset_6 t).mp h)
theorem notLast_6 (t : Fin cfg6.N) (h1 : ¬t.val % 10 = 9) : ¬cLast_6 (grid6.coords t) := fun h => h1 ((hLast_6 t).mp h)
theorem notReset_of_last_6 (t : Fin cfg6.N) (h1 : t.val % 10 = 9) : ¬cReset_6 (grid6.coords t) :=
  fun h => by have h0 := (hReset_6 t).mp h; omega

/-! ## The windows' blocks and the accumulator point by point -/

/-- Window `w`'s block at point `t`, read off its array as the region finds it. -/
def iblk_6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- One point's step of the accumulator: from what the point before left (`prev`, not read at a first reduction index). -/
def stepAcc_6 (c : Dev nD) (t : Fin cfg6.N) (prev : Vec F S1024x256 .f32) : Vec F S1024x256 .f32 :=
  if h0 : t.val % 10 = 0 then
    soutA_6 c (grid6.coords t) (ms_6_0 t) (hs_6_0 t) (ms_6_1 t) (hs_6_1 t) (ms_6_2 t) (hs_6_2 t) scM_6 (Memref.isWhole_whole _) ((hReset_6 t).mpr h0) (notLast_of_reset_6 t h0) (iblk_6 V c 0 t) (iblk_6 V c 1 t)
  else if h1 : t.val % 10 = 9 then
    soutC_6 c (grid6.coords t) (ms_6_0 t) (hs_6_0 t) (ms_6_1 t) (hs_6_1 t) (ms_6_2 t) (hs_6_2 t) scM_6 (Memref.isWhole_whole _) (notReset_6 t h0) ((hLast_6 t).mpr h1) (iblk_6 V c 0 t) (iblk_6 V c 1 t) prev
  else
    soutB_6 c (grid6.coords t) (ms_6_0 t) (hs_6_0 t) (ms_6_1 t) (hs_6_1 t) (ms_6_2 t) (hs_6_2 t) scM_6 (Memref.isWhole_whole _) (notReset_6 t h0) (notLast_6 t h1) (iblk_6 V c 0 t) (iblk_6 V c 1 t) prev

/-- THE ACCUMULATION: what the accumulator holds after the body at position `n` — for the point (i, k), zero plus the
    first k + 1 block products of row block i, summed in order. -/
def accAt_6 (c : Dev nD) : (n : ℕ) → n < cfg6.N → Vec F S1024x256 .f32
  | 0, hn => stepAcc_6 V c ⟨0, hn⟩ (VS_6.read (Elt F) VS_6.junk)
  | n + 1, hn => stepAcc_6 V c ⟨n + 1, hn⟩ (accAt_6 c n (Nat.lt_of_succ_lt hn))

/-- What the point before `t` left in the accumulator (anything readable before the first point). -/
def accPrev_6 (c : Dev nD) (t : Fin cfg6.N) : Vec F S1024x256 .f32 :=
  if hz : t.val = 0 then VS_6.read (Elt F) VS_6.junk
  else accAt_6 V c (t.val - 1) (Nat.lt_of_le_of_lt (Nat.sub_le _ _) t.isLt)

theorem accAt_step_6 (c : Dev nD) (t : Fin cfg6.N) : accAt_6 V c t.val t.isLt = stepAcc_6 V c t (accPrev_6 V c t) := by
  obtain ⟨n, hn⟩ := t
  cases n with
  | zero => unfold accPrev_6; rw [dif_pos rfl]; rfl
  | succ n => unfold accPrev_6; rw [dif_neg (Nat.succ_ne_zero n)]; rfl

theorem accPrev_pos_6 (c : Dev nD) (t : Fin cfg6.N) (hz : t.val ≠ 0) :
    accPrev_6 V c t = accAt_6 V c (t.val - 1) (Nat.lt_of_le_of_lt (Nat.sub_le _ _) t.isLt) := by
  unfold accPrev_6; rw [dif_neg hz]

/-- What the output block's buffer holds after the body at `t`: at a last reduction index the accumulator's final
    contents, copied; elsewhere the buffer is idle and this value is consulted by nothing. -/
def outAt_6 (c : Dev nD) (t : Fin cfg6.N) : Vec F S1024x256 .f32 :=
  if h1 : t.val % 10 = 9 then
    outC_6 c (grid6.coords t) (ms_6_0 t) (hs_6_0 t) (ms_6_1 t) (hs_6_1 t) (ms_6_2 t) (hs_6_2 t) scM_6 (Memref.isWhole_whole _) (notReset_of_last_6 t h1) ((hLast_6 t).mpr h1) (iblk_6 V c 0 t) (iblk_6 V c 1 t) (accPrev_6 V c t)
  else accAt_6 V c t.val t.isLt

/-! ## The invariant and the proof data -/

/-- Before the first point: the generator register and the scoped buffers no window stages, as the region is entered.
    Afterwards: the accumulator at what the point before left, the other such buffers unopened, the register. -/
def PhiS_6 (c : Dev nD) : (n : ℕ) → n ≤ cfg6.N → sProp 𝕄
  | 0, _ => iprop((∃ r, prngReg c r) ∗ Pipeline.scopedRest spec6 c)
  | n + 1, hn => iprop(owns (c : Thread nD τ) scM_6 fullShare (accAt_6 V c n hn) ∗ Pipeline.scopedRestBut spec6 c [cc6_scratch0] ∗ (∃ r, prngReg c r))

theorem PhiS_zero_6 (c : Dev nD) (n : ℕ) (h : n ≤ cfg6.N) (hz : n = 0) :
    PhiS_6 V c n h = iprop((∃ r, prngReg c r) ∗ Pipeline.scopedRest spec6 c) := by subst hz; rfl
theorem PhiS_succ_6 (c : Dev nD) (n : ℕ) (hn : n < cfg6.N) :
    PhiS_6 V c (n + 1) hn = iprop(owns (c : Thread nD τ) scM_6 fullShare (accAt_6 V c n hn) ∗ Pipeline.scopedRestBut spec6 c [cc6_scratch0] ∗ (∃ r, prngReg c r)) := rfl
theorem PhiS_pos_6 (c : Dev nD) (n : ℕ) (h : n ≤ cfg6.N) (hz : n ≠ 0) :
    PhiS_6 V c n h = iprop(owns (c : Thread nD τ) scM_6 fullShare (accAt_6 V c (n - 1) (by omega)) ∗ Pipeline.scopedRestBut spec6 c [cc6_scratch0] ∗ (∃ r, prngReg c r)) := by
  cases n with
  | zero => exact absurd rfl hz
  | succ n => rfl

/-- The entry invariant with the accumulator split out of the scoped rest, owned as a whole memref at some contents. -/
theorem PhiS0_eq_6 (c : Dev nD) :
    (iprop((∃ r, prngReg c r) ∗ Pipeline.scopedRest spec6 c) : sProp 𝕄)
      = iprop((∃ r, prngReg c r) ∗ iprop((∃ d, owns (c : Thread nD τ) scM_6 fullShare d)) ∗ Pipeline.scopedRestBut spec6 c [cc6_scratch0]) := by
  rw [scopedRest6_split]; simp only [scM_6, owns_whole]; try rfl

def dat6 (c : Dev nD) : Dat τ (Elt F) Unit ℕ (UR sig nD τ) ℕ cfg6 c where
  A w := V c (Pipeline.arrRef spec6 w)
  after w t := match w with
    | ⟨0, _⟩ => iblk_6 V c 0 t
    | ⟨1, _⟩ => iblk_6 V c 1 t
    | ⟨2, _⟩ => outAt_6 V c t
  Φ t := PhiS_6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS_castSucc_6 (c : Dev nD) (t : Fin cfg6.N) :
    (dat6 V c).Φ t.castSucc = PhiS_6 V c t.val (Nat.le_of_lt t.isLt) := by
  dsimp only [dat6]; simp only [Fin.coe_castSucc]

theorem after_6_0 (c : Dev nD) (t : Fin cfg6.N) : (dat6 V c).after 0 t = iblk_6 V c 0 t := by dsimp only [dat6]
theorem after_6_1 (c : Dev nD) (t : Fin cfg6.N) : (dat6 V c).after 1 t = iblk_6 V c 1 t := by dsimp only [dat6]
theorem after_6_2 (c : Dev nD) (t : Fin cfg6.N) : (dat6 V c).after 2 t = outAt_6 V c t := by dsimp only [dat6]

/-- Each input is fetched at every point: its current staging buffer holds its block. -/
theorem before_6_0 (c : Dev nD) (t : Fin cfg6.N) (d) : (dat6 V c).before 0 t d = iblk_6 V c 0 t :=
  ((dat6 V c).before_fetched 0 t (fetch6_0 t) d).trans (by unfold Dat.fetched Dat.blockOf iblk_6; rw [A_eq6]; try rfl)
theorem before_6_1 (c : Dev nD) (t : Fin cfg6.N) (d) : (dat6 V c).before 1 t d = iblk_6 V c 1 t :=
  ((dat6 V c).before_fetched 1 t (fetch6_1 t) d).trans (by unfold Dat.fetched Dat.blockOf iblk_6; rw [A_eq6]; try rfl)

/-! ## The body obligation -/

def bodyPre_6 (c : Dev nD) (t : Fin cfg6.N) : sProp 𝕄 :=
  iprop((dat6 V c).Φ t.castSucc ∗ (dat6 V c).owesAt () t.castSucc
    ∗ (∃ d, owns (c : Thread nD τ) (ms_6_0 t) fullShare ((dat6 V c).before 0 t d))
    ∗ (∃ d, owns (c : Thread nD τ) (ms_6_1 t) fullShare ((dat6 V c).before 1 t d))
    ∗ (∃ d, owns (c : Thread nD τ) (ms_6_2 t) fullShare ((dat6 V c).before 2 t d)))

def bodyPost_6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the inputs' buffers hold their blocks; the closed forms say which of the three cases the
    point is in; the invariant hands the body the accumulator at what the point before left (at anything at the
    first point, where it is reset before it is read) and takes it back at this point's contents; where the output
    block is idle its buffer is handed back as found, and at a last reduction index it ends with the accumulator's copy. -/
theorem sound_body_6 (c : Dev nD) (t : Fin cfg6.N) :
    bodyPre_6 V c t ⊢ wp frame (wpE (defs₀ (F := F)) Variants.none c none) Set.univ (bodyAt6 t) (fun _ => bodyPost_6 V c t) := by
  unfold bodyPre_6 bodyPost_6 bodyAt6
  simp only [before_6_0, before_6_1]
  rw [show (dat6 V c).owesAt () t.succ = (dat6 V c).owesAt () t.castSucc from rfl]
  rw [show (dat6 V c).Φ t.succ = PhiS_6 V c (t.val + 1) t.isLt from rfl, PhiS_succ_6]
  have hN : t.val < 100 := lt_of_lt_of_eq t.isLt (show cfg6.N = 100 from N_6)
  rw [show (dat6 V c).leavesExact 0 t = owns (c : Thread nD τ) (ms_6_0 t) fullShare ((dat6 V c).after 0 t) from by
    unfold Dat.leavesExact; rw [liveAt_6_0 t], after_6_0]
  rw [show (dat6 V c).leavesExact 1 t = owns (c : Thread nD τ) (ms_6_1 t) fullShare ((dat6 V c).after 1 t) from by
    unfold Dat.leavesExact; rw [liveAt_6_1 t], after_6_1]
  rw [accAt_step_6 V c t]
  by_cases h0 : t.val % 10 = 0
  · have hc1 := notLast_of_reset_6 t h0
    rw [Dat.leavesExact_idle (dat6 V c) 2 t (idleAt_6_2 t hc1) (noFlush_6_2 t hc1)]
    unfold stepAcc_6; rw [dif_pos h0]
    unfold soutA_6; (try dsimp only)
    by_cases hz : t.val = 0
    · rw [PhiS_castSucc_6 V c t, PhiS_zero_6 V c _ _ hz, PhiS0_eq_6]
      iintro ⟨⟨Hg, HS0, Hrest⟩, Ho, ⟨%d0, H0⟩, ⟨%d1, H1⟩, ⟨%d2, H2⟩⟩
      iapply ((kRunA_6 c (grid6.coords t) (ms_6_0 t) (hs_6_0 t) (ms_6_1 t) (hs_6_1 t) (ms_6_2 t) (hs_6_2 t) scM_6 (Memref.isWhole_whole _) ((hReset_6 t).mpr h0) hc1 (iblk_6 V c 0 t) (iblk_6 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_6 c _ _ _ _ _ _ _ _ _ _ _ _ _)
        isplitl [Hrest]; · iexact Hrest
        iexact Hg
      isplitl [Ho]; · iexact Ho
      isplitl [H0]; · iexact H0
      isplitl [H1]; · iexact H1
      iexists _; iexact H2
    · rw [PhiS_castSucc_6 V c t, PhiS_pos_6 V c _ _ hz]
      iintro ⟨⟨HS0, Hrest, Hg⟩, Ho, ⟨%d0, H0⟩, ⟨%d1, H1⟩, ⟨%d2, H2⟩⟩
      iapply ((kRunA_6 c (grid6.coords t) (ms_6_0 t) (hs_6_0 t) (ms_6_1 t) (hs_6_1 t) (ms_6_2 t) (hs_6_2 t) scM_6 (Memref.isWhole_whole _) ((hReset_6 t).mpr h0) hc1 (iblk_6 V c 0 t) (iblk_6 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverA_6 c _ _ _ _ _ _ _ _ _ _ _ _ _)
        isplitl [Hrest]; · iexact Hrest
        iexact Hg
      isplitl [Ho]; · iexact Ho
      isplitl [H0]; · iexact H0
      isplitl [H1]; · iexact H1
      iexists _; iexact H2
  · have hz : t.val ≠ 0 := fun e => h0 (by rw [e])
    have hc0 := notReset_6 t h0
    unfold stepAcc_6; rw [dif_neg h0]
    rw [accPrev_pos_6 V c t hz]
    by_cases h1 : t.val % 10 = 9
    · rw [show (dat6 V c).leavesExact 2 t = owns (c : Thread nD τ) (ms_6_2 t) fullShare ((dat6 V c).after 2 t) from by
        unfold Dat.leavesExact; rw [liveAt_6_2 t ((hLast_6 t).mpr h1)], after_6_2]
      unfold outAt_6; rw [dif_pos h1, dif_pos h1, accPrev_pos_6 V c t hz]
      unfold soutC_6 outC_6; (try dsimp only)
      rw [PhiS_castSucc_6 V c t, PhiS_pos_6 V c _ _ hz]
      iintro ⟨⟨HS0, Hrest, Hg⟩, Ho, ⟨%d0, H0⟩, ⟨%d1, H1⟩, ⟨%d2, H2⟩⟩
      iapply ((kRunC_6 c (grid6.coords t) (ms_6_0 t) (hs_6_0 t) (ms_6_1 t) (hs_6_1 t) (ms_6_2 t) (hs_6_2 t) scM_6 (Memref.isWhole_whole _) hc0 ((hLast_6 t).mpr h1) (iblk_6 V c 0 t) (iblk_6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0]
        · unfold owns; iexists _; isplitr
          swap; · iexact HS0
          ipureintro; exact View.read_writes_of_cover _ _ _ _ _ (scoverC_6 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_6 c _ _ _ _ _ _ _ _ _ _ _ _ _ _)
    · have hc1 := notLast_6 t h1
      rw [Dat.leavesExact_idle (dat6 V c) 2 t (idleAt_6_2 t hc1) (noFlush_6_2 t hc1)]
      rw [dif_neg h1]
      unfold soutB_6; (try dsimp only)
      rw [PhiS_castSucc_6 V c t, PhiS_pos_6 V c _ _ hz]
      iintro ⟨⟨HS0, Hrest, Hg⟩, Ho, ⟨%d0, H0⟩, ⟨%d1, H1⟩, ⟨%d2, H2⟩⟩
      iapply ((kRunB_6 c (grid6.coords t) (ms_6_0 t) (hs_6_0 t) (ms_6_1 t) (hs_6_1 t) (ms_6_2 t) (hs_6_2 t) scM_6 (Memref.isWhole_whole _) hc0 hc1 (iblk_6 V c 0 t) (iblk_6 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0]
        · unfold owns; iexists _; isplitr
          swap; · iexact HS0
          ipureintro; exact View.read_writes_of_cover _ _ _ _ _ (scoverB_6 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body_6 V c t

theorem phi_in6 (c : Dev nD) : (iprop((∃ r, prngReg c r) ∗ Pipeline.scopedRest spec6 c) : sProp 𝕄) ⊢ (dat6 V c).Φ 0 := by
  rw [show (dat6 V c).Φ 0 = PhiS_6 V c 0 (Nat.zero_le _) from rfl, PhiS_zero_6 V c 0 _ rfl]
  try exact Idealize.SL.BI.Entails.refl _

theorem phi_out6 (c : Dev nD) : (dat6 V c).Φ (Fin.last _) ⊢ (iprop((∃ r, prngReg c r) ∗ Pipeline.scopedRest spec6 c) : sProp 𝕄) := by
  rw [show (dat6 V c).Φ (Fin.last _) = PhiS_6 V c (Fin.last cfg6.N).val (Nat.le_of_lt_succ (Fin.last cfg6.N).isLt) from rfl,
    PhiS_pos_6 V c _ _ (by rw [Fin.val_last]; have : cfg6.N = 100 := N_6; omega), PhiS0_eq_6]
  iintro ⟨HS0, Hrest, Hg⟩
  isplitl [Hg]; · iexact Hg
  isplitl [HS0]; · iexists _; iexact HS0
  iexact Hrest

end Cert.KernelIdeal.Hand
end
-- ==== Proof.KI.Reg7.lean ====
/- One Chebyshev propagation step with an affine tail, as a blocked matrix product over a 10 × 10 grid.
   At grid point (i, k), k the fast axis, the body adds to a 1024-row accumulator the product of block (i, k) of
   the 10240 × 10240 matrix with block k of the right factor (rounded to the matrix's format first); the accumulator
   is zeroed when k = 0, so after step k it holds (((0 + d 0) + d 1) + … ) + d k, d k the k-th partial product; when
   k = 9 the output's row block i receives 2 · accumulator + (−1) · (row block i of the addend). Off k = 9 the output's
   buffer is not touched. This file states, for every grid point, what the accumulator and the windows' buffers hold
   before and after the body (by recursion on the point), proves the body meets that description in each of the
   three cases (k = 0; 0 < k < 9; k = 9), and relates the invariant at the two ends of the grid to the scoped buffers
   the region is entered and left with. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The zero offsets of a whole-block rectangle of rank 2. -/
theorem hz_7 : (![0, 0] : Fin 2 → Nat) = fun _ => 0 := funext fun a => by fin_cases a <;> rfl

/-! ## The two conditions of the body, in closed form over the grid -/

/-- The body's first condition: the reduction coordinate is 0. -/
abbrev condZ_7 (i : grid7.Coords) : Prop := (Scalar.cmpi .ne (Scalar.extui (Scalar.cmpi .eq (BitVec.ofNat 32 (i 1).val) 0#32)) 0#32) = 1#1
theorem hcondZ_7 : ∀ t : Fin cfg7.N, condZ_7 (grid7.coords t) ↔ t.val % 10 = 0 :=
  (by decide +kernel : ∀ t : Fin grid7.N, condZ_7 (grid7.coords t) ↔ t.val % 10 = 0)
/-- The body's second condition: the reduction coordinate is 9, the last. -/
abbrev condL_7 (i : grid7.Coords) : Prop := k7_cond2 i = 1#1
theorem hcondL_7 : ∀ t : Fin cfg7.N, condL_7 (grid7.coords t) ↔ t.val % 10 = 9 :=
  (by decide +kernel : ∀ t : Fin grid7.N, condL_7 (grid7.coords t) ↔ t.val % 10 = 9)

/-- The inputs are never idle; the output is idle, and not written back, exactly off the last reduction step. -/
theorem live_7_0 : ∀ t : Fin cfg7.N, cfg7.idle 0 (grid7.coords t) = false := fun _ => rfl
theorem live_7_1 : ∀ t : Fin cfg7.N, cfg7.idle 1 (grid7.coords t) = false := fun _ => rfl
theorem live_7_2 : ∀ t : Fin cfg7.N, cfg7.idle 2 (grid7.coords t) = false := fun _ => rfl
theorem idle_7_3 : ∀ t : Fin cfg7.N, ¬condL_7 (grid7.coords t) → cfg7.idle 3 (grid7.coords t) = true := by decide +kernel
theorem noFlush_7_3 : ∀ t : Fin cfg7.N, ¬condL_7 (grid7.coords t) → (cfg7.win 3).flush t = false := by decide +kernel
theorem live_7_3 : ∀ t : Fin cfg7.N, condL_7 (grid7.coords t) → cfg7.idle 3 (grid7.coords t) = false := by decide +kernel

/-! ## The body on any whole staging memrefs, case by case -/

/-- One whole-block store leaves its payload: the read-back of a buffer after a list of writes whose last covers it. -/
theorem read_last_7 {sg : RefSig} {κ : Kind} {sp : Space} (v : View sg κ sp S1024x256 .f32) (f : v.ty.Contents (Elt F))
    (w : S1024x256.Idx → Elt F .f32) (L : List (View.Piece (Elt F) S1024x256 .f32)) :
    v.read (Elt F) (v.writes (Elt F) f ((⟨Rect.unit ![0, 0] S1024x256.size inb_S1024x256_S1024x256_0_0, w⟩ : View.Piece (Elt F) S1024x256 .f32) :: L)) = w := by
  rw [View.read_writes_eq_canon _ _ _ (fun y => ⟨_, List.mem_cons_self, View.mem_set_unit_zero hz_7 inb_S1024x256_S1024x256_0_0 y⟩),
    View.canon_cons_unit_zero hz_7]

set_option maxHeartbeats 1000000 in
/-- Reduction step 0 (not the last): the accumulator, whatever it held, is zeroed, then receives
    zero + block 0 · block 1; the addend's and the output's buffers are handed back untouched. -/
theorem run_7_A (c : Dev nD) (i : grid7.Coords)
    (arg2 : Memref sig .tc .vmem S1024x1024 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (arg6 : Memref sig .tc .vmem S1024x256 .f32) (harg6 : arg6.IsWhole)
    (hc0 : condZ_7 i) (hc1 : ¬condL_7 i)
    (x0 : Vec F S1024x1024 .bf16) (x1 : Vec F S1024x256 .f32) (x2 : Vec F S1024x256 .f32)
    (xi3 : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k7_pay2 x0 x1 (k7_pay1 (F := F)))) -∗ K ⟨⟩))
      ⊢ wp frame (wpE (defs₀ (F := F)) Variants.none c none) E (cc7__prop_affine_kernel i arg2 harg2 arg3 harg3 arg4 harg4 arg5 harg5 arg6 harg6) K := by
  simp only [cc7__prop_affine_kernel_eq_skeleton]; unfold cc7__prop_affine_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [read_last_7, View.readCov_unit_zero (S := S1024x256) _ hz_7]
  simp only [View.readAt_eq_ld, harg2.read_unread, harg3.read_unread,
    View.ld_unit_zero (S := S1024x1024) hz_7, View.ld_unit_zero (S := S1024x256) hz_7]

set_option maxHeartbeats 1000000 in
/-- A middle reduction step: the accumulator at `xs` receives `xs` + block 0 · block 1; the addend's and the
    output's buffers are handed back untouched. -/
theorem run_7_B (c : Dev nD) (i : grid7.Coords)
    (arg2 : Memref sig .tc .vmem S1024x1024 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬condZ_7 i) (hc1 : ¬condL_7 i)
    (x0 : Vec F S1024x1024 .bf16) (x1 : Vec F S1024x256 .f32) (x2 : Vec F S1024x256 .f32)
    (xi3 : Vec F S1024x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k7_pay2 x0 x1 xs)) -∗ K ⟨⟩))
      ⊢ wp frame (wpE (defs₀ (F := F)) Variants.none c none) E (cc7__prop_affine_kernel i arg2 harg2 arg3 harg3 arg4 harg4 arg5 harg5 arg6 harg6) K := by
  simp only [cc7__prop_affine_kernel_eq_skeleton]; unfold cc7__prop_affine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_words
  rw [read_last_7]
  simp only [View.readAt_eq_ld, harg2.read_unread, harg3.read_unread, harg6.read_unread,
    View.ld_unit_zero (S := S1024x1024) hz_7, View.ld_unit_zero (S := S1024x256) hz_7]

set_option maxHeartbeats 1000000 in
/-- The last reduction step: the accumulator at `xs` receives `xs` + block 0 · block 1, and the output block,
    whatever it held, receives 2 · (that sum) + (−1) · (the addend's block). -/
theorem run_7_C (c : Dev nD) (i : grid7.Coords)
    (arg2 : Memref sig .tc .vmem S1024x1024 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x256 .f32) (harg5 : arg5.IsWhole)
    (arg6 : Memref sig .tc .vmem S1024x256 .f32) (harg6 : arg6.IsWhole)
    (hc0 : ¬condZ_7 i) (hc1 : condL_7 i)
    (x0 : Vec F S1024x1024 .bf16) (x1 : Vec F S1024x256 .f32) (x2 : Vec F S1024x256 .f32)
    (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k7_pay3 (k7_pay2 x0 x1 xs) x2)
            ∗ owns (c : Thread nD τ) arg6 fullShare (k7_pay2 x0 x1 xs)) -∗ K ⟨⟩))
      ⊢ wp frame (wpE (defs₀ (F := F)) Variants.none c none) E (cc7__prop_affine_kernel i arg2 harg2 arg3 harg3 arg4 harg4 arg5 harg5 arg6 harg6) K := by
  simp only [cc7__prop_affine_kernel_eq_skeleton]; unfold cc7__prop_affine_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_last_7, View.readCov_unit_zero (S := S1024x256) _ hz_7]
    simp only [View.readAt_eq_ld, harg2.read_unread, harg3.read_unread, harg4.read_unread, harg6.read_unread,
      View.ld_unit_zero (S := S1024x1024) hz_7, View.ld_unit_zero (S := S1024x256) hz_7]
  iexists _; isplitr
  swap; · iexact HS
  ipureintro
  sl_unfold_words
  rw [read_last_7]
  simp only [View.readAt_eq_ld, harg2.read_unread, harg3.read_unread, harg6.read_unread,
    View.ld_unit_zero (S := S1024x1024) hz_7, View.ld_unit_zero (S := S1024x256) hz_7]

/-! ## The windows' blocks and the accumulator, point by point -/

/-- Window `w`'s block at point `t`, read off its array as the region finds it. -/
def iblk_7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The staging memrefs the pipeline passes at point `t`, and the scratch accumulator. -/
abbrev ms_7_0 (t : Fin cfg7.N) : Memref sig .tc .vmem S1024x1024 .bf16 := win7_0.stage (cfg7.slots t 0)
abbrev hs_7_0 (t : Fin cfg7.N) : (ms_7_0 t).IsWhole := hstage7_0 ((cfg7.slots t 0).cast nbuf7_0)
abbrev ms_7_1 (t : Fin cfg7.N) : Memref sig .tc .vmem S1024x256 .f32 := win7_1.stage (cfg7.slots t 1)
abbrev hs_7_1 (t : Fin cfg7.N) : (ms_7_1 t).IsWhole := hstage7_1 ((cfg7.slots t 1).cast nbuf7_1)
abbrev ms_7_2 (t : Fin cfg7.N) : Memref sig .tc .vmem S1024x256 .f32 := win7_2.stage (cfg7.slots t 2)
abbrev hs_7_2 (t : Fin cfg7.N) : (ms_7_2 t).IsWhole := hstage7_2 ((cfg7.slots t 2).cast nbuf7_2)
abbrev ms_7_3 (t : Fin cfg7.N) : Memref sig .tc .vmem S1024x256 .f32 := win7_3.stage (cfg7.slots t 3)
abbrev hs_7_3 (t : Fin cfg7.N) : (ms_7_3 t).IsWhole := hstage7_3 ((cfg7.slots t 3).cast nbuf7_3)
abbrev scM_7 : Memref sig .tc .vmem S1024x256 .f32 := Memref.whole cc7_scratch0

/-- THE ACCUMULATOR after the body at position `n`: at a first reduction step zero + (block 0 · block 1), at a later
    one what the step before left + (block 0 · block 1). -/
def accAt_7 (c : Dev nD) : (n : ℕ) → n < cfg7.N → Vec F S1024x256 .f32
  | 0, hn => k7_pay2 (iblk_7 V c 0 ⟨0, hn⟩) (iblk_7 V c 1 ⟨0, hn⟩) (k7_pay1 (F := F))
  | n + 1, hn =>
    if (n + 1) % 10 = 0 then k7_pay2 (iblk_7 V c 0 ⟨n + 1, hn⟩) (iblk_7 V c 1 ⟨n + 1, hn⟩) (k7_pay1 (F := F))
    else k7_pay2 (iblk_7 V c 0 ⟨n + 1, hn⟩) (iblk_7 V c 1 ⟨n + 1, hn⟩) (accAt_7 c n (Nat.lt_of_succ_lt hn))

theorem accAt_7_first (c : Dev nD) (t : Fin cfg7.N) (h0 : t.val % 10 = 0) :
    accAt_7 V c t.val t.isLt = k7_pay2 (iblk_7 V c 0 t) (iblk_7 V c 1 t) (k7_pay1 (F := F)) := by
  obtain ⟨n, hn⟩ := t
  cases n with
  | zero => rfl
  | succ n => exact if_pos h0

theorem accAt_7_next (c : Dev nD) (t : Fin cfg7.N) (h0 : ¬t.val % 10 = 0) :
    accAt_7 V c t.val t.isLt = k7_pay2 (iblk_7 V c 0 t) (iblk_7 V c 1 t)
      (accAt_7 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the scratch among
    the scoped buffers, at anything); afterwards the scratch at the accumulator the point before left, the other scoped
    buffers unopened, the generator register at some state. -/
def Phi_7 (c : Dev nD) : (n : ℕ) → n ≤ cfg7.N → sProp 𝕄
  | 0, _ => iprop((∃ r, prngReg c r) ∗ Pipeline.scopedRest spec7 c)
  | n + 1, hn => iprop(owns (c : Thread nD τ) scM_7 fullShare (accAt_7 V c n hn)
      ∗ Pipeline.scopedRestBut spec7 c [cc7_scratch0] ∗ (∃ r, prngReg c r))

theorem Phi_7_zero (c : Dev nD) (n : ℕ) (h : n ≤ cfg7.N) (hz : n = 0) :
    Phi_7 V c n h = iprop((∃ r, prngReg c r) ∗ Pipeline.scopedRest spec7 c) := by
  subst hz; rfl

theorem Phi_7_succ (c : Dev nD) (n : ℕ) (hn : n < cfg7.N) :
    Phi_7 V c (n + 1) hn = iprop(owns (c : Thread nD τ) scM_7 fullShare (accAt_7 V c n hn)
      ∗ Pipeline.scopedRestBut spec7 c [cc7_scratch0] ∗ (∃ r, prngReg c r)) := rfl

theorem Phi_7_pos (c : Dev nD) (n : ℕ) (h : n ≤ cfg7.N) (hz : n ≠ 0) :
    Phi_7 V c n h = iprop(owns (c : Thread nD τ) scM_7 fullShare (accAt_7 V c (n - 1) (by omega))
      ∗ Pipeline.scopedRestBut spec7 c [cc7_scratch0] ∗ (∃ r, prngReg c r)) := by
  cases n with
  | zero => exact absurd rfl hz
  | succ n => rfl

/-- What the launch hands over, with the scratch split out of the scoped buffers and owned at some contents. -/
theorem Phi0_7_eq (c : Dev nD) :
    (iprop((∃ r, prngReg c r) ∗ Pipeline.scopedRest spec7 c) : sProp 𝕄)
      = iprop((∃ r, prngReg c r) ∗ iprop((∃ d, owns (c : Thread nD τ) scM_7 fullShare d))
          ∗ Pipeline.scopedRestBut spec7 c [cc7_scratch0]) := by
  rw [scopedRest7_split]; simp only [scM_7, owns_whole]; rfl

/-! ## The proof data -/

def dat7 (c : Dev nD) : Dat τ (Elt F) Unit ℕ (UR sig nD τ) ℕ cfg7 c where
  A w := V c (Pipeline.arrRef spec7 w)
  after w t := match w with
    | ⟨0, _⟩ => iblk_7 V c 0 t
    | ⟨1, _⟩ => iblk_7 V c 1 t
    | ⟨2, _⟩ => iblk_7 V c 2 t
    | ⟨3, _⟩ => k7_pay3 (accAt_7 V c t.val t.isLt) (iblk_7 V c 2 t)
  Φ t := Phi_7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem Phi_7_castSucc (c : Dev nD) (t : Fin cfg7.N) :
    (dat7 V c).Φ t.castSucc = Phi_7 V c t.val (Nat.le_of_lt t.isLt) := by
  dsimp only [dat7]; simp only [Fin.coe_castSucc]

theorem after_7_0 (c : Dev nD) (t : Fin cfg7.N) : (dat7 V c).after 0 t = iblk_7 V c 0 t := by dsimp only [dat7]
theorem after_7_1 (c : Dev nD) (t : Fin cfg7.N) : (dat7 V c).after 1 t = iblk_7 V c 1 t := by dsimp only [dat7]
theorem after_7_2 (c : Dev nD) (t : Fin cfg7.N) : (dat7 V c).after 2 t = iblk_7 V c 2 t := by dsimp only [dat7]
theorem after_7_3 (c : Dev nD) (t : Fin cfg7.N) :
    (dat7 V c).after 3 t = k7_pay3 (accAt_7 V c t.val t.isLt) (iblk_7 V c 2 t) := by dsimp only [dat7]

/-- Each input's current staging buffer holds its block at every point, fetched there or not (unfetched, the block
    index has not moved). -/
theorem before_7_0 (c : Dev nD) (t : Fin cfg7.N) (d) : (dat7 V c).before 0 t d = iblk_7 V c 0 t :=
  ((dat7 V c).before_in_eq_fetched 0 rfl (fun _ => rfl) (fun _ _ _ => rfl)
    (fun t => by rw [after_7_0]; unfold Dat.blockOf iblk_7; rw [A_eq7]; try rfl) t d).trans
    (by unfold Dat.fetched Dat.blockOf iblk_7; rw [A_eq7]; try rfl)
theorem before_7_1 (c : Dev nD) (t : Fin cfg7.N) (d) : (dat7 V c).before 1 t d = iblk_7 V c 1 t :=
  ((dat7 V c).before_in_eq_fetched 1 rfl (fun _ => rfl) (fun _ _ _ => rfl)
    (fun t => by rw [after_7_1]; unfold Dat.blockOf iblk_7; rw [A_eq7]; try rfl) t d).trans
    (by unfold Dat.fetched Dat.blockOf iblk_7; rw [A_eq7]; try rfl)
theorem before_7_2 (c : Dev nD) (t : Fin cfg7.N) (d) : (dat7 V c).before 2 t d = iblk_7 V c 2 t :=
  ((dat7 V c).before_in_eq_fetched 2 rfl (fun _ => rfl) (fun _ _ _ => rfl)
    (fun t => by rw [after_7_2]; unfold Dat.blockOf iblk_7; rw [A_eq7]; try rfl) t d).trans
    (by unfold Dat.fetched Dat.blockOf iblk_7; rw [A_eq7]; try rfl)

/-! ## The body obligation -/

def bodyPre_7 (c : Dev nD) (t : Fin cfg7.N) : sProp 𝕄 :=
  iprop((dat7 V c).Φ t.castSucc ∗ (dat7 V c).owesAt () t.castSucc
    ∗ (∃ d, owns (c : Thread nD τ) (ms_7_0 t) fullShare ((dat7 V c).before 0 t d))
    ∗ (∃ d, owns (c : Thread nD τ) (ms_7_1 t) fullShare ((dat7 V c).before 1 t d))
    ∗ (∃ d, owns (c : Thread nD τ) (ms_7_2 t) fullShare ((dat7 V c).before 2 t d))
    ∗ (∃ d, owns (c : Thread nD τ) (ms_7_3 t) fullShare ((dat7 V c).before 3 t d)))

def bodyPost_7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' buffers hold their blocks; the closed forms say which of the three cases the
    point is in; the invariant hands the body the accumulator at what the step before left (at anything where the
    reduction restarts) and takes it back at this point's; off the last reduction step the output's buffer is handed
    back untouched. -/
theorem sound_body_7 (c : Dev nD) (t : Fin cfg7.N) :
    bodyPre_7 V c t ⊢ wp frame (wpE (defs₀ (F := F)) Variants.none c none) Set.univ (bodyAt7 t) (fun _ => bodyPost_7 V c t) := by
  unfold bodyPre_7 bodyPost_7 bodyAt7
  simp only [before_7_0, before_7_1, before_7_2]
  rw [show (dat7 V c).owesAt () t.succ = (dat7 V c).owesAt () t.castSucc from rfl]
  rw [show (dat7 V c).Φ t.succ = Phi_7 V c (t.val + 1) t.isLt from rfl, Phi_7_succ]
  have hN : t.val < 100 := lt_of_lt_of_eq t.isLt (show cfg7.N = 100 from N_7)
  rw [show (dat7 V c).leavesExact 0 t = owns (c : Thread nD τ) (ms_7_0 t) fullShare ((dat7 V c).after 0 t) from by
    unfold Dat.leavesExact; rw [live_7_0 t], after_7_0]
  rw [show (dat7 V c).leavesExact 1 t = owns (c : Thread nD τ) (ms_7_1 t) fullShare ((dat7 V c).after 1 t) from by
    unfold Dat.leavesExact; rw [live_7_1 t], after_7_1]
  rw [show (dat7 V c).leavesExact 2 t = owns (c : Thread nD τ) (ms_7_2 t) fullShare ((dat7 V c).after 2 t) from by
    unfold Dat.leavesExact; rw [live_7_2 t], after_7_2]
  by_cases h1 : t.val % 10 = 9
  · have h0 : ¬t.val % 10 = 0 := by omega
    have hz : t.val ≠ 0 := by omega
    rw [show (dat7 V c).leavesExact 3 t = owns (c : Thread nD τ) (ms_7_3 t) fullShare ((dat7 V c).after 3 t) from by
      unfold Dat.leavesExact; rw [live_7_3 t ((hcondL_7 t).mpr h1)], after_7_3]
    rw [accAt_7_next V c t h0]
    rw [Phi_7_castSucc V c t, Phi_7_pos V c _ _ hz]
    iintro ⟨⟨HS, HR, Hg⟩, Ho, ⟨%d0, H0⟩, ⟨%d1, H1⟩, ⟨%d2, H2⟩, ⟨%d3, H3⟩⟩
    iapply (run_7_C c (grid7.coords t) _ (hs_7_0 t) _ (hs_7_1 t) _ (hs_7_2 t) _ (hs_7_3 t) scM_7 (Memref.isWhole_whole _)
      (fun h => h0 ((hcondZ_7 t).mp h)) ((hcondL_7 t).mpr h1) (iblk_7 V c 0 t) (iblk_7 V c 1 t) (iblk_7 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat7 V c) 3 t (idle_7_3 t (fun h => h1 ((hcondL_7 t).mp h))) (noFlush_7_3 t (fun h => h1 ((hcondL_7 t).mp h)))]
    by_cases h0 : t.val % 10 = 0
    · rw [accAt_7_first V c t h0]
      by_cases hz : t.val = 0
      · rw [Phi_7_castSucc V c t, Phi_7_zero V c _ _ hz, Phi0_7_eq]
        iintro ⟨⟨Hg, HS, HR⟩, Ho, ⟨%d0, H0⟩, ⟨%d1, H1⟩, ⟨%d2, H2⟩, ⟨%d3, H3⟩⟩
        iapply (run_7_A c (grid7.coords t) _ (hs_7_0 t) _ (hs_7_1 t) _ (hs_7_2 t) _ (hs_7_3 t) scM_7 (Memref.isWhole_whole _)
          ((hcondZ_7 t).mpr h0) (fun h => h1 ((hcondL_7 t).mp h)) (iblk_7 V c 0 t) (iblk_7 V c 1 t) (iblk_7 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi_7_castSucc V c t, Phi_7_pos V c _ _ hz]
        iintro ⟨⟨HS, HR, Hg⟩, Ho, ⟨%d0, H0⟩, ⟨%d1, H1⟩, ⟨%d2, H2⟩, ⟨%d3, H3⟩⟩
        iapply (run_7_A c (grid7.coords t) _ (hs_7_0 t) _ (hs_7_1 t) _ (hs_7_2 t) _ (hs_7_3 t) scM_7 (Memref.isWhole_whole _)
          ((hcondZ_7 t).mpr h0) (fun h => h1 ((hcondL_7 t).mp h)) (iblk_7 V c 0 t) (iblk_7 V c 1 t) (iblk_7 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_7_next V c t h0]
      rw [Phi_7_castSucc V c t, Phi_7_pos V c _ _ hz]
      iintro ⟨⟨HS, HR, Hg⟩, Ho, ⟨%d0, H0⟩, ⟨%d1, H1⟩, ⟨%d2, H2⟩, ⟨%d3, H3⟩⟩
      iapply (run_7_B c (grid7.coords t) _ (hs_7_0 t) _ (hs_7_1 t) _ (hs_7_2 t) _ (hs_7_3 t) scM_7 (Memref.isWhole_whole _)
        (fun h => h0 ((hcondZ_7 t).mp h)) (fun h => h1 ((hcondL_7 t).mp h)) (iblk_7 V c 0 t) (iblk_7 V c 1 t) (iblk_7 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body_obligation7 (c : Dev nD) : BodyObligation (dat7 (F := F) V c) (defs₀ (F := F)) Variants.none () Set.univ := fun t => by
  rw [bigSep_W7, bigSep_W7]
  exact sound_body_7 V c t

theorem phi_in7 (c : Dev nD) : (iprop((∃ r, prngReg c r) ∗ Pipeline.scopedRest spec7 c) : sProp 𝕄) ⊢ (dat7 V c).Φ 0 := by
  rw [show (dat7 V c).Φ 0 = Phi_7 V c 0 (Nat.zero_le _) from rfl, Phi_7_zero V c 0 _ rfl]
  try exact Idealize.SL.BI.Entails.refl _

theorem phi_out7 (c : Dev nD) : (dat7 V c).Φ (Fin.last _) ⊢ (iprop((∃ r, prngReg c r) ∗ Pipeline.scopedRest spec7 c) : sProp 𝕄) := by
  rw [show (dat7 V c).Φ (Fin.last _) = Phi_7 V c (Fin.last cfg7.N).val (Nat.le_of_lt_succ (Fin.last cfg7.N).isLt) from rfl,
    Phi_7_pos V c _ _ (by rw [Fin.val_last]; have : cfg7.N = 100 := N_7; omega), Phi0_7_eq]
  iintro ⟨HS, HR, Hg⟩
  isplitl [Hg]; · iexact Hg
  isplitl [HS]; · iexists _; iexact HS
  iexact HR

end Cert.KernelIdeal.Hand
end
-- ==== Proof.KI.Reg8.lean ====
/- Region 8: one row block of the left factor times the whole right factor, accumulated from zero, plus the
   bias row broadcast down the rows, then the maximum with zero; the result is stored whole into the output row block.
   Nothing is carried from one grid point to the next. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 8 -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each block whole -/

abbrev r8_0 : Rect S1024x768 := Rect.unit (s := S1024x768) ![0, 0] S1024x768.size inb_S1024x768_S1024x768_0_0
abbrev r8_1 : Rect S768x512 := Rect.unit (s := S768x512) ![0, 0] S768x512.size inb_S768x512_S768x512_0_0
abbrev r8_2 : Rect S1x512 := Rect.unit (s := S1x512) ![0, 0] S1x512.size inb_S1x512_S1x512_0_0
abbrev r8_3 : Rect S1024x512 := Rect.unit (s := S1024x512) ![0, 0] S1024x512.size inb_S1024x512_S1024x512_0_0

/-- The output block after the body, from the three input blocks: its one store as a piece. -/
def out8_3 (x0 : Vec F S1024x768 .f32) (x1 : Vec F S768x512 .f32) (x2 : Vec F S1x512 .f32) : Vec F S1024x512 .f32 :=
  View.canon [⟨r8_3, k8_pay1 (View.ld x0 r8_0) (View.ld x1 r8_1) (View.ld x2 r8_2)⟩]

/-- The one store covers the output block. -/
theorem cover8_3 (p0 : Vec F S1024x512 .f32) (y : S1024x512.Idx) :
    ∃ pc ∈ ([⟨r8_3, p0⟩] : List (View.Piece (Elt F) S1024x512 .f32)), y ∈ pc.1.set :=
  View.cover_of_tiled [⟨r8_3, p0⟩] S1024x512.size (by rfl) y

set_option maxHeartbeats 1000000 in
/-- The body on whole staging memrefs, the inputs at contents `x0 x1 x2` and the output at anything, runs to the
    continuation holding the inputs as they were and the output at `out8_3` of the inputs. -/
theorem sound_kernel8 (c : Dev nD) (E : Set ℕ) (i : grid8.Coords) (arg1 : Memref sig .tc .vmem S1024x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x768 .f32) (x1 : Vec F S768x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__mm_bias_kernel i arg1 harg1 arg2 harg2 arg3 harg3 arg4 harg4) K := by
  simp only [cc8__mm_bias_kernel_eq_skeleton]; unfold cc8__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The proof data -/

/-- The arrays as the region finds them; after the body each input's buffer at its block and the output's at
    `out8_3` of the input blocks; the invariant is the untouched rest; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

/-! ## The invariant at the region's ends -/

theorem phi_in8 (c : Dev nD) : (iprop((∃ r, prngReg c r) ∗ Pipeline.scopedRest spec8 c) : sProp 𝕄) ⊢ (dat8 V c).Φ 0 := by
  show _ ⊢ Pipeline.ΦA spec8 c
  unfold Pipeline.ΦA
  iintro ⟨H1, H2⟩
  isplitl [H2]; · iexact H2
  iexact H1

theorem phi_out8 (c : Dev nD) : (dat8 V c).Φ (Fin.last _) ⊢ (iprop((∃ r, prngReg c r) ∗ Pipeline.scopedRest spec8 c) : sProp 𝕄) := by
  show Pipeline.ΦA spec8 c ⊢ _
  unfold Pipeline.ΦA
  iintro ⟨H1, H2⟩
  isplitl [H2]; · iexact H2
  iexact H1

end Cert.KernelIdeal.Hand
end
-- ==== Proof.KI.Reg9.lean ====
/- Region 9: one row block of the left factor times the whole right factor, accumulated from zero, plus the
   bias row broadcast down the rows; the result is stored whole into the output row block.
   Nothing is carried from one grid point to the next. -/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 9 -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: unfetched, the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof
    data whose array is `V`'s and whose body leaves the block in place: unfetched, the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof
    data whose array is `V`'s and whose body leaves the block in place: unfetched, the block index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each block whole -/

abbrev r9_0 : Rect S1024x512 := Rect.unit (s := S1024x512) ![0, 0] S1024x512.size inb_S1024x512_S1024x512_0_0
abbrev r9_1 : Rect S512x512 := Rect.unit (s := S512x512) ![0, 0] S512x512.size inb_S512x512_S512x512_0_0
abbrev r9_2 : Rect S1x512 := Rect.unit (s := S1x512) ![0, 0] S1x512.size inb_S1x512_S1x512_0_0
abbrev r9_3 : Rect S1024x512 := Rect.unit (s := S1024x512) ![0, 0] S1024x512.size inb_S1024x512_S1024x512_0_0

/-- The output block after the body, from the three input blocks: its one store as a piece. -/
def out9_3 (x0 : Vec F S1024x512 .f32) (x1 : Vec F S512x512 .f32) (x2 : Vec F S1x512 .f32) : Vec F S1024x512 .f32 :=
  View.canon [⟨r9_3, k9_pay1 (View.ld x0 r9_0) (View.ld x1 r9_1) (View.ld x2 r9_2)⟩]

/-- The one store covers the output block. -/
theorem cover9_3 (p0 : Vec F S1024x512 .f32) (y : S1024x512.Idx) :
    ∃ pc ∈ ([⟨r9_3, p0⟩] : List (View.Piece (Elt F) S1024x512 .f32)), y ∈ pc.1.set :=
  View.cover_of_tiled [⟨r9_3, p0⟩] S1024x512.size (by rfl) y

set_option maxHeartbeats 1000000 in
/-- The body on whole staging memrefs, the inputs at contents `x0 x1 x2` and the output at anything, runs to the
    continuation holding the inputs as they were and the output at `out9_3` of the inputs. -/
theorem sound_kernel9 (c : Dev nD) (E : Set ℕ) (i : grid9.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__mm_bias_kernel i arg1 harg1 arg2 harg2 arg3 harg3 arg4 harg4) K := by
  simp only [cc9__mm_bias_kernel_eq_skeleton]; unfold cc9__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The proof data -/

/-- The arrays as the region finds them; after the body each input's buffer at its block and the output's at
    `out9_3` of the input blocks; the invariant is the untouched rest; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

/-! ## The invariant at the region's ends -/

theorem phi_in9 (c : Dev nD) : (iprop((∃ r, prngReg c r) ∗ Pipeline.scopedRest spec9 c) : sProp 𝕄) ⊢ (dat9 V c).Φ 0 := by
  show _ ⊢ Pipeline.ΦA spec9 c
  unfold Pipeline.ΦA
  iintro ⟨H1, H2⟩
  isplitl [H2]; · iexact H2
  iexact H1

theorem phi_out9 (c : Dev nD) : (dat9 V c).Φ (Fin.last _) ⊢ (iprop((∃ r, prngReg c r) ∗ Pipeline.scopedRest spec9 c) : sProp 𝕄) := by
  show Pipeline.ΦA spec9 c ⊢ _
  unfold Pipeline.ΦA
  iintro ⟨H1, H2⟩
  isplitl [H2]; · iexact H2
  iexact H1

end Cert.KernelIdeal.Hand
end
-- ==== Proof.KI.Regs.lean ====
/-
  The ten kernel regions' proof data, gathered: each module has one region's data (what every window's staging buffer
  holds after the body at each grid point, the invariant carried from point to point) and its body obligation.
-/
import proofs.«130334_j70351564308694_1_alg».proof.Proof.KI.Reg0
import proofs.«130334_j70351564308694_1_alg».proof.Proof.KI.Reg1
import proofs.«130334_j70351564308694_1_alg».proof.Proof.KI.Reg2
import proofs.«130334_j70351564308694_1_alg».proof.Proof.KI.Reg3
import proofs.«130334_j70351564308694_1_alg».proof.Proof.KI.Reg4
import proofs.«130334_j70351564308694_1_alg».proof.Proof.KI.Reg5
import proofs.«130334_j70351564308694_1_alg».proof.Proof.KI.Reg6
import proofs.«130334_j70351564308694_1_alg».proof.Proof.KI.Reg7
import proofs.«130334_j70351564308694_1_alg».proof.Proof.KI.Reg8
import proofs.«130334_j70351564308694_1_alg».proof.Proof.KI.Reg9
-- ==== Proof.KI.Run.lean ====
/-
  The kernel program's run, assembled: @main is eighteen items in order — host stretches and ten kernel regions. Between
  two items every unscoped buffer is held whole at a named valuation: the launch memory, then each host stretch's
  operations applied, then after each region the region's output array replaced by what its pipeline leaves (every
  block's write-back folded over the grid) and every other buffer as it was. Each region is entered from the valuation
  before it: its windows' arrays are split out of the unscoped buffers, the pipeline runs the body at every grid point
  under the region's proof data, and the arrays are put back at the exit valuation; the generator register and the core's
  empty debts ride along. The run ends with every unscoped buffer at the last valuation, from which both the arguments
  (no item writes one) and the results are read.
-/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import proofs.«130334_j70351564308694_1_alg».proof.Proof.KI.Regs
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: the form the regions' proof data take. -/
abbrev Vin (W : Dev nD → Valuation τ sig (Elt F)) : (c : Dev nD) → (b : Ref sig .tc) → Buf (Elt F) ((c : Thread nD τ).loc b) :=
  fun c b => W c b

/-! ## The valuations between items -/

abbrev T0 : Dev nD → Valuation τ sig (Elt F) := fun c b => m (c, b)
abbrev T1 : Dev nD → Valuation τ sig (Elt F) := fun c => StableHlo.after hostOps0 (T0 m c)
abbrev T2 : Dev nD → Valuation τ sig (Elt F) := fun c => StableHlo.after hostOps0_1 (T1 m c)
abbrev T3 : Dev nD → Valuation τ sig (Elt F) := fun c => StableHlo.after hostOps0_2 (T2 m c)
/-- Every buffer after region 0: its arrays at what the pipeline leaves. -/
def X0 (c : Dev nD) : Valuation τ sig (Elt F) :=
  Pipeline.withArrays spec0 c (T3 m c) fun w => (dat0 (Vin (T3 m)) c).arrAt w cfg0.N
abbrev T4 : Dev nD → Valuation τ sig (Elt F) := fun c => Function.update (T3 m c) main_v49 (X0 m c main_v49)
/-- Every buffer after region 1: its arrays at what the pipeline leaves. -/
def X1 (c : Dev nD) : Valuation τ sig (Elt F) :=
  Pipeline.withArrays spec1 c (T4 m c) fun w => (dat1 (Vin (T4 m)) c).arrAt w cfg1.N
abbrev T5 : Dev nD → Valuation τ sig (Elt F) := fun c => Function.update (T4 m c) main_v50 (X1 m c main_v50)
abbrev T6 : Dev nD → Valuation τ sig (Elt F) := fun c => StableHlo.after hostOps2 (T5 m c)
/-- Every buffer after region 2: its arrays at what the pipeline leaves. -/
def X2 (c : Dev nD) : Valuation τ sig (Elt F) :=
  Pipeline.withArrays spec2 c (T6 m c) fun w => (dat2 (Vin (T6 m)) c).arrAt w cfg2.N
abbrev T7 : Dev nD → Valuation τ sig (Elt F) := fun c => Function.update (T6 m c) main_v54 (X2 m c main_v54)
/-- Every buffer after region 3: its arrays at what the pipeline leaves. -/
def X3 (c : Dev nD) : Valuation τ sig (Elt F) :=
  Pipeline.withArrays spec3 c (T7 m c) fun w => (dat3 (Vin (T7 m)) c).arrAt w cfg3.N
abbrev T8 : Dev nD → Valuation τ sig (Elt F) := fun c => Function.update (T7 m c) main_v55 (X3 m c main_v55)
/-- Every buffer after region 4: its arrays at what the pipeline leaves. -/
def X4 (c : Dev nD) : Valuation τ sig (Elt F) :=
  Pipeline.withArrays spec4 c (T8 m c) fun w => (dat4 (Vin (T8 m)) c).arrAt w cfg4.N
abbrev T9 : Dev nD → Valuation τ sig (Elt F) := fun c => Function.update (T8 m c) main_v56 (X4 m c main_v56)
abbrev T10 : Dev nD → Valuation τ sig (Elt F) := fun c => StableHlo.after hostOps5 (T9 m c)
/-- Every buffer after region 5: its arrays at what the pipeline leaves. -/
def X5 (c : Dev nD) : Valuation τ sig (Elt F) :=
  Pipeline.withArrays spec5 c (T10 m c) fun w => (dat5 (Vin (T10 m)) c).arrAt w cfg5.N
abbrev T11 : Dev nD → Valuation τ sig (Elt F) := fun c => Function.update (T10 m c) main_v60 (X5 m c main_v60)
/-- Every buffer after region 6: its arrays at what the pipeline leaves. -/
def X6 (c : Dev nD) : Valuation τ sig (Elt F) :=
  Pipeline.withArrays spec6 c (T11 m c) fun w => (dat6 (Vin (T11 m)) c).arrAt w cfg6.N
abbrev T12 : Dev nD → Valuation τ sig (Elt F) := fun c => Function.update (T11 m c) main_v61 (X6 m c main_v61)
/-- Every buffer after region 7: its arrays at what the pipeline leaves. -/
def X7 (c : Dev nD) : Valuation τ sig (Elt F) :=
  Pipeline.withArrays spec7 c (T12 m c) fun w => (dat7 (Vin (T12 m)) c).arrAt w cfg7.N
abbrev T13 : Dev nD → Valuation τ sig (Elt F) := fun c => Function.update (T12 m c) main_v62 (X7 m c main_v62)
abbrev T14 : Dev nD → Valuation τ sig (Elt F) := fun c => StableHlo.after hostOps8 (T13 m c)
/-- Every buffer after region 8: its arrays at what the pipeline leaves. -/
def X8 (c : Dev nD) : Valuation τ sig (Elt F) :=
  Pipeline.withArrays spec8 c (T14 m c) fun w => (dat8 (Vin (T14 m)) c).arrAt w cfg8.N
abbrev T15 : Dev nD → Valuation τ sig (Elt F) := fun c => Function.update (T14 m c) main_v66 (X8 m c main_v66)
abbrev T16 : Dev nD → Valuation τ sig (Elt F) := fun c => StableHlo.after hostOps9 (T15 m c)
/-- Every buffer after region 9: its arrays at what the pipeline leaves. -/
def X9 (c : Dev nD) : Valuation τ sig (Elt F) :=
  Pipeline.withArrays spec9 c (T16 m c) fun w => (dat9 (Vin (T16 m)) c).arrAt w cfg9.N
abbrev T17 : Dev nD → Valuation τ sig (Elt F) := fun c => Function.update (T16 m c) main_v70 (X9 m c main_v70)
abbrev T18 : Dev nD → Valuation τ sig (Elt F) := fun c => StableHlo.after hostOps10 (T17 m c)

/-! ## The regions' proof data and what rides along -/

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (Vin (T3 m)) c
  | ⟨1, _⟩ => fun c => dat1 (Vin (T4 m)) c
  | ⟨2, _⟩ => fun c => dat2 (Vin (T6 m)) c
  | ⟨3, _⟩ => fun c => dat3 (Vin (T7 m)) c
  | ⟨4, _⟩ => fun c => dat4 (Vin (T8 m)) c
  | ⟨5, _⟩ => fun c => dat5 (Vin (T10 m)) c
  | ⟨6, _⟩ => fun c => dat6 (Vin (T11 m)) c
  | ⟨7, _⟩ => fun c => dat7 (Vin (T12 m)) c
  | ⟨8, _⟩ => fun c => dat8 (Vin (T14 m)) c
  | ⟨9, _⟩ => fun c => dat9 (Vin (T16 m)) c

abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- At region 0's exit each of its arrays holds what the pipeline leaves, and every other buffer what it held at entry. -/
theorem hF0 (c : Dev nD) (w : Fin cfg0.W) : (dat0 (Vin (T3 m)) c).arrAt w cfg0.N = Vin (T4 m) c (Pipeline.arrRef spec0 w) := by
  have hX : ∀ w : Fin cfg0.W, X0 m c (Proc.devRef .tc (Pipeline.arrRef spec0 w)) = (dat0 (Vin (T3 m)) c).arrAt w cfg0.N := by
    intro w; unfold X0; exact Pipeline.withArrays_arr spec0 launch0.win.arr_inj c _ _ w
  match w with
  | ⟨0, _⟩ =>
    show _ = Function.update (T3 m c) main_v49 (X0 m c main_v49) (Proc.devRef .tc (Pipeline.arrRef spec0 ⟨0, by decide⟩))
    rw [Function.update_of_ne (StableHlo.devRef_ne_of_ne (by decide))]
    exact ((dat0 (Vin (T3 m)) c).arrAt_in ⟨0, by decide⟩ rfl _).trans (A_eq0 (Vin (T3 m)) c _)
  | ⟨1, _⟩ =>
    show _ = Function.update (T3 m c) main_v49 (X0 m c main_v49) (Proc.devRef .tc (Pipeline.arrRef spec0 ⟨1, by decide⟩))
    rw [Function.update_of_ne (StableHlo.devRef_ne_of_ne (by decide))]
    exact ((dat0 (Vin (T3 m)) c).arrAt_in ⟨1, by decide⟩ rfl _).trans (A_eq0 (Vin (T3 m)) c _)
  | ⟨2, _⟩ =>
    show _ = Function.update (T3 m c) main_v49 (X0 m c main_v49) (Proc.devRef .tc main_v49)
    rw [Function.update_self]
    exact (hX ⟨2, by decide⟩).symm
theorem hrest0 (c : Dev nD) : ∀ b, b ∉ Finset.univ.image (Pipeline.arrRef spec0) → Vin (T4 m) c b = Vin (T3 m) c b := by
  intro b hb
  show Function.update (T3 m c) main_v49 (X0 m c main_v49) (Proc.devRef .tc b) = _
  refine Function.update_of_ne (StableHlo.devRef_ne_of_ne fun e => hb (Finset.mem_image.mpr ⟨⟨2, by decide⟩, Finset.mem_univ _, ?_⟩)) _ _
  rw [e]

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin (T3 m)) c).loose
  hwaits := Pipeline.hwaits_of_owed_zero _ _ _ _ L lv 0 fun _ _ => rfl
  pre c := iprop(StableHlo.held (c : Thread nD τ) (Pipeline.ucRefs τ sig) (T3 m c) ∗ R c)
  post c := iprop(StableHlo.held (c : Thread nD τ) (Pipeline.ucRefs τ sig) (T4 m c) ∗ R c)
  X c := iprop(∃ r, prngReg c r)
  Y c := iprop(∃ r, prngReg c r)
  Z c := Pipeline.unscopedRest (Ix := Unit) (Name := ℕ) (U := UR sig nD τ) (Lvl := ℕ) spec0 c (Vin (T3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin (T3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vin (T3 m)) c).Φ 0 from rfl]
    iintro ⟨Hp, -, Hr⟩
    iapply (phi_in0 (Vin (T3 m)) c)
    isplitl [Hp]; · iexact Hp
    iexact Hr
  hout c := by
    rw [Pipeline.ownSems0_none, show (pdats m 0 c).Φ (Fin.last _) = (dat0 (Vin (T3 m)) c).Φ (Fin.last _) from rfl]
    have hout := phi_out0 (Vin (T3 m)) c
    iintro HP
    ihave H := hout $$ HP
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin (T3 m) c) (Vin (T4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves, and every other buffer what it held at entry. -/
theorem hF1 (c : Dev nD) (w : Fin cfg1.W) : (dat1 (Vin (T4 m)) c).arrAt w cfg1.N = Vin (T5 m) c (Pipeline.arrRef spec1 w) := by
  have hX : ∀ w : Fin cfg1.W, X1 m c (Proc.devRef .tc (Pipeline.arrRef spec1 w)) = (dat1 (Vin (T4 m)) c).arrAt w cfg1.N := by
    intro w; unfold X1; exact Pipeline.withArrays_arr spec1 launch1.win.arr_inj c _ _ w
  match w with
  | ⟨0, _⟩ =>
    show _ = Function.update (T4 m c) main_v50 (X1 m c main_v50) (Proc.devRef .tc (Pipeline.arrRef spec1 ⟨0, by decide⟩))
    rw [Function.update_of_ne (StableHlo.devRef_ne_of_ne (by decide))]
    exact ((dat1 (Vin (T4 m)) c).arrAt_in ⟨0, by decide⟩ rfl _).trans (A_eq1 (Vin (T4 m)) c _)
  | ⟨1, _⟩ =>
    show _ = Function.update (T4 m c) main_v50 (X1 m c main_v50) (Proc.devRef .tc (Pipeline.arrRef spec1 ⟨1, by decide⟩))
    rw [Function.update_of_ne (StableHlo.devRef_ne_of_ne (by decide))]
    exact ((dat1 (Vin (T4 m)) c).arrAt_in ⟨1, by decide⟩ rfl _).trans (A_eq1 (Vin (T4 m)) c _)
  | ⟨2, _⟩ =>
    show _ = Function.update (T4 m c) main_v50 (X1 m c main_v50) (Proc.devRef .tc (Pipeline.arrRef spec1 ⟨2, by decide⟩))
    rw [Function.update_of_ne (StableHlo.devRef_ne_of_ne (by decide))]
    exact ((dat1 (Vin (T4 m)) c).arrAt_in ⟨2, by decide⟩ rfl _).trans (A_eq1 (Vin (T4 m)) c _)
  | ⟨3, _⟩ =>
    show _ = Function.update (T4 m c) main_v50 (X1 m c main_v50) (Proc.devRef .tc main_v50)
    rw [Function.update_self]
    exact (hX ⟨3, by decide⟩).symm
theorem hrest1 (c : Dev nD) : ∀ b, b ∉ Finset.univ.image (Pipeline.arrRef spec1) → Vin (T5 m) c b = Vin (T4 m) c b := by
  intro b hb
  show Function.update (T4 m c) main_v50 (X1 m c main_v50) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin (T4 m)) c).loose
  hwaits := Pipeline.hwaits_of_owed_zero _ _ _ _ L lv 1 fun _ _ => rfl
  pre c := iprop(StableHlo.held (c : Thread nD τ) (Pipeline.ucRefs τ sig) (T4 m c) ∗ R c)
  post c := iprop(StableHlo.held (c : Thread nD τ) (Pipeline.ucRefs τ sig) (T5 m c) ∗ R c)
  X c := iprop(∃ r, prngReg c r)
  Y c := iprop(∃ r, prngReg c r)
  Z c := Pipeline.unscopedRest (Ix := Unit) (Name := ℕ) (U := UR sig nD τ) (Lvl := ℕ) spec1 c (Vin (T4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin (T4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin (T4 m)) c).Φ 0 from rfl]
    iintro ⟨Hp, -, Hr⟩
    iapply (phi_in1 (Vin (T4 m)) c)
    isplitl [Hp]; · iexact Hp
    iexact Hr
  hout c := by
    rw [Pipeline.ownSems0_none, show (pdats m 1 c).Φ (Fin.last _) = (dat1 (Vin (T4 m)) c).Φ (Fin.last _) from rfl]
    have hout := phi_out1 (Vin (T4 m)) c
    iintro HP
    ihave H := hout $$ HP
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin (T4 m) c) (Vin (T5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves, and every other buffer what it held at entry. -/
theorem hF2 (c : Dev nD) (w : Fin cfg2.W) : (dat2 (Vin (T6 m)) c).arrAt w cfg2.N = Vin (T7 m) c (Pipeline.arrRef spec2 w) := by
  have hX : ∀ w : Fin cfg2.W, X2 m c (Proc.devRef .tc (Pipeline.arrRef spec2 w)) = (dat2 (Vin (T6 m)) c).arrAt w cfg2.N := by
    intro w; unfold X2; exact Pipeline.withArrays_arr spec2 launch2.win.arr_inj c _ _ w
  match w with
  | ⟨0, _⟩ =>
    show _ = Function.update (T6 m c) main_v54 (X2 m c main_v54) (Proc.devRef .tc (Pipeline.arrRef spec2 ⟨0, by decide⟩))
    rw [Function.update_of_ne (StableHlo.devRef_ne_of_ne (by decide))]
    exact ((dat2 (Vin (T6 m)) c).arrAt_in ⟨0, by decide⟩ rfl _).trans (A_eq2 (Vin (T6 m)) c _)
  | ⟨1, _⟩ =>
    show _ = Function.update (T6 m c) main_v54 (X2 m c main_v54) (Proc.devRef .tc (Pipeline.arrRef spec2 ⟨1, by decide⟩))
    rw [Function.update_of_ne (StableHlo.devRef_ne_of_ne (by decide))]
    exact ((dat2 (Vin (T6 m)) c).arrAt_in ⟨1, by decide⟩ rfl _).trans (A_eq2 (Vin (T6 m)) c _)
  | ⟨2, _⟩ =>
    show _ = Function.update (T6 m c) main_v54 (X2 m c main_v54) (Proc.devRef .tc (Pipeline.arrRef spec2 ⟨2, by decide⟩))
    rw [Function.update_of_ne (StableHlo.devRef_ne_of_ne (by decide))]
    exact ((dat2 (Vin (T6 m)) c).arrAt_in ⟨2, by decide⟩ rfl _).trans (A_eq2 (Vin (T6 m)) c _)
  | ⟨3, _⟩ =>
    show _ = Function.update (T6 m c) main_v54 (X2 m c main_v54) (Proc.devRef .tc main_v54)
    rw [Function.update_self]
    exact (hX ⟨3, by decide⟩).symm
theorem hrest2 (c : Dev nD) : ∀ b, b ∉ Finset.univ.image (Pipeline.arrRef spec2) → Vin (T7 m) c b = Vin (T6 m) c b := by
  intro b hb
  show Function.update (T6 m c) main_v54 (X2 m c main_v54) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin (T6 m)) c).loose
  hwaits := Pipeline.hwaits_of_owed_zero _ _ _ _ L lv 2 fun _ _ => rfl
  pre c := iprop(StableHlo.held (c : Thread nD τ) (Pipeline.ucRefs τ sig) (T6 m c) ∗ R c)
  post c := iprop(StableHlo.held (c : Thread nD τ) (Pipeline.ucRefs τ sig) (T7 m c) ∗ R c)
  X c := iprop(∃ r, prngReg c r)
  Y c := iprop(∃ r, prngReg c r)
  Z c := Pipeline.unscopedRest (Ix := Unit) (Name := ℕ) (U := UR sig nD τ) (Lvl := ℕ) spec2 c (Vin (T6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin (T6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vin (T6 m)) c).Φ 0 from rfl]
    iintro ⟨Hp, -, Hr⟩
    iapply (phi_in2 (Vin (T6 m)) c)
    isplitl [Hp]; · iexact Hp
    iexact Hr
  hout c := by
    rw [Pipeline.ownSems0_none, show (pdats m 2 c).Φ (Fin.last _) = (dat2 (Vin (T6 m)) c).Φ (Fin.last _) from rfl]
    have hout := phi_out2 (Vin (T6 m)) c
    iintro HP
    ihave H := hout $$ HP
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin (T6 m) c) (Vin (T7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves, and every other buffer what it held at entry. -/
theorem hF3 (c : Dev nD) (w : Fin cfg3.W) : (dat3 (Vin (T7 m)) c).arrAt w cfg3.N = Vin (T8 m) c (Pipeline.arrRef spec3 w) := by
  have hX : ∀ w : Fin cfg3.W, X3 m c (Proc.devRef .tc (Pipeline.arrRef spec3 w)) = (dat3 (Vin (T7 m)) c).arrAt w cfg3.N := by
    intro w; unfold X3; exact Pipeline.withArrays_arr spec3 launch3.win.arr_inj c _ _ w
  match w with
  | ⟨0, _⟩ =>
    show _ = Function.update (T7 m c) main_v55 (X3 m c main_v55) (Proc.devRef .tc (Pipeline.arrRef spec3 ⟨0, by decide⟩))
    rw [Function.update_of_ne (StableHlo.devRef_ne_of_ne (by decide))]
    exact ((dat3 (Vin (T7 m)) c).arrAt_in ⟨0, by decide⟩ rfl _).trans (A_eq3 (Vin (T7 m)) c _)
  | ⟨1, _⟩ =>
    show _ = Function.update (T7 m c) main_v55 (X3 m c main_v55) (Proc.devRef .tc (Pipeline.arrRef spec3 ⟨1, by decide⟩))
    rw [Function.update_of_ne (StableHlo.devRef_ne_of_ne (by decide))]
    exact ((dat3 (Vin (T7 m)) c).arrAt_in ⟨1, by decide⟩ rfl _).trans (A_eq3 (Vin (T7 m)) c _)
  | ⟨2, _⟩ =>
    show _ = Function.update (T7 m c) main_v55 (X3 m c main_v55) (Proc.devRef .tc main_v55)
    rw [Function.update_self]
    exact (hX ⟨2, by decide⟩).symm
theorem hrest3 (c : Dev nD) : ∀ b, b ∉ Finset.univ.image (Pipeline.arrRef spec3) → Vin (T8 m) c b = Vin (T7 m) c b := by
  intro b hb
  show Function.update (T7 m c) main_v55 (X3 m c main_v55) (Proc.devRef .tc b) = _
  refine Function.update_of_ne (StableHlo.devRef_ne_of_ne fun e => hb (Finset.mem_image.mpr ⟨⟨2, by decide⟩, Finset.mem_univ _, ?_⟩)) _ _
  rw [e]

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin (T7 m)) c).loose
  hwaits := Pipeline.hwaits_of_owed_zero _ _ _ _ L lv 3 fun _ _ => rfl
  pre c := iprop(StableHlo.held (c : Thread nD τ) (Pipeline.ucRefs τ sig) (T7 m c) ∗ R c)
  post c := iprop(StableHlo.held (c : Thread nD τ) (Pipeline.ucRefs τ sig) (T8 m c) ∗ R c)
  X c := iprop(∃ r, prngReg c r)
  Y c := iprop(∃ r, prngReg c r)
  Z c := Pipeline.unscopedRest (Ix := Unit) (Name := ℕ) (U := UR sig nD τ) (Lvl := ℕ) spec3 c (Vin (T7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin (T7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Vin (T7 m)) c).Φ 0 from rfl]
    iintro ⟨Hp, -, Hr⟩
    iapply (phi_in3 (Vin (T7 m)) c)
    isplitl [Hp]; · iexact Hp
    iexact Hr
  hout c := by
    rw [Pipeline.ownSems0_none, show (pdats m 3 c).Φ (Fin.last _) = (dat3 (Vin (T7 m)) c).Φ (Fin.last _) from rfl]
    have hout := phi_out3 (Vin (T7 m)) c
    iintro HP
    ihave H := hout $$ HP
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin (T7 m) c) (Vin (T8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves, and every other buffer what it held at entry. -/
theorem hF4 (c : Dev nD) (w : Fin cfg4.W) : (dat4 (Vin (T8 m)) c).arrAt w cfg4.N = Vin (T9 m) c (Pipeline.arrRef spec4 w) := by
  have hX : ∀ w : Fin cfg4.W, X4 m c (Proc.devRef .tc (Pipeline.arrRef spec4 w)) = (dat4 (Vin (T8 m)) c).arrAt w cfg4.N := by
    intro w; unfold X4; exact Pipeline.withArrays_arr spec4 launch4.win.arr_inj c _ _ w
  match w with
  | ⟨0, _⟩ =>
    show _ = Function.update (T8 m c) main_v56 (X4 m c main_v56) (Proc.devRef .tc (Pipeline.arrRef spec4 ⟨0, by decide⟩))
    rw [Function.update_of_ne (StableHlo.devRef_ne_of_ne (by decide))]
    exact ((dat4 (Vin (T8 m)) c).arrAt_in ⟨0, by decide⟩ rfl _).trans (A_eq4 (Vin (T8 m)) c _)
  | ⟨1, _⟩ =>
    show _ = Function.update (T8 m c) main_v56 (X4 m c main_v56) (Proc.devRef .tc (Pipeline.arrRef spec4 ⟨1, by decide⟩))
    rw [Function.update_of_ne (StableHlo.devRef_ne_of_ne (by decide))]
    exact ((dat4 (Vin (T8 m)) c).arrAt_in ⟨1, by decide⟩ rfl _).trans (A_eq4 (Vin (T8 m)) c _)
  | ⟨2, _⟩ =>
    show _ = Function.update (T8 m c) main_v56 (X4 m c main_v56) (Proc.devRef .tc (Pipeline.arrRef spec4 ⟨2, by decide⟩))
    rw [Function.update_of_ne (StableHlo.devRef_ne_of_ne (by decide))]
    exact ((dat4 (Vin (T8 m)) c).arrAt_in ⟨2, by decide⟩ rfl _).trans (A_eq4 (Vin (T8 m)) c _)
  | ⟨3, _⟩ =>
    show _ = Function.update (T8 m c) main_v56 (X4 m c main_v56) (Proc.devRef .tc main_v56)
    rw [Function.update_self]
    exact (hX ⟨3, by decide⟩).symm
theorem hrest4 (c : Dev nD) : ∀ b, b ∉ Finset.univ.image (Pipeline.arrRef spec4) → Vin (T9 m) c b = Vin (T8 m) c b := by
  intro b hb
  show Function.update (T8 m c) main_v56 (X4 m c main_v56) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin (T8 m)) c).loose
  hwaits := Pipeline.hwaits_of_owed_zero _ _ _ _ L lv 4 fun _ _ => rfl
  pre c := iprop(StableHlo.held (c : Thread nD τ) (Pipeline.ucRefs τ sig) (T8 m c) ∗ R c)
  post c := iprop(StableHlo.held (c : Thread nD τ) (Pipeline.ucRefs τ sig) (T9 m c) ∗ R c)
  X c := iprop(∃ r, prngReg c r)
  Y c := iprop(∃ r, prngReg c r)
  Z c := Pipeline.unscopedRest (Ix := Unit) (Name := ℕ) (U := UR sig nD τ) (Lvl := ℕ) spec4 c (Vin (T8 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin (T8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vin (T8 m)) c).Φ 0 from rfl]
    iintro ⟨Hp, -, Hr⟩
    iapply (phi_in4 (Vin (T8 m)) c)
    isplitl [Hp]; · iexact Hp
    iexact Hr
  hout c := by
    rw [Pipeline.ownSems0_none, show (pdats m 4 c).Φ (Fin.last _) = (dat4 (Vin (T8 m)) c).Φ (Fin.last _) from rfl]
    have hout := phi_out4 (Vin (T8 m)) c
    iintro HP
    ihave H := hout $$ HP
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin (T8 m) c) (Vin (T9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 5's exit each of its arrays holds what the pipeline leaves, and every other buffer what it held at entry. -/
theorem hF5 (c : Dev nD) (w : Fin cfg5.W) : (dat5 (Vin (T10 m)) c).arrAt w cfg5.N = Vin (T11 m) c (Pipeline.arrRef spec5 w) := by
  have hX : ∀ w : Fin cfg5.W, X5 m c (Proc.devRef .tc (Pipeline.arrRef spec5 w)) = (dat5 (Vin (T10 m)) c).arrAt w cfg5.N := by
    intro w; unfold X5; exact Pipeline.withArrays_arr spec5 launch5.win.arr_inj c _ _ w
  match w with
  | ⟨0, _⟩ =>
    show _ = Function.update (T10 m c) main_v60 (X5 m c main_v60) (Proc.devRef .tc (Pipeline.arrRef spec5 ⟨0, by decide⟩))
    rw [Function.update_of_ne (StableHlo.devRef_ne_of_ne (by decide))]
    exact ((dat5 (Vin (T10 m)) c).arrAt_in ⟨0, by decide⟩ rfl _).trans (A_eq5 (Vin (T10 m)) c _)
  | ⟨1, _⟩ =>
    show _ = Function.update (T10 m c) main_v60 (X5 m c main_v60) (Proc.devRef .tc (Pipeline.arrRef spec5 ⟨1, by decide⟩))
    rw [Function.update_of_ne (StableHlo.devRef_ne_of_ne (by decide))]
    exact ((dat5 (Vin (T10 m)) c).arrAt_in ⟨1, by decide⟩ rfl _).trans (A_eq5 (Vin (T10 m)) c _)
  | ⟨2, _⟩ =>
    show _ = Function.update (T10 m c) main_v60 (X5 m c main_v60) (Proc.devRef .tc (Pipeline.arrRef spec5 ⟨2, by decide⟩))
    rw [Function.update_of_ne (StableHlo.devRef_ne_of_ne (by decide))]
    exact ((dat5 (Vin (T10 m)) c).arrAt_in ⟨2, by decide⟩ rfl _).trans (A_eq5 (Vin (T10 m)) c _)
  | ⟨3, _⟩ =>
    show _ = Function.update (T10 m c) main_v60 (X5 m c main_v60) (Proc.devRef .tc main_v60)
    rw [Function.update_self]
    exact (hX ⟨3, by decide⟩).symm
theorem hrest5 (c : Dev nD) : ∀ b, b ∉ Finset.univ.image (Pipeline.arrRef spec5) → Vin (T11 m) c b = Vin (T10 m) c b := by
  intro b hb
  show Function.update (T10 m c) main_v60 (X5 m c main_v60) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin (T10 m)) c).loose
  hwaits := Pipeline.hwaits_of_owed_zero _ _ _ _ L lv 5 fun _ _ => rfl
  pre c := iprop(StableHlo.held (c : Thread nD τ) (Pipeline.ucRefs τ sig) (T10 m c) ∗ R c)
  post c := iprop(StableHlo.held (c : Thread nD τ) (Pipeline.ucRefs τ sig) (T11 m c) ∗ R c)
  X c := iprop(∃ r, prngReg c r)
  Y c := iprop(∃ r, prngReg c r)
  Z c := Pipeline.unscopedRest (Ix := Unit) (Name := ℕ) (U := UR sig nD τ) (Lvl := ℕ) spec5 c (Vin (T10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin (T10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Vin (T10 m)) c).Φ 0 from rfl]
    iintro ⟨Hp, -, Hr⟩
    iapply (phi_in5 (Vin (T10 m)) c)
    isplitl [Hp]; · iexact Hp
    iexact Hr
  hout c := by
    rw [Pipeline.ownSems0_none, show (pdats m 5 c).Φ (Fin.last _) = (dat5 (Vin (T10 m)) c).Φ (Fin.last _) from rfl]
    have hout := phi_out5 (Vin (T10 m)) c
    iintro HP
    ihave H := hout $$ HP
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin (T10 m) c) (Vin (T11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 6's exit each of its arrays holds what the pipeline leaves, and every other buffer what it held at entry. -/
theorem hF6 (c : Dev nD) (w : Fin cfg6.W) : (dat6 (Vin (T11 m)) c).arrAt w cfg6.N = Vin (T12 m) c (Pipeline.arrRef spec6 w) := by
  have hX : ∀ w : Fin cfg6.W, X6 m c (Proc.devRef .tc (Pipeline.arrRef spec6 w)) = (dat6 (Vin (T11 m)) c).arrAt w cfg6.N := by
    intro w; unfold X6; exact Pipeline.withArrays_arr spec6 launch6.win.arr_inj c _ _ w
  match w with
  | ⟨0, _⟩ =>
    show _ = Function.update (T11 m c) main_v61 (X6 m c main_v61) (Proc.devRef .tc (Pipeline.arrRef spec6 ⟨0, by decide⟩))
    rw [Function.update_of_ne (StableHlo.devRef_ne_of_ne (by decide))]
    exact ((dat6 (Vin (T11 m)) c).arrAt_in ⟨0, by decide⟩ rfl _).trans (A_eq6 (Vin (T11 m)) c _)
  | ⟨1, _⟩ =>
    show _ = Function.update (T11 m c) main_v61 (X6 m c main_v61) (Proc.devRef .tc (Pipeline.arrRef spec6 ⟨1, by decide⟩))
    rw [Function.update_of_ne (StableHlo.devRef_ne_of_ne (by decide))]
    exact ((dat6 (Vin (T11 m)) c).arrAt_in ⟨1, by decide⟩ rfl _).trans (A_eq6 (Vin (T11 m)) c _)
  | ⟨2, _⟩ =>
    show _ = Function.update (T11 m c) main_v61 (X6 m c main_v61) (Proc.devRef .tc main_v61)
    rw [Function.update_self]
    exact (hX ⟨2, by decide⟩).symm
theorem hrest6 (c : Dev nD) : ∀ b, b ∉ Finset.univ.image (Pipeline.arrRef spec6) → Vin (T12 m) c b = Vin (T11 m) c b := by
  intro b hb
  show Function.update (T11 m c) main_v61 (X6 m c main_v61) (Proc.devRef .tc b) = _
  refine Function.update_of_ne (StableHlo.devRef_ne_of_ne fun e => hb (Finset.mem_image.mpr ⟨⟨2, by decide⟩, Finset.mem_univ _, ?_⟩)) _ _
  rw [e]

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin (T11 m)) c).loose
  hwaits := Pipeline.hwaits_of_owed_zero _ _ _ _ L lv 6 fun _ _ => rfl
  pre c := iprop(StableHlo.held (c : Thread nD τ) (Pipeline.ucRefs τ sig) (T11 m c) ∗ R c)
  post c := iprop(StableHlo.held (c : Thread nD τ) (Pipeline.ucRefs τ sig) (T12 m c) ∗ R c)
  X c := iprop(∃ r, prngReg c r)
  Y c := iprop(∃ r, prngReg c r)
  Z c := Pipeline.unscopedRest (Ix := Unit) (Name := ℕ) (U := UR sig nD τ) (Lvl := ℕ) spec6 c (Vin (T11 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vin (T11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Vin (T11 m)) c).Φ 0 from rfl]
    iintro ⟨Hp, -, Hr⟩
    iapply (phi_in6 (Vin (T11 m)) c)
    isplitl [Hp]; · iexact Hp
    iexact Hr
  hout c := by
    rw [Pipeline.ownSems0_none, show (pdats m 6 c).Φ (Fin.last _) = (dat6 (Vin (T11 m)) c).Φ (Fin.last _) from rfl]
    have hout := phi_out6 (Vin (T11 m)) c
    iintro HP
    ihave H := hout $$ HP
    icases H with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin (T11 m) c) (Vin (T12 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 7's exit each of its arrays holds what the pipeline leaves, and every other buffer what it held at entry. -/
theorem hF7 (c : Dev nD) (w : Fin cfg7.W) : (dat7 (Vin (T12 m)) c).arrAt w cfg7.N = Vin (T13 m) c (Pipeline.arrRef spec7 w) := by
  have hX : ∀ w : Fin cfg7.W, X7 m c (Proc.devRef .tc (Pipeline.arrRef spec7 w)) = (dat7 (Vin (T12 m)) c).arrAt w cfg7.N := by
    intro w; unfold X7; exact Pipeline.withArrays_arr spec7 launch7.win.arr_inj c _ _ w
  match w with
  | ⟨0, _⟩ =>
    show _ = Function.update (T12 m c) main_v62 (X7 m c main_v62) (Proc.devRef .tc (Pipeline.arrRef spec7 ⟨0, by decide⟩))
    rw [Function.update_of_ne (StableHlo.devRef_ne_of_ne (by decide))]
    exact ((dat7 (Vin (T12 m)) c).arrAt_in ⟨0, by decide⟩ rfl _).trans (A_eq7 (Vin (T12 m)) c _)
  | ⟨1, _⟩ =>
    show _ = Function.update (T12 m c) main_v62 (X7 m c main_v62) (Proc.devRef .tc (Pipeline.arrRef spec7 ⟨1, by decide⟩))
    rw [Function.update_of_ne (StableHlo.devRef_ne_of_ne (by decide))]
    exact ((dat7 (Vin (T12 m)) c).arrAt_in ⟨1, by decide⟩ rfl _).trans (A_eq7 (Vin (T12 m)) c _)
  | ⟨2, _⟩ =>
    show _ = Function.update (T12 m c) main_v62 (X7 m c main_v62) (Proc.devRef .tc (Pipeline.arrRef spec7 ⟨2, by decide⟩))
    rw [Function.update_of_ne (StableHlo.devRef_ne_of_ne (by decide))]
    exact ((dat7 (Vin (T12 m)) c).arrAt_in ⟨2, by decide⟩ rfl _).trans (A_eq7 (Vin (T12 m)) c _)
  | ⟨3, _⟩ =>
    show _ = Function.update (T12 m c) main_v62 (X7 m c main_v62) (Proc.devRef .tc main_v62)
    rw [Function.update_self]
    exact (hX ⟨3, by decide⟩).symm
theorem hrest7 (c : Dev nD) : ∀ b, b ∉ Finset.univ.image (Pipeline.arrRef spec7) → Vin (T13 m) c b = Vin (T12 m) c b := by
  intro b hb
  show Function.update (T12 m c) main_v62 (X7 m c main_v62) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin (T12 m)) c).loose
  hwaits := Pipeline.hwaits_of_owed_zero _ _ _ _ L lv 7 fun _ _ => rfl
  pre c := iprop(StableHlo.held (c : Thread nD τ) (Pipeline.ucRefs τ sig) (T12 m c) ∗ R c)
  post c := iprop(StableHlo.held (c : Thread nD τ) (Pipeline.ucRefs τ sig) (T13 m c) ∗ R c)
  X c := iprop(∃ r, prngReg c r)
  Y c := iprop(∃ r, prngReg c r)
  Z c := Pipeline.unscopedRest (Ix := Unit) (Name := ℕ) (U := UR sig nD τ) (Lvl := ℕ) spec7 c (Vin (T12 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vin (T12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Vin (T12 m)) c).Φ 0 from rfl]
    iintro ⟨Hp, -, Hr⟩
    iapply (phi_in7 (Vin (T12 m)) c)
    isplitl [Hp]; · iexact Hp
    iexact Hr
  hout c := by
    rw [Pipeline.ownSems0_none, show (pdats m 7 c).Φ (Fin.last _) = (dat7 (Vin (T12 m)) c).Φ (Fin.last _) from rfl]
    have hout := phi_out7 (Vin (T12 m)) c
    iintro HP
    ihave H := hout $$ HP
    icases H with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin (T12 m) c) (Vin (T13 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 8's exit each of its arrays holds what the pipeline leaves, and every other buffer what it held at entry. -/
theorem hF8 (c : Dev nD) (w : Fin cfg8.W) : (dat8 (Vin (T14 m)) c).arrAt w cfg8.N = Vin (T15 m) c (Pipeline.arrRef spec8 w) := by
  have hX : ∀ w : Fin cfg8.W, X8 m c (Proc.devRef .tc (Pipeline.arrRef spec8 w)) = (dat8 (Vin (T14 m)) c).arrAt w cfg8.N := by
    intro w; unfold X8; exact Pipeline.withArrays_arr spec8 launch8.win.arr_inj c _ _ w
  match w with
  | ⟨0, _⟩ =>
    show _ = Function.update (T14 m c) main_v66 (X8 m c main_v66) (Proc.devRef .tc (Pipeline.arrRef spec8 ⟨0, by decide⟩))
    rw [Function.update_of_ne (StableHlo.devRef_ne_of_ne (by decide))]
    exact ((dat8 (Vin (T14 m)) c).arrAt_in ⟨0, by decide⟩ rfl _).trans (A_eq8 (Vin (T14 m)) c _)
  | ⟨1, _⟩ =>
    show _ = Function.update (T14 m c) main_v66 (X8 m c main_v66) (Proc.devRef .tc (Pipeline.arrRef spec8 ⟨1, by decide⟩))
    rw [Function.update_of_ne (StableHlo.devRef_ne_of_ne (by decide))]
    exact ((dat8 (Vin (T14 m)) c).arrAt_in ⟨1, by decide⟩ rfl _).trans (A_eq8 (Vin (T14 m)) c _)
  | ⟨2, _⟩ =>
    show _ = Function.update (T14 m c) main_v66 (X8 m c main_v66) (Proc.devRef .tc (Pipeline.arrRef spec8 ⟨2, by decide⟩))
    rw [Function.update_of_ne (StableHlo.devRef_ne_of_ne (by decide))]
    exact ((dat8 (Vin (T14 m)) c).arrAt_in ⟨2, by decide⟩ rfl _).trans (A_eq8 (Vin (T14 m)) c _)
  | ⟨3, _⟩ =>
    show _ = Function.update (T14 m c) main_v66 (X8 m c main_v66) (Proc.devRef .tc main_v66)
    rw [Function.update_self]
    exact (hX ⟨3, by decide⟩).symm
theorem hrest8 (c : Dev nD) : ∀ b, b ∉ Finset.univ.image (Pipeline.arrRef spec8) → Vin (T15 m) c b = Vin (T14 m) c b := by
  intro b hb
  show Function.update (T14 m c) main_v66 (X8 m c main_v66) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin (T14 m)) c).loose
  hwaits := Pipeline.hwaits_of_owed_zero _ _ _ _ L lv 8 fun _ _ => rfl
  pre c := iprop(StableHlo.held (c : Thread nD τ) (Pipeline.ucRefs τ sig) (T14 m c) ∗ R c)
  post c := iprop(StableHlo.held (c : Thread nD τ) (Pipeline.ucRefs τ sig) (T15 m c) ∗ R c)
  X c := iprop(∃ r, prngReg c r)
  Y c := iprop(∃ r, prngReg c r)
  Z c := Pipeline.unscopedRest (Ix := Unit) (Name := ℕ) (U := UR sig nD τ) (Lvl := ℕ) spec8 c (Vin (T14 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vin (T14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Vin (T14 m)) c).Φ 0 from rfl]
    iintro ⟨Hp, -, Hr⟩
    iapply (phi_in8 (Vin (T14 m)) c)
    isplitl [Hp]; · iexact Hp
    iexact Hr
  hout c := by
    rw [Pipeline.ownSems0_none, show (pdats m 8 c).Φ (Fin.last _) = (dat8 (Vin (T14 m)) c).Φ (Fin.last _) from rfl]
    have hout := phi_out8 (Vin (T14 m)) c
    iintro HP
    ihave H := hout $$ HP
    icases H with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin (T14 m) c) (Vin (T15 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 9's exit each of its arrays holds what the pipeline leaves, and every other buffer what it held at entry. -/
theorem hF9 (c : Dev nD) (w : Fin cfg9.W) : (dat9 (Vin (T16 m)) c).arrAt w cfg9.N = Vin (T17 m) c (Pipeline.arrRef spec9 w) := by
  have hX : ∀ w : Fin cfg9.W, X9 m c (Proc.devRef .tc (Pipeline.arrRef spec9 w)) = (dat9 (Vin (T16 m)) c).arrAt w cfg9.N := by
    intro w; unfold X9; exact Pipeline.withArrays_arr spec9 launch9.win.arr_inj c _ _ w
  match w with
  | ⟨0, _⟩ =>
    show _ = Function.update (T16 m c) main_v70 (X9 m c main_v70) (Proc.devRef .tc (Pipeline.arrRef spec9 ⟨0, by decide⟩))
    rw [Function.update_of_ne (StableHlo.devRef_ne_of_ne (by decide))]
    exact ((dat9 (Vin (T16 m)) c).arrAt_in ⟨0, by decide⟩ rfl _).trans (A_eq9 (Vin (T16 m)) c _)
  | ⟨1, _⟩ =>
    show _ = Function.update (T16 m c) main_v70 (X9 m c main_v70) (Proc.devRef .tc (Pipeline.arrRef spec9 ⟨1, by decide⟩))
    rw [Function.update_of_ne (StableHlo.devRef_ne_of_ne (by decide))]
    exact ((dat9 (Vin (T16 m)) c).arrAt_in ⟨1, by decide⟩ rfl _).trans (A_eq9 (Vin (T16 m)) c _)
  | ⟨2, _⟩ =>
    show _ = Function.update (T16 m c) main_v70 (X9 m c main_v70) (Proc.devRef .tc (Pipeline.arrRef spec9 ⟨2, by decide⟩))
    rw [Function.update_of_ne (StableHlo.devRef_ne_of_ne (by decide))]
    exact ((dat9 (Vin (T16 m)) c).arrAt_in ⟨2, by decide⟩ rfl _).trans (A_eq9 (Vin (T16 m)) c _)
  | ⟨3, _⟩ =>
    show _ = Function.update (T16 m c) main_v70 (X9 m c main_v70) (Proc.devRef .tc main_v70)
    rw [Function.update_self]
    exact (hX ⟨3, by decide⟩).symm
theorem hrest9 (c : Dev nD) : ∀ b, b ∉ Finset.univ.image (Pipeline.arrRef spec9) → Vin (T17 m) c b = Vin (T16 m) c b := by
  intro b hb
  show Function.update (T16 m c) main_v70 (X9 m c main_v70) (Proc.devRef .tc b) = _
  refine Function.update_of_ne (StableHlo.devRef_ne_of_ne fun e => hb (Finset.mem_image.mpr ⟨⟨3, by decide⟩, Finset.mem_univ _, ?_⟩)) _ _
  rw [e]

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin (T16 m)) c).loose
  hwaits := Pipeline.hwaits_of_owed_zero _ _ _ _ L lv 9 fun _ _ => rfl
  pre c := iprop(StableHlo.held (c : Thread nD τ) (Pipeline.ucRefs τ sig) (T16 m c) ∗ R c)
  post c := iprop(StableHlo.held (c : Thread nD τ) (Pipeline.ucRefs τ sig) (T17 m c) ∗ R c)
  X c := iprop(∃ r, prngReg c r)
  Y c := iprop(∃ r, prngReg c r)
  Z c := Pipeline.unscopedRest (Ix := Unit) (Name := ℕ) (U := UR sig nD τ) (Lvl := ℕ) spec9 c (Vin (T16 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vin (T16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (Vin (T16 m)) c).Φ 0 from rfl]
    iintro ⟨Hp, -, Hr⟩
    iapply (phi_in9 (Vin (T16 m)) c)
    isplitl [Hp]; · iexact Hp
    iexact Hr
  hout c := by
    rw [Pipeline.ownSems0_none, show (pdats m 9 c).Φ (Fin.last _) = (dat9 (Vin (T16 m)) c).Φ (Fin.last _) from rfl]
    have hout := phi_out9 (Vin (T16 m)) c
    iintro HP
    ihave H := hout $$ HP
    icases H with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin (T16 m) c) (Vin (T17 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (T0 m)),
    .host (hseg hostOps0_1 hostOps0_1_sub hostOps0_1_fresh (T1 m)),
    .host (hseg hostOps0_2 hostOps0_2_sub hostOps0_2_fresh (T2 m)),
    .region (reg0 m),
    .region (reg1 m),
    .host (hseg hostOps2 hostOps2_sub hostOps2_fresh (T5 m)),
    .region (reg2 m),
    .region (reg3 m),
    .region (reg4 m),
    .host (hseg hostOps5 hostOps5_sub hostOps5_fresh (T9 m)),
    .region (reg5 m),
    .region (reg6 m),
    .region (reg7 m),
    .host (hseg hostOps8 hostOps8_sub hostOps8_fresh (T13 m)),
    .region (reg8 m),
    .host (hseg hostOps9 hostOps9_sub hostOps9_fresh (T15 m)),
    .region (reg9 m),
    .host (hseg hostOps10 hostOps10_sub hostOps10_fresh (T17 m)) ]

theorem main_run (c : Dev nD) : main (F := F) c = Pipeline.Seg.run (segs m) := (main_chain c).trans (by chain_rfl)

/-- The last thread state without the debts: every unscoped buffer at the last valuation, the generator register at some state. -/
abbrev Tₙ (c : Dev nD) : sProp 𝕄 := iprop(StableHlo.held (c : Thread nD τ) (Pipeline.ucRefs τ sig) (T18 m c) ∗ ∃ r, prngReg c r)

set_option backward.isDefEq.respectTransparency.types false in
/-- THE RUN: from any memory with zero counters every weakly fair execution of @main terminates, nothing faulting, and
    every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = T18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (T0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (T18 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (T0 m c)
        from Pipeline.unscopedBufs_held c (T0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = T18 m c b)
    (hfin := fun c s' => by
      iintro ⟨⟨Hh, -⟩, HSI⟩
      unfold StableHlo.held
      imodintro
      iapply (pointsTo_read_all (Pipeline.ucRefs τ sig) (fun b => (((c : Thread nD τ)).1, b)) (T18 m c) s')
      isplitl [Hh] <;> iassumption)
    (hQ := fun s h c => h c)

end Cert.KernelIdeal.Hand

end
-- ==== Proof.KI.Args.lean ====
/-
  No item of @main writes an argument buffer: a host stretch writes only the buffers its operations name, a region
  changes only its output array; so at the last valuation every argument holds its launch contents.
-/
import proofs.«130334_j70351564308694_1_alg».proof.Proof.Gen.KernelIdeal.Regions
import proofs.«130334_j70351564308694_1_alg».proof.Proof.Gen.KernelIdeal.Points
import proofs.«130334_j70351564308694_1_alg».proof.Proof.Gen.KernelIdeal.Skeleton
import proofs.«130334_j70351564308694_1_alg».proof.Proof.KI.Run
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem T1_of (c : Dev nD) (r : Ref sig .tc) (h : r ∉ hostOps0_W) : T1 m c r = T0 m c r :=
  StableHlo.after_of_writes_sub hostOps0 _ hostOps0_writes h
theorem T2_of (c : Dev nD) (r : Ref sig .tc) (h : r ∉ hostOps0_1_W) : T2 m c r = T1 m c r :=
  StableHlo.after_of_writes_sub hostOps0_1 _ hostOps0_1_writes h
theorem T3_of (c : Dev nD) (r : Ref sig .tc) (h : r ∉ hostOps0_2_W) : T3 m c r = T2 m c r :=
  StableHlo.after_of_writes_sub hostOps0_2 _ hostOps0_2_writes h
theorem T4_of (c : Dev nD) (r : Ref sig .tc) (h : r ∉ ([main_v49] : List (Ref sig .tc))) : T4 m c r = T3 m c r := by
  show Function.update (T3 m c) main_v49 (X0 m c main_v49) (Proc.devRef .tc r) = _
  exact Function.update_of_ne (StableHlo.devRef_ne_of_ne (List.ne_of_not_mem_cons h)) _ _
theorem T5_of (c : Dev nD) (r : Ref sig .tc) (h : r ∉ ([main_v50] : List (Ref sig .tc))) : T5 m c r = T4 m c r := by
  show Function.update (T4 m c) main_v50 (X1 m c main_v50) (Proc.devRef .tc r) = _
  exact Function.update_of_ne (StableHlo.devRef_ne_of_ne (List.ne_of_not_mem_cons h)) _ _
theorem T6_of (c : Dev nD) (r : Ref sig .tc) (h : r ∉ hostOps2_W) : T6 m c r = T5 m c r :=
  StableHlo.after_of_writes_sub hostOps2 _ hostOps2_writes h
theorem T7_of (c : Dev nD) (r : Ref sig .tc) (h : r ∉ ([main_v54] : List (Ref sig .tc))) : T7 m c r = T6 m c r := by
  show Function.update (T6 m c) main_v54 (X2 m c main_v54) (Proc.devRef .tc r) = _
  exact Function.update_of_ne (StableHlo.devRef_ne_of_ne (List.ne_of_not_mem_cons h)) _ _
theorem T8_of (c : Dev nD) (r : Ref sig .tc) (h : r ∉ ([main_v55] : List (Ref sig .tc))) : T8 m c r = T7 m c r := by
  show Function.update (T7 m c) main_v55 (X3 m c main_v55) (Proc.devRef .tc r) = _
  exact Function.update_of_ne (StableHlo.devRef_ne_of_ne (List.ne_of_not_mem_cons h)) _ _
theorem T9_of (c : Dev nD) (r : Ref sig .tc) (h : r ∉ ([main_v56] : List (Ref sig .tc))) : T9 m c r = T8 m c r := by
  show Function.update (T8 m c) main_v56 (X4 m c main_v56) (Proc.devRef .tc r) = _
  exact Function.update_of_ne (StableHlo.devRef_ne_of_ne (List.ne_of_not_mem_cons h)) _ _
theorem T10_of (c : Dev nD) (r : Ref sig .tc) (h : r ∉ hostOps5_W) : T10 m c r = T9 m c r :=
  StableHlo.after_of_writes_sub hostOps5 _ hostOps5_writes h
theorem T11_of (c : Dev nD) (r : Ref sig .tc) (h : r ∉ ([main_v60] : List (Ref sig .tc))) : T11 m c r = T10 m c r := by
  show Function.update (T10 m c) main_v60 (X5 m c main_v60) (Proc.devRef .tc r) = _
  exact Function.update_of_ne (StableHlo.devRef_ne_of_ne (List.ne_of_not_mem_cons h)) _ _
theorem T12_of (c : Dev nD) (r : Ref sig .tc) (h : r ∉ ([main_v61] : List (Ref sig .tc))) : T12 m c r = T11 m c r := by
  show Function.update (T11 m c) main_v61 (X6 m c main_v61) (Proc.devRef .tc r) = _
  exact Function.update_of_ne (StableHlo.devRef_ne_of_ne (List.ne_of_not_mem_cons h)) _ _
theorem T13_of (c : Dev nD) (r : Ref sig .tc) (h : r ∉ ([main_v62] : List (Ref sig .tc))) : T13 m c r = T12 m c r := by
  show Function.update (T12 m c) main_v62 (X7 m c main_v62) (Proc.devRef .tc r) = _
  exact Function.update_of_ne (StableHlo.devRef_ne_of_ne (List.ne_of_not_mem_cons h)) _ _
theorem T14_of (c : Dev nD) (r : Ref sig .tc) (h : r ∉ hostOps8_W) : T14 m c r = T13 m c r :=
  StableHlo.after_of_writes_sub hostOps8 _ hostOps8_writes h
theorem T15_of (c : Dev nD) (r : Ref sig .tc) (h : r ∉ ([main_v66] : List (Ref sig .tc))) : T15 m c r = T14 m c r := by
  show Function.update (T14 m c) main_v66 (X8 m c main_v66) (Proc.devRef .tc r) = _
  exact Function.update_of_ne (StableHlo.devRef_ne_of_ne (List.ne_of_not_mem_cons h)) _ _
theorem T16_of (c : Dev nD) (r : Ref sig .tc) (h : r ∉ hostOps9_W) : T16 m c r = T15 m c r :=
  StableHlo.after_of_writes_sub hostOps9 _ hostOps9_writes h
theorem T17_of (c : Dev nD) (r : Ref sig .tc) (h : r ∉ ([main_v70] : List (Ref sig .tc))) : T17 m c r = T16 m c r := by
  show Function.update (T16 m c) main_v70 (X9 m c main_v70) (Proc.devRef .tc r) = _
  exact Function.update_of_ne (StableHlo.devRef_ne_of_ne (List.ne_of_not_mem_cons h)) _ _
theorem T18_of (c : Dev nD) (r : Ref sig .tc) (h : r ∉ hostOps10_W) : T18 m c r = T17 m c r :=
  StableHlo.after_of_writes_sub hostOps10 _ hostOps10_writes h

/-- A buffer no item writes holds its launch contents at the end. -/
theorem T18_kept (c : Dev nD) (r : Ref sig .tc)
    (h0 : r ∉ hostOps0_W)
    (h1 : r ∉ hostOps0_1_W)
    (h2 : r ∉ hostOps0_2_W)
    (h3 : r ∉ ([main_v49] : List (Ref sig .tc)))
    (h4 : r ∉ ([main_v50] : List (Ref sig .tc)))
    (h5 : r ∉ hostOps2_W)
    (h6 : r ∉ ([main_v54] : List (Ref sig .tc)))
    (h7 : r ∉ ([main_v55] : List (Ref sig .tc)))
    (h8 : r ∉ ([main_v56] : List (Ref sig .tc)))
    (h9 : r ∉ hostOps5_W)
    (h10 : r ∉ ([main_v60] : List (Ref sig .tc)))
    (h11 : r ∉ ([main_v61] : List (Ref sig .tc)))
    (h12 : r ∉ ([main_v62] : List (Ref sig .tc)))
    (h13 : r ∉ hostOps8_W)
    (h14 : r ∉ ([main_v66] : List (Ref sig .tc)))
    (h15 : r ∉ hostOps9_W)
    (h16 : r ∉ ([main_v70] : List (Ref sig .tc)))
    (h17 : r ∉ hostOps10_W) :
    T18 m c r = m ((c : Thread nD τ).loc r) :=
  (T18_of m c r h17).trans <| (T17_of m c r h16).trans <| (T16_of m c r h15).trans <| (T15_of m c r h14).trans <| (T14_of m c r h13).trans <| (T13_of m c r h12).trans <| (T12_of m c r h11).trans <| (T11_of m c r h10).trans <| (T10_of m c r h9).trans <| (T9_of m c r h8).trans <| (T8_of m c r h7).trans <| (T7_of m c r h6).trans <| (T6_of m c r h5).trans <| (T5_of m c r h4).trans <| (T4_of m c r h3).trans <| (T3_of m c r h2).trans <| (T2_of m c r h1).trans <| (T1_of m c r h0)

theorem T18_main_arg0 (c : Dev nD) : T18 m c main_arg0 = m ((c : Thread nD τ).loc main_arg0) :=
  T18_kept m c main_arg0 (by decide) (by decide) (by decide) (by decide) (by decide) (by decide) (by decide) (by decide) (by decide) (by decide) (by decide) (by decide) (by decide) (by decide) (by decide) (by decide) (by decide) (by decide)
theorem T18_main_arg1 (c : Dev nD) : T18 m c main_arg1 = m ((c : Thread nD τ).loc main_arg1) :=
  T18_kept m c main_arg1 (by decide) (by decide) (by decide) (by decide) (by decide) (by decide) (by decide) (by decide) (by decide) (by decide) (by decide) (by decide) (by decide) (by decide) (by decide) (by decide) (by decide) (by decide)
theorem T18_main_arg2 (c : Dev nD) : T18 m c main_arg2 = m ((c : Thread nD τ).loc main_arg2) :=
  T18_kept m c main_arg2 (by decide) (by decide) (by decide) (by decide) (by decide) (by decide) (by decide) (by decide) (by decide) (by decide) (by decide) (by decide) (by decide) (by decide) (by decide) (by decide) (by decide) (by decide)
theorem T18_main_arg3 (c : Dev nD) : T18 m c main_arg3 = m ((c : Thread nD τ).loc main_arg3) :=
  T18_kept m c main_arg3 (by decide) (by decide) (by decide) (by decide) (by decide) (by decide) (by decide) (by decide) (by decide) (by decide) (by decide) (by decide) (by decide) (by decide) (by decide) (by decide) (by decide) (by decide)
theorem T18_main_arg4 (c : Dev nD) : T18 m c main_arg4 = m ((c : Thread nD τ).loc main_arg4) :=
  T18_kept m c main_arg4 (by decide) (by decide) (by decide) (by decide) (by decide) (by decide) (by decide) (by decide) (by decide) (by decide) (by decide) (by decide) (by decide) (by decide) (by decide) (by decide) (by decide) (by decide)
theorem T18_main_arg5 (c : Dev nD) : T18 m c main_arg5 = m ((c : Thread nD τ).loc main_arg5) :=
  T18_kept m c main_arg5 (by decide) (by decide) (by decide) (by decide) (by decide) (by decide) (by decide) (by decide) (by decide) (by decide) (by decide) (by decide) (by decide) (by decide) (by decide) (by decide) (by decide) (by decide)
theorem T18_main_arg6 (c : Dev nD) : T18 m c main_arg6 = m ((c : Thread nD τ).loc main_arg6) :=
  T18_kept m c main_arg6 (by decide) (by decide) (by decide) (by decide) (by decide) (by decide) (by decide) (by decide) (by decide) (by decide) (by decide) (by decide) (by decide) (by decide) (by decide) (by decide) (by decide) (by decide)
theorem T18_main_arg7 (c : Dev nD) : T18 m c main_arg7 = m ((c : Thread nD τ).loc main_arg7) :=
  T18_kept m c main_arg7 (by decide) (by decide) (by decide) (by decide) (by decide) (by decide) (by decide) (by decide) (by decide) (by decide) (by decide) (by decide) (by decide) (by decide) (by decide) (by decide) (by decide) (by decide)
theorem T18_main_arg8 (c : Dev nD) : T18 m c main_arg8 = m ((c : Thread nD τ).loc main_arg8) :=
  T18_kept m c main_arg8 (by decide) (by decide) (by decide) (by decide) (by decide) (by decide) (by decide) (by decide) (by decide) (by decide) (by decide) (by decide) (by decide) (by decide) (by decide) (by decide) (by decide) (by decide)
theorem T18_main_arg9 (c : Dev nD) : T18 m c main_arg9 = m ((c : Thread nD τ).loc main_arg9) :=
  T18_kept m c main_arg9 (by decide) (by decide) (by decide) (by decide) (by decide) (by decide) (by decide) (by decide) (by decide) (by decide) (by decide) (by decide) (by decide) (by decide) (by decide) (by decide) (by decide) (by decide)
theorem T18_main_arg10 (c : Dev nD) : T18 m c main_arg10 = m ((c : Thread nD τ).loc main_arg10) :=
  T18_kept m c main_arg10 (by decide) (by decide) (by decide) (by decide) (by decide) (by decide) (by decide) (by decide) (by decide) (by decide) (by decide) (by decide) (by decide) (by decide) (by decide) (by decide) (by decide) (by decide)
theorem T18_main_arg11 (c : Dev nD) : T18 m c main_arg11 = m ((c : Thread nD τ).loc main_arg11) :=
  T18_kept m c main_arg11 (by decide) (by decide) (by decide) (by decide) (by decide) (by decide) (by decide) (by decide) (by decide) (by decide) (by decide) (by decide) (by decide) (by decide) (by decide) (by decide) (by decide) (by decide)

end Cert.KernelIdeal.Hand

end
-- ==== Proof.FramesKI.lean ====
/-
  The idealized kernel program's frame, read off its run: the run ends with every unscoped buffer at the last valuation,
  and at the last valuation every argument holds its launch contents (no item of @main writes an argument).
-/
import proofs.«130334_j70351564308694_1_alg».proof.Defs
import proofs.«130334_j70351564308694_1_alg».proof.Proof.KI.Args

noncomputable section

namespace Cert.Proof.FramesKI

open Idealize.ShloMosaic Idealize.ShloMosaic.TcCoe Idealize.SL.Sem
open Cert.KernelIdeal Cert.KernelIdeal.Hand

theorem frame [Cert.KernelIdeal.Facts] [Cert.Pre_finite_inputs.Facts] : Cert.frame_KernelIdeal := fun m ρ _ =>
  (θ_run Cert.KernelIdeal.defs _ _).mono (fun r h c =>
    ⟨(h c _ (mem_uc main_arg0 (by decide))).trans (T18_main_arg0 m c),
     (h c _ (mem_uc main_arg1 (by decide))).trans (T18_main_arg1 m c),
     (h c _ (mem_uc main_arg2 (by decide))).trans (T18_main_arg2 m c),
     (h c _ (mem_uc main_arg3 (by decide))).trans (T18_main_arg3 m c),
     (h c _ (mem_uc main_arg4 (by decide))).trans (T18_main_arg4 m c),
     (h c _ (mem_uc main_arg5 (by decide))).trans (T18_main_arg5 m c),
     (h c _ (mem_uc main_arg6 (by decide))).trans (T18_main_arg6 m c),
     (h c _ (mem_uc main_arg7 (by decide))).trans (T18_main_arg7 m c),
     (h c _ (mem_uc main_arg8 (by decide))).trans (T18_main_arg8 m c),
     (h c _ (mem_uc main_arg9 (by decide))).trans (T18_main_arg9 m c),
     (h c _ (mem_uc main_arg10 (by decide))).trans (T18_main_arg10 m c),
     (h c _ (mem_uc main_arg11 (by decide))).trans (T18_main_arg11 m c)⟩)
    (run_all (F := Ideal) m ρ)

end Cert.Proof.FramesKI

end
-- ==== Proof.Spec.lean ====
/-
  The two programs' results as functions of the inputs, over the extended reals, with no program in sight.

  Inputs: node features `v : [10000, 128]`, edges `row, col : Fin 160000 → Fin 10000` (source and target), the
  per-node factor `dis` (1/sqrt of the degree where it is positive, 0 elsewhere — both programs compute it by the same
  host operations, so it is a parameter here), the three layers' weight slabs `W k : [Cin, Cout]` (k = 0, 1, 2) and
  biases, the two heads' weights and biases. The edge weight is `w e = (−dis (row e)) · dis (col e)`.
  * `prop`: the reference's propagation, the weighted source rows summed into the target row, from 0.
  * `layer`: `max (x·W₀ + prop x·W₁ + (2·prop (prop x) − x)·W₂ + b) 0`, the sums grouped as the reference adds them.
  * `refOut`: three layers, then one head `x·Wh + bh`.
  The kernel's side, over 10240 padded rows: `adj` (the weights collected per (target, source) pair, from 0),
  `propD` (the matrix product with `adj`, the contraction cut into 10 blocks of 1024), `pad` (the features with
  zero rows appended), `layerD` (one product of the side-by-side concatenation of the three terms with the stacked
  slabs, plus bias, rectified), `kerOut` (three dense layers, then the product with a head's weights, plus its bias).
-/
import Idealize.ShloMosaic.PureOps.Ideal

noncomputable section

namespace Cert.Proof.Spec

open Finset

variable (row col : Fin 160000 → Fin 10000) (dis : Fin 10000 → EReal)

/-- The edge weight. -/
def w (e : Fin 160000) : EReal := (-(dis (row e))) * dis (col e)

/-! ## The reference -/

/-- Sparse propagation: from 0, the weighted source rows summed into the target row. -/
def prop {C : ℕ} (z : Fin 10000 → Fin C → EReal) (c : Fin 10000) (f : Fin C) : EReal :=
  0 + ∑ e with col e = c, w row col dis e * z (row e) f

/-- One Chebyshev layer of order 3, rectified, the sums grouped as the reference adds them. -/
def layer {Ci Co : ℕ} (W : Fin 3 → Fin Ci → Fin Co → EReal) (b : Fin Co → EReal) (x : Fin 10000 → Fin Ci → EReal)
    (c : Fin 10000) (o : Fin Co) : EReal :=
  max ((((∑ i, x c i * W 0 i o) + (∑ i, prop row col dis x c i * W 1 i o))
    + (∑ i, ((2 : EReal) * prop row col dis (prop row col dis x) c i - x c i) * W 2 i o)) + b o) 0

/-- A linear head. -/
def head {Ci Co : ℕ} (Wh : Fin Ci → Fin Co → EReal) (bh : Fin Co → EReal) (x : Fin 10000 → Fin Ci → EReal)
    (c : Fin 10000) (o : Fin Co) : EReal :=
  (∑ i, x c i * Wh i o) + bh o

/-- The reference's result for one head: three layers, then the head. -/
def refOut (v : Fin 10000 → Fin 128 → EReal)
    (W1 : Fin 3 → Fin 128 → Fin 128 → EReal) (b1 : Fin 128 → EReal)
    (W2 : Fin 3 → Fin 128 → Fin 256 → EReal) (b2 : Fin 256 → EReal)
    (W3 : Fin 3 → Fin 256 → Fin 512 → EReal) (b3 : Fin 512 → EReal)
    (Wh : Fin 512 → Fin 256 → EReal) (bh : Fin 256 → EReal) : Fin 10000 → Fin 256 → EReal :=
  head Wh bh (layer row col dis W3 b3 (layer row col dis W2 b2 (layer row col dis W1 b1 v)))

/-! ## The kernel -/

/-- The dense padded matrix of the weights at the (target, source) pairs, from 0. -/
def adj (c' r' : Fin 10240) : EReal :=
  0 + ∑ e with ((col e).val = c'.val ∧ (row e).val = r'.val), w row col dis e

/-- Row `k·1024 + j` of the padded node axis. -/
def blk (k : Fin 10) (j : Fin 1024) : Fin 10240 := ⟨k.val * 1024 + j.val, by have := k.isLt; have := j.isLt; omega⟩

/-- Dense propagation: the matrix product with `adj`, the contraction cut into 10 blocks of 1024. -/
def propD {C : ℕ} (Z : Fin 10240 → Fin C → EReal) (c' : Fin 10240) (f : Fin C) : EReal :=
  ∑ k : Fin 10, ∑ j : Fin 1024, adj row col dis c' (blk k j) * Z (blk k j) f

/-- The features with zero rows appended. -/
def pad {C : ℕ} (v : Fin 10000 → Fin C → EReal) (r' : Fin 10240) (f : Fin C) : EReal :=
  if h : r'.val < 10000 then v ⟨r'.val, h⟩ f else 0

/-- The side-by-side concatenation of the three Chebyshev terms, by (term, column). -/
def catD {C : ℕ} (X : Fin 10240 → Fin C → EReal) (c' : Fin 10240) (k : Fin 3) (i : Fin C) : EReal :=
  match k with
  | 0 => X c' i
  | 1 => propD row col dis X c' i
  | 2 => (2 : EReal) * propD row col dis (propD row col dis X) c' i + (-1 : EReal) * X c' i

/-- The dense layer: one product of the concatenation with the stacked slabs, plus bias, rectified. -/
def layerD {Ci Co : ℕ} (W : Fin 3 → Fin Ci → Fin Co → EReal) (b : Fin Co → EReal) (X : Fin 10240 → Fin Ci → EReal)
    (c' : Fin 10240) (o : Fin Co) : EReal :=
  max ((∑ k : Fin 3, ∑ i, catD row col dis X c' k i * W k i o) + b o) 0

/-- The kernel's result for one head, on the first 10000 rows: three dense layers on the padded features, the head. -/
def kerOut (v : Fin 10000 → Fin 128 → EReal)
    (W1 : Fin 3 → Fin 128 → Fin 128 → EReal) (b1 : Fin 128 → EReal)
    (W2 : Fin 3 → Fin 128 → Fin 256 → EReal) (b2 : Fin 256 → EReal)
    (W3 : Fin 3 → Fin 256 → Fin 512 → EReal) (b3 : Fin 512 → EReal)
    (Wh : Fin 512 → Fin 256 → EReal) (bh : Fin 256 → EReal) (c : Fin 10000) (o : Fin 256) : EReal :=
  (∑ i, layerD row col dis W3 b3 (layerD row col dis W2 b2 (layerD row col dis W1 b1 (pad v)))
      ⟨c.val, by have := c.isLt; omega⟩ i * Wh i o) + bh o

end Cert.Proof.Spec

end
-- ==== Proof.KI.Val0.lean ====
/- What the propagation product of region 0 leaves in its result array, at the ideal values. Each case of the body
   leaves in the accumulator the payload of its last whole-buffer store: zero plus the block product at the first
   reduction index, the previous contents plus the block product elsewhere; the output block receives the accumulator
   at the last reduction index. Read at an index, the block product is the sum over the 1024 contraction positions of
   the matrix block's entry times the right factor block's entry (rounding to bf16 is the identity on ideal values).
   So along a row block the accumulator is the in-order sum of the block products, and the result at (r, f) is
   ((((0 + d 0) + d 1) + …) + d 9) with d k the sum over j < 1024 of M (r, 1024 k + j) · Z (1024 k + j, f). -/
import proofs.«130334_j70351564308694_1_alg».proof.Proof.KI.Reg0
import proofs.«130334_j70351564308694_1_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Spec (blk)

theorem hz_0 : (![0, 0] : Fin 2 → Nat) = fun _ => 0 := funext fun a => by fin_cases a <;> rfl

section AnyF
variable {F : FTy → Type} [FloatOps F]

/-- A load of a whole buffer through the whole-shape rectangle reads the buffer's contents. -/
theorem readAt_unit_unread_0 {S : Shape} {e : EltTy} (m : Memref sig .tc .vmem S e) (h : m.IsWhole) {off : Fin S.rank → ℕ}
    (ho : off = fun _ => 0) (inb : ∀ a, off a + S.size a ≤ S.size a) (x : Vec F S e) :
    View.readAt (Elt F) m.view (Rect.unit off S.size inb).toLoadRect (h.unread x) = x := by
  rw [View.readAt_eq_ld, h.read_unread, View.ld_unit_zero ho]

/-- The piece lists the three runs end with (the runs' first components, by projection). -/
theorem kRunA_val_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i) (x0 : Vec F S1024x1024 .bf16) (x1 : Vec F S1024x128 .f32) :
    (kRunA_0 c i arg2 harg2 arg3 harg3 arg4 harg4 arg5 harg5 hc0 hc1 x0 x1).1 = (⟨(Rect.unit ![0, 0] S1024x128.size inb_S1024x128_S1024x128_0_0), k0_pay2 (View.readAt (Elt F) arg2.view (Rect.unit ![0, 0] S1024x1024.size inb_S1024x1024_S1024x1024_0_0).toLoadRect (harg2.unread x0)) (View.readAt (Elt F) arg3.view (Rect.unit ![0, 0] S1024x128.size inb_S1024x128_S1024x128_0_0).toLoadRect (harg3.unread x1)) (kRunA_0.sl.v8 c arg5)⟩ : View.Piece (Elt F) S1024x128 .f32) :: kRunA_0.sl.HS0_1 := rfl
theorem kRunB_val_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i) (x0 : Vec F S1024x1024 .bf16) (x1 xs : Vec F S1024x128 .f32) :
    (kRunB_0 c i arg2 harg2 arg3 harg3 arg4 harg4 arg5 harg5 hc0 hc1 x0 x1 xs).1 = [(⟨(Rect.unit ![0, 0] S1024x128.size inb_S1024x128_S1024x128_0_0), k0_pay2 (View.readAt (Elt F) arg2.view (Rect.unit ![0, 0] S1024x1024.size inb_S1024x1024_S1024x1024_0_0).toLoadRect (harg2.unread x0)) (View.readAt (Elt F) arg3.view (Rect.unit ![0, 0] S1024x128.size inb_S1024x128_S1024x128_0_0).toLoadRect (harg3.unread x1)) (View.readAt (Elt F) arg5.view (Rect.unit ![0, 0] S1024x128.size inb_S1024x128_S1024x128_0_0).toLoadRect (harg5.unread xs))⟩ : View.Piece (Elt F) S1024x128 .f32)] := rfl
theorem kRunC_val1_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) :
    (kRunC_0 c i arg2 harg2 arg3 harg3 arg4 harg4 arg5 harg5 hc0 hc1 x0 x1 xs).1 = [(⟨(Rect.unit ![0, 0] S1024x128.size inb_S1024x128_S1024x128_0_0), kRunC_0.sl.v17 c arg2 harg2 arg3 harg3 arg5 harg5 x0 x1 xs⟩ : View.Piece (Elt F) S1024x128 .f32)] := rfl
theorem kRunC_val2_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) :
    (kRunC_0 c i arg2 harg2 arg3 harg3 arg4 harg4 arg5 harg5 hc0 hc1 x0 x1 xs).2.1 = kRunC_0.sl.HS0_1 c arg2 harg2 arg3 harg3 arg5 harg5 x0 x1 xs := rfl

theorem soutA_eq_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_0 i) (hc1 : ¬cLast_0 i) (x0 : Vec F S1024x1024 .bf16) (x1 : Vec F S1024x128 .f32) :
    soutA_0 c i arg2 harg2 arg3 harg3 arg4 harg4 arg5 harg5 hc0 hc1 x0 x1 = k0_pay2 x0 x1 (k0_pay1 (F := F)) := by
  unfold soutA_0
  rw [View.read_writes_junk_eq_canon, kRunA_val_0]
  rw [View.canon_cons_unit_zero hz_0, readAt_unit_unread_0 _ _ hz_0, readAt_unit_unread_0 _ _ hz_0]
  unfold kRunA_0.sl.v8 kRunA_0.sl.HS0_1
  rw [View.readCov_unit_zero _ hz_0]

theorem soutB_eq_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : ¬cLast_0 i) (x0 : Vec F S1024x1024 .bf16) (x1 xs : Vec F S1024x128 .f32) :
    soutB_0 c i arg2 harg2 arg3 harg3 arg4 harg4 arg5 harg5 hc0 hc1 x0 x1 xs = k0_pay2 x0 x1 xs := by
  unfold soutB_0
  rw [View.read_writes_junk_eq_canon, kRunB_val_0]
  rw [View.canon_unit_zero hz_0, readAt_unit_unread_0 _ _ hz_0, readAt_unit_unread_0 _ _ hz_0, readAt_unit_unread_0 _ _ hz_0]

theorem soutC_eq_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) :
    soutC_0 c i arg2 harg2 arg3 harg3 arg4 harg4 arg5 harg5 hc0 hc1 x0 x1 xs = k0_pay2 x0 x1 xs := by
  unfold soutC_0
  rw [View.read_writes_junk_eq_canon, kRunC_val2_0]
  unfold kRunC_0.sl.HS0_1
  rw [View.canon_unit_zero hz_0, readAt_unit_unread_0 _ _ hz_0, readAt_unit_unread_0 _ _ hz_0, readAt_unit_unread_0 _ _ hz_0]

theorem outC_eq_0 (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_0 i) (hc1 : cLast_0 i) (x0 : Vec F S1024x1024 .bf16) (x1 xs : Vec F S1024x128 .f32) :
    outC_0 c i arg2 harg2 arg3 harg3 arg4 harg4 arg5 harg5 hc0 hc1 x0 x1 xs = k0_pay2 x0 x1 xs := by
  unfold outC_0
  rw [View.read_writes_junk_eq_canon, kRunC_val1_0]
  rw [View.canon_unit_zero hz_0]
  unfold kRunC_0.sl.v17 kRunC_0.sl.HS0_1
  rw [View.readCov_unit_zero _ hz_0, readAt_unit_unread_0 _ _ hz_0, readAt_unit_unread_0 _ _ hz_0, readAt_unit_unread_0 _ _ hz_0]

end AnyF

/-! ## The payloads at an index, at the ideal values -/

theorem pay1_apply_0 (j : S1024x128.Idx) : (k0_pay1 (F := Ideal) j : EReal) = 0 := by
  unfold k0_pay1
  rw [shapeCast_self, broadcast_apply]
  exact Idealize.ShloMosaic.Ideal.ofBits_zero_f32

abbrev lidx_0 (j : S1024x128.Idx) (k : Fin 1024) : S1024x1024.Idx := fun a => match a with
  | ⟨0, _⟩ => ⟨(j 0).val, (j 0).isLt⟩
  | ⟨1, _⟩ => ⟨k.val, k.isLt⟩
abbrev ridx_0 (j : S1024x128.Idx) (k : Fin 1024) : S1024x128.Idx := fun a => match a with
  | ⟨0, _⟩ => ⟨k.val, k.isLt⟩
  | ⟨1, _⟩ => ⟨(j 1).val, (j 1).isLt⟩

theorem lhs_0_0 (j : S1024x128.Idx) (q : dot_S1024x1024_S1024x128_S1024x128_1_0_0_1_n_n.contr.Idx) : (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_0_1 (j : S1024x128.Idx) (q : dot_S1024x1024_S1024x128_S1024x128_1_0_0_1_n_n.contr.Idx) : (dot_S1024x1024_S1024x128_S1024x128_1_0_0_1_n_n.lhsIdx j q 1).val = (q ⟨0, by decide⟩).val :=
  dot_S1024x1024_S1024x128_S1024x128_1_0_0_1_n_n.lhsIdx_val_of_single rfl j q
theorem rhs_0_0 (j : S1024x128.Idx) (q : dot_S1024x1024_S1024x128_S1024x128_1_0_0_1_n_n.contr.Idx) : (dot_S1024x1024_S1024x128_S1024x128_1_0_0_1_n_n.rhsIdx j q 0).val = (q ⟨0, by decide⟩).val :=
  dot_S1024x1024_S1024x128_S1024x128_1_0_0_1_n_n.rhsIdx_val_of_single rfl j q
theorem rhs_0_1 (j : S1024x128.Idx) (q : dot_S1024x1024_S1024x128_S1024x128_1_0_0_1_n_n.contr.Idx) : (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The accumulating payload at an index: what was there plus the row of the matrix block times the column of the
    right factor block. -/
theorem pay2_apply_0 (x0 : Vec Ideal S1024x1024 .bf16) (x1 xs : Vec Ideal S1024x128 .f32) (j : S1024x128.Idx) :
    (k0_pay2 (F := Ideal) x0 x1 xs j : EReal) = (xs j : EReal) + ∑ k : Fin 1024, (x0 (lidx_0 j k) : EReal) * (x1 (ridx_0 j k) : EReal) := by
  unfold k0_pay2
  rw [shapeCast_self, shapeCast_self, shapeCast_self, addf_apply]
  show _ + FloatOps.matmul _ _ _ _ _ j = _
  rw [Idealize.ShloMosaic.Ideal.matmul_constant_zero_apply, ← Equiv.sum_comp (contrEquiv1 dot_S1024x1024_S1024x128_S1024x128_1_0_0_1_n_n 1024 rfl rfl).symm]
  refine congrArg _ (Finset.sum_congr rfl fun k _ => ?_)
  have hk := contrEquiv1_symm_val dot_S1024x1024_S1024x128_S1024x128_1_0_0_1_n_n 1024 rfl rfl k
  have el : dot_S1024x1024_S1024x128_S1024x128_1_0_0_1_n_n.lhsIdx j ((contrEquiv1 dot_S1024x1024_S1024x128_S1024x128_1_0_0_1_n_n 1024 rfl rfl).symm k) = lidx_0 j k := funext fun a => Fin.ext (by
    match a with
    | ⟨0, _⟩ => exact lhs_0_0 _ _
    | ⟨1, _⟩ => exact (lhs_0_1 _ _).trans hk)
  have er : dot_S1024x1024_S1024x128_S1024x128_1_0_0_1_n_n.rhsIdx j ((contrEquiv1 dot_S1024x1024_S1024x128_S1024x128_1_0_0_1_n_n 1024 rfl rfl).symm k) = ridx_0 j k := funext fun a => Fin.ext (by
    match a with
    | ⟨0, _⟩ => exact (rhs_0_0 _ _).trans hk
    | ⟨1, _⟩ => exact rhs_0_1 _ _)
  rw [el, er, truncf_apply]

/-! ## The windows' index maps, decided over the grid -/

theorem idx_facts_0 : ∀ t : Fin cfg0.N,
    win0_0.index t (0 : Fin 2) = t.val / 10 ∧ win0_0.index t (1 : Fin 2) = t.val % 10
    ∧ win0_1.index t (0 : Fin 2) = t.val % 10 ∧ win0_1.index t (1 : Fin 2) = 0
    ∧ win0_2.index t (0 : Fin 2) = t.val / 10 ∧ win0_2.index t (1 : Fin 2) = 0 :=
  (by decide +kernel : ∀ t : Fin grid0.N, _)

section Val
variable (V : (c : Dev nD) → (b : Ref sig .tc) → Buf (Elt Ideal) ((c : Thread nD τ).loc b))

/-- The matrix block of the point (i, k), at (p, q), is the matrix at (1024 i + p, 1024 k + q). -/
theorem iblk0_apply_0 (c : Dev nD) (M : S10240x10240.Idx → EReal) (hM : V c (Pipeline.arrRef spec0 0) = M) (t : Fin cfg0.N)
    (y : S1024x1024.Idx) (r' k' : Fin 10240) (hr : r'.val = 1024 * (t.val / 10) + (y 0).val) (hk : k'.val = 1024 * (t.val % 10) + (y 1).val) :
    (iblk_0 V c 0 t y : EReal) = M (ix2 r' k') := by
  obtain ⟨e0, e1, -, -, -, -⟩ := idx_facts_0 t
  unfold iblk_0
  rw [hM]
  show M (((cfg0.win 0).blk t).view.emb y) = M (ix2 r' k')
  congr 1
  funext a; apply Fin.ext
  match a with
  | ⟨0, _⟩ => show win0_0.index t (0 : Fin 2) * 1024 + 1 * (y 0).val = r'.val; omega
  | ⟨1, _⟩ => show win0_0.index t (1 : Fin 2) * 1024 + 1 * (y 1).val = k'.val; omega

/-- The right factor's block of the point (i, k), at (q, f), is the right factor at (1024 k + q, f). -/
theorem iblk1_apply_0 (c : Dev nD) (Z : S10240x128.Idx → EReal) (hZ : V c (Pipeline.arrRef spec0 1) = Z) (t : Fin cfg0.N)
    (y : S1024x128.Idx) (k' : Fin 10240) (f : Fin 128) (hk : k'.val = 1024 * (t.val % 10) + (y 0).val) (hf : f.val = (y 1).val) :
    (iblk_0 V c 1 t y : EReal) = Z (ix2 k' f) := by
  obtain ⟨-, -, e2, e3, -, -⟩ := idx_facts_0 t
  unfold iblk_0
  rw [hZ]
  show Z (((cfg0.win 1).blk t).view.emb y) = Z (ix2 k' f)
  congr 1
  funext a; apply Fin.ext
  match a with
  | ⟨0, _⟩ => show win0_1.index t (0 : Fin 2) * 1024 + 1 * (y 0).val = k'.val; omega
  | ⟨1, _⟩ => show win0_1.index t (1 : Fin 2) * 128 + 1 * (y 1).val = f.val; omega

/-! ## The accumulator along a row block: the block products summed in order -/

/-- The k-th block product of row r and column f. -/
def dsum_0 (M : S10240x10240.Idx → EReal) (Z : S10240x128.Idx → EReal) (r' : Fin 10240) (f : Fin 128) (k : Fin 10) : EReal :=
  ∑ j : Fin 1024, M (ix2 r' (blk k j)) * Z (ix2 (blk k j) f)
def dN_0 (M : S10240x10240.Idx → EReal) (Z : S10240x128.Idx → EReal) (r' : Fin 10240) (f : Fin 128) (k : ℕ) : EReal :=
  if h : k < 10 then dsum_0 M Z r' f ⟨k, h⟩ else 0
/-- The in-order sum (((0 + D 0) + D 1) + … + D k). -/
def nest_0 (D : ℕ → EReal) : ℕ → EReal
  | 0 => 0 + D 0
  | k + 1 => nest_0 D k + D (k + 1)

theorem blockprod_0 (c : Dev nD) (M : S10240x10240.Idx → EReal) (Z : S10240x128.Idx → EReal)
    (hM : V c (Pipeline.arrRef spec0 0) = M) (hZ : V c (Pipeline.arrRef spec0 1) = Z) (t : Fin cfg0.N) (y : S1024x128.Idx)
    (r' : Fin 10240) (f : Fin 128) (hr : r'.val = 1024 * (t.val / 10) + (y 0).val) (hf : f.val = (y 1).val)
    (x0 : Vec Ideal S1024x1024 .bf16) (x1 : Vec Ideal S1024x128 .f32) (hx0 : x0 = iblk_0 V c 0 t) (hx1 : x1 = iblk_0 V c 1 t) :
    (∑ k : Fin 1024, (x0 (lidx_0 y k) : EReal) * (x1 (ridx_0 y k) : EReal)) = dN_0 M Z r' f (t.val % 10) := by
  subst hx0 hx1
  have hlt : t.val % 10 < 10 := Nat.mod_lt _ (by decide)
  unfold dN_0; rw [dif_pos hlt]; unfold dsum_0
  refine Finset.sum_congr rfl fun j _ => ?_
  rw [iblk0_apply_0 V c M hM t (lidx_0 y j) r' (blk ⟨t.val % 10, hlt⟩ j) hr (by show t.val % 10 * 1024 + j.val = 1024 * (t.val % 10) + j.val; omega),
    iblk1_apply_0 V c Z hZ t (ridx_0 y j) (blk ⟨t.val % 10, hlt⟩ j) f (by show t.val % 10 * 1024 + j.val = 1024 * (t.val % 10) + j.val; omega) hf]

theorem acc_apply_0 (c : Dev nD) (M : S10240x10240.Idx → EReal) (Z : S10240x128.Idx → EReal)
    (hM : V c (Pipeline.arrRef spec0 0) = M) (hZ : V c (Pipeline.arrRef spec0 1) = Z) :
    ∀ (n : ℕ) (hn : n < cfg0.N) (y : S1024x128.Idx) (r' : Fin 10240) (f : Fin 128),
      r'.val = 1024 * (n / 10) + (y 0).val → f.val = (y 1).val →
      (accAt_0 V c n hn y : EReal) = nest_0 (dN_0 M Z r' f) (n % 10) := by
  intro n
  induction n with
  | zero =>
    intro hn y r' f hr hf
    rw [show accAt_0 V c 0 hn = stepAcc_0 V c ⟨0, hn⟩ (VS_0.read (Elt Ideal) VS_0.junk) from rfl]
    unfold stepAcc_0
    rw [dif_pos (show (⟨0, hn⟩ : Fin cfg0.N).val % 10 = 0 from rfl), soutA_eq_0, pay2_apply_0, pay1_apply_0,
      blockprod_0 V c M Z hM hZ ⟨0, hn⟩ y r' f hr hf _ _ rfl rfl]
    rfl
  | succ n ih =>
    intro hn y r' f hr hf
    rw [show accAt_0 V c (n + 1) hn = stepAcc_0 V c ⟨n + 1, hn⟩ (accAt_0 V c n (Nat.lt_of_succ_lt hn)) from rfl]
    unfold stepAcc_0
    by_cases h0 : (n + 1) % 10 = 0
    · rw [dif_pos h0, soutA_eq_0, pay2_apply_0, pay1_apply_0, blockprod_0 V c M Z hM hZ ⟨n + 1, hn⟩ y r' f hr hf _ _ rfl rfl]
      show 0 + dN_0 M Z r' f ((n + 1) % 10) = nest_0 (dN_0 M Z r' f) ((n + 1) % 10)
      rw [h0]; rfl
    · have hr' : r'.val = 1024 * (n / 10) + (y 0).val := by omega
      have hs : (n + 1) % 10 = n % 10 + 1 := by omega
      rw [dif_neg h0]
      by_cases h1 : (n + 1) % 10 = 9
      · rw [dif_pos h1, soutC_eq_0, pay2_apply_0, blockprod_0 V c M Z hM hZ ⟨n + 1, hn⟩ y r' f hr hf _ _ rfl rfl,
          ih (Nat.lt_of_succ_lt hn) y r' f hr' hf]
        show nest_0 (dN_0 M Z r' f) (n % 10) + dN_0 M Z r' f ((n + 1) % 10) = nest_0 (dN_0 M Z r' f) ((n + 1) % 10)
        rw [hs]; rfl
      · rw [dif_neg h1, soutB_eq_0, pay2_apply_0, blockprod_0 V c M Z hM hZ ⟨n + 1, hn⟩ y r' f hr hf _ _ rfl rfl,
          ih (Nat.lt_of_succ_lt hn) y r' f hr' hf]
        show nest_0 (dN_0 M Z r' f) (n % 10) + dN_0 M Z r' f ((n + 1) % 10) = nest_0 (dN_0 M Z r' f) ((n + 1) % 10)
        rw [hs]; rfl

/-- At every point the value named for the output block's buffer is the accumulator's (its copy at a last reduction
    index, the placeholder elsewhere). -/
theorem outAt_eq_acc_0 (c : Dev nD) (t : Fin cfg0.N) : outAt_0 V c t = accAt_0 V c t.val t.isLt := by
  unfold outAt_0
  by_cases h1 : t.val % 10 = 9
  · have h0 : ¬t.val % 10 = 0 := by omega
    rw [dif_pos h1, accAt_step_0 V c t]
    unfold stepAcc_0
    rw [dif_neg h0, dif_pos h1, outC_eq_0, soutC_eq_0]
  · rw [dif_neg h1]

/-! ## From the blocks to the array -/

/-- The result array: at (r, f) the ten block products of row r and column f, summed in order from 0. -/
def G_0 (M : S10240x10240.Idx → EReal) (Z : S10240x128.Idx → EReal) : S10240x128.Idx → EReal :=
  fun i => nest_0 (dN_0 M Z (i 0) (i 1)) 9

theorem flushed_eq_0 (c : Dev nD) (M : S10240x10240.Idx → EReal) (Z : S10240x128.Idx → EReal)
    (hM : V c (Pipeline.arrRef spec0 0) = M) (hZ : V c (Pipeline.arrRef spec0 1) = Z) (t : Fin cfg0.N)
    (hfl : (cfg0.win 2).flush t = true) :
    (dat0 (F := Ideal) V c).flushed 2 t = ((cfg0.win 2).blk t).view.read (Elt Ideal) (G_0 M Z) := by
  have h9 : t.val % 10 = 9 := (flush0_2 t).mp hfl
  obtain ⟨-, -, -, -, e4, e5⟩ := idx_facts_0 t
  show (cfg0.win 2).cut (grid0.coords t) ((dat0 V c).after 2 t) = _
  rw [after_0_2, outAt_eq_acc_0]
  funext y
  show (accAt_0 V c t.val t.isLt y : EReal) = G_0 M Z (((cfg0.win 2).blk t).view.emb y)
  unfold G_0
  rw [acc_apply_0 V c M Z hM hZ t.val t.isLt y ((((cfg0.win 2).blk t).view.emb y) 0) ((((cfg0.win 2).blk t).view.emb y) 1)
    (by show win0_2.index t (0 : Fin 2) * 1024 + 1 * (y 0).val = 1024 * (t.val / 10) + (y 0).val; omega)
    (by show win0_2.index t (1 : Fin 2) * 128 + 1 * (y 1).val = (y 1).val; omega), h9]

theorem mem_blk_0 (t : Fin cfg0.N) (i : S10240x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v49).slice (win0_2.rect t)).set ↔ _
  rw [View.set_slice_whole, Rect.mem_set_unit]
  exact Iff.rfl

/-- Every row of the result lies in the block written back at the last reduction index of its row block. -/
theorem cover_0 (i : S10240x128.Idx) : ∃ t : Fin cfg0.N, (cfg0.win 2).flush t = true ∧ i ∈ ((cfg0.win 2).blk t).view.set := by
  have hi0 : (i 0).val < 10240 := (i 0).isLt
  have hi1 : (i 1).val < 128 := (i 1).isLt
  have hN : cfg0.N = 100 := N_0
  have hb : 10 * ((i 0).val / 1024) + 9 < cfg0.N := by rw [hN]; omega
  obtain ⟨-, -, -, -, e4, e5⟩ := idx_facts_0 ⟨10 * ((i 0).val / 1024) + 9, hb⟩
  have e4' : win0_2.index ⟨10 * ((i 0).val / 1024) + 9, hb⟩ (0 : Fin 2) = (i 0).val / 1024 := by
    rw [e4]; show (10 * ((i 0).val / 1024) + 9) / 10 = (i 0).val / 1024; omega
  refine ⟨⟨10 * ((i 0).val / 1024) + 9, hb⟩, (flush0_2 _).mpr (by show (10 * ((i 0).val / 1024) + 9) % 10 = 9; omega), ?_⟩
  rw [mem_blk_0]
  intro a
  match a with
  | ⟨0, _⟩ =>
    show win0_2.index ⟨10 * ((i 0).val / 1024) + 9, hb⟩ (0 : Fin 2) * 1024 ≤ (i 0).val ∧ (i 0).val < win0_2.index ⟨10 * ((i 0).val / 1024) + 9, hb⟩ (0 : Fin 2) * 1024 + 1024
    rw [e4']; omega
  | ⟨1, _⟩ =>
    show win0_2.index ⟨10 * ((i 0).val / 1024) + 9, hb⟩ (1 : Fin 2) * 128 ≤ (i 1).val ∧ (i 1).val < win0_2.index ⟨10 * ((i 0).val / 1024) + 9, hb⟩ (1 : Fin 2) * 128 + 128
    rw [e5]; omega

theorem final_0 (c : Dev nD) (M : S10240x10240.Idx → EReal) (Z : S10240x128.Idx → EReal)
    (hM : V c (Pipeline.arrRef spec0 0) = M) (hZ : V c (Pipeline.arrRef spec0 1) = Z) :
    (dat0 (F := Ideal) V c).arrAt 2 cfg0.N = G_0 M Z :=
  (dat0 (F := Ideal) V c).arrAt_eq_of_cover 2 (G_0 M Z) (fun t hfl => flushed_eq_0 V c M Z hM hZ t hfl) cover_0

/-- THE VALUE: the result array at (r, f) is the in-order sum of the ten block products of row r and column f. -/
theorem val0_at (c : Dev nD) (M : S10240x10240.Idx → EReal) (Z : S10240x128.Idx → EReal)
    (hM : V c (Pipeline.arrRef spec0 0) = M) (hZ : V c (Pipeline.arrRef spec0 1) = Z) (r' : Fin 10240) (f : Fin 128) :
    (dat0 (F := Ideal) V c).arrAt 2 cfg0.N (ix2 r' f) = ((((((((((0 + (∑ j : Fin 1024, M (ix2 r' (blk 0 j)) * Z (ix2 (blk 0 j) f))) + (∑ j : Fin 1024, M (ix2 r' (blk 1 j)) * Z (ix2 (blk 1 j) f))) + (∑ j : Fin 1024, M (ix2 r' (blk 2 j)) * Z (ix2 (blk 2 j) f))) + (∑ j : Fin 1024, M (ix2 r' (blk 3 j)) * Z (ix2 (blk 3 j) f))) + (∑ j : Fin 1024, M (ix2 r' (blk 4 j)) * Z (ix2 (blk 4 j) f))) + (∑ j : Fin 1024, M (ix2 r' (blk 5 j)) * Z (ix2 (blk 5 j) f))) + (∑ j : Fin 1024, M (ix2 r' (blk 6 j)) * Z (ix2 (blk 6 j) f))) + (∑ j : Fin 1024, M (ix2 r' (blk 7 j)) * Z (ix2 (blk 7 j) f))) + (∑ j : Fin 1024, M (ix2 r' (blk 8 j)) * Z (ix2 (blk 8 j) f))) + (∑ j : Fin 1024, M (ix2 r' (blk 9 j)) * Z (ix2 (blk 9 j) f))) := by
  rw [final_0 V c M Z hM hZ]
  rfl

end Val

end Cert.KernelIdeal.Hand
end
-- ==== Proof.KI.Val1.lean ====
/- The value one Chebyshev propagation step with an affine tail leaves in its output array, over the extended reals.
   Entry (r, f) of the output is 2 · acc + (−1) · addend (r, f), acc = (((0 + d 0) + d 1) + … ) + d 9 in the order the
   ten reduction steps add, d k = ∑ j < 1024, matrix (r, 1024 k + j) · right factor (1024 k + j, f). One accumulation
   step at an entry is "what was there plus a row-by-column product of the two blocks"; a block's entry (a, j) at grid
   point 10 i + k is the array's entry (1024 i + a, 1024 k + j); so by induction on the grid point the accumulator
   after point 10 i + k holds the accumulated sum after step k at the rows of row block i; the last step of each row
   block writes the affine tail of it back, and the ten row blocks cover the array. -/
import proofs.«130334_j70351564308694_1_alg».proof.Proof.KI.Reg1
import proofs.«130334_j70351564308694_1_alg».proof.Proof.Spec
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value the region leaves, at the ideal instance -/

section Value1
open Idealize.ShloMosaic.ValueIdx

/-- The block product into a zero accumulator, at an entry: the sum over the 1024 contracted positions. -/
theorem matmul_1_apply (A : FVec Ideal S1024x1024 .bf16) (B : FVec Ideal S1024x128 .bf16) (a : Fin 1024) (b : Fin 128) :
    FloatOps.matmul dot_S1024x1024_S1024x128_S1024x128_1_0_0_1_n_n none A B (constant (F := Ideal) S1024x128 .f32 0x00000000#32) (ix2 a b)
      = ∑ j : Fin 1024, A (ix2 a j) * B (ix2 j b) := by
  rw [Ideal.matmul_constant_zero_apply, ← Equiv.sum_comp (contrEquiv1 dot_S1024x1024_S1024x128_S1024x128_1_0_0_1_n_n 1024 rfl rfl).symm]
  refine Finset.sum_congr rfl fun j _ => ?_
  have c2 := contrEquiv1_symm_val dot_S1024x1024_S1024x128_S1024x128_1_0_0_1_n_n 1024 rfl rfl j
  have l2 : dot_S1024x1024_S1024x128_S1024x128_1_0_0_1_n_n.lhsIdx (ix2 a b) ((contrEquiv1 _ 1024 rfl rfl).symm j) = ix2 a j := by
    funext ax; apply Fin.ext
    match ax with
    | ⟨0, _⟩ => simp [DotDims.lhsIdx, dot_S1024x1024_S1024x128_S1024x128_1_0_0_1_n_n]; rfl
    | ⟨1, _⟩ => simp [DotDims.lhsIdx, dot_S1024x1024_S1024x128_S1024x128_1_0_0_1_n_n]; exact c2
  have r2 : dot_S1024x1024_S1024x128_S1024x128_1_0_0_1_n_n.rhsIdx (ix2 a b) ((contrEquiv1 _ 1024 rfl rfl).symm j) = ix2 j b := by
    funext ax; apply Fin.ext
    match ax with
    | ⟨0, _⟩ => simp [DotDims.rhsIdx, dot_S1024x1024_S1024x128_S1024x128_1_0_0_1_n_n]; exact c2
    | ⟨1, _⟩ => simp [DotDims.rhsIdx, dot_S1024x1024_S1024x128_S1024x128_1_0_0_1_n_n]; rfl
  rw [l2, r2]

/-- The zero block. -/
theorem pay1_1_apply (i : S1024x128.Idx) : k1_pay1 (F := Ideal) i = 0 := by
  unfold k1_pay1
  simp only [shapeCast_self]
  exact Ideal.ofBits_zero_f32

/-- One accumulation step at an entry: what was there plus the row-by-column product of the two blocks. -/
theorem pay2_1_apply (x0 : Vec Ideal S1024x1024 .bf16) (x1 : Vec Ideal S1024x128 .f32) (xs : Vec Ideal S1024x128 .f32) (a : Fin 1024) (b : Fin 128) :
    k1_pay2 (F := Ideal) x0 x1 xs (ix2 a b) = xs (ix2 a b) + ∑ j : Fin 1024, x0 (ix2 a j) * x1 (ix2 j b) := by
  unfold k1_pay2
  simp only [shapeCast_self]
  show xs (ix2 a b) + FloatOps.matmul dot_S1024x1024_S1024x128_S1024x128_1_0_0_1_n_n none x0 (truncf (F := Ideal) .bf16 x1 bitsLt_bf16_f32) (constant (F := Ideal) S1024x128 .f32 0x00000000#32) (ix2 a b) = _
  rw [matmul_1_apply]
  rfl

/-- The affine tail at an entry. -/
theorem pay3_1_apply (v17 v20 : Vec Ideal S1024x128 .f32) (i : S1024x128.Idx) :
    k1_pay3 (F := Ideal) v17 v20 i = Ideal.ofBits .f32 0x40000000#32 * v17 i + Ideal.ofBits .f32 0xBF800000#32 * v20 i := by
  unfold k1_pay3
  simp only [shapeCast_self]
  rfl

end Value1

section ValueGrid1
open Idealize.ShloMosaic.ValueIdx
open Cert.Proof.Spec (blk)

variable (VI : (c : Dev nD) → (b : Ref sig .tc) → Buf (Elt Ideal) ((c : Thread nD τ).loc b))

/-- The three input arrays as the region finds them, as functions of a rank-2 index. -/
abbrev arrM_1 (c : Dev nD) : S10240x10240.Idx → EReal := VI c (Pipeline.arrRef spec1 0)
abbrev arrZ_1 (c : Dev nD) : S10240x128.Idx → EReal := VI c (Pipeline.arrRef spec1 1)
abbrev arrA_1 (c : Dev nD) : S10240x128.Idx → EReal := VI c (Pipeline.arrRef spec1 2)

/-- The k-th partial product at entry (r, f): the 1024 columns of block k of the matrix row against the matching
    rows of the right factor's column. -/
def dS_1 (c : Dev nD) (r : Fin 10240) (f : Fin 128) (k : Fin 10) : EReal :=
  ∑ j : Fin 1024, arrM_1 VI c (ix2 r (blk k j)) * arrZ_1 VI c (ix2 (blk k j) f)

/-- The accumulated sum after step k, in the order the steps add: (((0 + d 0) + d 1) + …) + d k. -/
def accG_1 (d : Fin 10 → EReal) : ℕ → EReal
  | 0 => 0 + d 0
  | k + 1 => accG_1 d k + d ⟨(k + 1) % 10, Nat.mod_lt _ (by decide)⟩

theorem accG_1_succ (d : Fin 10 → EReal) (k : ℕ) (h : k + 1 < 10) :
    accG_1 d (k + 1) = accG_1 d k + d ⟨k + 1, h⟩ := by
  show _ + d ⟨(k + 1) % 10, _⟩ = _
  congr 2
  exact Fin.ext (Nat.mod_eq_of_lt h)

/-- What the output array holds at the end, entry by entry. -/
def G_1 (c : Dev nD) : S10240x128.Idx → EReal :=
  fun i => Ideal.ofBits .f32 0x40000000#32 * accG_1 (dS_1 VI c (i 0) (i 1)) 9
    + Ideal.ofBits .f32 0xBF800000#32 * arrA_1 VI c i

/-- The printed index maps over the grid: point t = 10 · i + k reads block (i, k) of the matrix, block (k, 0) of the
    right factor, block (i, 0) of the addend, and owns block (i, 0) of the output. -/
theorem idx_1 : ∀ t : Fin cfg1.N,
    win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = t.val / 10 ∧ win1_2.index t (1 : Fin 2) = 0
    ∧ win1_3.index t (0 : Fin 2) = t.val / 10 ∧ win1_3.index t (1 : Fin 2) = 0 :=
  (by decide +kernel : ∀ t : Fin grid1.N, _)

/-- The rows of row block t / 10. -/
abbrev rowOf_1 (t : Fin cfg1.N) (a : Fin 1024) : Fin 10240 :=
  ⟨1024 * (t.val / 10) + a.val, by have := t.isLt; have : cfg1.N = 100 := N_1; have := a.isLt; omega⟩
abbrev stepOf_1 (t : Fin cfg1.N) : Fin 10 := ⟨t.val % 10, Nat.mod_lt _ (by decide)⟩

theorem iblk_1_0_apply (c : Dev nD) (t : Fin cfg1.N) (a j : Fin 1024) :
    iblk_1 VI c 0 t (ix2 a j) = arrM_1 VI c (ix2 (rowOf_1 t a) (blk (stepOf_1 t) j)) := by
  obtain ⟨e0, e1, -⟩ := idx_1 t
  show arrM_1 VI c (((cfg1.win 0).blk t).view.emb (ix2 a j)) = _
  congr 1
  funext ax; apply Fin.ext
  match ax with
  | ⟨0, _⟩ => show win1_0.index t (0 : Fin 2) * 1024 + 1 * a.val = 1024 * (t.val / 10) + a.val; omega
  | ⟨1, _⟩ => show win1_0.index t (1 : Fin 2) * 1024 + 1 * j.val = t.val % 10 * 1024 + j.val; omega

theorem iblk_1_1_apply (c : Dev nD) (t : Fin cfg1.N) (j : Fin 1024) (b : Fin 128) :
    iblk_1 VI c 1 t (ix2 j b) = arrZ_1 VI c (ix2 (blk (stepOf_1 t) j) b) := by
  obtain ⟨-, -, e2, e3, -⟩ := idx_1 t
  show arrZ_1 VI c (((cfg1.win 1).blk t).view.emb (ix2 j b)) = _
  congr 1
  funext ax; apply Fin.ext
  match ax with
  | ⟨0, _⟩ => show win1_1.index t (0 : Fin 2) * 1024 + 1 * j.val = t.val % 10 * 1024 + j.val; omega
  | ⟨1, _⟩ => show win1_1.index t (1 : Fin 2) * 128 + 1 * b.val = b.val; omega

theorem iblk_1_2_apply (c : Dev nD) (t : Fin cfg1.N) (a : Fin 1024) (b : Fin 128) :
    iblk_1 VI c 2 t (ix2 a b) = arrA_1 VI c (ix2 (rowOf_1 t a) b) := by
  obtain ⟨-, -, -, -, e4, e5, -⟩ := idx_1 t
  show arrA_1 VI c (((cfg1.win 2).blk t).view.emb (ix2 a b)) = _
  congr 1
  funext ax; apply Fin.ext
  match ax with
  | ⟨0, _⟩ => show win1_2.index t (0 : Fin 2) * 1024 + 1 * a.val = 1024 * (t.val / 10) + a.val; omega
  | ⟨1, _⟩ => show win1_2.index t (1 : Fin 2) * 128 + 1 * b.val = b.val; omega

/-- One point's product of its two blocks is the partial product of its step, at the point's rows. -/
theorem step_1 (c : Dev nD) (t : Fin cfg1.N) (a : Fin 1024) (b : Fin 128)
    (x0 : Vec Ideal S1024x1024 .bf16) (x1 : Vec Ideal S1024x128 .f32)
    (h0 : x0 = iblk_1 VI c 0 t) (h1 : x1 = iblk_1 VI c 1 t) :
    (∑ j : Fin 1024, x0 (ix2 a j) * x1 (ix2 j b))
      = dS_1 VI c (rowOf_1 t a) b (stepOf_1 t) := by
  subst h0 h1
  unfold dS_1
  refine Finset.sum_congr rfl fun j _ => ?_
  rw [iblk_1_0_apply, iblk_1_1_apply]

/-- THE ACCUMULATOR after point t = 10 · i + k, at entry (a, b) of its block: the accumulated sum after step k at
    row 1024 · i + a. By induction on the point. -/
theorem accAt_1_eq (c : Dev nD) : ∀ (n : ℕ) (hn : n < cfg1.N) (a : Fin 1024) (b : Fin 128),
    accAt_1 VI c n hn (ix2 a b) = accG_1 (dS_1 VI c (rowOf_1 ⟨n, hn⟩ a) b) (n % 10) := by
  intro n
  induction n with
  | zero =>
    intro hn a b
    rw [accAt_1_first VI c ⟨0, hn⟩ rfl, pay2_1_apply, pay1_1_apply, step_1 VI c _ a b _ _ rfl rfl]
    rfl
  | succ n ih =>
    intro hn a b
    have hN : n + 1 < 100 := lt_of_lt_of_eq hn N_1
    by_cases h0 : (n + 1) % 10 = 0
    · rw [accAt_1_first VI c ⟨n + 1, hn⟩ h0, pay2_1_apply, pay1_1_apply, step_1 VI c _ a b _ _ rfl rfl]
      have e : stepOf_1 ⟨n + 1, hn⟩ = 0 := Fin.ext h0
      rw [e]
      show _ = accG_1 _ ((n + 1) % 10)
      rw [h0]
      rfl
    · rw [accAt_1_next VI c ⟨n + 1, hn⟩ h0, pay2_1_apply, step_1 VI c _ a b _ _ rfl rfl]
      show accAt_1 VI c n _ (ix2 a b) + _ = accG_1 _ ((n + 1) % 10)
      rw [ih (Nat.lt_of_succ_lt hn) a b]
      obtain ⟨k, hk⟩ : ∃ k, (n + 1) % 10 = k + 1 := ⟨(n + 1) % 10 - 1, by omega⟩
      have hk10 : k + 1 < 10 := by omega
      have hq : n / 10 = (n + 1) / 10 := by omega
      have hr : n % 10 = k := by omega
      have hrow : rowOf_1 ⟨n, Nat.lt_of_succ_lt hn⟩ a = rowOf_1 ⟨n + 1, hn⟩ a :=
        Fin.ext (by show 1024 * (n / 10) + a.val = 1024 * ((n + 1) / 10) + a.val; rw [hq])
      have e : stepOf_1 ⟨n + 1, hn⟩ = ⟨k + 1, hk10⟩ := Fin.ext hk
      rw [e, hk, accG_1_succ _ k hk10, hr, hrow]

/-- WHAT THE LAST STEP OF A ROW BLOCK WRITES BACK is that block of `G_1`. -/
theorem flushed_1_eq (c : Dev nD) (t : Fin cfg1.N) (hf : (cfg1.win 3).flush t = true) :
    (dat1 (F := Ideal) VI c).flushed 3 t = ((cfg1.win 3).blk t).view.read (Elt Ideal) (G_1 VI c) := by
  have h9 : t.val % 10 = 9 := (flush1_3 t).mp hf
  obtain ⟨-, -, -, -, -, -, e6, e7⟩ := idx_1 t
  show (cfg1.win 3).cut (grid1.coords t) ((dat1 (F := Ideal) VI c).after 3 t) = _
  rw [after_1_3]
  funext y
  obtain ⟨a, b, rfl⟩ : ∃ (a : Fin 1024) (b : Fin 128), y = ix2 a b := ⟨y 0, y 1, eq_ix2 y⟩
  show k1_pay3 (F := Ideal) (accAt_1 VI c t.val t.isLt) (iblk_1 VI c 2 t) (ix2 a b)
    = G_1 VI c (((cfg1.win 3).blk t).view.emb (ix2 a b))
  have hemb : ((cfg1.win 3).blk t).view.emb (ix2 a b) = (ix2 (rowOf_1 t a) b : S10240x128.Idx) := by
    funext ax; apply Fin.ext
    match ax with
    | ⟨0, _⟩ => show win1_3.index t (0 : Fin 2) * 1024 + 1 * a.val = 1024 * (t.val / 10) + a.val; omega
    | ⟨1, _⟩ => show win1_3.index t (1 : Fin 2) * 128 + 1 * b.val = b.val; omega
  rw [hemb, pay3_1_apply, accAt_1_eq, iblk_1_2_apply, h9]
  rfl

theorem mem_blk_1 (t : Fin cfg1.N) (i : S10240x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v50).slice (win1_3.rect t)).set ↔ _
  rw [View.set_slice_whole, Rect.mem_set_unit]
  exact Iff.rfl

/-- Every entry of the output array is in the block some write-back writes: row r is in row block r / 1024, written
    back at that block's last step. -/
theorem cover_1 (i : S10240x128.Idx) :
    ∃ t : Fin cfg1.N, (cfg1.win 3).flush t = true ∧ i ∈ ((cfg1.win 3).blk t).view.set := by
  have hi0 : (i 0).val < 10240 := (i 0).isLt
  have hi1 : (i 1).val < 128 := (i 1).isLt
  have hN : cfg1.N = 100 := N_1
  have hlt : 10 * ((i 0).val / 1024) + 9 < cfg1.N := by omega
  refine ⟨⟨10 * ((i 0).val / 1024) + 9, hlt⟩, (flush1_3 _).mpr (by show (10 * ((i 0).val / 1024) + 9) % 10 = 9; omega), ?_⟩
  rw [mem_blk_1]
  obtain ⟨-, -, -, -, -, -, e6, e7⟩ := idx_1 ⟨10 * ((i 0).val / 1024) + 9, hlt⟩
  have e6' : win1_3.index ⟨10 * ((i 0).val / 1024) + 9, hlt⟩ (0 : Fin 2) = (i 0).val / 1024 := by
    rw [e6]; show (10 * ((i 0).val / 1024) + 9) / 10 = _; omega
  intro a
  match a with
  | ⟨0, _⟩ =>
    show win1_3.index ⟨10 * ((i 0).val / 1024) + 9, hlt⟩ (0 : Fin 2) * 1024 ≤ (i 0).val ∧ (i 0).val < win1_3.index ⟨10 * ((i 0).val / 1024) + 9, hlt⟩ (0 : Fin 2) * 1024 + 1024
    rw [e6']; omega
  | ⟨1, _⟩ =>
    show win1_3.index ⟨10 * ((i 0).val / 1024) + 9, hlt⟩ (1 : Fin 2) * 128 ≤ (i 1).val ∧ (i 1).val < win1_3.index ⟨10 * ((i 0).val / 1024) + 9, hlt⟩ (1 : Fin 2) * 128 + 128
    rw [e7]; omega

/-- The output array after the region is `G_1`. -/
theorem final_1 (c : Dev nD) : (dat1 (F := Ideal) VI c).arrAt 3 cfg1.N = G_1 VI c :=
  (dat1 (F := Ideal) VI c).arrAt_eq_of_cover 3 _ (fun t hf => flushed_1_eq VI c t hf) (cover_1)

/-- THE OUTPUT ARRAY after the region, entry (r', f): 2 · ((((0 + d 0) + d 1) + …) + d 9) + (−1) · addend (r', f), with
    d k = ∑ j < 1024, matrix (r', 1024 k + j) · right factor (1024 k + j, f), all arrays as the region finds them
    (the two literal factors as the words the kernel multiplies by: the f32 patterns of 2 and of −1). -/
theorem val1 (c : Dev nD) (r' : Fin 10240) (f : Fin 128) :
    (dat1 (F := Ideal) VI c).arrAt 3 cfg1.N (ix2 r' f)
      = Ideal.ofBits .f32 0x40000000#32
          * ((((((((((0 + dS_1 VI c r' f 0) + dS_1 VI c r' f 1) + dS_1 VI c r' f 2) + dS_1 VI c r' f 3)
              + dS_1 VI c r' f 4) + dS_1 VI c r' f 5) + dS_1 VI c r' f 6) + dS_1 VI c r' f 7)
              + dS_1 VI c r' f 8) + dS_1 VI c r' f 9)
        + Ideal.ofBits .f32 0xBF800000#32 * arrA_1 VI c (ix2 r' f) := by
  show (dat1 (F := Ideal) VI c).arrAt 3 cfg1.N (ix2 r' f) = _
  rw [final_1]
  rfl

end ValueGrid1

section ValueAt1
open Idealize.ShloMosaic.ValueIdx
open Cert.Proof.Spec (blk)

variable (VI : (c : Dev nD) → (b : Ref sig .tc) → Buf (Elt Ideal) ((c : Thread nD τ).loc b))

/-- The f32 words the affine tail multiplies by are 2 and −1. -/
theorem two_lit_1 : Ideal.ofBits .f32 0x40000000#32 = 2 := by
  simp [Ideal.ofBits, Ideal.ieee]
  rw [← EReal.coe_mul]
  norm_num
  first | rfl | norm_cast | exact_mod_cast rfl | (simp; done)
theorem m1_lit_1 : Ideal.ofBits .f32 0xBF800000#32 = -1 := by
  simp [Ideal.ofBits, Ideal.ieee]
  rw [← EReal.coe_mul]
  norm_num

/-- The k-th partial product at entry (r', f) over given arrays. -/
def dAt_1 (M : S10240x10240.Idx → EReal) (Z : S10240x128.Idx → EReal) (r' : Fin 10240) (f : Fin 128) (k : Fin 10) : EReal :=
  ∑ j : Fin 1024, M (ix2 r' (blk k j)) * Z (ix2 (blk k j) f)

/-- THE OUTPUT ARRAY after the region, entry (r', f), over the arrays the region finds in its three input windows:
    2 · ((((0 + d 0) + d 1) + …) + d 9) + (−1) · addend (r', f), d k = ∑ j < 1024, M (r', 1024 k + j) · Z (1024 k + j, f). -/
theorem val1_at (c : Dev nD) (M : S10240x10240.Idx → EReal) (Z : S10240x128.Idx → EReal) (A : S10240x128.Idx → EReal)
    (hM : VI c (Pipeline.arrRef spec1 0) = M) (hZ : VI c (Pipeline.arrRef spec1 1) = Z)
    (hA : VI c (Pipeline.arrRef spec1 2) = A) (r' : Fin 10240) (f : Fin 128) :
    (dat1 (F := Ideal) VI c).arrAt 3 cfg1.N (ix2 r' f)
      = 2 * ((((((((((0 + dAt_1 M Z r' f 0) + dAt_1 M Z r' f 1) + dAt_1 M Z r' f 2) + dAt_1 M Z r' f 3)
              + dAt_1 M Z r' f 4) + dAt_1 M Z r' f 5) + dAt_1 M Z r' f 6) + dAt_1 M Z r' f 7)
              + dAt_1 M Z r' f 8) + dAt_1 M Z r' f 9)
        + (-1) * A (ix2 r' f) := by
  subst hM hZ hA
  have h := val1 VI c r' f
  rw [two_lit_1, m1_lit_1] at h
  exact h

end ValueAt1

end Cert.KernelIdeal.Hand
end
-- ==== Proof.KI.Val2.lean ====
/- Region 2, read at the ideal values: the output array at row r and column o is the sum over the contracted
   coordinate k of (left factor at (r, k)) times (right factor at (k, o)), plus the bias row at o, then the maximum with zero.
   Each grid point writes one block of 1024 rows; the ten blocks tile the array. -/
import proofs.«130334_j70351564308694_1_alg».proof.Proof.KI.Reg2
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The closed form: the array the region leaves, from the arrays it finds. -/
def G2 (a : S10240x384.Idx → EReal) (b : S384x128.Idx → EReal) (bias : S1x128.Idx → EReal) : S10240x128.Idx → EReal :=
  fun i => max ((∑ k : Fin 384, a (ix2 (i 0 : Fin 10240) k) * b (ix2 k (i 1 : Fin 128))) + bias (ix2 (0 : Fin 1) (i 1 : Fin 128))) 0

/-- The body's payload at an index of the block: the block product into zero, plus the bias row, rectified. -/
theorem pay2_apply (x0 : S1024x384.Idx → EReal) (x1 : S384x128.Idx → EReal) (x2 : S1x128.Idx → EReal) (p : Fin 1024) (q : Fin 128) :
    k2_pay1 (F := Ideal) x0 x1 x2 (ix2 p q) = max ((∑ k : Fin 384, x0 (ix2 p k) * x1 (ix2 k q)) + x2 (ix2 (0 : Fin 1) q)) 0 := by
  unfold k2_pay1
  simp only [shapeCast_self]
  have e1 : matmul (F := Ideal) dot_S1024x384_S384x128_S1024x128_1_0_0_1_n_n none (truncf .bf16 x0 bitsLt_bf16_f32) (truncf .bf16 x1 bitsLt_bf16_f32) (constant S1024x128 .f32 0x00000000#32) (ix2 p q) = ∑ k : Fin 384, x0 (ix2 p k) * x1 (ix2 k q) :=
    (congrFun (matmul_zero_eq_dotGeneral dot_S1024x384_S384x128_S1024x128_1_0_0_1_n_n none _ _) (ix2 p q)).trans (StackMember.dotGeneral_plain_apply none _ _ p q)
  have e2 := broadcastTo_1b_ab_apply x2 broadcasts_S1x128_S1024x128 p q
  show max (_ + _) (Ideal.ofBits .f32 0x00000000#32) = _
  rw [Ideal.ofBits_zero_f32]
  exact congrArg (fun z => max z 0) (congrArg₂ (· + ·) e1 e2)

theorem hz2 : (![0, 0] : Fin 2 → Nat) = fun _ => 0 := funext fun a => by fin_cases a <;> rfl

/-- The printed index maps over the grid: the left factor's and the output's row blocks move with the point, the
    right factor and the bias stay. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem idx_onto2 : ∀ (q0 : Fin 10), ∃ t : Fin cfg2.N, win2_3.index t = ![q0.val, 0] :=
  (by decide +kernel : ∀ (q0 : Fin 10), ∃ t : Fin grid2.N, win2_3.index t = ![q0.val, 0])

set_option maxHeartbeats 1000000 in
/-- What point `t` writes back is block `t` of the closed form of the arrays as the region finds them. -/
theorem flushed2_eq (c : Dev nD) (t : Fin cfg2.N) :
    (dat2 (F := Ideal) V c).flushed 3 t = ((cfg2.win 3).blk t).view.read (Elt Ideal) (G2 (V c main_v51) (V c main_v52) (V c main_v53)) := by
  show (cfg2.win 3).cut (grid2.coords t) ((dat2 V c).after 3 t) = _
  rw [after2_3]
  unfold out2_3
  rw [View.canon_unit_zero hz2]
  simp only [View.ld_unit_zero (S := S1024x384) hz2, View.ld_unit_zero (S := S384x128) hz2, View.ld_unit_zero (S := S1x128) hz2]
  obtain ⟨e0, e1, e2, e3, e4, e5, e6, e7⟩ := idx_facts2 t
  refine funext fun (j : S1024x128.Idx) => ?_
  obtain ⟨p, q, rfl⟩ : ∃ (p : Fin 1024) (q : Fin 128), j = ix2 p q := ⟨j 0, j 1, eq_ix2 j⟩
  refine (pay2_apply _ _ _ p q).trans ?_
  have h0 : ∀ k : Fin 384, (((cfg2.win 0).blk t).view.emb (ix2 p k) : S10240x384.Idx) = ix2 ((((cfg2.win 3).blk t).view.emb (ix2 p q)) 0 : Fin 10240) k := fun k => by
    funext a; apply Fin.ext
    match a with
    | ⟨0, _⟩ => show win2_0.index t (0 : Fin 2) * 1024 + 1 * p.val = win2_3.index t (0 : Fin 2) * 1024 + 1 * p.val; omega
    | ⟨1, _⟩ => show win2_0.index t (1 : Fin 2) * 384 + 1 * k.val = k.val; omega
  have h1 : ∀ k : Fin 384, (((cfg2.win 1).blk t).view.emb (ix2 k q) : S384x128.Idx) = ix2 k ((((cfg2.win 3).blk t).view.emb (ix2 p q)) 1 : Fin 128) := fun k => by
    funext a; apply Fin.ext
    match a with
    | ⟨0, _⟩ => show win2_1.index t (0 : Fin 2) * 384 + 1 * k.val = k.val; omega
    | ⟨1, _⟩ => show win2_1.index t (1 : Fin 2) * 128 + 1 * q.val = win2_3.index t (1 : Fin 2) * 128 + 1 * q.val; omega
  have h2 : (((cfg2.win 2).blk t).view.emb (ix2 (0 : Fin 1) q) : S1x128.Idx) = ix2 (0 : Fin 1) ((((cfg2.win 3).blk t).view.emb (ix2 p q)) 1 : Fin 128) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  have key : ∀ (A : S10240x384.Idx → EReal) (B : S384x128.Idx → EReal) (bias : S1x128.Idx → EReal),
      max ((∑ k : Fin 384, A (((cfg2.win 0).blk t).view.emb (ix2 p k)) * B (((cfg2.win 1).blk t).view.emb (ix2 k q))) + bias (((cfg2.win 2).blk t).view.emb (ix2 (0 : Fin 1) q))) 0
        = G2 A B bias (((cfg2.win 3).blk t).view.emb (ix2 p q)) := by
    intro A B bias
    unfold G2
    rw [h2]
    simp only [h0, h1] <;> rfl
  exact key (V c main_v51) (V c main_v52) (V c main_v53)

/-- An index of the output array is in point `t`'s block iff each coordinate is in the block's range. -/
theorem mem_blk2 (t : Fin cfg2.N) (i : S10240x128.Idx) :
    i ∈ ((cfg2.win 3).blk t).view.set ↔ ∀ a : Fin 2, win2_3.index t a * S1024x128.size a ≤ (i a).val ∧ (i a).val < win2_3.index t a * S1024x128.size a + S1024x128.size a := by
  show i ∈ ((View.whole main_v54).slice (win2_3.rect t)).set ↔ _
  rw [View.set_slice_whole, Rect.mem_set_unit]
  exact Iff.rfl

/-- The ten row blocks cover the output array: row `r` is in block `r / 1024`. -/
theorem cover2 (i : S10240x128.Idx) : ∃ t : Fin cfg2.N, (cfg2.win 3).flush t = true ∧ i ∈ ((cfg2.win 3).blk t).view.set := by
  have hi0 : (i 0).val < 10240 := (i 0).isLt
  have hi1 : (i 1).val < 128 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 128 ≤ (i 1).val ∧ (i 1).val < win2_3.index t (1 : Fin 2) * 128 + 128; omega

/-- The output array after the region: the closed form of the arrays the region found. -/
theorem val2 (c : Dev nD) : (dat2 (F := Ideal) V c).arrAt 3 cfg2.N = G2 (V c main_v51) (V c main_v52) (V c main_v53) :=
  (dat2 (F := Ideal) V c).arrAt_eq_of_cover 3 _ (fun t _ => flushed2_eq V c t) (cover2)

/-- The closed form at row `r'` and column `o`. -/
theorem G2_apply (a : S10240x384.Idx → EReal) (b : S384x128.Idx → EReal) (bias : S1x128.Idx → EReal) (r' : Fin 10240) (o : Fin 128) :
    G2 a b bias (ix2 r' o) = max ((∑ i : Fin 384, a (ix2 r' i) * b (ix2 i o)) + bias (ix2 (0 : Fin 1) o)) 0 := rfl

/-- The output array after the region, entry by entry, under any names `a`, `b`, `bias` for the three arrays the
    region found. -/
theorem val2_at (c : Dev nD) (a : S10240x384.Idx → EReal) (b : S384x128.Idx → EReal) (bias : S1x128.Idx → EReal)
    (ha : V c (Pipeline.arrRef spec2 0) = a) (hb : V c (Pipeline.arrRef spec2 1) = b) (hbias : V c (Pipeline.arrRef spec2 2) = bias)
    (r' : Fin 10240) (o : Fin 128) :
    (dat2 (F := Ideal) V c).arrAt 3 cfg2.N (ix2 r' o) = max ((∑ i : Fin 384, a (ix2 r' i) * b (ix2 i o)) + bias (ix2 (0 : Fin 1) o)) 0 := by
  subst ha hb hbias
  exact congrFun (val2 V c) (ix2 r' o)

end Cert.KernelIdeal.Hand
end
-- ==== Proof.KI.Val3.lean ====
/- What the propagation product of region 3 leaves in its result array, at the ideal values. Each case of the body
   leaves in the accumulator the payload of its last whole-buffer store: zero plus the block product at the first
   reduction index, the previous contents plus the block product elsewhere; the output block receives the accumulator
   at the last reduction index. Read at an index, the block product is the sum over the 1024 contraction positions of
   the matrix block's entry times the right factor block's entry (rounding to bf16 is the identity on ideal values).
   So along a row block the accumulator is the in-order sum of the block products, and the result at (r, f) is
   ((((0 + d 0) + d 1) + …) + d 9) with d k the sum over j < 1024 of M (r, 1024 k + j) · Z (1024 k + j, f). -/
import proofs.«130334_j70351564308694_1_alg».proof.Proof.KI.Reg3
import proofs.«130334_j70351564308694_1_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Spec (blk)

theorem hz_3 : (![0, 0] : Fin 2 → Nat) = fun _ => 0 := funext fun a => by fin_cases a <;> rfl

section AnyF
variable {F : FTy → Type} [FloatOps F]

/-- A load of a whole buffer through the whole-shape rectangle reads the buffer's contents. -/
theorem readAt_unit_unread_3 {S : Shape} {e : EltTy} (m : Memref sig .tc .vmem S e) (h : m.IsWhole) {off : Fin S.rank → ℕ}
    (ho : off = fun _ => 0) (inb : ∀ a, off a + S.size a ≤ S.size a) (x : Vec F S e) :
    View.readAt (Elt F) m.view (Rect.unit off S.size inb).toLoadRect (h.unread x) = x := by
  rw [View.readAt_eq_ld, h.read_unread, View.ld_unit_zero ho]

/-- The piece lists the three runs end with (the runs' first components, by projection). -/
theorem kRunA_val_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i) (x0 : Vec F S1024x1024 .bf16) (x1 : Vec F S1024x128 .f32) :
    (kRunA_3 c i arg2 harg2 arg3 harg3 arg4 harg4 arg5 harg5 hc0 hc1 x0 x1).1 = (⟨(Rect.unit ![0, 0] S1024x128.size inb_S1024x128_S1024x128_0_0), k3_pay2 (View.readAt (Elt F) arg2.view (Rect.unit ![0, 0] S1024x1024.size inb_S1024x1024_S1024x1024_0_0).toLoadRect (harg2.unread x0)) (View.readAt (Elt F) arg3.view (Rect.unit ![0, 0] S1024x128.size inb_S1024x128_S1024x128_0_0).toLoadRect (harg3.unread x1)) (kRunA_3.sl.v8 c arg5)⟩ : View.Piece (Elt F) S1024x128 .f32) :: kRunA_3.sl.HS0_1 := rfl
theorem kRunB_val_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i) (x0 : Vec F S1024x1024 .bf16) (x1 xs : Vec F S1024x128 .f32) :
    (kRunB_3 c i arg2 harg2 arg3 harg3 arg4 harg4 arg5 harg5 hc0 hc1 x0 x1 xs).1 = [(⟨(Rect.unit ![0, 0] S1024x128.size inb_S1024x128_S1024x128_0_0), k3_pay2 (View.readAt (Elt F) arg2.view (Rect.unit ![0, 0] S1024x1024.size inb_S1024x1024_S1024x1024_0_0).toLoadRect (harg2.unread x0)) (View.readAt (Elt F) arg3.view (Rect.unit ![0, 0] S1024x128.size inb_S1024x128_S1024x128_0_0).toLoadRect (harg3.unread x1)) (View.readAt (Elt F) arg5.view (Rect.unit ![0, 0] S1024x128.size inb_S1024x128_S1024x128_0_0).toLoadRect (harg5.unread xs))⟩ : View.Piece (Elt F) S1024x128 .f32)] := rfl
theorem kRunC_val1_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) :
    (kRunC_3 c i arg2 harg2 arg3 harg3 arg4 harg4 arg5 harg5 hc0 hc1 x0 x1 xs).1 = [(⟨(Rect.unit ![0, 0] S1024x128.size inb_S1024x128_S1024x128_0_0), kRunC_3.sl.v17 c arg2 harg2 arg3 harg3 arg5 harg5 x0 x1 xs⟩ : View.Piece (Elt F) S1024x128 .f32)] := rfl
theorem kRunC_val2_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) :
    (kRunC_3 c i arg2 harg2 arg3 harg3 arg4 harg4 arg5 harg5 hc0 hc1 x0 x1 xs).2.1 = kRunC_3.sl.HS0_1 c arg2 harg2 arg3 harg3 arg5 harg5 x0 x1 xs := rfl

theorem soutA_eq_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cReset_3 i) (hc1 : ¬cLast_3 i) (x0 : Vec F S1024x1024 .bf16) (x1 : Vec F S1024x128 .f32) :
    soutA_3 c i arg2 harg2 arg3 harg3 arg4 harg4 arg5 harg5 hc0 hc1 x0 x1 = k3_pay2 x0 x1 (k3_pay1 (F := F)) := by
  unfold soutA_3
  rw [View.read_writes_junk_eq_canon, kRunA_val_3]
  rw [View.canon_cons_unit_zero hz_3, readAt_unit_unread_3 _ _ hz_3, readAt_unit_unread_3 _ _ hz_3]
  unfold kRunA_3.sl.v8 kRunA_3.sl.HS0_1
  rw [View.readCov_unit_zero _ hz_3]

theorem soutB_eq_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : ¬cLast_3 i) (x0 : Vec F S1024x1024 .bf16) (x1 xs : Vec F S1024x128 .f32) :
    soutB_3 c i arg2 harg2 arg3 harg3 arg4 harg4 arg5 harg5 hc0 hc1 x0 x1 xs = k3_pay2 x0 x1 xs := by
  unfold soutB_3
  rw [View.read_writes_junk_eq_canon, kRunB_val_3]
  rw [View.canon_unit_zero hz_3, readAt_unit_unread_3 _ _ hz_3, readAt_unit_unread_3 _ _ hz_3, readAt_unit_unread_3 _ _ hz_3]

theorem soutC_eq_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) :
    soutC_3 c i arg2 harg2 arg3 harg3 arg4 harg4 arg5 harg5 hc0 hc1 x0 x1 xs = k3_pay2 x0 x1 xs := by
  unfold soutC_3
  rw [View.read_writes_junk_eq_canon, kRunC_val2_3]
  unfold kRunC_3.sl.HS0_1
  rw [View.canon_unit_zero hz_3, readAt_unit_unread_3 _ _ hz_3, readAt_unit_unread_3 _ _ hz_3, readAt_unit_unread_3 _ _ hz_3]

theorem outC_eq_3 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cReset_3 i) (hc1 : cLast_3 i) (x0 : Vec F S1024x1024 .bf16) (x1 xs : Vec F S1024x128 .f32) :
    outC_3 c i arg2 harg2 arg3 harg3 arg4 harg4 arg5 harg5 hc0 hc1 x0 x1 xs = k3_pay2 x0 x1 xs := by
  unfold outC_3
  rw [View.read_writes_junk_eq_canon, kRunC_val1_3]
  rw [View.canon_unit_zero hz_3]
  unfold kRunC_3.sl.v17 kRunC_3.sl.HS0_1
  rw [View.readCov_unit_zero _ hz_3, readAt_unit_unread_3 _ _ hz_3, readAt_unit_unread_3 _ _ hz_3, readAt_unit_unread_3 _ _ hz_3]

end AnyF

/-! ## The payloads at an index, at the ideal values -/

theorem pay1_apply_3 (j : S1024x128.Idx) : (k3_pay1 (F := Ideal) j : EReal) = 0 := by
  unfold k3_pay1
  rw [shapeCast_self, broadcast_apply]
  exact Idealize.ShloMosaic.Ideal.ofBits_zero_f32

abbrev lidx_3 (j : S1024x128.Idx) (k : Fin 1024) : S1024x1024.Idx := fun a => match a with
  | ⟨0, _⟩ => ⟨(j 0).val, (j 0).isLt⟩
  | ⟨1, _⟩ => ⟨k.val, k.isLt⟩
abbrev ridx_3 (j : S1024x128.Idx) (k : Fin 1024) : S1024x128.Idx := fun a => match a with
  | ⟨0, _⟩ => ⟨k.val, k.isLt⟩
  | ⟨1, _⟩ => ⟨(j 1).val, (j 1).isLt⟩

theorem lhs_3_0 (j : S1024x128.Idx) (q : dot_S1024x1024_S1024x128_S1024x128_1_0_0_1_n_n.contr.Idx) : (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_3_1 (j : S1024x128.Idx) (q : dot_S1024x1024_S1024x128_S1024x128_1_0_0_1_n_n.contr.Idx) : (dot_S1024x1024_S1024x128_S1024x128_1_0_0_1_n_n.lhsIdx j q 1).val = (q ⟨0, by decide⟩).val :=
  dot_S1024x1024_S1024x128_S1024x128_1_0_0_1_n_n.lhsIdx_val_of_single rfl j q
theorem rhs_3_0 (j : S1024x128.Idx) (q : dot_S1024x1024_S1024x128_S1024x128_1_0_0_1_n_n.contr.Idx) : (dot_S1024x1024_S1024x128_S1024x128_1_0_0_1_n_n.rhsIdx j q 0).val = (q ⟨0, by decide⟩).val :=
  dot_S1024x1024_S1024x128_S1024x128_1_0_0_1_n_n.rhsIdx_val_of_single rfl j q
theorem rhs_3_1 (j : S1024x128.Idx) (q : dot_S1024x1024_S1024x128_S1024x128_1_0_0_1_n_n.contr.Idx) : (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The accumulating payload at an index: what was there plus the row of the matrix block times the column of the
    right factor block. -/
theorem pay2_apply_3 (x0 : Vec Ideal S1024x1024 .bf16) (x1 xs : Vec Ideal S1024x128 .f32) (j : S1024x128.Idx) :
    (k3_pay2 (F := Ideal) x0 x1 xs j : EReal) = (xs j : EReal) + ∑ k : Fin 1024, (x0 (lidx_3 j k) : EReal) * (x1 (ridx_3 j k) : EReal) := by
  unfold k3_pay2
  rw [shapeCast_self, shapeCast_self, shapeCast_self, addf_apply]
  show _ + FloatOps.matmul _ _ _ _ _ j = _
  rw [Idealize.ShloMosaic.Ideal.matmul_constant_zero_apply, ← Equiv.sum_comp (contrEquiv1 dot_S1024x1024_S1024x128_S1024x128_1_0_0_1_n_n 1024 rfl rfl).symm]
  refine congrArg _ (Finset.sum_congr rfl fun k _ => ?_)
  have hk := contrEquiv1_symm_val dot_S1024x1024_S1024x128_S1024x128_1_0_0_1_n_n 1024 rfl rfl k
  have el : dot_S1024x1024_S1024x128_S1024x128_1_0_0_1_n_n.lhsIdx j ((contrEquiv1 dot_S1024x1024_S1024x128_S1024x128_1_0_0_1_n_n 1024 rfl rfl).symm k) = lidx_3 j k := funext fun a => Fin.ext (by
    match a with
    | ⟨0, _⟩ => exact lhs_3_0 _ _
    | ⟨1, _⟩ => exact (lhs_3_1 _ _).trans hk)
  have er : dot_S1024x1024_S1024x128_S1024x128_1_0_0_1_n_n.rhsIdx j ((contrEquiv1 dot_S1024x1024_S1024x128_S1024x128_1_0_0_1_n_n 1024 rfl rfl).symm k) = ridx_3 j k := funext fun a => Fin.ext (by
    match a with
    | ⟨0, _⟩ => exact (rhs_3_0 _ _).trans hk
    | ⟨1, _⟩ => exact rhs_3_1 _ _)
  rw [el, er, truncf_apply]

/-! ## The windows' index maps, decided over the grid -/

theorem idx_facts_3 : ∀ t : Fin cfg3.N,
    win3_0.index t (0 : Fin 2) = t.val / 10 ∧ win3_0.index t (1 : Fin 2) = t.val % 10
    ∧ win3_1.index t (0 : Fin 2) = t.val % 10 ∧ win3_1.index t (1 : Fin 2) = 0
    ∧ win3_2.index t (0 : Fin 2) = t.val / 10 ∧ win3_2.index t (1 : Fin 2) = 0 :=
  (by decide +kernel : ∀ t : Fin grid3.N, _)

section Val
variable (V : (c : Dev nD) → (b : Ref sig .tc) → Buf (Elt Ideal) ((c : Thread nD τ).loc b))

/-- The matrix block of the point (i, k), at (p, q), is the matrix at (1024 i + p, 1024 k + q). -/
theorem iblk0_apply_3 (c : Dev nD) (M : S10240x10240.Idx → EReal) (hM : V c (Pipeline.arrRef spec3 0) = M) (t : Fin cfg3.N)
    (y : S1024x1024.Idx) (r' k' : Fin 10240) (hr : r'.val = 1024 * (t.val / 10) + (y 0).val) (hk : k'.val = 1024 * (t.val % 10) + (y 1).val) :
    (iblk_3 V c 0 t y : EReal) = M (ix2 r' k') := by
  obtain ⟨e0, e1, -, -, -, -⟩ := idx_facts_3 t
  unfold iblk_3
  rw [hM]
  show M (((cfg3.win 0).blk t).view.emb y) = M (ix2 r' k')
  congr 1
  funext a; apply Fin.ext
  match a with
  | ⟨0, _⟩ => show win3_0.index t (0 : Fin 2) * 1024 + 1 * (y 0).val = r'.val; omega
  | ⟨1, _⟩ => show win3_0.index t (1 : Fin 2) * 1024 + 1 * (y 1).val = k'.val; omega

/-- The right factor's block of the point (i, k), at (q, f), is the right factor at (1024 k + q, f). -/
theorem iblk1_apply_3 (c : Dev nD) (Z : S10240x128.Idx → EReal) (hZ : V c (Pipeline.arrRef spec3 1) = Z) (t : Fin cfg3.N)
    (y : S1024x128.Idx) (k' : Fin 10240) (f : Fin 128) (hk : k'.val = 1024 * (t.val % 10) + (y 0).val) (hf : f.val = (y 1).val) :
    (iblk_3 V c 1 t y : EReal) = Z (ix2 k' f) := by
  obtain ⟨-, -, e2, e3, -, -⟩ := idx_facts_3 t
  unfold iblk_3
  rw [hZ]
  show Z (((cfg3.win 1).blk t).view.emb y) = Z (ix2 k' f)
  congr 1
  funext a; apply Fin.ext
  match a with
  | ⟨0, _⟩ => show win3_1.index t (0 : Fin 2) * 1024 + 1 * (y 0).val = k'.val; omega
  | ⟨1, _⟩ => show win3_1.index t (1 : Fin 2) * 128 + 1 * (y 1).val = f.val; omega

/-! ## The accumulator along a row block: the block products summed in order -/

/-- The k-th block product of row r and column f. -/
def dsum_3 (M : S10240x10240.Idx → EReal) (Z : S10240x128.Idx → EReal) (r' : Fin 10240) (f : Fin 128) (k : Fin 10) : EReal :=
  ∑ j : Fin 1024, M (ix2 r' (blk k j)) * Z (ix2 (blk k j) f)
def dN_3 (M : S10240x10240.Idx → EReal) (Z : S10240x128.Idx → EReal) (r' : Fin 10240) (f : Fin 128) (k : ℕ) : EReal :=
  if h : k < 10 then dsum_3 M Z r' f ⟨k, h⟩ else 0
/-- The in-order sum (((0 + D 0) + D 1) + … + D k). -/
def nest_3 (D : ℕ → EReal) : ℕ → EReal
  | 0 => 0 + D 0
  | k + 1 => nest_3 D k + D (k + 1)

theorem blockprod_3 (c : Dev nD) (M : S10240x10240.Idx → EReal) (Z : S10240x128.Idx → EReal)
    (hM : V c (Pipeline.arrRef spec3 0) = M) (hZ : V c (Pipeline.arrRef spec3 1) = Z) (t : Fin cfg3.N) (y : S1024x128.Idx)
    (r' : Fin 10240) (f : Fin 128) (hr : r'.val = 1024 * (t.val / 10) + (y 0).val) (hf : f.val = (y 1).val)
    (x0 : Vec Ideal S1024x1024 .bf16) (x1 : Vec Ideal S1024x128 .f32) (hx0 : x0 = iblk_3 V c 0 t) (hx1 : x1 = iblk_3 V c 1 t) :
    (∑ k : Fin 1024, (x0 (lidx_3 y k) : EReal) * (x1 (ridx_3 y k) : EReal)) = dN_3 M Z r' f (t.val % 10) := by
  subst hx0 hx1
  have hlt : t.val % 10 < 10 := Nat.mod_lt _ (by decide)
  unfold dN_3; rw [dif_pos hlt]; unfold dsum_3
  refine Finset.sum_congr rfl fun j _ => ?_
  rw [iblk0_apply_3 V c M hM t (lidx_3 y j) r' (blk ⟨t.val % 10, hlt⟩ j) hr (by show t.val % 10 * 1024 + j.val = 1024 * (t.val % 10) + j.val; omega),
    iblk1_apply_3 V c Z hZ t (ridx_3 y j) (blk ⟨t.val % 10, hlt⟩ j) f (by show t.val % 10 * 1024 + j.val = 1024 * (t.val % 10) + j.val; omega) hf]

theorem acc_apply_3 (c : Dev nD) (M : S10240x10240.Idx → EReal) (Z : S10240x128.Idx → EReal)
    (hM : V c (Pipeline.arrRef spec3 0) = M) (hZ : V c (Pipeline.arrRef spec3 1) = Z) :
    ∀ (n : ℕ) (hn : n < cfg3.N) (y : S1024x128.Idx) (r' : Fin 10240) (f : Fin 128),
      r'.val = 1024 * (n / 10) + (y 0).val → f.val = (y 1).val →
      (accAt_3 V c n hn y : EReal) = nest_3 (dN_3 M Z r' f) (n % 10) := by
  intro n
  induction n with
  | zero =>
    intro hn y r' f hr hf
    rw [show accAt_3 V c 0 hn = stepAcc_3 V c ⟨0, hn⟩ (VS_3.read (Elt Ideal) VS_3.junk) from rfl]
    unfold stepAcc_3
    rw [dif_pos (show (⟨0, hn⟩ : Fin cfg3.N).val % 10 = 0 from rfl), soutA_eq_3, pay2_apply_3, pay1_apply_3,
      blockprod_3 V c M Z hM hZ ⟨0, hn⟩ y r' f hr hf _ _ rfl rfl]
    rfl
  | succ n ih =>
    intro hn y r' f hr hf
    rw [show accAt_3 V c (n + 1) hn = stepAcc_3 V c ⟨n + 1, hn⟩ (accAt_3 V c n (Nat.lt_of_succ_lt hn)) from rfl]
    unfold stepAcc_3
    by_cases h0 : (n + 1) % 10 = 0
    · rw [dif_pos h0, soutA_eq_3, pay2_apply_3, pay1_apply_3, blockprod_3 V c M Z hM hZ ⟨n + 1, hn⟩ y r' f hr hf _ _ rfl rfl]
      show 0 + dN_3 M Z r' f ((n + 1) % 10) = nest_3 (dN_3 M Z r' f) ((n + 1) % 10)
      rw [h0]; rfl
    · have hr' : r'.val = 1024 * (n / 10) + (y 0).val := by omega
      have hs : (n + 1) % 10 = n % 10 + 1 := by omega
      rw [dif_neg h0]
      by_cases h1 : (n + 1) % 10 = 9
      · rw [dif_pos h1, soutC_eq_3, pay2_apply_3, blockprod_3 V c M Z hM hZ ⟨n + 1, hn⟩ y r' f hr hf _ _ rfl rfl,
          ih (Nat.lt_of_succ_lt hn) y r' f hr' hf]
        show nest_3 (dN_3 M Z r' f) (n % 10) + dN_3 M Z r' f ((n + 1) % 10) = nest_3 (dN_3 M Z r' f) ((n + 1) % 10)
        rw [hs]; rfl
      · rw [dif_neg h1, soutB_eq_3, pay2_apply_3, blockprod_3 V c M Z hM hZ ⟨n + 1, hn⟩ y r' f hr hf _ _ rfl rfl,
          ih (Nat.lt_of_succ_lt hn) y r' f hr' hf]
        show nest_3 (dN_3 M Z r' f) (n % 10) + dN_3 M Z r' f ((n + 1) % 10) = nest_3 (dN_3 M Z r' f) ((n + 1) % 10)
        rw [hs]; rfl

/-- At every point the value named for the output block's buffer is the accumulator's (its copy at a last reduction
    index, the placeholder elsewhere). -/
theorem outAt_eq_acc_3 (c : Dev nD) (t : Fin cfg3.N) : outAt_3 V c t = accAt_3 V c t.val t.isLt := by
  unfold outAt_3
  by_cases h1 : t.val % 10 = 9
  · have h0 : ¬t.val % 10 = 0 := by omega
    rw [dif_pos h1, accAt_step_3 V c t]
    unfold stepAcc_3
    rw [dif_neg h0, dif_pos h1, outC_eq_3, soutC_eq_3]
  · rw [dif_neg h1]

/-! ## From the blocks to the array -/

/-- The result array: at (r, f) the ten block products of row r and column f, summed in order from 0. -/
def G_3 (M : S10240x10240.Idx → EReal) (Z : S10240x128.Idx → EReal) : S10240x128.Idx → EReal :=
  fun i => nest_3 (dN_3 M Z (i 0) (i 1)) 9

theorem flushed_eq_3 (c : Dev nD) (M : S10240x10240.Idx → EReal) (Z : S10240x128.Idx → EReal)
    (hM : V c (Pipeline.arrRef spec3 0) = M) (hZ : V c (Pipeline.arrRef spec3 1) = Z) (t : Fin cfg3.N)
    (hfl : (cfg3.win 2).flush t = true) :
    (dat3 (F := Ideal) V c).flushed 2 t = ((cfg3.win 2).blk t).view.read (Elt Ideal) (G_3 M Z) := by
  have h9 : t.val % 10 = 9 := (flush3_2 t).mp hfl
  obtain ⟨-, -, -, -, e4, e5⟩ := idx_facts_3 t
  show (cfg3.win 2).cut (grid3.coords t) ((dat3 V c).after 2 t) = _
  rw [after_3_2, outAt_eq_acc_3]
  funext y
  show (accAt_3 V c t.val t.isLt y : EReal) = G_3 M Z (((cfg3.win 2).blk t).view.emb y)
  unfold G_3
  rw [acc_apply_3 V c M Z hM hZ t.val t.isLt y ((((cfg3.win 2).blk t).view.emb y) 0) ((((cfg3.win 2).blk t).view.emb y) 1)
    (by show win3_2.index t (0 : Fin 2) * 1024 + 1 * (y 0).val = 1024 * (t.val / 10) + (y 0).val; omega)
    (by show win3_2.index t (1 : Fin 2) * 128 + 1 * (y 1).val = (y 1).val; omega), h9]

theorem mem_blk_3 (t : Fin cfg3.N) (i : S10240x128.Idx) :
    i ∈ ((cfg3.win 2).blk t).view.set ↔ ∀ a : Fin 2, win3_2.index t a * S1024x128.size a ≤ (i a).val ∧ (i a).val < win3_2.index t a * S1024x128.size a + S1024x128.size a := by
  show i ∈ ((View.whole main_v55).slice (win3_2.rect t)).set ↔ _
  rw [View.set_slice_whole, Rect.mem_set_unit]
  exact Iff.rfl

/-- Every row of the result lies in the block written back at the last reduction index of its row block. -/
theorem cover_3 (i : S10240x128.Idx) : ∃ t : Fin cfg3.N, (cfg3.win 2).flush t = true ∧ i ∈ ((cfg3.win 2).blk t).view.set := by
  have hi0 : (i 0).val < 10240 := (i 0).isLt
  have hi1 : (i 1).val < 128 := (i 1).isLt
  have hN : cfg3.N = 100 := N_3
  have hb : 10 * ((i 0).val / 1024) + 9 < cfg3.N := by rw [hN]; omega
  obtain ⟨-, -, -, -, e4, e5⟩ := idx_facts_3 ⟨10 * ((i 0).val / 1024) + 9, hb⟩
  have e4' : win3_2.index ⟨10 * ((i 0).val / 1024) + 9, hb⟩ (0 : Fin 2) = (i 0).val / 1024 := by
    rw [e4]; show (10 * ((i 0).val / 1024) + 9) / 10 = (i 0).val / 1024; omega
  refine ⟨⟨10 * ((i 0).val / 1024) + 9, hb⟩, (flush3_2 _).mpr (by show (10 * ((i 0).val / 1024) + 9) % 10 = 9; omega), ?_⟩
  rw [mem_blk_3]
  intro a
  match a with
  | ⟨0, _⟩ =>
    show win3_2.index ⟨10 * ((i 0).val / 1024) + 9, hb⟩ (0 : Fin 2) * 1024 ≤ (i 0).val ∧ (i 0).val < win3_2.index ⟨10 * ((i 0).val / 1024) + 9, hb⟩ (0 : Fin 2) * 1024 + 1024
    rw [e4']; omega
  | ⟨1, _⟩ =>
    show win3_2.index ⟨10 * ((i 0).val / 1024) + 9, hb⟩ (1 : Fin 2) * 128 ≤ (i 1).val ∧ (i 1).val < win3_2.index ⟨10 * ((i 0).val / 1024) + 9, hb⟩ (1 : Fin 2) * 128 + 128
    rw [e5]; omega

theorem final_3 (c : Dev nD) (M : S10240x10240.Idx → EReal) (Z : S10240x128.Idx → EReal)
    (hM : V c (Pipeline.arrRef spec3 0) = M) (hZ : V c (Pipeline.arrRef spec3 1) = Z) :
    (dat3 (F := Ideal) V c).arrAt 2 cfg3.N = G_3 M Z :=
  (dat3 (F := Ideal) V c).arrAt_eq_of_cover 2 (G_3 M Z) (fun t hfl => flushed_eq_3 V c M Z hM hZ t hfl) cover_3

/-- THE VALUE: the result array at (r, f) is the in-order sum of the ten block products of row r and column f. -/
theorem val3_at (c : Dev nD) (M : S10240x10240.Idx → EReal) (Z : S10240x128.Idx → EReal)
    (hM : V c (Pipeline.arrRef spec3 0) = M) (hZ : V c (Pipeline.arrRef spec3 1) = Z) (r' : Fin 10240) (f : Fin 128) :
    (dat3 (F := Ideal) V c).arrAt 2 cfg3.N (ix2 r' f) = ((((((((((0 + (∑ j : Fin 1024, M (ix2 r' (blk 0 j)) * Z (ix2 (blk 0 j) f))) + (∑ j : Fin 1024, M (ix2 r' (blk 1 j)) * Z (ix2 (blk 1 j) f))) + (∑ j : Fin 1024, M (ix2 r' (blk 2 j)) * Z (ix2 (blk 2 j) f))) + (∑ j : Fin 1024, M (ix2 r' (blk 3 j)) * Z (ix2 (blk 3 j) f))) + (∑ j : Fin 1024, M (ix2 r' (blk 4 j)) * Z (ix2 (blk 4 j) f))) + (∑ j : Fin 1024, M (ix2 r' (blk 5 j)) * Z (ix2 (blk 5 j) f))) + (∑ j : Fin 1024, M (ix2 r' (blk 6 j)) * Z (ix2 (blk 6 j) f))) + (∑ j : Fin 1024, M (ix2 r' (blk 7 j)) * Z (ix2 (blk 7 j) f))) + (∑ j : Fin 1024, M (ix2 r' (blk 8 j)) * Z (ix2 (blk 8 j) f))) + (∑ j : Fin 1024, M (ix2 r' (blk 9 j)) * Z (ix2 (blk 9 j) f))) := by
  rw [final_3 V c M Z hM hZ]
  rfl

end Val

end Cert.KernelIdeal.Hand
end
-- ==== Proof.KI.Val4.lean ====
/- The value one Chebyshev propagation step with an affine tail leaves in its output array, over the extended reals.
   Entry (r, f) of the output is 2 · acc + (−1) · addend (r, f), acc = (((0 + d 0) + d 1) + … ) + d 9 in the order the
   ten reduction steps add, d k = ∑ j < 1024, matrix (r, 1024 k + j) · right factor (1024 k + j, f). One accumulation
   step at an entry is "what was there plus a row-by-column product of the two blocks"; a block's entry (a, j) at grid
   point 10 i + k is the array's entry (1024 i + a, 1024 k + j); so by induction on the grid point the accumulator
   after point 10 i + k holds the accumulated sum after step k at the rows of row block i; the last step of each row
   block writes the affine tail of it back, and the ten row blocks cover the array. -/
import proofs.«130334_j70351564308694_1_alg».proof.Proof.KI.Reg4
import proofs.«130334_j70351564308694_1_alg».proof.Proof.Spec
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value the region leaves, at the ideal instance -/

section Value4
open Idealize.ShloMosaic.ValueIdx

/-- The block product into a zero accumulator, at an entry: the sum over the 1024 contracted positions. -/
theorem matmul_4_apply (A : FVec Ideal S1024x1024 .bf16) (B : FVec Ideal S1024x128 .bf16) (a : Fin 1024) (b : Fin 128) :
    FloatOps.matmul dot_S1024x1024_S1024x128_S1024x128_1_0_0_1_n_n none A B (constant (F := Ideal) S1024x128 .f32 0x00000000#32) (ix2 a b)
      = ∑ j : Fin 1024, A (ix2 a j) * B (ix2 j b) := by
  rw [Ideal.matmul_constant_zero_apply, ← Equiv.sum_comp (contrEquiv1 dot_S1024x1024_S1024x128_S1024x128_1_0_0_1_n_n 1024 rfl rfl).symm]
  refine Finset.sum_congr rfl fun j _ => ?_
  have c2 := contrEquiv1_symm_val dot_S1024x1024_S1024x128_S1024x128_1_0_0_1_n_n 1024 rfl rfl j
  have l2 : dot_S1024x1024_S1024x128_S1024x128_1_0_0_1_n_n.lhsIdx (ix2 a b) ((contrEquiv1 _ 1024 rfl rfl).symm j) = ix2 a j := by
    funext ax; apply Fin.ext
    match ax with
    | ⟨0, _⟩ => simp [DotDims.lhsIdx, dot_S1024x1024_S1024x128_S1024x128_1_0_0_1_n_n]; rfl
    | ⟨1, _⟩ => simp [DotDims.lhsIdx, dot_S1024x1024_S1024x128_S1024x128_1_0_0_1_n_n]; exact c2
  have r2 : dot_S1024x1024_S1024x128_S1024x128_1_0_0_1_n_n.rhsIdx (ix2 a b) ((contrEquiv1 _ 1024 rfl rfl).symm j) = ix2 j b := by
    funext ax; apply Fin.ext
    match ax with
    | ⟨0, _⟩ => simp [DotDims.rhsIdx, dot_S1024x1024_S1024x128_S1024x128_1_0_0_1_n_n]; exact c2
    | ⟨1, _⟩ => simp [DotDims.rhsIdx, dot_S1024x1024_S1024x128_S1024x128_1_0_0_1_n_n]; rfl
  rw [l2, r2]

/-- The zero block. -/
theorem pay1_4_apply (i : S1024x128.Idx) : k4_pay1 (F := Ideal) i = 0 := by
  unfold k4_pay1
  simp only [shapeCast_self]
  exact Ideal.ofBits_zero_f32

/-- One accumulation step at an entry: what was there plus the row-by-column product of the two blocks. -/
theorem pay2_4_apply (x0 : Vec Ideal S1024x1024 .bf16) (x1 : Vec Ideal S1024x128 .f32) (xs : Vec Ideal S1024x128 .f32) (a : Fin 1024) (b : Fin 128) :
    k4_pay2 (F := Ideal) x0 x1 xs (ix2 a b) = xs (ix2 a b) + ∑ j : Fin 1024, x0 (ix2 a j) * x1 (ix2 j b) := by
  unfold k4_pay2
  simp only [shapeCast_self]
  show xs (ix2 a b) + FloatOps.matmul dot_S1024x1024_S1024x128_S1024x128_1_0_0_1_n_n none x0 (truncf (F := Ideal) .bf16 x1 bitsLt_bf16_f32) (constant (F := Ideal) S1024x128 .f32 0x00000000#32) (ix2 a b) = _
  rw [matmul_4_apply]
  rfl

/-- The affine tail at an entry. -/
theorem pay3_4_apply (v17 v20 : Vec Ideal S1024x128 .f32) (i : S1024x128.Idx) :
    k4_pay3 (F := Ideal) v17 v20 i = Ideal.ofBits .f32 0x40000000#32 * v17 i + Ideal.ofBits .f32 0xBF800000#32 * v20 i := by
  unfold k4_pay3
  simp only [shapeCast_self]
  rfl

end Value4

section ValueGrid4
open Idealize.ShloMosaic.ValueIdx
open Cert.Proof.Spec (blk)

variable (VI : (c : Dev nD) → (b : Ref sig .tc) → Buf (Elt Ideal) ((c : Thread nD τ).loc b))

/-- The three input arrays as the region finds them, as functions of a rank-2 index. -/
abbrev arrM_4 (c : Dev nD) : S10240x10240.Idx → EReal := VI c (Pipeline.arrRef spec4 0)
abbrev arrZ_4 (c : Dev nD) : S10240x128.Idx → EReal := VI c (Pipeline.arrRef spec4 1)
abbrev arrA_4 (c : Dev nD) : S10240x128.Idx → EReal := VI c (Pipeline.arrRef spec4 2)

/-- The k-th partial product at entry (r, f): the 1024 columns of block k of the matrix row against the matching
    rows of the right factor's column. -/
def dS_4 (c : Dev nD) (r : Fin 10240) (f : Fin 128) (k : Fin 10) : EReal :=
  ∑ j : Fin 1024, arrM_4 VI c (ix2 r (blk k j)) * arrZ_4 VI c (ix2 (blk k j) f)

/-- The accumulated sum after step k, in the order the steps add: (((0 + d 0) + d 1) + …) + d k. -/
def accG_4 (d : Fin 10 → EReal) : ℕ → EReal
  | 0 => 0 + d 0
  | k + 1 => accG_4 d k + d ⟨(k + 1) % 10, Nat.mod_lt _ (by decide)⟩

theorem accG_4_succ (d : Fin 10 → EReal) (k : ℕ) (h : k + 1 < 10) :
    accG_4 d (k + 1) = accG_4 d k + d ⟨k + 1, h⟩ := by
  show _ + d ⟨(k + 1) % 10, _⟩ = _
  congr 2
  exact Fin.ext (Nat.mod_eq_of_lt h)

/-- What the output array holds at the end, entry by entry. -/
def G_4 (c : Dev nD) : S10240x128.Idx → EReal :=
  fun i => Ideal.ofBits .f32 0x40000000#32 * accG_4 (dS_4 VI c (i 0) (i 1)) 9
    + Ideal.ofBits .f32 0xBF800000#32 * arrA_4 VI c i

/-- The printed index maps over the grid: point t = 10 · i + k reads block (i, k) of the matrix, block (k, 0) of the
    right factor, block (i, 0) of the addend, and owns block (i, 0) of the output. -/
theorem idx_4 : ∀ t : Fin cfg4.N,
    win4_0.index t (0 : Fin 2) = t.val / 10 ∧ win4_0.index t (1 : Fin 2) = t.val % 10
    ∧ win4_1.index t (0 : Fin 2) = t.val % 10 ∧ win4_1.index t (1 : Fin 2) = 0
    ∧ win4_2.index t (0 : Fin 2) = t.val / 10 ∧ win4_2.index t (1 : Fin 2) = 0
    ∧ win4_3.index t (0 : Fin 2) = t.val / 10 ∧ win4_3.index t (1 : Fin 2) = 0 :=
  (by decide +kernel : ∀ t : Fin grid4.N, _)

/-- The rows of row block t / 10. -/
abbrev rowOf_4 (t : Fin cfg4.N) (a : Fin 1024) : Fin 10240 :=
  ⟨1024 * (t.val / 10) + a.val, by have := t.isLt; have : cfg4.N = 100 := N_4; have := a.isLt; omega⟩
abbrev stepOf_4 (t : Fin cfg4.N) : Fin 10 := ⟨t.val % 10, Nat.mod_lt _ (by decide)⟩

theorem iblk_4_0_apply (c : Dev nD) (t : Fin cfg4.N) (a j : Fin 1024) :
    iblk_4 VI c 0 t (ix2 a j) = arrM_4 VI c (ix2 (rowOf_4 t a) (blk (stepOf_4 t) j)) := by
  obtain ⟨e0, e1, -⟩ := idx_4 t
  show arrM_4 VI c (((cfg4.win 0).blk t).view.emb (ix2 a j)) = _
  congr 1
  funext ax; apply Fin.ext
  match ax with
  | ⟨0, _⟩ => show win4_0.index t (0 : Fin 2) * 1024 + 1 * a.val = 1024 * (t.val / 10) + a.val; omega
  | ⟨1, _⟩ => show win4_0.index t (1 : Fin 2) * 1024 + 1 * j.val = t.val % 10 * 1024 + j.val; omega

theorem iblk_4_1_apply (c : Dev nD) (t : Fin cfg4.N) (j : Fin 1024) (b : Fin 128) :
    iblk_4 VI c 1 t (ix2 j b) = arrZ_4 VI c (ix2 (blk (stepOf_4 t) j) b) := by
  obtain ⟨-, -, e2, e3, -⟩ := idx_4 t
  show arrZ_4 VI c (((cfg4.win 1).blk t).view.emb (ix2 j b)) = _
  congr 1
  funext ax; apply Fin.ext
  match ax with
  | ⟨0, _⟩ => show win4_1.index t (0 : Fin 2) * 1024 + 1 * j.val = t.val % 10 * 1024 + j.val; omega
  | ⟨1, _⟩ => show win4_1.index t (1 : Fin 2) * 128 + 1 * b.val = b.val; omega

theorem iblk_4_2_apply (c : Dev nD) (t : Fin cfg4.N) (a : Fin 1024) (b : Fin 128) :
    iblk_4 VI c 2 t (ix2 a b) = arrA_4 VI c (ix2 (rowOf_4 t a) b) := by
  obtain ⟨-, -, -, -, e4, e5, -⟩ := idx_4 t
  show arrA_4 VI c (((cfg4.win 2).blk t).view.emb (ix2 a b)) = _
  congr 1
  funext ax; apply Fin.ext
  match ax with
  | ⟨0, _⟩ => show win4_2.index t (0 : Fin 2) * 1024 + 1 * a.val = 1024 * (t.val / 10) + a.val; omega
  | ⟨1, _⟩ => show win4_2.index t (1 : Fin 2) * 128 + 1 * b.val = b.val; omega

/-- One point's product of its two blocks is the partial product of its step, at the point's rows. -/
theorem step_4 (c : Dev nD) (t : Fin cfg4.N) (a : Fin 1024) (b : Fin 128)
    (x0 : Vec Ideal S1024x1024 .bf16) (x1 : Vec Ideal S1024x128 .f32)
    (h0 : x0 = iblk_4 VI c 0 t) (h1 : x1 = iblk_4 VI c 1 t) :
    (∑ j : Fin 1024, x0 (ix2 a j) * x1 (ix2 j b))
      = dS_4 VI c (rowOf_4 t a) b (stepOf_4 t) := by
  subst h0 h1
  unfold dS_4
  refine Finset.sum_congr rfl fun j _ => ?_
  rw [iblk_4_0_apply, iblk_4_1_apply]

/-- THE ACCUMULATOR after point t = 10 · i + k, at entry (a, b) of its block: the accumulated sum after step k at
    row 1024 · i + a. By induction on the point. -/
theorem accAt_4_eq (c : Dev nD) : ∀ (n : ℕ) (hn : n < cfg4.N) (a : Fin 1024) (b : Fin 128),
    accAt_4 VI c n hn (ix2 a b) = accG_4 (dS_4 VI c (rowOf_4 ⟨n, hn⟩ a) b) (n % 10) := by
  intro n
  induction n with
  | zero =>
    intro hn a b
    rw [accAt_4_first VI c ⟨0, hn⟩ rfl, pay2_4_apply, pay1_4_apply, step_4 VI c _ a b _ _ rfl rfl]
    rfl
  | succ n ih =>
    intro hn a b
    have hN : n + 1 < 100 := lt_of_lt_of_eq hn N_4
    by_cases h0 : (n + 1) % 10 = 0
    · rw [accAt_4_first VI c ⟨n + 1, hn⟩ h0, pay2_4_apply, pay1_4_apply, step_4 VI c _ a b _ _ rfl rfl]
      have e : stepOf_4 ⟨n + 1, hn⟩ = 0 := Fin.ext h0
      rw [e]
      show _ = accG_4 _ ((n + 1) % 10)
      rw [h0]
      rfl
    · rw [accAt_4_next VI c ⟨n + 1, hn⟩ h0, pay2_4_apply, step_4 VI c _ a b _ _ rfl rfl]
      show accAt_4 VI c n _ (ix2 a b) + _ = accG_4 _ ((n + 1) % 10)
      rw [ih (Nat.lt_of_succ_lt hn) a b]
      obtain ⟨k, hk⟩ : ∃ k, (n + 1) % 10 = k + 1 := ⟨(n + 1) % 10 - 1, by omega⟩
      have hk10 : k + 1 < 10 := by omega
      have hq : n / 10 = (n + 1) / 10 := by omega
      have hr : n % 10 = k := by omega
      have hrow : rowOf_4 ⟨n, Nat.lt_of_succ_lt hn⟩ a = rowOf_4 ⟨n + 1, hn⟩ a :=
        Fin.ext (by show 1024 * (n / 10) + a.val = 1024 * ((n + 1) / 10) + a.val; rw [hq])
      have e : stepOf_4 ⟨n + 1, hn⟩ = ⟨k + 1, hk10⟩ := Fin.ext hk
      rw [e, hk, accG_4_succ _ k hk10, hr, hrow]

/-- WHAT THE LAST STEP OF A ROW BLOCK WRITES BACK is that block of `G_4`. -/
theorem flushed_4_eq (c : Dev nD) (t : Fin cfg4.N) (hf : (cfg4.win 3).flush t = true) :
    (dat4 (F := Ideal) VI c).flushed 3 t = ((cfg4.win 3).blk t).view.read (Elt Ideal) (G_4 VI c) := by
  have h9 : t.val % 10 = 9 := (flush4_3 t).mp hf
  obtain ⟨-, -, -, -, -, -, e6, e7⟩ := idx_4 t
  show (cfg4.win 3).cut (grid4.coords t) ((dat4 (F := Ideal) VI c).after 3 t) = _
  rw [after_4_3]
  funext y
  obtain ⟨a, b, rfl⟩ : ∃ (a : Fin 1024) (b : Fin 128), y = ix2 a b := ⟨y 0, y 1, eq_ix2 y⟩
  show k4_pay3 (F := Ideal) (accAt_4 VI c t.val t.isLt) (iblk_4 VI c 2 t) (ix2 a b)
    = G_4 VI c (((cfg4.win 3).blk t).view.emb (ix2 a b))
  have hemb : ((cfg4.win 3).blk t).view.emb (ix2 a b) = (ix2 (rowOf_4 t a) b : S10240x128.Idx) := by
    funext ax; apply Fin.ext
    match ax with
    | ⟨0, _⟩ => show win4_3.index t (0 : Fin 2) * 1024 + 1 * a.val = 1024 * (t.val / 10) + a.val; omega
    | ⟨1, _⟩ => show win4_3.index t (1 : Fin 2) * 128 + 1 * b.val = b.val; omega
  rw [hemb, pay3_4_apply, accAt_4_eq, iblk_4_2_apply, h9]
  rfl

theorem mem_blk_4 (t : Fin cfg4.N) (i : S10240x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole main_v56).slice (win4_3.rect t)).set ↔ _
  rw [View.set_slice_whole, Rect.mem_set_unit]
  exact Iff.rfl

/-- Every entry of the output array is in the block some write-back writes: row r is in row block r / 1024, written
    back at that block's last step. -/
theorem cover_4 (i : S10240x128.Idx) :
    ∃ t : Fin cfg4.N, (cfg4.win 3).flush t = true ∧ i ∈ ((cfg4.win 3).blk t).view.set := by
  have hi0 : (i 0).val < 10240 := (i 0).isLt
  have hi1 : (i 1).val < 128 := (i 1).isLt
  have hN : cfg4.N = 100 := N_4
  have hlt : 10 * ((i 0).val / 1024) + 9 < cfg4.N := by omega
  refine ⟨⟨10 * ((i 0).val / 1024) + 9, hlt⟩, (flush4_3 _).mpr (by show (10 * ((i 0).val / 1024) + 9) % 10 = 9; omega), ?_⟩
  rw [mem_blk_4]
  obtain ⟨-, -, -, -, -, -, e6, e7⟩ := idx_4 ⟨10 * ((i 0).val / 1024) + 9, hlt⟩
  have e6' : win4_3.index ⟨10 * ((i 0).val / 1024) + 9, hlt⟩ (0 : Fin 2) = (i 0).val / 1024 := by
    rw [e6]; show (10 * ((i 0).val / 1024) + 9) / 10 = _; omega
  intro a
  match a with
  | ⟨0, _⟩ =>
    show win4_3.index ⟨10 * ((i 0).val / 1024) + 9, hlt⟩ (0 : Fin 2) * 1024 ≤ (i 0).val ∧ (i 0).val < win4_3.index ⟨10 * ((i 0).val / 1024) + 9, hlt⟩ (0 : Fin 2) * 1024 + 1024
    rw [e6']; omega
  | ⟨1, _⟩ =>
    show win4_3.index ⟨10 * ((i 0).val / 1024) + 9, hlt⟩ (1 : Fin 2) * 128 ≤ (i 1).val ∧ (i 1).val < win4_3.index ⟨10 * ((i 0).val / 1024) + 9, hlt⟩ (1 : Fin 2) * 128 + 128
    rw [e7]; omega

/-- The output array after the region is `G_4`. -/
theorem final_4 (c : Dev nD) : (dat4 (F := Ideal) VI c).arrAt 3 cfg4.N = G_4 VI c :=
  (dat4 (F := Ideal) VI c).arrAt_eq_of_cover 3 _ (fun t hf => flushed_4_eq VI c t hf) (cover_4)

/-- THE OUTPUT ARRAY after the region, entry (r', f): 2 · ((((0 + d 0) + d 1) + …) + d 9) + (−1) · addend (r', f), with
    d k = ∑ j < 1024, matrix (r', 1024 k + j) · right factor (1024 k + j, f), all arrays as the region finds them
    (the two literal factors as the words the kernel multiplies by: the f32 patterns of 2 and of −1). -/
theorem val4 (c : Dev nD) (r' : Fin 10240) (f : Fin 128) :
    (dat4 (F := Ideal) VI c).arrAt 3 cfg4.N (ix2 r' f)
      = Ideal.ofBits .f32 0x40000000#32
          * ((((((((((0 + dS_4 VI c r' f 0) + dS_4 VI c r' f 1) + dS_4 VI c r' f 2) + dS_4 VI c r' f 3)
              + dS_4 VI c r' f 4) + dS_4 VI c r' f 5) + dS_4 VI c r' f 6) + dS_4 VI c r' f 7)
              + dS_4 VI c r' f 8) + dS_4 VI c r' f 9)
        + Ideal.ofBits .f32 0xBF800000#32 * arrA_4 VI c (ix2 r' f) := by
  show (dat4 (F := Ideal) VI c).arrAt 3 cfg4.N (ix2 r' f) = _
  rw [final_4]
  rfl

end ValueGrid4

section ValueAt4
open Idealize.ShloMosaic.ValueIdx
open Cert.Proof.Spec (blk)

variable (VI : (c : Dev nD) → (b : Ref sig .tc) → Buf (Elt Ideal) ((c : Thread nD τ).loc b))

/-- The f32 words the affine tail multiplies by are 2 and −1. -/
theorem two_lit_4 : Ideal.ofBits .f32 0x40000000#32 = 2 := by
  simp [Ideal.ofBits, Ideal.ieee]
  rw [← EReal.coe_mul]
  norm_num
  first | rfl | norm_cast | exact_mod_cast rfl | (simp; done)
theorem m1_lit_4 : Ideal.ofBits .f32 0xBF800000#32 = -1 := by
  simp [Ideal.ofBits, Ideal.ieee]
  rw [← EReal.coe_mul]
  norm_num

/-- The k-th partial product at entry (r', f) over given arrays. -/
def dAt_4 (M : S10240x10240.Idx → EReal) (Z : S10240x128.Idx → EReal) (r' : Fin 10240) (f : Fin 128) (k : Fin 10) : EReal :=
  ∑ j : Fin 1024, M (ix2 r' (blk k j)) * Z (ix2 (blk k j) f)

/-- THE OUTPUT ARRAY after the region, entry (r', f), over the arrays the region finds in its three input windows:
    2 · ((((0 + d 0) + d 1) + …) + d 9) + (−1) · addend (r', f), d k = ∑ j < 1024, M (r', 1024 k + j) · Z (1024 k + j, f). -/
theorem val4_at (c : Dev nD) (M : S10240x10240.Idx → EReal) (Z : S10240x128.Idx → EReal) (A : S10240x128.Idx → EReal)
    (hM : VI c (Pipeline.arrRef spec4 0) = M) (hZ : VI c (Pipeline.arrRef spec4 1) = Z)
    (hA : VI c (Pipeline.arrRef spec4 2) = A) (r' : Fin 10240) (f : Fin 128) :
    (dat4 (F := Ideal) VI c).arrAt 3 cfg4.N (ix2 r' f)
      = 2 * ((((((((((0 + dAt_4 M Z r' f 0) + dAt_4 M Z r' f 1) + dAt_4 M Z r' f 2) + dAt_4 M Z r' f 3)
              + dAt_4 M Z r' f 4) + dAt_4 M Z r' f 5) + dAt_4 M Z r' f 6) + dAt_4 M Z r' f 7)
              + dAt_4 M Z r' f 8) + dAt_4 M Z r' f 9)
        + (-1) * A (ix2 r' f) := by
  subst hM hZ hA
  have h := val4 VI c r' f
  rw [two_lit_4, m1_lit_4] at h
  exact h

end ValueAt4

end Cert.KernelIdeal.Hand
end
-- ==== Proof.KI.Val5.lean ====
/- Region 5, read at the ideal values: the output array at row r and column o is the sum over the contracted
   coordinate k of (left factor at (r, k)) times (right factor at (k, o)), plus the bias row at o, then the maximum with zero.
   Each grid point writes one block of 1024 rows; the ten blocks tile the array. -/
import proofs.«130334_j70351564308694_1_alg».proof.Proof.KI.Reg5
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The closed form: the array the region leaves, from the arrays it finds. -/
def G5 (a : S10240x384.Idx → EReal) (b : S384x256.Idx → EReal) (bias : S1x256.Idx → EReal) : S10240x256.Idx → EReal :=
  fun i => max ((∑ k : Fin 384, a (ix2 (i 0 : Fin 10240) k) * b (ix2 k (i 1 : Fin 256))) + bias (ix2 (0 : Fin 1) (i 1 : Fin 256))) 0

/-- The body's payload at an index of the block: the block product into zero, plus the bias row, rectified. -/
theorem pay5_apply (x0 : S1024x384.Idx → EReal) (x1 : S384x256.Idx → EReal) (x2 : S1x256.Idx → EReal) (p : Fin 1024) (q : Fin 256) :
    k5_pay1 (F := Ideal) x0 x1 x2 (ix2 p q) = max ((∑ k : Fin 384, x0 (ix2 p k) * x1 (ix2 k q)) + x2 (ix2 (0 : Fin 1) q)) 0 := by
  unfold k5_pay1
  simp only [shapeCast_self]
  have e1 : matmul (F := Ideal) dot_S1024x384_S384x256_S1024x256_1_0_0_1_n_n none (truncf .bf16 x0 bitsLt_bf16_f32) (truncf .bf16 x1 bitsLt_bf16_f32) (constant S1024x256 .f32 0x00000000#32) (ix2 p q) = ∑ k : Fin 384, x0 (ix2 p k) * x1 (ix2 k q) :=
    (congrFun (matmul_zero_eq_dotGeneral dot_S1024x384_S384x256_S1024x256_1_0_0_1_n_n none _ _) (ix2 p q)).trans (StackMember.dotGeneral_plain_apply none _ _ p q)
  have e2 := broadcastTo_1b_ab_apply x2 broadcasts_S1x256_S1024x256 p q
  show max (_ + _) (Ideal.ofBits .f32 0x00000000#32) = _
  rw [Ideal.ofBits_zero_f32]
  exact congrArg (fun z => max z 0) (congrArg₂ (· + ·) e1 e2)

theorem hz5 : (![0, 0] : Fin 2 → Nat) = fun _ => 0 := funext fun a => by fin_cases a <;> rfl

/-- The printed index maps over the grid: the left factor's and the output's row blocks move with the point, the
    right factor and the bias stay. -/
theorem idx_facts5 : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 9 :=
  (by decide +kernel : ∀ t : Fin grid5.N, _)

/-- Every row block is some point's. -/
theorem idx_onto5 : ∀ (q0 : Fin 10), ∃ t : Fin cfg5.N, win5_3.index t = ![q0.val, 0] :=
  (by decide +kernel : ∀ (q0 : Fin 10), ∃ t : Fin grid5.N, win5_3.index t = ![q0.val, 0])

set_option maxHeartbeats 1000000 in
/-- What point `t` writes back is block `t` of the closed form of the arrays as the region finds them. -/
theorem flushed5_eq (c : Dev nD) (t : Fin cfg5.N) :
    (dat5 (F := Ideal) V c).flushed 3 t = ((cfg5.win 3).blk t).view.read (Elt Ideal) (G5 (V c main_v57) (V c main_v58) (V c main_v59)) := by
  show (cfg5.win 3).cut (grid5.coords t) ((dat5 V c).after 3 t) = _
  rw [after5_3]
  unfold out5_3
  rw [View.canon_unit_zero hz5]
  simp only [View.ld_unit_zero (S := S1024x384) hz5, View.ld_unit_zero (S := S384x256) hz5, View.ld_unit_zero (S := S1x256) hz5]
  obtain ⟨e0, e1, e2, e3, e4, e5, e6, e7⟩ := idx_facts5 t
  refine funext fun (j : S1024x256.Idx) => ?_
  obtain ⟨p, q, rfl⟩ : ∃ (p : Fin 1024) (q : Fin 256), j = ix2 p q := ⟨j 0, j 1, eq_ix2 j⟩
  refine (pay5_apply _ _ _ p q).trans ?_
  have h0 : ∀ k : Fin 384, (((cfg5.win 0).blk t).view.emb (ix2 p k) : S10240x384.Idx) = ix2 ((((cfg5.win 3).blk t).view.emb (ix2 p q)) 0 : Fin 10240) k := fun k => by
    funext a; apply Fin.ext
    match a with
    | ⟨0, _⟩ => show win5_0.index t (0 : Fin 2) * 1024 + 1 * p.val = win5_3.index t (0 : Fin 2) * 1024 + 1 * p.val; omega
    | ⟨1, _⟩ => show win5_0.index t (1 : Fin 2) * 384 + 1 * k.val = k.val; omega
  have h1 : ∀ k : Fin 384, (((cfg5.win 1).blk t).view.emb (ix2 k q) : S384x256.Idx) = ix2 k ((((cfg5.win 3).blk t).view.emb (ix2 p q)) 1 : Fin 256) := fun k => by
    funext a; apply Fin.ext
    match a with
    | ⟨0, _⟩ => show win5_1.index t (0 : Fin 2) * 384 + 1 * k.val = k.val; omega
    | ⟨1, _⟩ => show win5_1.index t (1 : Fin 2) * 256 + 1 * q.val = win5_3.index t (1 : Fin 2) * 256 + 1 * q.val; omega
  have h2 : (((cfg5.win 2).blk t).view.emb (ix2 (0 : Fin 1) q) : S1x256.Idx) = ix2 (0 : Fin 1) ((((cfg5.win 3).blk t).view.emb (ix2 p q)) 1 : Fin 256) := by
    funext a; apply Fin.ext
    match a with
    | ⟨0, _⟩ => show win5_2.index t (0 : Fin 2) * 1 + 1 * 0 = 0; omega
    | ⟨1, _⟩ => show win5_2.index t (1 : Fin 2) * 256 + 1 * q.val = win5_3.index t (1 : Fin 2) * 256 + 1 * q.val; omega
  have key : ∀ (A : S10240x384.Idx → EReal) (B : S384x256.Idx → EReal) (bias : S1x256.Idx → EReal),
      max ((∑ k : Fin 384, A (((cfg5.win 0).blk t).view.emb (ix2 p k)) * B (((cfg5.win 1).blk t).view.emb (ix2 k q))) + bias (((cfg5.win 2).blk t).view.emb (ix2 (0 : Fin 1) q))) 0
        = G5 A B bias (((cfg5.win 3).blk t).view.emb (ix2 p q)) := by
    intro A B bias
    unfold G5
    rw [h2]
    simp only [h0, h1] <;> rfl
  exact key (V c main_v57) (V c main_v58) (V c main_v59)

/-- An index of the output array is in point `t`'s block iff each coordinate is in the block's range. -/
theorem mem_blk5 (t : Fin cfg5.N) (i : S10240x256.Idx) :
    i ∈ ((cfg5.win 3).blk t).view.set ↔ ∀ a : Fin 2, win5_3.index t a * S1024x256.size a ≤ (i a).val ∧ (i a).val < win5_3.index t a * S1024x256.size a + S1024x256.size a := by
  show i ∈ ((View.whole main_v60).slice (win5_3.rect t)).set ↔ _
  rw [View.set_slice_whole, Rect.mem_set_unit]
  exact Iff.rfl

/-- The ten row blocks cover the output array: row `r` is in block `r / 1024`. -/
theorem cover5 (i : S10240x256.Idx) : ∃ t : Fin cfg5.N, (cfg5.win 3).flush t = true ∧ i ∈ ((cfg5.win 3).blk t).view.set := by
  have hi0 : (i 0).val < 10240 := (i 0).isLt
  have hi1 : (i 1).val < 256 := (i 1).isLt
  obtain ⟨t, ht⟩ := idx_onto5 ⟨(i 0).val / 1024, by omega⟩
  have q0 : win5_3.index t (0 : Fin 2) = (i 0).val / 1024 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 256 ≤ (i 1).val ∧ (i 1).val < win5_3.index t (1 : Fin 2) * 256 + 256; omega

/-- The output array after the region: the closed form of the arrays the region found. -/
theorem val5 (c : Dev nD) : (dat5 (F := Ideal) V c).arrAt 3 cfg5.N = G5 (V c main_v57) (V c main_v58) (V c main_v59) :=
  (dat5 (F := Ideal) V c).arrAt_eq_of_cover 3 _ (fun t _ => flushed5_eq V c t) (cover5)

/-- The closed form at row `r'` and column `o`. -/
theorem G5_apply (a : S10240x384.Idx → EReal) (b : S384x256.Idx → EReal) (bias : S1x256.Idx → EReal) (r' : Fin 10240) (o : Fin 256) :
    G5 a b bias (ix2 r' o) = max ((∑ i : Fin 384, a (ix2 r' i) * b (ix2 i o)) + bias (ix2 (0 : Fin 1) o)) 0 := rfl

/-- The output array after the region, entry by entry, under any names `a`, `b`, `bias` for the three arrays the
    region found. -/
theorem val5_at (c : Dev nD) (a : S10240x384.Idx → EReal) (b : S384x256.Idx → EReal) (bias : S1x256.Idx → EReal)
    (ha : V c (Pipeline.arrRef spec5 0) = a) (hb : V c (Pipeline.arrRef spec5 1) = b) (hbias : V c (Pipeline.arrRef spec5 2) = bias)
    (r' : Fin 10240) (o : Fin 256) :
    (dat5 (F := Ideal) V c).arrAt 3 cfg5.N (ix2 r' o) = max ((∑ i : Fin 384, a (ix2 r' i) * b (ix2 i o)) + bias (ix2 (0 : Fin 1) o)) 0 := by
  subst ha hb hbias
  exact congrFun (val5 V c) (ix2 r' o)

end Cert.KernelIdeal.Hand
end
-- ==== Proof.KI.Val6.lean ====
/- What the propagation product of region 6 leaves in its result array, at the ideal values. Each case of the body
   leaves in the accumulator the payload of its last whole-buffer store: zero plus the block product at the first
   reduction index, the previous contents plus the block product elsewhere; the output block receives the accumulator
   at the last reduction index. Read at an index, the block product is the sum over the 1024 contraction positions of
   the matrix block's entry times the right factor block's entry (rounding to bf16 is the identity on ideal values).
   So along a row block the accumulator is the in-order sum of the block products, and the result at (r, f) is
   ((((0 + d 0) + d 1) + …) + d 9) with d k the sum over j < 1024 of M (r, 1024 k + j) · Z (1024 k + j, f). -/
import proofs.«130334_j70351564308694_1_alg».proof.Proof.KI.Reg6
import proofs.«130334_j70351564308694_1_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Spec (blk)

theorem hz_6 : (![0, 0] : Fin 2 → Nat) = fun _ => 0 := funext fun a => by fin_cases a <;> rfl

section AnyF
variable {F : FTy → Type} [FloatOps F]

/-- A load of a whole buffer through the whole-shape rectangle reads the buffer's contents. -/
theorem readAt_unit_unread_6 {S : Shape} {e : EltTy} (m : Memref sig .tc .vmem S e) (h : m.IsWhole) {off : Fin S.rank → ℕ}
    (ho : off = fun _ => 0) (inb : ∀ a, off a + S.size a ≤ S.size a) (x : Vec F S e) :
    View.readAt (Elt F) m.view (Rect.unit off S.size inb).toLoadRect (h.unread x) = x := by
  rw [View.readAt_eq_ld, h.read_unread, View.ld_unit_zero ho]

/-- The piece lists the three runs end with (the runs' first components, by projection). -/
theorem kRunA_val_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i) (x0 : Vec F S1024x1024 .bf16) (x1 : Vec F S1024x256 .f32) :
    (kRunA_6 c i arg2 harg2 arg3 harg3 arg4 harg4 arg5 harg5 hc0 hc1 x0 x1).1 = (⟨(Rect.unit ![0, 0] S1024x256.size inb_S1024x256_S1024x256_0_0), k6_pay2 (View.readAt (Elt F) arg2.view (Rect.unit ![0, 0] S1024x1024.size inb_S1024x1024_S1024x1024_0_0).toLoadRect (harg2.unread x0)) (View.readAt (Elt F) arg3.view (Rect.unit ![0, 0] S1024x256.size inb_S1024x256_S1024x256_0_0).toLoadRect (harg3.unread x1)) (kRunA_6.sl.v8 c arg5)⟩ : View.Piece (Elt F) S1024x256 .f32) :: kRunA_6.sl.HS0_1 := rfl
theorem kRunB_val_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i) (x0 : Vec F S1024x1024 .bf16) (x1 xs : Vec F S1024x256 .f32) :
    (kRunB_6 c i arg2 harg2 arg3 harg3 arg4 harg4 arg5 harg5 hc0 hc1 x0 x1 xs).1 = [(⟨(Rect.unit ![0, 0] S1024x256.size inb_S1024x256_S1024x256_0_0), k6_pay2 (View.readAt (Elt F) arg2.view (Rect.unit ![0, 0] S1024x1024.size inb_S1024x1024_S1024x1024_0_0).toLoadRect (harg2.unread x0)) (View.readAt (Elt F) arg3.view (Rect.unit ![0, 0] S1024x256.size inb_S1024x256_S1024x256_0_0).toLoadRect (harg3.unread x1)) (View.readAt (Elt F) arg5.view (Rect.unit ![0, 0] S1024x256.size inb_S1024x256_S1024x256_0_0).toLoadRect (harg5.unread xs))⟩ : View.Piece (Elt F) S1024x256 .f32)] := rfl
theorem kRunC_val1_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) :
    (kRunC_6 c i arg2 harg2 arg3 harg3 arg4 harg4 arg5 harg5 hc0 hc1 x0 x1 xs).1 = [(⟨(Rect.unit ![0, 0] S1024x256.size inb_S1024x256_S1024x256_0_0), kRunC_6.sl.v17 c arg2 harg2 arg3 harg3 arg5 harg5 x0 x1 xs⟩ : View.Piece (Elt F) S1024x256 .f32)] := rfl
theorem kRunC_val2_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) :
    (kRunC_6 c i arg2 harg2 arg3 harg3 arg4 harg4 arg5 harg5 hc0 hc1 x0 x1 xs).2.1 = kRunC_6.sl.HS0_1 c arg2 harg2 arg3 harg3 arg5 harg5 x0 x1 xs := rfl

theorem soutA_eq_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cReset_6 i) (hc1 : ¬cLast_6 i) (x0 : Vec F S1024x1024 .bf16) (x1 : Vec F S1024x256 .f32) :
    soutA_6 c i arg2 harg2 arg3 harg3 arg4 harg4 arg5 harg5 hc0 hc1 x0 x1 = k6_pay2 x0 x1 (k6_pay1 (F := F)) := by
  unfold soutA_6
  rw [View.read_writes_junk_eq_canon, kRunA_val_6]
  rw [View.canon_cons_unit_zero hz_6, readAt_unit_unread_6 _ _ hz_6, readAt_unit_unread_6 _ _ hz_6]
  unfold kRunA_6.sl.v8 kRunA_6.sl.HS0_1
  rw [View.readCov_unit_zero _ hz_6]

theorem soutB_eq_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : ¬cLast_6 i) (x0 : Vec F S1024x1024 .bf16) (x1 xs : Vec F S1024x256 .f32) :
    soutB_6 c i arg2 harg2 arg3 harg3 arg4 harg4 arg5 harg5 hc0 hc1 x0 x1 xs = k6_pay2 x0 x1 xs := by
  unfold soutB_6
  rw [View.read_writes_junk_eq_canon, kRunB_val_6]
  rw [View.canon_unit_zero hz_6, readAt_unit_unread_6 _ _ hz_6, readAt_unit_unread_6 _ _ hz_6, readAt_unit_unread_6 _ _ hz_6]

theorem soutC_eq_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) :
    soutC_6 c i arg2 harg2 arg3 harg3 arg4 harg4 arg5 harg5 hc0 hc1 x0 x1 xs = k6_pay2 x0 x1 xs := by
  unfold soutC_6
  rw [View.read_writes_junk_eq_canon, kRunC_val2_6]
  unfold kRunC_6.sl.HS0_1
  rw [View.canon_unit_zero hz_6, readAt_unit_unread_6 _ _ hz_6, readAt_unit_unread_6 _ _ hz_6, readAt_unit_unread_6 _ _ hz_6]

theorem outC_eq_6 (c : Dev nD) (i : grid6.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cReset_6 i) (hc1 : cLast_6 i) (x0 : Vec F S1024x1024 .bf16) (x1 xs : Vec F S1024x256 .f32) :
    outC_6 c i arg2 harg2 arg3 harg3 arg4 harg4 arg5 harg5 hc0 hc1 x0 x1 xs = k6_pay2 x0 x1 xs := by
  unfold outC_6
  rw [View.read_writes_junk_eq_canon, kRunC_val1_6]
  rw [View.canon_unit_zero hz_6]
  unfold kRunC_6.sl.v17 kRunC_6.sl.HS0_1
  rw [View.readCov_unit_zero _ hz_6, readAt_unit_unread_6 _ _ hz_6, readAt_unit_unread_6 _ _ hz_6, readAt_unit_unread_6 _ _ hz_6]

end AnyF

/-! ## The payloads at an index, at the ideal values -/

theorem pay1_apply_6 (j : S1024x256.Idx) : (k6_pay1 (F := Ideal) j : EReal) = 0 := by
  unfold k6_pay1
  rw [shapeCast_self, broadcast_apply]
  exact Idealize.ShloMosaic.Ideal.ofBits_zero_f32

abbrev lidx_6 (j : S1024x256.Idx) (k : Fin 1024) : S1024x1024.Idx := fun a => match a with
  | ⟨0, _⟩ => ⟨(j 0).val, (j 0).isLt⟩
  | ⟨1, _⟩ => ⟨k.val, k.isLt⟩
abbrev ridx_6 (j : S1024x256.Idx) (k : Fin 1024) : S1024x256.Idx := fun a => match a with
  | ⟨0, _⟩ => ⟨k.val, k.isLt⟩
  | ⟨1, _⟩ => ⟨(j 1).val, (j 1).isLt⟩

theorem lhs_6_0 (j : S1024x256.Idx) (q : dot_S1024x1024_S1024x256_S1024x256_1_0_0_1_n_n.contr.Idx) : (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_6_1 (j : S1024x256.Idx) (q : dot_S1024x1024_S1024x256_S1024x256_1_0_0_1_n_n.contr.Idx) : (dot_S1024x1024_S1024x256_S1024x256_1_0_0_1_n_n.lhsIdx j q 1).val = (q ⟨0, by decide⟩).val :=
  dot_S1024x1024_S1024x256_S1024x256_1_0_0_1_n_n.lhsIdx_val_of_single rfl j q
theorem rhs_6_0 (j : S1024x256.Idx) (q : dot_S1024x1024_S1024x256_S1024x256_1_0_0_1_n_n.contr.Idx) : (dot_S1024x1024_S1024x256_S1024x256_1_0_0_1_n_n.rhsIdx j q 0).val = (q ⟨0, by decide⟩).val :=
  dot_S1024x1024_S1024x256_S1024x256_1_0_0_1_n_n.rhsIdx_val_of_single rfl j q
theorem rhs_6_1 (j : S1024x256.Idx) (q : dot_S1024x1024_S1024x256_S1024x256_1_0_0_1_n_n.contr.Idx) : (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The accumulating payload at an index: what was there plus the row of the matrix block times the column of the
    right factor block. -/
theorem pay2_apply_6 (x0 : Vec Ideal S1024x1024 .bf16) (x1 xs : Vec Ideal S1024x256 .f32) (j : S1024x256.Idx) :
    (k6_pay2 (F := Ideal) x0 x1 xs j : EReal) = (xs j : EReal) + ∑ k : Fin 1024, (x0 (lidx_6 j k) : EReal) * (x1 (ridx_6 j k) : EReal) := by
  unfold k6_pay2
  rw [shapeCast_self, shapeCast_self, shapeCast_self, addf_apply]
  show _ + FloatOps.matmul _ _ _ _ _ j = _
  rw [Idealize.ShloMosaic.Ideal.matmul_constant_zero_apply, ← Equiv.sum_comp (contrEquiv1 dot_S1024x1024_S1024x256_S1024x256_1_0_0_1_n_n 1024 rfl rfl).symm]
  refine congrArg _ (Finset.sum_congr rfl fun k _ => ?_)
  have hk := contrEquiv1_symm_val dot_S1024x1024_S1024x256_S1024x256_1_0_0_1_n_n 1024 rfl rfl k
  have el : dot_S1024x1024_S1024x256_S1024x256_1_0_0_1_n_n.lhsIdx j ((contrEquiv1 dot_S1024x1024_S1024x256_S1024x256_1_0_0_1_n_n 1024 rfl rfl).symm k) = lidx_6 j k := funext fun a => Fin.ext (by
    match a with
    | ⟨0, _⟩ => exact lhs_6_0 _ _
    | ⟨1, _⟩ => exact (lhs_6_1 _ _).trans hk)
  have er : dot_S1024x1024_S1024x256_S1024x256_1_0_0_1_n_n.rhsIdx j ((contrEquiv1 dot_S1024x1024_S1024x256_S1024x256_1_0_0_1_n_n 1024 rfl rfl).symm k) = ridx_6 j k := funext fun a => Fin.ext (by
    match a with
    | ⟨0, _⟩ => exact (rhs_6_0 _ _).trans hk
    | ⟨1, _⟩ => exact rhs_6_1 _ _)
  rw [el, er, truncf_apply]

/-! ## The windows' index maps, decided over the grid -/

theorem idx_facts_6 : ∀ t : Fin cfg6.N,
    win6_0.index t (0 : Fin 2) = t.val / 10 ∧ win6_0.index t (1 : Fin 2) = t.val % 10
    ∧ win6_1.index t (0 : Fin 2) = t.val % 10 ∧ win6_1.index t (1 : Fin 2) = 0
    ∧ win6_2.index t (0 : Fin 2) = t.val / 10 ∧ win6_2.index t (1 : Fin 2) = 0 :=
  (by decide +kernel : ∀ t : Fin grid6.N, _)

section Val
variable (V : (c : Dev nD) → (b : Ref sig .tc) → Buf (Elt Ideal) ((c : Thread nD τ).loc b))

/-- The matrix block of the point (i, k), at (p, q), is the matrix at (1024 i + p, 1024 k + q). -/
theorem iblk0_apply_6 (c : Dev nD) (M : S10240x10240.Idx → EReal) (hM : V c (Pipeline.arrRef spec6 0) = M) (t : Fin cfg6.N)
    (y : S1024x1024.Idx) (r' k' : Fin 10240) (hr : r'.val = 1024 * (t.val / 10) + (y 0).val) (hk : k'.val = 1024 * (t.val % 10) + (y 1).val) :
    (iblk_6 V c 0 t y : EReal) = M (ix2 r' k') := by
  obtain ⟨e0, e1, -, -, -, -⟩ := idx_facts_6 t
  unfold iblk_6
  rw [hM]
  show M (((cfg6.win 0).blk t).view.emb y) = M (ix2 r' k')
  congr 1
  funext a; apply Fin.ext
  match a with
  | ⟨0, _⟩ => show win6_0.index t (0 : Fin 2) * 1024 + 1 * (y 0).val = r'.val; omega
  | ⟨1, _⟩ => show win6_0.index t (1 : Fin 2) * 1024 + 1 * (y 1).val = k'.val; omega

/-- The right factor's block of the point (i, k), at (q, f), is the right factor at (1024 k + q, f). -/
theorem iblk1_apply_6 (c : Dev nD) (Z : S10240x256.Idx → EReal) (hZ : V c (Pipeline.arrRef spec6 1) = Z) (t : Fin cfg6.N)
    (y : S1024x256.Idx) (k' : Fin 10240) (f : Fin 256) (hk : k'.val = 1024 * (t.val % 10) + (y 0).val) (hf : f.val = (y 1).val) :
    (iblk_6 V c 1 t y : EReal) = Z (ix2 k' f) := by
  obtain ⟨-, -, e2, e3, -, -⟩ := idx_facts_6 t
  unfold iblk_6
  rw [hZ]
  show Z (((cfg6.win 1).blk t).view.emb y) = Z (ix2 k' f)
  congr 1
  funext a; apply Fin.ext
  match a with
  | ⟨0, _⟩ => show win6_1.index t (0 : Fin 2) * 1024 + 1 * (y 0).val = k'.val; omega
  | ⟨1, _⟩ => show win6_1.index t (1 : Fin 2) * 256 + 1 * (y 1).val = f.val; omega

/-! ## The accumulator along a row block: the block products summed in order -/

/-- The k-th block product of row r and column f. -/
def dsum_6 (M : S10240x10240.Idx → EReal) (Z : S10240x256.Idx → EReal) (r' : Fin 10240) (f : Fin 256) (k : Fin 10) : EReal :=
  ∑ j : Fin 1024, M (ix2 r' (blk k j)) * Z (ix2 (blk k j) f)
def dN_6 (M : S10240x10240.Idx → EReal) (Z : S10240x256.Idx → EReal) (r' : Fin 10240) (f : Fin 256) (k : ℕ) : EReal :=
  if h : k < 10 then dsum_6 M Z r' f ⟨k, h⟩ else 0
/-- The in-order sum (((0 + D 0) + D 1) + … + D k). -/
def nest_6 (D : ℕ → EReal) : ℕ → EReal
  | 0 => 0 + D 0
  | k + 1 => nest_6 D k + D (k + 1)

theorem blockprod_6 (c : Dev nD) (M : S10240x10240.Idx → EReal) (Z : S10240x256.Idx → EReal)
    (hM : V c (Pipeline.arrRef spec6 0) = M) (hZ : V c (Pipeline.arrRef spec6 1) = Z) (t : Fin cfg6.N) (y : S1024x256.Idx)
    (r' : Fin 10240) (f : Fin 256) (hr : r'.val = 1024 * (t.val / 10) + (y 0).val) (hf : f.val = (y 1).val)
    (x0 : Vec Ideal S1024x1024 .bf16) (x1 : Vec Ideal S1024x256 .f32) (hx0 : x0 = iblk_6 V c 0 t) (hx1 : x1 = iblk_6 V c 1 t) :
    (∑ k : Fin 1024, (x0 (lidx_6 y k) : EReal) * (x1 (ridx_6 y k) : EReal)) = dN_6 M Z r' f (t.val % 10) := by
  subst hx0 hx1
  have hlt : t.val % 10 < 10 := Nat.mod_lt _ (by decide)
  unfold dN_6; rw [dif_pos hlt]; unfold dsum_6
  refine Finset.sum_congr rfl fun j _ => ?_
  rw [iblk0_apply_6 V c M hM t (lidx_6 y j) r' (blk ⟨t.val % 10, hlt⟩ j) hr (by show t.val % 10 * 1024 + j.val = 1024 * (t.val % 10) + j.val; omega),
    iblk1_apply_6 V c Z hZ t (ridx_6 y j) (blk ⟨t.val % 10, hlt⟩ j) f (by show t.val % 10 * 1024 + j.val = 1024 * (t.val % 10) + j.val; omega) hf]

theorem acc_apply_6 (c : Dev nD) (M : S10240x10240.Idx → EReal) (Z : S10240x256.Idx → EReal)
    (hM : V c (Pipeline.arrRef spec6 0) = M) (hZ : V c (Pipeline.arrRef spec6 1) = Z) :
    ∀ (n : ℕ) (hn : n < cfg6.N) (y : S1024x256.Idx) (r' : Fin 10240) (f : Fin 256),
      r'.val = 1024 * (n / 10) + (y 0).val → f.val = (y 1).val →
      (accAt_6 V c n hn y : EReal) = nest_6 (dN_6 M Z r' f) (n % 10) := by
  intro n
  induction n with
  | zero =>
    intro hn y r' f hr hf
    rw [show accAt_6 V c 0 hn = stepAcc_6 V c ⟨0, hn⟩ (VS_6.read (Elt Ideal) VS_6.junk) from rfl]
    unfold stepAcc_6
    rw [dif_pos (show (⟨0, hn⟩ : Fin cfg6.N).val % 10 = 0 from rfl), soutA_eq_6, pay2_apply_6, pay1_apply_6,
      blockprod_6 V c M Z hM hZ ⟨0, hn⟩ y r' f hr hf _ _ rfl rfl]
    rfl
  | succ n ih =>
    intro hn y r' f hr hf
    rw [show accAt_6 V c (n + 1) hn = stepAcc_6 V c ⟨n + 1, hn⟩ (accAt_6 V c n (Nat.lt_of_succ_lt hn)) from rfl]
    unfold stepAcc_6
    by_cases h0 : (n + 1) % 10 = 0
    · rw [dif_pos h0, soutA_eq_6, pay2_apply_6, pay1_apply_6, blockprod_6 V c M Z hM hZ ⟨n + 1, hn⟩ y r' f hr hf _ _ rfl rfl]
      show 0 + dN_6 M Z r' f ((n + 1) % 10) = nest_6 (dN_6 M Z r' f) ((n + 1) % 10)
      rw [h0]; rfl
    · have hr' : r'.val = 1024 * (n / 10) + (y 0).val := by omega
      have hs : (n + 1) % 10 = n % 10 + 1 := by omega
      rw [dif_neg h0]
      by_cases h1 : (n + 1) % 10 = 9
      · rw [dif_pos h1, soutC_eq_6, pay2_apply_6, blockprod_6 V c M Z hM hZ ⟨n + 1, hn⟩ y r' f hr hf _ _ rfl rfl,
          ih (Nat.lt_of_succ_lt hn) y r' f hr' hf]
        show nest_6 (dN_6 M Z r' f) (n % 10) + dN_6 M Z r' f ((n + 1) % 10) = nest_6 (dN_6 M Z r' f) ((n + 1) % 10)
        rw [hs]; rfl
      · rw [dif_neg h1, soutB_eq_6, pay2_apply_6, blockprod_6 V c M Z hM hZ ⟨n + 1, hn⟩ y r' f hr hf _ _ rfl rfl,
          ih (Nat.lt_of_succ_lt hn) y r' f hr' hf]
        show nest_6 (dN_6 M Z r' f) (n % 10) + dN_6 M Z r' f ((n + 1) % 10) = nest_6 (dN_6 M Z r' f) ((n + 1) % 10)
        rw [hs]; rfl

/-- At every point the value named for the output block's buffer is the accumulator's (its copy at a last reduction
    index, the placeholder elsewhere). -/
theorem outAt_eq_acc_6 (c : Dev nD) (t : Fin cfg6.N) : outAt_6 V c t = accAt_6 V c t.val t.isLt := by
  unfold outAt_6
  by_cases h1 : t.val % 10 = 9
  · have h0 : ¬t.val % 10 = 0 := by omega
    rw [dif_pos h1, accAt_step_6 V c t]
    unfold stepAcc_6
    rw [dif_neg h0, dif_pos h1, outC_eq_6, soutC_eq_6]
  · rw [dif_neg h1]

/-! ## From the blocks to the array -/

/-- The result array: at (r, f) the ten block products of row r and column f, summed in order from 0. -/
def G_6 (M : S10240x10240.Idx → EReal) (Z : S10240x256.Idx → EReal) : S10240x256.Idx → EReal :=
  fun i => nest_6 (dN_6 M Z (i 0) (i 1)) 9

theorem flushed_eq_6 (c : Dev nD) (M : S10240x10240.Idx → EReal) (Z : S10240x256.Idx → EReal)
    (hM : V c (Pipeline.arrRef spec6 0) = M) (hZ : V c (Pipeline.arrRef spec6 1) = Z) (t : Fin cfg6.N)
    (hfl : (cfg6.win 2).flush t = true) :
    (dat6 (F := Ideal) V c).flushed 2 t = ((cfg6.win 2).blk t).view.read (Elt Ideal) (G_6 M Z) := by
  have h9 : t.val % 10 = 9 := (flush6_2 t).mp hfl
  obtain ⟨-, -, -, -, e4, e5⟩ := idx_facts_6 t
  show (cfg6.win 2).cut (grid6.coords t) ((dat6 V c).after 2 t) = _
  rw [after_6_2, outAt_eq_acc_6]
  funext y
  show (accAt_6 V c t.val t.isLt y : EReal) = G_6 M Z (((cfg6.win 2).blk t).view.emb y)
  unfold G_6
  rw [acc_apply_6 V c M Z hM hZ t.val t.isLt y ((((cfg6.win 2).blk t).view.emb y) 0) ((((cfg6.win 2).blk t).view.emb y) 1)
    (by show win6_2.index t (0 : Fin 2) * 1024 + 1 * (y 0).val = 1024 * (t.val / 10) + (y 0).val; omega)
    (by show win6_2.index t (1 : Fin 2) * 256 + 1 * (y 1).val = (y 1).val; omega), h9]

theorem mem_blk_6 (t : Fin cfg6.N) (i : S10240x256.Idx) :
    i ∈ ((cfg6.win 2).blk t).view.set ↔ ∀ a : Fin 2, win6_2.index t a * S1024x256.size a ≤ (i a).val ∧ (i a).val < win6_2.index t a * S1024x256.size a + S1024x256.size a := by
  show i ∈ ((View.whole main_v61).slice (win6_2.rect t)).set ↔ _
  rw [View.set_slice_whole, Rect.mem_set_unit]
  exact Iff.rfl

/-- Every row of the result lies in the block written back at the last reduction index of its row block. -/
theorem cover_6 (i : S10240x256.Idx) : ∃ t : Fin cfg6.N, (cfg6.win 2).flush t = true ∧ i ∈ ((cfg6.win 2).blk t).view.set := by
  have hi0 : (i 0).val < 10240 := (i 0).isLt
  have hi1 : (i 1).val < 256 := (i 1).isLt
  have hN : cfg6.N = 100 := N_6
  have hb : 10 * ((i 0).val / 1024) + 9 < cfg6.N := by rw [hN]; omega
  obtain ⟨-, -, -, -, e4, e5⟩ := idx_facts_6 ⟨10 * ((i 0).val / 1024) + 9, hb⟩
  have e4' : win6_2.index ⟨10 * ((i 0).val / 1024) + 9, hb⟩ (0 : Fin 2) = (i 0).val / 1024 := by
    rw [e4]; show (10 * ((i 0).val / 1024) + 9) / 10 = (i 0).val / 1024; omega
  refine ⟨⟨10 * ((i 0).val / 1024) + 9, hb⟩, (flush6_2 _).mpr (by show (10 * ((i 0).val / 1024) + 9) % 10 = 9; omega), ?_⟩
  rw [mem_blk_6]
  intro a
  match a with
  | ⟨0, _⟩ =>
    show win6_2.index ⟨10 * ((i 0).val / 1024) + 9, hb⟩ (0 : Fin 2) * 1024 ≤ (i 0).val ∧ (i 0).val < win6_2.index ⟨10 * ((i 0).val / 1024) + 9, hb⟩ (0 : Fin 2) * 1024 + 1024
    rw [e4']; omega
  | ⟨1, _⟩ =>
    show win6_2.index ⟨10 * ((i 0).val / 1024) + 9, hb⟩ (1 : Fin 2) * 256 ≤ (i 1).val ∧ (i 1).val < win6_2.index ⟨10 * ((i 0).val / 1024) + 9, hb⟩ (1 : Fin 2) * 256 + 256
    rw [e5]; omega

theorem final_6 (c : Dev nD) (M : S10240x10240.Idx → EReal) (Z : S10240x256.Idx → EReal)
    (hM : V c (Pipeline.arrRef spec6 0) = M) (hZ : V c (Pipeline.arrRef spec6 1) = Z) :
    (dat6 (F := Ideal) V c).arrAt 2 cfg6.N = G_6 M Z :=
  (dat6 (F := Ideal) V c).arrAt_eq_of_cover 2 (G_6 M Z) (fun t hfl => flushed_eq_6 V c M Z hM hZ t hfl) cover_6

/-- THE VALUE: the result array at (r, f) is the in-order sum of the ten block products of row r and column f. -/
theorem val6_at (c : Dev nD) (M : S10240x10240.Idx → EReal) (Z : S10240x256.Idx → EReal)
    (hM : V c (Pipeline.arrRef spec6 0) = M) (hZ : V c (Pipeline.arrRef spec6 1) = Z) (r' : Fin 10240) (f : Fin 256) :
    (dat6 (F := Ideal) V c).arrAt 2 cfg6.N (ix2 r' f) = ((((((((((0 + (∑ j : Fin 1024, M (ix2 r' (blk 0 j)) * Z (ix2 (blk 0 j) f))) + (∑ j : Fin 1024, M (ix2 r' (blk 1 j)) * Z (ix2 (blk 1 j) f))) + (∑ j : Fin 1024, M (ix2 r' (blk 2 j)) * Z (ix2 (blk 2 j) f))) + (∑ j : Fin 1024, M (ix2 r' (blk 3 j)) * Z (ix2 (blk 3 j) f))) + (∑ j : Fin 1024, M (ix2 r' (blk 4 j)) * Z (ix2 (blk 4 j) f))) + (∑ j : Fin 1024, M (ix2 r' (blk 5 j)) * Z (ix2 (blk 5 j) f))) + (∑ j : Fin 1024, M (ix2 r' (blk 6 j)) * Z (ix2 (blk 6 j) f))) + (∑ j : Fin 1024, M (ix2 r' (blk 7 j)) * Z (ix2 (blk 7 j) f))) + (∑ j : Fin 1024, M (ix2 r' (blk 8 j)) * Z (ix2 (blk 8 j) f))) + (∑ j : Fin 1024, M (ix2 r' (blk 9 j)) * Z (ix2 (blk 9 j) f))) := by
  rw [final_6 V c M Z hM hZ]
  rfl

end Val

end Cert.KernelIdeal.Hand
end
-- ==== Proof.KI.Val7.lean ====
/- The value one Chebyshev propagation step with an affine tail leaves in its output array, over the extended reals.
   Entry (r, f) of the output is 2 · acc + (−1) · addend (r, f), acc = (((0 + d 0) + d 1) + … ) + d 9 in the order the
   ten reduction steps add, d k = ∑ j < 1024, matrix (r, 1024 k + j) · right factor (1024 k + j, f). One accumulation
   step at an entry is "what was there plus a row-by-column product of the two blocks"; a block's entry (a, j) at grid
   point 10 i + k is the array's entry (1024 i + a, 1024 k + j); so by induction on the grid point the accumulator
   after point 10 i + k holds the accumulated sum after step k at the rows of row block i; the last step of each row
   block writes the affine tail of it back, and the ten row blocks cover the array. -/
import proofs.«130334_j70351564308694_1_alg».proof.Proof.KI.Reg7
import proofs.«130334_j70351564308694_1_alg».proof.Proof.Spec
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value the region leaves, at the ideal instance -/

section Value7
open Idealize.ShloMosaic.ValueIdx

/-- The block product into a zero accumulator, at an entry: the sum over the 1024 contracted positions. -/
theorem matmul_7_apply (A : FVec Ideal S1024x1024 .bf16) (B : FVec Ideal S1024x256 .bf16) (a : Fin 1024) (b : Fin 256) :
    FloatOps.matmul dot_S1024x1024_S1024x256_S1024x256_1_0_0_1_n_n none A B (constant (F := Ideal) S1024x256 .f32 0x00000000#32) (ix2 a b)
      = ∑ j : Fin 1024, A (ix2 a j) * B (ix2 j b) := by
  rw [Ideal.matmul_constant_zero_apply, ← Equiv.sum_comp (contrEquiv1 dot_S1024x1024_S1024x256_S1024x256_1_0_0_1_n_n 1024 rfl rfl).symm]
  refine Finset.sum_congr rfl fun j _ => ?_
  have c2 := contrEquiv1_symm_val dot_S1024x1024_S1024x256_S1024x256_1_0_0_1_n_n 1024 rfl rfl j
  have l2 : dot_S1024x1024_S1024x256_S1024x256_1_0_0_1_n_n.lhsIdx (ix2 a b) ((contrEquiv1 _ 1024 rfl rfl).symm j) = ix2 a j := by
    funext ax; apply Fin.ext
    match ax with
    | ⟨0, _⟩ => simp [DotDims.lhsIdx, dot_S1024x1024_S1024x256_S1024x256_1_0_0_1_n_n]; rfl
    | ⟨1, _⟩ => simp [DotDims.lhsIdx, dot_S1024x1024_S1024x256_S1024x256_1_0_0_1_n_n]; exact c2
  have r2 : dot_S1024x1024_S1024x256_S1024x256_1_0_0_1_n_n.rhsIdx (ix2 a b) ((contrEquiv1 _ 1024 rfl rfl).symm j) = ix2 j b := by
    funext ax; apply Fin.ext
    match ax with
    | ⟨0, _⟩ => simp [DotDims.rhsIdx, dot_S1024x1024_S1024x256_S1024x256_1_0_0_1_n_n]; exact c2
    | ⟨1, _⟩ => simp [DotDims.rhsIdx, dot_S1024x1024_S1024x256_S1024x256_1_0_0_1_n_n]; rfl
  rw [l2, r2]

/-- The zero block. -/
theorem pay1_7_apply (i : S1024x256.Idx) : k7_pay1 (F := Ideal) i = 0 := by
  unfold k7_pay1
  simp only [shapeCast_self]
  exact Ideal.ofBits_zero_f32

/-- One accumulation step at an entry: what was there plus the row-by-column product of the two blocks. -/
theorem pay2_7_apply (x0 : Vec Ideal S1024x1024 .bf16) (x1 : Vec Ideal S1024x256 .f32) (xs : Vec Ideal S1024x256 .f32) (a : Fin 1024) (b : Fin 256) :
    k7_pay2 (F := Ideal) x0 x1 xs (ix2 a b) = xs (ix2 a b) + ∑ j : Fin 1024, x0 (ix2 a j) * x1 (ix2 j b) := by
  unfold k7_pay2
  simp only [shapeCast_self]
  show xs (ix2 a b) + FloatOps.matmul dot_S1024x1024_S1024x256_S1024x256_1_0_0_1_n_n none x0 (truncf (F := Ideal) .bf16 x1 bitsLt_bf16_f32) (constant (F := Ideal) S1024x256 .f32 0x00000000#32) (ix2 a b) = _
  rw [matmul_7_apply]
  rfl

/-- The affine tail at an entry. -/
theorem pay3_7_apply (v17 v20 : Vec Ideal S1024x256 .f32) (i : S1024x256.Idx) :
    k7_pay3 (F := Ideal) v17 v20 i = Ideal.ofBits .f32 0x40000000#32 * v17 i + Ideal.ofBits .f32 0xBF800000#32 * v20 i := by
  unfold k7_pay3
  simp only [shapeCast_self]
  rfl

end Value7

section ValueGrid7
open Idealize.ShloMosaic.ValueIdx
open Cert.Proof.Spec (blk)

variable (VI : (c : Dev nD) → (b : Ref sig .tc) → Buf (Elt Ideal) ((c : Thread nD τ).loc b))

/-- The three input arrays as the region finds them, as functions of a rank-2 index. -/
abbrev arrM_7 (c : Dev nD) : S10240x10240.Idx → EReal := VI c (Pipeline.arrRef spec7 0)
abbrev arrZ_7 (c : Dev nD) : S10240x256.Idx → EReal := VI c (Pipeline.arrRef spec7 1)
abbrev arrA_7 (c : Dev nD) : S10240x256.Idx → EReal := VI c (Pipeline.arrRef spec7 2)

/-- The k-th partial product at entry (r, f): the 1024 columns of block k of the matrix row against the matching
    rows of the right factor's column. -/
def dS_7 (c : Dev nD) (r : Fin 10240) (f : Fin 256) (k : Fin 10) : EReal :=
  ∑ j : Fin 1024, arrM_7 VI c (ix2 r (blk k j)) * arrZ_7 VI c (ix2 (blk k j) f)

/-- The accumulated sum after step k, in the order the steps add: (((0 + d 0) + d 1) + …) + d k. -/
def accG_7 (d : Fin 10 → EReal) : ℕ → EReal
  | 0 => 0 + d 0
  | k + 1 => accG_7 d k + d ⟨(k + 1) % 10, Nat.mod_lt _ (by decide)⟩

theorem accG_7_succ (d : Fin 10 → EReal) (k : ℕ) (h : k + 1 < 10) :
    accG_7 d (k + 1) = accG_7 d k + d ⟨k + 1, h⟩ := by
  show _ + d ⟨(k + 1) % 10, _⟩ = _
  congr 2
  exact Fin.ext (Nat.mod_eq_of_lt h)

/-- What the output array holds at the end, entry by entry. -/
def G_7 (c : Dev nD) : S10240x256.Idx → EReal :=
  fun i => Ideal.ofBits .f32 0x40000000#32 * accG_7 (dS_7 VI c (i 0) (i 1)) 9
    + Ideal.ofBits .f32 0xBF800000#32 * arrA_7 VI c i

/-- The printed index maps over the grid: point t = 10 · i + k reads block (i, k) of the matrix, block (k, 0) of the
    right factor, block (i, 0) of the addend, and owns block (i, 0) of the output. -/
theorem idx_7 : ∀ t : Fin cfg7.N,
    win7_0.index t (0 : Fin 2) = t.val / 10 ∧ win7_0.index t (1 : Fin 2) = t.val % 10
    ∧ win7_1.index t (0 : Fin 2) = t.val % 10 ∧ win7_1.index t (1 : Fin 2) = 0
    ∧ win7_2.index t (0 : Fin 2) = t.val / 10 ∧ win7_2.index t (1 : Fin 2) = 0
    ∧ win7_3.index t (0 : Fin 2) = t.val / 10 ∧ win7_3.index t (1 : Fin 2) = 0 :=
  (by decide +kernel : ∀ t : Fin grid7.N, _)

/-- The rows of row block t / 10. -/
abbrev rowOf_7 (t : Fin cfg7.N) (a : Fin 1024) : Fin 10240 :=
  ⟨1024 * (t.val / 10) + a.val, by have := t.isLt; have : cfg7.N = 100 := N_7; have := a.isLt; omega⟩
abbrev stepOf_7 (t : Fin cfg7.N) : Fin 10 := ⟨t.val % 10, Nat.mod_lt _ (by decide)⟩

theorem iblk_7_0_apply (c : Dev nD) (t : Fin cfg7.N) (a j : Fin 1024) :
    iblk_7 VI c 0 t (ix2 a j) = arrM_7 VI c (ix2 (rowOf_7 t a) (blk (stepOf_7 t) j)) := by
  obtain ⟨e0, e1, -⟩ := idx_7 t
  show arrM_7 VI c (((cfg7.win 0).blk t).view.emb (ix2 a j)) = _
  congr 1
  funext ax; apply Fin.ext
  match ax with
  | ⟨0, _⟩ => show win7_0.index t (0 : Fin 2) * 1024 + 1 * a.val = 1024 * (t.val / 10) + a.val; omega
  | ⟨1, _⟩ => show win7_0.index t (1 : Fin 2) * 1024 + 1 * j.val = t.val % 10 * 1024 + j.val; omega

theorem iblk_7_1_apply (c : Dev nD) (t : Fin cfg7.N) (j : Fin 1024) (b : Fin 256) :
    iblk_7 VI c 1 t (ix2 j b) = arrZ_7 VI c (ix2 (blk (stepOf_7 t) j) b) := by
  obtain ⟨-, -, e2, e3, -⟩ := idx_7 t
  show arrZ_7 VI c (((cfg7.win 1).blk t).view.emb (ix2 j b)) = _
  congr 1
  funext ax; apply Fin.ext
  match ax with
  | ⟨0, _⟩ => show win7_1.index t (0 : Fin 2) * 1024 + 1 * j.val = t.val % 10 * 1024 + j.val; omega
  | ⟨1, _⟩ => show win7_1.index t (1 : Fin 2) * 256 + 1 * b.val = b.val; omega

theorem iblk_7_2_apply (c : Dev nD) (t : Fin cfg7.N) (a : Fin 1024) (b : Fin 256) :
    iblk_7 VI c 2 t (ix2 a b) = arrA_7 VI c (ix2 (rowOf_7 t a) b) := by
  obtain ⟨-, -, -, -, e4, e5, -⟩ := idx_7 t
  show arrA_7 VI c (((cfg7.win 2).blk t).view.emb (ix2 a b)) = _
  congr 1
  funext ax; apply Fin.ext
  match ax with
  | ⟨0, _⟩ => show win7_2.index t (0 : Fin 2) * 1024 + 1 * a.val = 1024 * (t.val / 10) + a.val; omega
  | ⟨1, _⟩ => show win7_2.index t (1 : Fin 2) * 256 + 1 * b.val = b.val; omega

/-- One point's product of its two blocks is the partial product of its step, at the point's rows. -/
theorem step_7 (c : Dev nD) (t : Fin cfg7.N) (a : Fin 1024) (b : Fin 256)
    (x0 : Vec Ideal S1024x1024 .bf16) (x1 : Vec Ideal S1024x256 .f32)
    (h0 : x0 = iblk_7 VI c 0 t) (h1 : x1 = iblk_7 VI c 1 t) :
    (∑ j : Fin 1024, x0 (ix2 a j) * x1 (ix2 j b))
      = dS_7 VI c (rowOf_7 t a) b (stepOf_7 t) := by
  subst h0 h1
  unfold dS_7
  refine Finset.sum_congr rfl fun j _ => ?_
  rw [iblk_7_0_apply, iblk_7_1_apply]

/-- THE ACCUMULATOR after point t = 10 · i + k, at entry (a, b) of its block: the accumulated sum after step k at
    row 1024 · i + a. By induction on the point. -/
theorem accAt_7_eq (c : Dev nD) : ∀ (n : ℕ) (hn : n < cfg7.N) (a : Fin 1024) (b : Fin 256),
    accAt_7 VI c n hn (ix2 a b) = accG_7 (dS_7 VI c (rowOf_7 ⟨n, hn⟩ a) b) (n % 10) := by
  intro n
  induction n with
  | zero =>
    intro hn a b
    rw [accAt_7_first VI c ⟨0, hn⟩ rfl, pay2_7_apply, pay1_7_apply, step_7 VI c _ a b _ _ rfl rfl]
    rfl
  | succ n ih =>
    intro hn a b
    have hN : n + 1 < 100 := lt_of_lt_of_eq hn N_7
    by_cases h0 : (n + 1) % 10 = 0
    · rw [accAt_7_first VI c ⟨n + 1, hn⟩ h0, pay2_7_apply, pay1_7_apply, step_7 VI c _ a b _ _ rfl rfl]
      have e : stepOf_7 ⟨n + 1, hn⟩ = 0 := Fin.ext h0
      rw [e]
      show _ = accG_7 _ ((n + 1) % 10)
      rw [h0]
      rfl
    · rw [accAt_7_next VI c ⟨n + 1, hn⟩ h0, pay2_7_apply, step_7 VI c _ a b _ _ rfl rfl]
      show accAt_7 VI c n _ (ix2 a b) + _ = accG_7 _ ((n + 1) % 10)
      rw [ih (Nat.lt_of_succ_lt hn) a b]
      obtain ⟨k, hk⟩ : ∃ k, (n + 1) % 10 = k + 1 := ⟨(n + 1) % 10 - 1, by omega⟩
      have hk10 : k + 1 < 10 := by omega
      have hq : n / 10 = (n + 1) / 10 := by omega
      have hr : n % 10 = k := by omega
      have hrow : rowOf_7 ⟨n, Nat.lt_of_succ_lt hn⟩ a = rowOf_7 ⟨n + 1, hn⟩ a :=
        Fin.ext (by show 1024 * (n / 10) + a.val = 1024 * ((n + 1) / 10) + a.val; rw [hq])
      have e : stepOf_7 ⟨n + 1, hn⟩ = ⟨k + 1, hk10⟩ := Fin.ext hk
      rw [e, hk, accG_7_succ _ k hk10, hr, hrow]

/-- WHAT THE LAST STEP OF A ROW BLOCK WRITES BACK is that block of `G_7`. -/
theorem flushed_7_eq (c : Dev nD) (t : Fin cfg7.N) (hf : (cfg7.win 3).flush t = true) :
    (dat7 (F := Ideal) VI c).flushed 3 t = ((cfg7.win 3).blk t).view.read (Elt Ideal) (G_7 VI c) := by
  have h9 : t.val % 10 = 9 := (flush7_3 t).mp hf
  obtain ⟨-, -, -, -, -, -, e6, e7⟩ := idx_7 t
  show (cfg7.win 3).cut (grid7.coords t) ((dat7 (F := Ideal) VI c).after 3 t) = _
  rw [after_7_3]
  funext y
  obtain ⟨a, b, rfl⟩ : ∃ (a : Fin 1024) (b : Fin 256), y = ix2 a b := ⟨y 0, y 1, eq_ix2 y⟩
  show k7_pay3 (F := Ideal) (accAt_7 VI c t.val t.isLt) (iblk_7 VI c 2 t) (ix2 a b)
    = G_7 VI c (((cfg7.win 3).blk t).view.emb (ix2 a b))
  have hemb : ((cfg7.win 3).blk t).view.emb (ix2 a b) = (ix2 (rowOf_7 t a) b : S10240x256.Idx) := by
    funext ax; apply Fin.ext
    match ax with
    | ⟨0, _⟩ => show win7_3.index t (0 : Fin 2) * 1024 + 1 * a.val = 1024 * (t.val / 10) + a.val; omega
    | ⟨1, _⟩ => show win7_3.index t (1 : Fin 2) * 256 + 1 * b.val = b.val; omega
  rw [hemb, pay3_7_apply, accAt_7_eq, iblk_7_2_apply, h9]
  rfl

theorem mem_blk_7 (t : Fin cfg7.N) (i : S10240x256.Idx) :
    i ∈ ((cfg7.win 3).blk t).view.set ↔ ∀ a : Fin 2, win7_3.index t a * S1024x256.size a ≤ (i a).val ∧ (i a).val < win7_3.index t a * S1024x256.size a + S1024x256.size a := by
  show i ∈ ((View.whole main_v62).slice (win7_3.rect t)).set ↔ _
  rw [View.set_slice_whole, Rect.mem_set_unit]
  exact Iff.rfl

/-- Every entry of the output array is in the block some write-back writes: row r is in row block r / 1024, written
    back at that block's last step. -/
theorem cover_7 (i : S10240x256.Idx) :
    ∃ t : Fin cfg7.N, (cfg7.win 3).flush t = true ∧ i ∈ ((cfg7.win 3).blk t).view.set := by
  have hi0 : (i 0).val < 10240 := (i 0).isLt
  have hi1 : (i 1).val < 256 := (i 1).isLt
  have hN : cfg7.N = 100 := N_7
  have hlt : 10 * ((i 0).val / 1024) + 9 < cfg7.N := by omega
  refine ⟨⟨10 * ((i 0).val / 1024) + 9, hlt⟩, (flush7_3 _).mpr (by show (10 * ((i 0).val / 1024) + 9) % 10 = 9; omega), ?_⟩
  rw [mem_blk_7]
  obtain ⟨-, -, -, -, -, -, e6, e7⟩ := idx_7 ⟨10 * ((i 0).val / 1024) + 9, hlt⟩
  have e6' : win7_3.index ⟨10 * ((i 0).val / 1024) + 9, hlt⟩ (0 : Fin 2) = (i 0).val / 1024 := by
    rw [e6]; show (10 * ((i 0).val / 1024) + 9) / 10 = _; omega
  intro a
  match a with
  | ⟨0, _⟩ =>
    show win7_3.index ⟨10 * ((i 0).val / 1024) + 9, hlt⟩ (0 : Fin 2) * 1024 ≤ (i 0).val ∧ (i 0).val < win7_3.index ⟨10 * ((i 0).val / 1024) + 9, hlt⟩ (0 : Fin 2) * 1024 + 1024
    rw [e6']; omega
  | ⟨1, _⟩ =>
    show win7_3.index ⟨10 * ((i 0).val / 1024) + 9, hlt⟩ (1 : Fin 2) * 256 ≤ (i 1).val ∧ (i 1).val < win7_3.index ⟨10 * ((i 0).val / 1024) + 9, hlt⟩ (1 : Fin 2) * 256 + 256
    rw [e7]; omega

/-- The output array after the region is `G_7`. -/
theorem final_7 (c : Dev nD) : (dat7 (F := Ideal) VI c).arrAt 3 cfg7.N = G_7 VI c :=
  (dat7 (F := Ideal) VI c).arrAt_eq_of_cover 3 _ (fun t hf => flushed_7_eq VI c t hf) (cover_7)

/-- THE OUTPUT ARRAY after the region, entry (r', f): 2 · ((((0 + d 0) + d 1) + …) + d 9) + (−1) · addend (r', f), with
    d k = ∑ j < 1024, matrix (r', 1024 k + j) · right factor (1024 k + j, f), all arrays as the region finds them
    (the two literal factors as the words the kernel multiplies by: the f32 patterns of 2 and of −1). -/
theorem val7 (c : Dev nD) (r' : Fin 10240) (f : Fin 256) :
    (dat7 (F := Ideal) VI c).arrAt 3 cfg7.N (ix2 r' f)
      = Ideal.ofBits .f32 0x40000000#32
          * ((((((((((0 + dS_7 VI c r' f 0) + dS_7 VI c r' f 1) + dS_7 VI c r' f 2) + dS_7 VI c r' f 3)
              + dS_7 VI c r' f 4) + dS_7 VI c r' f 5) + dS_7 VI c r' f 6) + dS_7 VI c r' f 7)
              + dS_7 VI c r' f 8) + dS_7 VI c r' f 9)
        + Ideal.ofBits .f32 0xBF800000#32 * arrA_7 VI c (ix2 r' f) := by
  show (dat7 (F := Ideal) VI c).arrAt 3 cfg7.N (ix2 r' f) = _
  rw [final_7]
  rfl

end ValueGrid7

section ValueAt7
open Idealize.ShloMosaic.ValueIdx
open Cert.Proof.Spec (blk)

variable (VI : (c : Dev nD) → (b : Ref sig .tc) → Buf (Elt Ideal) ((c : Thread nD τ).loc b))

/-- The f32 words the affine tail multiplies by are 2 and −1. -/
theorem two_lit_7 : Ideal.ofBits .f32 0x40000000#32 = 2 := by
  simp [Ideal.ofBits, Ideal.ieee]
  rw [← EReal.coe_mul]
  norm_num
  first | rfl | norm_cast | exact_mod_cast rfl | (simp; done)
theorem m1_lit_7 : Ideal.ofBits .f32 0xBF800000#32 = -1 := by
  simp [Ideal.ofBits, Ideal.ieee]
  rw [← EReal.coe_mul]
  norm_num

/-- The k-th partial product at entry (r', f) over given arrays. -/
def dAt_7 (M : S10240x10240.Idx → EReal) (Z : S10240x256.Idx → EReal) (r' : Fin 10240) (f : Fin 256) (k : Fin 10) : EReal :=
  ∑ j : Fin 1024, M (ix2 r' (blk k j)) * Z (ix2 (blk k j) f)

/-- THE OUTPUT ARRAY after the region, entry (r', f), over the arrays the region finds in its three input windows:
    2 · ((((0 + d 0) + d 1) + …) + d 9) + (−1) · addend (r', f), d k = ∑ j < 1024, M (r', 1024 k + j) · Z (1024 k + j, f). -/
theorem val7_at (c : Dev nD) (M : S10240x10240.Idx → EReal) (Z : S10240x256.Idx → EReal) (A : S10240x256.Idx → EReal)
    (hM : VI c (Pipeline.arrRef spec7 0) = M) (hZ : VI c (Pipeline.arrRef spec7 1) = Z)
    (hA : VI c (Pipeline.arrRef spec7 2) = A) (r' : Fin 10240) (f : Fin 256) :
    (dat7 (F := Ideal) VI c).arrAt 3 cfg7.N (ix2 r' f)
      = 2 * ((((((((((0 + dAt_7 M Z r' f 0) + dAt_7 M Z r' f 1) + dAt_7 M Z r' f 2) + dAt_7 M Z r' f 3)
              + dAt_7 M Z r' f 4) + dAt_7 M Z r' f 5) + dAt_7 M Z r' f 6) + dAt_7 M Z r' f 7)
              + dAt_7 M Z r' f 8) + dAt_7 M Z r' f 9)
        + (-1) * A (ix2 r' f) := by
  subst hM hZ hA
  have h := val7 VI c r' f
  rw [two_lit_7, m1_lit_7] at h
  exact h

end ValueAt7

end Cert.KernelIdeal.Hand
end
-- ==== Proof.KI.Val8.lean ====
/- Region 8, read at the ideal values: the output array at row r and column o is the sum over the contracted
   coordinate k of (left factor at (r, k)) times (right factor at (k, o)), plus the bias row at o, then the maximum with zero.
   Each grid point writes one block of 1024 rows; the ten blocks tile the array. -/
import proofs.«130334_j70351564308694_1_alg».proof.Proof.KI.Reg8
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The closed form: the array the region leaves, from the arrays it finds. -/
def G8 (a : S10240x768.Idx → EReal) (b : S768x512.Idx → EReal) (bias : S1x512.Idx → EReal) : S10240x512.Idx → EReal :=
  fun i => max ((∑ k : Fin 768, a (ix2 (i 0 : Fin 10240) k) * b (ix2 k (i 1 : Fin 512))) + bias (ix2 (0 : Fin 1) (i 1 : Fin 512))) 0

/-- The body's payload at an index of the block: the block product into zero, plus the bias row, rectified. -/
theorem pay8_apply (x0 : S1024x768.Idx → EReal) (x1 : S768x512.Idx → EReal) (x2 : S1x512.Idx → EReal) (p : Fin 1024) (q : Fin 512) :
    k8_pay1 (F := Ideal) x0 x1 x2 (ix2 p q) = max ((∑ k : Fin 768, x0 (ix2 p k) * x1 (ix2 k q)) + x2 (ix2 (0 : Fin 1) q)) 0 := by
  unfold k8_pay1
  simp only [shapeCast_self]
  have e1 : matmul (F := Ideal) dot_S1024x768_S768x512_S1024x512_1_0_0_1_n_n none (truncf .bf16 x0 bitsLt_bf16_f32) (truncf .bf16 x1 bitsLt_bf16_f32) (constant S1024x512 .f32 0x00000000#32) (ix2 p q) = ∑ k : Fin 768, x0 (ix2 p k) * x1 (ix2 k q) :=
    (congrFun (matmul_zero_eq_dotGeneral dot_S1024x768_S768x512_S1024x512_1_0_0_1_n_n none _ _) (ix2 p q)).trans (StackMember.dotGeneral_plain_apply none _ _ p q)
  have e2 := broadcastTo_1b_ab_apply x2 broadcasts_S1x512_S1024x512 p q
  show max (_ + _) (Ideal.ofBits .f32 0x00000000#32) = _
  rw [Ideal.ofBits_zero_f32]
  exact congrArg (fun z => max z 0) (congrArg₂ (· + ·) e1 e2)

theorem hz8 : (![0, 0] : Fin 2 → Nat) = fun _ => 0 := funext fun a => by fin_cases a <;> rfl

/-- The printed index maps over the grid: the left factor's and the output's row blocks move with the point, the
    right factor and the bias stay. -/
theorem idx_facts8 : ∀ t : Fin cfg8.N,
    win8_0.index t (0 : Fin 2) = win8_3.index t (0 : Fin 2) ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 ∧ win8_3.index t (0 : Fin 2) ≤ 9 :=
  (by decide +kernel : ∀ t : Fin grid8.N, _)

/-- Every row block is some point's. -/
theorem idx_onto8 : ∀ (q0 : Fin 10), ∃ t : Fin cfg8.N, win8_3.index t = ![q0.val, 0] :=
  (by decide +kernel : ∀ (q0 : Fin 10), ∃ t : Fin grid8.N, win8_3.index t = ![q0.val, 0])

set_option maxHeartbeats 1000000 in
/-- What point `t` writes back is block `t` of the closed form of the arrays as the region finds them. -/
theorem flushed8_eq (c : Dev nD) (t : Fin cfg8.N) :
    (dat8 (F := Ideal) V c).flushed 3 t = ((cfg8.win 3).blk t).view.read (Elt Ideal) (G8 (V c main_v63) (V c main_v64) (V c main_v65)) := by
  show (cfg8.win 3).cut (grid8.coords t) ((dat8 V c).after 3 t) = _
  rw [after8_3]
  unfold out8_3
  rw [View.canon_unit_zero hz8]
  simp only [View.ld_unit_zero (S := S1024x768) hz8, View.ld_unit_zero (S := S768x512) hz8, View.ld_unit_zero (S := S1x512) hz8]
  obtain ⟨e0, e1, e2, e3, e4, e5, e6, e7⟩ := idx_facts8 t
  refine funext fun (j : S1024x512.Idx) => ?_
  obtain ⟨p, q, rfl⟩ : ∃ (p : Fin 1024) (q : Fin 512), j = ix2 p q := ⟨j 0, j 1, eq_ix2 j⟩
  refine (pay8_apply _ _ _ p q).trans ?_
  have h0 : ∀ k : Fin 768, (((cfg8.win 0).blk t).view.emb (ix2 p k) : S10240x768.Idx) = ix2 ((((cfg8.win 3).blk t).view.emb (ix2 p q)) 0 : Fin 10240) k := fun k => by
    funext a; apply Fin.ext
    match a with
    | ⟨0, _⟩ => show win8_0.index t (0 : Fin 2) * 1024 + 1 * p.val = win8_3.index t (0 : Fin 2) * 1024 + 1 * p.val; omega
    | ⟨1, _⟩ => show win8_0.index t (1 : Fin 2) * 768 + 1 * k.val = k.val; omega
  have h1 : ∀ k : Fin 768, (((cfg8.win 1).blk t).view.emb (ix2 k q) : S768x512.Idx) = ix2 k ((((cfg8.win 3).blk t).view.emb (ix2 p q)) 1 : Fin 512) := fun k => by
    funext a; apply Fin.ext
    match a with
    | ⟨0, _⟩ => show win8_1.index t (0 : Fin 2) * 768 + 1 * k.val = k.val; omega
    | ⟨1, _⟩ => show win8_1.index t (1 : Fin 2) * 512 + 1 * q.val = win8_3.index t (1 : Fin 2) * 512 + 1 * q.val; omega
  have h2 : (((cfg8.win 2).blk t).view.emb (ix2 (0 : Fin 1) q) : S1x512.Idx) = ix2 (0 : Fin 1) ((((cfg8.win 3).blk t).view.emb (ix2 p q)) 1 : Fin 512) := by
    funext a; apply Fin.ext
    match a with
    | ⟨0, _⟩ => show win8_2.index t (0 : Fin 2) * 1 + 1 * 0 = 0; omega
    | ⟨1, _⟩ => show win8_2.index t (1 : Fin 2) * 512 + 1 * q.val = win8_3.index t (1 : Fin 2) * 512 + 1 * q.val; omega
  have key : ∀ (A : S10240x768.Idx → EReal) (B : S768x512.Idx → EReal) (bias : S1x512.Idx → EReal),
      max ((∑ k : Fin 768, A (((cfg8.win 0).blk t).view.emb (ix2 p k)) * B (((cfg8.win 1).blk t).view.emb (ix2 k q))) + bias (((cfg8.win 2).blk t).view.emb (ix2 (0 : Fin 1) q))) 0
        = G8 A B bias (((cfg8.win 3).blk t).view.emb (ix2 p q)) := by
    intro A B bias
    unfold G8
    rw [h2]
    simp only [h0, h1] <;> rfl
  exact key (V c main_v63) (V c main_v64) (V c main_v65)

/-- An index of the output array is in point `t`'s block iff each coordinate is in the block's range. -/
theorem mem_blk8 (t : Fin cfg8.N) (i : S10240x512.Idx) :
    i ∈ ((cfg8.win 3).blk t).view.set ↔ ∀ a : Fin 2, win8_3.index t a * S1024x512.size a ≤ (i a).val ∧ (i a).val < win8_3.index t a * S1024x512.size a + S1024x512.size a := by
  show i ∈ ((View.whole main_v66).slice (win8_3.rect t)).set ↔ _
  rw [View.set_slice_whole, Rect.mem_set_unit]
  exact Iff.rfl

/-- The ten row blocks cover the output array: row `r` is in block `r / 1024`. -/
theorem cover8 (i : S10240x512.Idx) : ∃ t : Fin cfg8.N, (cfg8.win 3).flush t = true ∧ i ∈ ((cfg8.win 3).blk t).view.set := by
  have hi0 : (i 0).val < 10240 := (i 0).isLt
  have hi1 : (i 1).val < 512 := (i 1).isLt
  obtain ⟨t, ht⟩ := idx_onto8 ⟨(i 0).val / 1024, by omega⟩
  have q0 : win8_3.index t (0 : Fin 2) = (i 0).val / 1024 := congrFun ht 0
  have q1 : win8_3.index t (1 : Fin 2) = 0 := congrFun ht 1
  refine ⟨t, flush8_3 t, ?_⟩
  rw [mem_blk8]
  intro a
  match a with
  | ⟨0, _⟩ => show win8_3.index t (0 : Fin 2) * 1024 ≤ (i 0).val ∧ (i 0).val < win8_3.index t (0 : Fin 2) * 1024 + 1024; omega
  | ⟨1, _⟩ => show win8_3.index t (1 : Fin 2) * 512 ≤ (i 1).val ∧ (i 1).val < win8_3.index t (1 : Fin 2) * 512 + 512; omega

/-- The output array after the region: the closed form of the arrays the region found. -/
theorem val8 (c : Dev nD) : (dat8 (F := Ideal) V c).arrAt 3 cfg8.N = G8 (V c main_v63) (V c main_v64) (V c main_v65) :=
  (dat8 (F := Ideal) V c).arrAt_eq_of_cover 3 _ (fun t _ => flushed8_eq V c t) (cover8)

/-- The closed form at row `r'` and column `o`. -/
theorem G8_apply (a : S10240x768.Idx → EReal) (b : S768x512.Idx → EReal) (bias : S1x512.Idx → EReal) (r' : Fin 10240) (o : Fin 512) :
    G8 a b bias (ix2 r' o) = max ((∑ i : Fin 768, a (ix2 r' i) * b (ix2 i o)) + bias (ix2 (0 : Fin 1) o)) 0 := rfl

/-- The output array after the region, entry by entry, under any names `a`, `b`, `bias` for the three arrays the
    region found. -/
theorem val8_at (c : Dev nD) (a : S10240x768.Idx → EReal) (b : S768x512.Idx → EReal) (bias : S1x512.Idx → EReal)
    (ha : V c (Pipeline.arrRef spec8 0) = a) (hb : V c (Pipeline.arrRef spec8 1) = b) (hbias : V c (Pipeline.arrRef spec8 2) = bias)
    (r' : Fin 10240) (o : Fin 512) :
    (dat8 (F := Ideal) V c).arrAt 3 cfg8.N (ix2 r' o) = max ((∑ i : Fin 768, a (ix2 r' i) * b (ix2 i o)) + bias (ix2 (0 : Fin 1) o)) 0 := by
  subst ha hb hbias
  exact congrFun (val8 V c) (ix2 r' o)

end Cert.KernelIdeal.Hand
end
-- ==== Proof.KI.Val9.lean ====
/- Region 9, read at the ideal values: the output array at row r and column o is the sum over the contracted
   coordinate k of (left factor at (r, k)) times (right factor at (k, o)), plus the bias row at o.
   Each grid point writes one block of 1024 rows; the ten blocks tile the array. -/
import proofs.«130334_j70351564308694_1_alg».proof.Proof.KI.Reg9
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The closed form: the array the region leaves, from the arrays it finds. -/
def G9 (a : S10240x512.Idx → EReal) (b : S512x512.Idx → EReal) (bias : S1x512.Idx → EReal) : S10240x512.Idx → EReal :=
  fun i => (∑ k : Fin 512, a (ix2 (i 0 : Fin 10240) k) * b (ix2 k (i 1 : Fin 512))) + bias (ix2 (0 : Fin 1) (i 1 : Fin 512))

/-- The body's payload at an index of the block: the block product into zero, plus the bias row. -/
theorem pay9_apply (x0 : S1024x512.Idx → EReal) (x1 : S512x512.Idx → EReal) (x2 : S1x512.Idx → EReal) (p : Fin 1024) (q : Fin 512) :
    k9_pay1 (F := Ideal) x0 x1 x2 (ix2 p q) = (∑ k : Fin 512, x0 (ix2 p k) * x1 (ix2 k q)) + x2 (ix2 (0 : Fin 1) q) := by
  unfold k9_pay1
  simp only [shapeCast_self]
  have e1 : matmul (F := Ideal) dot_S1024x512_S512x512_S1024x512_1_0_0_1_n_n none (truncf .bf16 x0 bitsLt_bf16_f32) (truncf .bf16 x1 bitsLt_bf16_f32) (constant S1024x512 .f32 0x00000000#32) (ix2 p q) = ∑ k : Fin 512, x0 (ix2 p k) * x1 (ix2 k q) :=
    (congrFun (matmul_zero_eq_dotGeneral dot_S1024x512_S512x512_S1024x512_1_0_0_1_n_n none _ _) (ix2 p q)).trans (StackMember.dotGeneral_plain_apply none _ _ p q)
  have e2 := broadcastTo_1b_ab_apply x2 broadcasts_S1x512_S1024x512 p q
  show _ + _ = _
  exact congrArg₂ (· + ·) e1 e2

theorem hz9 : (![0, 0] : Fin 2 → Nat) = fun _ => 0 := funext fun a => by fin_cases a <;> rfl

/-- The printed index maps over the grid: the left factor's and the output's row blocks move with the point, the
    right factor and the bias stay. -/
theorem idx_facts9 : ∀ t : Fin cfg9.N,
    win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (1 : Fin 2) = 0 ∧ win9_3.index t (0 : Fin 2) ≤ 9 :=
  (by decide +kernel : ∀ t : Fin grid9.N, _)

/-- Every row block is some point's. -/
theorem idx_onto9 : ∀ (q0 : Fin 10), ∃ t : Fin cfg9.N, win9_3.index t = ![q0.val, 0] :=
  (by decide +kernel : ∀ (q0 : Fin 10), ∃ t : Fin grid9.N, win9_3.index t = ![q0.val, 0])

set_option maxHeartbeats 1000000 in
/-- What point `t` writes back is block `t` of the closed form of the arrays as the region finds them. -/
theorem flushed9_eq (c : Dev nD) (t : Fin cfg9.N) :
    (dat9 (F := Ideal) V c).flushed 3 t = ((cfg9.win 3).blk t).view.read (Elt Ideal) (G9 (V c main_v66) (V c main_v67) (V c main_v69)) := by
  show (cfg9.win 3).cut (grid9.coords t) ((dat9 V c).after 3 t) = _
  rw [after9_3]
  unfold out9_3
  rw [View.canon_unit_zero hz9]
  simp only [View.ld_unit_zero (S := S1024x512) hz9, View.ld_unit_zero (S := S512x512) hz9, View.ld_unit_zero (S := S1x512) hz9]
  obtain ⟨e0, e1, e2, e3, e4, e5, e6, e7⟩ := idx_facts9 t
  refine funext fun (j : S1024x512.Idx) => ?_
  obtain ⟨p, q, rfl⟩ : ∃ (p : Fin 1024) (q : Fin 512), j = ix2 p q := ⟨j 0, j 1, eq_ix2 j⟩
  refine (pay9_apply _ _ _ p q).trans ?_
  have h0 : ∀ k : Fin 512, (((cfg9.win 0).blk t).view.emb (ix2 p k) : S10240x512.Idx) = ix2 ((((cfg9.win 3).blk t).view.emb (ix2 p q)) 0 : Fin 10240) k := fun k => by
    funext a; apply Fin.ext
    match a with
    | ⟨0, _⟩ => show win9_0.index t (0 : Fin 2) * 1024 + 1 * p.val = win9_3.index t (0 : Fin 2) * 1024 + 1 * p.val; omega
    | ⟨1, _⟩ => show win9_0.index t (1 : Fin 2) * 512 + 1 * k.val = k.val; omega
  have h1 : ∀ k : Fin 512, (((cfg9.win 1).blk t).view.emb (ix2 k q) : S512x512.Idx) = ix2 k ((((cfg9.win 3).blk t).view.emb (ix2 p q)) 1 : Fin 512) := fun k => by
    funext a; apply Fin.ext
    match a with
    | ⟨0, _⟩ => show win9_1.index t (0 : Fin 2) * 512 + 1 * k.val = k.val; omega
    | ⟨1, _⟩ => show win9_1.index t (1 : Fin 2) * 512 + 1 * q.val = win9_3.index t (1 : Fin 2) * 512 + 1 * q.val; omega
  have h2 : (((cfg9.win 2).blk t).view.emb (ix2 (0 : Fin 1) q) : S1x512.Idx) = ix2 (0 : Fin 1) ((((cfg9.win 3).blk t).view.emb (ix2 p q)) 1 : Fin 512) := by
    funext a; apply Fin.ext
    match a with
    | ⟨0, _⟩ => show win9_2.index t (0 : Fin 2) * 1 + 1 * 0 = 0; omega
    | ⟨1, _⟩ => show win9_2.index t (1 : Fin 2) * 512 + 1 * q.val = win9_3.index t (1 : Fin 2) * 512 + 1 * q.val; omega
  have key : ∀ (A : S10240x512.Idx → EReal) (B : S512x512.Idx → EReal) (bias : S1x512.Idx → EReal),
      (∑ k : Fin 512, A (((cfg9.win 0).blk t).view.emb (ix2 p k)) * B (((cfg9.win 1).blk t).view.emb (ix2 k q))) + bias (((cfg9.win 2).blk t).view.emb (ix2 (0 : Fin 1) q))
        = G9 A B bias (((cfg9.win 3).blk t).view.emb (ix2 p q)) := by
    intro A B bias
    unfold G9
    rw [h2]
    simp only [h0, h1] <;> rfl
  exact key (V c main_v66) (V c main_v67) (V c main_v69)

/-- An index of the output array is in point `t`'s block iff each coordinate is in the block's range. -/
theorem mem_blk9 (t : Fin cfg9.N) (i : S10240x512.Idx) :
    i ∈ ((cfg9.win 3).blk t).view.set ↔ ∀ a : Fin 2, win9_3.index t a * S1024x512.size a ≤ (i a).val ∧ (i a).val < win9_3.index t a * S1024x512.size a + S1024x512.size a := by
  show i ∈ ((View.whole main_v70).slice (win9_3.rect t)).set ↔ _
  rw [View.set_slice_whole, Rect.mem_set_unit]
  exact Iff.rfl

/-- The ten row blocks cover the output array: row `r` is in block `r / 1024`. -/
theorem cover9 (i : S10240x512.Idx) : ∃ t : Fin cfg9.N, (cfg9.win 3).flush t = true ∧ i ∈ ((cfg9.win 3).blk t).view.set := by
  have hi0 : (i 0).val < 10240 := (i 0).isLt
  have hi1 : (i 1).val < 512 := (i 1).isLt
  obtain ⟨t, ht⟩ := idx_onto9 ⟨(i 0).val / 1024, by omega⟩
  have q0 : win9_3.index t (0 : Fin 2) = (i 0).val / 1024 := congrFun ht 0
  have q1 : win9_3.index t (1 : Fin 2) = 0 := congrFun ht 1
  refine ⟨t, flush9_3 t, ?_⟩
  rw [mem_blk9]
  intro a
  match a with
  | ⟨0, _⟩ => show win9_3.index t (0 : Fin 2) * 1024 ≤ (i 0).val ∧ (i 0).val < win9_3.index t (0 : Fin 2) * 1024 + 1024; omega
  | ⟨1, _⟩ => show win9_3.index t (1 : Fin 2) * 512 ≤ (i 1).val ∧ (i 1).val < win9_3.index t (1 : Fin 2) * 512 + 512; omega

/-- The output array after the region: the closed form of the arrays the region found. -/
theorem val9 (c : Dev nD) : (dat9 (F := Ideal) V c).arrAt 3 cfg9.N = G9 (V c main_v66) (V c main_v67) (V c main_v69) :=
  (dat9 (F := Ideal) V c).arrAt_eq_of_cover 3 _ (fun t _ => flushed9_eq V c t) (cover9)

/-- The closed form at row `r'` and column `o`. -/
theorem G9_apply (a : S10240x512.Idx → EReal) (b : S512x512.Idx → EReal) (bias : S1x512.Idx → EReal) (r' : Fin 10240) (o : Fin 512) :
    G9 a b bias (ix2 r' o) = (∑ i : Fin 512, a (ix2 r' i) * b (ix2 i o)) + bias (ix2 (0 : Fin 1) o) := rfl

/-- The output array after the region, entry by entry, under any names `a`, `b`, `bias` for the three arrays the
    region found. -/
theorem val9_at (c : Dev nD) (a : S10240x512.Idx → EReal) (b : S512x512.Idx → EReal) (bias : S1x512.Idx → EReal)
    (ha : V c (Pipeline.arrRef spec9 0) = a) (hb : V c (Pipeline.arrRef spec9 1) = b) (hbias : V c (Pipeline.arrRef spec9 2) = bias)
    (r' : Fin 10240) (o : Fin 512) :
    (dat9 (F := Ideal) V c).arrAt 3 cfg9.N (ix2 r' o) = (∑ i : Fin 512, a (ix2 r' i) * b (ix2 i o)) + bias (ix2 (0 : Fin 1) o) := by
  subst ha hb hbias
  exact congrFun (val9 V c) (ix2 r' o)

end Cert.KernelIdeal.Hand
end
-- ==== Proof.KerPass.lean ====
/- The buffers between the kernel regions, as stages: each host stretch between two regions read as a function of the
   buffers it finds (a three-piece concatenation along the columns, a reshape of the weight slabs, a reshape of the bias),
   a region's output read as what the region left, and every buffer no later item writes read as what it held before. -/
import proofs.«130334_j70351564308694_1_alg».proof.Proof.Gen.KernelIdeal.Regions
import Idealize.ShloMosaic.Lib.Pipeline.Value
import Idealize.ShloMosaic.Lib.ValueIdx
import Idealize.ShloMosaic.Lib.StableHlo.Run
set_option maxRecDepth 16384
noncomputable section
namespace Cert.Proof.KerPass
open Cert.KernelIdeal Cert.KernelIdeal.Gen
open Idealize.ShloMosaic Idealize.ShloMosaic.TcCoe Idealize.ShloMosaic.ValueIdx
open Idealize.ShloMosaic.StableHlo

/-- A buffer other than the one replaced keeps its contents. -/
theorem step_upd (W : Valuation τ sig (Elt Ideal)) (r0 r : Ref sig .tc) (v) (h : r ≠ r0) :
    Function.update W (Proc.devRef .tc r0) v (Proc.devRef .tc r) = W (Proc.devRef .tc r) :=
  Function.update_of_ne (fun e => h (Proc.devRef_injective _ e)) _ _

/-- A buffer outside the list of buffers a stretch of host operations writes keeps its contents. -/
theorem step_aft (ops : List (HloOp τ sig (Elt Ideal))) (Wl : List (Ref sig .tc))
    (hW : ops.Forall fun op => op.writes ⊆ (Wl.map (Proc.devRef (τ := τ) .tc)).toFinset)
    (W : Valuation τ sig (Elt Ideal)) (r : Ref sig .tc) (h : r ∉ Wl) :
    after ops W (Proc.devRef .tc r) = W (Proc.devRef .tc r) := after_of_writes_sub ops W hW h

/-- Rewrites a buffer's contents back through the items that do not write it. -/
macro "keep_tac" : tactic => `(tactic| (repeat (first
  | rw [Function.update_self]
  | (rw [step_upd]; rotate_left; decide)
  | (rw [step_aft _ hostOps10_W hostOps10_writes]; rotate_left; decide)
  | (rw [step_aft _ hostOps9_W hostOps9_writes]; rotate_left; decide)
  | (rw [step_aft _ hostOps8_W hostOps8_writes]; rotate_left; decide)
  | (rw [step_aft _ hostOps5_W hostOps5_writes]; rotate_left; decide)
  | (rw [step_aft _ hostOps2_W hostOps2_writes]; rotate_left; decide)
  | (rw [step_aft _ hostOps0_2_W hostOps0_2_writes]; rotate_left; decide)
  | (rw [step_aft _ hostOps0_1_W hostOps0_1_writes]; rotate_left; decide)
  | (rw [step_aft _ hostOps0_W hostOps0_writes]; rotate_left; decide))))

/-! ## Each stretch between two regions, over any contents it finds -/
section Generic
variable (W : Valuation τ sig (Elt Ideal))

theorem g2_v51 : (after hostOps2 W (Proc.devRef .tc main_v51) : S10240x384.Idx → EReal)
    = concatenate S10240x384 1 [⟨S10240x128, (W (Proc.devRef .tc main_v48) : S10240x128.Idx → EReal)⟩,
        ⟨S10240x128, (W (Proc.devRef .tc main_v49) : S10240x128.Idx → EReal)⟩,
        ⟨S10240x128, (W (Proc.devRef .tc main_v50) : S10240x128.Idx → EReal)⟩]
        concatenates_S10240x128_S10240x128_S10240x128_S10240x384_d1 := by
  simp only [hostOps2]; after_results <;> rfl
theorem g2_v52 : (after hostOps2 W (Proc.devRef .tc main_v52) : S384x128.Idx → EReal)
    = shapeCast S384x128 (W (Proc.devRef .tc main_arg2) : S3x128x128.Idx → EReal) shapeCasts_S3x128x128_S384x128 := by
  simp only [hostOps2]; after_results <;> rfl
theorem g2_v53 : (after hostOps2 W (Proc.devRef .tc main_v53) : S1x128.Idx → EReal)
    = shapeCast S1x128 (W (Proc.devRef .tc main_arg3) : S128.Idx → EReal) shapeCasts_S128_S1x128 := by
  simp only [hostOps2]; after_results <;> rfl
theorem g5_v57 : (after hostOps5 W (Proc.devRef .tc main_v57) : S10240x384.Idx → EReal)
    = concatenate S10240x384 1 [⟨S10240x128, (W (Proc.devRef .tc main_v54) : S10240x128.Idx → EReal)⟩,
        ⟨S10240x128, (W (Proc.devRef .tc main_v55) : S10240x128.Idx → EReal)⟩,
        ⟨S10240x128, (W (Proc.devRef .tc main_v56) : S10240x128.Idx → EReal)⟩]
        concatenates_S10240x128_S10240x128_S10240x128_S10240x384_d1 := by
  simp only [hostOps5]; after_results <;> rfl
theorem g5_v58 : (after hostOps5 W (Proc.devRef .tc main_v58) : S384x256.Idx → EReal)
    = shapeCast S384x256 (W (Proc.devRef .tc main_arg4) : S3x128x256.Idx → EReal) shapeCasts_S3x128x256_S384x256 := by
  simp only [hostOps5]; after_results <;> rfl
theorem g5_v59 : (after hostOps5 W (Proc.devRef .tc main_v59) : S1x256.Idx → EReal)
    = shapeCast S1x256 (W (Proc.devRef .tc main_arg5) : S256.Idx → EReal) shapeCasts_S256_S1x256 := by
  simp only [hostOps5]; after_results <;> rfl
theorem g8_v63 : (after hostOps8 W (Proc.devRef .tc main_v63) : S10240x768.Idx → EReal)
    = concatenate S10240x768 1 [⟨S10240x256, (W (Proc.devRef .tc main_v60) : S10240x256.Idx → EReal)⟩,
        ⟨S10240x256, (W (Proc.devRef .tc main_v61) : S10240x256.Idx → EReal)⟩,
        ⟨S10240x256, (W (Proc.devRef .tc main_v62) : S10240x256.Idx → EReal)⟩]
        concatenates_S10240x256_S10240x256_S10240x256_S10240x768_d1 := by
  simp only [hostOps8]; after_results <;> rfl
theorem g8_v64 : (after hostOps8 W (Proc.devRef .tc main_v64) : S768x512.Idx → EReal)
    = shapeCast S768x512 (W (Proc.devRef .tc main_arg6) : S3x256x512.Idx → EReal) shapeCasts_S3x256x512_S768x512 := by
  simp only [hostOps8]; after_results <;> rfl
theorem g8_v65 : (after hostOps8 W (Proc.devRef .tc main_v65) : S1x512.Idx → EReal)
    = shapeCast S1x512 (W (Proc.devRef .tc main_arg7) : S512.Idx → EReal) shapeCasts_S512_S1x512 := by
  simp only [hostOps8]; after_results <;> rfl
theorem g9_v67 : (after hostOps9 W (Proc.devRef .tc main_v67) : S512x512.Idx → EReal)
    = concatenate S512x512 1 [⟨S512x256, (W (Proc.devRef .tc main_arg8) : S512x256.Idx → EReal)⟩, ⟨S512x256, (W (Proc.devRef .tc main_arg10) : S512x256.Idx → EReal)⟩] concatenates_S512x256_S512x256_S512x512_d1 := by
  simp only [hostOps9]; after_results <;> rfl
theorem g9_v69 : (after hostOps9 W (Proc.devRef .tc main_v69) : S1x512.Idx → EReal)
    = shapeCast S1x512 (concatenate S512 0 [⟨S256, (W (Proc.devRef .tc main_arg9) : S256.Idx → EReal)⟩, ⟨S256, (W (Proc.devRef .tc main_arg11) : S256.Idx → EReal)⟩] concatenates_S256_S256_S512_d0) shapeCasts_S512_S1x512 := by
  simp only [hostOps9]; after_results <;> rfl
theorem g10_v71 : (after hostOps10 W (Proc.devRef .tc main_v71) : S10000x256.Idx → EReal)
    = extractStridedSlice S10000x256 ![0, 0] (W (Proc.devRef .tc main_v70) : S10240x512.Idx → EReal) slices_S10240x512_S10000x256_0_0 := by
  simp only [hostOps10]; after_results <;> rfl
theorem g10_v72 : (after hostOps10 W (Proc.devRef .tc main_v72) : S10000x256.Idx → EReal)
    = extractStridedSlice S10000x256 ![0, 256] (W (Proc.devRef .tc main_v70) : S10240x512.Idx → EReal) slices_S10240x512_S10000x256_0_256 := by
  simp only [hostOps10]; after_results <;> rfl
end Generic

/-! ## The program's buffers when each region starts -/
section Stages
variable (m : (ℓ : Loc nD τ sig) → Buf (Elt Ideal) ℓ) (outs : Outs (F := Ideal)) (c : Dev nD)

theorem V4_v45 : (V4 (F := Ideal) m outs c main_v45 : S10240x10240.Idx → EReal) = (V3 (F := Ideal) m c main_v45 : S10240x10240.Idx → EReal) := by
  dsimp only [V4]; keep_tac
theorem V4_v48 : (V4 (F := Ideal) m outs c main_v48 : S10240x128.Idx → EReal) = (V3 (F := Ideal) m c main_v48 : S10240x128.Idx → EReal) := by
  dsimp only [V4]; keep_tac
theorem V4_v49 : (V4 (F := Ideal) m outs c main_v49 : S10240x128.Idx → EReal) = (outs 4 main_v49 c : S10240x128.Idx → EReal) := by
  dsimp only [V4]; keep_tac
theorem V7_v45 : (V7 (F := Ideal) m outs c main_v45 : S10240x10240.Idx → EReal) = (V3 (F := Ideal) m c main_v45 : S10240x10240.Idx → EReal) := by
  dsimp only [V7, V6, V5, V4]; keep_tac
theorem V7_v54 : (V7 (F := Ideal) m outs c main_v54 : S10240x128.Idx → EReal) = (outs 7 main_v54 c : S10240x128.Idx → EReal) := by
  dsimp only [V7, V6, V5, V4]; keep_tac
theorem V8_v45 : (V8 (F := Ideal) m outs c main_v45 : S10240x10240.Idx → EReal) = (V3 (F := Ideal) m c main_v45 : S10240x10240.Idx → EReal) := by
  dsimp only [V8, V7, V6, V5, V4]; keep_tac
theorem V8_v54 : (V8 (F := Ideal) m outs c main_v54 : S10240x128.Idx → EReal) = (outs 7 main_v54 c : S10240x128.Idx → EReal) := by
  dsimp only [V8, V7, V6, V5, V4]; keep_tac
theorem V8_v55 : (V8 (F := Ideal) m outs c main_v55 : S10240x128.Idx → EReal) = (outs 8 main_v55 c : S10240x128.Idx → EReal) := by
  dsimp only [V8, V7, V6, V5, V4]; keep_tac
theorem V11_v45 : (V11 (F := Ideal) m outs c main_v45 : S10240x10240.Idx → EReal) = (V3 (F := Ideal) m c main_v45 : S10240x10240.Idx → EReal) := by
  dsimp only [V11, V10, V9, V8, V7, V6, V5, V4]; keep_tac
theorem V11_v60 : (V11 (F := Ideal) m outs c main_v60 : S10240x256.Idx → EReal) = (outs 11 main_v60 c : S10240x256.Idx → EReal) := by
  dsimp only [V11, V10, V9, V8, V7, V6, V5, V4]; keep_tac
theorem V12_v45 : (V12 (F := Ideal) m outs c main_v45 : S10240x10240.Idx → EReal) = (V3 (F := Ideal) m c main_v45 : S10240x10240.Idx → EReal) := by
  dsimp only [V12, V11, V10, V9, V8, V7, V6, V5, V4]; keep_tac
theorem V12_v60 : (V12 (F := Ideal) m outs c main_v60 : S10240x256.Idx → EReal) = (outs 11 main_v60 c : S10240x256.Idx → EReal) := by
  dsimp only [V12, V11, V10, V9, V8, V7, V6, V5, V4]; keep_tac
theorem V12_v61 : (V12 (F := Ideal) m outs c main_v61 : S10240x256.Idx → EReal) = (outs 12 main_v61 c : S10240x256.Idx → EReal) := by
  dsimp only [V12, V11, V10, V9, V8, V7, V6, V5, V4]; keep_tac
theorem V16_v66 : (V16 (F := Ideal) m outs c main_v66 : S10240x512.Idx → EReal) = (outs 15 main_v66 c : S10240x512.Idx → EReal) := by
  dsimp only [V16, V15, V14, V13, V12, V11, V10, V9, V8, V7, V6, V5, V4]; keep_tac
theorem V6_v51 : (V6 (F := Ideal) m outs c main_v51 : S10240x384.Idx → EReal) = concatenate S10240x384 1 [⟨S10240x128, (V3 (F := Ideal) m c main_v48 : S10240x128.Idx → EReal)⟩,
        ⟨S10240x128, (outs 4 main_v49 c : S10240x128.Idx → EReal)⟩,
        ⟨S10240x128, (outs 5 main_v50 c : S10240x128.Idx → EReal)⟩]
        concatenates_S10240x128_S10240x128_S10240x128_S10240x384_d1 := by
  show after hostOps2 (V5 m outs c) (Proc.devRef .tc main_v51) = _
  rw [g2_v51]; dsimp only [V5, V4]; keep_tac
theorem V6_v52 : (V6 (F := Ideal) m outs c main_v52 : S384x128.Idx → EReal) = shapeCast S384x128 (V0 (F := Ideal) m c main_arg2 : S3x128x128.Idx → EReal) shapeCasts_S3x128x128_S384x128 := by
  show after hostOps2 (V5 m outs c) (Proc.devRef .tc main_v52) = _
  rw [g2_v52]; dsimp only [V5, V4, V3, V2, V1]; keep_tac
theorem V6_v53 : (V6 (F := Ideal) m outs c main_v53 : S1x128.Idx → EReal) = shapeCast S1x128 (V0 (F := Ideal) m c main_arg3 : S128.Idx → EReal) shapeCasts_S128_S1x128 := by
  show after hostOps2 (V5 m outs c) (Proc.devRef .tc main_v53) = _
  rw [g2_v53]; dsimp only [V5, V4, V3, V2, V1]; keep_tac
theorem V10_v57 : (V10 (F := Ideal) m outs c main_v57 : S10240x384.Idx → EReal) = concatenate S10240x384 1 [⟨S10240x128, (outs 7 main_v54 c : S10240x128.Idx → EReal)⟩,
        ⟨S10240x128, (outs 8 main_v55 c : S10240x128.Idx → EReal)⟩,
        ⟨S10240x128, (outs 9 main_v56 c : S10240x128.Idx → EReal)⟩]
        concatenates_S10240x128_S10240x128_S10240x128_S10240x384_d1 := by
  show after hostOps5 (V9 m outs c) (Proc.devRef .tc main_v57) = _
  rw [g5_v57]; dsimp only [V9, V8, V7, V6, V5, V4]; keep_tac
theorem V10_v58 : (V10 (F := Ideal) m outs c main_v58 : S384x256.Idx → EReal) = shapeCast S384x256 (V0 (F := Ideal) m c main_arg4 : S3x128x256.Idx → EReal) shapeCasts_S3x128x256_S384x256 := by
  show after hostOps5 (V9 m outs c) (Proc.devRef .tc main_v58) = _
  rw [g5_v58]; dsimp only [V9, V8, V7, V6, V5, V4, V3, V2, V1]; keep_tac
theorem V10_v59 : (V10 (F := Ideal) m outs c main_v59 : S1x256.Idx → EReal) = shapeCast S1x256 (V0 (F := Ideal) m c main_arg5 : S256.Idx → EReal) shapeCasts_S256_S1x256 := by
  show after hostOps5 (V9 m outs c) (Proc.devRef .tc main_v59) = _
  rw [g5_v59]; dsimp only [V9, V8, V7, V6, V5, V4, V3, V2, V1]; keep_tac
theorem V14_v63 : (V14 (F := Ideal) m outs c main_v63 : S10240x768.Idx → EReal) = concatenate S10240x768 1 [⟨S10240x256, (outs 11 main_v60 c : S10240x256.Idx → EReal)⟩,
        ⟨S10240x256, (outs 12 main_v61 c : S10240x256.Idx → EReal)⟩,
        ⟨S10240x256, (outs 13 main_v62 c : S10240x256.Idx → EReal)⟩]
        concatenates_S10240x256_S10240x256_S10240x256_S10240x768_d1 := by
  show after hostOps8 (V13 m outs c) (Proc.devRef .tc main_v63) = _
  rw [g8_v63]; dsimp only [V13, V12, V11, V10, V9, V8, V7, V6, V5, V4]; keep_tac
theorem V14_v64 : (V14 (F := Ideal) m outs c main_v64 : S768x512.Idx → EReal) = shapeCast S768x512 (V0 (F := Ideal) m c main_arg6 : S3x256x512.Idx → EReal) shapeCasts_S3x256x512_S768x512 := by
  show after hostOps8 (V13 m outs c) (Proc.devRef .tc main_v64) = _
  rw [g8_v64]; dsimp only [V13, V12, V11, V10, V9, V8, V7, V6, V5, V4, V3, V2, V1]; keep_tac
theorem V14_v65 : (V14 (F := Ideal) m outs c main_v65 : S1x512.Idx → EReal) = shapeCast S1x512 (V0 (F := Ideal) m c main_arg7 : S512.Idx → EReal) shapeCasts_S512_S1x512 := by
  show after hostOps8 (V13 m outs c) (Proc.devRef .tc main_v65) = _
  rw [g8_v65]; dsimp only [V13, V12, V11, V10, V9, V8, V7, V6, V5, V4, V3, V2, V1]; keep_tac
theorem V16_v67 : (V16 (F := Ideal) m outs c main_v67 : S512x512.Idx → EReal) = concatenate S512x512 1 [⟨S512x256, (V0 (F := Ideal) m c main_arg8 : S512x256.Idx → EReal)⟩, ⟨S512x256, (V0 (F := Ideal) m c main_arg10 : S512x256.Idx → EReal)⟩] concatenates_S512x256_S512x256_S512x512_d1 := by
  show after hostOps9 (V15 m outs c) (Proc.devRef .tc main_v67) = _
  rw [g9_v67]; dsimp only [V15, V14, V13, V12, V11, V10, V9, V8, V7, V6, V5, V4, V3, V2, V1]; keep_tac
theorem V16_v69 : (V16 (F := Ideal) m outs c main_v69 : S1x512.Idx → EReal) = shapeCast S1x512 (concatenate S512 0 [⟨S256, (V0 (F := Ideal) m c main_arg9 : S256.Idx → EReal)⟩, ⟨S256, (V0 (F := Ideal) m c main_arg11 : S256.Idx → EReal)⟩] concatenates_S256_S256_S512_d0) shapeCasts_S512_S1x512 := by
  show after hostOps9 (V15 m outs c) (Proc.devRef .tc main_v69) = _
  rw [g9_v69]; dsimp only [V15, V14, V13, V12, V11, V10, V9, V8, V7, V6, V5, V4, V3, V2, V1]; keep_tac
theorem V18_v71 : (V18 (F := Ideal) m outs c main_v71 : S10000x256.Idx → EReal) = extractStridedSlice S10000x256 ![0, 0] (outs 17 main_v70 c : S10240x512.Idx → EReal) slices_S10240x512_S10000x256_0_0 := by
  show after hostOps10 (V17 m outs c) (Proc.devRef .tc main_v71) = _
  rw [g10_v71]; dsimp only [V17, V16, V15, V14, V13, V12, V11, V10, V9, V8, V7, V6, V5, V4]; keep_tac
theorem V18_v72 : (V18 (F := Ideal) m outs c main_v72 : S10000x256.Idx → EReal) = extractStridedSlice S10000x256 ![0, 256] (outs 17 main_v70 c : S10240x512.Idx → EReal) slices_S10240x512_S10000x256_0_256 := by
  show after hostOps10 (V17 m outs c) (Proc.devRef .tc main_v72) = _
  rw [g10_v72]; dsimp only [V17, V16, V15, V14, V13, V12, V11, V10, V9, V8, V7, V6, V5, V4]; keep_tac
end Stages

end Cert.Proof.KerPass
-- ==== Proof.KerIdx.lean ====
/- Layout operations read at an index, in the shapes the layers use: a three-piece concatenation along the columns,
   the three weight slabs stacked into one matrix, a vector seen as a one-row matrix, two matrices side by side,
   two vectors end to end, and a rectangular slice. -/
import Idealize.ShloMosaic.PureOps
import Idealize.ShloMosaic.Lib.Pipeline.Value
import Idealize.ShloMosaic.Lib.ValueIdx
import Idealize.ShloMosaic.Lib.ValueLayout
set_option maxRecDepth 16384
namespace Cert.Proof.KerIdx
open Idealize.ShloMosaic Idealize.ShloMosaic.ValueIdx

variable {α : Type}

section Cat3
variable {R C C3 : Nat} (x0 x1 x2 : (⟨2, ![R, C]⟩ : Shape).Idx → α)
  (h : Shape.Concatenates [(⟨2, ![R, C]⟩ : Shape), ⟨2, ![R, C]⟩, ⟨2, ![R, C]⟩] ⟨2, ![R, C3]⟩ 1)

/-- Column `i` of the first piece. -/
theorem cat3_apply0 (r : Fin R) (i : Fin C) (j : Fin C3) (hj : j.val = i.val) :
    concatenate ⟨2, ![R, C3]⟩ 1 [⟨⟨2, ![R, C]⟩, x0⟩, ⟨⟨2, ![R, C]⟩, x1⟩, ⟨⟨2, ![R, C]⟩, x2⟩] h (ix2 r j) = x0 (ix2 r i) :=
  concatenate_apply_piece (t := ⟨2, ![R, C3]⟩) 1 [⟨⟨2, ![R, C]⟩, x0⟩, ⟨⟨2, ![R, C]⟩, x1⟩, ⟨⟨2, ![R, C]⟩, x2⟩] h (ix2 r j) 0 (by show 0 < 3; omega) ⟨2, ![R, C]⟩ x0 rfl rfl 0 rfl (ix2 r i)
    (fun b hb => by match b with | ⟨0, _⟩ => rfl | ⟨1, _⟩ => exact absurd rfl hb)
    (by show 0 + i.val = j.val; omega)

/-- Column `C + i` is column `i` of the second piece. -/
theorem cat3_apply1 (r : Fin R) (i : Fin C) (j : Fin C3) (hj : j.val = C + i.val) :
    concatenate ⟨2, ![R, C3]⟩ 1 [⟨⟨2, ![R, C]⟩, x0⟩, ⟨⟨2, ![R, C]⟩, x1⟩, ⟨⟨2, ![R, C]⟩, x2⟩] h (ix2 r j) = x1 (ix2 r i) :=
  concatenate_apply_piece (t := ⟨2, ![R, C3]⟩) 1 [⟨⟨2, ![R, C]⟩, x0⟩, ⟨⟨2, ![R, C]⟩, x1⟩, ⟨⟨2, ![R, C]⟩, x2⟩] h (ix2 r j) 1 (by show 1 < 3; omega) ⟨2, ![R, C]⟩ x1 rfl rfl C rfl (ix2 r i)
    (fun b hb => by match b with | ⟨0, _⟩ => rfl | ⟨1, _⟩ => exact absurd rfl hb)
    (by show C + i.val = j.val; omega)

/-- Column `2C + i` is column `i` of the third piece. -/
theorem cat3_apply2 (r : Fin R) (i : Fin C) (j : Fin C3) (hj : j.val = C + C + i.val) :
    concatenate ⟨2, ![R, C3]⟩ 1 [⟨⟨2, ![R, C]⟩, x0⟩, ⟨⟨2, ![R, C]⟩, x1⟩, ⟨⟨2, ![R, C]⟩, x2⟩] h (ix2 r j) = x2 (ix2 r i) :=
  concatenate_apply_piece (t := ⟨2, ![R, C3]⟩) 1 [⟨⟨2, ![R, C]⟩, x0⟩, ⟨⟨2, ![R, C]⟩, x1⟩, ⟨⟨2, ![R, C]⟩, x2⟩] h (ix2 r j) 2 (by show 2 < 3; omega) ⟨2, ![R, C]⟩ x2 rfl rfl (C + C) rfl (ix2 r i)
    (fun b hb => by match b with | ⟨0, _⟩ => rfl | ⟨1, _⟩ => exact absurd rfl hb)
    (by show C + C + i.val = j.val; omega)
end Cat3

/-- The three slabs `[3, Ci, Co]` stacked as `[3·Ci, Co]`: row `k·Ci + i` is row `i` of slab `k`. -/
theorem stack3_apply {Ci Co K : Nat} (x : (⟨3, ![3, Ci, Co]⟩ : Shape).Idx → α)
    (h : (⟨3, ![3, Ci, Co]⟩ : Shape).ShapeCasts ⟨2, ![K, Co]⟩) (k : Fin 3) (i : Fin Ci) (o : Fin Co) (j : Fin K)
    (hj : j.val = k.val * Ci + i.val) : shapeCast ⟨2, ![K, Co]⟩ x h (ix2 j o) = x (ix3 k i o) :=
  shapeCast_apply x h _ _ (by
    rw [Shape.rowMajor_val_three, Shape.rowMajor_val_two]
    show (k.val * Ci + i.val) * Co + o.val = j.val * Co + o.val
    rw [hj])

section Pair
variable {R C C2 : Nat} (x0 x1 : (⟨2, ![R, C]⟩ : Shape).Idx → α)
  (h : Shape.Concatenates [(⟨2, ![R, C]⟩ : Shape), ⟨2, ![R, C]⟩] ⟨2, ![R, C2]⟩ 1)

/-- Two matrices side by side: a column of the first. -/
theorem pair_apply0 (r : Fin R) (i : Fin C) (j : Fin C2) (hj : j.val = i.val) :
    concatenate ⟨2, ![R, C2]⟩ 1 [⟨⟨2, ![R, C]⟩, x0⟩, ⟨⟨2, ![R, C]⟩, x1⟩] h (ix2 r j) = x0 (ix2 r i) :=
  concatenate_pair_apply_left 1 x0 x1 h (ix2 r j) rfl (ix2 r i)
    (fun b => by match b with | ⟨0, _⟩ => rfl | ⟨1, _⟩ => exact hj.symm)

/-- Two matrices side by side: a column of the second. -/
theorem pair_apply1 (r : Fin R) (i : Fin C) (j : Fin C2) (hj : j.val = C + i.val) :
    concatenate ⟨2, ![R, C2]⟩ 1 [⟨⟨2, ![R, C]⟩, x0⟩, ⟨⟨2, ![R, C]⟩, x1⟩] h (ix2 r j) = x1 (ix2 r i) :=
  concatenate_pair_apply_right 1 x0 x1 h (ix2 r j) rfl rfl (ix2 r i)
    (fun b hb => by match b with | ⟨0, _⟩ => rfl | ⟨1, _⟩ => exact absurd rfl hb)
    (by show i.val + C = j.val; omega)
end Pair

section PairV
variable {C C2 : Nat} (x0 x1 : (⟨1, ![C]⟩ : Shape).Idx → α)
  (h : Shape.Concatenates [(⟨1, ![C]⟩ : Shape), ⟨1, ![C]⟩] ⟨1, ![C2]⟩ 0)

/-- Two vectors end to end: an entry of the first. -/
theorem pairv_apply0 (i : Fin C) (j : Fin C2) (hj : j.val = i.val) :
    concatenate ⟨1, ![C2]⟩ 0 [⟨⟨1, ![C]⟩, x0⟩, ⟨⟨1, ![C]⟩, x1⟩] h (ix1 j) = x0 (ix1 i) :=
  concatenate_pair_apply_left 0 x0 x1 h (ix1 j) rfl (ix1 i)
    (fun b => by match b with | ⟨0, _⟩ => exact hj.symm)

/-- Two vectors end to end: an entry of the second. -/
theorem pairv_apply1 (i : Fin C) (j : Fin C2) (hj : j.val = C + i.val) :
    concatenate ⟨1, ![C2]⟩ 0 [⟨⟨1, ![C]⟩, x0⟩, ⟨⟨1, ![C]⟩, x1⟩] h (ix1 j) = x1 (ix1 i) :=
  concatenate_pair_apply_right 0 x0 x1 h (ix1 j) rfl rfl (ix1 i)
    (fun b hb => by match b with | ⟨0, _⟩ => exact absurd rfl hb)
    (by show i.val + C = j.val; omega)
end PairV

/-- A slice `[0:R', o0:o0+C']` of a matrix read at `(r, o)`: the matrix at `(r, o0 + o)`. -/
theorem slice2_apply {R C R' C' : Nat} (off : Fin 2 → Nat) (x : (⟨2, ![R, C]⟩ : Shape).Idx → α)
    (h : (⟨2, ![R, C]⟩ : Shape).Slices off ⟨2, ![R', C']⟩) (r : Fin R') (o : Fin C') (r' : Fin R) (o' : Fin C)
    (hr : r'.val = off 0 + r.val) (ho : o'.val = off 1 + o.val) :
    extractStridedSlice ⟨2, ![R', C']⟩ off x h (ix2 r o) = x (ix2 r' o') :=
  extractStridedSlice_apply off x h (ix2 r o) (ix2 r' o')
    (fun a => by match a with | ⟨0, _⟩ => exact hr | ⟨1, _⟩ => exact ho)

end Cert.Proof.KerIdx
-- ==== Proof.KerMath.lean ====
/- From what the ten regions leave to the dense specification: a region's ten accumulated block products are the
   block sum of the propagation, the three-piece concatenation against the stacked slabs is the sum over
   (term, column), and the layers compose. Everything here is about arrays read at `ix2` indices; no program. -/
import proofs.«130334_j70351564308694_1_alg».proof.Proof.Spec
import Idealize.ShloMosaic.PureOps
import Idealize.ShloMosaic.Lib.ValueIdx
set_option maxRecDepth 16384
noncomputable section
namespace Cert.Proof.KerMath
open Idealize.ShloMosaic Idealize.ShloMosaic.ValueIdx
open Cert.Proof.Spec Finset

/-- Ten terms accumulated one after the other from zero. -/
def acc10 (d : Fin 10 → EReal) : EReal :=
  ((((((((((0 + d 0) + d 1) + d 2) + d 3) + d 4) + d 5) + d 6) + d 7) + d 8) + d 9)

theorem acc10_eq_sum (d : Fin 10 → EReal) : acc10 d = ∑ k : Fin 10, d k := by
  unfold acc10
  simp only [Fin.sum_univ_castSucc, Fin.sum_univ_zero]
  rfl

/-- A sum over `3·Ci` positions is the sum over (slab, position in the slab). -/
theorem sum_split3 {Ci K : Nat} (hK : K = 3 * Ci) (g : Fin K → EReal) :
    ∑ j, g j = ∑ k : Fin 3, ∑ i : Fin Ci, g ⟨k.val * Ci + i.val, by have := k.isLt; have := i.isLt; subst hK; nlinarith⟩ := by
  subst hK
  rw [← Finset.sum_product', Finset.univ_product_univ, ← Equiv.sum_comp finProdFinEquiv g]
  refine Finset.sum_congr rfl fun p _ => congrArg g (Fin.ext ?_)
  show p.2.val + Ci * p.1.val = p.1.val * Ci + p.2.val
  rw [Nat.mul_comm, Nat.add_comm]

variable (row col : Fin 160000 → Fin 10000) (dis : Fin 10000 → EReal)

section Propagation
variable {C : Nat} (M : (⟨2, ![10240, 10240]⟩ : Shape).Idx → EReal)
  (hM : ∀ c' r', M (ix2 c' r') = adj row col dis c' r')
include hM

/-- A plain propagation region leaves the dense propagation of its right factor. -/
theorem plain_eq (Z O : (⟨2, ![10240, C]⟩ : Shape).Idx → EReal)
    (hO : ∀ (r' : Fin 10240) (f : Fin C), O (ix2 r' f)
      = acc10 (fun k => ∑ j : Fin 1024, M (ix2 r' (blk k j)) * Z (ix2 (blk k j) f))) (r' : Fin 10240) (f : Fin C) :
    O (ix2 r' f) = propD row col dis (fun a b => Z (ix2 a b)) r' f := by
  rw [hO, acc10_eq_sum]
  unfold propD
  simp only [hM]

/-- An affine propagation region, fed the propagation of `X` and `X` itself, leaves the third Chebyshev term. -/
theorem affine_eq (Z A O : (⟨2, ![10240, C]⟩ : Shape).Idx → EReal) (X : Fin 10240 → Fin C → EReal)
    (hZ : ∀ a b, Z (ix2 a b) = propD row col dis X a b) (hA : ∀ a b, A (ix2 a b) = X a b)
    (hO : ∀ (r' : Fin 10240) (f : Fin C), O (ix2 r' f)
      = (2 : EReal) * acc10 (fun k => ∑ j : Fin 1024, M (ix2 r' (blk k j)) * Z (ix2 (blk k j) f)) + (-1 : EReal) * A (ix2 r' f))
    (r' : Fin 10240) (f : Fin C) :
    O (ix2 r' f) = catD row col dis X r' 2 f := by
  rw [hO, acc10_eq_sum, hA]
  show _ = (2 : EReal) * propD row col dis (propD row col dis X) r' f + (-1 : EReal) * X r' f
  unfold propD
  simp only [hM, hZ]
  rfl
end Propagation

/-- A matmul-bias-rectify region on the concatenation of the three terms and the stacked slabs leaves the dense layer. -/
theorem dense_layer {Ci Co K : Nat} (hK : K = 3 * Ci)
    (cat : (⟨2, ![10240, K]⟩ : Shape).Idx → EReal) (Wc : (⟨2, ![K, Co]⟩ : Shape).Idx → EReal)
    (bb : (⟨2, ![1, Co]⟩ : Shape).Idx → EReal) (O : (⟨2, ![10240, Co]⟩ : Shape).Idx → EReal)
    (X : Fin 10240 → Fin Ci → EReal) (W : Fin 3 → Fin Ci → Fin Co → EReal) (b : Fin Co → EReal)
    (hcat : ∀ (r' : Fin 10240) (k : Fin 3) (i : Fin Ci) (j : Fin K), j.val = k.val * Ci + i.val →
      cat (ix2 r' j) = catD row col dis X r' k i)
    (hW : ∀ (k : Fin 3) (i : Fin Ci) (o : Fin Co) (j : Fin K), j.val = k.val * Ci + i.val → Wc (ix2 j o) = W k i o)
    (hb : ∀ o, bb (ix2 (0 : Fin 1) o) = b o)
    (hO : ∀ (r' : Fin 10240) (o : Fin Co), O (ix2 r' o)
      = max ((∑ j : Fin K, cat (ix2 r' j) * Wc (ix2 j o)) + bb (ix2 (0 : Fin 1) o)) 0)
    (r' : Fin 10240) (o : Fin Co) : O (ix2 r' o) = layerD row col dis W b X r' o := by
  rw [hO, hb, sum_split3 hK]
  unfold layerD
  refine congrArg (fun s => max (s + b o) 0) ?_
  refine Finset.sum_congr rfl fun k _ => Finset.sum_congr rfl fun i _ => ?_
  rw [hcat r' k i _ rfl, hW k i o _ rfl]

end Cert.Proof.KerMath
-- ==== Proof.KerVals.lean ====
/- The kernel program's two results from what its ten regions leave: the host stretches between the regions are read
   at an index, each region's output is identified with a term of the dense specification (propagation, third Chebyshev
   term, dense layer), and the three layers and the head compose to `Spec.kerOut`. The adjacency matrix and the padded
   features enter as two facts about the buffers the first region finds. -/
import proofs.«130334_j70351564308694_1_alg».proof.Proof.KerPass
import proofs.«130334_j70351564308694_1_alg».proof.Proof.KerIdx
import proofs.«130334_j70351564308694_1_alg».proof.Proof.KerMath
import proofs.«130334_j70351564308694_1_alg».proof.Proof.Spec
set_option maxRecDepth 16384
noncomputable section
namespace Cert.Proof.KerVals
open Cert.KernelIdeal Cert.KernelIdeal.Gen
open Idealize.ShloMosaic Idealize.ShloMosaic.TcCoe Idealize.ShloMosaic.ValueIdx
open Cert.Proof.Spec Cert.Proof.KerMath Cert.Proof.KerPass Cert.Proof.KerIdx

/-! ## What the regions leave, as statements about arrays -/

/-- A plain propagation region: ten block products of the matrix row with the right factor, accumulated from zero. -/
def PlainOut {C : Nat} (M : (⟨2, ![10240, 10240]⟩ : Shape).Idx → EReal) (Z O : (⟨2, ![10240, C]⟩ : Shape).Idx → EReal) : Prop :=
  ∀ (r' : Fin 10240) (f : Fin C), O (ix2 r' f)
    = acc10 (fun k => ∑ j : Fin 1024, M (ix2 r' (blk k j)) * Z (ix2 (blk k j) f))

/-- An affine propagation region: twice the accumulated products minus the addend. -/
def AffineOut {C : Nat} (M : (⟨2, ![10240, 10240]⟩ : Shape).Idx → EReal) (Z A O : (⟨2, ![10240, C]⟩ : Shape).Idx → EReal) : Prop :=
  ∀ (r' : Fin 10240) (f : Fin C), O (ix2 r' f)
    = (2 : EReal) * acc10 (fun k => ∑ j : Fin 1024, M (ix2 r' (blk k j)) * Z (ix2 (blk k j) f)) + (-1 : EReal) * A (ix2 r' f)

/-- A matrix product plus a bias row, rectified. -/
def DenseOut {K Co : Nat} (X : (⟨2, ![10240, K]⟩ : Shape).Idx → EReal) (B : (⟨2, ![K, Co]⟩ : Shape).Idx → EReal)
    (bias : (⟨2, ![1, Co]⟩ : Shape).Idx → EReal) (O : (⟨2, ![10240, Co]⟩ : Shape).Idx → EReal) : Prop :=
  ∀ (r' : Fin 10240) (o : Fin Co), O (ix2 r' o)
    = max ((∑ i : Fin K, X (ix2 r' i) * B (ix2 i o)) + bias (ix2 (0 : Fin 1) o)) 0

/-- A matrix product plus a bias row. -/
def HeadOut {K Co : Nat} (X : (⟨2, ![10240, K]⟩ : Shape).Idx → EReal) (B : (⟨2, ![K, Co]⟩ : Shape).Idx → EReal)
    (bias : (⟨2, ![1, Co]⟩ : Shape).Idx → EReal) (O : (⟨2, ![10240, Co]⟩ : Shape).Idx → EReal) : Prop :=
  ∀ (r' : Fin 10240) (o : Fin Co), O (ix2 r' o)
    = (∑ i : Fin K, X (ix2 r' i) * B (ix2 i o)) + bias (ix2 (0 : Fin 1) o)

variable (m : (ℓ : Loc nD τ sig) → Buf (Elt Ideal) ℓ) (outs : Outs (F := Ideal)) (c : Dev nD)
variable (row col : Fin 160000 → Fin 10000) (dis : Fin 10000 → EReal)

/-- One layer: the three regions between two feature arrays. -/
theorem layer_of {Ci Co K : Nat} (hK : K = 3 * Ci)
    (M : (⟨2, ![10240, 10240]⟩ : Shape).Idx → EReal) (hM : ∀ c' r', M (ix2 c' r') = adj row col dis c' r')
    (X T1 T2 : (⟨2, ![10240, Ci]⟩ : Shape).Idx → EReal)
    (cat : (⟨2, ![10240, K]⟩ : Shape).Idx → EReal) (Wc : (⟨2, ![K, Co]⟩ : Shape).Idx → EReal)
    (bb : (⟨2, ![1, Co]⟩ : Shape).Idx → EReal) (O : (⟨2, ![10240, Co]⟩ : Shape).Idx → EReal)
    (Wa : (⟨3, ![3, Ci, Co]⟩ : Shape).Idx → EReal) (ba : (⟨1, ![Co]⟩ : Shape).Idx → EReal)
    (hcat : Shape.Concatenates [(⟨2, ![10240, Ci]⟩ : Shape), ⟨2, ![10240, Ci]⟩, ⟨2, ![10240, Ci]⟩] ⟨2, ![10240, K]⟩ 1)
    (ecat : cat = concatenate ⟨2, ![10240, K]⟩ 1 [⟨⟨2, ![10240, Ci]⟩, X⟩, ⟨⟨2, ![10240, Ci]⟩, T1⟩, ⟨⟨2, ![10240, Ci]⟩, T2⟩] hcat)
    (hWs : (⟨3, ![3, Ci, Co]⟩ : Shape).ShapeCasts ⟨2, ![K, Co]⟩) (eW : Wc = shapeCast ⟨2, ![K, Co]⟩ Wa hWs)
    (hbs : (⟨1, ![Co]⟩ : Shape).ShapeCasts ⟨2, ![1, Co]⟩) (eb : bb = shapeCast ⟨2, ![1, Co]⟩ ba hbs)
    (h0 : PlainOut M X T1) (h1 : AffineOut M T1 X T2) (h2 : DenseOut cat Wc bb O)
    (r' : Fin 10240) (o : Fin Co) :
    O (ix2 r' o) = layerD row col dis (fun k i o => Wa (ix3 k i o)) (fun o => ba (ix1 o)) (fun a b => X (ix2 a b)) r' o := by
  have t1 : ∀ a b, T1 (ix2 a b) = propD row col dis (fun a b => X (ix2 a b)) a b := plain_eq row col dis M hM X T1 h0
  have t2 : ∀ a b, T2 (ix2 a b) = catD row col dis (fun a b => X (ix2 a b)) a 2 b :=
    affine_eq row col dis M hM T1 X T2 (fun a b => X (ix2 a b)) t1 (fun _ _ => rfl) h1
  refine dense_layer row col dis hK cat Wc bb O _ _ _ ?_ ?_ ?_ h2 r' o
  · intro r' k i j hj
    rw [ecat]
    match k, hj with
    | ⟨0, _⟩, hj => exact cat3_apply0 X T1 T2 hcat r' i j (by simpa using hj)
    | ⟨1, _⟩, hj => exact (cat3_apply1 X T1 T2 hcat r' i j (by simpa using hj)).trans (t1 r' i)
    | ⟨2, _⟩, hj => exact (cat3_apply2 X T1 T2 hcat r' i j (by simp at hj; omega)).trans (t2 r' i)
  · intro k i o j hj
    rw [eW]
    exact stack3_apply Wa hWs k i o j hj
  · intro o
    rw [eb]
    exact shapeCast_a_1a_apply ba hbs 0 o

/-! ## The three layers and the head -/

section Main
variable (hM : ∀ c' r', (V3 (F := Ideal) m c main_v45 : S10240x10240.Idx → EReal) (ix2 c' r') = adj row col dis c' r')

include hM in
/-- Layer 1: what region 2 leaves is the dense layer of the padded features. -/
theorem feat1
    (h0 : PlainOut (V3 (F := Ideal) m c main_v45 : S10240x10240.Idx → EReal) (V3 (F := Ideal) m c main_v48 : S10240x128.Idx → EReal) (outs 4 main_v49 c : S10240x128.Idx → EReal))
    (h1 : AffineOut (V4 (F := Ideal) m outs c main_v45 : S10240x10240.Idx → EReal) (V4 (F := Ideal) m outs c main_v49 : S10240x128.Idx → EReal) (V4 (F := Ideal) m outs c main_v48 : S10240x128.Idx → EReal) (outs 5 main_v50 c : S10240x128.Idx → EReal))
    (h2 : DenseOut (V6 (F := Ideal) m outs c main_v51 : S10240x384.Idx → EReal) (V6 (F := Ideal) m outs c main_v52 : S384x128.Idx → EReal) (V6 (F := Ideal) m outs c main_v53 : S1x128.Idx → EReal) (outs 7 main_v54 c : S10240x128.Idx → EReal))
    (r' : Fin 10240) (o : Fin 128) :
    (outs 7 main_v54 c : S10240x128.Idx → EReal) (ix2 r' o)
      = layerD row col dis (fun k i o => (V0 (F := Ideal) m c main_arg2 : S3x128x128.Idx → EReal) (ix3 k i o)) (fun o => (V0 (F := Ideal) m c main_arg3 : S128.Idx → EReal) (ix1 o))
          (fun a b => (V3 (F := Ideal) m c main_v48 : S10240x128.Idx → EReal) (ix2 a b)) r' o := by
  rw [V4_v45, V4_v49, V4_v48] at h1
  exact layer_of row col dis (by norm_num : 384 = 3 * 128) _ hM _ _ _ _ _ _ _ _ _
    concatenates_S10240x128_S10240x128_S10240x128_S10240x384_d1 (V6_v51 m outs c)
    shapeCasts_S3x128x128_S384x128 (V6_v52 m outs c) shapeCasts_S128_S1x128 (V6_v53 m outs c) h0 h1 h2 r' o

include hM in
/-- Layer 2. -/
theorem feat2
    (h3 : PlainOut (V7 (F := Ideal) m outs c main_v45 : S10240x10240.Idx → EReal) (V7 (F := Ideal) m outs c main_v54 : S10240x128.Idx → EReal) (outs 8 main_v55 c : S10240x128.Idx → EReal))
    (h4 : AffineOut (V8 (F := Ideal) m outs c main_v45 : S10240x10240.Idx → EReal) (V8 (F := Ideal) m outs c main_v55 : S10240x128.Idx → EReal) (V8 (F := Ideal) m outs c main_v54 : S10240x128.Idx → EReal) (outs 9 main_v56 c : S10240x128.Idx → EReal))
    (h5 : DenseOut (V10 (F := Ideal) m outs c main_v57 : S10240x384.Idx → EReal) (V10 (F := Ideal) m outs c main_v58 : S384x256.Idx → EReal) (V10 (F := Ideal) m outs c main_v59 : S1x256.Idx → EReal) (outs 11 main_v60 c : S10240x256.Idx → EReal))
    (r' : Fin 10240) (o : Fin 256) :
    (outs 11 main_v60 c : S10240x256.Idx → EReal) (ix2 r' o)
      = layerD row col dis (fun k i o => (V0 (F := Ideal) m c main_arg4 : S3x128x256.Idx → EReal) (ix3 k i o)) (fun o => (V0 (F := Ideal) m c main_arg5 : S256.Idx → EReal) (ix1 o))
          (fun a b => (outs 7 main_v54 c : S10240x128.Idx → EReal) (ix2 a b)) r' o := by
  rw [V7_v45, V7_v54] at h3
  rw [V8_v45, V8_v55, V8_v54] at h4
  exact layer_of row col dis (by norm_num : 384 = 3 * 128) _ hM _ _ _ _ _ _ _ _ _
    concatenates_S10240x128_S10240x128_S10240x128_S10240x384_d1 (V10_v57 m outs c)
    shapeCasts_S3x128x256_S384x256 (V10_v58 m outs c) shapeCasts_S256_S1x256 (V10_v59 m outs c) h3 h4 h5 r' o

include hM in
/-- Layer 3. -/
theorem feat3
    (h6 : PlainOut (V11 (F := Ideal) m outs c main_v45 : S10240x10240.Idx → EReal) (V11 (F := Ideal) m outs c main_v60 : S10240x256.Idx → EReal) (outs 12 main_v61 c : S10240x256.Idx → EReal))
    (h7 : AffineOut (V12 (F := Ideal) m outs c main_v45 : S10240x10240.Idx → EReal) (V12 (F := Ideal) m outs c main_v61 : S10240x256.Idx → EReal) (V12 (F := Ideal) m outs c main_v60 : S10240x256.Idx → EReal) (outs 13 main_v62 c : S10240x256.Idx → EReal))
    (h8 : DenseOut (V14 (F := Ideal) m outs c main_v63 : S10240x768.Idx → EReal) (V14 (F := Ideal) m outs c main_v64 : S768x512.Idx → EReal) (V14 (F := Ideal) m outs c main_v65 : S1x512.Idx → EReal) (outs 15 main_v66 c : S10240x512.Idx → EReal))
    (r' : Fin 10240) (o : Fin 512) :
    (outs 15 main_v66 c : S10240x512.Idx → EReal) (ix2 r' o)
      = layerD row col dis (fun k i o => (V0 (F := Ideal) m c main_arg6 : S3x256x512.Idx → EReal) (ix3 k i o)) (fun o => (V0 (F := Ideal) m c main_arg7 : S512.Idx → EReal) (ix1 o))
          (fun a b => (outs 11 main_v60 c : S10240x256.Idx → EReal) (ix2 a b)) r' o := by
  rw [V11_v45, V11_v60] at h6
  rw [V12_v45, V12_v61, V12_v60] at h7
  exact layer_of row col dis (by norm_num : 768 = 3 * 256) _ hM _ _ _ _ _ _ _ _ _
    concatenates_S10240x256_S10240x256_S10240x256_S10240x768_d1 (V14_v63 m outs c)
    shapeCasts_S3x256x512_S768x512 (V14_v64 m outs c) shapeCasts_S512_S1x512 (V14_v65 m outs c) h6 h7 h8 r' o

include hM in
/-- What region 9 leaves: the head's product over the third layer's features, against the two heads' weights side by
    side and their biases end to end. -/
theorem head_out
    (hX0 : ∀ a b, (V3 (F := Ideal) m c main_v48 : S10240x128.Idx → EReal) (ix2 a b) = pad (fun r f => (V0 (F := Ideal) m c main_arg0 : S10000x128.Idx → EReal) (ix2 r f)) a b)
    (h0 : PlainOut (V3 (F := Ideal) m c main_v45 : S10240x10240.Idx → EReal) (V3 (F := Ideal) m c main_v48 : S10240x128.Idx → EReal) (outs 4 main_v49 c : S10240x128.Idx → EReal))
    (h1 : AffineOut (V4 (F := Ideal) m outs c main_v45 : S10240x10240.Idx → EReal) (V4 (F := Ideal) m outs c main_v49 : S10240x128.Idx → EReal) (V4 (F := Ideal) m outs c main_v48 : S10240x128.Idx → EReal) (outs 5 main_v50 c : S10240x128.Idx → EReal))
    (h2 : DenseOut (V6 (F := Ideal) m outs c main_v51 : S10240x384.Idx → EReal) (V6 (F := Ideal) m outs c main_v52 : S384x128.Idx → EReal) (V6 (F := Ideal) m outs c main_v53 : S1x128.Idx → EReal) (outs 7 main_v54 c : S10240x128.Idx → EReal))
    (h3 : PlainOut (V7 (F := Ideal) m outs c main_v45 : S10240x10240.Idx → EReal) (V7 (F := Ideal) m outs c main_v54 : S10240x128.Idx → EReal) (outs 8 main_v55 c : S10240x128.Idx → EReal))
    (h4 : AffineOut (V8 (F := Ideal) m outs c main_v45 : S10240x10240.Idx → EReal) (V8 (F := Ideal) m outs c main_v55 : S10240x128.Idx → EReal) (V8 (F := Ideal) m outs c main_v54 : S10240x128.Idx → EReal) (outs 9 main_v56 c : S10240x128.Idx → EReal))
    (h5 : DenseOut (V10 (F := Ideal) m outs c main_v57 : S10240x384.Idx → EReal) (V10 (F := Ideal) m outs c main_v58 : S384x256.Idx → EReal) (V10 (F := Ideal) m outs c main_v59 : S1x256.Idx → EReal) (outs 11 main_v60 c : S10240x256.Idx → EReal))
    (h6 : PlainOut (V11 (F := Ideal) m outs c main_v45 : S10240x10240.Idx → EReal) (V11 (F := Ideal) m outs c main_v60 : S10240x256.Idx → EReal) (outs 12 main_v61 c : S10240x256.Idx → EReal))
    (h7 : AffineOut (V12 (F := Ideal) m outs c main_v45 : S10240x10240.Idx → EReal) (V12 (F := Ideal) m outs c main_v61 : S10240x256.Idx → EReal) (V12 (F := Ideal) m outs c main_v60 : S10240x256.Idx → EReal) (outs 13 main_v62 c : S10240x256.Idx → EReal))
    (h8 : DenseOut (V14 (F := Ideal) m outs c main_v63 : S10240x768.Idx → EReal) (V14 (F := Ideal) m outs c main_v64 : S768x512.Idx → EReal) (V14 (F := Ideal) m outs c main_v65 : S1x512.Idx → EReal) (outs 15 main_v66 c : S10240x512.Idx → EReal))
    (h9 : HeadOut (V16 (F := Ideal) m outs c main_v66 : S10240x512.Idx → EReal) (V16 (F := Ideal) m outs c main_v67 : S512x512.Idx → EReal) (V16 (F := Ideal) m outs c main_v69 : S1x512.Idx → EReal) (outs 17 main_v70 c : S10240x512.Idx → EReal))
    (r'' : Fin 10240) (o'' : Fin 512) :
    (outs 17 main_v70 c : S10240x512.Idx → EReal) (ix2 r'' o'')
      = (∑ i : Fin 512, (layerD row col dis (fun k i o => (V0 (F := Ideal) m c main_arg6 : S3x256x512.Idx → EReal) (ix3 k i o)) (fun o => (V0 (F := Ideal) m c main_arg7 : S512.Idx → EReal) (ix1 o)) (layerD row col dis (fun k i o => (V0 (F := Ideal) m c main_arg4 : S3x128x256.Idx → EReal) (ix3 k i o)) (fun o => (V0 (F := Ideal) m c main_arg5 : S256.Idx → EReal) (ix1 o)) (layerD row col dis (fun k i o => (V0 (F := Ideal) m c main_arg2 : S3x128x128.Idx → EReal) (ix3 k i o)) (fun o => (V0 (F := Ideal) m c main_arg3 : S128.Idx → EReal) (ix1 o)) (pad (fun r f => (V0 (F := Ideal) m c main_arg0 : S10000x128.Idx → EReal) (ix2 r f)))))) r'' i * (V16 (F := Ideal) m outs c main_v67 : S512x512.Idx → EReal) (ix2 i o''))
        + (V16 (F := Ideal) m outs c main_v69 : S1x512.Idx → EReal) (ix2 (0 : Fin 1) o'') := by
  have e0 : (fun a b => (V3 (F := Ideal) m c main_v48 : S10240x128.Idx → EReal) (ix2 a b)) = pad (fun r f => (V0 (F := Ideal) m c main_arg0 : S10000x128.Idx → EReal) (ix2 r f)) := funext fun a => funext fun b => hX0 a b
  have e1 : (fun a b => (outs 7 main_v54 c : S10240x128.Idx → EReal) (ix2 a b)) = (layerD row col dis (fun k i o => (V0 (F := Ideal) m c main_arg2 : S3x128x128.Idx → EReal) (ix3 k i o)) (fun o => (V0 (F := Ideal) m c main_arg3 : S128.Idx → EReal) (ix1 o)) (pad (fun r f => (V0 (F := Ideal) m c main_arg0 : S10000x128.Idx → EReal) (ix2 r f)))) :=
    funext fun a => funext fun b => by rw [← e0]; exact feat1 m outs c row col dis hM h0 h1 h2 a b
  have e2 : (fun a b => (outs 11 main_v60 c : S10240x256.Idx → EReal) (ix2 a b)) = (layerD row col dis (fun k i o => (V0 (F := Ideal) m c main_arg4 : S3x128x256.Idx → EReal) (ix3 k i o)) (fun o => (V0 (F := Ideal) m c main_arg5 : S256.Idx → EReal) (ix1 o)) (layerD row col dis (fun k i o => (V0 (F := Ideal) m c main_arg2 : S3x128x128.Idx → EReal) (ix3 k i o)) (fun o => (V0 (F := Ideal) m c main_arg3 : S128.Idx → EReal) (ix1 o)) (pad (fun r f => (V0 (F := Ideal) m c main_arg0 : S10000x128.Idx → EReal) (ix2 r f))))) :=
    funext fun a => funext fun b => by rw [← e1]; exact feat2 m outs c row col dis hM h3 h4 h5 a b
  have e3 : ∀ a b, (outs 15 main_v66 c : S10240x512.Idx → EReal) (ix2 a b) = (layerD row col dis (fun k i o => (V0 (F := Ideal) m c main_arg6 : S3x256x512.Idx → EReal) (ix3 k i o)) (fun o => (V0 (F := Ideal) m c main_arg7 : S512.Idx → EReal) (ix1 o)) (layerD row col dis (fun k i o => (V0 (F := Ideal) m c main_arg4 : S3x128x256.Idx → EReal) (ix3 k i o)) (fun o => (V0 (F := Ideal) m c main_arg5 : S256.Idx → EReal) (ix1 o)) (layerD row col dis (fun k i o => (V0 (F := Ideal) m c main_arg2 : S3x128x128.Idx → EReal) (ix3 k i o)) (fun o => (V0 (F := Ideal) m c main_arg3 : S128.Idx → EReal) (ix1 o)) (pad (fun r f => (V0 (F := Ideal) m c main_arg0 : S10000x128.Idx → EReal) (ix2 r f)))))) a b :=
    fun a b => by rw [← e2]; exact feat3 m outs c row col dis hM h6 h7 h8 a b
  rw [V16_v66] at h9
  rw [h9 r'' o'']
  simp only [e3]

include hM in
/-- THE KERNEL PROGRAM'S TWO RESULTS: on the first 10000 rows, the dense specification with each head's weights. -/
theorem kerVals_of
    (hX0 : ∀ a b, (V3 (F := Ideal) m c main_v48 : S10240x128.Idx → EReal) (ix2 a b) = pad (fun r f => (V0 (F := Ideal) m c main_arg0 : S10000x128.Idx → EReal) (ix2 r f)) a b)
    (h0 : PlainOut (V3 (F := Ideal) m c main_v45 : S10240x10240.Idx → EReal) (V3 (F := Ideal) m c main_v48 : S10240x128.Idx → EReal) (outs 4 main_v49 c : S10240x128.Idx → EReal))
    (h1 : AffineOut (V4 (F := Ideal) m outs c main_v45 : S10240x10240.Idx → EReal) (V4 (F := Ideal) m outs c main_v49 : S10240x128.Idx → EReal) (V4 (F := Ideal) m outs c main_v48 : S10240x128.Idx → EReal) (outs 5 main_v50 c : S10240x128.Idx → EReal))
    (h2 : DenseOut (V6 (F := Ideal) m outs c main_v51 : S10240x384.Idx → EReal) (V6 (F := Ideal) m outs c main_v52 : S384x128.Idx → EReal) (V6 (F := Ideal) m outs c main_v53 : S1x128.Idx → EReal) (outs 7 main_v54 c : S10240x128.Idx → EReal))
    (h3 : PlainOut (V7 (F := Ideal) m outs c main_v45 : S10240x10240.Idx → EReal) (V7 (F := Ideal) m outs c main_v54 : S10240x128.Idx → EReal) (outs 8 main_v55 c : S10240x128.Idx → EReal))
    (h4 : AffineOut (V8 (F := Ideal) m outs c main_v45 : S10240x10240.Idx → EReal) (V8 (F := Ideal) m outs c main_v55 : S10240x128.Idx → EReal) (V8 (F := Ideal) m outs c main_v54 : S10240x128.Idx → EReal) (outs 9 main_v56 c : S10240x128.Idx → EReal))
    (h5 : DenseOut (V10 (F := Ideal) m outs c main_v57 : S10240x384.Idx → EReal) (V10 (F := Ideal) m outs c main_v58 : S384x256.Idx → EReal) (V10 (F := Ideal) m outs c main_v59 : S1x256.Idx → EReal) (outs 11 main_v60 c : S10240x256.Idx → EReal))
    (h6 : PlainOut (V11 (F := Ideal) m outs c main_v45 : S10240x10240.Idx → EReal) (V11 (F := Ideal) m outs c main_v60 : S10240x256.Idx → EReal) (outs 12 main_v61 c : S10240x256.Idx → EReal))
    (h7 : AffineOut (V12 (F := Ideal) m outs c main_v45 : S10240x10240.Idx → EReal) (V12 (F := Ideal) m outs c main_v61 : S10240x256.Idx → EReal) (V12 (F := Ideal) m outs c main_v60 : S10240x256.Idx → EReal) (outs 13 main_v62 c : S10240x256.Idx → EReal))
    (h8 : DenseOut (V14 (F := Ideal) m outs c main_v63 : S10240x768.Idx → EReal) (V14 (F := Ideal) m outs c main_v64 : S768x512.Idx → EReal) (V14 (F := Ideal) m outs c main_v65 : S1x512.Idx → EReal) (outs 15 main_v66 c : S10240x512.Idx → EReal))
    (h9 : HeadOut (V16 (F := Ideal) m outs c main_v66 : S10240x512.Idx → EReal) (V16 (F := Ideal) m outs c main_v67 : S512x512.Idx → EReal) (V16 (F := Ideal) m outs c main_v69 : S1x512.Idx → EReal) (outs 17 main_v70 c : S10240x512.Idx → EReal)) :
    (∀ (r : Fin 10000) (o : Fin 256), (V18 (F := Ideal) m outs c main_v71 : S10000x256.Idx → EReal) (ix2 r o)
      = kerOut row col dis (fun r f => (V0 (F := Ideal) m c main_arg0 : S10000x128.Idx → EReal) (ix2 r f)) (fun k i o => (V0 (F := Ideal) m c main_arg2 : S3x128x128.Idx → EReal) (ix3 k i o)) (fun o => (V0 (F := Ideal) m c main_arg3 : S128.Idx → EReal) (ix1 o)) (fun k i o => (V0 (F := Ideal) m c main_arg4 : S3x128x256.Idx → EReal) (ix3 k i o)) (fun o => (V0 (F := Ideal) m c main_arg5 : S256.Idx → EReal) (ix1 o)) (fun k i o => (V0 (F := Ideal) m c main_arg6 : S3x256x512.Idx → EReal) (ix3 k i o)) (fun o => (V0 (F := Ideal) m c main_arg7 : S512.Idx → EReal) (ix1 o))
          (fun i o => (V0 (F := Ideal) m c main_arg8 : S512x256.Idx → EReal) (ix2 i o)) (fun o => (V0 (F := Ideal) m c main_arg9 : S256.Idx → EReal) (ix1 o)) r o)
    ∧ (∀ (r : Fin 10000) (o : Fin 256), (V18 (F := Ideal) m outs c main_v72 : S10000x256.Idx → EReal) (ix2 r o)
      = kerOut row col dis (fun r f => (V0 (F := Ideal) m c main_arg0 : S10000x128.Idx → EReal) (ix2 r f)) (fun k i o => (V0 (F := Ideal) m c main_arg2 : S3x128x128.Idx → EReal) (ix3 k i o)) (fun o => (V0 (F := Ideal) m c main_arg3 : S128.Idx → EReal) (ix1 o)) (fun k i o => (V0 (F := Ideal) m c main_arg4 : S3x128x256.Idx → EReal) (ix3 k i o)) (fun o => (V0 (F := Ideal) m c main_arg5 : S256.Idx → EReal) (ix1 o)) (fun k i o => (V0 (F := Ideal) m c main_arg6 : S3x256x512.Idx → EReal) (ix3 k i o)) (fun o => (V0 (F := Ideal) m c main_arg7 : S512.Idx → EReal) (ix1 o))
          (fun i o => (V0 (F := Ideal) m c main_arg10 : S512x256.Idx → EReal) (ix2 i o)) (fun o => (V0 (F := Ideal) m c main_arg11 : S256.Idx → EReal) (ix1 o)) r o) := by
  have hout := head_out m outs c row col dis hM hX0 h0 h1 h2 h3 h4 h5 h6 h7 h8 h9
  constructor
  · intro r o
    rw [V18_v71, slice2_apply ![0, 0] _ slices_S10240x512_S10000x256_0_0 r o ⟨r.val, by have := r.isLt; omega⟩
      ⟨o.val, by have := o.isLt; omega⟩ (Nat.zero_add _).symm (Nat.zero_add _).symm, hout]
    unfold kerOut
    congr 1
    · refine Finset.sum_congr rfl fun i _ => congrArg (HMul.hMul _) ?_
      rw [V16_v67]
      exact pair_apply0 _ _ _ i o _ rfl
    · rw [V16_v69, shapeCast_a_1a_apply]
      exact pairv_apply0 _ _ _ o _ rfl
  · intro r o
    rw [V18_v72, slice2_apply ![0, 256] _ slices_S10240x512_S10000x256_0_256 r o ⟨r.val, by have := r.isLt; omega⟩
      ⟨256 + o.val, by have := o.isLt; omega⟩ (Nat.zero_add _).symm rfl, hout]
    unfold kerOut
    congr 1
    · refine Finset.sum_congr rfl fun i _ => congrArg (HMul.hMul _) ?_
      rw [V16_v67]
      exact pair_apply1 _ _ _ i o _ rfl
    · rw [V16_v69, shapeCast_a_1a_apply]
      exact pairv_apply1 _ _ _ o _ rfl
end Main

end Cert.Proof.KerVals
-- ==== Proof.KI.Glue.lean ====
/- The run's valuations against the statement's: with each region's output array taken to be what its pipeline
   leaves, the valuation the statement names before and after every item is the one the run holds there; and at those
   valuations each region's output array is, entry by entry, the region's closed form of the arrays it finds — ten block
   products accumulated from zero (propagation), twice that minus the addend (third Chebyshev term), a matrix product
   plus a bias row, rectified (dense layer) or not (head). -/
import proofs.«130334_j70351564308694_1_alg».proof.Proof.KI.Run
import proofs.«130334_j70351564308694_1_alg».proof.Proof.KI.Val0
import proofs.«130334_j70351564308694_1_alg».proof.Proof.KI.Val1
import proofs.«130334_j70351564308694_1_alg».proof.Proof.KI.Val2
import proofs.«130334_j70351564308694_1_alg».proof.Proof.KI.Val3
import proofs.«130334_j70351564308694_1_alg».proof.Proof.KI.Val4
import proofs.«130334_j70351564308694_1_alg».proof.Proof.KI.Val5
import proofs.«130334_j70351564308694_1_alg».proof.Proof.KI.Val6
import proofs.«130334_j70351564308694_1_alg».proof.Proof.KI.Val7
import proofs.«130334_j70351564308694_1_alg».proof.Proof.KI.Val8
import proofs.«130334_j70351564308694_1_alg».proof.Proof.KI.Val9
import proofs.«130334_j70351564308694_1_alg».proof.Proof.KerVals
set_option maxRecDepth 16384
noncomputable section
namespace Cert.KernelIdeal.Hand
open Cert.KernelIdeal Cert.KernelIdeal.Gen
open Idealize.ShloMosaic Idealize.ShloMosaic.TcCoe Idealize.ShloMosaic.ValueIdx
open Cert.Proof.KerVals Cert.Proof.Spec Cert.Proof.KerMath
open Idealize.ShloMosaic.Pipeline (Dat Cfg Window BodyObligation cellOf)

section AnyF
variable {F : FTy → Type} [FloatOps F]
variable (m : (ℓ : Loc nD τ sig) → Buf (Elt F) ℓ)

/-- Each region's output array at what its pipeline leaves; anything else as launched. -/
def outsT : Outs (F := F) := fun J r c =>
  if J = 4 then X0 m c r else if J = 5 then X1 m c r else if J = 7 then X2 m c r else if J = 8 then X3 m c r
  else if J = 9 then X4 m c r else if J = 11 then X5 m c r else if J = 12 then X6 m c r else if J = 13 then X7 m c r
  else if J = 15 then X8 m c r else if J = 17 then X9 m c r else T0 m c r

/-! ## The statement's valuations are the run's -/

theorem V3_eq (c : Dev nD) : V3 m c = T3 m c := rfl
theorem V4_eq (c : Dev nD) : V4 m (outsT m) c = T4 m c := rfl
theorem V5_eq (c : Dev nD) : V5 m (outsT m) c = T5 m c := rfl
theorem V6_eq (c : Dev nD) : V6 m (outsT m) c = T6 m c := rfl
theorem V7_eq (c : Dev nD) : V7 m (outsT m) c = T7 m c := rfl
theorem V8_eq (c : Dev nD) : V8 m (outsT m) c = T8 m c := rfl
theorem V9_eq (c : Dev nD) : V9 m (outsT m) c = T9 m c := rfl
theorem V10_eq (c : Dev nD) : V10 m (outsT m) c = T10 m c := rfl
theorem V11_eq (c : Dev nD) : V11 m (outsT m) c = T11 m c := rfl
theorem V12_eq (c : Dev nD) : V12 m (outsT m) c = T12 m c := rfl
theorem V13_eq (c : Dev nD) : V13 m (outsT m) c = T13 m c := rfl
theorem V14_eq (c : Dev nD) : V14 m (outsT m) c = T14 m c := rfl
theorem V15_eq (c : Dev nD) : V15 m (outsT m) c = T15 m c := rfl
theorem V16_eq (c : Dev nD) : V16 m (outsT m) c = T16 m c := rfl
theorem V17_eq (c : Dev nD) : V17 m (outsT m) c = T17 m c := rfl
theorem V18_eq (c : Dev nD) : V18 m (outsT m) c = T18 m c := rfl

end AnyF

/-! ## What each region leaves, at the ideal values -/

section AtIdeal
variable (m : (ℓ : Loc nD τ sig) → Buf (Elt Ideal) ℓ) (c : Dev nD)

/-- Region 0. -/
theorem h0_T : PlainOut (V3 (F := Ideal) m c main_v45 : S10240x10240.Idx → EReal) (V3 (F := Ideal) m c main_v48 : S10240x128.Idx → EReal) (outsT m 4 main_v49 c : S10240x128.Idx → EReal) := by
  intro r' o
  have hX : X0 m c (Proc.devRef .tc (Pipeline.arrRef spec0 2)) = (dat0 (Vin (T3 m)) c).arrAt 2 cfg0.N := by
    unfold X0; exact Pipeline.withArrays_arr spec0 launch0.win.arr_inj c _ _ 2
  exact (congrFun hX (ix2 r' o)).trans (val0_at (Vin (T3 m)) c _ _ rfl rfl r' o)

/-- Region 1. -/
theorem h1_T : AffineOut (V4 (F := Ideal) m (outsT m) c main_v45 : S10240x10240.Idx → EReal) (V4 (F := Ideal) m (outsT m) c main_v49 : S10240x128.Idx → EReal) (V4 (F := Ideal) m (outsT m) c main_v48 : S10240x128.Idx → EReal) (outsT m 5 main_v50 c : S10240x128.Idx → EReal) := by
  intro r' o
  have hX : X1 m c (Proc.devRef .tc (Pipeline.arrRef spec1 3)) = (dat1 (Vin (T4 m)) c).arrAt 3 cfg1.N := by
    unfold X1; exact Pipeline.withArrays_arr spec1 launch1.win.arr_inj c _ _ 3
  exact (congrFun hX (ix2 r' o)).trans (val1_at (Vin (T4 m)) c _ _ _ rfl rfl rfl r' o)

/-- Region 2. -/
theorem h2_T : DenseOut (V6 (F := Ideal) m (outsT m) c main_v51 : S10240x384.Idx → EReal) (V6 (F := Ideal) m (outsT m) c main_v52 : S384x128.Idx → EReal) (V6 (F := Ideal) m (outsT m) c main_v53 : S1x128.Idx → EReal) (outsT m 7 main_v54 c : S10240x128.Idx → EReal) := by
  intro r' o
  have hX : X2 m c (Proc.devRef .tc (Pipeline.arrRef spec2 3)) = (dat2 (Vin (T6 m)) c).arrAt 3 cfg2.N := by
    unfold X2; exact Pipeline.withArrays_arr spec2 launch2.win.arr_inj c _ _ 3
  exact (congrFun hX (ix2 r' o)).trans (val2_at (Vin (T6 m)) c _ _ _ rfl rfl rfl r' o)

/-- Region 3. -/
theorem h3_T : PlainOut (V7 (F := Ideal) m (outsT m) c main_v45 : S10240x10240.Idx → EReal) (V7 (F := Ideal) m (outsT m) c main_v54 : S10240x128.Idx → EReal) (outsT m 8 main_v55 c : S10240x128.Idx → EReal) := by
  intro r' o
  have hX : X3 m c (Proc.devRef .tc (Pipeline.arrRef spec3 2)) = (dat3 (Vin (T7 m)) c).arrAt 2 cfg3.N := by
    unfold X3; exact Pipeline.withArrays_arr spec3 launch3.win.arr_inj c _ _ 2
  exact (congrFun hX (ix2 r' o)).trans (val3_at (Vin (T7 m)) c _ _ rfl rfl r' o)

/-- Region 4. -/
theorem h4_T : AffineOut (V8 (F := Ideal) m (outsT m) c main_v45 : S10240x10240.Idx → EReal) (V8 (F := Ideal) m (outsT m) c main_v55 : S10240x128.Idx → EReal) (V8 (F := Ideal) m (outsT m) c main_v54 : S10240x128.Idx → EReal) (outsT m 9 main_v56 c : S10240x128.Idx → EReal) := by
  intro r' o
  have hX : X4 m c (Proc.devRef .tc (Pipeline.arrRef spec4 3)) = (dat4 (Vin (T8 m)) c).arrAt 3 cfg4.N := by
    unfold X4; exact Pipeline.withArrays_arr spec4 launch4.win.arr_inj c _ _ 3
  exact (congrFun hX (ix2 r' o)).trans (val4_at (Vin (T8 m)) c _ _ _ rfl rfl rfl r' o)

/-- Region 5. -/
theorem h5_T : DenseOut (V10 (F := Ideal) m (outsT m) c main_v57 : S10240x384.Idx → EReal) (V10 (F := Ideal) m (outsT m) c main_v58 : S384x256.Idx → EReal) (V10 (F := Ideal) m (outsT m) c main_v59 : S1x256.Idx → EReal) (outsT m 11 main_v60 c : S10240x256.Idx → EReal) := by
  intro r' o
  have hX : X5 m c (Proc.devRef .tc (Pipeline.arrRef spec5 3)) = (dat5 (Vin (T10 m)) c).arrAt 3 cfg5.N := by
    unfold X5; exact Pipeline.withArrays_arr spec5 launch5.win.arr_inj c _ _ 3
  exact (congrFun hX (ix2 r' o)).trans (val5_at (Vin (T10 m)) c _ _ _ rfl rfl rfl r' o)

/-- Region 6. -/
theorem h6_T : PlainOut (V11 (F := Ideal) m (outsT m) c main_v45 : S10240x10240.Idx → EReal) (V11 (F := Ideal) m (outsT m) c main_v60 : S10240x256.Idx → EReal) (outsT m 12 main_v61 c : S10240x256.Idx → EReal) := by
  intro r' o
  have hX : X6 m c (Proc.devRef .tc (Pipeline.arrRef spec6 2)) = (dat6 (Vin (T11 m)) c).arrAt 2 cfg6.N := by
    unfold X6; exact Pipeline.withArrays_arr spec6 launch6.win.arr_inj c _ _ 2
  exact (congrFun hX (ix2 r' o)).trans (val6_at (Vin (T11 m)) c _ _ rfl rfl r' o)

/-- Region 7. -/
theorem h7_T : AffineOut (V12 (F := Ideal) m (outsT m) c main_v45 : S10240x10240.Idx → EReal) (V12 (F := Ideal) m (outsT m) c main_v61 : S10240x256.Idx → EReal) (V12 (F := Ideal) m (outsT m) c main_v60 : S10240x256.Idx → EReal) (outsT m 13 main_v62 c : S10240x256.Idx → EReal) := by
  intro r' o
  have hX : X7 m c (Proc.devRef .tc (Pipeline.arrRef spec7 3)) = (dat7 (Vin (T12 m)) c).arrAt 3 cfg7.N := by
    unfold X7; exact Pipeline.withArrays_arr spec7 launch7.win.arr_inj c _ _ 3
  exact (congrFun hX (ix2 r' o)).trans (val7_at (Vin (T12 m)) c _ _ _ rfl rfl rfl r' o)

/-- Region 8. -/
theorem h8_T : DenseOut (V14 (F := Ideal) m (outsT m) c main_v63 : S10240x768.Idx → EReal) (V14 (F := Ideal) m (outsT m) c main_v64 : S768x512.Idx → EReal) (V14 (F := Ideal) m (outsT m) c main_v65 : S1x512.Idx → EReal) (outsT m 15 main_v66 c : S10240x512.Idx → EReal) := by
  intro r' o
  have hX : X8 m c (Proc.devRef .tc (Pipeline.arrRef spec8 3)) = (dat8 (Vin (T14 m)) c).arrAt 3 cfg8.N := by
    unfold X8; exact Pipeline.withArrays_arr spec8 launch8.win.arr_inj c _ _ 3
  exact (congrFun hX (ix2 r' o)).trans (val8_at (Vin (T14 m)) c _ _ _ rfl rfl rfl r' o)

/-- Region 9. -/
theorem h9_T : HeadOut (V16 (F := Ideal) m (outsT m) c main_v66 : S10240x512.Idx → EReal) (V16 (F := Ideal) m (outsT m) c main_v67 : S512x512.Idx → EReal) (V16 (F := Ideal) m (outsT m) c main_v69 : S1x512.Idx → EReal) (outsT m 17 main_v70 c : S10240x512.Idx → EReal) := by
  intro r' o
  have hX : X9 m c (Proc.devRef .tc (Pipeline.arrRef spec9 3)) = (dat9 (Vin (T16 m)) c).arrAt 3 cfg9.N := by
    unfold X9; exact Pipeline.withArrays_arr spec9 launch9.win.arr_inj c _ _ 3
  exact (congrFun hX (ix2 r' o)).trans (val9_at (Vin (T16 m)) c _ _ _ rfl rfl rfl r' o)

end AtIdeal

end Cert.KernelIdeal.Hand
end
-- ==== Proof.LibScatterAdd.lean ====
/-
  Two more accumulating host scatters read at an index.

  (1) A count / vector segment sum, `zeros(N).at[ids].add(upd)`: operand [N], scatter indices [E, 1], updates [E].
      Update `e` is added into entry `ids[e]` when `0 ≤ ids[e] < N` (read signed, not clamped), dropped otherwise;
      over the extended reals the result at `c` is the operand there plus the sum of `upd e` over the edges whose
      index is `c`.
  (2) A dense matrix assembled from weighted edges, `zeros((N0, N1)).at[a, b].add(upd)`: operand [N0, N1], scatter
      indices [E, 2] (the pair `(a e, b e)` in one row), updates [E]. Update `e` is added into entry `(a e, b e)`
      when both coordinates are in range, dropped otherwise; the result at `(c, r)` is the operand there plus the
      sum of `upd e` over the edges whose pair is `(c, r)`.
  Any sizes; a program's own dimension record is `vecDims` / `matDims` at its sizes when it lists the same axes.
-/
import Idealize.ShloMosaic.PureOps
import Idealize.ShloMosaic.Lib.ValueIdx

noncomputable section

open scoped BigOperators

namespace LibScatterAdd

open Idealize.ShloMosaic Idealize.ShloMosaic.ValueIdx

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-! ## (1) operand [N], scatter indices [E, 1], updates [E] -/

section Vec

/-- The dimension numbers of an entry scatter into a vector. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index `[e, 0]` of edge `e`. -/
abbrev vecIdx {E : Nat} (e : Fin E) : (⟨2, ![E, 1]⟩ : Shape).Idx := ix2 e ⟨0, Nat.one_pos⟩

variable {N E w : Nat} (wf : ScatterDims.WF ⟨1, ![N]⟩ ⟨2, ![E, 1]⟩ ⟨1, ![E]⟩ [] [0] [0] 1)

theorem vec_start (idx : IVec ⟨2, ![E, 1]⟩ w) (e : Fin E) :
    (vecDims N E wf).start (ix1 e) idx 0 = (idx (vecIdx e)).toInt := by
  unfold ScatterDims.start
  rw [dif_pos (show (0 : Fin 1) ∈ (vecDims N E wf).scatterDimsToOperandDims from List.mem_singleton.mpr rfl)]
  refine congrArg (fun i => (idx i).toInt) ?_
  funext a
  refine Fin.ext ?_
  match a with
  | ⟨0, _⟩ => rfl
  | ⟨1, _⟩ => rfl

theorem vec_window (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ ([0] : List (Fin 1)))))]

/-- Update `e` lands at `c` exactly when edge `e`'s index, read signed, is `c`. -/
theorem vec_lands_iff (idx : IVec ⟨2, ![E, 1]⟩ w) (e : Fin E) (c : Fin N) :
    (vecDims N E wf).resultIdx? (ix1 e) idx = some (ix1 c) ↔ (idx (vecIdx e)).toInt = (c.val : Int) := by
  have hs := vec_start wf idx e
  have hw := vec_window wf e
  have hN : (⟨1, ![N]⟩ : Shape).size 0 = N := rfl
  unfold ScatterDims.resultIdx?
  split
  · rename_i h
    rw [Option.some.injEq]
    constructor
    · intro hf
      have h0 : ((vecDims N E wf).start (ix1 e) idx 0 + ((vecDims N E wf).window (ix1 e) 0 : Int)).toNat = c.val :=
        congrArg (fun g : (⟨1, ![N]⟩ : Shape).Idx => (g 0).val) hf
      have hpos := (h 0).1
      rw [hs, hw] at h0 hpos
      omega
    · intro hi
      funext a
      refine Fin.ext ?_
      match a with
      | ⟨0, _⟩ =>
        show ((vecDims N E wf).start (ix1 e) idx 0 + ((vecDims N E wf).window (ix1 e) 0 : Int)).toNat = c.val
        rw [hs, hw]; omega
  · rename_i h
    constructor
    · intro hf; exact absurd hf (by simp)
    · intro hi
      exfalso
      apply h
      intro a
      match a with
      | ⟨0, _⟩ =>
        show 0 ≤ (vecDims N E wf).start (ix1 e) idx 0 + ((vecDims N E wf).window (ix1 e) 0 : Int)
          ∧ (vecDims N E wf).start (ix1 e) idx 0 + ((vecDims N E wf).window (ix1 e) 0 : Int) < ((⟨1, ![N]⟩ : Shape).size 0 : Int)
        rw [hs, hw, hN]
        have := c.isLt
        omega

/-- THE VECTOR SCATTER-ADD READ AT `c`: the operand there plus the updates of the edges whose index is `c`. -/
theorem vec_scatter_add_apply (x : (⟨1, ![N]⟩ : Shape).Idx → EReal) (idx : IVec ⟨2, ![E, 1]⟩ w)
    (upd : (⟨1, ![E]⟩ : Shape).Idx → EReal) (c : Fin N) :
    Ideal.hostScatterAdd (vecDims N E wf) x idx upd (ix1 c)
      = x (ix1 c) + ∑ e : Fin E with (idx (vecIdx e)).toInt = (c.val : Int), upd (ix1 e) := by
  unfold Ideal.hostScatterAdd
  congr 1
  rw [Finset.sum_filter, sum_idx1, Finset.sum_filter]
  refine Finset.sum_congr rfl fun e _ => ?_
  by_cases hA : (idx (vecIdx e)).toInt = (c.val : Int)
  · rw [if_pos hA, if_pos ((vec_lands_iff wf idx e c).2 hA)]
  · rw [if_neg hA, if_neg fun h => hA ((vec_lands_iff wf idx e c).1 h)]

end Vec

/-! ## (2) operand [N0, N1], scatter indices [E, 2], updates [E] -/

section Mat

/-- The dimension numbers of an entry scatter into a matrix at index pairs. -/
abbrev matDims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- The scatter-indices indices `[e, 0]` and `[e, 1]` of edge `e`: its first and its second coordinate. -/
abbrev matIdx0 {E : Nat} (e : Fin E) : (⟨2, ![E, 2]⟩ : Shape).Idx := ix2 e ⟨0, by decide⟩
abbrev matIdx1 {E : Nat} (e : Fin E) : (⟨2, ![E, 2]⟩ : Shape).Idx := ix2 e ⟨1, by decide⟩

variable {N0 N1 E w : Nat} (wf : ScatterDims.WF ⟨2, ![N0, N1]⟩ ⟨2, ![E, 2]⟩ ⟨1, ![E]⟩ [] [0, 1] [0, 1] 1)

theorem mat_start0 (idx : IVec ⟨2, ![E, 2]⟩ w) (e : Fin E) :
    (matDims N0 N1 E wf).start (ix1 e) idx 0 = (idx (matIdx0 e)).toInt := by
  unfold ScatterDims.start
  rw [dif_pos (show (0 : Fin 2) ∈ (matDims N0 N1 E wf).scatterDimsToOperandDims from
    (by decide : (0 : Fin 2) ∈ ([0, 1] : List (Fin 2))))]
  refine congrArg (fun i => (idx i).toInt) ?_
  funext a
  refine Fin.ext ?_
  match a with
  | ⟨0, _⟩ => rfl
  | ⟨1, _⟩ => rfl

theorem mat_start1 (idx : IVec ⟨2, ![E, 2]⟩ w) (e : Fin E) :
    (matDims N0 N1 E wf).start (ix1 e) idx 1 = (idx (matIdx1 e)).toInt := by
  unfold ScatterDims.start
  rw [dif_pos (show (1 : Fin 2) ∈ (matDims N0 N1 E wf).scatterDimsToOperandDims from
    (by decide : (1 : Fin 2) ∈ ([0, 1] : List (Fin 2))))]
  refine congrArg (fun i => (idx i).toInt) ?_
  funext a
  refine Fin.ext ?_
  match a with
  | ⟨0, _⟩ => rfl
  | ⟨1, _⟩ => rfl

theorem mat_window (e : Fin E) (a : Fin 2) : (matDims N0 N1 E wf).window (ix1 e) a = 0 := by
  unfold ScatterDims.window
  rw [dif_neg]
  show a ∉ (List.finRange 2).filter (· ∉ ([0, 1] : List (Fin 2)))
  revert a; decide

/-- Update `e` lands at `(c, r)` exactly when edge `e`'s pair, read signed, is `(c, r)`. -/
theorem mat_lands_iff (idx : IVec ⟨2, ![E, 2]⟩ w) (e : Fin E) (c : Fin N0) (r : Fin N1) :
    (matDims N0 N1 E wf).resultIdx? (ix1 e) idx = some (ix2 c r)
      ↔ (idx (matIdx0 e)).toInt = (c.val : Int) ∧ (idx (matIdx1 e)).toInt = (r.val : Int) := by
  have hs0 := mat_start0 wf idx e
  have hs1 := mat_start1 wf idx e
  have hw0 := mat_window wf e 0
  have hw1 := mat_window wf e 1
  have hN0 : (⟨2, ![N0, N1]⟩ : Shape).size 0 = N0 := rfl
  have hN1 : (⟨2, ![N0, N1]⟩ : Shape).size 1 = N1 := rfl
  unfold ScatterDims.resultIdx?
  split
  · rename_i h
    rw [Option.some.injEq]
    constructor
    · intro hf
      have h0 : ((matDims N0 N1 E wf).start (ix1 e) idx 0 + ((matDims N0 N1 E wf).window (ix1 e) 0 : Int)).toNat = c.val :=
        congrArg (fun g : (⟨2, ![N0, N1]⟩ : Shape).Idx => (g 0).val) hf
      have h1 : ((matDims N0 N1 E wf).start (ix1 e) idx 1 + ((matDims N0 N1 E wf).window (ix1 e) 1 : Int)).toNat = r.val :=
        congrArg (fun g : (⟨2, ![N0, N1]⟩ : Shape).Idx => (g 1).val) hf
      have hp0 := (h 0).1
      have hp1 := (h 1).1
      rw [hs0, hw0] at h0 hp0
      rw [hs1, hw1] at h1 hp1
      exact ⟨by omega, by omega⟩
    · rintro ⟨hi0, hi1⟩
      funext a
      refine Fin.ext ?_
      match a with
      | ⟨0, _⟩ =>
        show ((matDims N0 N1 E wf).start (ix1 e) idx 0 + ((matDims N0 N1 E wf).window (ix1 e) 0 : Int)).toNat = c.val
        rw [hs0, hw0]; omega
      | ⟨1, _⟩ =>
        show ((matDims N0 N1 E wf).start (ix1 e) idx 1 + ((matDims N0 N1 E wf).window (ix1 e) 1 : Int)).toNat = r.val
        rw [hs1, hw1]; omega
  · rename_i h
    constructor
    · intro hf; exact absurd hf (by simp)
    · rintro ⟨hi0, hi1⟩
      exfalso
      apply h
      intro a
      match a with
      | ⟨0, _⟩ =>
        show 0 ≤ (matDims N0 N1 E wf).start (ix1 e) idx 0 + ((matDims N0 N1 E wf).window (ix1 e) 0 : Int)
          ∧ (matDims N0 N1 E wf).start (ix1 e) idx 0 + ((matDims N0 N1 E wf).window (ix1 e) 0 : Int) < ((⟨2, ![N0, N1]⟩ : Shape).size 0 : Int)
        rw [hs0, hw0, hN0]
        have := c.isLt
        omega
      | ⟨1, _⟩ =>
        show 0 ≤ (matDims N0 N1 E wf).start (ix1 e) idx 1 + ((matDims N0 N1 E wf).window (ix1 e) 1 : Int)
          ∧ (matDims N0 N1 E wf).start (ix1 e) idx 1 + ((matDims N0 N1 E wf).window (ix1 e) 1 : Int) < ((⟨2, ![N0, N1]⟩ : Shape).size 1 : Int)
        rw [hs1, hw1, hN1]
        have := r.isLt
        omega

/-- THE MATRIX SCATTER-ADD READ AT `(c, r)`: the operand there plus the updates of the edges whose pair is `(c, r)`. -/
theorem mat_scatter_add_apply (x : (⟨2, ![N0, N1]⟩ : Shape).Idx → EReal) (idx : IVec ⟨2, ![E, 2]⟩ w)
    (upd : (⟨1, ![E]⟩ : Shape).Idx → EReal) (c : Fin N0) (r : Fin N1) :
    Ideal.hostScatterAdd (matDims N0 N1 E wf) x idx upd (ix2 c r)
      = x (ix2 c r) + ∑ e : Fin E with ((idx (matIdx0 e)).toInt = (c.val : Int) ∧ (idx (matIdx1 e)).toInt = (r.val : Int)), upd (ix1 e) := by
  unfold Ideal.hostScatterAdd
  congr 1
  rw [Finset.sum_filter, sum_idx1, Finset.sum_filter]
  refine Finset.sum_congr rfl fun e _ => ?_
  by_cases hA : (idx (matIdx0 e)).toInt = (c.val : Int) ∧ (idx (matIdx1 e)).toInt = (r.val : Int)
  · rw [if_pos hA, if_pos ((mat_lands_iff wf idx e c r).2 hA)]
  · rw [if_neg hA, if_neg fun h => hA ((mat_lands_iff wf idx e c r).1 h)]

end Mat

end LibScatterAdd

end
-- ==== Proof.LibGatherRows.lean ====
/-
  Two host gathers along the leading axis, read at an index.

  `x[ids]` for an integer vector `ids : [E]` lowers to a gather whose start indices are `ids` as `[E, 1]` (the
  index vector's axis last, of size 1), the operand's leading axis collapsed:
  (1) operand a vector [N]: result [E], element `e` is `x` at `ids[e]`;
  (2) operand a matrix [N, C]: result [E, C], element `(e, f)` is `x` at `(ids[e], f)` (a whole row per index).
  The start index is read SIGNED and CLAMPED into `[0, N − 1]`, as every StableHLO gather clamps its start
  indices; when the index is already some `c < N` the clamp is the identity (`*_of_inRange`).
  Any sizes; a program's own dimension record is `vecDims` / `rowDims` at its sizes when it lists the same axes.
-/
import Idealize.ShloMosaic.PureOps
import Idealize.ShloMosaic.Lib.ValueIdx

noncomputable section

namespace LibGatherRows

open Idealize.ShloMosaic Idealize.ShloMosaic.ValueIdx

variable {α : Type}

/-- The start-indices index `[e, 0]` of result row `e`. -/
abbrev startIdx {E : Nat} (e : Fin E) : (⟨2, ![E, 1]⟩ : Shape).Idx := ix2 e ⟨0, Nat.one_pos⟩

/-! ## (1) operand [N], start indices [E, 1], result [E] -/

section Vec

/-- The dimension numbers of an entry gather out of a vector. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `ids[e]`, read signed and clamped into `[0, N − 1]`. -/
theorem vec_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 ⟨min (idx (startIdx e)).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = startIdx e := by
    funext b; refine Fin.ext ?_
    match b with
    | ⟨0, _⟩ => rfl
    | ⟨1, _⟩ => rfl
  rw [hsi]
  rfl

/-- With the index in range the clamp is the identity: the operand at `c`. -/
theorem vec_gather_of_inRange {N E w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) (c : Fin N)
    (h : (idx (startIdx e)).toInt = (c.val : Int)) :
    Host.gather (vecDims N E wf) x idx (ix1 e) = x (ix1 c) := by
  rw [vec_gather_apply (Nat.lt_of_le_of_lt (Nat.zero_le _) c.isLt) wf x idx e]
  refine congrArg x (congrArg ix1 (Fin.ext ?_))
  show min (idx (startIdx e)).toInt.toNat (N - 1) = c.val
  have := c.isLt
  rw [h]; omega

end Vec

/-! ## (2) operand [N, C], start indices [E, 1], result [E, C] -/

section Rows

/-- The dimension numbers of a row gather out of a matrix. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `ids[e]` (read signed, clamped into `[0, N − 1]`), column `f`. -/
theorem row_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowDims N E C wf) x idx (ix2 e f)
      = x (ix2 ⟨min (idx (startIdx e)).toInt.toNat (N - 1), by omega⟩ f) := by
  unfold Host.gather
  congr 1
  funext a
  refine Fin.ext ?_
  match a with
  | ⟨0, _⟩ =>
    show (rowDims N E C wf).start (ix2 e f) idx 0 + (rowDims N E C wf).batchCoord (ix2 e f) 0 + (rowDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e f) ⟨List.idxOf (0 : Fin 2) (rowDims N E C wf).startIndexMap,
        List.idxOf_lt_length_iff.2 (List.mem_singleton.mpr rfl)⟩ = startIdx e := by
      funext b; refine Fin.ext ?_
      match b with
      | ⟨0, _⟩ => rfl
      | ⟨1, _⟩ => rfl
    rw [hsi]
    rfl
  | ⟨1, _⟩ =>
    show (rowDims N E C wf).start (ix2 e f) idx 1 + (rowDims N E C wf).batchCoord (ix2 e f) 1 + (rowDims N E C wf).offCoord (ix2 e f) 1 = f.val
    rw [GatherDims.batchCoord_eq_zero _ _ _ List.not_mem_nil]
    have hst : (rowDims N E C wf).start (ix2 e f) idx 1 = 0 := by
      unfold GatherDims.start
      rw [dif_neg (show (1 : Fin 2) ∉ (rowDims N E C wf).startIndexMap from (by decide : (1 : Fin 2) ∉ ([0] : List (Fin 2))))]
    have hoff : (rowDims N E C wf).offCoord (ix2 e f) 1 = f.val := by
      unfold GatherDims.offCoord
      rw [dif_pos (show (1 : Fin 2) ∈ (rowDims N E C wf).sKept from
        (by decide : (1 : Fin 2) ∈ (List.finRange 2).filter (· ∉ (([0] : List (Fin 2)) ++ ([] : List (Fin 2))))))]
      rfl
    rw [hst, hoff]; omega

/-- With the index in range the clamp is the identity: the operand at `(c, f)`. -/
theorem row_gather_of_inRange {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) (c : Fin N)
    (h : (idx (startIdx e)).toInt = (c.val : Int)) :
    Host.gather (rowDims N E C wf) x idx (ix2 e f) = x (ix2 c f) := by
  rw [row_gather_apply (Nat.lt_of_le_of_lt (Nat.zero_le _) c.isLt) wf x idx e f]
  refine congrArg x (congrArg (fun r => ix2 r f) (Fin.ext ?_))
  show min (idx (startIdx e)).toInt.toNat (N - 1) = c.val
  have := c.isLt
  rw [h]; omega

end Rows

end LibGatherRows

end
-- ==== Proof.KerAdjRead.lean ====
/- The adjacency matrix the first region finds, read off the kernel program alone. The program cuts the edge array
   into its source and target words, gathers the per-node factor at both, multiplies minus the one by the other, and
   scatters the products, added, into a zero matrix at the (target, source) pairs; the final cast to a narrower
   float format is the identity on the extended reals. An index word below 10000 is not negative, so every
   "add the extent if negative" select keeps it and its signed reading is its value. The per-node factor is kept
   as the buffer that holds it. -/
import proofs.«130334_j70351564308694_1_alg».proof.Proof.Gen.KernelIdeal.Regions
import proofs.«130334_j70351564308694_1_alg».proof.Proof.LibScatterAdd
import proofs.«130334_j70351564308694_1_alg».proof.Proof.LibGatherRows
import proofs.«130334_j70351564308694_1_alg».proof.Proof.KerIdx
import proofs.«130334_j70351564308694_1_alg».proof.Proof.Spec
import Idealize.ShloMosaic.Lib.Pipeline.Value
import Idealize.ShloMosaic.Lib.ValueIdx
import Idealize.ShloMosaic.Lib.StableHlo.Run
import Idealize.ShloMosaic.PureOps.Ideal.Laws
set_option maxRecDepth 16384
noncomputable section
namespace Cert.Proof.KerAdjRead
open Cert.KernelIdeal Cert.KernelIdeal.Gen
open Idealize.ShloMosaic Idealize.ShloMosaic.TcCoe Idealize.ShloMosaic.ValueIdx
open Idealize.ShloMosaic.StableHlo
open Cert.Proof.KerIdx

/-! ## The stages, as functions of the buffers a stretch finds -/

/-- Row `k` of the edge array as a vector of words. -/
def wordRow0 (a1 : IVec S2x160000 32) : IVec S160000 32 :=
  shapeCast S160000 (extractStridedSlice S1x160000 ![0, 0] a1 slices_S2x160000_S1x160000_0_0) shapeCasts_S1x160000_S160000
def wordRow1 (a1 : IVec S2x160000 32) : IVec S160000 32 :=
  shapeCast S160000 (extractStridedSlice S1x160000 ![1, 0] a1 slices_S2x160000_S1x160000_1_0) shapeCasts_S1x160000_S160000

/-- "Add `k` if negative" on every index word. -/
def wrapSel (k : BitVec 32) (v : IVec S160000 32) : IVec S160000 32 :=
  select (cmpi .slt v (broadcastInDim S160000 ![] bcast_S_S160000 (constantI S_ 32 0#32)))
    (addi v (broadcastInDim S160000 ![] bcast_S_S160000 (constantI S_ 32 k))) v

/-- The index words as a column of start indices. -/
def asCol (v : IVec S160000 32) : IVec S160000x1 32 := broadcastInDim S160000x1 ![0] bcast_S160000_S160000x1_0 v

/-- The edge weights: minus the factor gathered at the source words times the factor gathered at the target words. -/
def wStage (v1 v3 : IVec S160000 32) (v13 : FVec Ideal S10000 .f32) : FVec Ideal S160000 .f32 :=
  mulf (Host.negf (Host.gather gather_S10000_S160000x1_S160000_n_0_n_n_0_1_1 v13 (asCol (wrapSel 10000#32 v1))))
    (Host.gather gather_S10000_S160000x1_S160000_n_0_n_n_0_1_1 v13 (asCol (wrapSel 10000#32 v3)))

/-- The (target, source) pairs of the edges. -/
def pairStage (v1 v3 : IVec S160000 32) : IVec S160000x2 32 :=
  concatenate S160000x2 1 [⟨S160000x1, asCol (wrapSel 10240#32 v3)⟩, ⟨S160000x1, asCol (wrapSel 10240#32 v1)⟩]
    concatenates_S160000x1_S160000x1_S160000x2_d1

/-- The zero matrix. -/
def zerosM : FVec Ideal S10240x10240 .f32 :=
  broadcastInDim S10240x10240 ![] bcast_S_S10240x10240 (constant (F := Ideal) S_ .f32 0x00000000#32)

/-- The matrix: the weights scattered, added, into zeros, then cast. -/
def adjStage (v1 v3 : IVec S160000 32) (v13 : FVec Ideal S10000 .f32) : FVec Ideal S10240x10240 .bf16 :=
  truncf .bf16 (Host.scatterAdd scatter_S10240x10240_S160000x2_S160000_n_01_01_1 zerosM
    (pairStage v1 v3) (wStage v1 v3 v13)) bitsLt_bf16_f32

/-- The stretch before the first region leaves the matrix stage of the three buffers it reads. -/
theorem g_v45 (W : Valuation τ sig (Elt Ideal)) :
    (after hostOps0_2 W (Proc.devRef .tc main_v45) : S10240x10240.Idx → EReal)
      = adjStage (W (Proc.devRef .tc main_v1)) (W (Proc.devRef .tc main_v3)) (W (Proc.devRef .tc main_v13)) := by
  simp only [hostOps0_2]; after_results_simp <;> rfl

/-- The first stretch leaves the two rows of the edge array. -/
theorem g_v1 (W : Valuation τ sig (Elt Ideal)) :
    (after hostOps0 W (Proc.devRef .tc main_v1) : IVec S160000 32) = wordRow0 (W (Proc.devRef .tc main_arg1)) := by
  simp only [hostOps0]; after_results_simp <;> rfl
theorem g_v3 (W : Valuation τ sig (Elt Ideal)) :
    (after hostOps0 W (Proc.devRef .tc main_v3) : IVec S160000 32) = wordRow1 (W (Proc.devRef .tc main_arg1)) := by
  simp only [hostOps0]; after_results_simp <;> rfl

/-! ## The stages read at an index -/

/-- A 32-bit word below 10000 reads the same signed and unsigned. -/
theorem toInt_of_lt (w : BitVec 32) (h : w.toNat < 10000) : w.toInt = (w.toNat : Int) := by
  unfold BitVec.toInt
  split <;> omega

/-- A word below 10000 is not negative as a signed integer: the select keeps it, whatever would have been added. -/
theorem wrap_keep_any (w k : BitVec 32) (h : w.toNat < 10000) :
    Scalar.select (IntOp.cmpi .slt w 0#32) (IntOp.addi w k) w = w := by
  have hc : IntOp.cmpi .slt w 0#32 = 0#1 := by
    unfold IntOp.cmpi
    have : ¬ (w.toInt < (0#32 : BitVec 32).toInt) := by
      rw [toInt_of_lt w h]; simp
    simp only [BitVec.slt, this, decide_false]
    rfl
  rw [hc]
  exact select_zero _ _

theorem wordRow0_apply (a1 : IVec S2x160000 32) (e : Fin 160000) : wordRow0 a1 (ix1 e) = a1 (ix2 ⟨0, by decide⟩ e) := by
  unfold wordRow0
  rw [shapeCast_apply _ shapeCasts_S1x160000_S160000 (ix1 e) (ix2 (⟨0, Nat.one_pos⟩ : Fin 1) e) (by
    rw [Shape.rowMajor_val_two, Shape.rowMajor_val_one]; show 0 * 160000 + e.val = e.val; omega)]
  exact extractStridedSlice_apply ![0, 0] a1 slices_S2x160000_S1x160000_0_0 _ (ix2 ⟨0, by decide⟩ e)
    (fun a => match a with
      | ⟨0, _⟩ => rfl
      | ⟨1, _⟩ => by show e.val = 0 + e.val; omega)

theorem wordRow1_apply (a1 : IVec S2x160000 32) (e : Fin 160000) : wordRow1 a1 (ix1 e) = a1 (ix2 ⟨1, by decide⟩ e) := by
  unfold wordRow1
  rw [shapeCast_apply _ shapeCasts_S1x160000_S160000 (ix1 e) (ix2 (⟨0, Nat.one_pos⟩ : Fin 1) e) (by
    rw [Shape.rowMajor_val_two, Shape.rowMajor_val_one]; show 0 * 160000 + e.val = e.val; omega)]
  exact extractStridedSlice_apply ![1, 0] a1 slices_S2x160000_S1x160000_1_0 _ (ix2 ⟨1, by decide⟩ e)
    (fun a => match a with
      | ⟨0, _⟩ => rfl
      | ⟨1, _⟩ => by show e.val = 0 + e.val; omega)

theorem bcast_const_apply (k : BitVec 32) (i : S160000.Idx) :
    broadcastInDim S160000 ![] bcast_S_S160000 (constantI S_ 32 k) i = k :=
  (broadcastInDim_apply _ bcast_S_S160000 (constantI S_ 32 k) i ix0 (fun a => a.elim0)).trans rfl

/-- The wrapped word of an edge is the word itself. -/
theorem wrapSel_apply (k : BitVec 32) (v : IVec S160000 32) (e : Fin 160000) (h : (v (ix1 e)).toNat < 10000) :
    wrapSel k v (ix1 e) = v (ix1 e) := by
  unfold wrapSel
  show Scalar.select (IntOp.cmpi .slt (v (ix1 e)) (broadcastInDim S160000 ![] bcast_S_S160000 (constantI S_ 32 0#32) (ix1 e)))
    (IntOp.addi (v (ix1 e)) (broadcastInDim S160000 ![] bcast_S_S160000 (constantI S_ 32 k) (ix1 e))) (v (ix1 e)) = _
  rw [bcast_const_apply, bcast_const_apply]
  exact wrap_keep_any _ _ h

theorem asCol_apply (v : IVec S160000 32) (e : Fin 160000) : asCol v (ix2 e ⟨0, Nat.one_pos⟩) = v (ix1 e) := by
  unfold asCol
  exact broadcastInDim_apply _ bcast_S160000_S160000x1_0 v (ix2 e ⟨0, Nat.one_pos⟩) (ix1 e) (fun a => match a with
    | ⟨0, _⟩ => by show e.val = if (160000 : Nat) = 1 then 0 else e.val; rw [if_neg (by decide)])

/-- The first word of edge `e`'s pair is its target word, the second its source word. -/
theorem pair0 (v1 v3 : IVec S160000 32) (e : Fin 160000) (h : (v3 (ix1 e)).toNat < 10000) :
    pairStage v1 v3 (LibScatterAdd.matIdx0 e) = v3 (ix1 e) := by
  unfold pairStage
  rw [show LibScatterAdd.matIdx0 e = ix2 e (⟨0, by decide⟩ : Fin 2) from rfl,
    pair_apply0 (asCol (wrapSel 10240#32 v3)) (asCol (wrapSel 10240#32 v1)) concatenates_S160000x1_S160000x1_S160000x2_d1
      e ⟨0, Nat.one_pos⟩ ⟨0, by decide⟩ rfl, asCol_apply, wrapSel_apply _ _ _ h]

theorem pair1 (v1 v3 : IVec S160000 32) (e : Fin 160000) (h : (v1 (ix1 e)).toNat < 10000) :
    pairStage v1 v3 (LibScatterAdd.matIdx1 e) = v1 (ix1 e) := by
  unfold pairStage
  rw [show LibScatterAdd.matIdx1 e = ix2 e (⟨1, by decide⟩ : Fin 2) from rfl,
    pair_apply1 (asCol (wrapSel 10240#32 v3)) (asCol (wrapSel 10240#32 v1)) concatenates_S160000x1_S160000x1_S160000x2_d1
      e ⟨0, Nat.one_pos⟩ ⟨1, by decide⟩ rfl, asCol_apply, wrapSel_apply _ _ _ h]

theorem zerosM_apply (i : S10240x10240.Idx) : zerosM i = 0 := by
  unfold zerosM
  rw [broadcastInDim_apply _ bcast_S_S10240x10240 _ i ix0 (fun a => a.elim0)]
  show FloatOps.ofBits (F := Ideal) .f32 0x00000000#32 = 0
  rw [Ideal.ofBits_def, Ideal.ofBits_zero_f32]

/-- The accumulating scatter at the ideal values is the exact sum. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The source and target nodes of an edge: its two words, which are below 10000. -/
def rowW (a1 : IVec S2x160000 32) (hr : ∀ i, (a1 i).toNat < 10000) : Fin 160000 → Fin 10000 :=
  fun e => ⟨(a1 (ix2 ⟨0, by decide⟩ e)).toNat, hr _⟩
def colW (a1 : IVec S2x160000 32) (hr : ∀ i, (a1 i).toNat < 10000) : Fin 160000 → Fin 10000 :=
  fun e => ⟨(a1 (ix2 ⟨1, by decide⟩ e)).toNat, hr _⟩

/-- The weight of an edge: minus the factor at its source node times the factor at its target node. -/
theorem w_at (a1 : IVec S2x160000 32) (hr : ∀ i, (a1 i).toNat < 10000)
    (v1 v3 : IVec S160000 32) (v13 : FVec Ideal S10000 .f32)
    (h1 : ∀ e : Fin 160000, v1 (ix1 e) = a1 (ix2 ⟨0, by decide⟩ e))
    (h3 : ∀ e : Fin 160000, v3 (ix1 e) = a1 (ix2 ⟨1, by decide⟩ e)) (e : Fin 160000) :
    wStage v1 v3 v13 (ix1 e) = Spec.w (rowW a1 hr) (colW a1 hr) (fun c => v13 (ix1 c)) e := by
  have hv1 : (v1 (ix1 e)).toNat < 10000 := by rw [h1]; exact hr _
  have hv3 : (v3 (ix1 e)).toNat < 10000 := by rw [h3]; exact hr _
  have g1 : Host.gather gather_S10000_S160000x1_S160000_n_0_n_n_0_1_1 v13 (asCol (wrapSel 10000#32 v1)) (ix1 e)
      = v13 (ix1 (rowW a1 hr e)) :=
    LibGatherRows.vec_gather_of_inRange gather_S10000_S160000x1_S160000_n_0_n_n_0_1_1_wf v13 _ e (rowW a1 hr e)
      (by rw [asCol_apply, wrapSel_apply _ _ _ hv1, h1]; exact toInt_of_lt _ (hr _))
  have g3 : Host.gather gather_S10000_S160000x1_S160000_n_0_n_n_0_1_1 v13 (asCol (wrapSel 10000#32 v3)) (ix1 e)
      = v13 (ix1 (colW a1 hr e)) :=
    LibGatherRows.vec_gather_of_inRange gather_S10000_S160000x1_S160000_n_0_n_n_0_1_1_wf v13 _ e (colW a1 hr e)
      (by rw [asCol_apply, wrapSel_apply _ _ _ hv3, h3]; exact toInt_of_lt _ (hr _))
  unfold wStage
  show FloatOps.mulf (FloatOps.hostNegf (Host.gather gather_S10000_S160000x1_S160000_n_0_n_n_0_1_1 v13 (asCol (wrapSel 10000#32 v1)) (ix1 e)))
    (Host.gather gather_S10000_S160000x1_S160000_n_0_n_n_0_1_1 v13 (asCol (wrapSel 10000#32 v3)) (ix1 e)) = _
  rw [g1, g3]
  rfl

/-- THE MATRIX READ AT (target, source): from zero, the weights of the edges with that pair. -/
theorem adj_read (a1 : IVec S2x160000 32) (hr : ∀ i, (a1 i).toNat < 10000)
    (v1 v3 : IVec S160000 32) (v13 : FVec Ideal S10000 .f32)
    (h1 : ∀ e : Fin 160000, v1 (ix1 e) = a1 (ix2 ⟨0, by decide⟩ e))
    (h3 : ∀ e : Fin 160000, v3 (ix1 e) = a1 (ix2 ⟨1, by decide⟩ e))
    (c' r' : Fin 10240) :
    adjStage v1 v3 v13 (ix2 c' r') = Spec.adj (rowW a1 hr) (colW a1 hr) (fun c => v13 (ix1 c)) c' r' := by
  unfold adjStage
  rw [truncf_apply, scatterAdd_ideal,
    show scatter_S10240x10240_S160000x2_S160000_n_01_01_1
      = LibScatterAdd.matDims 10240 10240 160000 scatter_S10240x10240_S160000x2_S160000_n_01_01_1_wf from rfl,
    LibScatterAdd.mat_scatter_add_apply, zerosM_apply]
  unfold Spec.adj
  refine congrArg (fun s => (0 : EReal) + s) ?_
  refine Finset.sum_congr (Finset.filter_congr fun e _ => ?_) (fun e _ => w_at a1 hr v1 v3 v13 h1 h3 e)
  have hv3 : (v3 (ix1 e)).toNat < 10000 := by rw [h3]; exact hr _
  have hv1 : (v1 (ix1 e)).toNat < 10000 := by rw [h1]; exact hr _
  rw [pair0 v1 v3 e hv3, pair1 v1 v3 e hv1, h3, h1, toInt_of_lt _ (hr _), toInt_of_lt _ (hr _)]
  exact ⟨fun h => ⟨Int.ofNat.inj h.1, Int.ofNat.inj h.2⟩, fun h => ⟨congrArg Int.ofNat h.1, congrArg Int.ofNat h.2⟩⟩

/-! ## The program's buffer -/

variable (m : (ℓ : Loc nD τ sig) → Buf (Elt Ideal) ℓ) (c : Dev nD)

theorem v1_words : (V2 (F := Ideal) m c main_v1 : IVec S160000 32) = wordRow0 (V0 (F := Ideal) m c main_arg1 : IVec S2x160000 32) := by
  show after hostOps0_1 (after hostOps0 (V0 m c)) (Proc.devRef .tc main_v1) = _
  rw [after_of_writes_sub _ _ hostOps0_1_writes (by decide), g_v1]

theorem v3_words : (V2 (F := Ideal) m c main_v3 : IVec S160000 32) = wordRow1 (V0 (F := Ideal) m c main_arg1 : IVec S2x160000 32) := by
  show after hostOps0_1 (after hostOps0 (V0 m c)) (Proc.devRef .tc main_v3) = _
  rw [after_of_writes_sub _ _ hostOps0_1_writes (by decide), g_v3]

/-- WHAT THE FIRST REGION FINDS IN THE MATRIX BUFFER: the dense adjacency of the specification at the edge words'
    nodes, with the per-node factor read off the buffer that holds it. -/
theorem v45_read (hr : ∀ i, ((V0 (F := Ideal) m c main_arg1 : IVec S2x160000 32) i).toNat < 10000) (c' r' : Fin 10240) :
    (V3 (F := Ideal) m c main_v45 : S10240x10240.Idx → EReal) (ix2 c' r')
      = Spec.adj (rowW (V0 (F := Ideal) m c main_arg1 : IVec S2x160000 32) hr) (colW (V0 (F := Ideal) m c main_arg1 : IVec S2x160000 32) hr)
          (fun n => (V2 (F := Ideal) m c main_v13 : FVec Ideal S10000 .f32) (ix1 n)) c' r' := by
  show after hostOps0_2 (V2 m c) (Proc.devRef .tc main_v45) (ix2 c' r') = _
  rw [g_v45]
  exact adj_read _ hr _ _ _ (fun e => by rw [v1_words]; exact wordRow0_apply _ e)
    (fun e => by rw [v3_words]; exact wordRow1_apply _ e) c' r'

end Cert.Proof.KerAdjRead
-- ==== Proof.RefDisDef.lean ====
/-
  The reference's edges and per-node factor, as functions of the edge array.

  The edge array [2, 160000] holds each edge's source node in row 0 and its target node in row 1, as 32-bit words
  that are natural numbers below 10000. The per-node factor is the value the reference computes at its stage 13
  (1/sqrt of the degree where the degree is positive, 0 elsewhere), read at a node; it depends on the edge array
  alone.
-/
import proofs.«130334_j70351564308694_1_alg».proof.Proof.RefRead

set_option maxRecDepth 16384

noncomputable section

namespace Cert.Proof.RefSpec

open Cert.ReferenceIdeal Cert.ReferenceIdeal.ReadP Idealize.ShloMosaic Idealize.ShloMosaic.ValueIdx

/-- The source node of an edge. -/
def rowOf (a1 : IVec S2x160000 32) (hr : ∀ i, (a1 i).toNat < 10000) : Fin 160000 → Fin 10000 :=
  fun e => ⟨(a1 (ix2 ⟨0, by decide⟩ e)).toNat, hr _⟩

/-- The target node of an edge. -/
def colOf (a1 : IVec S2x160000 32) (hr : ∀ i, (a1 i).toNat < 10000) : Fin 160000 → Fin 10000 :=
  fun e => ⟨(a1 (ix2 ⟨1, by decide⟩ e)).toNat, hr _⟩

/-- The per-node factor: the reference's stage 13 read at a node, a function of the edge array alone. -/
def disOf (a1 : IVec S2x160000 32) : Fin 10000 → EReal := fun c => val_main_v13 (F := Ideal) a1 (ix1 c)

end Cert.Proof.RefSpec

end
-- ==== Proof.KerAdj.lean ====
/- The adjacency matrix the first region finds, in the reference's terms: the per-node factor the kernel program
   computes is the reference's stage of the same host operations on the same edge array, and the edges' nodes are
   the same words. -/
import proofs.«130334_j70351564308694_1_alg».proof.Proof.KerAdjRead
import proofs.«130334_j70351564308694_1_alg».proof.Proof.RefDisDef
set_option maxRecDepth 16384
noncomputable section
namespace Cert.Proof.KerAdj
open Cert.KernelIdeal Cert.KernelIdeal.Gen
open Idealize.ShloMosaic Idealize.ShloMosaic.TcCoe Idealize.ShloMosaic.ValueIdx
open Idealize.ShloMosaic.StableHlo
open Cert.Proof.KerAdjRead (wordRow0)

/-- The degree: from zero, one for every edge whose source word is the node. -/
def degStage (a1 : IVec S2x160000 32) : FVec Ideal S10000 .f32 :=
  Host.scatterAdd scatter_S10000_S160000x1_S160000_n_0_0_1
    (broadcastInDim S10000 ![] bcast_S_S10000 (constant (F := Ideal) S_ .f32 0x00000000#32))
    (broadcastInDim S160000x1 ![0] bcast_S160000_S160000x1_0 (wordRow0 a1))
    (broadcastInDim S160000 ![] bcast_S_S160000 (constant (F := Ideal) S_ .f32 0x3F800000#32))

/-- The per-node factor: one over the square root of the degree where the degree is positive, zero elsewhere. -/
def disStage (a1 : IVec S2x160000 32) : FVec Ideal S10000 .f32 :=
  select (cmpf .ogt (degStage a1) (broadcastInDim S10000 ![] bcast_S_S10000 (constant (F := Ideal) S_ .f32 0x00000000#32)))
    (Host.divf (broadcastInDim S10000 ![] bcast_S_S10000 (constant (F := Ideal) S_ .f32 0x3F800000#32)) (Host.sqrt (degStage a1)))
    (broadcastInDim S10000 ![] bcast_S_S10000 (id (constant (F := Ideal) S_ .f32 0x00000000#32)))

variable (m : (ℓ : Loc nD τ sig) → Buf (Elt Ideal) ℓ) (c : Dev nD)

set_option maxRecDepth 262144 in
/-- The first two stretches leave the per-node factor stage of the edge array. -/
theorem v13_stage : (V2 (F := Ideal) m c main_v13 : FVec Ideal S10000 .f32) = disStage (V0 (F := Ideal) m c main_arg1 : IVec S2x160000 32) := by
  dsimp only [V2, V1]; simp only [hostOps0, hostOps0_1]; after_results_simp <;> rfl

/-- The kernel program's per-node factor stage is the reference's: the same operations on the same array. -/
theorem disStage_eq (a1 : IVec S2x160000 32) : disStage a1 = Cert.ReferenceIdeal.ReadP.val_main_v13 (F := Ideal) a1 := by
  unfold disStage degStage wordRow0
  simp only [Cert.ReferenceIdeal.ReadP.val_main_v13, Cert.ReferenceIdeal.ReadP.val_main_v9, Cert.ReferenceIdeal.ReadP.val_main_v12, Cert.ReferenceIdeal.ReadP.val_main_call0_v1, Cert.ReferenceIdeal.ReadP.val_main_call0_v0, Cert.ReferenceIdeal.ReadP.val_main_cst_3, Cert.ReferenceIdeal.ReadP.val_main_v7, Cert.ReferenceIdeal.ReadP.val_main_v8, Cert.ReferenceIdeal.ReadP.val_main_cst_1, Cert.ReferenceIdeal.ReadP.val_main_v10, Cert.ReferenceIdeal.ReadP.val_main_v11, Cert.ReferenceIdeal.ReadP.val_main_cst_2, Cert.ReferenceIdeal.ReadP.val_main_v5, Cert.ReferenceIdeal.ReadP.val_main_v6, Cert.ReferenceIdeal.ReadP.val_main_v4, Cert.ReferenceIdeal.ReadP.val_main_cst, Cert.ReferenceIdeal.ReadP.val_main_cst_0, Cert.ReferenceIdeal.ReadP.val_main_v1, Cert.ReferenceIdeal.ReadP.val_main_v0]
  rfl

/-- WHAT THE FIRST REGION FINDS IN THE MATRIX BUFFER: the dense adjacency of the specification. -/
theorem v45_eq (hr : ∀ i, ((V0 (F := Ideal) m c main_arg1 : IVec S2x160000 32) i).toNat < 10000) (c' r' : Fin 10240) :
    (V3 (F := Ideal) m c main_v45 : S10240x10240.Idx → EReal) (ix2 c' r')
      = Spec.adj (RefSpec.rowOf (V0 (F := Ideal) m c main_arg1 : IVec S2x160000 32) hr) (RefSpec.colOf (V0 (F := Ideal) m c main_arg1 : IVec S2x160000 32) hr) (RefSpec.disOf (V0 (F := Ideal) m c main_arg1 : IVec S2x160000 32)) c' r' := by
  rw [KerAdjRead.v45_read m c hr c' r', v13_stage, disStage_eq]
  rfl

end Cert.Proof.KerAdj
-- ==== Proof.LibScatterSet.lean ====
/-
  A scatter whose body returns the update ("set"), read at one index of the result.

  `Host.scatter d (fun _ b => b) x idx upd` is a left fold over the update indices, each step replacing one element of
  the array (or none, when the update falls outside). Three layers, each general:

  * a fold of such steps over any list, read at one place: the starting value where no step lands, and the value of the
    one step that lands there when there is exactly one (`foldl_set_miss`, `foldl_set_hit`);
  * the scatter itself, when every update index `j` lands at `φ j` for an injective `φ`: the update `upd j` at `φ j`,
    the operand away from `φ`'s range (`scatter_set_hit`, `scatter_set_miss`);
  * the window form, operand and updates of one rank, every update index `j` landing at `st + j` axis by axis: the
    result at `i` is `upd (i - st)` inside the window `st ≤ i < st + (update's size)` and the operand outside it
    (`scatter_set_window`).
-/
import Idealize.ShloMosaic.PureOps

namespace Cert.ScatterSet

open Idealize.ShloMosaic

/-! ## A fold of "set one place" steps, read at one place -/

section Fold

variable {ι κ α : Type}

/-- Where no step of the fold lands on `i`, the fold leaves `i`'s value alone. `g n` is the place step `n` writes
    (if any); `hm` says a step that does not write `i` leaves `i`'s value. -/
theorem foldl_set_miss (step : (ι → α) → κ → (ι → α)) (g : κ → Option ι)
    (hm : ∀ r n i, g n ≠ some i → step r n i = r i)
    (l : List κ) (x : ι → α) (i : ι) (h : ∀ n ∈ l, g n ≠ some i) :
    l.foldl step x i = x i := by
  induction l generalizing x with
  | nil => rfl
  | cons a l ih =>
    rw [List.foldl_cons, ih (step x a) (fun n hn => h n (List.mem_cons_of_mem a hn))]
    exact hm x a i (h a List.mem_cons_self)

/-- Where exactly one step `n0` of the fold lands on `i`, the fold's value at `i` is that step's value `v n0`.
    `hs` says a step that writes `i` puts `v n` there, whatever was there before. -/
theorem foldl_set_hit (step : (ι → α) → κ → (ι → α)) (g : κ → Option ι) (v : κ → α)
    (hs : ∀ r n i, g n = some i → step r n i = v n)
    (hm : ∀ r n i, g n ≠ some i → step r n i = r i)
    (l : List κ) (x : ι → α) (i : ι) (n0 : κ) (hmem : n0 ∈ l) (hland : g n0 = some i)
    (huniq : ∀ n ∈ l, g n = some i → n = n0) :
    l.foldl step x i = v n0 := by
  induction l generalizing x with
  | nil => cases hmem
  | cons a l ih =>
    rw [List.foldl_cons]
    by_cases hin : n0 ∈ l
    · exact ih (step x a) hin (fun n hn => huniq n (List.mem_cons_of_mem a hn))
    · have ha : a = n0 := by
        rcases List.mem_cons.1 hmem with h | h
        · exact h.symm
        · exact absurd h hin
      subst ha
      rw [foldl_set_miss step g hm l (step x a) i
        (fun n hn hg => hin (huniq n (List.mem_cons_of_mem a hn) hg ▸ hn))]
      exact hs x a i hland

end Fold

/-! ## The scatter with a "set" body -/

section Scatter

variable {α : Type} {s si u : Shape} {w : Nat}

/-- The operand's value survives at an index no update lands on. -/
theorem scatter_set_miss' (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  refine foldl_set_miss _ (fun n => d.resultIdx? (u.rowMajor.symm n) idx) ?_ _ x i (fun n _ => h _)
  intro r n i' hne
  dsimp only
  cases hres : d.resultIdx? (u.rowMajor.symm n) idx with
  | none => rfl
  | some i0 =>
    have : i' ≠ i0 := fun e => hne (by rw [hres, e])
    dsimp only
    rw [if_neg this]

/-- When every update index `j` lands at `φ j` and `φ` is injective, the result holds `upd j` at `φ j`. -/
theorem scatter_set_hit (d : ScatterDims s si u) (x : s.Idx → α) (idx : IVec si w) (upd : u.Idx → α)
    (φ : u.Idx → s.Idx) (hφ : ∀ j, d.resultIdx? j idx = some (φ j)) (hinj : Function.Injective φ) (j : u.Idx) :
    Host.scatter d (fun _ b => b) x idx upd (φ j) = upd j := by
  unfold Host.scatter
  refine (foldl_set_hit _ (fun n => d.resultIdx? (u.rowMajor.symm n) idx) (fun n => upd (u.rowMajor.symm n))
    ?_ ?_ (List.finRange u.numel) x (φ j) (u.rowMajor j) (List.mem_finRange _) ?_ ?_).trans ?_
  · intro r n i' he
    dsimp only
    cases hres : d.resultIdx? (u.rowMajor.symm n) idx with
    | none => rw [hres] at he; cases he
    | some i0 =>
      have : i' = i0 := by rw [hres] at he; exact (Option.some.inj he).symm
      dsimp only
      rw [if_pos this]
  · intro r n i' hne
    dsimp only
    cases hres : d.resultIdx? (u.rowMajor.symm n) idx with
    | none => rfl
    | some i0 =>
      have : i' ≠ i0 := fun e => hne (by rw [hres, e])
      dsimp only
      rw [if_neg this]
  · show d.resultIdx? (u.rowMajor.symm (u.rowMajor j)) idx = some (φ j)
    rw [Equiv.symm_apply_apply]; exact hφ j
  · intro n _ hn
    have hn' : d.resultIdx? (u.rowMajor.symm n) idx = some (φ j) := hn
    rw [hφ] at hn'
    have := hinj (Option.some.inj hn')
    rw [← this, Equiv.apply_symm_apply]
  · show upd (u.rowMajor.symm (u.rowMajor j)) = upd j
    rw [Equiv.symm_apply_apply]

/-- When every update index `j` lands at `φ j`, the operand's value survives away from `φ`'s range. -/
theorem scatter_set_miss (d : ScatterDims s si u) (x : s.Idx → α) (idx : IVec si w) (upd : u.Idx → α)
    (φ : u.Idx → s.Idx) (hφ : ∀ j, d.resultIdx? j idx = some (φ j)) (i : s.Idx) (h : ∀ j, φ j ≠ i) :
    Host.scatter d (fun _ b => b) x idx upd i = x i :=
  scatter_set_miss' d x idx upd i (fun j e => h j (by rw [hφ] at e; exact Option.some.inj e))

end Scatter

/-! ## The window form: operand and updates of one rank, the updates written as one block at `st` -/

section Window

variable {α : Type} {r : Nat} {ss us : Fin r → Nat} {si : Shape} {w : Nat}

/-- A scatter of a block: operand `⟨r, ss⟩`, updates `⟨r, us⟩`, every update index `j` starting at `st` (`hstart`) with
    window coordinate `j a` on every axis (`hwin`), the block inside the operand (`hfit`). The result at `i` is the
    update at `i - st` when `i` is in the block `st ≤ i < st + us`, and the operand's own value otherwise. -/
theorem scatter_set_window (d : ScatterDims ⟨r, ss⟩ si ⟨r, us⟩) (x : (⟨r, ss⟩ : Shape).Idx → α) (idx : IVec si w)
    (upd : (⟨r, us⟩ : Shape).Idx → α) (st : Fin r → Nat)
    (hstart : ∀ j a, d.start j idx a = (st a : Int)) (hwin : ∀ j a, d.window j a = (j a).val)
    (hfit : ∀ a, st a + us a ≤ ss a) (i : (⟨r, ss⟩ : Shape).Idx) :
    Host.scatter d (fun _ b => b) x idx upd i =
      if h : ∀ a, st a ≤ (i a).val ∧ (i a).val < st a + us a then
        upd (fun a => ⟨(i a).val - st a, by show (i a).val - st a < us a; have := h a; omega⟩)
      else x i := by
  have hj : ∀ (j : (⟨r, us⟩ : Shape).Idx) a, (j a).val < us a := fun j a => (j a).isLt
  let φ : (⟨r, us⟩ : Shape).Idx → (⟨r, ss⟩ : Shape).Idx := fun j a =>
    ⟨st a + (j a).val, by show st a + (j a).val < ss a; have := hfit a; have := hj j a; omega⟩
  have hφv : ∀ j a, ((φ j) a).val = st a + (j a).val := fun _ _ => rfl
  have hφ : ∀ j, d.resultIdx? j idx = some (φ j) := by
    intro j
    unfold ScatterDims.resultIdx?
    have hall : ∀ a, 0 ≤ d.start j idx a + d.window j a ∧
        d.start j idx a + d.window j a < (⟨r, ss⟩ : Shape).size a := by
      intro a
      rw [hstart, hwin]
      have := hfit a; have := hj j a
      refine ⟨by omega, ?_⟩
      show (st a : Int) + ((j a).val : Nat) < ((ss a : Nat) : Int)
      omega
    rw [dif_pos hall]
    congr 1
    funext a
    apply Fin.ext
    show (d.start j idx a + d.window j a).toNat = st a + (j a).val
    rw [hstart, hwin]
    omega
  have hinj : Function.Injective φ := by
    intro j j' e
    funext a
    have := congrArg (fun k => (k a).val) e
    apply Fin.ext
    simp only [hφv] at this
    omega
  by_cases h : ∀ a, st a ≤ (i a).val ∧ (i a).val < st a + us a
  · rw [dif_pos h]
    have hi : i = φ (fun a => ⟨(i a).val - st a, by show (i a).val - st a < us a; have := h a; omega⟩) := by
      funext a; apply Fin.ext; show (i a).val = st a + ((i a).val - st a); have := h a; omega
    conv_lhs => rw [hi]
    exact scatter_set_hit d x idx upd φ hφ hinj _
  · rw [dif_neg h]
    refine scatter_set_miss d x idx upd φ hφ i (fun j e => h (fun a => ?_))
    have := congrArg (fun k => (k a).val) e
    simp only [hφv] at this
    have := hj j a
    omega

end Window

end Cert.ScatterSet
-- ==== Proof.KerPad.lean ====
/- The padded features the first region finds: the node features written as one block of 10000 rows at row 0 into a
   [10240, 128] array of zeros. Read at (a, b): the feature at (a, b) when a < 10000, and zero below the block. -/
import proofs.«130334_j70351564308694_1_alg».proof.Proof.Gen.KernelIdeal.Regions
import proofs.«130334_j70351564308694_1_alg».proof.Proof.LibScatterSet
import proofs.«130334_j70351564308694_1_alg».proof.Proof.Spec
import Idealize.ShloMosaic.Lib.Pipeline.Value
import Idealize.ShloMosaic.Lib.ValueIdx
import Idealize.ShloMosaic.Lib.StableHlo.Run
import Idealize.ShloMosaic.PureOps.Ideal.Laws
set_option maxRecDepth 16384
noncomputable section
namespace Cert.Proof.KerPad
open Cert.KernelIdeal Cert.KernelIdeal.Gen
open Idealize.ShloMosaic Idealize.ShloMosaic.TcCoe Idealize.ShloMosaic.ValueIdx
open Idealize.ShloMosaic.StableHlo

/-- The [10240, 128] array of zeros. -/
def zeros128 : FVec Ideal S10240x128 .f32 :=
  broadcastInDim S10240x128 ![] bcast_S_S10240x128 (constant (F := Ideal) S_ .f32 0x00000000#32)

/-- The one start index: row 0. -/
def start0 : IVec S1 32 := broadcastInDim S1 ![] bcast_S_S1 (constantI S_ 32 0#32)

/-- The stretch before the first region leaves the features scattered, as one block, into the zeros. -/
theorem g_v48 (W : Valuation τ sig (Elt Ideal)) :
    (after hostOps0_2 W (Proc.devRef .tc main_v48) : S10240x128.Idx → EReal)
      = Host.scatter scatter_S10240x128_S1_S10000x128_01_n_0_0 (fun _ b => b) zeros128 start0
          (W (Proc.devRef .tc main_arg0) : S10000x128.Idx → EReal) := by
  simp only [hostOps0_2]; after_results_simp <;> rfl

theorem zeros128_apply (i : S10240x128.Idx) : zeros128 i = 0 := by
  unfold zeros128
  rw [broadcastInDim_apply _ bcast_S_S10240x128 _ i ix0 (fun a => a.elim0)]
  show FloatOps.ofBits (F := Ideal) .f32 0x00000000#32 = 0
  rw [Ideal.ofBits_def, Ideal.ofBits_zero_f32]

theorem start0_apply (k : S1.Idx) : start0 k = 0#32 := by
  unfold start0
  rw [broadcastInDim_apply _ bcast_S_S1 _ k ix0 (fun a => a.elim0)]
  rfl

/-- Every update starts at (0, 0). -/
theorem pad_start (j : S10000x128.Idx) (a : Fin 2) :
    scatter_S10240x128_S1_S10000x128_01_n_0_0.start j start0 a = (((![0, 0] : Fin 2 → Nat) a : Nat) : Int) := by
  unfold ScatterDims.start
  split
  · rw [start0_apply]
    match a with
    | ⟨0, _⟩ => rfl
    | ⟨1, _⟩ => rfl
  · match a with
    | ⟨0, _⟩ => rfl
    | ⟨1, _⟩ => rfl

/-- The window coordinate of an update on each axis is its own coordinate. -/
theorem pad_window (j : S10000x128.Idx) (a : Fin 2) :
    scatter_S10240x128_S1_S10000x128_01_n_0_0.window j a = (j a).val := by
  match a with
  | ⟨0, _⟩ => rfl
  | ⟨1, _⟩ => rfl

/-- THE PADDED FEATURES READ AT AN INDEX. -/
theorem pad_read (x0 : S10000x128.Idx → EReal) (a : Fin 10240) (b : Fin 128) :
    Host.scatter scatter_S10240x128_S1_S10000x128_01_n_0_0 (fun _ b => b) zeros128 start0 x0 (ix2 a b)
      = Spec.pad (fun r f => x0 (ix2 r f)) a b := by
  rw [Cert.ScatterSet.scatter_set_window scatter_S10240x128_S1_S10000x128_01_n_0_0 zeros128 start0 x0 ![0, 0]
    pad_start pad_window (by decide) (ix2 a b)]
  unfold Spec.pad
  have hb := b.isLt
  by_cases h : a.val < 10000
  · rw [dif_pos h, dif_pos (fun ax => by
      match ax with
      | ⟨0, _⟩ => exact ⟨Nat.zero_le _, by show a.val < 0 + 10000; omega⟩
      | ⟨1, _⟩ => exact ⟨Nat.zero_le _, by show b.val < 0 + 128; omega⟩)]
    refine congrArg x0 (funext fun ax => Fin.ext ?_)
    match ax with
    | ⟨0, _⟩ => rfl
    | ⟨1, _⟩ => rfl
  · rw [dif_neg h, dif_neg (fun hh => h (by have := (hh ⟨0, by decide⟩).2; show a.val < 10000; exact (by simpa using this)))]
    exact zeros128_apply _

variable (m : (ℓ : Loc nD τ sig) → Buf (Elt Ideal) ℓ) (c : Dev nD)

/-- What the first region finds in the feature buffer. -/
theorem v48_eq (a : Fin 10240) (b : Fin 128) :
    (V3 (F := Ideal) m c main_v48 : S10240x128.Idx → EReal) (ix2 a b)
      = Spec.pad (fun r f => (V0 (F := Ideal) m c main_arg0 : S10000x128.Idx → EReal) (ix2 r f)) a b := by
  show after hostOps0_2 (V2 m c) (Proc.devRef .tc main_v48) (ix2 a b) = _
  rw [g_v48]
  have e0 : (V2 (F := Ideal) m c main_arg0 : S10000x128.Idx → EReal) = V0 (F := Ideal) m c main_arg0 := by
    show after hostOps0_1 (after hostOps0 (V0 m c)) (Proc.devRef .tc main_arg0) = _
    rw [after_of_writes_sub _ _ hostOps0_1_writes (by decide), after_of_writes_sub _ _ hostOps0_writes (by decide)]
  rw [e0]
  exact pad_read _ a b

end Cert.Proof.KerPad
-- ==== Proof.KerOut.lean ====
/- The kernel program's two results as functions of its arguments: the conditional form with the adjacency matrix
   and the padded features read off the program. -/
import proofs.«130334_j70351564308694_1_alg».proof.Proof.KerVals
import proofs.«130334_j70351564308694_1_alg».proof.Proof.KerAdj
import proofs.«130334_j70351564308694_1_alg».proof.Proof.KerPad
set_option maxRecDepth 16384
noncomputable section
namespace Cert.Proof.KerVals
open Cert.KernelIdeal Cert.KernelIdeal.Gen
open Idealize.ShloMosaic Idealize.ShloMosaic.TcCoe Idealize.ShloMosaic.ValueIdx
open Cert.Proof.Spec Cert.Proof.KerMath

/-- THE KERNEL PROGRAM'S TWO RESULTS as functions of its arguments: with the edge words below 10000 and the ten regions'
    outputs as stated, each result is the dense specification at the edges' source and target nodes, the per-node factor,
    the features, the three layers' slabs and biases and that head's weights and bias. -/
theorem kerVals (m : (ℓ : Loc nD τ sig) → Buf (Elt Ideal) ℓ) (outs : Outs (F := Ideal)) (c : Dev nD)
    (hr : ∀ i, ((V0 (F := Ideal) m c main_arg1 : IVec S2x160000 32) i).toNat < 10000)
    (h0 : PlainOut (V3 (F := Ideal) m c main_v45 : S10240x10240.Idx → EReal) (V3 (F := Ideal) m c main_v48 : S10240x128.Idx → EReal) (outs 4 main_v49 c : S10240x128.Idx → EReal))
    (h1 : AffineOut (V4 (F := Ideal) m outs c main_v45 : S10240x10240.Idx → EReal) (V4 (F := Ideal) m outs c main_v49 : S10240x128.Idx → EReal) (V4 (F := Ideal) m outs c main_v48 : S10240x128.Idx → EReal) (outs 5 main_v50 c : S10240x128.Idx → EReal))
    (h2 : DenseOut (V6 (F := Ideal) m outs c main_v51 : S10240x384.Idx → EReal) (V6 (F := Ideal) m outs c main_v52 : S384x128.Idx → EReal) (V6 (F := Ideal) m outs c main_v53 : S1x128.Idx → EReal) (outs 7 main_v54 c : S10240x128.Idx → EReal))
    (h3 : PlainOut (V7 (F := Ideal) m outs c main_v45 : S10240x10240.Idx → EReal) (V7 (F := Ideal) m outs c main_v54 : S10240x128.Idx → EReal) (outs 8 main_v55 c : S10240x128.Idx → EReal))
    (h4 : AffineOut (V8 (F := Ideal) m outs c main_v45 : S10240x10240.Idx → EReal) (V8 (F := Ideal) m outs c main_v55 : S10240x128.Idx → EReal) (V8 (F := Ideal) m outs c main_v54 : S10240x128.Idx → EReal) (outs 9 main_v56 c : S10240x128.Idx → EReal))
    (h5 : DenseOut (V10 (F := Ideal) m outs c main_v57 : S10240x384.Idx → EReal) (V10 (F := Ideal) m outs c main_v58 : S384x256.Idx → EReal) (V10 (F := Ideal) m outs c main_v59 : S1x256.Idx → EReal) (outs 11 main_v60 c : S10240x256.Idx → EReal))
    (h6 : PlainOut (V11 (F := Ideal) m outs c main_v45 : S10240x10240.Idx → EReal) (V11 (F := Ideal) m outs c main_v60 : S10240x256.Idx → EReal) (outs 12 main_v61 c : S10240x256.Idx → EReal))
    (h7 : AffineOut (V12 (F := Ideal) m outs c main_v45 : S10240x10240.Idx → EReal) (V12 (F := Ideal) m outs c main_v61 : S10240x256.Idx → EReal) (V12 (F := Ideal) m outs c main_v60 : S10240x256.Idx → EReal) (outs 13 main_v62 c : S10240x256.Idx → EReal))
    (h8 : DenseOut (V14 (F := Ideal) m outs c main_v63 : S10240x768.Idx → EReal) (V14 (F := Ideal) m outs c main_v64 : S768x512.Idx → EReal) (V14 (F := Ideal) m outs c main_v65 : S1x512.Idx → EReal) (outs 15 main_v66 c : S10240x512.Idx → EReal))
    (h9 : HeadOut (V16 (F := Ideal) m outs c main_v66 : S10240x512.Idx → EReal) (V16 (F := Ideal) m outs c main_v67 : S512x512.Idx → EReal) (V16 (F := Ideal) m outs c main_v69 : S1x512.Idx → EReal) (outs 17 main_v70 c : S10240x512.Idx → EReal)) :
    (∀ (r : Fin 10000) (o : Fin 256), (V18 (F := Ideal) m outs c main_v71 : S10000x256.Idx → EReal) (ix2 r o)
      = kerOut (RefSpec.rowOf (V0 (F := Ideal) m c main_arg1 : IVec S2x160000 32) hr) (RefSpec.colOf (V0 (F := Ideal) m c main_arg1 : IVec S2x160000 32) hr) (RefSpec.disOf (V0 (F := Ideal) m c main_arg1 : IVec S2x160000 32))
          (fun r f => (V0 (F := Ideal) m c main_arg0 : S10000x128.Idx → EReal) (ix2 r f)) (fun k i o => (V0 (F := Ideal) m c main_arg2 : S3x128x128.Idx → EReal) (ix3 k i o)) (fun o => (V0 (F := Ideal) m c main_arg3 : S128.Idx → EReal) (ix1 o)) (fun k i o => (V0 (F := Ideal) m c main_arg4 : S3x128x256.Idx → EReal) (ix3 k i o)) (fun o => (V0 (F := Ideal) m c main_arg5 : S256.Idx → EReal) (ix1 o)) (fun k i o => (V0 (F := Ideal) m c main_arg6 : S3x256x512.Idx → EReal) (ix3 k i o)) (fun o => (V0 (F := Ideal) m c main_arg7 : S512.Idx → EReal) (ix1 o))
          (fun i o => (V0 (F := Ideal) m c main_arg8 : S512x256.Idx → EReal) (ix2 i o)) (fun o => (V0 (F := Ideal) m c main_arg9 : S256.Idx → EReal) (ix1 o)) r o)
    ∧ (∀ (r : Fin 10000) (o : Fin 256), (V18 (F := Ideal) m outs c main_v72 : S10000x256.Idx → EReal) (ix2 r o)
      = kerOut (RefSpec.rowOf (V0 (F := Ideal) m c main_arg1 : IVec S2x160000 32) hr) (RefSpec.colOf (V0 (F := Ideal) m c main_arg1 : IVec S2x160000 32) hr) (RefSpec.disOf (V0 (F := Ideal) m c main_arg1 : IVec S2x160000 32))
          (fun r f => (V0 (F := Ideal) m c main_arg0 : S10000x128.Idx → EReal) (ix2 r f)) (fun k i o => (V0 (F := Ideal) m c main_arg2 : S3x128x128.Idx → EReal) (ix3 k i o)) (fun o => (V0 (F := Ideal) m c main_arg3 : S128.Idx → EReal) (ix1 o)) (fun k i o => (V0 (F := Ideal) m c main_arg4 : S3x128x256.Idx → EReal) (ix3 k i o)) (fun o => (V0 (F := Ideal) m c main_arg5 : S256.Idx → EReal) (ix1 o)) (fun k i o => (V0 (F := Ideal) m c main_arg6 : S3x256x512.Idx → EReal) (ix3 k i o)) (fun o => (V0 (F := Ideal) m c main_arg7 : S512.Idx → EReal) (ix1 o))
          (fun i o => (V0 (F := Ideal) m c main_arg10 : S512x256.Idx → EReal) (ix2 i o)) (fun o => (V0 (F := Ideal) m c main_arg11 : S256.Idx → EReal) (ix1 o)) r o) :=
  kerVals_of m outs c _ _ _ (KerAdj.v45_eq m c hr) (KerPad.v48_eq m c) h0 h1 h2 h3 h4 h5 h6 h7 h8 h9

end Cert.Proof.KerVals
-- ==== Proof.RefIdx.lean ====
/-
  The reference's index words.

  The edge array [2, 160000] is cut into its two rows, the source words and the target words. Every use of a word
  as a gather index first adds 10000 to it under a select when it is negative as a signed integer; a word that is
  a natural number below 10000 is not negative, so the select keeps it, and its signed reading is its unsigned one.
  This file reads each of those stages at an edge: it is the word of the edge array at (0, e) or (1, e).
-/
import proofs.«130334_j70351564308694_1_alg».proof.Proof.RefRead

set_option maxRecDepth 16384

noncomputable section

namespace Cert.Proof.RefSpec

open Cert.ReferenceIdeal Cert.ReferenceIdeal.ReadP Idealize.ShloMosaic Idealize.ShloMosaic.ValueIdx

/-- A 32-bit word below 10000 reads the same signed and unsigned. -/
theorem toInt_of_lt (w : BitVec 32) (h : w.toNat < 10000) : w.toInt = (w.toNat : Int) := by
  unfold BitVec.toInt
  split <;> omega

/-- A 32-bit word below 10000 is not negative, so "add 10000 if negative" keeps it. -/
theorem wrap_keep (w : BitVec 32) (h : w.toNat < 10000) :
    Scalar.select (IntOp.cmpi .slt w 0#32) (IntOp.addi w 10000#32) w = w := by
  have hc : IntOp.cmpi .slt w 0#32 = 0#1 := by
    unfold IntOp.cmpi
    have : ¬ (w.toInt < (0#32 : BitVec 32).toInt) := by
      rw [toInt_of_lt w h]; simp
    simp only [BitVec.slt, this, decide_false]
    rfl
  rw [hc]
  exact select_zero _ _

/-- Stage 1: the source word of edge `e` is the edge array at (0, e). -/
theorem rowWord (a1 : IVec S2x160000 32) (e : Fin 160000) :
    val_main_v1 (F := Ideal) a1 (ix1 e) = a1 (ix2 ⟨0, by decide⟩ e) := by
  rw [val_main_v1_apply, val_main_v0_apply]
  refine congrArg a1 (funext fun a => Fin.ext ?_)
  have he := e.isLt
  match a with
  | ⟨0, _⟩ => rfl
  | ⟨1, _⟩ => show e.val % 160000 = e.val; omega

/-- Stage 3: the target word of edge `e` is the edge array at (1, e). -/
theorem colWord (a1 : IVec S2x160000 32) (e : Fin 160000) :
    val_main_v3 (F := Ideal) a1 (ix1 e) = a1 (ix2 ⟨1, by decide⟩ e) := by
  rw [val_main_v3_apply, val_main_v2_apply]
  refine congrArg a1 (funext fun a => Fin.ext ?_)
  have he := e.isLt
  match a with
  | ⟨0, _⟩ => rfl
  | ⟨1, _⟩ => show e.val % 160000 = e.val; omega

/-- Stage 18: the source word, kept by the select since it is not negative. -/
theorem sel18 (a1 : IVec S2x160000 32) (hr : ∀ i, (a1 i).toNat < 10000) (e : Fin 160000) :
    val_main_v18 (F := Ideal) a1 (ix1 e) = a1 (ix2 ⟨0, by decide⟩ e) := by
  rw [val_main_v18_apply, val_main_v15_apply, val_main_v17_apply, val_main_v14_apply, val_main_v16_apply,
    val_main_c_apply, val_main_c_4_apply, rowWord]
  exact wrap_keep _ (hr _)

/-- Stage 19: the same word as a column of start indices. -/
theorem col19 (a1 : IVec S2x160000 32) (hr : ∀ i, (a1 i).toNat < 10000) (e : Fin 160000) :
    val_main_v19 (F := Ideal) a1 (ix2 e ⟨0, Nat.one_pos⟩) = a1 (ix2 ⟨0, by decide⟩ e) := by
  rw [val_main_v19_apply, show idx_main_v19 (ix2 e ⟨0, Nat.one_pos⟩) = ix1 e from funext fun a => Fin.ext (by match a with | ⟨0, _⟩ => rfl)]
  exact sel18 a1 hr e

/-- Stage 26: the target word, kept by the select since it is not negative. -/
theorem sel26 (a1 : IVec S2x160000 32) (hr : ∀ i, (a1 i).toNat < 10000) (e : Fin 160000) :
    val_main_v26 (F := Ideal) a1 (ix1 e) = a1 (ix2 ⟨1, by decide⟩ e) := by
  rw [val_main_v26_apply, val_main_v23_apply, val_main_v25_apply, val_main_v22_apply, val_main_v24_apply,
    val_main_c_5_apply, val_main_c_6_apply, colWord]
  exact wrap_keep _ (hr _)

/-- Stage 27: the same word as a column of start indices. -/
theorem col27 (a1 : IVec S2x160000 32) (hr : ∀ i, (a1 i).toNat < 10000) (e : Fin 160000) :
    val_main_v27 (F := Ideal) a1 (ix2 e ⟨0, Nat.one_pos⟩) = a1 (ix2 ⟨1, by decide⟩ e) := by
  rw [val_main_v27_apply, show idx_main_v27 (ix2 e ⟨0, Nat.one_pos⟩) = ix1 e from funext fun a => Fin.ext (by match a with | ⟨0, _⟩ => rfl)]
  exact sel26 a1 hr e

/-- Stage 35: the source word, kept by the select since it is not negative. -/
theorem sel35 (a1 : IVec S2x160000 32) (hr : ∀ i, (a1 i).toNat < 10000) (e : Fin 160000) :
    val_main_v35 (F := Ideal) a1 (ix1 e) = a1 (ix2 ⟨0, by decide⟩ e) := by
  rw [val_main_v35_apply, val_main_v32_apply, val_main_v34_apply, val_main_v31_apply, val_main_v33_apply,
    val_main_c_7_apply, val_main_c_8_apply, rowWord]
  exact wrap_keep _ (hr _)

/-- Stage 36: the same word as a column of start indices. -/
theorem col36 (a1 : IVec S2x160000 32) (hr : ∀ i, (a1 i).toNat < 10000) (e : Fin 160000) :
    val_main_v36 (F := Ideal) a1 (ix2 e ⟨0, Nat.one_pos⟩) = a1 (ix2 ⟨0, by decide⟩ e) := by
  rw [val_main_v36_apply, show idx_main_v36 (ix2 e ⟨0, Nat.one_pos⟩) = ix1 e from funext fun a => Fin.ext (by match a with | ⟨0, _⟩ => rfl)]
  exact sel35 a1 hr e

/-- Stage 48: the source word, kept by the select since it is not negative. -/
theorem sel48 (a1 : IVec S2x160000 32) (hr : ∀ i, (a1 i).toNat < 10000) (e : Fin 160000) :
    val_main_v48 (F := Ideal) a1 (ix1 e) = a1 (ix2 ⟨0, by decide⟩ e) := by
  rw [val_main_v48_apply, val_main_v45_apply, val_main_v47_apply, val_main_v44_apply, val_main_v46_apply,
    val_main_c_10_apply, val_main_c_11_apply, rowWord]
  exact wrap_keep _ (hr _)

/-- Stage 49: the same word as a column of start indices. -/
theorem col49 (a1 : IVec S2x160000 32) (hr : ∀ i, (a1 i).toNat < 10000) (e : Fin 160000) :
    val_main_v49 (F := Ideal) a1 (ix2 e ⟨0, Nat.one_pos⟩) = a1 (ix2 ⟨0, by decide⟩ e) := by
  rw [val_main_v49_apply, show idx_main_v49 (ix2 e ⟨0, Nat.one_pos⟩) = ix1 e from funext fun a => Fin.ext (by match a with | ⟨0, _⟩ => rfl)]
  exact sel48 a1 hr e

/-- Stage 79: the source word, kept by the select since it is not negative. -/
theorem sel79 (a1 : IVec S2x160000 32) (hr : ∀ i, (a1 i).toNat < 10000) (e : Fin 160000) :
    val_main_v79 (F := Ideal) a1 (ix1 e) = a1 (ix2 ⟨0, by decide⟩ e) := by
  rw [val_main_v79_apply, val_main_v76_apply, val_main_v78_apply, val_main_v75_apply, val_main_v77_apply,
    val_main_c_14_apply, val_main_c_15_apply, rowWord]
  exact wrap_keep _ (hr _)

/-- Stage 80: the same word as a column of start indices. -/
theorem col80 (a1 : IVec S2x160000 32) (hr : ∀ i, (a1 i).toNat < 10000) (e : Fin 160000) :
    val_main_v80 (F := Ideal) a1 (ix2 e ⟨0, Nat.one_pos⟩) = a1 (ix2 ⟨0, by decide⟩ e) := by
  rw [val_main_v80_apply, show idx_main_v80 (ix2 e ⟨0, Nat.one_pos⟩) = ix1 e from funext fun a => Fin.ext (by match a with | ⟨0, _⟩ => rfl)]
  exact sel79 a1 hr e

/-- Stage 92: the source word, kept by the select since it is not negative. -/
theorem sel92 (a1 : IVec S2x160000 32) (hr : ∀ i, (a1 i).toNat < 10000) (e : Fin 160000) :
    val_main_v92 (F := Ideal) a1 (ix1 e) = a1 (ix2 ⟨0, by decide⟩ e) := by
  rw [val_main_v92_apply, val_main_v89_apply, val_main_v91_apply, val_main_v88_apply, val_main_v90_apply,
    val_main_c_17_apply, val_main_c_18_apply, rowWord]
  exact wrap_keep _ (hr _)

/-- Stage 93: the same word as a column of start indices. -/
theorem col93 (a1 : IVec S2x160000 32) (hr : ∀ i, (a1 i).toNat < 10000) (e : Fin 160000) :
    val_main_v93 (F := Ideal) a1 (ix2 e ⟨0, Nat.one_pos⟩) = a1 (ix2 ⟨0, by decide⟩ e) := by
  rw [val_main_v93_apply, show idx_main_v93 (ix2 e ⟨0, Nat.one_pos⟩) = ix1 e from funext fun a => Fin.ext (by match a with | ⟨0, _⟩ => rfl)]
  exact sel92 a1 hr e

/-- Stage 123: the source word, kept by the select since it is not negative. -/
theorem sel123 (a1 : IVec S2x160000 32) (hr : ∀ i, (a1 i).toNat < 10000) (e : Fin 160000) :
    val_main_v123 (F := Ideal) a1 (ix1 e) = a1 (ix2 ⟨0, by decide⟩ e) := by
  rw [val_main_v123_apply, val_main_v120_apply, val_main_v122_apply, val_main_v119_apply, val_main_v121_apply,
    val_main_c_21_apply, val_main_c_22_apply, rowWord]
  exact wrap_keep _ (hr _)

/-- Stage 124: the same word as a column of start indices. -/
theorem col124 (a1 : IVec S2x160000 32) (hr : ∀ i, (a1 i).toNat < 10000) (e : Fin 160000) :
    val_main_v124 (F := Ideal) a1 (ix2 e ⟨0, Nat.one_pos⟩) = a1 (ix2 ⟨0, by decide⟩ e) := by
  rw [val_main_v124_apply, show idx_main_v124 (ix2 e ⟨0, Nat.one_pos⟩) = ix1 e from funext fun a => Fin.ext (by match a with | ⟨0, _⟩ => rfl)]
  exact sel123 a1 hr e

/-- Stage 136: the source word, kept by the select since it is not negative. -/
theorem sel136 (a1 : IVec S2x160000 32) (hr : ∀ i, (a1 i).toNat < 10000) (e : Fin 160000) :
    val_main_v136 (F := Ideal) a1 (ix1 e) = a1 (ix2 ⟨0, by decide⟩ e) := by
  rw [val_main_v136_apply, val_main_v133_apply, val_main_v135_apply, val_main_v132_apply, val_main_v134_apply,
    val_main_c_24_apply, val_main_c_25_apply, rowWord]
  exact wrap_keep _ (hr _)

/-- Stage 137: the same word as a column of start indices. -/
theorem col137 (a1 : IVec S2x160000 32) (hr : ∀ i, (a1 i).toNat < 10000) (e : Fin 160000) :
    val_main_v137 (F := Ideal) a1 (ix2 e ⟨0, Nat.one_pos⟩) = a1 (ix2 ⟨0, by decide⟩ e) := by
  rw [val_main_v137_apply, show idx_main_v137 (ix2 e ⟨0, Nat.one_pos⟩) = ix1 e from funext fun a => Fin.ext (by match a with | ⟨0, _⟩ => rfl)]
  exact sel136 a1 hr e

/-- Stage 6: the source word as a column of scatter indices. -/
theorem col6 (a1 : IVec S2x160000 32) (e : Fin 160000) :
    val_main_v6 (F := Ideal) a1 (ix2 e ⟨0, Nat.one_pos⟩) = a1 (ix2 ⟨0, by decide⟩ e) := by
  rw [val_main_v6_apply, show idx_main_v6 (ix2 e ⟨0, Nat.one_pos⟩) = ix1 e from funext fun a => Fin.ext (by match a with | ⟨0, _⟩ => rfl)]
  exact rowWord a1 e

/-- Stage 41: the target word as a column of scatter indices. -/
theorem col41 (a1 : IVec S2x160000 32) (e : Fin 160000) :
    val_main_v41 (F := Ideal) a1 (ix2 e ⟨0, Nat.one_pos⟩) = a1 (ix2 ⟨1, by decide⟩ e) := by
  rw [val_main_v41_apply, show idx_main_v41 (ix2 e ⟨0, Nat.one_pos⟩) = ix1 e from funext fun a => Fin.ext (by match a with | ⟨0, _⟩ => rfl)]
  exact colWord a1 e

/-- Stage 54: the target word as a column of scatter indices. -/
theorem col54 (a1 : IVec S2x160000 32) (e : Fin 160000) :
    val_main_v54 (F := Ideal) a1 (ix2 e ⟨0, Nat.one_pos⟩) = a1 (ix2 ⟨1, by decide⟩ e) := by
  rw [val_main_v54_apply, show idx_main_v54 (ix2 e ⟨0, Nat.one_pos⟩) = ix1 e from funext fun a => Fin.ext (by match a with | ⟨0, _⟩ => rfl)]
  exact colWord a1 e

/-- Stage 85: the target word as a column of scatter indices. -/
theorem col85 (a1 : IVec S2x160000 32) (e : Fin 160000) :
    val_main_v85 (F := Ideal) a1 (ix2 e ⟨0, Nat.one_pos⟩) = a1 (ix2 ⟨1, by decide⟩ e) := by
  rw [val_main_v85_apply, show idx_main_v85 (ix2 e ⟨0, Nat.one_pos⟩) = ix1 e from funext fun a => Fin.ext (by match a with | ⟨0, _⟩ => rfl)]
  exact colWord a1 e

/-- Stage 98: the target word as a column of scatter indices. -/
theorem col98 (a1 : IVec S2x160000 32) (e : Fin 160000) :
    val_main_v98 (F := Ideal) a1 (ix2 e ⟨0, Nat.one_pos⟩) = a1 (ix2 ⟨1, by decide⟩ e) := by
  rw [val_main_v98_apply, show idx_main_v98 (ix2 e ⟨0, Nat.one_pos⟩) = ix1 e from funext fun a => Fin.ext (by match a with | ⟨0, _⟩ => rfl)]
  exact colWord a1 e

/-- Stage 129: the target word as a column of scatter indices. -/
theorem col129 (a1 : IVec S2x160000 32) (e : Fin 160000) :
    val_main_v129 (F := Ideal) a1 (ix2 e ⟨0, Nat.one_pos⟩) = a1 (ix2 ⟨1, by decide⟩ e) := by
  rw [val_main_v129_apply, show idx_main_v129 (ix2 e ⟨0, Nat.one_pos⟩) = ix1 e from funext fun a => Fin.ext (by match a with | ⟨0, _⟩ => rfl)]
  exact colWord a1 e

/-- Stage 142: the target word as a column of scatter indices. -/
theorem col142 (a1 : IVec S2x160000 32) (e : Fin 160000) :
    val_main_v142 (F := Ideal) a1 (ix2 e ⟨0, Nat.one_pos⟩) = a1 (ix2 ⟨1, by decide⟩ e) := by
  rw [val_main_v142_apply, show idx_main_v142 (ix2 e ⟨0, Nat.one_pos⟩) = ix1 e from funext fun a => Fin.ext (by match a with | ⟨0, _⟩ => rfl)]
  exact colWord a1 e

end Cert.Proof.RefSpec

end
-- ==== Proof.LibERealFinite.lean ====
/-
  Extended reals that are real numbers.

  Over the extended reals the ring laws that move a factor across a sum (distributivity, cancelling) fail at the
  infinities, so a proof that uses them first shows that every quantity in sight is (the coercion of) a real
  number. This file has the predicate `IsReal x` ("x is the coercion of some real"), its closure under the
  arithmetic a dense layer uses — sums, products, negation, differences, finite sums, the maximum of two values
  (a rectifier is `max x 0`), sums of products (a matrix product's entry) —, and the two ways of recognising it:
  `x ≠ ⊤ ∧ x ≠ ⊥`, and `|x| < ⊤`. Nothing here mentions a program.
-/
import Idealize.ShloMosaic.PureOps.Ideal

namespace LibERealFinite

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, by simp⟩

theorem isReal_one : IsReal (1 : EReal) := ⟨1, by simp⟩

theorem isReal_natCast (n : ℕ) : IsReal (n : EReal) := ⟨n, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of reals is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- An entry of a matrix product of real matrices is real. -/
theorem isReal_sum_mul {ι : Type*} (s : Finset ι) (f g : ι → EReal) (hf : ∀ i ∈ s, IsReal (f i)) (hg : ∀ i ∈ s, IsReal (g i)) :
    IsReal (∑ i ∈ s, f i * g i) :=
  isReal_sum s _ fun i hi => (hf i hi).mul (hg i hi)

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

/-- Recognised by the absolute value being below +∞ (the shape of a "finite input" test). -/
theorem isReal_of_abs_lt_top {x : EReal} (h : (x.abs : EReal) < ⊤) : IsReal x := by
  induction x using EReal.rec with
  | bot => simp at h
  | coe r => exact isReal_coe r
  | top => simp at h

/-- Distributivity on the left over a finite sum, for a real factor and real summands. -/
theorem mul_sum_of_isReal {ι : Type*} (s : Finset ι) (a : EReal) (f : ι → EReal) (ha : IsReal a) (hf : ∀ i ∈ s, IsReal (f i)) :
    a * ∑ i ∈ s, f i = ∑ i ∈ s, a * f i := by
  classical
  obtain ⟨a', rfl⟩ := ha
  induction s using Finset.induction_on with
  | empty => simp
  | insert b s hb ih =>
    rw [Finset.sum_insert hb, Finset.sum_insert hb]
    obtain ⟨fb, hfb⟩ := hf b (Finset.mem_insert_self b s)
    obtain ⟨r, hr⟩ := isReal_sum s f fun i hi => hf i (Finset.mem_insert_of_mem hi)
    rw [← ih fun i hi => hf i (Finset.mem_insert_of_mem hi), hfb, hr]
    rw [← EReal.coe_add, ← EReal.coe_mul, ← EReal.coe_mul, ← EReal.coe_mul, ← EReal.coe_add, mul_add]

/-- A family of real-valued extended reals has real representatives. -/
theorem exists_real_rep {ι : Type*} (f : ι → EReal) (h : ∀ i, IsReal (f i)) : ∃ f' : ι → ℝ, ∀ i, f i = (f' i : EReal) := by
  choose f' hf' using h
  exact ⟨f', hf'⟩

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A sum of products of coerced reals (a matrix product's entry) is the coercion of the real sum of products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- The maximum of two coerced reals (a rectifier is `max x 0`) is the coercion of the real maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

end LibERealFinite
-- ==== Proof.RefW.lean ====
/-
  The reference's edge weight.

  The per-node factor is gathered at each edge's source and target word; the words are natural numbers below
  10000, so the gathers read the factor at the source and the target node. The weight of an edge is minus the
  factor at its source times the factor at its target; it is then broadcast along rows of each width in use.
-/
import proofs.«130334_j70351564308694_1_alg».proof.Proof.RefIdx
import proofs.«130334_j70351564308694_1_alg».proof.Proof.RefDisDef
import proofs.«130334_j70351564308694_1_alg».proof.Proof.Spec
import proofs.«130334_j70351564308694_1_alg».proof.Proof.LibScatterAdd
import proofs.«130334_j70351564308694_1_alg».proof.Proof.LibGatherRows
import proofs.«130334_j70351564308694_1_alg».proof.Proof.LibERealFinite

set_option maxRecDepth 16384

noncomputable section

namespace Cert.Proof.RefSpec

open Cert.ReferenceIdeal Cert.ReferenceIdeal.ReadP Idealize.ShloMosaic Idealize.ShloMosaic.ValueIdx LibERealFinite

/-- The word 0x3F800000 is the number 1. -/
theorem one_f32 : Ideal.ofBits .f32 0x3F800000#32 = 1 := by
  simp [Ideal.ofBits, Ideal.ieee, -EReal.coe_mul]; norm_num

/-- The word 0x40000000 is the number 2. -/
theorem two_f32 : Ideal.ofBits .f32 0x40000000#32 = 2 := by
  simp [Ideal.ofBits, Ideal.ieee, -EReal.coe_mul]; norm_num; rfl

/-- The gather of the factor at the source word (stage 20) is the factor at the source node. -/
theorem dis_row (a1 : IVec S2x160000 32) (hr : ∀ i, (a1 i).toNat < 10000) (e : Fin 160000) :
    val_main_v20 (F := Ideal) a1 (ix1 e) = disOf a1 (rowOf a1 hr e) := by
  unfold val_main_v20
  exact LibGatherRows.vec_gather_of_inRange _ (val_main_v13 (F := Ideal) a1) (val_main_v19 (F := Ideal) a1) e (rowOf a1 hr e)
    (by rw [col19 a1 hr e]; exact toInt_of_lt _ (hr _))

/-- The gather of the factor at the target word (stage 28) is the factor at the target node. -/
theorem dis_col (a1 : IVec S2x160000 32) (hr : ∀ i, (a1 i).toNat < 10000) (e : Fin 160000) :
    val_main_v28 (F := Ideal) a1 (ix1 e) = disOf a1 (colOf a1 hr e) := by
  unfold val_main_v28
  exact LibGatherRows.vec_gather_of_inRange _ (val_main_v13 (F := Ideal) a1) (val_main_v27 (F := Ideal) a1) e (colOf a1 hr e)
    (by rw [col27 a1 hr e]; exact toInt_of_lt _ (hr _))

/-- The edge weight (stage 29): minus the factor at the source times the factor at the target. -/
theorem w_read (a1 : IVec S2x160000 32) (hr : ∀ i, (a1 i).toNat < 10000) (e : Fin 160000) :
    val_main_v29 (F := Ideal) a1 (ix1 e) = Spec.w (rowOf a1 hr) (colOf a1 hr) (disOf a1) e := by
  rw [val_main_v29_apply, val_main_v21_apply, dis_row a1 hr e, dis_col a1 hr e]
  rfl

/-- Stages 30, 38: the edge weight broadcast along a row of width 128. -/
theorem wrow38 (a1 : IVec S2x160000 32) (hr : ∀ i, (a1 i).toNat < 10000) (e : Fin 160000) (f : Fin 128) :
    val_main_v38 (F := Ideal) a1 (ix2 e f) = Spec.w (rowOf a1 hr) (colOf a1 hr) (disOf a1) e := by
  rw [val_main_v38_apply, val_main_v30_apply,
    show idx_main_v30 (idx_main_v38 (ix2 e f)) = ix1 e from funext fun a => Fin.ext (by match a with | ⟨0, _⟩ => rfl)]
  exact w_read a1 hr e

/-- Stages 43, 51: the edge weight broadcast along a row of width 128. -/
theorem wrow51 (a1 : IVec S2x160000 32) (hr : ∀ i, (a1 i).toNat < 10000) (e : Fin 160000) (f : Fin 128) :
    val_main_v51 (F := Ideal) a1 (ix2 e f) = Spec.w (rowOf a1 hr) (colOf a1 hr) (disOf a1) e := by
  rw [val_main_v51_apply, val_main_v43_apply,
    show idx_main_v43 (idx_main_v51 (ix2 e f)) = ix1 e from funext fun a => Fin.ext (by match a with | ⟨0, _⟩ => rfl)]
  exact w_read a1 hr e

/-- Stages 74, 82: the edge weight broadcast along a row of width 128. -/
theorem wrow82 (a1 : IVec S2x160000 32) (hr : ∀ i, (a1 i).toNat < 10000) (e : Fin 160000) (f : Fin 128) :
    val_main_v82 (F := Ideal) a1 (ix2 e f) = Spec.w (rowOf a1 hr) (colOf a1 hr) (disOf a1) e := by
  rw [val_main_v82_apply, val_main_v74_apply,
    show idx_main_v74 (idx_main_v82 (ix2 e f)) = ix1 e from funext fun a => Fin.ext (by match a with | ⟨0, _⟩ => rfl)]
  exact w_read a1 hr e

/-- Stages 87, 95: the edge weight broadcast along a row of width 128. -/
theorem wrow95 (a1 : IVec S2x160000 32) (hr : ∀ i, (a1 i).toNat < 10000) (e : Fin 160000) (f : Fin 128) :
    val_main_v95 (F := Ideal) a1 (ix2 e f) = Spec.w (rowOf a1 hr) (colOf a1 hr) (disOf a1) e := by
  rw [val_main_v95_apply, val_main_v87_apply,
    show idx_main_v87 (idx_main_v95 (ix2 e f)) = ix1 e from funext fun a => Fin.ext (by match a with | ⟨0, _⟩ => rfl)]
  exact w_read a1 hr e

/-- Stages 118, 126: the edge weight broadcast along a row of width 256. -/
theorem wrow126 (a1 : IVec S2x160000 32) (hr : ∀ i, (a1 i).toNat < 10000) (e : Fin 160000) (f : Fin 256) :
    val_main_v126 (F := Ideal) a1 (ix2 e f) = Spec.w (rowOf a1 hr) (colOf a1 hr) (disOf a1) e := by
  rw [val_main_v126_apply, val_main_v118_apply,
    show idx_main_v118 (idx_main_v126 (ix2 e f)) = ix1 e from funext fun a => Fin.ext (by match a with | ⟨0, _⟩ => rfl)]
  exact w_read a1 hr e

/-- Stages 131, 139: the edge weight broadcast along a row of width 256. -/
theorem wrow139 (a1 : IVec S2x160000 32) (hr : ∀ i, (a1 i).toNat < 10000) (e : Fin 160000) (f : Fin 256) :
    val_main_v139 (F := Ideal) a1 (ix2 e f) = Spec.w (rowOf a1 hr) (colOf a1 hr) (disOf a1) e := by
  rw [val_main_v139_apply, val_main_v131_apply,
    show idx_main_v131 (idx_main_v139 (ix2 e f)) = ix1 e from funext fun a => Fin.ext (by match a with | ⟨0, _⟩ => rfl)]
  exact w_read a1 hr e

end Cert.Proof.RefSpec

end
-- ==== Proof.LibSegmentSum.lean ====
/-
  A segment sum read at an index.

  `segment_sum(upd, ids, N)` (equally `zeros.at[ids].add(upd)` along the leading axis) lowers to a host scatter
  with an "add" body: operand [N, C], scatter indices [E, 1], updates [E, C], the update's row axis inserted,
  its column axis the window. Row `e` of the updates is added into row `ids[e]` of the operand when
  `0 ≤ ids[e] < N` (read signed, NOT clamped) and is dropped otherwise. So, over the extended reals, the result at
  `(c, f)` is the operand there plus the sum, over the edges `e` whose index is `c`, of `upd (e, f)`.
  The statement is for any sizes; a program's own dimension record is this file's `segDims` at its sizes (the two are
  equal by `rfl` when the record lists the same axes).
-/
import Idealize.ShloMosaic.PureOps
import Idealize.ShloMosaic.Lib.ValueIdx

noncomputable section

open scoped BigOperators

namespace LibSegmentSum

open Idealize.ShloMosaic Idealize.ShloMosaic.ValueIdx

/-- The dimension numbers of a row scatter: operand [N, C], scatter indices [E, 1], updates [E, C]. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The scatter-indices index `[e, 0]` of edge `e`. -/
abbrev segIdx {E : Nat} (e : Fin E) : (⟨2, ![E, 1]⟩ : Shape).Idx := ix2 e ⟨0, Nat.one_pos⟩

variable {N E C w : Nat} (wf : ScatterDims.WF ⟨2, ![N, C]⟩ ⟨2, ![E, 1]⟩ ⟨2, ![E, C]⟩ [1] [0] [0] 1)

/-- On the row axis the window starts at the edge's index, read signed. -/
theorem start_row (idx : IVec ⟨2, ![E, 1]⟩ w) (e : Fin E) (b : Fin C) :
    (segDims N E C wf).start (ix2 e b) idx 0 = (idx (segIdx e)).toInt := by
  unfold ScatterDims.start
  rw [dif_pos (show (0 : Fin 2) ∈ (segDims N E C wf).scatterDimsToOperandDims from List.mem_singleton.mpr rfl)]
  refine congrArg (fun i => (idx i).toInt) ?_
  funext a
  refine Fin.ext ?_
  match a with
  | ⟨0, _⟩ => rfl
  | ⟨1, _⟩ => rfl

/-- On the column axis the window starts at 0. -/
theorem start_col (idx : IVec ⟨2, ![E, 1]⟩ w) (e : Fin E) (b : Fin C) :
    (segDims N E C wf).start (ix2 e b) idx 1 = 0 := by
  unfold ScatterDims.start
  rw [dif_neg (show (1 : Fin 2) ∉ (segDims N E C wf).scatterDimsToOperandDims from (by decide : (1 : Fin 2) ∉ ([0] : List (Fin 2))))]

/-- The row axis is inserted: its window coordinate is 0. -/
theorem window_row (e : Fin E) (b : Fin C) : (segDims N E C wf).window (ix2 e b) 0 = 0 := by
  unfold ScatterDims.window
  rw [dif_neg (show (0 : Fin 2) ∉ (segDims N E C wf).sKept from (by decide : (0 : Fin 2) ∉ (List.finRange 2).filter (· ∉ ([0] : List (Fin 2)))))]

/-- The column axis is the window: its coordinate is the update's column. -/
theorem window_col (e : Fin E) (b : Fin C) : (segDims N E C wf).window (ix2 e b) 1 = b.val := by
  unfold ScatterDims.window
  rw [dif_pos (show (1 : Fin 2) ∈ (segDims N E C wf).sKept from (by decide : (1 : Fin 2) ∈ (List.finRange 2).filter (· ∉ ([0] : List (Fin 2)))))]
  rfl

/-- Update `(e, b)` lands at `(c, f)` exactly when edge `e`'s index, read signed, is `c` and `b = f`. -/
theorem lands_iff (idx : IVec ⟨2, ![E, 1]⟩ w) (e : Fin E) (b : Fin C) (c : Fin N) (f : Fin C) :
    (segDims N E C wf).resultIdx? (ix2 e b) idx = some (ix2 c f) ↔ (idx (segIdx e)).toInt = (c.val : Int) ∧ b = f := by
  have hs0 := start_row wf idx e b
  have hs1 := start_col wf idx e b
  have hw0 := window_row wf e b
  have hw1 := window_col wf e b
  have hN : (⟨2, ![N, C]⟩ : Shape).size 0 = N := rfl
  have hC : (⟨2, ![N, C]⟩ : Shape).size 1 = C := rfl
  unfold ScatterDims.resultIdx?
  split
  · rename_i h
    rw [Option.some.injEq]
    constructor
    · intro hf
      have h0 : ((segDims N E C wf).start (ix2 e b) idx 0 + ((segDims N E C wf).window (ix2 e b) 0 : Int)).toNat = c.val :=
        congrArg (fun g : (⟨2, ![N, C]⟩ : Shape).Idx => (g 0).val) hf
      have h1 : ((segDims N E C wf).start (ix2 e b) idx 1 + ((segDims N E C wf).window (ix2 e b) 1 : Int)).toNat = f.val :=
        congrArg (fun g : (⟨2, ![N, C]⟩ : Shape).Idx => (g 1).val) hf
      have hpos := (h 0).1
      rw [hs0, hw0] at h0 hpos
      rw [hs1, hw1] at h1
      refine ⟨by omega, Fin.ext (by omega)⟩
    · rintro ⟨hi, rfl⟩
      funext a
      refine Fin.ext ?_
      match a with
      | ⟨0, _⟩ =>
        show ((segDims N E C wf).start (ix2 e b) idx 0 + ((segDims N E C wf).window (ix2 e b) 0 : Int)).toNat = c.val
        rw [hs0, hw0]; omega
      | ⟨1, _⟩ =>
        show ((segDims N E C wf).start (ix2 e b) idx 1 + ((segDims N E C wf).window (ix2 e b) 1 : Int)).toNat = b.val
        rw [hs1, hw1]; omega
  · rename_i h
    constructor
    · intro hf; exact absurd hf (by simp)
    · rintro ⟨hi, rfl⟩
      exfalso
      apply h
      intro a
      match a with
      | ⟨0, _⟩ =>
        show 0 ≤ (segDims N E C wf).start (ix2 e b) idx 0 + ((segDims N E C wf).window (ix2 e b) 0 : Int)
          ∧ (segDims N E C wf).start (ix2 e b) idx 0 + ((segDims N E C wf).window (ix2 e b) 0 : Int) < ((⟨2, ![N, C]⟩ : Shape).size 0 : Int)
        rw [hs0, hw0, hN]
        have := c.isLt
        omega
      | ⟨1, _⟩ =>
        show 0 ≤ (segDims N E C wf).start (ix2 e b) idx 1 + ((segDims N E C wf).window (ix2 e b) 1 : Int)
          ∧ (segDims N E C wf).start (ix2 e b) idx 1 + ((segDims N E C wf).window (ix2 e b) 1 : Int) < ((⟨2, ![N, C]⟩ : Shape).size 1 : Int)
        rw [hs1, hw1, hC]
        have := b.isLt
        omega

/-- THE SEGMENT SUM READ AT `(c, f)`: the operand there plus the updates' column `f` summed over the edges whose
    index is `c`. -/
theorem segment_sum_apply (x : (⟨2, ![N, C]⟩ : Shape).Idx → EReal) (idx : IVec ⟨2, ![E, 1]⟩ w)
    (upd : (⟨2, ![E, C]⟩ : Shape).Idx → EReal) (c : Fin N) (f : Fin C) :
    Ideal.hostScatterAdd (segDims N E C wf) x idx upd (ix2 c f)
      = x (ix2 c f) + ∑ e : Fin E with (idx (segIdx e)).toInt = (c.val : Int), upd (ix2 e f) := by
  unfold Ideal.hostScatterAdd
  congr 1
  rw [Finset.sum_filter, sum_idx2, Finset.sum_filter]
  refine Finset.sum_congr rfl fun e _ => ?_
  by_cases hA : (idx (segIdx e)).toInt = (c.val : Int)
  · rw [if_pos hA, Finset.sum_eq_single f]
    · rw [if_pos ((lands_iff wf idx e f c f).2 ⟨hA, rfl⟩)]
    · intro b _ hb
      exact if_neg fun h => hb ((lands_iff wf idx e b c f).1 h).2
    · intro h; exact absurd (Finset.mem_univ f) h
  · rw [if_neg hA]
    exact Finset.sum_eq_zero fun b _ => if_neg fun h => hA ((lands_iff wf idx e b c f).1 h).1

end LibSegmentSum

end
-- ==== Proof.RefProp.lean ====
/-
  One sparse propagation read at an index.

  A propagation gathers, for every edge, the source row of a [10000, C] array, multiplies it by the edge's weight
  (the weight broadcast along the row), and sums the products into the target rows, starting from zero. Read at
  (c, f) over the extended reals it is 0 plus the sum, over the edges whose target is c, of the weight times the
  array at (source, f): the specification's `prop`. Stated for any width C and for any index columns that
  read, signed, as the source and the target of each edge.
-/
import proofs.«130334_j70351564308694_1_alg».proof.Proof.Spec
import proofs.«130334_j70351564308694_1_alg».proof.Proof.LibSegmentSum
import proofs.«130334_j70351564308694_1_alg».proof.Proof.LibGatherRows

set_option maxRecDepth 16384

noncomputable section

namespace Cert.Proof.RefSpec

open Idealize.ShloMosaic Idealize.ShloMosaic.ValueIdx

theorem prop_read {C : Nat}
    (wfS : ScatterDims.WF ⟨2, ![10000, C]⟩ ⟨2, ![160000, 1]⟩ ⟨2, ![160000, C]⟩ [1] [0] [0] 1)
    (wfG : GatherDims.WF ⟨2, ![10000, C]⟩ ⟨2, ![160000, 1]⟩ ⟨2, ![160000, C]⟩ [1] [0] [] [0] [] 1 ![1, C])
    (row col : Fin 160000 → Fin 10000) (dis : Fin 10000 → EReal)
    (zero : (⟨2, ![10000, C]⟩ : Shape).Idx → EReal) (idxS idxG : IVec ⟨2, ![160000, 1]⟩ 32)
    (wv : (⟨2, ![160000, C]⟩ : Shape).Idx → EReal) (Z : (⟨2, ![10000, C]⟩ : Shape).Idx → EReal)
    (hz : ∀ i, zero i = 0)
    (hS : ∀ e, (idxS (ix2 e ⟨0, Nat.one_pos⟩)).toInt = ((col e).val : Int))
    (hG : ∀ e, (idxG (ix2 e ⟨0, Nat.one_pos⟩)).toInt = ((row e).val : Int))
    (hw : ∀ e f, wv (ix2 e f) = Spec.w row col dis e)
    (c : Fin 10000) (f : Fin C) :
    Host.scatterAdd (F := Ideal) (φ := .f32) (LibSegmentSum.segDims 10000 160000 C wfS) zero idxS
        (mulf (F := Ideal) (φ := .f32) wv (Host.gather (LibGatherRows.rowDims 10000 160000 C wfG) Z idxG)) (ix2 c f)
      = Spec.prop row col dis (fun r f => Z (ix2 r f)) c f := by
  simp only [Host.scatterAdd, Ideal.hostScatterAdd_def]
  rw [LibSegmentSum.segment_sum_apply, hz]
  unfold Spec.prop
  refine congrArg (fun t => (0 : EReal) + t) (Finset.sum_congr ?_ fun e _ => ?_)
  · ext e
    simp only [Finset.mem_filter, Finset.mem_univ, true_and]
    rw [hS e]
    constructor
    · intro h; exact Fin.ext (by exact_mod_cast h)
    · rintro rfl; rfl
  · show wv (ix2 e f) * Host.gather (LibGatherRows.rowDims 10000 160000 C wfG) Z idxG (ix2 e f) = _
    rw [hw, LibGatherRows.row_gather_of_inRange wfG Z idxG e f (row e) (hG e)]

end Cert.Proof.RefSpec

end
-- ==== Proof.RefLayer1.lean ====
/-
  Layer 1 of the reference, read at an index.

  The layer's input is a [10000, 128] array. It is propagated once and twice along the edges, the three Chebyshev
  terms (the input, its propagation, twice the second propagation minus the input) are multiplied by the three
  [128, 128] weight slabs, the products are added left to right, the bias is added and the result is rectified.
  Read at (r, o) this is the specification's `layer` of the input.
-/
import proofs.«130334_j70351564308694_1_alg».proof.Proof.RefW
import proofs.«130334_j70351564308694_1_alg».proof.Proof.RefProp

set_option maxRecDepth 16384

noncomputable section

namespace Cert.Proof.RefSpec

open Cert.ReferenceIdeal Cert.ReferenceIdeal.ReadP Idealize.ShloMosaic Idealize.ShloMosaic.ValueIdx

/-- Stage 40: the zero array the sums start from. -/
theorem zero40 (i : S10000x128.Idx) : val_main_v40 (F := Ideal) i = 0 := by
  rw [val_main_v40_apply, val_main_cst_9_apply, Ideal.ofBits_def, Ideal.ofBits_zero_f32]

/-- Stages 37, 39, 42: one propagation of the layer's input. -/
theorem p42_raw (x0 : FVec Ideal S10000x128 .f32) (x1 : IVec S2x160000 32) (hr : ∀ i, (x1 i).toNat < 10000) (c : Fin 10000) (f : Fin 128) :
    val_main_v42 (F := Ideal) x0 x1 (ix2 c f) = Spec.prop (rowOf x1 hr) (colOf x1 hr) (disOf x1) (fun r f => x0 (ix2 r f)) c f := by
  unfold val_main_v42 val_main_v39 val_main_v37
  exact prop_read _ _ (rowOf x1 hr) (colOf x1 hr) (disOf x1) (val_main_v40 (F := Ideal)) (val_main_v41 (F := Ideal) x1)
    (val_main_v36 (F := Ideal) x1) (val_main_v38 (F := Ideal) x1) x0 zero40
    (fun e => by rw [col41 x1 e]; exact toInt_of_lt _ (hr _))
    (fun e => by rw [col36 x1 hr e]; exact toInt_of_lt _ (hr _))
    (fun e f => wrow38 x1 hr e f) c f

/-- Stage 53: the zero array the sums start from. -/
theorem zero53 (i : S10000x128.Idx) : val_main_v53 (F := Ideal) i = 0 := by
  rw [val_main_v53_apply, val_main_cst_12_apply, Ideal.ofBits_def, Ideal.ofBits_zero_f32]

/-- Stages 50, 52, 55: one propagation of the first propagation. -/
theorem p55_raw (x0 : FVec Ideal S10000x128 .f32) (x1 : IVec S2x160000 32) (hr : ∀ i, (x1 i).toNat < 10000) (c : Fin 10000) (f : Fin 128) :
    val_main_v55 (F := Ideal) x0 x1 (ix2 c f) = Spec.prop (rowOf x1 hr) (colOf x1 hr) (disOf x1) (fun r f => (val_main_v42 (F := Ideal) x0 x1) (ix2 r f)) c f := by
  unfold val_main_v55 val_main_v52 val_main_v50
  exact prop_read _ _ (rowOf x1 hr) (colOf x1 hr) (disOf x1) (val_main_v53 (F := Ideal)) (val_main_v54 (F := Ideal) x1)
    (val_main_v49 (F := Ideal) x1) (val_main_v51 (F := Ideal) x1) (val_main_v42 (F := Ideal) x0 x1) zero53
    (fun e => by rw [col54 x1 e]; exact toInt_of_lt _ (hr _))
    (fun e => by rw [col49 x1 hr e]; exact toInt_of_lt _ (hr _))
    (fun e f => wrow51 x1 hr e f) c f

/-- The second propagation is the propagation of the propagation of the input. -/
theorem p55 (x0 : FVec Ideal S10000x128 .f32) (x1 : IVec S2x160000 32) (hr : ∀ i, (x1 i).toNat < 10000) (c : Fin 10000) (f : Fin 128) :
    val_main_v55 (F := Ideal) x0 x1 (ix2 c f) = Spec.prop (rowOf x1 hr) (colOf x1 hr) (disOf x1) (Spec.prop (rowOf x1 hr) (colOf x1 hr) (disOf x1) (fun r f => x0 (ix2 r f))) c f := by
  rw [p55_raw x0 x1 hr c f]
  exact congrArg (fun z => Spec.prop (rowOf x1 hr) (colOf x1 hr) (disOf x1) z c f) (funext fun r => funext fun f => p42_raw x0 x1 hr r f)

/-- Stages 56, 57, 58: the third Chebyshev term. -/
theorem t58 (x0 : FVec Ideal S10000x128 .f32) (x1 : IVec S2x160000 32) (hr : ∀ i, (x1 i).toNat < 10000) (r : Fin 10000) (k : Fin 128) :
    val_main_v58 (F := Ideal) x0 x1 (ix2 r k)
      = (2 : EReal) * Spec.prop (rowOf x1 hr) (colOf x1 hr) (disOf x1) (Spec.prop (rowOf x1 hr) (colOf x1 hr) (disOf x1) (fun r f => x0 (ix2 r f))) r k - x0 (ix2 r k) := by
  rw [val_main_v58_apply, val_main_v57_apply, val_main_v56_apply, val_main_cst_13_apply, p55 x0 x1 hr r k]
  simp only [Ideal.subf_def, Ideal.mulf_def, Ideal.ofBits_def, two_f32]

/-- Stages 59, 60, 61: the product with weight slab 0, as a sum over the contracted column. -/
theorem d61 (x0 : FVec Ideal S10000x128 .f32) (x2 : FVec Ideal S3x128x128 .f32) (r : Fin 10000) (o : Fin 128) :
    val_main_v61 (F := Ideal) x0 x2 (ix2 r o) = ∑ k : Fin 128, x0 (ix2 r k) * x2 (ix3 (0 : Fin 3) k o) := by
  rw [val_main_v61_apply]
  refine Finset.sum_congr rfl fun k _ => ?_
  have hk := k.isLt
  have ho := o.isLt
  rw [show lidx_main_v61 (ix2 r o) k = ix2 r k from funext fun a => Fin.ext (by match a with | ⟨0, _⟩ => rfl | ⟨1, _⟩ => rfl),
    val_main_v60_apply, val_main_v59_apply]
  refine congrArg (fun t => x0 (ix2 r k) * x2 t) (funext fun a => Fin.ext ?_)
  match a with
  | ⟨0, _⟩ => rfl
  | ⟨1, _⟩ => show (k.val * 128 + o.val) / 128 % 128 = k.val; omega
  | ⟨2, _⟩ => show (k.val * 128 + o.val) % 128 = o.val; omega

/-- Stages 62, 63, 64: the product with weight slab 1, as a sum over the contracted column. -/
theorem d64 (x0 : FVec Ideal S10000x128 .f32) (x1 : IVec S2x160000 32) (x2 : FVec Ideal S3x128x128 .f32) (r : Fin 10000) (o : Fin 128) :
    val_main_v64 (F := Ideal) x0 x1 x2 (ix2 r o) = ∑ k : Fin 128, (val_main_v42 (F := Ideal) x0 x1) (ix2 r k) * x2 (ix3 (1 : Fin 3) k o) := by
  rw [val_main_v64_apply]
  refine Finset.sum_congr rfl fun k _ => ?_
  have hk := k.isLt
  have ho := o.isLt
  rw [show lidx_main_v64 (ix2 r o) k = ix2 r k from funext fun a => Fin.ext (by match a with | ⟨0, _⟩ => rfl | ⟨1, _⟩ => rfl),
    val_main_v63_apply, val_main_v62_apply]
  refine congrArg (fun t => (val_main_v42 (F := Ideal) x0 x1) (ix2 r k) * x2 t) (funext fun a => Fin.ext ?_)
  match a with
  | ⟨0, _⟩ => rfl
  | ⟨1, _⟩ => show (k.val * 128 + o.val) / 128 % 128 = k.val; omega
  | ⟨2, _⟩ => show (k.val * 128 + o.val) % 128 = o.val; omega

/-- Stages 66, 67, 68: the product with weight slab 2, as a sum over the contracted column. -/
theorem d68 (x0 : FVec Ideal S10000x128 .f32) (x1 : IVec S2x160000 32) (x2 : FVec Ideal S3x128x128 .f32) (r : Fin 10000) (o : Fin 128) :
    val_main_v68 (F := Ideal) x0 x1 x2 (ix2 r o) = ∑ k : Fin 128, (val_main_v58 (F := Ideal) x0 x1) (ix2 r k) * x2 (ix3 (2 : Fin 3) k o) := by
  rw [val_main_v68_apply]
  refine Finset.sum_congr rfl fun k _ => ?_
  have hk := k.isLt
  have ho := o.isLt
  rw [show lidx_main_v68 (ix2 r o) k = ix2 r k from funext fun a => Fin.ext (by match a with | ⟨0, _⟩ => rfl | ⟨1, _⟩ => rfl),
    val_main_v67_apply, val_main_v66_apply]
  refine congrArg (fun t => (val_main_v58 (F := Ideal) x0 x1) (ix2 r k) * x2 t) (funext fun a => Fin.ext ?_)
  match a with
  | ⟨0, _⟩ => rfl
  | ⟨1, _⟩ => show (k.val * 128 + o.val) / 128 % 128 = k.val; omega
  | ⟨2, _⟩ => show (k.val * 128 + o.val) % 128 = o.val; omega

/-- LAYER 1 READ AT (r, o): the specification's layer of the layer's input. -/
theorem layer1_read (x0 : FVec Ideal S10000x128 .f32) (x1 : IVec S2x160000 32) (x2 : FVec Ideal S3x128x128 .f32) (x3 : FVec Ideal S128 .f32) (hr : ∀ i, (x1 i).toNat < 10000) (r : Fin 10000) (o : Fin 128) :
    val_main_v73 (F := Ideal) x0 x1 x2 x3 (ix2 r o)
      = Spec.layer (rowOf x1 hr) (colOf x1 hr) (disOf x1) (fun k i o => x2 (ix3 k i o)) (fun o => x3 (ix1 o)) (fun r f => x0 (ix2 r f)) r o := by
  rw [val_main_v73_apply, val_main_v72_apply, val_main_v69_apply, val_main_v65_apply, d61, d64, d68,
    val_main_v71_apply, val_main_v70_apply, val_main_call1_v0_apply, val_main_call1_cst_apply,
    show idx_main_v70 (idx_main_v71 (ix2 r o)) = ix1 o from funext fun a => Fin.ext (by match a with | ⟨0, _⟩ => rfl)]
  simp only [Ideal.maximumf_def, Ideal.addf_def, Ideal.ofBits_def, Ideal.ofBits_zero_f32, p42_raw x0 x1 hr, t58 x0 x1 hr]
  rfl

end Cert.Proof.RefSpec

end
-- ==== Proof.RefLayer2.lean ====
/-
  Layer 2 of the reference, read at an index.

  The layer's input is a [10000, 128] array. It is propagated once and twice along the edges, the three Chebyshev
  terms (the input, its propagation, twice the second propagation minus the input) are multiplied by the three
  [128, 256] weight slabs, the products are added left to right, the bias is added and the result is rectified.
  Read at (r, o) this is the specification's `layer` of the input.
-/
import proofs.«130334_j70351564308694_1_alg».proof.Proof.RefW
import proofs.«130334_j70351564308694_1_alg».proof.Proof.RefProp

set_option maxRecDepth 16384

noncomputable section

namespace Cert.Proof.RefSpec

open Cert.ReferenceIdeal Cert.ReferenceIdeal.ReadP Idealize.ShloMosaic Idealize.ShloMosaic.ValueIdx

/-- Stage 84: the zero array the sums start from. -/
theorem zero84 (i : S10000x128.Idx) : val_main_v84 (F := Ideal) i = 0 := by
  rw [val_main_v84_apply, val_main_cst_16_apply, Ideal.ofBits_def, Ideal.ofBits_zero_f32]

/-- Stages 81, 83, 86: one propagation of the layer's input. -/
theorem p86_raw (x0 : FVec Ideal S10000x128 .f32) (x1 : IVec S2x160000 32) (x2 : FVec Ideal S3x128x128 .f32) (x3 : FVec Ideal S128 .f32) (hr : ∀ i, (x1 i).toNat < 10000) (c : Fin 10000) (f : Fin 128) :
    val_main_v86 (F := Ideal) x0 x1 x2 x3 (ix2 c f) = Spec.prop (rowOf x1 hr) (colOf x1 hr) (disOf x1) (fun r f => (val_main_v73 (F := Ideal) x0 x1 x2 x3) (ix2 r f)) c f := by
  unfold val_main_v86 val_main_v83 val_main_v81
  exact prop_read _ _ (rowOf x1 hr) (colOf x1 hr) (disOf x1) (val_main_v84 (F := Ideal)) (val_main_v85 (F := Ideal) x1)
    (val_main_v80 (F := Ideal) x1) (val_main_v82 (F := Ideal) x1) (val_main_v73 (F := Ideal) x0 x1 x2 x3) zero84
    (fun e => by rw [col85 x1 e]; exact toInt_of_lt _ (hr _))
    (fun e => by rw [col80 x1 hr e]; exact toInt_of_lt _ (hr _))
    (fun e f => wrow82 x1 hr e f) c f

/-- Stage 97: the zero array the sums start from. -/
theorem zero97 (i : S10000x128.Idx) : val_main_v97 (F := Ideal) i = 0 := by
  rw [val_main_v97_apply, val_main_cst_19_apply, Ideal.ofBits_def, Ideal.ofBits_zero_f32]

/-- Stages 94, 96, 99: one propagation of the first propagation. -/
theorem p99_raw (x0 : FVec Ideal S10000x128 .f32) (x1 : IVec S2x160000 32) (x2 : FVec Ideal S3x128x128 .f32) (x3 : FVec Ideal S128 .f32) (hr : ∀ i, (x1 i).toNat < 10000) (c : Fin 10000) (f : Fin 128) :
    val_main_v99 (F := Ideal) x0 x1 x2 x3 (ix2 c f) = Spec.prop (rowOf x1 hr) (colOf x1 hr) (disOf x1) (fun r f => (val_main_v86 (F := Ideal) x0 x1 x2 x3) (ix2 r f)) c f := by
  unfold val_main_v99 val_main_v96 val_main_v94
  exact prop_read _ _ (rowOf x1 hr) (colOf x1 hr) (disOf x1) (val_main_v97 (F := Ideal)) (val_main_v98 (F := Ideal) x1)
    (val_main_v93 (F := Ideal) x1) (val_main_v95 (F := Ideal) x1) (val_main_v86 (F := Ideal) x0 x1 x2 x3) zero97
    (fun e => by rw [col98 x1 e]; exact toInt_of_lt _ (hr _))
    (fun e => by rw [col93 x1 hr e]; exact toInt_of_lt _ (hr _))
    (fun e f => wrow95 x1 hr e f) c f

/-- The second propagation is the propagation of the propagation of the input. -/
theorem p99 (x0 : FVec Ideal S10000x128 .f32) (x1 : IVec S2x160000 32) (x2 : FVec Ideal S3x128x128 .f32) (x3 : FVec Ideal S128 .f32) (hr : ∀ i, (x1 i).toNat < 10000) (c : Fin 10000) (f : Fin 128) :
    val_main_v99 (F := Ideal) x0 x1 x2 x3 (ix2 c f) = Spec.prop (rowOf x1 hr) (colOf x1 hr) (disOf x1) (Spec.prop (rowOf x1 hr) (colOf x1 hr) (disOf x1) (fun r f => (val_main_v73 (F := Ideal) x0 x1 x2 x3) (ix2 r f))) c f := by
  rw [p99_raw x0 x1 x2 x3 hr c f]
  exact congrArg (fun z => Spec.prop (rowOf x1 hr) (colOf x1 hr) (disOf x1) z c f) (funext fun r => funext fun f => p86_raw x0 x1 x2 x3 hr r f)

/-- Stages 100, 101, 102: the third Chebyshev term. -/
theorem t102 (x0 : FVec Ideal S10000x128 .f32) (x1 : IVec S2x160000 32) (x2 : FVec Ideal S3x128x128 .f32) (x3 : FVec Ideal S128 .f32) (hr : ∀ i, (x1 i).toNat < 10000) (r : Fin 10000) (k : Fin 128) :
    val_main_v102 (F := Ideal) x0 x1 x2 x3 (ix2 r k)
      = (2 : EReal) * Spec.prop (rowOf x1 hr) (colOf x1 hr) (disOf x1) (Spec.prop (rowOf x1 hr) (colOf x1 hr) (disOf x1) (fun r f => (val_main_v73 (F := Ideal) x0 x1 x2 x3) (ix2 r f))) r k - (val_main_v73 (F := Ideal) x0 x1 x2 x3) (ix2 r k) := by
  rw [val_main_v102_apply, val_main_v101_apply, val_main_v100_apply, val_main_cst_20_apply, p99 x0 x1 x2 x3 hr r k]
  simp only [Ideal.subf_def, Ideal.mulf_def, Ideal.ofBits_def, two_f32]

/-- Stages 103, 104, 105: the product with weight slab 0, as a sum over the contracted column. -/
theorem d105 (x0 : FVec Ideal S10000x128 .f32) (x1 : IVec S2x160000 32) (x2 : FVec Ideal S3x128x128 .f32) (x3 : FVec Ideal S128 .f32) (x4 : FVec Ideal S3x128x256 .f32) (r : Fin 10000) (o : Fin 256) :
    val_main_v105 (F := Ideal) x0 x1 x2 x3 x4 (ix2 r o) = ∑ k : Fin 128, (val_main_v73 (F := Ideal) x0 x1 x2 x3) (ix2 r k) * x4 (ix3 (0 : Fin 3) k o) := by
  rw [val_main_v105_apply]
  refine Finset.sum_congr rfl fun k _ => ?_
  have hk := k.isLt
  have ho := o.isLt
  rw [show lidx_main_v105 (ix2 r o) k = ix2 r k from funext fun a => Fin.ext (by match a with | ⟨0, _⟩ => rfl | ⟨1, _⟩ => rfl),
    val_main_v104_apply, val_main_v103_apply]
  refine congrArg (fun t => (val_main_v73 (F := Ideal) x0 x1 x2 x3) (ix2 r k) * x4 t) (funext fun a => Fin.ext ?_)
  match a with
  | ⟨0, _⟩ => rfl
  | ⟨1, _⟩ => show (k.val * 256 + o.val) / 256 % 128 = k.val; omega
  | ⟨2, _⟩ => show (k.val * 256 + o.val) % 256 = o.val; omega

/-- Stages 106, 107, 108: the product with weight slab 1, as a sum over the contracted column. -/
theorem d108 (x0 : FVec Ideal S10000x128 .f32) (x1 : IVec S2x160000 32) (x2 : FVec Ideal S3x128x128 .f32) (x3 : FVec Ideal S128 .f32) (x4 : FVec Ideal S3x128x256 .f32) (r : Fin 10000) (o : Fin 256) :
    val_main_v108 (F := Ideal) x0 x1 x2 x3 x4 (ix2 r o) = ∑ k : Fin 128, (val_main_v86 (F := Ideal) x0 x1 x2 x3) (ix2 r k) * x4 (ix3 (1 : Fin 3) k o) := by
  rw [val_main_v108_apply]
  refine Finset.sum_congr rfl fun k _ => ?_
  have hk := k.isLt
  have ho := o.isLt
  rw [show lidx_main_v108 (ix2 r o) k = ix2 r k from funext fun a => Fin.ext (by match a with | ⟨0, _⟩ => rfl | ⟨1, _⟩ => rfl),
    val_main_v107_apply, val_main_v106_apply]
  refine congrArg (fun t => (val_main_v86 (F := Ideal) x0 x1 x2 x3) (ix2 r k) * x4 t) (funext fun a => Fin.ext ?_)
  match a with
  | ⟨0, _⟩ => rfl
  | ⟨1, _⟩ => show (k.val * 256 + o.val) / 256 % 128 = k.val; omega
  | ⟨2, _⟩ => show (k.val * 256 + o.val) % 256 = o.val; omega

/-- Stages 110, 111, 112: the product with weight slab 2, as a sum over the contracted column. -/
theorem d112 (x0 : FVec Ideal S10000x128 .f32) (x1 : IVec S2x160000 32) (x2 : FVec Ideal S3x128x128 .f32) (x3 : FVec Ideal S128 .f32) (x4 : FVec Ideal S3x128x256 .f32) (r : Fin 10000) (o : Fin 256) :
    val_main_v112 (F := Ideal) x0 x1 x2 x3 x4 (ix2 r o) = ∑ k : Fin 128, (val_main_v102 (F := Ideal) x0 x1 x2 x3) (ix2 r k) * x4 (ix3 (2 : Fin 3) k o) := by
  rw [val_main_v112_apply]
  refine Finset.sum_congr rfl fun k _ => ?_
  have hk := k.isLt
  have ho := o.isLt
  rw [show lidx_main_v112 (ix2 r o) k = ix2 r k from funext fun a => Fin.ext (by match a with | ⟨0, _⟩ => rfl | ⟨1, _⟩ => rfl),
    val_main_v111_apply, val_main_v110_apply]
  refine congrArg (fun t => (val_main_v102 (F := Ideal) x0 x1 x2 x3) (ix2 r k) * x4 t) (funext fun a => Fin.ext ?_)
  match a with
  | ⟨0, _⟩ => rfl
  | ⟨1, _⟩ => show (k.val * 256 + o.val) / 256 % 128 = k.val; omega
  | ⟨2, _⟩ => show (k.val * 256 + o.val) % 256 = o.val; omega

/-- LAYER 2 READ AT (r, o): the specification's layer of the layer's input. -/
theorem layer2_read (x0 : FVec Ideal S10000x128 .f32) (x1 : IVec S2x160000 32) (x2 : FVec Ideal S3x128x128 .f32) (x3 : FVec Ideal S128 .f32) (x4 : FVec Ideal S3x128x256 .f32) (x5 : FVec Ideal S256 .f32) (hr : ∀ i, (x1 i).toNat < 10000) (r : Fin 10000) (o : Fin 256) :
    val_main_v117 (F := Ideal) x0 x1 x2 x3 x4 x5 (ix2 r o)
      = Spec.layer (rowOf x1 hr) (colOf x1 hr) (disOf x1) (fun k i o => x4 (ix3 k i o)) (fun o => x5 (ix1 o)) (fun r f => (val_main_v73 (F := Ideal) x0 x1 x2 x3) (ix2 r f)) r o := by
  rw [val_main_v117_apply, val_main_v116_apply, val_main_v113_apply, val_main_v109_apply, d105, d108, d112,
    val_main_v115_apply, val_main_v114_apply, val_main_call2_v0_apply, val_main_call2_cst_apply,
    show idx_main_v114 (idx_main_v115 (ix2 r o)) = ix1 o from funext fun a => Fin.ext (by match a with | ⟨0, _⟩ => rfl)]
  simp only [Ideal.maximumf_def, Ideal.addf_def, Ideal.ofBits_def, Ideal.ofBits_zero_f32, p86_raw x0 x1 x2 x3 hr, t102 x0 x1 x2 x3 hr]
  rfl

end Cert.Proof.RefSpec

end
-- ==== Proof.RefLayer3.lean ====
/-
  Layer 3 of the reference, read at an index.

  The layer's input is a [10000, 256] array. It is propagated once and twice along the edges, the three Chebyshev
  terms (the input, its propagation, twice the second propagation minus the input) are multiplied by the three
  [256, 512] weight slabs, the products are added left to right, the bias is added and the result is rectified.
  Read at (r, o) this is the specification's `layer` of the input.
-/
import proofs.«130334_j70351564308694_1_alg».proof.Proof.RefW
import proofs.«130334_j70351564308694_1_alg».proof.Proof.RefProp

set_option maxRecDepth 16384

noncomputable section

namespace Cert.Proof.RefSpec

open Cert.ReferenceIdeal Cert.ReferenceIdeal.ReadP Idealize.ShloMosaic Idealize.ShloMosaic.ValueIdx

/-- Stage 128: the zero array the sums start from. -/
theorem zero128 (i : S10000x256.Idx) : val_main_v128 (F := Ideal) i = 0 := by
  rw [val_main_v128_apply, val_main_cst_23_apply, Ideal.ofBits_def, Ideal.ofBits_zero_f32]

/-- Stages 125, 127, 130: one propagation of the layer's input. -/
theorem p130_raw (x0 : FVec Ideal S10000x128 .f32) (x1 : IVec S2x160000 32) (x2 : FVec Ideal S3x128x128 .f32) (x3 : FVec Ideal S128 .f32) (x4 : FVec Ideal S3x128x256 .f32) (x5 : FVec Ideal S256 .f32) (hr : ∀ i, (x1 i).toNat < 10000) (c : Fin 10000) (f : Fin 256) :
    val_main_v130 (F := Ideal) x0 x1 x2 x3 x4 x5 (ix2 c f) = Spec.prop (rowOf x1 hr) (colOf x1 hr) (disOf x1) (fun r f => (val_main_v117 (F := Ideal) x0 x1 x2 x3 x4 x5) (ix2 r f)) c f := by
  unfold val_main_v130 val_main_v127 val_main_v125
  exact prop_read _ _ (rowOf x1 hr) (colOf x1 hr) (disOf x1) (val_main_v128 (F := Ideal)) (val_main_v129 (F := Ideal) x1)
    (val_main_v124 (F := Ideal) x1) (val_main_v126 (F := Ideal) x1) (val_main_v117 (F := Ideal) x0 x1 x2 x3 x4 x5) zero128
    (fun e => by rw [col129 x1 e]; exact toInt_of_lt _ (hr _))
    (fun e => by rw [col124 x1 hr e]; exact toInt_of_lt _ (hr _))
    (fun e f => wrow126 x1 hr e f) c f

/-- Stage 141: the zero array the sums start from. -/
theorem zero141 (i : S10000x256.Idx) : val_main_v141 (F := Ideal) i = 0 := by
  rw [val_main_v141_apply, val_main_cst_26_apply, Ideal.ofBits_def, Ideal.ofBits_zero_f32]

/-- Stages 138, 140, 143: one propagation of the first propagation. -/
theorem p143_raw (x0 : FVec Ideal S10000x128 .f32) (x1 : IVec S2x160000 32) (x2 : FVec Ideal S3x128x128 .f32) (x3 : FVec Ideal S128 .f32) (x4 : FVec Ideal S3x128x256 .f32) (x5 : FVec Ideal S256 .f32) (hr : ∀ i, (x1 i).toNat < 10000) (c : Fin 10000) (f : Fin 256) :
    val_main_v143 (F := Ideal) x0 x1 x2 x3 x4 x5 (ix2 c f) = Spec.prop (rowOf x1 hr) (colOf x1 hr) (disOf x1) (fun r f => (val_main_v130 (F := Ideal) x0 x1 x2 x3 x4 x5) (ix2 r f)) c f := by
  unfold val_main_v143 val_main_v140 val_main_v138
  exact prop_read _ _ (rowOf x1 hr) (colOf x1 hr) (disOf x1) (val_main_v141 (F := Ideal)) (val_main_v142 (F := Ideal) x1)
    (val_main_v137 (F := Ideal) x1) (val_main_v139 (F := Ideal) x1) (val_main_v130 (F := Ideal) x0 x1 x2 x3 x4 x5) zero141
    (fun e => by rw [col142 x1 e]; exact toInt_of_lt _ (hr _))
    (fun e => by rw [col137 x1 hr e]; exact toInt_of_lt _ (hr _))
    (fun e f => wrow139 x1 hr e f) c f

/-- The second propagation is the propagation of the propagation of the input. -/
theorem p143 (x0 : FVec Ideal S10000x128 .f32) (x1 : IVec S2x160000 32) (x2 : FVec Ideal S3x128x128 .f32) (x3 : FVec Ideal S128 .f32) (x4 : FVec Ideal S3x128x256 .f32) (x5 : FVec Ideal S256 .f32) (hr : ∀ i, (x1 i).toNat < 10000) (c : Fin 10000) (f : Fin 256) :
    val_main_v143 (F := Ideal) x0 x1 x2 x3 x4 x5 (ix2 c f) = Spec.prop (rowOf x1 hr) (colOf x1 hr) (disOf x1) (Spec.prop (rowOf x1 hr) (colOf x1 hr) (disOf x1) (fun r f => (val_main_v117 (F := Ideal) x0 x1 x2 x3 x4 x5) (ix2 r f))) c f := by
  rw [p143_raw x0 x1 x2 x3 x4 x5 hr c f]
  exact congrArg (fun z => Spec.prop (rowOf x1 hr) (colOf x1 hr) (disOf x1) z c f) (funext fun r => funext fun f => p130_raw x0 x1 x2 x3 x4 x5 hr r f)

/-- Stages 144, 145, 146: the third Chebyshev term. -/
theorem t146 (x0 : FVec Ideal S10000x128 .f32) (x1 : IVec S2x160000 32) (x2 : FVec Ideal S3x128x128 .f32) (x3 : FVec Ideal S128 .f32) (x4 : FVec Ideal S3x128x256 .f32) (x5 : FVec Ideal S256 .f32) (hr : ∀ i, (x1 i).toNat < 10000) (r : Fin 10000) (k : Fin 256) :
    val_main_v146 (F := Ideal) x0 x1 x2 x3 x4 x5 (ix2 r k)
      = (2 : EReal) * Spec.prop (rowOf x1 hr) (colOf x1 hr) (disOf x1) (Spec.prop (rowOf x1 hr) (colOf x1 hr) (disOf x1) (fun r f => (val_main_v117 (F := Ideal) x0 x1 x2 x3 x4 x5) (ix2 r f))) r k - (val_main_v117 (F := Ideal) x0 x1 x2 x3 x4 x5) (ix2 r k) := by
  rw [val_main_v146_apply, val_main_v145_apply, val_main_v144_apply, val_main_cst_27_apply, p143 x0 x1 x2 x3 x4 x5 hr r k]
  simp only [Ideal.subf_def, Ideal.mulf_def, Ideal.ofBits_def, two_f32]

/-- Stages 147, 148, 149: the product with weight slab 0, as a sum over the contracted column. -/
theorem d149 (x0 : FVec Ideal S10000x128 .f32) (x1 : IVec S2x160000 32) (x2 : FVec Ideal S3x128x128 .f32) (x3 : FVec Ideal S128 .f32) (x4 : FVec Ideal S3x128x256 .f32) (x5 : FVec Ideal S256 .f32) (x6 : FVec Ideal S3x256x512 .f32) (r : Fin 10000) (o : Fin 512) :
    val_main_v149 (F := Ideal) x0 x1 x2 x3 x4 x5 x6 (ix2 r o) = ∑ k : Fin 256, (val_main_v117 (F := Ideal) x0 x1 x2 x3 x4 x5) (ix2 r k) * x6 (ix3 (0 : Fin 3) k o) := by
  rw [val_main_v149_apply]
  refine Finset.sum_congr rfl fun k _ => ?_
  have hk := k.isLt
  have ho := o.isLt
  rw [show lidx_main_v149 (ix2 r o) k = ix2 r k from funext fun a => Fin.ext (by match a with | ⟨0, _⟩ => rfl | ⟨1, _⟩ => rfl),
    val_main_v148_apply, val_main_v147_apply]
  refine congrArg (fun t => (val_main_v117 (F := Ideal) x0 x1 x2 x3 x4 x5) (ix2 r k) * x6 t) (funext fun a => Fin.ext ?_)
  match a with
  | ⟨0, _⟩ => rfl
  | ⟨1, _⟩ => show (k.val * 512 + o.val) / 512 % 256 = k.val; omega
  | ⟨2, _⟩ => show (k.val * 512 + o.val) % 512 = o.val; omega

/-- Stages 150, 151, 152: the product with weight slab 1, as a sum over the contracted column. -/
theorem d152 (x0 : FVec Ideal S10000x128 .f32) (x1 : IVec S2x160000 32) (x2 : FVec Ideal S3x128x128 .f32) (x3 : FVec Ideal S128 .f32) (x4 : FVec Ideal S3x128x256 .f32) (x5 : FVec Ideal S256 .f32) (x6 : FVec Ideal S3x256x512 .f32) (r : Fin 10000) (o : Fin 512) :
    val_main_v152 (F := Ideal) x0 x1 x2 x3 x4 x5 x6 (ix2 r o) = ∑ k : Fin 256, (val_main_v130 (F := Ideal) x0 x1 x2 x3 x4 x5) (ix2 r k) * x6 (ix3 (1 : Fin 3) k o) := by
  rw [val_main_v152_apply]
  refine Finset.sum_congr rfl fun k _ => ?_
  have hk := k.isLt
  have ho := o.isLt
  rw [show lidx_main_v152 (ix2 r o) k = ix2 r k from funext fun a => Fin.ext (by match a with | ⟨0, _⟩ => rfl | ⟨1, _⟩ => rfl),
    val_main_v151_apply, val_main_v150_apply]
  refine congrArg (fun t => (val_main_v130 (F := Ideal) x0 x1 x2 x3 x4 x5) (ix2 r k) * x6 t) (funext fun a => Fin.ext ?_)
  match a with
  | ⟨0, _⟩ => rfl
  | ⟨1, _⟩ => show (k.val * 512 + o.val) / 512 % 256 = k.val; omega
  | ⟨2, _⟩ => show (k.val * 512 + o.val) % 512 = o.val; omega

/-- Stages 154, 155, 156: the product with weight slab 2, as a sum over the contracted column. -/
theorem d156 (x0 : FVec Ideal S10000x128 .f32) (x1 : IVec S2x160000 32) (x2 : FVec Ideal S3x128x128 .f32) (x3 : FVec Ideal S128 .f32) (x4 : FVec Ideal S3x128x256 .f32) (x5 : FVec Ideal S256 .f32) (x6 : FVec Ideal S3x256x512 .f32) (r : Fin 10000) (o : Fin 512) :
    val_main_v156 (F := Ideal) x0 x1 x2 x3 x4 x5 x6 (ix2 r o) = ∑ k : Fin 256, (val_main_v146 (F := Ideal) x0 x1 x2 x3 x4 x5) (ix2 r k) * x6 (ix3 (2 : Fin 3) k o) := by
  rw [val_main_v156_apply]
  refine Finset.sum_congr rfl fun k _ => ?_
  have hk := k.isLt
  have ho := o.isLt
  rw [show lidx_main_v156 (ix2 r o) k = ix2 r k from funext fun a => Fin.ext (by match a with | ⟨0, _⟩ => rfl | ⟨1, _⟩ => rfl),
    val_main_v155_apply, val_main_v154_apply]
  refine congrArg (fun t => (val_main_v146 (F := Ideal) x0 x1 x2 x3 x4 x5) (ix2 r k) * x6 t) (funext fun a => Fin.ext ?_)
  match a with
  | ⟨0, _⟩ => rfl
  | ⟨1, _⟩ => show (k.val * 512 + o.val) / 512 % 256 = k.val; omega
  | ⟨2, _⟩ => show (k.val * 512 + o.val) % 512 = o.val; omega

/-- LAYER 3 READ AT (r, o): the specification's layer of the layer's input. -/
theorem layer3_read (x0 : FVec Ideal S10000x128 .f32) (x1 : IVec S2x160000 32) (x2 : FVec Ideal S3x128x128 .f32) (x3 : FVec Ideal S128 .f32) (x4 : FVec Ideal S3x128x256 .f32) (x5 : FVec Ideal S256 .f32) (x6 : FVec Ideal S3x256x512 .f32) (x7 : FVec Ideal S512 .f32) (hr : ∀ i, (x1 i).toNat < 10000) (r : Fin 10000) (o : Fin 512) :
    val_main_v161 (F := Ideal) x0 x1 x2 x3 x4 x5 x6 x7 (ix2 r o)
      = Spec.layer (rowOf x1 hr) (colOf x1 hr) (disOf x1) (fun k i o => x6 (ix3 k i o)) (fun o => x7 (ix1 o)) (fun r f => (val_main_v117 (F := Ideal) x0 x1 x2 x3 x4 x5) (ix2 r f)) r o := by
  rw [val_main_v161_apply, val_main_v160_apply, val_main_v157_apply, val_main_v153_apply, d149, d152, d156,
    val_main_v159_apply, val_main_v158_apply, val_main_call3_v0_apply, val_main_call3_cst_apply,
    show idx_main_v158 (idx_main_v159 (ix2 r o)) = ix1 o from funext fun a => Fin.ext (by match a with | ⟨0, _⟩ => rfl)]
  simp only [Ideal.maximumf_def, Ideal.addf_def, Ideal.ofBits_def, Ideal.ofBits_zero_f32, p130_raw x0 x1 x2 x3 x4 x5 hr, t146 x0 x1 x2 x3 x4 x5 hr]
  rfl

end Cert.Proof.RefSpec

end
-- ==== Proof.RefSpec.lean ====
/-
  The reference's two results as the specification's function of the launch arguments.

  The reference runs three Chebyshev layers on the node features and then two linear heads on the third layer's
  result. Each layer read at an index is the specification's `layer` of its input (the three layer files); a head
  read at an index is the specification's `head`. Composing them, each result of the run at (r, o) is `refOut` of
  the arguments: the edges' sources and targets are the two rows of the edge array (natural numbers below 10000
  by hypothesis), and the per-node factor is the one the reference itself computes from the edge array.
-/
import proofs.«130334_j70351564308694_1_alg».proof.Proof.RefLayer1
import proofs.«130334_j70351564308694_1_alg».proof.Proof.RefLayer2
import proofs.«130334_j70351564308694_1_alg».proof.Proof.RefLayer3

set_option maxRecDepth 16384

noncomputable section

namespace Cert.Proof.RefSpec

open Cert.ReferenceIdeal Cert.ReferenceIdeal.ReadP Idealize.ShloMosaic Idealize.ShloMosaic.TcCoe Idealize.SL.Sem Idealize.ShloMosaic.ValueIdx

/-- Stages 162, 163, 164, 165: a linear head on the third layer's result, read at (r, o). -/
theorem head165_read (x0 : FVec Ideal S10000x128 .f32) (x1 : IVec S2x160000 32) (x2 : FVec Ideal S3x128x128 .f32) (x3 : FVec Ideal S128 .f32) (x4 : FVec Ideal S3x128x256 .f32) (x5 : FVec Ideal S256 .f32) (x6 : FVec Ideal S3x256x512 .f32) (x7 : FVec Ideal S512 .f32) (x8 : FVec Ideal S512x256 .f32) (x9 : FVec Ideal S256 .f32) (r : Fin 10000) (o : Fin 256) :
    val_main_v165 (F := Ideal) x0 x1 x2 x3 x4 x5 x6 x7 x8 x9 (ix2 r o)
      = Spec.head (fun i o => x8 (ix2 i o)) (fun o => x9 (ix1 o)) (fun r f => (val_main_v161 (F := Ideal) x0 x1 x2 x3 x4 x5 x6 x7) (ix2 r f)) r o := by
  rw [val_main_v165_apply, val_main_v162_apply, val_main_v164_apply, val_main_v163_apply,
    show idx_main_v163 (idx_main_v164 (ix2 r o)) = ix1 o from funext fun a => Fin.ext (by match a with | ⟨0, _⟩ => rfl)]
  simp only [Ideal.addf_def]
  unfold Spec.head
  refine congrArg (fun t => t + x9 (ix1 o)) (Finset.sum_congr rfl fun k _ => ?_)
  rw [show lidx_main_v162 (ix2 r o) k = ix2 r k from funext fun a => Fin.ext (by match a with | ⟨0, _⟩ => rfl | ⟨1, _⟩ => rfl),
    show ridx_main_v162 (ix2 r o) k = ix2 k o from funext fun a => Fin.ext (by match a with | ⟨0, _⟩ => rfl | ⟨1, _⟩ => rfl)]

/-- Stages 166, 167, 168, 169: a linear head on the third layer's result, read at (r, o). -/
theorem head169_read (x0 : FVec Ideal S10000x128 .f32) (x1 : IVec S2x160000 32) (x2 : FVec Ideal S3x128x128 .f32) (x3 : FVec Ideal S128 .f32) (x4 : FVec Ideal S3x128x256 .f32) (x5 : FVec Ideal S256 .f32) (x6 : FVec Ideal S3x256x512 .f32) (x7 : FVec Ideal S512 .f32) (x10 : FVec Ideal S512x256 .f32) (x11 : FVec Ideal S256 .f32) (r : Fin 10000) (o : Fin 256) :
    val_main_v169 (F := Ideal) x0 x1 x2 x3 x4 x5 x6 x7 x10 x11 (ix2 r o)
      = Spec.head (fun i o => x10 (ix2 i o)) (fun o => x11 (ix1 o)) (fun r f => (val_main_v161 (F := Ideal) x0 x1 x2 x3 x4 x5 x6 x7) (ix2 r f)) r o := by
  rw [val_main_v169_apply, val_main_v166_apply, val_main_v168_apply, val_main_v167_apply,
    show idx_main_v167 (idx_main_v168 (ix2 r o)) = ix1 o from funext fun a => Fin.ext (by match a with | ⟨0, _⟩ => rfl)]
  simp only [Ideal.addf_def]
  unfold Spec.head
  refine congrArg (fun t => t + x11 (ix1 o)) (Finset.sum_congr rfl fun k _ => ?_)
  rw [show lidx_main_v166 (ix2 r o) k = ix2 r k from funext fun a => Fin.ext (by match a with | ⟨0, _⟩ => rfl | ⟨1, _⟩ => rfl),
    show ridx_main_v166 (ix2 r o) k = ix2 k o from funext fun a => Fin.ext (by match a with | ⟨0, _⟩ => rfl | ⟨1, _⟩ => rfl)]

/-- THE REFERENCE'S FIRST RESULT at (r, o) is the specification's `refOut` of the launch arguments. -/
theorem ref_out0 (m : (ℓ : Loc nD τ sig) → Buf (Elt Ideal) ℓ) (c : Dev nD)
    (hr : ∀ i, (((m ((c.tc : Thread nD τ).loc main_arg1)) : IVec S2x160000 32) i).toNat < 10000) (r : Fin 10000) (o : Fin 256) :
    Cert.ReferenceIdeal.ValueP.res_main_v165 (F := Ideal) m c (ix2 r o)
      = Spec.refOut (rowOf (m ((c.tc : Thread nD τ).loc main_arg1)) hr) (colOf (m ((c.tc : Thread nD τ).loc main_arg1)) hr) (disOf (m ((c.tc : Thread nD τ).loc main_arg1))) (fun r f => (m ((c.tc : Thread nD τ).loc main_arg0)) (ix2 r f))
          (fun k i o => (m ((c.tc : Thread nD τ).loc main_arg2)) (ix3 k i o)) (fun o => (m ((c.tc : Thread nD τ).loc main_arg3)) (ix1 o))
          (fun k i o => (m ((c.tc : Thread nD τ).loc main_arg4)) (ix3 k i o)) (fun o => (m ((c.tc : Thread nD τ).loc main_arg5)) (ix1 o))
          (fun k i o => (m ((c.tc : Thread nD τ).loc main_arg6)) (ix3 k i o)) (fun o => (m ((c.tc : Thread nD τ).loc main_arg7)) (ix1 o))
          (fun i o => (m ((c.tc : Thread nD τ).loc main_arg8)) (ix2 i o)) (fun o => (m ((c.tc : Thread nD τ).loc main_arg9)) (ix1 o)) r o := by
  have h1 := funext fun r => funext fun f => layer1_read (m ((c.tc : Thread nD τ).loc main_arg0)) (m ((c.tc : Thread nD τ).loc main_arg1)) (m ((c.tc : Thread nD τ).loc main_arg2)) (m ((c.tc : Thread nD τ).loc main_arg3)) hr r f
  have h2 := funext fun r => funext fun f => layer2_read (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) hr r f
  have h3 := funext fun r => funext fun f => layer3_read (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) hr r f
  rw [val_main_v165_eq (F := Ideal) m c, head165_read]
  unfold Spec.refOut
  rw [h3, h2, h1]

/-- THE REFERENCE'S SECOND RESULT at (r, o) is the specification's `refOut` of the launch arguments. -/
theorem ref_out1 (m : (ℓ : Loc nD τ sig) → Buf (Elt Ideal) ℓ) (c : Dev nD)
    (hr : ∀ i, (((m ((c.tc : Thread nD τ).loc main_arg1)) : IVec S2x160000 32) i).toNat < 10000) (r : Fin 10000) (o : Fin 256) :
    Cert.ReferenceIdeal.ValueP.res_main_v169 (F := Ideal) m c (ix2 r o)
      = Spec.refOut (rowOf (m ((c.tc : Thread nD τ).loc main_arg1)) hr) (colOf (m ((c.tc : Thread nD τ).loc main_arg1)) hr) (disOf (m ((c.tc : Thread nD τ).loc main_arg1))) (fun r f => (m ((c.tc : Thread nD τ).loc main_arg0)) (ix2 r f))
          (fun k i o => (m ((c.tc : Thread nD τ).loc main_arg2)) (ix3 k i o)) (fun o => (m ((c.tc : Thread nD τ).loc main_arg3)) (ix1 o))
          (fun k i o => (m ((c.tc : Thread nD τ).loc main_arg4)) (ix3 k i o)) (fun o => (m ((c.tc : Thread nD τ).loc main_arg5)) (ix1 o))
          (fun k i o => (m ((c.tc : Thread nD τ).loc main_arg6)) (ix3 k i o)) (fun o => (m ((c.tc : Thread nD τ).loc main_arg7)) (ix1 o))
          (fun i o => (m ((c.tc : Thread nD τ).loc main_arg10)) (ix2 i o)) (fun o => (m ((c.tc : Thread nD τ).loc main_arg11)) (ix1 o)) r o := by
  have h1 := funext fun r => funext fun f => layer1_read (m ((c.tc : Thread nD τ).loc main_arg0)) (m ((c.tc : Thread nD τ).loc main_arg1)) (m ((c.tc : Thread nD τ).loc main_arg2)) (m ((c.tc : Thread nD τ).loc main_arg3)) hr r f
  have h2 := funext fun r => funext fun f => layer2_read (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) hr r f
  have h3 := funext fun r => funext fun f => layer3_read (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) hr r f
  rw [val_main_v169_eq (F := Ideal) m c, head169_read]
  unfold Spec.refOut
  rw [h3, h2, h1]

end Cert.Proof.RefSpec

end
-- ==== Proof.RefDis.lean ====
/-
  The reference's per-node factor is a real number.

  The degree of a node is 0 plus one for every edge whose source word is that node, a finite sum of ones, hence a
  real number. The factor is 1/sqrt(degree) where the degree is positive (the square root of a positive real is a
  positive real, and its reciprocal is real) and 0 elsewhere.
-/
import proofs.«130334_j70351564308694_1_alg».proof.Proof.RefW

set_option maxRecDepth 16384

noncomputable section

namespace Cert.Proof.RefSpec

open Cert.ReferenceIdeal Cert.ReferenceIdeal.ReadP Idealize.ShloMosaic Idealize.ShloMosaic.ValueIdx LibERealFinite

/-- A vector scatter-add of ones into zero is, at every entry, a real number (any sizes). -/
theorem vec_count_real {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (c : Fin N)
    (hx : x (ix1 c) = 0) (hu : ∀ e : Fin E, upd (ix1 e) = 1) :
    IsReal (Ideal.hostScatterAdd (LibScatterAdd.vecDims N E wf) x idx upd (ix1 c)) := by
  rw [LibScatterAdd.vec_scatter_add_apply, hx]
  exact isReal_zero.add (isReal_sum _ _ fun e _ => by rw [hu e]; exact isReal_one)

/-- The degree (stage 7) at a node is a real number: zero plus a one for every edge out of the node. -/
theorem deg_real (a1 : IVec S2x160000 32) (c : Fin 10000) : IsReal (val_main_v7 (F := Ideal) a1 (ix1 c)) := by
  have h5 : val_main_v5 (F := Ideal) (ix1 c) = 0 := by
    rw [val_main_v5_apply, val_main_cst_0_apply, Ideal.ofBits_def, Ideal.ofBits_zero_f32]
  have h4 : ∀ e : Fin 160000, val_main_v4 (F := Ideal) (ix1 e) = 1 := fun e => by
    rw [val_main_v4_apply, val_main_cst_apply, Ideal.ofBits_def, one_f32]
  unfold val_main_v7
  simp only [Host.scatterAdd, Ideal.hostScatterAdd_def]
  exact vec_count_real _ (val_main_v5 (F := Ideal)) (val_main_v6 (F := Ideal) a1) (val_main_v4 (F := Ideal)) c h5 h4

/-- The factor is a real number at every node: 1/sqrt of a positive real where the degree is positive, 0 elsewhere. -/
theorem dis_real (a1 : IVec S2x160000 32) (c : Fin 10000) : IsReal (disOf a1 c) := by
  obtain ⟨x, hx⟩ := deg_real a1 c
  unfold disOf
  rw [val_main_v13_apply, val_main_v9_apply, val_main_v12_apply, val_main_v10_apply, val_main_v11_apply, val_main_cst_2_apply,
    val_main_v8_apply, val_main_cst_1_apply, val_main_call0_v1_apply, val_main_call0_v0_apply, val_main_cst_3_apply, hx]
  simp only [Ideal.cmpf_def, Ideal.hostDivf_def, Ideal.hostUnary_sqrt_def, Ideal.ofBits_def, Ideal.ofBits_zero_f32, one_f32]
  by_cases hpos : (0 : ℝ) < x
  · have hc : Ideal.cmp .ogt ((x : ℝ) : EReal) 0 = 1#1 := by
      show BitVec.ofBool (decide ((0 : EReal) < ((x : ℝ) : EReal))) = 1#1
      rw [decide_eq_true (EReal.coe_pos.2 hpos)]; rfl
    rw [hc, select_one, Ideal.sqrt_coe, if_neg (not_lt.2 hpos.le), Ideal.div_coe (Real.sqrt_ne_zero'.2 hpos)]
    exact isReal_one.mul (isReal_coe _)
  · have hc : Ideal.cmp .ogt ((x : ℝ) : EReal) 0 = 0#1 := by
      show BitVec.ofBool (decide ((0 : EReal) < ((x : ℝ) : EReal))) = 0#1
      rw [decide_eq_false (fun h => hpos (EReal.coe_pos.1 h))]; rfl
    rw [hc, select_zero]
    exact isReal_zero

end Cert.Proof.RefSpec

end
-- ==== Proof.LibScatterDense.lean ====
/-
  A sparse weighted sum written as a dense matrix–vector product, and two ways of cutting a dense sum.

  Setting: finitely many edges `e`, each with a source `row e`, a weight `w e`, and a predicate `p e`
  ("the edge lands in the target row under consideration"). Collect the weights per source,
  `M r = ∑ e with p e ∧ row e = r, w e`. Then `∑ r, M r * z r = ∑ e with p e, w e * z (row e)`:
  multiply out each `M r * z r`, exchange the two sums, and note that for a fixed edge exactly one
  `r` (namely `row e`) survives. Over ℝ this is distributivity plus an exchange of finite sums; over
  the extended reals distributivity fails at infinities, so the extended-real form is stated for
  weights and vector entries that are (coercions of) real numbers.

  The file also has: the coercion ℝ → EReal commutes with finite sums; a sum over `Fin (a * b)` cut
  into `a` consecutive blocks of length `b`; a sum over `Fin (a + b)` cut into its first `a` and
  last `b` terms. Nothing here mentions a program.
-/
import Idealize.ShloMosaic.PureOps.Ideal

namespace LibScatterDense

open Finset

/-- The coercion of a finite real sum is the sum of the coercions. -/
theorem ereal_coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

section Fiber

variable {E R : Type*} [Fintype E] [Fintype R] [DecidableEq R]

/-- Weights collected per source, then paired with a vector, are the weights paired with the vector
    at each edge's source (real form). -/
theorem sum_fiber_mul (row : E → R) (p : E → Prop) [DecidablePred p] (w : E → ℝ) (z : R → ℝ) :
    ∑ r, (∑ e with (p e ∧ row e = r), w e) * z r = ∑ e with p e, w e * z (row e) := by
  simp only [Finset.sum_mul, Finset.sum_filter]
  rw [Finset.sum_comm]
  refine Finset.sum_congr rfl fun e _ => ?_
  by_cases h : p e
  · simp [h]
  · simp [h]

/-- The same over the extended reals, for real weights and a real vector. -/
theorem ereal_sum_fiber_mul (row : E → R) (p : E → Prop) [DecidablePred p] (w : E → ℝ) (z : R → ℝ) :
    ∑ r, (∑ e with (p e ∧ row e = r), (w e : EReal)) * (z r : EReal)
      = ∑ e with p e, (w e : EReal) * (z (row e) : EReal) := by
  calc ∑ r, (∑ e with (p e ∧ row e = r), (w e : EReal)) * (z r : EReal)
      = ∑ r, (((∑ e with (p e ∧ row e = r), w e) * z r : ℝ) : EReal) := by
        refine Finset.sum_congr rfl fun r _ => ?_
        rw [EReal.coe_mul, ereal_coe_sum]
    _ = ((∑ r, (∑ e with (p e ∧ row e = r), w e) * z r : ℝ) : EReal) := (ereal_coe_sum _ _).symm
    _ = ((∑ e with p e, w e * z (row e) : ℝ) : EReal) := by rw [sum_fiber_mul]
    _ = ∑ e with p e, (w e : EReal) * (z (row e) : EReal) := by
        rw [ereal_coe_sum]
        exact Finset.sum_congr rfl fun e _ => EReal.coe_mul _ _

end Fiber

/-- A sum over `Fin (a * b)` is the sum over its `a` consecutive blocks of length `b`. -/
theorem sum_blocks {M : Type*} [AddCommMonoid M] (a b : ℕ) (f : Fin (a * b) → M) :
    ∑ r, f r = ∑ k : Fin a, ∑ j : Fin b, f (finProdFinEquiv (k, j)) := by
  rw [← Finset.sum_product', Finset.univ_product_univ]
  exact (Equiv.sum_comp finProdFinEquiv f).symm

/-- A sum over `Fin (a + b)` is the sum of its first `a` terms plus the sum of its last `b`. -/
theorem sum_append {M : Type*} [AddCommMonoid M] (a b : ℕ) (f : Fin (a + b) → M) :
    ∑ r, f r = (∑ i : Fin a, f (Fin.castAdd b i)) + ∑ j : Fin b, f (Fin.natAdd a j) :=
  Fin.sum_univ_add f

end LibScatterDense
-- ==== Proof.Bridge.lean ====
/-
  The dense padded computation and the sparse one give the same result.

  Every quantity is the coercion of a real number, so the sums and products are computed in ℝ; there the dense
  sum over the 10240 sources, with the weights collected per (target, source) pair, is multiplied out and the two
  finite sums exchanged: for a fixed edge exactly one source survives, the edge's own. Hence on a row below 10000
  dense propagation of a padded array that agrees with `z` on the first 10000 rows is the sparse propagation of `z`
  (the matrix's columns from 10000 on are zero: no edge has such a source), the dense layer on such a row is the sparse
  layer, and by induction through the three layers the two results agree.
-/
import proofs.«130334_j70351564308694_1_alg».proof.Proof.Spec
import proofs.«130334_j70351564308694_1_alg».proof.Proof.LibERealFinite
import proofs.«130334_j70351564308694_1_alg».proof.Proof.LibScatterDense

set_option maxRecDepth 16384

noncomputable section

namespace Cert.Proof.Bridge

open Finset LibERealFinite Cert.Proof.Spec

variable (row col : Fin 160000 → Fin 10000)

/-- Row `r` of the first 10000, as a row of the padded axis. -/
def emb (r : Fin 10000) : Fin 10240 := ⟨r.val, by have := r.isLt; omega⟩

/-! ## Real twins -/

/-- The edge weight, in ℝ. -/
def wR (dis' : Fin 10000 → ℝ) (e : Fin 160000) : ℝ := (-(dis' (row e))) * dis' (col e)

/-- The dense padded matrix, in ℝ. -/
def adjR (dis' : Fin 10000 → ℝ) (c' r' : Fin 10240) : ℝ :=
  ∑ e with ((col e).val = c'.val ∧ (row e).val = r'.val), wR row col dis' e

theorem w_coe (dis' : Fin 10000 → ℝ) (e : Fin 160000) :
    w row col (fun c => (dis' c : EReal)) e = (wR row col dis' e : EReal) := by
  unfold w wR
  rw [EReal.coe_mul, EReal.coe_neg]

theorem adj_coe (dis' : Fin 10000 → ℝ) (c' r' : Fin 10240) :
    adj row col (fun c => (dis' c : EReal)) c' r' = (adjR row col dis' c' r' : EReal) := by
  unfold adj adjR
  rw [zero_add, coe_sum]
  exact Finset.sum_congr rfl fun e _ => w_coe row col dis' e

/-- The sum over the padded axis, cut into 10 blocks of 1024. -/
theorem sum_blk {M : Type*} [AddCommMonoid M] (F : Fin 10240 → M) :
    ∑ k : Fin 10, ∑ j : Fin 1024, F (blk k j) = ∑ r' : Fin 10240, F r' := by
  have h := LibScatterDense.sum_blocks (M := M) 10 1024 F
  rw [h]
  refine Finset.sum_congr rfl fun k _ => Finset.sum_congr rfl fun j _ => ?_
  congr 1
  apply Fin.ext
  simp [blk, finProdFinEquiv]
  ring

/-- The real core: the dense sum over the sources is the sparse sum over the edges into the target. -/
theorem dense_eq_sparse_real {C : ℕ} (dis' : Fin 10000 → ℝ) (Z' : Fin 10240 → Fin C → ℝ) (c : Fin 10000) (f : Fin C) :
    ∑ r' : Fin 10240, adjR row col dis' (emb c) r' * Z' r' f
      = ∑ e with col e = c, wR row col dis' e * Z' (emb (row e)) f := by
  unfold adjR
  simp only [Finset.sum_mul, Finset.sum_filter]
  rw [Finset.sum_comm]
  refine Finset.sum_congr rfl fun e _ => ?_
  have key : ∀ r' : Fin 10240, ((row e).val = r'.val) ↔ (emb (row e) = r') := fun r' => by
    rw [Fin.ext_iff]; rfl
  by_cases h : col e = c
  · subst h
    have h' : (col e).val = (emb (col e)).val := rfl
    simp only [h', true_and, key, ite_mul, zero_mul, Finset.sum_ite_eq, Finset.mem_univ, if_true]
  · have h' : ¬ (col e).val = (emb c).val := fun hh => h (Fin.ext hh)
    simp [h, h']

/-! ## Every quantity is real -/

variable (dis : Fin 10000 → EReal)

theorem isReal_two : IsReal (2 : EReal) := by simpa using isReal_natCast 2

theorem isReal_neg_one : IsReal (-1 : EReal) := isReal_one.neg

theorem isReal_w (hdis : ∀ c, IsReal (dis c)) (e : Fin 160000) : IsReal (w row col dis e) :=
  ((hdis _).neg).mul (hdis _)

theorem isReal_adj (hdis : ∀ c, IsReal (dis c)) (c' r' : Fin 10240) : IsReal (adj row col dis c' r') :=
  isReal_zero.add (isReal_sum _ _ fun e _ => isReal_w row col dis hdis e)

theorem isReal_prop {C : ℕ} (hdis : ∀ c, IsReal (dis c)) (z : Fin 10000 → Fin C → EReal) (hz : ∀ r f, IsReal (z r f))
    (c : Fin 10000) (f : Fin C) : IsReal (prop row col dis z c f) :=
  isReal_zero.add (isReal_sum _ _ fun e _ => (isReal_w row col dis hdis e).mul (hz _ _))

theorem isReal_propD {C : ℕ} (hdis : ∀ c, IsReal (dis c)) (Z : Fin 10240 → Fin C → EReal) (hZ : ∀ r f, IsReal (Z r f))
    (c' : Fin 10240) (f : Fin C) : IsReal (propD row col dis Z c' f) :=
  isReal_sum _ _ fun k _ => isReal_sum _ _ fun j _ => (isReal_adj row col dis hdis _ _).mul (hZ _ _)

theorem isReal_pad {C : ℕ} (v : Fin 10000 → Fin C → EReal) (hv : ∀ r f, IsReal (v r f)) (r' : Fin 10240) (f : Fin C) :
    IsReal (pad v r' f) := by
  unfold pad
  split
  · exact hv _ _
  · exact isReal_zero

/-! ## Dense propagation of an extension is sparse propagation -/

/-- On a row below 10000, dense propagation of a real padded array that agrees with `z` on the first 10000 rows is the
    sparse propagation of `z`. -/
theorem propD_pad {C : ℕ} (hdis : ∀ c, IsReal (dis c)) (Z : Fin 10240 → Fin C → EReal) (hZr : ∀ r f, IsReal (Z r f))
    (z : Fin 10000 → Fin C → EReal) (hZ : ∀ r f, Z (emb r) f = z r f) (c : Fin 10000) (f : Fin C) :
    propD row col dis Z (emb c) f = prop row col dis z c f := by
  obtain ⟨dis', hdis'⟩ := exists_real_rep dis hdis
  obtain ⟨Z', hZ'⟩ := exists_real_rep (fun p : Fin 10240 × Fin C => Z p.1 p.2) (fun p => hZr p.1 p.2)
  have hd : dis = fun c => (dis' c : EReal) := funext hdis'
  subst hd
  calc propD row col (fun c => (dis' c : EReal)) Z (emb c) f
      = ∑ r', adj row col (fun c => (dis' c : EReal)) (emb c) r' * Z r' f :=
        sum_blk (fun r' => adj row col (fun c => (dis' c : EReal)) (emb c) r' * Z r' f)
    _ = ∑ r', ((adjR row col dis' (emb c) r' * Z' (r', f) : ℝ) : EReal) := by
        refine Finset.sum_congr rfl fun r' _ => ?_
        rw [adj_coe, EReal.coe_mul, ← hZ' (r', f)]
    _ = ((∑ r', adjR row col dis' (emb c) r' * Z' (r', f) : ℝ) : EReal) := (coe_sum _ _).symm
    _ = ((∑ e with col e = c, wR row col dis' e * Z' (emb (row e), f) : ℝ) : EReal) := by
        rw [dense_eq_sparse_real row col dis' (fun r f => Z' (r, f)) c f]
    _ = ∑ e with col e = c, w row col (fun c => (dis' c : EReal)) e * z (row e) f := by
        rw [coe_sum]
        refine Finset.sum_congr rfl fun e _ => ?_
        rw [EReal.coe_mul, w_coe, ← hZ, hZ' (emb (row e), f)]
    _ = prop row col (fun c => (dis' c : EReal)) z c f := by
        unfold prop
        rw [zero_add]

/-! ## The dense layer of an extension is the sparse layer -/

theorem isReal_catD {C : ℕ} (hdis : ∀ c, IsReal (dis c)) (X : Fin 10240 → Fin C → EReal) (hX : ∀ r f, IsReal (X r f))
    (c' : Fin 10240) (k : Fin 3) (i : Fin C) : IsReal (catD row col dis X c' k i) :=
  match k with
  | 0 => hX _ _
  | 1 => isReal_propD row col dis hdis X hX _ _
  | 2 => (isReal_two.mul (isReal_propD row col dis hdis _ (isReal_propD row col dis hdis X hX) _ _)).add
      (isReal_neg_one.mul (hX _ _))

theorem isReal_layerD {Ci Co : ℕ} (hdis : ∀ c, IsReal (dis c)) (W : Fin 3 → Fin Ci → Fin Co → EReal)
    (hW : ∀ k i o, IsReal (W k i o)) (b : Fin Co → EReal) (hb : ∀ o, IsReal (b o))
    (X : Fin 10240 → Fin Ci → EReal) (hX : ∀ r f, IsReal (X r f)) (c' : Fin 10240) (o : Fin Co) :
    IsReal (layerD row col dis W b X c' o) :=
  ((isReal_sum _ _ fun k _ => isReal_sum _ _ fun i _ =>
    (isReal_catD row col dis hdis X hX c' k i).mul (hW k i o)).add (hb o)).max isReal_zero

/-- On a row below 10000 the dense layer of a real padded array that agrees with `x` on the first 10000 rows is the
    sparse layer of `x`: the sum over (term, column) of the concatenation is the three sums, the two propagations are
    the sparse ones, and `2·p + (−1)·x = 2·p − x`. -/
theorem layerD_pad {Ci Co : ℕ} (hdis : ∀ c, IsReal (dis c)) (W : Fin 3 → Fin Ci → Fin Co → EReal) (b : Fin Co → EReal)
    (X : Fin 10240 → Fin Ci → EReal) (hXr : ∀ r f, IsReal (X r f))
    (x : Fin 10000 → Fin Ci → EReal) (hX : ∀ r f, X (emb r) f = x r f) (c : Fin 10000) (o : Fin Co) :
    layerD row col dis W b X (emb c) o = layer row col dis W b x c o := by
  have h1 : ∀ r f, propD row col dis X (emb r) f = prop row col dis x r f :=
    fun r f => propD_pad row col dis hdis X hXr x hX r f
  have h2 : ∀ r f, propD row col dis (propD row col dis X) (emb r) f = prop row col dis (prop row col dis x) r f :=
    fun r f => propD_pad row col dis hdis _ (isReal_propD row col dis hdis X hXr) _ h1 r f
  unfold layerD layer
  rw [Fin.sum_univ_three]
  have e0 : ∑ i, catD row col dis X (emb c) 0 i * W 0 i o = ∑ i, x c i * W 0 i o :=
    Finset.sum_congr rfl fun i _ => by
      show X (emb c) i * W 0 i o = _
      rw [hX]
  have e1 : ∑ i, catD row col dis X (emb c) 1 i * W 1 i o = ∑ i, prop row col dis x c i * W 1 i o :=
    Finset.sum_congr rfl fun i _ => by
      show propD row col dis X (emb c) i * W 1 i o = _
      rw [h1]
  have e2 : ∑ i, catD row col dis X (emb c) 2 i * W 2 i o
      = ∑ i, ((2 : EReal) * prop row col dis (prop row col dis x) c i - x c i) * W 2 i o :=
    Finset.sum_congr rfl fun i _ => by
      show ((2 : EReal) * propD row col dis (propD row col dis X) (emb c) i + (-1 : EReal) * X (emb c) i) * W 2 i o = _
      rw [h2, hX, neg_one_mul, ← sub_eq_add_neg]
  rw [e0, e1, e2]

/-! ## The two results agree -/

theorem pad_emb {C : ℕ} (v : Fin 10000 → Fin C → EReal) (r : Fin 10000) (f : Fin C) : pad v (emb r) f = v r f := by
  unfold pad
  rw [dif_pos (show (emb r).val < 10000 from r.isLt)]
  rfl

/-- With every input a real number, the dense padded computation and the sparse one give the same result on each of the
    10000 rows: by induction through the three layers the dense array agrees with the sparse one on the rows below 10000. -/
theorem kerOut_eq_refOut (row col : Fin 160000 → Fin 10000) (dis : Fin 10000 → EReal)
    (hdis : ∀ c, LibERealFinite.IsReal (dis c))
    (v : Fin 10000 → Fin 128 → EReal) (hv : ∀ r f, LibERealFinite.IsReal (v r f))
    (W1 : Fin 3 → Fin 128 → Fin 128 → EReal) (hW1 : ∀ k i o, LibERealFinite.IsReal (W1 k i o))
    (b1 : Fin 128 → EReal) (hb1 : ∀ o, LibERealFinite.IsReal (b1 o))
    (W2 : Fin 3 → Fin 128 → Fin 256 → EReal) (hW2 : ∀ k i o, LibERealFinite.IsReal (W2 k i o))
    (b2 : Fin 256 → EReal) (hb2 : ∀ o, LibERealFinite.IsReal (b2 o))
    (W3 : Fin 3 → Fin 256 → Fin 512 → EReal) (hW3 : ∀ k i o, LibERealFinite.IsReal (W3 k i o))
    (b3 : Fin 512 → EReal) (hb3 : ∀ o, LibERealFinite.IsReal (b3 o))
    (Wh : Fin 512 → Fin 256 → EReal) (hWh : ∀ i o, LibERealFinite.IsReal (Wh i o))
    (bh : Fin 256 → EReal) (hbh : ∀ o, LibERealFinite.IsReal (bh o))
    (c : Fin 10000) (o : Fin 256) :
    Spec.kerOut row col dis v W1 b1 W2 b2 W3 b3 Wh bh c o = Spec.refOut row col dis v W1 b1 W2 b2 W3 b3 Wh bh c o := by
  have r0 := isReal_pad v hv
  have a1 : ∀ r f, layerD row col dis W1 b1 (pad v) (emb r) f = layer row col dis W1 b1 v r f :=
    fun r f => layerD_pad row col dis hdis W1 b1 (pad v) r0 v (pad_emb v) r f
  have r1 := isReal_layerD row col dis hdis W1 hW1 b1 hb1 (pad v) r0
  have a2 : ∀ r f, layerD row col dis W2 b2 (layerD row col dis W1 b1 (pad v)) (emb r) f
      = layer row col dis W2 b2 (layer row col dis W1 b1 v) r f :=
    fun r f => layerD_pad row col dis hdis W2 b2 _ r1 _ a1 r f
  have r2 := isReal_layerD row col dis hdis W2 hW2 b2 hb2 _ r1
  have a3 : ∀ r f, layerD row col dis W3 b3 (layerD row col dis W2 b2 (layerD row col dis W1 b1 (pad v))) (emb r) f
      = layer row col dis W3 b3 (layer row col dis W2 b2 (layer row col dis W1 b1 v)) r f :=
    fun r f => layerD_pad row col dis hdis W3 b3 _ r2 _ a2 r f
  unfold kerOut refOut head
  refine congrArg (· + bh o) (Finset.sum_congr rfl fun i _ => ?_)
  rw [← a3 c i]
  rfl

end Cert.Proof.Bridge

end
-- ==== Proof.PreFinite.lean ====
/-
  The finiteness conjuncts of the precondition, read back at the ideal instance.

  For each float argument the precondition tests `|x| < +∞` entry by entry (the absolute value is
  `max x (-x)`, the bound the word 0x7F800000, which denotes +∞) and joins all entries by a reduction with "and"
  starting from 1; the eleven tests are joined by "and" in argument order, the edge-index test last. If the whole
  predicate is 1, each reduction is 1, so each entry passes its test; and an extended real whose absolute value is
  below +∞ is neither infinity, that is, a real number.
-/
import proofs.«130334_j70351564308694_1_alg».proof.Pre_finite_inputs
import proofs.«130334_j70351564308694_1_alg».proof.Proof.LibERealFinite
import Idealize.ShloMosaic.Lib.ReduceAll
import Idealize.ShloMosaic.Lib.ValueIdx
import Idealize.ShloMosaic.PureOps.Ideal

noncomputable section

namespace Cert.Proof.PreFinite

open Idealize.ShloMosaic Cert.Pre_finite_inputs LibERealFinite

variable [Cert.Pre_finite_inputs.Facts]

instance : Subsingleton S_.Idx := ⟨fun a b => funext fun d => d.elim0⟩

/-- The word 0x7F800000 denotes +∞. -/
theorem top_word : Ideal.ofBits .f32 0x7F800000#32 = (⊤ : EReal) := by
  simp [Ideal.ofBits, Ideal.ieee]

/-- An extended real whose `max x (-x)` is below +∞ is a real number. -/
theorem isReal_of_test (x : EReal)
    (h : FloatOps.cmpf (F := Ideal) (φ := .f32) .olt (FloatOps.absf (F := Ideal) (φ := .f32) x) (Ideal.ofBits .f32 0x7F800000#32) = 1#1) :
    IsReal x := by
  rw [top_word] at h
  have h' : max x (-x) < ⊤ := by
    have : BitVec.ofBool (decide (max x (-x) < ⊤)) = 1#1 := h
    cases hd : decide (max x (-x) < ⊤)
    · rw [hd] at this; exact absurd this (by decide)
    · exact of_decide_eq_true hd
  rw [isReal_iff]
  constructor
  · rintro rfl; simp at h'
  · rintro rfl; simp at h'

/-- One argument's test: if the reduction of its entry tests is 1, every entry is a real number. -/
theorem isReal_of_all {s : Shape} {axes : List (Fin s.rank)} (x : FVec Ideal s .f32) (bc : S_.BroadcastsInDim s (![] : Fin 0 → Fin s.rank))
    (hr : s.ReducesTo axes S_) (hu : 0 < S_.numel)
    (h : Host.reduce IntOp.andi (cmpf .olt (Host.absf x) (broadcastInDim s ![] bc (constant (F := Ideal) S_ .f32 0x7F800000#32)))
      (constantI S_ 1 1#1) hr hu ValueIdx.ix0 = 1#1) (i : s.Idx) : IsReal (x i) :=
  isReal_of_test (x i) (Host.reduce_andi_all _ _ hr hu _ h i)

/-- THE PRECONDITION'S FINITENESS CONJUNCTS, READ BACK: if the predicate is all ones at the ideal instance, every entry
    of every float argument is a real number. -/
theorem finite_args (a0 : FVec Ideal S10000x128 .f32) (a1 : IVec S2x160000 32) (a2 : FVec Ideal S3x128x128 .f32)
    (a3 : FVec Ideal S128 .f32) (a4 : FVec Ideal S3x128x256 .f32) (a5 : FVec Ideal S256 .f32) (a6 : FVec Ideal S3x256x512 .f32)
    (a7 : FVec Ideal S512 .f32) (a8 : FVec Ideal S512x256 .f32) (a9 : FVec Ideal S256 .f32) (a10 : FVec Ideal S512x256 .f32)
    (a11 : FVec Ideal S256 .f32)
    (h : fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, IsReal (a11 i)) := by
  have e := congrFun h ValueIdx.ix0
  unfold fn fn_part1 fn_part2 fn_part3 at e
  dsimp only at e
  simp only [andi, IntOp.andi_eq_one] at e
  obtain ⟨⟨⟨⟨⟨⟨⟨⟨⟨⟨⟨h0, h2⟩, h3⟩, h4⟩, h5⟩, h6⟩, h7⟩, h8⟩, h9⟩, h10⟩, h11⟩, -⟩ := e
  exact ⟨isReal_of_all a0 _ _ _ h0, isReal_of_all a2 _ _ _ h2, isReal_of_all a3 _ _ _ h3, isReal_of_all a4 _ _ _ h4,
    isReal_of_all a5 _ _ _ h5, isReal_of_all a6 _ _ _ h6, isReal_of_all a7 _ _ _ h7, isReal_of_all a8 _ _ _ h8,
    isReal_of_all a9 _ _ _ h9, isReal_of_all a10 _ _ _ h10, isReal_of_all a11 _ _ _ h11⟩

end Cert.Proof.PreFinite

end
-- ==== Proof.PreRange.lean ====
/-
  The index range in the precondition, read back.

  The precondition's last conjunct says that every entry of the [2, 160000] edge array is at least 0 and below
  10000, both compared as signed 32-bit integers, the two comparisons joined per entry and all entries joined by
  a reduction with "and" starting from 1. If the whole predicate is 1 then that last reduction is 1, so every
  entry passes both comparisons; and a 32-bit word that is ≥ 0 and < 10000 as a signed integer is a natural
  number below 10000. The conjunct does not depend on which float instance the predicate is read at.
-/
import proofs.«130334_j70351564308694_1_alg».proof.Pre_finite_inputs
import Idealize.ShloMosaic.Lib.ReduceAll
import Idealize.ShloMosaic.Lib.ValueIdx

noncomputable section

namespace Cert.Proof.PreRange

open Idealize.ShloMosaic Cert.Pre_finite_inputs

variable [Cert.Pre_finite_inputs.Facts]

instance : Subsingleton S_.Idx := ⟨fun a b => funext fun d => d.elim0⟩

theorem ofBool_eq_one (b : Bool) : BitVec.ofBool b = 1#1 ↔ b = true := by cases b <;> decide

/-- A word that is ≥ 0 and < n as a signed integer (n below 2^31) is a natural number below n. -/
theorem toNat_lt_of_signed (w : BitVec 32) (n : Nat) (hn : n < 2 ^ 31) (h0 : IntOp.cmpi .sge w (0#32) = 1#1)
    (hlt : IntOp.cmpi .slt w (BitVec.ofNat 32 n) = 1#1) : w.toNat < n := by
  unfold IntOp.cmpi at h0 hlt
  rw [ofBool_eq_one] at h0 hlt
  simp only [BitVec.slt, BitVec.sle, decide_eq_true_eq] at h0 hlt
  have h32 := w.isLt
  unfold BitVec.toInt at h0 hlt
  split at hlt <;> simp at h0 hlt <;> omega

/-- The last part of the predicate: if it is 1, every edge entry is a natural number below 10000. -/
theorem part3_range {F : FTy → Type} [FloatOps F] (edge : IVec S2x160000 32) (p : IVec S_ 1) (x y : FVec F S256 .f32)
    (h : fn_part3 (F := F) edge p x y = fun _ => 1#1) (i : S2x160000.Idx) : (edge i).toNat < 10000 := by
  have e := congrFun h ValueIdx.ix0
  unfold fn_part3 at e
  dsimp only at e
  rw [andi, IntOp.andi_eq_one] at e
  have hall := Host.reduce_andi_all _ _ _ _ _ e.2 i
  rw [andi, IntOp.andi_eq_one] at hall
  exact toNat_lt_of_signed (edge i) 10000 (by decide) hall.1 hall.2

/-- The whole predicate: if it is all ones, every edge entry is a natural number below 10000. -/
theorem edge_range {F : FTy → Type} [FloatOps F] (a0 : FVec F S10000x128 .f32) (a1 : IVec S2x160000 32) (a2 : FVec F S3x128x128 .f32)
    (a3 : FVec F S128 .f32) (a4 : FVec F S3x128x256 .f32) (a5 : FVec F S256 .f32) (a6 : FVec F S3x256x512 .f32) (a7 : FVec F S512 .f32)
    (a8 : FVec F S512x256 .f32) (a9 : FVec F S256 .f32) (a10 : FVec F S512x256 .f32) (a11 : FVec F S256 .f32)
    (h : fn (F := F) a0 a1 a2 a3 a4 a5 a6 a7 a8 a9 a10 a11 = fun _ => 1#1) (i : S2x160000.Idx) : (a1 i).toNat < 10000 := by
  unfold fn fn_part1 fn_part2 at h
  exact part3_range a1 _ _ _ h i

end Cert.Proof.PreRange

end
-- ==== Proof.Alg.lean ====
/-
  The value claim, assembled. The kernel program's run ends with every unscoped buffer at the last valuation; its two
  result buffers there are, entry by entry, the dense specification of the arguments (the ten regions' outputs and the
  host operations between them read at an index). The reference's run ends with its two results at the sparse
  specification of its arguments. The arguments agree, the precondition makes every float entry a real number and every
  edge index a node below 10000, and under those two facts the dense and the sparse specification are equal.
-/
import proofs.«130334_j70351564308694_1_alg».proof.Defs
import proofs.«130334_j70351564308694_1_alg».proof.Proof.KI.Args
import proofs.«130334_j70351564308694_1_alg».proof.Proof.KI.Glue
import proofs.«130334_j70351564308694_1_alg».proof.Proof.KerOut
import proofs.«130334_j70351564308694_1_alg».proof.Proof.RefSpec
import proofs.«130334_j70351564308694_1_alg».proof.Proof.RefDis
import proofs.«130334_j70351564308694_1_alg».proof.Proof.Bridge
import proofs.«130334_j70351564308694_1_alg».proof.Proof.PreFinite
import proofs.«130334_j70351564308694_1_alg».proof.Proof.PreRange

set_option maxRecDepth 16384

noncomputable section

namespace Cert.Proof.Alg

open Idealize.ShloMosaic Idealize.ShloMosaic.TcCoe Idealize.SL.Sem Idealize.ShloMosaic.ValueIdx
open Cert.Proof

/-- The reference's first result at (r, o), with its arguments named. -/
theorem ref_side0 (m' : (ℓ : Loc Cert.ReferenceIdeal.nD Cert.ReferenceIdeal.τ Cert.ReferenceIdeal.sig) → Buf (Elt Ideal) ℓ) (c : Dev Cert.ReferenceIdeal.nD)
    (a0 : FVec Ideal Cert.ReferenceIdeal.S10000x128 .f32) (a1 : IVec Cert.ReferenceIdeal.S2x160000 32) (a2 : FVec Ideal Cert.ReferenceIdeal.S3x128x128 .f32) (a3 : FVec Ideal Cert.ReferenceIdeal.S128 .f32) (a4 : FVec Ideal Cert.ReferenceIdeal.S3x128x256 .f32) (a5 : FVec Ideal Cert.ReferenceIdeal.S256 .f32) (a6 : FVec Ideal Cert.ReferenceIdeal.S3x256x512 .f32) (a7 : FVec Ideal Cert.ReferenceIdeal.S512 .f32) (a8 : FVec Ideal Cert.ReferenceIdeal.S512x256 .f32) (a9 : FVec Ideal Cert.ReferenceIdeal.S256 .f32)
    (e0 : m' ((c.tc : Thread Cert.ReferenceIdeal.nD Cert.ReferenceIdeal.τ).loc Cert.ReferenceIdeal.main_arg0) = a0)
    (e1 : m' ((c.tc : Thread Cert.ReferenceIdeal.nD Cert.ReferenceIdeal.τ).loc Cert.ReferenceIdeal.main_arg1) = a1)
    (e2 : m' ((c.tc : Thread Cert.ReferenceIdeal.nD Cert.ReferenceIdeal.τ).loc Cert.ReferenceIdeal.main_arg2) = a2)
    (e3 : m' ((c.tc : Thread Cert.ReferenceIdeal.nD Cert.ReferenceIdeal.τ).loc Cert.ReferenceIdeal.main_arg3) = a3)
    (e4 : m' ((c.tc : Thread Cert.ReferenceIdeal.nD Cert.ReferenceIdeal.τ).loc Cert.ReferenceIdeal.main_arg4) = a4)
    (e5 : m' ((c.tc : Thread Cert.ReferenceIdeal.nD Cert.ReferenceIdeal.τ).loc Cert.ReferenceIdeal.main_arg5) = a5)
    (e6 : m' ((c.tc : Thread Cert.ReferenceIdeal.nD Cert.ReferenceIdeal.τ).loc Cert.ReferenceIdeal.main_arg6) = a6)
    (e7 : m' ((c.tc : Thread Cert.ReferenceIdeal.nD Cert.ReferenceIdeal.τ).loc Cert.ReferenceIdeal.main_arg7) = a7)
    (e8 : m' ((c.tc : Thread Cert.ReferenceIdeal.nD Cert.ReferenceIdeal.τ).loc Cert.ReferenceIdeal.main_arg8) = a8)
    (e9 : m' ((c.tc : Thread Cert.ReferenceIdeal.nD Cert.ReferenceIdeal.τ).loc Cert.ReferenceIdeal.main_arg9) = a9)
    (hr : ∀ i, (a1 i).toNat < 10000) (r : Fin 10000) (o : Fin 256) :
    Cert.ReferenceIdeal.ValueP.res_main_v165 (F := Ideal) m' c (ix2 r o)
      = Spec.refOut (RefSpec.rowOf a1 hr) (RefSpec.colOf a1 hr) (RefSpec.disOf a1) (fun r f => a0 (ix2 r f))
        (fun k i o => a2 (ix3 k i o)) (fun o => a3 (ix1 o)) (fun k i o => a4 (ix3 k i o)) (fun o => a5 (ix1 o))
        (fun k i o => a6 (ix3 k i o)) (fun o => a7 (ix1 o)) (fun i o => a8 (ix2 i o)) (fun o => a9 (ix1 o)) r o := by
  subst e0 e1 e2 e3 e4 e5 e6 e7 e8 e9
  exact RefSpec.ref_out0 m' c hr r o

/-- The reference's second result at (r, o), with its arguments named. -/
theorem ref_side1 (m' : (ℓ : Loc Cert.ReferenceIdeal.nD Cert.ReferenceIdeal.τ Cert.ReferenceIdeal.sig) → Buf (Elt Ideal) ℓ) (c : Dev Cert.ReferenceIdeal.nD)
    (a0 : FVec Ideal Cert.ReferenceIdeal.S10000x128 .f32) (a1 : IVec Cert.ReferenceIdeal.S2x160000 32) (a2 : FVec Ideal Cert.ReferenceIdeal.S3x128x128 .f32) (a3 : FVec Ideal Cert.ReferenceIdeal.S128 .f32) (a4 : FVec Ideal Cert.ReferenceIdeal.S3x128x256 .f32) (a5 : FVec Ideal Cert.ReferenceIdeal.S256 .f32) (a6 : FVec Ideal Cert.ReferenceIdeal.S3x256x512 .f32) (a7 : FVec Ideal Cert.ReferenceIdeal.S512 .f32) (a10 : FVec Ideal Cert.ReferenceIdeal.S512x256 .f32) (a11 : FVec Ideal Cert.ReferenceIdeal.S256 .f32)
    (e0 : m' ((c.tc : Thread Cert.ReferenceIdeal.nD Cert.ReferenceIdeal.τ).loc Cert.ReferenceIdeal.main_arg0) = a0)
    (e1 : m' ((c.tc : Thread Cert.ReferenceIdeal.nD Cert.ReferenceIdeal.τ).loc Cert.ReferenceIdeal.main_arg1) = a1)
    (e2 : m' ((c.tc : Thread Cert.ReferenceIdeal.nD Cert.ReferenceIdeal.τ).loc Cert.ReferenceIdeal.main_arg2) = a2)
    (e3 : m' ((c.tc : Thread Cert.ReferenceIdeal.nD Cert.ReferenceIdeal.τ).loc Cert.ReferenceIdeal.main_arg3) = a3)
    (e4 : m' ((c.tc : Thread Cert.ReferenceIdeal.nD Cert.ReferenceIdeal.τ).loc Cert.ReferenceIdeal.main_arg4) = a4)
    (e5 : m' ((c.tc : Thread Cert.ReferenceIdeal.nD Cert.ReferenceIdeal.τ).loc Cert.ReferenceIdeal.main_arg5) = a5)
    (e6 : m' ((c.tc : Thread Cert.ReferenceIdeal.nD Cert.ReferenceIdeal.τ).loc Cert.ReferenceIdeal.main_arg6) = a6)
    (e7 : m' ((c.tc : Thread Cert.ReferenceIdeal.nD Cert.ReferenceIdeal.τ).loc Cert.ReferenceIdeal.main_arg7) = a7)
    (e10 : m' ((c.tc : Thread Cert.ReferenceIdeal.nD Cert.ReferenceIdeal.τ).loc Cert.ReferenceIdeal.main_arg10) = a10)
    (e11 : m' ((c.tc : Thread Cert.ReferenceIdeal.nD Cert.ReferenceIdeal.τ).loc Cert.ReferenceIdeal.main_arg11) = a11)
    (hr : ∀ i, (a1 i).toNat < 10000) (r : Fin 10000) (o : Fin 256) :
    Cert.ReferenceIdeal.ValueP.res_main_v169 (F := Ideal) m' c (ix2 r o)
      = Spec.refOut (RefSpec.rowOf a1 hr) (RefSpec.colOf a1 hr) (RefSpec.disOf a1) (fun r f => a0 (ix2 r f))
        (fun k i o => a2 (ix3 k i o)) (fun o => a3 (ix1 o)) (fun k i o => a4 (ix3 k i o)) (fun o => a5 (ix1 o))
        (fun k i o => a6 (ix3 k i o)) (fun o => a7 (ix1 o)) (fun i o => a10 (ix2 i o)) (fun o => a11 (ix1 o)) r o := by
  subst e0 e1 e2 e3 e4 e5 e6 e7 e10 e11
  exact RefSpec.ref_out1 m' c hr r o

open Cert.KernelIdeal Cert.KernelIdeal.Gen Cert.KernelIdeal.Hand in
/-- The two idealized programs, run from memories that agree on the arguments, end with equal results. -/
theorem algebraic [Cert.KernelIdeal.Facts] [Cert.ReferenceIdeal.Facts] [Cert.Pre_finite_inputs.Facts] :
    Cert.algebraic_KernelIdeal_ReferenceIdeal := by
  intro m ρ m' ρ' hpre hagree
  have hr : ∀ (c : Dev nD) i, ((V0 (F := Ideal) m c main_arg1 : IVec S2x160000 32) i).toNat < 10000 :=
    fun c i => PreRange.edge_range _ _ _ _ _ _ _ _ _ _ _ _ (hpre c) i
  have hfin := fun c : Dev nD => PreFinite.finite_args _ _ _ _ _ _ _ _ _ _ _ _ (hpre c)
  have hk := fun c : Dev nD => KerVals.kerVals m (outsT m) c (hr c) (h0_T m c) (h1_T m c) (h2_T m c) (h3_T m c) (h4_T m c)
    (h5_T m c) (h6_T m c) (h7_T m c) (h8_T m c) (h9_T m c)
  refine ⟨fun c => T18 (F := Ideal) m c main_v71, fun c => T18 (F := Ideal) m c main_v72, ?_, ?_⟩
  · exact (θ_run Cert.KernelIdeal.defs _ _).mono (fun r h c =>
      ⟨h c _ (mem_uc main_v71 (by decide)), h c _ (mem_uc main_v72 (by decide)),
       (h c _ (mem_uc main_arg0 (by decide))).trans (T18_main_arg0 m c),
       (h c _ (mem_uc main_arg1 (by decide))).trans (T18_main_arg1 m c),
       (h c _ (mem_uc main_arg2 (by decide))).trans (T18_main_arg2 m c),
       (h c _ (mem_uc main_arg3 (by decide))).trans (T18_main_arg3 m c),
       (h c _ (mem_uc main_arg4 (by decide))).trans (T18_main_arg4 m c),
       (h c _ (mem_uc main_arg5 (by decide))).trans (T18_main_arg5 m c),
       (h c _ (mem_uc main_arg6 (by decide))).trans (T18_main_arg6 m c),
       (h c _ (mem_uc main_arg7 (by decide))).trans (T18_main_arg7 m c),
       (h c _ (mem_uc main_arg8 (by decide))).trans (T18_main_arg8 m c),
       (h c _ (mem_uc main_arg9 (by decide))).trans (T18_main_arg9 m c),
       (h c _ (mem_uc main_arg10 (by decide))).trans (T18_main_arg10 m c),
       (h c _ (mem_uc main_arg11 (by decide))).trans (T18_main_arg11 m c)⟩)
      (run_all (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · funext j
      obtain ⟨r0, o, rfl⟩ : ∃ (r0 : Fin 10000) (o : Fin 256), j = ix2 r0 o := ⟨j 0, j 1, eq_ix2 j⟩
      obtain ⟨f0, f2, f3, f4, f5, f6, f7, f8, f9, f10, f11⟩ := hfin c
      refine (ref_side0 m' c _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hr c) r0 o).trans ?_
      refine (Bridge.kerOut_eq_refOut _ _ _ (RefSpec.dis_real _) _ (fun r f => f0 _) _ (fun k i o => f2 _) _ (fun o => f3 _) _ (fun k i o => f4 _) _ (fun o => f5 _) _ (fun k i o => f6 _) _ (fun o => f7 _) _ (fun i o => f8 _) _ (fun o => f9 _) r0 o).symm.trans ?_
      exact ((hk c).1 r0 o).symm
    · funext j
      obtain ⟨r0, o, rfl⟩ : ∃ (r0 : Fin 10000) (o : Fin 256), j = ix2 r0 o := ⟨j 0, j 1, eq_ix2 j⟩
      obtain ⟨f0, f2, f3, f4, f5, f6, f7, f8, f9, f10, f11⟩ := hfin c
      refine (ref_side1 m' c _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.2.2.1 (hagree c).2.2.2.2.2.2.2.2.2.2.2 (hr c) r0 o).trans ?_
      refine (Bridge.kerOut_eq_refOut _ _ _ (RefSpec.dis_real _) _ (fun r f => f0 _) _ (fun k i o => f2 _) _ (fun o => f3 _) _ (fun k i o => f4 _) _ (fun o => f5 _) _ (fun k i o => f6 _) _ (fun o => f7 _) _ (fun i o => f10 _) _ (fun o => f11 _) r0 o).symm.trans ?_
      exact ((hk c).2 r0 o).symm

end Cert.Proof.Alg

end
-- ==== Proof.LibChebDense.lean ====
/-
  Sparse propagation against a padded dense adjacency matrix: the real-number core of a graph-convolution equivalence.

  Nodes `V`, a larger padded node set `V'` with an injective `emb : V → V'`, edges `E` with source `row`, target
  `col` and weight `w`, feature columns `C`.
  * Sparse propagation: `prop z c f = ∑ over edges with col e = c of w e * z (row e) f`.
  * The dense matrix collects the weights at the embedded pairs, `adj c' r' = ∑ over edges with (emb (col e), emb (row e))
    = (c', r') of w e` (so its rows and columns outside the image of `emb` are zero), and dense propagation is the
    matrix product `propD Z c' f = ∑ r', adj c' r' * Z r' f`.
  * `propD_emb`: on embedded rows dense propagation of ANY padded array `Z` that extends `z` is the sparse
    propagation of `z` — whatever `Z` holds on the padding rows, because the matrix's padding columns are zero.
  * One Chebyshev layer of order 3: sparse, `T₀ = x, T₁ = prop x, T₂ = 2·prop T₁ − x`, three products with the weight
    slabs `W 0, W 1, W 2` summed, bias, rectifier; dense, ONE product of the side-by-side concatenation
    `[X, propD X, 2·propD (propD X) + (−1)·X]` with the stacked slabs, bias, optional rectifier. `layerD_emb`: on embedded
    rows the dense layer of an extension is the sparse layer.
  Everything is over ℝ; a statement over the extended reals reaches it once every entry is known to be real.
-/
import Idealize.ShloMosaic.PureOps.Ideal

namespace LibChebDense

open Finset

variable {V V' E C : Type*} [Fintype V] [Fintype V'] [Fintype E] [DecidableEq V] [DecidableEq V']
variable (emb : V → V') (row col : E → V) (w : E → ℝ)

/-- Sparse propagation: the weighted source rows summed into the target row. -/
def prop (z : V → C → ℝ) (c : V) (f : C) : ℝ := ∑ e with col e = c, w e * z (row e) f

/-- The dense matrix of the weights at the embedded (target, source) pairs. -/
def adj (c' r' : V') : ℝ := ∑ e with (emb (col e) = c' ∧ emb (row e) = r'), w e

/-- Dense propagation: the matrix product with the padded array. -/
def propD (Z : V' → C → ℝ) (c' : V') (f : C) : ℝ := ∑ r', adj emb row col w c' r' * Z r' f

variable {emb}

/-- On embedded rows, dense propagation of an extension of `z` is the sparse propagation of `z`. -/
theorem propD_emb (hemb : Function.Injective emb) (z : V → C → ℝ) (Z : V' → C → ℝ) (hZ : ∀ r f, Z (emb r) f = z r f)
    (c : V) (f : C) : propD emb row col w Z (emb c) f = prop row col w z c f := by
  unfold propD adj prop
  simp only [Finset.sum_mul, Finset.sum_filter]
  rw [Finset.sum_comm]
  refine Finset.sum_congr rfl fun e _ => ?_
  by_cases h : col e = c
  · have h' : emb (col e) = emb c := congrArg emb h
    simp [h, hZ]
  · have h' : emb (col e) ≠ emb c := fun hh => h (hemb hh)
    simp [h, h']

section Layer

variable {O : Type*} [Fintype C]

/-- The sparse layer before the rectifier: the three Chebyshev terms against their weight slabs, plus the bias. -/
def layerS (W : Fin 3 → C → O → ℝ) (b : O → ℝ) (x : V → C → ℝ) (c : V) (o : O) : ℝ :=
  (∑ i, x c i * W 0 i o) + (∑ i, prop row col w x c i * W 1 i o)
    + (∑ i, (2 * prop row col w (prop row col w x) c i - x c i) * W 2 i o) + b o

/-- The side-by-side concatenation of the three Chebyshev terms, dense form, indexed by (term, column). -/
def catD (X : V' → C → ℝ) (c' : V') (j : Fin 3 × C) : ℝ :=
  match j.1 with
  | 0 => X c' j.2
  | 1 => propD emb row col w X c' j.2
  | 2 => 2 * propD emb row col w (propD emb row col w X) c' j.2 + (-1) * X c' j.2

theorem catD_zero (X : V' → C → ℝ) (c' : V') (i : C) : catD (emb := emb) row col w X c' (0, i) = X c' i := rfl
theorem catD_one (X : V' → C → ℝ) (c' : V') (i : C) :
    catD (emb := emb) row col w X c' (1, i) = propD emb row col w X c' i := rfl
theorem catD_two (X : V' → C → ℝ) (c' : V') (i : C) :
    catD (emb := emb) row col w X c' (2, i) = 2 * propD emb row col w (propD emb row col w X) c' i + (-1) * X c' i := rfl

/-- The dense layer before the rectifier: one product of the concatenation with the stacked slabs, plus the bias. -/
def layerD (W : Fin 3 → C → O → ℝ) (b : O → ℝ) (X : V' → C → ℝ) (c' : V') (o : O) : ℝ :=
  (∑ j : Fin 3 × C, catD (emb := emb) row col w X c' j * W j.1 j.2 o) + b o

/-- On embedded rows the dense layer of an extension is the sparse layer (before the rectifier; the rectifier is the same
    function applied to both). -/
theorem layerD_emb (hemb : Function.Injective emb) (W : Fin 3 → C → O → ℝ) (b : O → ℝ) (x : V → C → ℝ) (X : V' → C → ℝ)
    (hX : ∀ r f, X (emb r) f = x r f) (c : V) (o : O) :
    layerD (emb := emb) row col w W b X (emb c) o = layerS row col w W b x c o := by
  have h1 : ∀ r f, propD emb row col w X (emb r) f = prop row col w x r f := fun r f => propD_emb row col w hemb x X hX r f
  have h2 : ∀ r f, propD emb row col w (propD emb row col w X) (emb r) f = prop row col w (prop row col w x) r f :=
    fun r f => propD_emb row col w hemb (prop row col w x) (propD emb row col w X) h1 r f
  unfold layerD layerS
  rw [Fintype.sum_prod_type, Fin.sum_univ_three]
  have e0 : ∑ i, catD (emb := emb) row col w X (emb c) (0, i) * W 0 i o = ∑ i, x c i * W 0 i o :=
    Finset.sum_congr rfl fun i _ => by rw [catD_zero, hX]
  have e1 : ∑ i, catD (emb := emb) row col w X (emb c) (1, i) * W 1 i o = ∑ i, prop row col w x c i * W 1 i o :=
    Finset.sum_congr rfl fun i _ => by rw [catD_one, h1]
  have e2 : ∑ i, catD (emb := emb) row col w X (emb c) (2, i) * W 2 i o
      = ∑ i, (2 * prop row col w (prop row col w x) c i - x c i) * W 2 i o :=
    Finset.sum_congr rfl fun i _ => by rw [catD_two, h2, hX]; ring
  rw [e0, e1, e2]

end Layer

end LibChebDense
-- ==== Proof.lean ====
/-
  Three stacked Chebyshev graph-convolution layers (order 3, rectified) and two linear heads, over 10000 nodes and
  160000 weighted edges. With deg c = #{e : row e = c}, dis c = 1/sqrt(deg c) where deg c > 0 and 0 elsewhere, and
  w e = -(dis (row e)) * dis (col e), the propagation is  prop z (c, f) = ∑ over edges e with col e = c of w e * z (row e, f),
  and a layer is  relu (x·W₀ + prop x·W₁ + (2·prop (prop x) − x)·W₂ + b).

  The reference computes prop edge by edge (gather the source rows, scale, segment-sum into the target rows). The kernel
  first collects the weights into a dense matrix M (c, r) = ∑ over edges with (col e, row e) = (c, r) of w e, padded
  with zero rows and columns from 10000 to 10240, and then every prop is the matrix product M·Z, accumulated over ten
  column blocks of 1024; the three terms of a layer are one product of the side-by-side concatenation [x, prop x,
  2·prop (prop x) − x] with the three weight slabs stacked, and the two heads one product with [Wmu, Wstd].
  The two agree entry by entry over the extended reals when every quantity is a real number and every edge index lies
  in [0, 10000):  ∑ r, M (c, r) · Z (r, f) = ∑ over edges with col e = c of w e · Z (row e, f)  is distributivity plus an
  exchange of finite sums (Proof/LibScatterDense.lean), a blocked sum is the whole sum, and the padded rows never reach a
  row below 10000 because M's columns from 10000 on are zero. The index range is part of the precondition: an edge with
  row e = 10000 is clamped to row 9999 by the reference's gather but lands in a padding column of M, and the two programs
  then differ.

  How the certificate is assembled. The programs' stated side conditions are the generated instances. The reference is a
  straight line of host operations: its run (Proof/RefRun.lean) gives its frame (Proof/RefFrame.lean) and its two results,
  which Proof/RefSpec.lean reads stage by stage as the sparse specification (Proof/Spec.lean) of the arguments. The kernel
  program is eighteen items — host stretches and ten kernel regions; for each region Proof/KI/RegK.lean (and, for the
  word-level program, the same text in Proof/K/) has the proof data — what every window's staging buffer holds after the
  body at each grid point; for the six propagation regions also the accumulator carried from point to point — and the
  body's triple at every point; Proof/KI/Run.lean composes the items into one run that ends with every unscoped buffer at
  a named valuation, from which the frames (Proof/FramesKI.lean, Proof/FramesK.lean) read the arguments back unchanged.
  Proof/KI/ValK.lean reads what each region leaves in its output array (a block-accumulated matrix product; twice it minus
  the addend; a product plus bias, rectified), Proof/Ker*.lean read the host operations between the regions, and together
  they give the kernel program's results as the dense specification of the arguments. Proof/Bridge.lean proves the dense
  and the sparse specification equal for real-valued data; the precondition, read back (Proof/PreFinite.lean,
  Proof/PreRange.lean), supplies real-valued inputs and in-range edges; Proof/Alg.lean puts the value claim together.
  The idealization rewrote nothing, so `preserves` is `True`.
-/
import proofs.«130334_j70351564308694_1_alg».proof.Defs
import proofs.«130334_j70351564308694_1_alg».proof.Proof.Gen.Kernel
import proofs.«130334_j70351564308694_1_alg».proof.Proof.Gen.KernelIdeal
import proofs.«130334_j70351564308694_1_alg».proof.Proof.Gen.ReferenceIdeal
import proofs.«130334_j70351564308694_1_alg».proof.Proof.Gen.Pre_finite_inputs
import proofs.«130334_j70351564308694_1_alg».proof.Proof.RefFrame
import proofs.«130334_j70351564308694_1_alg».proof.Proof.FramesK
import proofs.«130334_j70351564308694_1_alg».proof.Proof.FramesKI
import proofs.«130334_j70351564308694_1_alg».proof.Proof.Alg
import proofs.«130334_j70351564308694_1_alg».proof.Proof.LibSegmentSum
import proofs.«130334_j70351564308694_1_alg».proof.Proof.LibChebDense
import Idealize.ShloMosaic.Adequacy
import Idealize.ShloMosaic.Init

noncomputable section

namespace Cert.Proof

open Idealize.ShloMosaic Idealize.SL.Sem

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    @FramesK.frame Cert.Kernel.Gen.facts Cert.Pre_finite_inputs.Gen.facts,
    @FramesKI.frame Cert.KernelIdeal.Gen.facts Cert.Pre_finite_inputs.Gen.facts,
    @RefFrame.frame_ri Cert.ReferenceIdeal.Gen.facts Cert.Pre_finite_inputs.Gen.facts,
    preserves,
    @Alg.algebraic Cert.KernelIdeal.Gen.facts Cert.ReferenceIdeal.Gen.facts Cert.Pre_finite_inputs.Gen.facts⟩

end Cert.Proof

end
